-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v315)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v315) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v411) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S10000x256 : Shape := ⟨2, ![10000, 256]⟩
abbrev S400000x256 : Shape := ⟨2, ![400000, 256]⟩
abbrev S150000x256 : Shape := ⟨2, ![150000, 256]⟩
abbrev S100000x256 : Shape := ⟨2, ![100000, 256]⟩
abbrev S3x4x256x256 : Shape := ⟨4, ![3, 4, 256, 256]⟩
abbrev S3x4x256 : Shape := ⟨3, ![3, 4, 256]⟩
abbrev S2x400000 : Shape := ⟨2, ![2, 400000]⟩
abbrev S2x100000 : Shape := ⟨2, ![2, 100000]⟩
abbrev S150000 : Shape := ⟨1, ![150000]⟩
abbrev S50000 : Shape := ⟨1, ![50000]⟩
abbrev S10000 : Shape := ⟨1, ![10000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S400000x256 : S_.BroadcastsInDim S400000x256 (![] : Fin 0 → Fin S400000x256.rank)
  reducesTo_S400000x256_S_d0_1 : S400000x256.ReducesTo [0, 1] S_
  bcast_S_S150000x256 : S_.BroadcastsInDim S150000x256 (![] : Fin 0 → Fin S150000x256.rank)
  reducesTo_S150000x256_S_d0_1 : S150000x256.ReducesTo [0, 1] S_
  bcast_S_S100000x256 : S_.BroadcastsInDim S100000x256 (![] : Fin 0 → Fin S100000x256.rank)
  reducesTo_S100000x256_S_d0_1 : S100000x256.ReducesTo [0, 1] S_
  bcast_S_S3x4x256x256 : S_.BroadcastsInDim S3x4x256x256 (![] : Fin 0 → Fin S3x4x256x256.rank)
  reducesTo_S3x4x256x256_S_d0_1_2_3 : S3x4x256x256.ReducesTo [0, 1, 2, 3] S_
  bcast_S_S3x4x256 : S_.BroadcastsInDim S3x4x256 (![] : Fin 0 → Fin S3x4x256.rank)
  reducesTo_S3x4x256_S_d0_1_2 : S3x4x256.ReducesTo [0, 1, 2] S_

variable [Facts]

def fn_part2 {F : FTy → Type} [FloatOps F] (main_arg7 : FVec F S3x4x256 .f32) (main_arg8 : FVec F S3x4x256x256 .f32) (main_arg9 : FVec F S3x4x256 .f32) (main_v33 : IVec S_ 1) : IVec S_ 1 :=
  let main_v34 : FVec F S3x4x256 .f32 := Host.absf main_arg7
  let main_cst_12 : FVec F S_ .f32 := constant S_ .f32 0x7F800000#32
  let main_v35 : FVec F S3x4x256 .f32 := broadcastInDim S3x4x256 ![] bcast_S_S3x4x256 main_cst_12
  let main_v36 : IVec S3x4x256 1 := cmpf .olt main_v34 main_v35
  let main_c_13 : IVec S_ 1 := constantI S_ 1 1#1
  let main_v37 : IVec S_ 1 := (fun x v => Host.reduce IntOp.andi x v reducesTo_S3x4x256_S_d0_1_2 h_S_) main_v36 main_c_13
  let main_v38 : IVec S_ 1 := andi main_v33 main_v37
  let main_v39 : FVec F S3x4x256x256 .f32 := Host.absf main_arg8
  let main_cst_14 : FVec F S_ .f32 := constant S_ .f32 0x7F800000#32
  let main_v40 : FVec F S3x4x256x256 .f32 := broadcastInDim S3x4x256x256 ![] bcast_S_S3x4x256x256 main_cst_14
  let main_v41 : IVec S3x4x256x256 1 := cmpf .olt main_v39 main_v40
  let main_c_15 : IVec S_ 1 := constantI S_ 1 1#1
  let main_v42 : IVec S_ 1 := (fun x v => Host.reduce IntOp.andi x v reducesTo_S3x4x256x256_S_d0_1_2_3 h_S_) main_v41 main_c_15
  let main_v43 : IVec S_ 1 := andi main_v38 main_v42
  let main_v44 : FVec F S3x4x256 .f32 := Host.absf main_arg9
  let main_cst_16 : FVec F S_ .f32 := constant S_ .f32 0x7F800000#32
  let main_v45 : FVec F S3x4x256 .f32 := broadcastInDim S3x4x256 ![] bcast_S_S3x4x256 main_cst_16
  let main_v46 : IVec S3x4x256 1 := cmpf .olt main_v44 main_v45
  let main_c_17 : IVec S_ 1 := constantI S_ 1 1#1
  let main_v47 : IVec S_ 1 := (fun x v => Host.reduce IntOp.andi x v reducesTo_S3x4x256_S_d0_1_2 h_S_) main_v46 main_c_17
  let main_v48 : IVec S_ 1 := andi main_v43 main_v47
  main_v48

def fn_part1 {F : FTy → Type} [FloatOps F] (main_arg4 : FVec F S150000x256 .f32) (main_arg5 : FVec F S100000x256 .f32) (main_arg6 : FVec F S3x4x256x256 .f32) (main_arg7 : FVec F S3x4x256 .f32) (main_arg8 : FVec F S3x4x256x256 .f32) (main_arg9 : FVec F S3x4x256 .f32) (main_v13 : IVec S_ 1) (main_v16 : IVec S150000x256 1) : IVec S_ 1 :=
  let main_c_5 : IVec S_ 1 := constantI S_ 1 1#1
  let main_v17 : IVec S_ 1 := (fun x v => Host.reduce IntOp.andi x v reducesTo_S150000x256_S_d0_1 h_S_) main_v16 main_c_5
  let main_v18 : IVec S_ 1 := andi main_v13 main_v17
  let main_v19 : FVec F S150000x256 .f32 := Host.absf main_arg4
  let main_cst_6 : FVec F S_ .f32 := constant S_ .f32 0x7F800000#32
  let main_v20 : FVec F S150000x256 .f32 := broadcastInDim S150000x256 ![] bcast_S_S150000x256 main_cst_6
  let main_v21 : IVec S150000x256 1 := cmpf .olt main_v19 main_v20
  let main_c_7 : IVec S_ 1 := constantI S_ 1 1#1
  let main_v22 : IVec S_ 1 := (fun x v => Host.reduce IntOp.andi x v reducesTo_S150000x256_S_d0_1 h_S_) main_v21 main_c_7
  let main_v23 : IVec S_ 1 := andi main_v18 main_v22
  let main_v24 : FVec F S100000x256 .f32 := Host.absf main_arg5
  let main_cst_8 : FVec F S_ .f32 := constant S_ .f32 0x7F800000#32
  let main_v25 : FVec F S100000x256 .f32 := broadcastInDim S100000x256 ![] bcast_S_S100000x256 main_cst_8
  let main_v26 : IVec S100000x256 1 := cmpf .olt main_v24 main_v25
  let main_c_9 : IVec S_ 1 := constantI S_ 1 1#1
  let main_v27 : IVec S_ 1 := (fun x v => Host.reduce IntOp.andi x v reducesTo_S100000x256_S_d0_1 h_S_) main_v26 main_c_9
  let main_v28 : IVec S_ 1 := andi main_v23 main_v27
  let main_v29 : FVec F S3x4x256x256 .f32 := Host.absf main_arg6
  let main_cst_10 : FVec F S_ .f32 := constant S_ .f32 0x7F800000#32
  let main_v30 : FVec F S3x4x256x256 .f32 := broadcastInDim S3x4x256x256 ![] bcast_S_S3x4x256x256 main_cst_10
  let main_v31 : IVec S3x4x256x256 1 := cmpf .olt main_v29 main_v30
  let main_c_11 : IVec S_ 1 := constantI S_ 1 1#1
  let main_v32 : IVec S_ 1 := (fun x v => Host.reduce IntOp.andi x v reducesTo_S3x4x256x256_S_d0_1_2_3 h_S_) main_v31 main_c_11
  let main_v33 : IVec S_ 1 := andi main_v28 main_v32
  fn_part2 (F := F) main_arg7 main_arg8 main_arg9 main_v33

def fn {F : FTy → Type} [FloatOps F] (main_arg0 : FVec F S50000x256 .f32) (main_arg1 : FVec F S10000x256 .f32) (main_arg2 : FVec F S400000x256 .f32) (main_arg3 : FVec F S150000x256 .f32) (main_arg4 : FVec F S150000x256 .f32) (main_arg5 : FVec F S100000x256 .f32) (main_arg6 : FVec F S3x4x256x256 .f32) (main_arg7 : FVec F S3x4x256 .f32) (main_arg8 : FVec F S3x4x256x256 .f32) (main_arg9 : FVec F S3x4x256 .f32) (main_arg10 : IVec S2x400000 32) (main_arg11 : IVec S2x100000 32) (main_arg12 : IVec S150000 32) (main_arg13 : IVec S150000 32) (main_arg14 : IVec S150000 32) (main_arg15 : IVec S150000 32) (main_arg16 : IVec S50000 32) (main_arg17 : IVec S10000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S400000x256 .f32 := Host.absf main_arg2
  let main_cst_2 : FVec F S_ .f32 := constant S_ .f32 0x7F800000#32
  let main_v10 : FVec F S400000x256 .f32 := broadcastInDim S400000x256 ![] bcast_S_S400000x256 main_cst_2
  let main_v11 : IVec S400000x256 1 := cmpf .olt main_v9 main_v10
  let main_c_3 : IVec S_ 1 := constantI S_ 1 1#1
  let main_v12 : IVec S_ 1 := (fun x v => Host.reduce IntOp.andi x v reducesTo_S400000x256_S_d0_1 h_S_) main_v11 main_c_3
  let main_v13 : IVec S_ 1 := andi main_v8 main_v12
  let main_v14 : FVec F S150000x256 .f32 := Host.absf main_arg3
  let main_cst_4 : FVec F S_ .f32 := constant S_ .f32 0x7F800000#32
  let main_v15 : FVec F S150000x256 .f32 := broadcastInDim S150000x256 ![] bcast_S_S150000x256 main_cst_4
  let main_v16 : IVec S150000x256 1 := cmpf .olt main_v14 main_v15
  fn_part1 (F := F) main_arg4 main_arg5 main_arg6 main_arg7 main_arg8 main_arg9 main_v13 main_v16
-- ==== Kernel.lean ====
abbrev S50000x256 : Shape := ⟨2, ![50000, 256]⟩
abbrev S10000x256 : Shape := ⟨2, ![10000, 256]⟩
abbrev S400000x256 : Shape := ⟨2, ![400000, 256]⟩
abbrev S150000x256 : Shape := ⟨2, ![150000, 256]⟩
abbrev S100000x256 : Shape := ⟨2, ![100000, 256]⟩
abbrev S3x4x256x256 : Shape := ⟨4, ![3, 4, 256, 256]⟩
abbrev S3x4x256 : Shape := ⟨3, ![3, 4, 256]⟩
abbrev S2x400000 : Shape := ⟨2, ![2, 400000]⟩
abbrev S2x100000 : Shape := ⟨2, ![2, 100000]⟩
abbrev S150000 : Shape := ⟨1, ![150000]⟩
abbrev S50000 : Shape := ⟨1, ![50000]⟩
abbrev S10000 : Shape := ⟨1, ![10000]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S150000x1 : Shape := ⟨2, ![150000, 1]⟩
abbrev S1x100000 : Shape := ⟨2, ![1, 100000]⟩
abbrev S100000 : Shape := ⟨1, ![100000]⟩
abbrev S100000x1 : Shape := ⟨2, ![100000, 1]⟩
abbrev S1x1x256x256 : Shape := ⟨4, ![1, 1, 256, 256]⟩
abbrev S256x256 : Shape := ⟨2, ![256, 256]⟩
abbrev S1x1x256 : Shape := ⟨3, ![1, 1, 256]⟩
abbrev S256 : Shape := ⟨1, ![256]⟩
abbrev S2000x256 : Shape := ⟨2, ![2000, 256]⟩
abbrev S1x256 : Shape := ⟨2, ![1, 256]⟩
abbrev S500x256 : Shape := ⟨2, ![500, 256]⟩
abbrev S50000x1 : Shape := ⟨2, ![50000, 1]⟩
abbrev S10000x1 : Shape := ⟨2, ![10000, 1]⟩
abbrev S500x768 : Shape := ⟨2, ![500, 768]⟩

abbrev nBuf : Space → Nat
  | .hbm => 400
  | .vmem => 96
  | .smem => 0
  | _ => 0

abbrev hbmTy0_0 (i : Nat) : BufTy := match i % 128 with
  | 0 => ⟨S50000x256, .f32⟩
  | 1 => ⟨S10000x256, .f32⟩
  | 2 => ⟨S400000x256, .f32⟩
  | 3 => ⟨S150000x256, .f32⟩
  | 4 => ⟨S150000x256, .f32⟩
  | 5 => ⟨S100000x256, .f32⟩
  | 6 => ⟨S3x4x256x256, .f32⟩
  | 7 => ⟨S3x4x256, .f32⟩
  | 8 => ⟨S3x4x256x256, .f32⟩
  | 9 => ⟨S3x4x256, .f32⟩
  | 10 => ⟨S2x400000, .i32⟩
  | 11 => ⟨S2x100000, .i32⟩
  | 12 => ⟨S150000, .i32⟩
  | 13 => ⟨S150000, .i32⟩
  | 14 => ⟨S150000, .i32⟩
  | 15 => ⟨S150000, .i32⟩
  | 16 => ⟨S50000, .i32⟩
  | 17 => ⟨S10000, .i32⟩
  | 18 => ⟨S1x400000, .i32⟩
  | 19 => ⟨S400000, .i32⟩
  | 20 => ⟨S1x400000, .i32⟩
  | 21 => ⟨S400000, .i32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S400000x256, .f32⟩
  | 31 => ⟨S400000x256, .f32⟩
  | 32 => ⟨S_, .f32⟩
  | 33 => ⟨S400000x256, .f32⟩
  | 34 => ⟨S400000x256, .f32⟩
  | 35 => ⟨S_, .f32⟩
  | 36 => ⟨S50000x256, .f32⟩
  | 37 => ⟨S400000x1, .i32⟩
  | 38 => ⟨S50000x256, .f32⟩
  | 39 => ⟨S50000x256, .f32⟩
  | 40 => ⟨S_, .i32⟩
  | 41 => ⟨S150000, .i32⟩
  | 42 => ⟨S150000, .i1⟩
  | 43 => ⟨S_, .i32⟩
  | 44 => ⟨S150000, .i32⟩
  | 45 => ⟨S150000, .i32⟩
  | 46 => ⟨S150000, .i32⟩
  | 47 => ⟨S150000x1, .i32⟩
  | 48 => ⟨S150000x256, .f32⟩
  | 49 => ⟨S150000x256, .f32⟩
  | 50 => ⟨S_, .f32⟩
  | 51 => ⟨S150000x256, .f32⟩
  | 52 => ⟨S150000x256, .f32⟩
  | 53 => ⟨S_, .f32⟩
  | 54 => ⟨S50000x256, .f32⟩
  | 55 => ⟨S150000x1, .i32⟩
  | 56 => ⟨S50000x256, .f32⟩
  | 57 => ⟨S50000x256, .f32⟩
  | 58 => ⟨S_, .i32⟩
  | 59 => ⟨S150000, .i32⟩
  | 60 => ⟨S150000, .i1⟩
  | 61 => ⟨S_, .i32⟩
  | 62 => ⟨S150000, .i32⟩
  | 63 => ⟨S150000, .i32⟩
  | 64 => ⟨S150000, .i32⟩
  | 65 => ⟨S150000x1, .i32⟩
  | 66 => ⟨S150000x256, .f32⟩
  | 67 => ⟨S150000x256, .f32⟩
  | 68 => ⟨S_, .f32⟩
  | 69 => ⟨S150000x256, .f32⟩
  | 70 => ⟨S150000x256, .f32⟩
  | 71 => ⟨S_, .f32⟩
  | 72 => ⟨S10000x256, .f32⟩
  | 73 => ⟨S150000x1, .i32⟩
  | 74 => ⟨S10000x256, .f32⟩
  | 75 => ⟨S10000x256, .f32⟩
  | 76 => ⟨S1x100000, .i32⟩
  | 77 => ⟨S100000, .i32⟩
  | 78 => ⟨S1x100000, .i32⟩
  | 79 => ⟨S100000, .i32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S100000x256, .f32⟩
  | 89 => ⟨S100000x256, .f32⟩
  | 90 => ⟨S_, .f32⟩
  | 91 => ⟨S100000x256, .f32⟩
  | 92 => ⟨S100000x256, .f32⟩
  | 93 => ⟨S_, .f32⟩
  | 94 => ⟨S10000x256, .f32⟩
  | 95 => ⟨S100000x1, .i32⟩
  | 96 => ⟨S10000x256, .f32⟩
  | 97 => ⟨S10000x256, .f32⟩
  | 98 => ⟨S1x1x256x256, .f32⟩
  | 99 => ⟨S256x256, .f32⟩
  | 100 => ⟨S1x1x256, .f32⟩
  | 101 => ⟨S256, .f32⟩
  | 102 => ⟨S1x1x256x256, .f32⟩
  | 103 => ⟨S256x256, .f32⟩
  | 104 => ⟨S1x1x256, .f32⟩
  | 105 => ⟨S256, .f32⟩
  | 106 => ⟨S50000x256, .f32⟩
  | 107 => ⟨S1x1x256x256, .f32⟩
  | 108 => ⟨S256x256, .f32⟩
  | 109 => ⟨S1x1x256, .f32⟩
  | 110 => ⟨S256, .f32⟩
  | 111 => ⟨S1x1x256x256, .f32⟩
  | 112 => ⟨S256x256, .f32⟩
  | 113 => ⟨S1x1x256, .f32⟩
  | 114 => ⟨S256, .f32⟩
  | 115 => ⟨S50000x256, .f32⟩
  | 116 => ⟨S1x1x256x256, .f32⟩
  | 117 => ⟨S256x256, .f32⟩
  | 118 => ⟨S1x1x256, .f32⟩
  | 119 => ⟨S256, .f32⟩
  | 120 => ⟨S1x1x256x256, .f32⟩
  | 121 => ⟨S256x256, .f32⟩
  | 122 => ⟨S1x1x256, .f32⟩
  | 123 => ⟨S256, .f32⟩
  | 124 => ⟨S10000x256, .f32⟩
  | 125 => ⟨S1x1x256x256, .f32⟩
  | 126 => ⟨S256x256, .f32⟩
  | 127 => ⟨S1x1x256, .f32⟩
  | _ => ⟨S50000x256, .f32⟩

abbrev hbmTy0_1 (i : Nat) : BufTy := match i % 128 with
  | 0 => ⟨S256, .f32⟩
  | 1 => ⟨S1x1x256x256, .f32⟩
  | 2 => ⟨S256x256, .f32⟩
  | 3 => ⟨S1x1x256, .f32⟩
  | 4 => ⟨S256, .f32⟩
  | 5 => ⟨S10000x256, .f32⟩
  | 6 => ⟨S50000x256, .f32⟩
  | 7 => ⟨S10000x256, .f32⟩
  | 8 => ⟨S_, .f32⟩
  | 9 => ⟨S500x256, .f32⟩
  | 10 => ⟨S50000x1, .i32⟩
  | 11 => ⟨S500x256, .f32⟩
  | 12 => ⟨S_, .f32⟩
  | 13 => ⟨S500x256, .f32⟩
  | 14 => ⟨S10000x1, .i32⟩
  | 15 => ⟨S500x256, .f32⟩
  | 16 => ⟨S500x256, .f32⟩
  | 17 => ⟨S1x400000, .i32⟩
  | 18 => ⟨S400000, .i32⟩
  | 19 => ⟨S1x400000, .i32⟩
  | 20 => ⟨S400000, .i32⟩
  | 21 => ⟨S_, .i32⟩
  | 22 => ⟨S400000, .i32⟩
  | 23 => ⟨S400000, .i1⟩
  | 24 => ⟨S_, .i32⟩
  | 25 => ⟨S400000, .i32⟩
  | 26 => ⟨S400000, .i32⟩
  | 27 => ⟨S400000, .i32⟩
  | 28 => ⟨S400000x1, .i32⟩
  | 29 => ⟨S400000x256, .f32⟩
  | 30 => ⟨S400000x256, .f32⟩
  | 31 => ⟨S_, .f32⟩
  | 32 => ⟨S400000x256, .f32⟩
  | 33 => ⟨S400000x256, .f32⟩
  | 34 => ⟨S_, .f32⟩
  | 35 => ⟨S50000x256, .f32⟩
  | 36 => ⟨S400000x1, .i32⟩
  | 37 => ⟨S50000x256, .f32⟩
  | 38 => ⟨S50000x256, .f32⟩
  | 39 => ⟨S_, .i32⟩
  | 40 => ⟨S150000, .i32⟩
  | 41 => ⟨S150000, .i1⟩
  | 42 => ⟨S_, .i32⟩
  | 43 => ⟨S150000, .i32⟩
  | 44 => ⟨S150000, .i32⟩
  | 45 => ⟨S150000, .i32⟩
  | 46 => ⟨S150000x1, .i32⟩
  | 47 => ⟨S150000x256, .f32⟩
  | 48 => ⟨S150000x256, .f32⟩
  | 49 => ⟨S_, .f32⟩
  | 50 => ⟨S150000x256, .f32⟩
  | 51 => ⟨S150000x256, .f32⟩
  | 52 => ⟨S_, .f32⟩
  | 53 => ⟨S50000x256, .f32⟩
  | 54 => ⟨S150000x1, .i32⟩
  | 55 => ⟨S50000x256, .f32⟩
  | 56 => ⟨S50000x256, .f32⟩
  | 57 => ⟨S_, .i32⟩
  | 58 => ⟨S150000, .i32⟩
  | 59 => ⟨S150000, .i1⟩
  | 60 => ⟨S_, .i32⟩
  | 61 => ⟨S150000, .i32⟩
  | 62 => ⟨S150000, .i32⟩
  | 63 => ⟨S150000, .i32⟩
  | 64 => ⟨S150000x1, .i32⟩
  | 65 => ⟨S150000x256, .f32⟩
  | 66 => ⟨S150000x256, .f32⟩
  | 67 => ⟨S_, .f32⟩
  | 68 => ⟨S150000x256, .f32⟩
  | 69 => ⟨S150000x256, .f32⟩
  | 70 => ⟨S_, .f32⟩
  | 71 => ⟨S10000x256, .f32⟩
  | 72 => ⟨S150000x1, .i32⟩
  | 73 => ⟨S10000x256, .f32⟩
  | 74 => ⟨S10000x256, .f32⟩
  | 75 => ⟨S1x100000, .i32⟩
  | 76 => ⟨S100000, .i32⟩
  | 77 => ⟨S1x100000, .i32⟩
  | 78 => ⟨S100000, .i32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S100000x256, .f32⟩
  | 88 => ⟨S100000x256, .f32⟩
  | 89 => ⟨S_, .f32⟩
  | 90 => ⟨S100000x256, .f32⟩
  | 91 => ⟨S100000x256, .f32⟩
  | 92 => ⟨S_, .f32⟩
  | 93 => ⟨S10000x256, .f32⟩
  | 94 => ⟨S100000x1, .i32⟩
  | 95 => ⟨S10000x256, .f32⟩
  | 96 => ⟨S10000x256, .f32⟩
  | 97 => ⟨S1x1x256x256, .f32⟩
  | 98 => ⟨S256x256, .f32⟩
  | 99 => ⟨S1x1x256, .f32⟩
  | 100 => ⟨S256, .f32⟩
  | 101 => ⟨S1x1x256x256, .f32⟩
  | 102 => ⟨S256x256, .f32⟩
  | 103 => ⟨S1x1x256, .f32⟩
  | 104 => ⟨S256, .f32⟩
  | 105 => ⟨S50000x256, .f32⟩
  | 106 => ⟨S1x1x256x256, .f32⟩
  | 107 => ⟨S256x256, .f32⟩
  | 108 => ⟨S1x1x256, .f32⟩
  | 109 => ⟨S256, .f32⟩
  | 110 => ⟨S1x1x256x256, .f32⟩
  | 111 => ⟨S256x256, .f32⟩
  | 112 => ⟨S1x1x256, .f32⟩
  | 113 => ⟨S256, .f32⟩
  | 114 => ⟨S50000x256, .f32⟩
  | 115 => ⟨S1x1x256x256, .f32⟩
  | 116 => ⟨S256x256, .f32⟩
  | 117 => ⟨S1x1x256, .f32⟩
  | 118 => ⟨S256, .f32⟩
  | 119 => ⟨S1x1x256x256, .f32⟩
  | 120 => ⟨S256x256, .f32⟩
  | 121 => ⟨S1x1x256, .f32⟩
  | 122 => ⟨S256, .f32⟩
  | 123 => ⟨S10000x256, .f32⟩
  | 124 => ⟨S1x1x256x256, .f32⟩
  | 125 => ⟨S256x256, .f32⟩
  | 126 => ⟨S1x1x256, .f32⟩
  | 127 => ⟨S256, .f32⟩
  | _ => ⟨S50000x256, .f32⟩

abbrev hbmTy0_2 (i : Nat) : BufTy := match i % 128 with
  | 0 => ⟨S1x1x256x256, .f32⟩
  | 1 => ⟨S256x256, .f32⟩
  | 2 => ⟨S1x1x256, .f32⟩
  | 3 => ⟨S256, .f32⟩
  | 4 => ⟨S10000x256, .f32⟩
  | 5 => ⟨S50000x256, .f32⟩
  | 6 => ⟨S10000x256, .f32⟩
  | 7 => ⟨S_, .f32⟩
  | 8 => ⟨S500x256, .f32⟩
  | 9 => ⟨S50000x1, .i32⟩
  | 10 => ⟨S500x256, .f32⟩
  | 11 => ⟨S_, .f32⟩
  | 12 => ⟨S500x256, .f32⟩
  | 13 => ⟨S10000x1, .i32⟩
  | 14 => ⟨S500x256, .f32⟩
  | 15 => ⟨S500x256, .f32⟩
  | 16 => ⟨S1x400000, .i32⟩
  | 17 => ⟨S400000, .i32⟩
  | 18 => ⟨S1x400000, .i32⟩
  | 19 => ⟨S400000, .i32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S400000x256, .f32⟩
  | 29 => ⟨S400000x256, .f32⟩
  | 30 => ⟨S_, .f32⟩
  | 31 => ⟨S400000x256, .f32⟩
  | 32 => ⟨S400000x256, .f32⟩
  | 33 => ⟨S_, .f32⟩
  | 34 => ⟨S50000x256, .f32⟩
  | 35 => ⟨S400000x1, .i32⟩
  | 36 => ⟨S50000x256, .f32⟩
  | 37 => ⟨S50000x256, .f32⟩
  | 38 => ⟨S_, .i32⟩
  | 39 => ⟨S150000, .i32⟩
  | 40 => ⟨S150000, .i1⟩
  | 41 => ⟨S_, .i32⟩
  | 42 => ⟨S150000, .i32⟩
  | 43 => ⟨S150000, .i32⟩
  | 44 => ⟨S150000, .i32⟩
  | 45 => ⟨S150000x1, .i32⟩
  | 46 => ⟨S150000x256, .f32⟩
  | 47 => ⟨S150000x256, .f32⟩
  | 48 => ⟨S_, .f32⟩
  | 49 => ⟨S150000x256, .f32⟩
  | 50 => ⟨S150000x256, .f32⟩
  | 51 => ⟨S_, .f32⟩
  | 52 => ⟨S50000x256, .f32⟩
  | 53 => ⟨S150000x1, .i32⟩
  | 54 => ⟨S50000x256, .f32⟩
  | 55 => ⟨S50000x256, .f32⟩
  | 56 => ⟨S_, .i32⟩
  | 57 => ⟨S150000, .i32⟩
  | 58 => ⟨S150000, .i1⟩
  | 59 => ⟨S_, .i32⟩
  | 60 => ⟨S150000, .i32⟩
  | 61 => ⟨S150000, .i32⟩
  | 62 => ⟨S150000, .i32⟩
  | 63 => ⟨S150000x1, .i32⟩
  | 64 => ⟨S150000x256, .f32⟩
  | 65 => ⟨S150000x256, .f32⟩
  | 66 => ⟨S_, .f32⟩
  | 67 => ⟨S150000x256, .f32⟩
  | 68 => ⟨S150000x256, .f32⟩
  | 69 => ⟨S_, .f32⟩
  | 70 => ⟨S10000x256, .f32⟩
  | 71 => ⟨S150000x1, .i32⟩
  | 72 => ⟨S10000x256, .f32⟩
  | 73 => ⟨S10000x256, .f32⟩
  | 74 => ⟨S1x100000, .i32⟩
  | 75 => ⟨S100000, .i32⟩
  | 76 => ⟨S1x100000, .i32⟩
  | 77 => ⟨S100000, .i32⟩
  | 78 => ⟨S_, .i32⟩
  | 79 => ⟨S100000, .i32⟩
  | 80 => ⟨S100000, .i1⟩
  | 81 => ⟨S_, .i32⟩
  | 82 => ⟨S100000, .i32⟩
  | 83 => ⟨S100000, .i32⟩
  | 84 => ⟨S100000, .i32⟩
  | 85 => ⟨S100000x1, .i32⟩
  | 86 => ⟨S100000x256, .f32⟩
  | 87 => ⟨S100000x256, .f32⟩
  | 88 => ⟨S_, .f32⟩
  | 89 => ⟨S100000x256, .f32⟩
  | 90 => ⟨S100000x256, .f32⟩
  | 91 => ⟨S_, .f32⟩
  | 92 => ⟨S10000x256, .f32⟩
  | 93 => ⟨S100000x1, .i32⟩
  | 94 => ⟨S10000x256, .f32⟩
  | 95 => ⟨S10000x256, .f32⟩
  | 96 => ⟨S1x1x256x256, .f32⟩
  | 97 => ⟨S256x256, .f32⟩
  | 98 => ⟨S1x1x256, .f32⟩
  | 99 => ⟨S256, .f32⟩
  | 100 => ⟨S1x1x256x256, .f32⟩
  | 101 => ⟨S256x256, .f32⟩
  | 102 => ⟨S1x1x256, .f32⟩
  | 103 => ⟨S256, .f32⟩
  | 104 => ⟨S50000x256, .f32⟩
  | 105 => ⟨S1x1x256x256, .f32⟩
  | 106 => ⟨S256x256, .f32⟩
  | 107 => ⟨S1x1x256, .f32⟩
  | 108 => ⟨S256, .f32⟩
  | 109 => ⟨S1x1x256x256, .f32⟩
  | 110 => ⟨S256x256, .f32⟩
  | 111 => ⟨S1x1x256, .f32⟩
  | 112 => ⟨S256, .f32⟩
  | 113 => ⟨S50000x256, .f32⟩
  | 114 => ⟨S1x1x256x256, .f32⟩
  | 115 => ⟨S256x256, .f32⟩
  | 116 => ⟨S1x1x256, .f32⟩
  | 117 => ⟨S256, .f32⟩
  | 118 => ⟨S1x1x256x256, .f32⟩
  | 119 => ⟨S256x256, .f32⟩
  | 120 => ⟨S1x1x256, .f32⟩
  | 121 => ⟨S256, .f32⟩
  | 122 => ⟨S10000x256, .f32⟩
  | 123 => ⟨S1x1x256x256, .f32⟩
  | 124 => ⟨S256x256, .f32⟩
  | 125 => ⟨S1x1x256, .f32⟩
  | 126 => ⟨S256, .f32⟩
  | 127 => ⟨S1x1x256x256, .f32⟩
  | _ => ⟨S50000x256, .f32⟩

abbrev hbmTy0_3 (i : Nat) : BufTy := match i % 128 with
  | 0 => ⟨S256x256, .f32⟩
  | 1 => ⟨S1x1x256, .f32⟩
  | 2 => ⟨S256, .f32⟩
  | 3 => ⟨S10000x256, .f32⟩
  | 4 => ⟨S50000x256, .f32⟩
  | 5 => ⟨S10000x256, .f32⟩
  | 6 => ⟨S_, .f32⟩
  | 7 => ⟨S500x256, .f32⟩
  | 8 => ⟨S50000x1, .i32⟩
  | 9 => ⟨S500x256, .f32⟩
  | 10 => ⟨S_, .f32⟩
  | 11 => ⟨S500x256, .f32⟩
  | 12 => ⟨S10000x1, .i32⟩
  | 13 => ⟨S500x256, .f32⟩
  | 14 => ⟨S500x256, .f32⟩
  | 15 => ⟨S500x768, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S256, .f32⟩
  | .local _ .vmem, ⟨20, _⟩ => ⟨S256x256, .f32⟩
  | .local _ .vmem, ⟨21, _⟩ => ⟨S256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S256, .f32⟩
  | .local _ .vmem, ⟨28, _⟩ => ⟨S256x256, .f32⟩
  | .local _ .vmem, ⟨29, _⟩ => ⟨S256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S256x256, .f32⟩
  | .local _ .vmem, ⟨35, _⟩ => ⟨S256, .f32⟩
  | .local _ .vmem, ⟨36, _⟩ => ⟨S256x256, .f32⟩
  | .local _ .vmem, ⟨37, _⟩ => ⟨S256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S256x256, .f32⟩
  | .local _ .vmem, ⟨43, _⟩ => ⟨S256, .f32⟩
  | .local _ .vmem, ⟨44, _⟩ => ⟨S256x256, .f32⟩
  | .local _ .vmem, ⟨45, _⟩ => ⟨S256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S256x256, .f32⟩
  | .local _ .vmem, ⟨51, _⟩ => ⟨S256, .f32⟩
  | .local _ .vmem, ⟨52, _⟩ => ⟨S256x256, .f32⟩
  | .local _ .vmem, ⟨53, _⟩ => ⟨S256, .f32⟩
  | .local _ .vmem, ⟨54, _⟩ => ⟨S2000x256, .f32⟩
  | .local _ .vmem, ⟨55, _⟩ => ⟨S2000x256, .f32⟩
  | .local _ .vmem, ⟨56, _⟩ => ⟨S2000x256, .f32⟩
  | .local _ .vmem, ⟨57, _⟩ => ⟨S2000x256, .f32⟩
  | .local _ .vmem, ⟨58, _⟩ => ⟨S256x256, .f32⟩
  | .local _ .vmem, ⟨59, _⟩ => ⟨S256, .f32⟩
  | .local _ .vmem, ⟨60, _⟩ => ⟨S256x256, .f32⟩
  | .local _ .vmem, ⟨61, _⟩ => ⟨S256, .f32⟩
  | .local _ .vmem, ⟨62, _⟩ => ⟨S2000x256, .f32⟩
  | .local _ .vmem, ⟨63, _⟩ => ⟨S2000x256, .f32⟩
  | .local _ .vmem, ⟨64, _⟩ => ⟨S2000x256, .f32⟩
  | .local _ .vmem, ⟨65, _⟩ => ⟨S2000x256, .f32⟩
  | .local _ .vmem, ⟨66, _⟩ => ⟨S256x256, .f32⟩
  | .local _ .vmem, ⟨67, _⟩ => ⟨S256, .f32⟩
  | .local _ .vmem, ⟨68, _⟩ => ⟨S256x256, .f32⟩
  | .local _ .vmem, ⟨69, _⟩ => ⟨S256, .f32⟩
  | .local _ .vmem, ⟨70, _⟩ => ⟨S2000x256, .f32⟩
  | .local _ .vmem, ⟨71, _⟩ => ⟨S2000x256, .f32⟩
  | .local _ .vmem, ⟨72, _⟩ => ⟨S2000x256, .f32⟩
  | .local _ .vmem, ⟨73, _⟩ => ⟨S2000x256, .f32⟩
  | .local _ .vmem, ⟨74, _⟩ => ⟨S256x256, .f32⟩
  | .local _ .vmem, ⟨75, _⟩ => ⟨S256, .f32⟩
  | .local _ .vmem, ⟨76, _⟩ => ⟨S256x256, .f32⟩
  | .local _ .vmem, ⟨77, _⟩ => ⟨S256, .f32⟩
  | .local _ .vmem, ⟨78, _⟩ => ⟨S2000x256, .f32⟩
  | .local _ .vmem, ⟨79, _⟩ => ⟨S2000x256, .f32⟩
  | .local _ .vmem, ⟨80, _⟩ => ⟨S2000x256, .f32⟩
  | .local _ .vmem, ⟨81, _⟩ => ⟨S2000x256, .f32⟩
  | .local _ .vmem, ⟨82, _⟩ => ⟨S256x256, .f32⟩
  | .local _ .vmem, ⟨83, _⟩ => ⟨S256, .f32⟩
  | .local _ .vmem, ⟨84, _⟩ => ⟨S256x256, .f32⟩
  | .local _ .vmem, ⟨85, _⟩ => ⟨S256, .f32⟩
  | .local _ .vmem, ⟨86, _⟩ => ⟨S2000x256, .f32⟩
  | .local _ .vmem, ⟨87, _⟩ => ⟨S2000x256, .f32⟩
  | .local _ .vmem, ⟨88, _⟩ => ⟨S2000x256, .f32⟩
  | .local _ .vmem, ⟨89, _⟩ => ⟨S2000x256, .f32⟩
  | .local _ .vmem, ⟨90, _⟩ => ⟨S256x256, .f32⟩
  | .local _ .vmem, ⟨91, _⟩ => ⟨S256, .f32⟩
  | .local _ .vmem, ⟨92, _⟩ => ⟨S256x256, .f32⟩
  | .local _ .vmem, ⟨93, _⟩ => ⟨S256, .f32⟩
  | .local _ .vmem, ⟨94, _⟩ => ⟨S2000x256, .f32⟩
  | .local _ .vmem, ⟨95, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_call0_cst : Ref sig .tc := ⟨.hbm, 32, rfl⟩
abbrev main_call0_v0 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_1 : Ref sig .tc := ⟨.hbm, 40, rfl⟩
abbrev main_v17 : Ref sig .tc := ⟨.hbm, 41, rfl⟩
abbrev main_v18 : Ref sig .tc := ⟨.hbm, 42, rfl⟩
abbrev main_c_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call1_cst : Ref sig .tc := ⟨.hbm, 50, rfl⟩
abbrev main_call1_v0 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_4 : Ref sig .tc := ⟨.hbm, 58, rfl⟩
abbrev main_v30 : Ref sig .tc := ⟨.hbm, 59, rfl⟩
abbrev main_v31 : Ref sig .tc := ⟨.hbm, 60, rfl⟩
abbrev main_c_5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_call2_cst : Ref sig .tc := ⟨.hbm, 68, rfl⟩
abbrev main_call2_v0 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_7 : Ref sig .tc := ⟨.hbm, 80, rfl⟩
abbrev main_v47 : Ref sig .tc := ⟨.hbm, 81, rfl⟩
abbrev main_v48 : Ref sig .tc := ⟨.hbm, 82, rfl⟩
abbrev main_c_8 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_call3_cst : Ref sig .tc := ⟨.hbm, 90, rfl⟩
abbrev main_call3_v0 : Ref sig .tc := ⟨.hbm, 91, rfl⟩
abbrev main_v55 : Ref sig .tc := ⟨.hbm, 92, rfl⟩
abbrev main_cst_9 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_10 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_11 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_12 : Ref sig .tc := ⟨.hbm, 149, rfl⟩
abbrev main_v109 : Ref sig .tc := ⟨.hbm, 150, rfl⟩
abbrev main_v110 : Ref sig .tc := ⟨.hbm, 151, rfl⟩
abbrev main_c_13 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_call4_cst : Ref sig .tc := ⟨.hbm, 159, rfl⟩
abbrev main_call4_v0 : Ref sig .tc := ⟨.hbm, 160, rfl⟩
abbrev main_v117 : Ref sig .tc := ⟨.hbm, 161, rfl⟩
abbrev main_cst_14 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_c_15 : Ref sig .tc := ⟨.hbm, 167, rfl⟩
abbrev main_v122 : Ref sig .tc := ⟨.hbm, 168, rfl⟩
abbrev main_v123 : Ref sig .tc := ⟨.hbm, 169, rfl⟩
abbrev main_c_16 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_call5_cst : Ref sig .tc := ⟨.hbm, 177, rfl⟩
abbrev main_call5_v0 : Ref sig .tc := ⟨.hbm, 178, rfl⟩
abbrev main_v130 : Ref sig .tc := ⟨.hbm, 179, rfl⟩
abbrev main_cst_17 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_c_18 : Ref sig .tc := ⟨.hbm, 185, rfl⟩
abbrev main_v135 : Ref sig .tc := ⟨.hbm, 186, rfl⟩
abbrev main_v136 : Ref sig .tc := ⟨.hbm, 187, rfl⟩
abbrev main_c_19 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_call6_cst : Ref sig .tc := ⟨.hbm, 195, rfl⟩
abbrev main_call6_v0 : Ref sig .tc := ⟨.hbm, 196, rfl⟩
abbrev main_v143 : Ref sig .tc := ⟨.hbm, 197, rfl⟩
abbrev main_cst_20 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_c_21 : Ref sig .tc := ⟨.hbm, 207, rfl⟩
abbrev main_v152 : Ref sig .tc := ⟨.hbm, 208, rfl⟩
abbrev main_v153 : Ref sig .tc := ⟨.hbm, 209, rfl⟩
abbrev main_c_22 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_call7_cst : Ref sig .tc := ⟨.hbm, 217, rfl⟩
abbrev main_call7_v0 : Ref sig .tc := ⟨.hbm, 218, rfl⟩
abbrev main_v160 : Ref sig .tc := ⟨.hbm, 219, rfl⟩
abbrev main_cst_23 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_cst_24 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_cst_25 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_c_26 : Ref sig .tc := ⟨.hbm, 276, rfl⟩
abbrev main_v214 : Ref sig .tc := ⟨.hbm, 277, rfl⟩
abbrev main_v215 : Ref sig .tc := ⟨.hbm, 278, rfl⟩
abbrev main_c_27 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_call8_cst : Ref sig .tc := ⟨.hbm, 286, rfl⟩
abbrev main_call8_v0 : Ref sig .tc := ⟨.hbm, 287, rfl⟩
abbrev main_v222 : Ref sig .tc := ⟨.hbm, 288, rfl⟩
abbrev main_cst_28 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_c_29 : Ref sig .tc := ⟨.hbm, 294, rfl⟩
abbrev main_v227 : Ref sig .tc := ⟨.hbm, 295, rfl⟩
abbrev main_v228 : Ref sig .tc := ⟨.hbm, 296, rfl⟩
abbrev main_c_30 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_call9_cst : Ref sig .tc := ⟨.hbm, 304, rfl⟩
abbrev main_call9_v0 : Ref sig .tc := ⟨.hbm, 305, rfl⟩
abbrev main_v235 : Ref sig .tc := ⟨.hbm, 306, rfl⟩
abbrev main_cst_31 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_c_32 : Ref sig .tc := ⟨.hbm, 312, rfl⟩
abbrev main_v240 : Ref sig .tc := ⟨.hbm, 313, rfl⟩
abbrev main_v241 : Ref sig .tc := ⟨.hbm, 314, rfl⟩
abbrev main_c_33 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_call10_cst : Ref sig .tc := ⟨.hbm, 322, rfl⟩
abbrev main_call10_v0 : Ref sig .tc := ⟨.hbm, 323, rfl⟩
abbrev main_v248 : Ref sig .tc := ⟨.hbm, 324, rfl⟩
abbrev main_cst_34 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_c_35 : Ref sig .tc := ⟨.hbm, 334, rfl⟩
abbrev main_v257 : Ref sig .tc := ⟨.hbm, 335, rfl⟩
abbrev main_v258 : Ref sig .tc := ⟨.hbm, 336, rfl⟩
abbrev main_c_36 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩
abbrev main_v263 : Ref sig .tc := ⟨.hbm, 342, rfl⟩
abbrev main_v264 : Ref sig .tc := ⟨.hbm, 343, rfl⟩
abbrev main_call11_cst : Ref sig .tc := ⟨.hbm, 344, rfl⟩
abbrev main_call11_v0 : Ref sig .tc := ⟨.hbm, 345, rfl⟩
abbrev main_v265 : Ref sig .tc := ⟨.hbm, 346, rfl⟩
abbrev main_cst_37 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_v271 : Ref sig .tc := ⟨.hbm, 353, rfl⟩
abbrev main_v272 : Ref sig .tc := ⟨.hbm, 354, rfl⟩
abbrev main_v273 : Ref sig .tc := ⟨.hbm, 355, rfl⟩
abbrev main_v274 : Ref sig .tc := ⟨.hbm, 356, rfl⟩
abbrev main_v275 : Ref sig .tc := ⟨.hbm, 357, rfl⟩
abbrev main_v276 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_v297 : Ref sig .tc := ⟨.hbm, 379, rfl⟩
abbrev main_v298 : Ref sig .tc := ⟨.hbm, 380, rfl⟩
abbrev main_v299 : Ref sig .tc := ⟨.hbm, 381, rfl⟩
abbrev main_v300 : Ref sig .tc := ⟨.hbm, 382, rfl⟩
abbrev main_v301 : Ref sig .tc := ⟨.hbm, 383, rfl⟩
abbrev main_v302 : Ref sig .tc := ⟨.hbm, 384, rfl⟩
abbrev main_v303 : Ref sig .tc := ⟨.hbm, 385, rfl⟩
abbrev main_v304 : Ref sig .tc := ⟨.hbm, 386, rfl⟩
abbrev main_v305 : Ref sig .tc := ⟨.hbm, 387, rfl⟩
abbrev main_v306 : Ref sig .tc := ⟨.hbm, 388, rfl⟩
abbrev main_v307 : Ref sig .tc := ⟨.hbm, 389, rfl⟩
abbrev main_cst_38 : Ref sig .tc := ⟨.hbm, 390, rfl⟩
abbrev main_v308 : Ref sig .tc := ⟨.hbm, 391, rfl⟩
abbrev main_v309 : Ref sig .tc := ⟨.hbm, 392, rfl⟩
abbrev main_v310 : Ref sig .tc := ⟨.hbm, 393, rfl⟩
abbrev main_cst_39 : Ref sig .tc := ⟨.hbm, 394, rfl⟩
abbrev main_v311 : Ref sig .tc := ⟨.hbm, 395, rfl⟩
abbrev main_v312 : Ref sig .tc := ⟨.hbm, 396, rfl⟩
abbrev main_v313 : Ref sig .tc := ⟨.hbm, 397, rfl⟩
abbrev main_v314 : Ref sig .tc := ⟨.hbm, 398, rfl⟩
abbrev main_v315 : Ref sig .tc := ⟨.hbm, 399, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg4_0 : Ref sig .tc := ⟨.vmem, 77, rfl⟩
abbrev cc9_stg5_0 : Ref sig .tc := ⟨.vmem, 78, rfl⟩
abbrev cc9_stg5_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg2_0 : Ref sig .tc := ⟨.vmem, 83, rfl⟩
abbrev cc10_stg3_0 : Ref sig .tc := ⟨.vmem, 84, rfl⟩
abbrev cc10_stg4_0 : Ref sig .tc := ⟨.vmem, 85, rfl⟩
abbrev cc10_stg5_0 : Ref sig .tc := ⟨.vmem, 86, rfl⟩
abbrev cc10_stg5_1 : Ref sig .tc := ⟨.vmem, 87, rfl⟩
abbrev cc11_stg0_0 : Ref sig .tc := ⟨.vmem, 88, rfl⟩
abbrev cc11_stg0_1 : Ref sig .tc := ⟨.vmem, 89, rfl⟩
abbrev cc11_stg1_0 : Ref sig .tc := ⟨.vmem, 90, rfl⟩
abbrev cc11_stg2_0 : Ref sig .tc := ⟨.vmem, 91, rfl⟩
abbrev cc11_stg3_0 : Ref sig .tc := ⟨.vmem, 92, rfl⟩
abbrev cc11_stg4_0 : Ref sig .tc := ⟨.vmem, 93, rfl⟩
abbrev cc11_stg5_0 : Ref sig .tc := ⟨.vmem, 94, rfl⟩
abbrev cc11_stg5_1 : Ref sig .tc := ⟨.vmem, 95, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem4_0 : DmaSem sig := 77
abbrev cc9_sem5_0 : DmaSem sig := 78
abbrev cc9_sem5_1 : DmaSem sig := 79
abbrev cc10_sem0_0 : DmaSem sig := 80
abbrev cc10_sem0_1 : DmaSem sig := 81
abbrev cc10_sem1_0 : DmaSem sig := 82
abbrev cc10_sem2_0 : DmaSem sig := 83
abbrev cc10_sem3_0 : DmaSem sig := 84
abbrev cc10_sem4_0 : DmaSem sig := 85
abbrev cc10_sem5_0 : DmaSem sig := 86
abbrev cc10_sem5_1 : DmaSem sig := 87
abbrev cc11_sem0_0 : DmaSem sig := 88
abbrev cc11_sem0_1 : DmaSem sig := 89
abbrev cc11_sem1_0 : DmaSem sig := 90
abbrev cc11_sem2_0 : DmaSem sig := 91
abbrev cc11_sem3_0 : DmaSem sig := 92
abbrev cc11_sem4_0 : DmaSem sig := 93
abbrev cc11_sem5_0 : DmaSem sig := 94
abbrev cc11_sem5_1 : DmaSem sig := 95

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S256x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S256x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x256 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S256x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S256x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S2000x256 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S256x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S256x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x256 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x256 : S_.BroadcastsInDim S400000x256 (![] : Fin 0 → Fin S400000x256.rank)
  bcast_S_S50000x256 : S_.BroadcastsInDim S50000x256 (![] : Fin 0 → Fin S50000x256.rank)
  bcast_S_S150000 : S_.BroadcastsInDim S150000 (![] : Fin 0 → Fin S150000.rank)
  bcast_S150000_S150000x1_0 : S150000.BroadcastsInDim S150000x1 (![0] : Fin 1 → Fin S150000x1.rank)
  bcast_S_S150000x256 : S_.BroadcastsInDim S150000x256 (![] : Fin 0 → Fin S150000x256.rank)
  bcast_S_S10000x256 : S_.BroadcastsInDim S10000x256 (![] : Fin 0 → Fin S10000x256.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x256 : S_.BroadcastsInDim S100000x256 (![] : Fin 0 → Fin S100000x256.rank)
  slices_S3x4x256x256_S1x1x256x256_0_0_0_0 : S3x4x256x256.Slices ![0, 0, 0, 0] S1x1x256x256
  shapeCasts_S1x1x256x256_S256x256 : S1x1x256x256.ShapeCasts S256x256
  slices_S3x4x256_S1x1x256_0_0_0 : S3x4x256.Slices ![0, 0, 0] S1x1x256
  shapeCasts_S1x1x256_S256 : S1x1x256.ShapeCasts S256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2000x256 : S1x256.Broadcasts S2000x256
  slices_S3x4x256x256_S1x1x256x256_0_2_0_0 : S3x4x256x256.Slices ![0, 2, 0, 0] S1x1x256x256
  slices_S3x4x256_S1x1x256_0_2_0 : S3x4x256.Slices ![0, 2, 0] S1x1x256
  slices_S3x4x256x256_S1x1x256x256_0_1_0_0 : S3x4x256x256.Slices ![0, 1, 0, 0] S1x1x256x256
  slices_S3x4x256_S1x1x256_0_1_0 : S3x4x256.Slices ![0, 1, 0] S1x1x256
  slices_S3x4x256x256_S1x1x256x256_0_3_0_0 : S3x4x256x256.Slices ![0, 3, 0, 0] S1x1x256x256
  slices_S3x4x256_S1x1x256_0_3_0 : S3x4x256.Slices ![0, 3, 0] S1x1x256
  bcast_S_S500x256 : S_.BroadcastsInDim S500x256 (![] : Fin 0 → Fin S500x256.rank)
  bcast_S50000_S50000x1_0 : S50000.BroadcastsInDim S50000x1 (![0] : Fin 1 → Fin S50000x1.rank)
  bcast_S10000_S10000x1_0 : S10000.BroadcastsInDim S10000x1 (![0] : Fin 1 → Fin S10000x1.rank)
  slices_S3x4x256x256_S1x1x256x256_1_0_0_0 : S3x4x256x256.Slices ![1, 0, 0, 0] S1x1x256x256
  slices_S3x4x256_S1x1x256_1_0_0 : S3x4x256.Slices ![1, 0, 0] S1x1x256
  slices_S3x4x256x256_S1x1x256x256_1_2_0_0 : S3x4x256x256.Slices ![1, 2, 0, 0] S1x1x256x256
  slices_S3x4x256_S1x1x256_1_2_0 : S3x4x256.Slices ![1, 2, 0] S1x1x256
  slices_S3x4x256x256_S1x1x256x256_1_1_0_0 : S3x4x256x256.Slices ![1, 1, 0, 0] S1x1x256x256
  slices_S3x4x256_S1x1x256_1_1_0 : S3x4x256.Slices ![1, 1, 0] S1x1x256
  slices_S3x4x256x256_S1x1x256x256_1_3_0_0 : S3x4x256x256.Slices ![1, 3, 0, 0] S1x1x256x256
  slices_S3x4x256_S1x1x256_1_3_0 : S3x4x256.Slices ![1, 3, 0] S1x1x256
  slices_S3x4x256x256_S1x1x256x256_2_0_0_0 : S3x4x256x256.Slices ![2, 0, 0, 0] S1x1x256x256
  slices_S3x4x256_S1x1x256_2_0_0 : S3x4x256.Slices ![2, 0, 0] S1x1x256
  slices_S3x4x256x256_S1x1x256x256_2_2_0_0 : S3x4x256x256.Slices ![2, 2, 0, 0] S1x1x256x256
  slices_S3x4x256_S1x1x256_2_2_0 : S3x4x256.Slices ![2, 2, 0] S1x1x256
  slices_S3x4x256x256_S1x1x256x256_2_1_0_0 : S3x4x256x256.Slices ![2, 1, 0, 0] S1x1x256x256
  slices_S3x4x256_S1x1x256_2_1_0 : S3x4x256.Slices ![2, 1, 0] S1x1x256
  slices_S3x4x256x256_S1x1x256x256_2_3_0_0 : S3x4x256x256.Slices ![2, 3, 0, 0] S1x1x256x256
  slices_S3x4x256_S1x1x256_2_3_0 : S3x4x256.Slices ![2, 3, 0] S1x1x256
  concatenates_S500x256_S500x256_S500x256_S500x768_d1 : Shape.Concatenates [S500x256, S500x256, S500x256] S500x768 1
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  gather_S10000x256_S150000x1_S150000x256_1_0_n_n_0_1_1256_wf : GatherDims.WF S10000x256 S150000x1 S150000x256 [1] [0] [] [0] [] 1 ![1, 256]
  scatter_S50000x256_S150000x1_S150000x256_1_0_0_1_wf : ScatterDims.WF S50000x256 S150000x1 S150000x256 [1] [0] [0] 1
  gather_S50000x256_S150000x1_S150000x256_1_0_n_n_0_1_1256_wf : GatherDims.WF S50000x256 S150000x1 S150000x256 [1] [0] [] [0] [] 1 ![1, 256]
  scatter_S10000x256_S150000x1_S150000x256_1_0_0_1_wf : ScatterDims.WF S10000x256 S150000x1 S150000x256 [1] [0] [0] 1
  gather_S10000x256_S100000x1_S100000x256_1_0_n_n_0_1_1256_wf : GatherDims.WF S10000x256 S100000x1 S100000x256 [1] [0] [] [0] [] 1 ![1, 256]
  scatter_S10000x256_S100000x1_S100000x256_1_0_0_1_wf : ScatterDims.WF S10000x256 S100000x1 S100000x256 [1] [0] [0] 1
  dot_S2000x256_S256x256_S2000x256_1_0_0_1_n_n_wf : DotDims.WF S2000x256 S256x256 S2000x256 [1] [0] [0] [1] [] []
  scatter_S500x256_S50000x1_S50000x256_1_0_0_1_wf : ScatterDims.WF S500x256 S50000x1 S50000x256 [1] [0] [0] 1
  scatter_S500x256_S10000x1_S10000x256_1_0_0_1_wf : ScatterDims.WF S500x256 S10000x1 S10000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S10000x256.size a
  hwx2_0 : ∀ i : grid2.Coords, EltTy.bits .f32 = 32 ∨ (Rect.block (s := S10000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S10000x256.size a
  hwx2_5 : ∀ i : grid2.Coords, EltTy.bits .f32 = 32 ∨ (Rect.block (s := S10000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S10000x256.size a
  hwx3_0 : ∀ i : grid3.Coords, EltTy.bits .f32 = 32 ∨ (Rect.block (s := S10000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S10000x256.size a
  hwx3_5 : ∀ i : grid3.Coords, EltTy.bits .f32 = 32 ∨ (Rect.block (s := S10000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256.size a ≤ S256.size a
  hwx4_2 : ∀ i : grid4.Coords, EltTy.bits .f32 = 32 ∨ (Rect.block (s := S256) S256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256.size a ≤ S256.size a
  hwx4_4 : ∀ i : grid4.Coords, EltTy.bits .f32 = 32 ∨ (Rect.block (s := S256) S256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256.size a ≤ S256.size a
  hwx5_2 : ∀ i : grid5.Coords, EltTy.bits .f32 = 32 ∨ (Rect.block (s := S256) S256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256.size a ≤ S256.size a
  hwx5_4 : ∀ i : grid5.Coords, EltTy.bits .f32 = 32 ∨ (Rect.block (s := S256) S256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S10000x256.size a
  hwx6_0 : ∀ i : grid6.Coords, EltTy.bits .f32 = 32 ∨ (Rect.block (s := S10000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256.size a ≤ S256.size a
  hwx6_2 : ∀ i : grid6.Coords, EltTy.bits .f32 = 32 ∨ (Rect.block (s := S256) S256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .f32 = 32 ∨ (Rect.block (s := S256x256) S256x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256.size a ≤ S256.size a
  hwx6_4 : ∀ i : grid6.Coords, EltTy.bits .f32 = 32 ∨ (Rect.block (s := S256) S256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x256.size a ≤ S10000x256.size a
  hwx6_5 : ∀ i : grid6.Coords, EltTy.bits .f32 = 32 ∨ (Rect.block (s := S10000x256) S2000x256.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S10000x256.size a
  hwx7_0 : ∀ i : grid7.Coords, EltTy.bits .f32 = 32 ∨ (Rect.block (s := S10000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x256.size a ≤ S256x256.size a
  hwx7_1 : ∀ i : grid7.Coords, EltTy.bits .f32 = 32 ∨ (Rect.block (s := S256x256) S256x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256.size a ≤ S256.size a
  hwx7_2 : ∀ i : grid7.Coords, EltTy.bits .f32 = 32 ∨ (Rect.block (s := S256) S256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x256.size a ≤ S256x256.size a
  hwx7_3 : ∀ i : grid7.Coords, EltTy.bits .f32 = 32 ∨ (Rect.block (s := S256x256) S256x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S256.size a ≤ S256.size a
  hwx7_4 : ∀ i : grid7.Coords, EltTy.bits .f32 = 32 ∨ (Rect.block (s := S256) S256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x256.size a ≤ S10000x256.size a
  hwx7_5 : ∀ i : grid7.Coords, EltTy.bits .f32 = 32 ∨ (Rect.block (s := S10000x256) S2000x256.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S50000x256.size a
  hwx8_0 : ∀ i : grid8.Coords, EltTy.bits .f32 = 32 ∨ (Rect.block (s := S50000x256) S2000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x256.size a ≤ S256x256.size a
  hwx8_1 : ∀ i : grid8.Coords, EltTy.bits .f32 = 32 ∨ (Rect.block (s := S256x256) S256x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256.size a ≤ S256.size a
  hwx8_2 : ∀ i : grid8.Coords, EltTy.bits .f32 = 32 ∨ (Rect.block (s := S256) S256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x256.size a ≤ S256x256.size a
  hwx8_3 : ∀ i : grid8.Coords, EltTy.bits .f32 = 32 ∨ (Rect.block (s := S256x256) S256x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S256.size a ≤ S256.size a
  hwx8_4 : ∀ i : grid8.Coords, EltTy.bits .f32 = 32 ∨ (Rect.block (s := S256) S256.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x256.size a ≤ S50000x256.size a
  hwx8_5 : ∀ i : grid8.Coords, EltTy.bits .f32 = 32 ∨ (Rect.block (s := S50000x256) S2000x256.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x256.size a ≤ S50000x256.size a
  hwx9_0 : ∀ i : grid9.Coords, EltTy.bits .f32 = 32 ∨ (Rect.block (s := S50000x256) S2000x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x256.size a ≤ S256x256.size a
  hwx9_1 : ∀ i : grid9.Coords, EltTy.bits .f32 = 32 ∨ (Rect.block (s := S256x256) S256x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256.size a ≤ S256.size a
  hwx9_2 : ∀ i : grid9.Coords, EltTy.bits .f32 = 32 ∨ (Rect.block (s := S256) S256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S256x256.size a ≤ S256x256.size a
  hwx9_3 : ∀ i : grid9.Coords, EltTy.bits .f32 = 32 ∨ (Rect.block (s := S256x256) S256x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S256.size a ≤ S256.size a
  hwx9_4 : ∀ i : grid9.Coords, EltTy.bits .f32 = 32 ∨ (Rect.block (s := S256) S256.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x256.size a ≤ S50000x256.size a
  hwx9_5 : ∀ i : grid9.Coords, EltTy.bits .f32 = 32 ∨ (Rect.block (s := S50000x256) S2000x256.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x256.size a ≤ S10000x256.size a
  hwx10_0 : ∀ i : grid10.Coords, EltTy.bits .f32 = 32 ∨ (Rect.block (s := S10000x256) S2000x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S256x256.size a ≤ S256x256.size a
  hwx10_1 : ∀ i : grid10.Coords, EltTy.bits .f32 = 32 ∨ (Rect.block (s := S256x256) S256x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S256.size a ≤ S256.size a
  hwx10_2 : ∀ i : grid10.Coords, EltTy.bits .f32 = 32 ∨ (Rect.block (s := S256) S256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S256x256.size a ≤ S256x256.size a
  hwx10_3 : ∀ i : grid10.Coords, EltTy.bits .f32 = 32 ∨ (Rect.block (s := S256x256) S256x256.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S256.size a ≤ S256.size a
  hwx10_4 : ∀ i : grid10.Coords, EltTy.bits .f32 = 32 ∨ (Rect.block (s := S256) S256.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x256.size a ≤ S10000x256.size a
  hwx10_5 : ∀ i : grid10.Coords, EltTy.bits .f32 = 32 ∨ (Rect.block (s := S10000x256) S2000x256.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x256.size a ≤ S10000x256.size a
  hwx11_0 : ∀ i : grid11.Coords, EltTy.bits .f32 = 32 ∨ (Rect.block (s := S10000x256) S2000x256.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S256x256.size a ≤ S256x256.size a
  hwx11_1 : ∀ i : grid11.Coords, EltTy.bits .f32 = 32 ∨ (Rect.block (s := S256x256) S256x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S256.size a ≤ S256.size a
  hwx11_2 : ∀ i : grid11.Coords, EltTy.bits .f32 = 32 ∨ (Rect.block (s := S256) S256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S256x256.size a ≤ S256x256.size a
  hwx11_3 : ∀ i : grid11.Coords, EltTy.bits .f32 = 32 ∨ (Rect.block (s := S256x256) S256x256.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S256.size a ≤ S256.size a
  hwx11_4 : ∀ i : grid11.Coords, EltTy.bits .f32 = 32 ∨ (Rect.block (s := S256) S256.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x256.size a ≤ S10000x256.size a
  hwx11_5 : ∀ i : grid11.Coords, EltTy.bits .f32 = 32 ∨ (Rect.block (s := S10000x256) S2000x256.size (cc11_transform_5 i) (hinb11_5 i)).WholeWords (EltTy.packing .f32)

variable [Facts₀]

def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def gather_S10000x256_S150000x1_S150000x256_1_0_n_n_0_1_1256 : GatherDims S10000x256 S150000x1 S150000x256 where
  offsetDims := [1]
  collapsedSliceDims := [0]
  operandBatchingDims := []
  startIndicesBatchingDims := []
  startIndexMap := [0]
  indexVectorDim := 1
  sliceSizes := ![1, 256]
  wf := gather_S10000x256_S150000x1_S150000x256_1_0_n_n_0_1_1256_wf
def scatter_S50000x256_S150000x1_S150000x256_1_0_0_1 : ScatterDims S50000x256 S150000x1 S150000x256 where
  updateWindowDims := [1]
  insertedWindowDims := [0]
  scatterDimsToOperandDims := [0]
  indexVectorDim := 1
  wf := scatter_S50000x256_S150000x1_S150000x256_1_0_0_1_wf
def gather_S50000x256_S150000x1_S150000x256_1_0_n_n_0_1_1256 : GatherDims S50000x256 S150000x1 S150000x256 where
  offsetDims := [1]
  collapsedSliceDims := [0]
  operandBatchingDims := []
  startIndicesBatchingDims := []
  startIndexMap := [0]
  indexVectorDim := 1
  sliceSizes := ![1, 256]
  wf := gather_S50000x256_S150000x1_S150000x256_1_0_n_n_0_1_1256_wf
def scatter_S10000x256_S150000x1_S150000x256_1_0_0_1 : ScatterDims S10000x256 S150000x1 S150000x256 where
  updateWindowDims := [1]
  insertedWindowDims := [0]
  scatterDimsToOperandDims := [0]
  indexVectorDim := 1
  wf := scatter_S10000x256_S150000x1_S150000x256_1_0_0_1_wf
def gather_S10000x256_S100000x1_S100000x256_1_0_n_n_0_1_1256 : GatherDims S10000x256 S100000x1 S100000x256 where
  offsetDims := [1]
  collapsedSliceDims := [0]
  operandBatchingDims := []
  startIndicesBatchingDims := []
  startIndexMap := [0]
  indexVectorDim := 1
  sliceSizes := ![1, 256]
  wf := gather_S10000x256_S100000x1_S100000x256_1_0_n_n_0_1_1256_wf
def scatter_S10000x256_S100000x1_S100000x256_1_0_0_1 : ScatterDims S10000x256 S100000x1 S100000x256 where
  updateWindowDims := [1]
  insertedWindowDims := [0]
  scatterDimsToOperandDims := [0]
  indexVectorDim := 1
  wf := scatter_S10000x256_S100000x1_S100000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S500x256_S50000x1_S50000x256_1_0_0_1 : ScatterDims S500x256 S50000x1 S50000x256 where
  updateWindowDims := [1]
  insertedWindowDims := [0]
  scatterDimsToOperandDims := [0]
  indexVectorDim := 1
  wf := scatter_S500x256_S50000x1_S50000x256_1_0_0_1_wf
def scatter_S500x256_S10000x1_S10000x256_1_0_0_1 : ScatterDims S500x256 S10000x1 S10000x256 where
  updateWindowDims := [1]
  insertedWindowDims := [0]
  scatterDimsToOperandDims := [0]
  indexVectorDim := 1
  wf := scatter_S500x256_S10000x1_S10000x256_1_0_0_1_wf

abbrev win0_0 : Pipeline.Window sig grid0 :=
  Pipeline.Window.ofSpec (Memref.whole main_v16) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v61) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v63) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v65) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v67) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v68) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v70) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v72) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v74) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v76) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v77) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v81) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v83) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v85) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v86) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v90) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v92) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v94) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v121) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v166) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v168) S256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v170) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v172) S256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v173) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v134) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v175) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v177) S256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v179) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v181) S256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v182) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v147) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v184) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v186) S256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v188) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v190) S256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v191) S2000x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v164) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v193) S256x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v195) S256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v197) S256x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v199) S256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v200) S2000x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v226) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v271) S256x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v273) S256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v275) S256x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v277) S256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v278) S2000x256.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v239) S2000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v280) S256x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v282) S256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v284) S256x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v286) S256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v287) S2000x256.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v252) S2000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v289) S256x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v291) S256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v293) S256x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v295) S256.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v296) S2000x256.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v269) S2000x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v298) S256x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v300) S256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v302) S256x256.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v304) S256.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v305) S2000x256.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S50000x256 : Shape := ⟨2, ![50000, 256]⟩
abbrev S10000x256 : Shape := ⟨2, ![10000, 256]⟩
abbrev S400000x256 : Shape := ⟨2, ![400000, 256]⟩
abbrev S150000x256 : Shape := ⟨2, ![150000, 256]⟩
abbrev S100000x256 : Shape := ⟨2, ![100000, 256]⟩
abbrev S3x4x256x256 : Shape := ⟨4, ![3, 4, 256, 256]⟩
abbrev S3x4x256 : Shape := ⟨3, ![3, 4, 256]⟩
abbrev S2x400000 : Shape := ⟨2, ![2, 400000]⟩
abbrev S2x100000 : Shape := ⟨2, ![2, 100000]⟩
abbrev S150000 : Shape := ⟨1, ![150000]⟩
abbrev S50000 : Shape := ⟨1, ![50000]⟩
abbrev S10000 : Shape := ⟨1, ![10000]⟩
abbrev S1x400000 : Shape := ⟨2, ![1, 400000]⟩
abbrev S400000 : Shape := ⟨1, ![400000]⟩
abbrev S1x1x256x256 : Shape := ⟨4, ![1, 1, 256, 256]⟩
abbrev S256x256 : Shape := ⟨2, ![256, 256]⟩
abbrev S1x1x256 : Shape := ⟨3, ![1, 1, 256]⟩
abbrev S256 : Shape := ⟨1, ![256]⟩
abbrev S_ : Shape := ⟨0, ![]⟩
abbrev S400000x1 : Shape := ⟨2, ![400000, 1]⟩
abbrev S1x256 : Shape := ⟨2, ![1, 256]⟩
abbrev S150000x1 : Shape := ⟨2, ![150000, 1]⟩
abbrev S1x100000 : Shape := ⟨2, ![1, 100000]⟩
abbrev S100000 : Shape := ⟨1, ![100000]⟩
abbrev S100000x1 : Shape := ⟨2, ![100000, 1]⟩
abbrev S500x256 : Shape := ⟨2, ![500, 256]⟩
abbrev S50000x1 : Shape := ⟨2, ![50000, 1]⟩
abbrev S10000x1 : Shape := ⟨2, ![10000, 1]⟩
abbrev S500x768 : Shape := ⟨2, ![500, 768]⟩

abbrev nBuf : Space → Nat
  | .hbm => 520
  | .vmem => 0
  | .smem => 0
  | _ => 0

abbrev hbmTy0_0 (i : Nat) : BufTy := match i % 128 with
  | 0 => ⟨S50000x256, .f32⟩
  | 1 => ⟨S10000x256, .f32⟩
  | 2 => ⟨S400000x256, .f32⟩
  | 3 => ⟨S150000x256, .f32⟩
  | 4 => ⟨S150000x256, .f32⟩
  | 5 => ⟨S100000x256, .f32⟩
  | 6 => ⟨S3x4x256x256, .f32⟩
  | 7 => ⟨S3x4x256, .f32⟩
  | 8 => ⟨S3x4x256x256, .f32⟩
  | 9 => ⟨S3x4x256, .f32⟩
  | 10 => ⟨S2x400000, .i32⟩
  | 11 => ⟨S2x100000, .i32⟩
  | 12 => ⟨S150000, .i32⟩
  | 13 => ⟨S150000, .i32⟩
  | 14 => ⟨S150000, .i32⟩
  | 15 => ⟨S150000, .i32⟩
  | 16 => ⟨S50000, .i32⟩
  | 17 => ⟨S10000, .i32⟩
  | 18 => ⟨S1x400000, .i32⟩
  | 19 => ⟨S400000, .i32⟩
  | 20 => ⟨S1x400000, .i32⟩
  | 21 => ⟨S400000, .i32⟩
  | 22 => ⟨S1x1x256x256, .f32⟩
  | 23 => ⟨S256x256, .f32⟩
  | 24 => ⟨S1x1x256, .f32⟩
  | 25 => ⟨S256, .f32⟩
  | 26 => ⟨S1x1x256x256, .f32⟩
  | 27 => ⟨S256x256, .f32⟩
  | 28 => ⟨S1x1x256, .f32⟩
  | 29 => ⟨S256, .f32⟩
  | 30 => ⟨S_, .i32⟩
  | 31 => ⟨S400000, .i32⟩
  | 32 => ⟨S400000, .i1⟩
  | 33 => ⟨S_, .i32⟩
  | 34 => ⟨S400000, .i32⟩
  | 35 => ⟨S400000, .i32⟩
  | 36 => ⟨S400000, .i32⟩
  | 37 => ⟨S400000x1, .i32⟩
  | 38 => ⟨S400000x256, .f32⟩
  | 39 => ⟨S400000x256, .f32⟩
  | 40 => ⟨S_, .f32⟩
  | 41 => ⟨S400000x256, .f32⟩
  | 42 => ⟨S400000x256, .f32⟩
  | 43 => ⟨S_, .f32⟩
  | 44 => ⟨S50000x256, .f32⟩
  | 45 => ⟨S400000x1, .i32⟩
  | 46 => ⟨S50000x256, .f32⟩
  | 47 => ⟨S50000x256, .f32⟩
  | 48 => ⟨S50000x256, .f32⟩
  | 49 => ⟨S1x256, .f32⟩
  | 50 => ⟨S50000x256, .f32⟩
  | 51 => ⟨S50000x256, .f32⟩
  | 52 => ⟨S_, .f32⟩
  | 53 => ⟨S50000x256, .f32⟩
  | 54 => ⟨S50000x256, .f32⟩
  | 55 => ⟨S50000x256, .f32⟩
  | 56 => ⟨S1x256, .f32⟩
  | 57 => ⟨S50000x256, .f32⟩
  | 58 => ⟨S50000x256, .f32⟩
  | 59 => ⟨S1x1x256x256, .f32⟩
  | 60 => ⟨S256x256, .f32⟩
  | 61 => ⟨S1x1x256, .f32⟩
  | 62 => ⟨S256, .f32⟩
  | 63 => ⟨S1x1x256x256, .f32⟩
  | 64 => ⟨S256x256, .f32⟩
  | 65 => ⟨S1x1x256, .f32⟩
  | 66 => ⟨S256, .f32⟩
  | 67 => ⟨S_, .i32⟩
  | 68 => ⟨S150000, .i32⟩
  | 69 => ⟨S150000, .i1⟩
  | 70 => ⟨S_, .i32⟩
  | 71 => ⟨S150000, .i32⟩
  | 72 => ⟨S150000, .i32⟩
  | 73 => ⟨S150000, .i32⟩
  | 74 => ⟨S150000x1, .i32⟩
  | 75 => ⟨S150000x256, .f32⟩
  | 76 => ⟨S150000x256, .f32⟩
  | 77 => ⟨S_, .f32⟩
  | 78 => ⟨S150000x256, .f32⟩
  | 79 => ⟨S150000x256, .f32⟩
  | 80 => ⟨S_, .f32⟩
  | 81 => ⟨S50000x256, .f32⟩
  | 82 => ⟨S150000x1, .i32⟩
  | 83 => ⟨S50000x256, .f32⟩
  | 84 => ⟨S50000x256, .f32⟩
  | 85 => ⟨S50000x256, .f32⟩
  | 86 => ⟨S1x256, .f32⟩
  | 87 => ⟨S50000x256, .f32⟩
  | 88 => ⟨S50000x256, .f32⟩
  | 89 => ⟨S_, .f32⟩
  | 90 => ⟨S50000x256, .f32⟩
  | 91 => ⟨S50000x256, .f32⟩
  | 92 => ⟨S50000x256, .f32⟩
  | 93 => ⟨S1x256, .f32⟩
  | 94 => ⟨S50000x256, .f32⟩
  | 95 => ⟨S50000x256, .f32⟩
  | 96 => ⟨S50000x256, .f32⟩
  | 97 => ⟨S1x1x256x256, .f32⟩
  | 98 => ⟨S256x256, .f32⟩
  | 99 => ⟨S1x1x256, .f32⟩
  | 100 => ⟨S256, .f32⟩
  | 101 => ⟨S1x1x256x256, .f32⟩
  | 102 => ⟨S256x256, .f32⟩
  | 103 => ⟨S1x1x256, .f32⟩
  | 104 => ⟨S256, .f32⟩
  | 105 => ⟨S_, .i32⟩
  | 106 => ⟨S150000, .i32⟩
  | 107 => ⟨S150000, .i1⟩
  | 108 => ⟨S_, .i32⟩
  | 109 => ⟨S150000, .i32⟩
  | 110 => ⟨S150000, .i32⟩
  | 111 => ⟨S150000, .i32⟩
  | 112 => ⟨S150000x1, .i32⟩
  | 113 => ⟨S150000x256, .f32⟩
  | 114 => ⟨S150000x256, .f32⟩
  | 115 => ⟨S_, .f32⟩
  | 116 => ⟨S150000x256, .f32⟩
  | 117 => ⟨S150000x256, .f32⟩
  | 118 => ⟨S_, .f32⟩
  | 119 => ⟨S10000x256, .f32⟩
  | 120 => ⟨S150000x1, .i32⟩
  | 121 => ⟨S10000x256, .f32⟩
  | 122 => ⟨S10000x256, .f32⟩
  | 123 => ⟨S10000x256, .f32⟩
  | 124 => ⟨S1x256, .f32⟩
  | 125 => ⟨S10000x256, .f32⟩
  | 126 => ⟨S10000x256, .f32⟩
  | 127 => ⟨S_, .f32⟩
  | _ => ⟨S50000x256, .f32⟩

abbrev hbmTy0_1 (i : Nat) : BufTy := match i % 128 with
  | 0 => ⟨S10000x256, .f32⟩
  | 1 => ⟨S10000x256, .f32⟩
  | 2 => ⟨S10000x256, .f32⟩
  | 3 => ⟨S1x256, .f32⟩
  | 4 => ⟨S10000x256, .f32⟩
  | 5 => ⟨S10000x256, .f32⟩
  | 6 => ⟨S1x100000, .i32⟩
  | 7 => ⟨S100000, .i32⟩
  | 8 => ⟨S1x100000, .i32⟩
  | 9 => ⟨S100000, .i32⟩
  | 10 => ⟨S1x1x256x256, .f32⟩
  | 11 => ⟨S256x256, .f32⟩
  | 12 => ⟨S1x1x256, .f32⟩
  | 13 => ⟨S256, .f32⟩
  | 14 => ⟨S1x1x256x256, .f32⟩
  | 15 => ⟨S256x256, .f32⟩
  | 16 => ⟨S1x1x256, .f32⟩
  | 17 => ⟨S256, .f32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x256, .f32⟩
  | 27 => ⟨S100000x256, .f32⟩
  | 28 => ⟨S_, .f32⟩
  | 29 => ⟨S100000x256, .f32⟩
  | 30 => ⟨S100000x256, .f32⟩
  | 31 => ⟨S_, .f32⟩
  | 32 => ⟨S10000x256, .f32⟩
  | 33 => ⟨S100000x1, .i32⟩
  | 34 => ⟨S10000x256, .f32⟩
  | 35 => ⟨S10000x256, .f32⟩
  | 36 => ⟨S10000x256, .f32⟩
  | 37 => ⟨S1x256, .f32⟩
  | 38 => ⟨S10000x256, .f32⟩
  | 39 => ⟨S10000x256, .f32⟩
  | 40 => ⟨S_, .f32⟩
  | 41 => ⟨S10000x256, .f32⟩
  | 42 => ⟨S10000x256, .f32⟩
  | 43 => ⟨S10000x256, .f32⟩
  | 44 => ⟨S1x256, .f32⟩
  | 45 => ⟨S10000x256, .f32⟩
  | 46 => ⟨S10000x256, .f32⟩
  | 47 => ⟨S10000x256, .f32⟩
  | 48 => ⟨S_, .f32⟩
  | 49 => ⟨S500x256, .f32⟩
  | 50 => ⟨S50000x1, .i32⟩
  | 51 => ⟨S500x256, .f32⟩
  | 52 => ⟨S_, .f32⟩
  | 53 => ⟨S500x256, .f32⟩
  | 54 => ⟨S10000x1, .i32⟩
  | 55 => ⟨S500x256, .f32⟩
  | 56 => ⟨S500x256, .f32⟩
  | 57 => ⟨S1x400000, .i32⟩
  | 58 => ⟨S400000, .i32⟩
  | 59 => ⟨S1x400000, .i32⟩
  | 60 => ⟨S400000, .i32⟩
  | 61 => ⟨S1x1x256x256, .f32⟩
  | 62 => ⟨S256x256, .f32⟩
  | 63 => ⟨S1x1x256, .f32⟩
  | 64 => ⟨S256, .f32⟩
  | 65 => ⟨S1x1x256x256, .f32⟩
  | 66 => ⟨S256x256, .f32⟩
  | 67 => ⟨S1x1x256, .f32⟩
  | 68 => ⟨S256, .f32⟩
  | 69 => ⟨S_, .i32⟩
  | 70 => ⟨S400000, .i32⟩
  | 71 => ⟨S400000, .i1⟩
  | 72 => ⟨S_, .i32⟩
  | 73 => ⟨S400000, .i32⟩
  | 74 => ⟨S400000, .i32⟩
  | 75 => ⟨S400000, .i32⟩
  | 76 => ⟨S400000x1, .i32⟩
  | 77 => ⟨S400000x256, .f32⟩
  | 78 => ⟨S400000x256, .f32⟩
  | 79 => ⟨S_, .f32⟩
  | 80 => ⟨S400000x256, .f32⟩
  | 81 => ⟨S400000x256, .f32⟩
  | 82 => ⟨S_, .f32⟩
  | 83 => ⟨S50000x256, .f32⟩
  | 84 => ⟨S400000x1, .i32⟩
  | 85 => ⟨S50000x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S_, .f32⟩
  | 92 => ⟨S50000x256, .f32⟩
  | 93 => ⟨S50000x256, .f32⟩
  | 94 => ⟨S50000x256, .f32⟩
  | 95 => ⟨S1x256, .f32⟩
  | 96 => ⟨S50000x256, .f32⟩
  | 97 => ⟨S50000x256, .f32⟩
  | 98 => ⟨S1x1x256x256, .f32⟩
  | 99 => ⟨S256x256, .f32⟩
  | 100 => ⟨S1x1x256, .f32⟩
  | 101 => ⟨S256, .f32⟩
  | 102 => ⟨S1x1x256x256, .f32⟩
  | 103 => ⟨S256x256, .f32⟩
  | 104 => ⟨S1x1x256, .f32⟩
  | 105 => ⟨S256, .f32⟩
  | 106 => ⟨S_, .i32⟩
  | 107 => ⟨S150000, .i32⟩
  | 108 => ⟨S150000, .i1⟩
  | 109 => ⟨S_, .i32⟩
  | 110 => ⟨S150000, .i32⟩
  | 111 => ⟨S150000, .i32⟩
  | 112 => ⟨S150000, .i32⟩
  | 113 => ⟨S150000x1, .i32⟩
  | 114 => ⟨S150000x256, .f32⟩
  | 115 => ⟨S150000x256, .f32⟩
  | 116 => ⟨S_, .f32⟩
  | 117 => ⟨S150000x256, .f32⟩
  | 118 => ⟨S150000x256, .f32⟩
  | 119 => ⟨S_, .f32⟩
  | 120 => ⟨S50000x256, .f32⟩
  | 121 => ⟨S150000x1, .i32⟩
  | 122 => ⟨S50000x256, .f32⟩
  | 123 => ⟨S50000x256, .f32⟩
  | 124 => ⟨S50000x256, .f32⟩
  | 125 => ⟨S1x256, .f32⟩
  | 126 => ⟨S50000x256, .f32⟩
  | 127 => ⟨S50000x256, .f32⟩
  | _ => ⟨S50000x256, .f32⟩

abbrev hbmTy0_2 (i : Nat) : BufTy := match i % 128 with
  | 0 => ⟨S_, .f32⟩
  | 1 => ⟨S50000x256, .f32⟩
  | 2 => ⟨S50000x256, .f32⟩
  | 3 => ⟨S50000x256, .f32⟩
  | 4 => ⟨S1x256, .f32⟩
  | 5 => ⟨S50000x256, .f32⟩
  | 6 => ⟨S50000x256, .f32⟩
  | 7 => ⟨S50000x256, .f32⟩
  | 8 => ⟨S1x1x256x256, .f32⟩
  | 9 => ⟨S256x256, .f32⟩
  | 10 => ⟨S1x1x256, .f32⟩
  | 11 => ⟨S256, .f32⟩
  | 12 => ⟨S1x1x256x256, .f32⟩
  | 13 => ⟨S256x256, .f32⟩
  | 14 => ⟨S1x1x256, .f32⟩
  | 15 => ⟨S256, .f32⟩
  | 16 => ⟨S_, .i32⟩
  | 17 => ⟨S150000, .i32⟩
  | 18 => ⟨S150000, .i1⟩
  | 19 => ⟨S_, .i32⟩
  | 20 => ⟨S150000, .i32⟩
  | 21 => ⟨S150000, .i32⟩
  | 22 => ⟨S150000, .i32⟩
  | 23 => ⟨S150000x1, .i32⟩
  | 24 => ⟨S150000x256, .f32⟩
  | 25 => ⟨S150000x256, .f32⟩
  | 26 => ⟨S_, .f32⟩
  | 27 => ⟨S150000x256, .f32⟩
  | 28 => ⟨S150000x256, .f32⟩
  | 29 => ⟨S_, .f32⟩
  | 30 => ⟨S10000x256, .f32⟩
  | 31 => ⟨S150000x1, .i32⟩
  | 32 => ⟨S10000x256, .f32⟩
  | 33 => ⟨S10000x256, .f32⟩
  | 34 => ⟨S10000x256, .f32⟩
  | 35 => ⟨S1x256, .f32⟩
  | 36 => ⟨S10000x256, .f32⟩
  | 37 => ⟨S10000x256, .f32⟩
  | 38 => ⟨S_, .f32⟩
  | 39 => ⟨S10000x256, .f32⟩
  | 40 => ⟨S10000x256, .f32⟩
  | 41 => ⟨S10000x256, .f32⟩
  | 42 => ⟨S1x256, .f32⟩
  | 43 => ⟨S10000x256, .f32⟩
  | 44 => ⟨S10000x256, .f32⟩
  | 45 => ⟨S1x100000, .i32⟩
  | 46 => ⟨S100000, .i32⟩
  | 47 => ⟨S1x100000, .i32⟩
  | 48 => ⟨S100000, .i32⟩
  | 49 => ⟨S1x1x256x256, .f32⟩
  | 50 => ⟨S256x256, .f32⟩
  | 51 => ⟨S1x1x256, .f32⟩
  | 52 => ⟨S256, .f32⟩
  | 53 => ⟨S1x1x256x256, .f32⟩
  | 54 => ⟨S256x256, .f32⟩
  | 55 => ⟨S1x1x256, .f32⟩
  | 56 => ⟨S256, .f32⟩
  | 57 => ⟨S_, .i32⟩
  | 58 => ⟨S100000, .i32⟩
  | 59 => ⟨S100000, .i1⟩
  | 60 => ⟨S_, .i32⟩
  | 61 => ⟨S100000, .i32⟩
  | 62 => ⟨S100000, .i32⟩
  | 63 => ⟨S100000, .i32⟩
  | 64 => ⟨S100000x1, .i32⟩
  | 65 => ⟨S100000x256, .f32⟩
  | 66 => ⟨S100000x256, .f32⟩
  | 67 => ⟨S_, .f32⟩
  | 68 => ⟨S100000x256, .f32⟩
  | 69 => ⟨S100000x256, .f32⟩
  | 70 => ⟨S_, .f32⟩
  | 71 => ⟨S10000x256, .f32⟩
  | 72 => ⟨S100000x1, .i32⟩
  | 73 => ⟨S10000x256, .f32⟩
  | 74 => ⟨S10000x256, .f32⟩
  | 75 => ⟨S10000x256, .f32⟩
  | 76 => ⟨S1x256, .f32⟩
  | 77 => ⟨S10000x256, .f32⟩
  | 78 => ⟨S10000x256, .f32⟩
  | 79 => ⟨S_, .f32⟩
  | 80 => ⟨S10000x256, .f32⟩
  | 81 => ⟨S10000x256, .f32⟩
  | 82 => ⟨S10000x256, .f32⟩
  | 83 => ⟨S1x256, .f32⟩
  | 84 => ⟨S10000x256, .f32⟩
  | 85 => ⟨S10000x256, .f32⟩
  | 86 => ⟨S10000x256, .f32⟩
  | 87 => ⟨S_, .f32⟩
  | 88 => ⟨S500x256, .f32⟩
  | 89 => ⟨S50000x1, .i32⟩
  | 90 => ⟨S500x256, .f32⟩
  | 91 => ⟨S_, .f32⟩
  | 92 => ⟨S500x256, .f32⟩
  | 93 => ⟨S10000x1, .i32⟩
  | 94 => ⟨S500x256, .f32⟩
  | 95 => ⟨S500x256, .f32⟩
  | 96 => ⟨S1x400000, .i32⟩
  | 97 => ⟨S400000, .i32⟩
  | 98 => ⟨S1x400000, .i32⟩
  | 99 => ⟨S400000, .i32⟩
  | 100 => ⟨S1x1x256x256, .f32⟩
  | 101 => ⟨S256x256, .f32⟩
  | 102 => ⟨S1x1x256, .f32⟩
  | 103 => ⟨S256, .f32⟩
  | 104 => ⟨S1x1x256x256, .f32⟩
  | 105 => ⟨S256x256, .f32⟩
  | 106 => ⟨S1x1x256, .f32⟩
  | 107 => ⟨S256, .f32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000x256, .f32⟩
  | 117 => ⟨S400000x256, .f32⟩
  | 118 => ⟨S_, .f32⟩
  | 119 => ⟨S400000x256, .f32⟩
  | 120 => ⟨S400000x256, .f32⟩
  | 121 => ⟨S_, .f32⟩
  | 122 => ⟨S50000x256, .f32⟩
  | 123 => ⟨S400000x1, .i32⟩
  | 124 => ⟨S50000x256, .f32⟩
  | 125 => ⟨S50000x256, .f32⟩
  | 126 => ⟨S50000x256, .f32⟩
  | 127 => ⟨S1x256, .f32⟩
  | _ => ⟨S50000x256, .f32⟩

abbrev hbmTy0_3 (i : Nat) : BufTy := match i % 128 with
  | 0 => ⟨S50000x256, .f32⟩
  | 1 => ⟨S50000x256, .f32⟩
  | 2 => ⟨S_, .f32⟩
  | 3 => ⟨S50000x256, .f32⟩
  | 4 => ⟨S50000x256, .f32⟩
  | 5 => ⟨S50000x256, .f32⟩
  | 6 => ⟨S1x256, .f32⟩
  | 7 => ⟨S50000x256, .f32⟩
  | 8 => ⟨S50000x256, .f32⟩
  | 9 => ⟨S1x1x256x256, .f32⟩
  | 10 => ⟨S256x256, .f32⟩
  | 11 => ⟨S1x1x256, .f32⟩
  | 12 => ⟨S256, .f32⟩
  | 13 => ⟨S1x1x256x256, .f32⟩
  | 14 => ⟨S256x256, .f32⟩
  | 15 => ⟨S1x1x256, .f32⟩
  | 16 => ⟨S256, .f32⟩
  | 17 => ⟨S_, .i32⟩
  | 18 => ⟨S150000, .i32⟩
  | 19 => ⟨S150000, .i1⟩
  | 20 => ⟨S_, .i32⟩
  | 21 => ⟨S150000, .i32⟩
  | 22 => ⟨S150000, .i32⟩
  | 23 => ⟨S150000, .i32⟩
  | 24 => ⟨S150000x1, .i32⟩
  | 25 => ⟨S150000x256, .f32⟩
  | 26 => ⟨S150000x256, .f32⟩
  | 27 => ⟨S_, .f32⟩
  | 28 => ⟨S150000x256, .f32⟩
  | 29 => ⟨S150000x256, .f32⟩
  | 30 => ⟨S_, .f32⟩
  | 31 => ⟨S50000x256, .f32⟩
  | 32 => ⟨S150000x1, .i32⟩
  | 33 => ⟨S50000x256, .f32⟩
  | 34 => ⟨S50000x256, .f32⟩
  | 35 => ⟨S50000x256, .f32⟩
  | 36 => ⟨S1x256, .f32⟩
  | 37 => ⟨S50000x256, .f32⟩
  | 38 => ⟨S50000x256, .f32⟩
  | 39 => ⟨S_, .f32⟩
  | 40 => ⟨S50000x256, .f32⟩
  | 41 => ⟨S50000x256, .f32⟩
  | 42 => ⟨S50000x256, .f32⟩
  | 43 => ⟨S1x256, .f32⟩
  | 44 => ⟨S50000x256, .f32⟩
  | 45 => ⟨S50000x256, .f32⟩
  | 46 => ⟨S50000x256, .f32⟩
  | 47 => ⟨S1x1x256x256, .f32⟩
  | 48 => ⟨S256x256, .f32⟩
  | 49 => ⟨S1x1x256, .f32⟩
  | 50 => ⟨S256, .f32⟩
  | 51 => ⟨S1x1x256x256, .f32⟩
  | 52 => ⟨S256x256, .f32⟩
  | 53 => ⟨S1x1x256, .f32⟩
  | 54 => ⟨S256, .f32⟩
  | 55 => ⟨S_, .i32⟩
  | 56 => ⟨S150000, .i32⟩
  | 57 => ⟨S150000, .i1⟩
  | 58 => ⟨S_, .i32⟩
  | 59 => ⟨S150000, .i32⟩
  | 60 => ⟨S150000, .i32⟩
  | 61 => ⟨S150000, .i32⟩
  | 62 => ⟨S150000x1, .i32⟩
  | 63 => ⟨S150000x256, .f32⟩
  | 64 => ⟨S150000x256, .f32⟩
  | 65 => ⟨S_, .f32⟩
  | 66 => ⟨S150000x256, .f32⟩
  | 67 => ⟨S150000x256, .f32⟩
  | 68 => ⟨S_, .f32⟩
  | 69 => ⟨S10000x256, .f32⟩
  | 70 => ⟨S150000x1, .i32⟩
  | 71 => ⟨S10000x256, .f32⟩
  | 72 => ⟨S10000x256, .f32⟩
  | 73 => ⟨S10000x256, .f32⟩
  | 74 => ⟨S1x256, .f32⟩
  | 75 => ⟨S10000x256, .f32⟩
  | 76 => ⟨S10000x256, .f32⟩
  | 77 => ⟨S_, .f32⟩
  | 78 => ⟨S10000x256, .f32⟩
  | 79 => ⟨S10000x256, .f32⟩
  | 80 => ⟨S10000x256, .f32⟩
  | 81 => ⟨S1x256, .f32⟩
  | 82 => ⟨S10000x256, .f32⟩
  | 83 => ⟨S10000x256, .f32⟩
  | 84 => ⟨S1x100000, .i32⟩
  | 85 => ⟨S100000, .i32⟩
  | 86 => ⟨S1x100000, .i32⟩
  | 87 => ⟨S100000, .i32⟩
  | 88 => ⟨S1x1x256x256, .f32⟩
  | 89 => ⟨S256x256, .f32⟩
  | 90 => ⟨S1x1x256, .f32⟩
  | 91 => ⟨S256, .f32⟩
  | 92 => ⟨S1x1x256x256, .f32⟩
  | 93 => ⟨S256x256, .f32⟩
  | 94 => ⟨S1x1x256, .f32⟩
  | 95 => ⟨S256, .f32⟩
  | 96 => ⟨S_, .i32⟩
  | 97 => ⟨S100000, .i32⟩
  | 98 => ⟨S100000, .i1⟩
  | 99 => ⟨S_, .i32⟩
  | 100 => ⟨S100000, .i32⟩
  | 101 => ⟨S100000, .i32⟩
  | 102 => ⟨S100000, .i32⟩
  | 103 => ⟨S100000x1, .i32⟩
  | 104 => ⟨S100000x256, .f32⟩
  | 105 => ⟨S100000x256, .f32⟩
  | 106 => ⟨S_, .f32⟩
  | 107 => ⟨S100000x256, .f32⟩
  | 108 => ⟨S100000x256, .f32⟩
  | 109 => ⟨S_, .f32⟩
  | 110 => ⟨S10000x256, .f32⟩
  | 111 => ⟨S100000x1, .i32⟩
  | 112 => ⟨S10000x256, .f32⟩
  | 113 => ⟨S10000x256, .f32⟩
  | 114 => ⟨S10000x256, .f32⟩
  | 115 => ⟨S1x256, .f32⟩
  | 116 => ⟨S10000x256, .f32⟩
  | 117 => ⟨S10000x256, .f32⟩
  | 118 => ⟨S_, .f32⟩
  | 119 => ⟨S10000x256, .f32⟩
  | 120 => ⟨S10000x256, .f32⟩
  | 121 => ⟨S10000x256, .f32⟩
  | 122 => ⟨S1x256, .f32⟩
  | 123 => ⟨S10000x256, .f32⟩
  | 124 => ⟨S10000x256, .f32⟩
  | 125 => ⟨S10000x256, .f32⟩
  | 126 => ⟨S_, .f32⟩
  | 127 => ⟨S500x256, .f32⟩
  | _ => ⟨S50000x256, .f32⟩

abbrev hbmTy0_4 (i : Nat) : BufTy := match i % 128 with
  | 0 => ⟨S50000x1, .i32⟩
  | 1 => ⟨S500x256, .f32⟩
  | 2 => ⟨S_, .f32⟩
  | 3 => ⟨S500x256, .f32⟩
  | 4 => ⟨S10000x1, .i32⟩
  | 5 => ⟨S500x256, .f32⟩
  | 6 => ⟨S500x256, .f32⟩
  | 7 => ⟨S500x768, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call0_cst : Ref sig .tc := ⟨.hbm, 40, rfl⟩
abbrev main_call0_v0 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_cst : Ref sig .tc := ⟨.hbm, 52, rfl⟩
abbrev main_call1_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_1 : Ref sig .tc := ⟨.hbm, 67, rfl⟩
abbrev main_v42 : Ref sig .tc := ⟨.hbm, 68, rfl⟩
abbrev main_v43 : Ref sig .tc := ⟨.hbm, 69, rfl⟩
abbrev main_c_2 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call2_cst : Ref sig .tc := ⟨.hbm, 77, rfl⟩
abbrev main_call2_v0 : Ref sig .tc := ⟨.hbm, 78, rfl⟩
abbrev main_v50 : Ref sig .tc := ⟨.hbm, 79, rfl⟩
abbrev main_cst_3 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call3_cst : Ref sig .tc := ⟨.hbm, 89, rfl⟩
abbrev main_call3_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_4 : Ref sig .tc := ⟨.hbm, 105, rfl⟩
abbrev main_v73 : Ref sig .tc := ⟨.hbm, 106, rfl⟩
abbrev main_v74 : Ref sig .tc := ⟨.hbm, 107, rfl⟩
abbrev main_c_5 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_call4_cst : Ref sig .tc := ⟨.hbm, 115, rfl⟩
abbrev main_call4_v0 : Ref sig .tc := ⟨.hbm, 116, rfl⟩
abbrev main_v81 : Ref sig .tc := ⟨.hbm, 117, rfl⟩
abbrev main_cst_6 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_call5_cst : Ref sig .tc := ⟨.hbm, 127, rfl⟩
abbrev main_call5_v0 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_c_7 : Ref sig .tc := ⟨.hbm, 146, rfl⟩
abbrev main_v107 : Ref sig .tc := ⟨.hbm, 147, rfl⟩
abbrev main_v108 : Ref sig .tc := ⟨.hbm, 148, rfl⟩
abbrev main_c_8 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_call6_cst : Ref sig .tc := ⟨.hbm, 156, rfl⟩
abbrev main_call6_v0 : Ref sig .tc := ⟨.hbm, 157, rfl⟩
abbrev main_v115 : Ref sig .tc := ⟨.hbm, 158, rfl⟩
abbrev main_cst_9 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_call7_cst : Ref sig .tc := ⟨.hbm, 168, rfl⟩
abbrev main_call7_v0 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_10 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_11 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_c_12 : Ref sig .tc := ⟨.hbm, 197, rfl⟩
abbrev main_v149 : Ref sig .tc := ⟨.hbm, 198, rfl⟩
abbrev main_v150 : Ref sig .tc := ⟨.hbm, 199, rfl⟩
abbrev main_c_13 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_call8_cst : Ref sig .tc := ⟨.hbm, 207, rfl⟩
abbrev main_call8_v0 : Ref sig .tc := ⟨.hbm, 208, rfl⟩
abbrev main_v157 : Ref sig .tc := ⟨.hbm, 209, rfl⟩
abbrev main_cst_14 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_call9_cst : Ref sig .tc := ⟨.hbm, 219, rfl⟩
abbrev main_call9_v0 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_c_15 : Ref sig .tc := ⟨.hbm, 234, rfl⟩
abbrev main_v179 : Ref sig .tc := ⟨.hbm, 235, rfl⟩
abbrev main_v180 : Ref sig .tc := ⟨.hbm, 236, rfl⟩
abbrev main_c_16 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_call10_cst : Ref sig .tc := ⟨.hbm, 244, rfl⟩
abbrev main_call10_v0 : Ref sig .tc := ⟨.hbm, 245, rfl⟩
abbrev main_v187 : Ref sig .tc := ⟨.hbm, 246, rfl⟩
abbrev main_cst_17 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_call11_cst : Ref sig .tc := ⟨.hbm, 256, rfl⟩
abbrev main_call11_v0 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_c_18 : Ref sig .tc := ⟨.hbm, 272, rfl⟩
abbrev main_v210 : Ref sig .tc := ⟨.hbm, 273, rfl⟩
abbrev main_v211 : Ref sig .tc := ⟨.hbm, 274, rfl⟩
abbrev main_c_19 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_call12_cst : Ref sig .tc := ⟨.hbm, 282, rfl⟩
abbrev main_call12_v0 : Ref sig .tc := ⟨.hbm, 283, rfl⟩
abbrev main_v218 : Ref sig .tc := ⟨.hbm, 284, rfl⟩
abbrev main_cst_20 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_call13_cst : Ref sig .tc := ⟨.hbm, 294, rfl⟩
abbrev main_call13_v0 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_c_21 : Ref sig .tc := ⟨.hbm, 313, rfl⟩
abbrev main_v244 : Ref sig .tc := ⟨.hbm, 314, rfl⟩
abbrev main_v245 : Ref sig .tc := ⟨.hbm, 315, rfl⟩
abbrev main_c_22 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_call14_cst : Ref sig .tc := ⟨.hbm, 323, rfl⟩
abbrev main_call14_v0 : Ref sig .tc := ⟨.hbm, 324, rfl⟩
abbrev main_v252 : Ref sig .tc := ⟨.hbm, 325, rfl⟩
abbrev main_cst_23 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_call15_cst : Ref sig .tc := ⟨.hbm, 335, rfl⟩
abbrev main_call15_v0 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_cst_24 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_cst_25 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_v285 : Ref sig .tc := ⟨.hbm, 363, rfl⟩
abbrev main_c_26 : Ref sig .tc := ⟨.hbm, 364, rfl⟩
abbrev main_v286 : Ref sig .tc := ⟨.hbm, 365, rfl⟩
abbrev main_v287 : Ref sig .tc := ⟨.hbm, 366, rfl⟩
abbrev main_c_27 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_call16_cst : Ref sig .tc := ⟨.hbm, 374, rfl⟩
abbrev main_call16_v0 : Ref sig .tc := ⟨.hbm, 375, rfl⟩
abbrev main_v294 : Ref sig .tc := ⟨.hbm, 376, rfl⟩
abbrev main_cst_28 : Ref sig .tc := ⟨.hbm, 377, rfl⟩
abbrev main_v295 : Ref sig .tc := ⟨.hbm, 378, rfl⟩
abbrev main_v296 : Ref sig .tc := ⟨.hbm, 379, rfl⟩
abbrev main_v297 : Ref sig .tc := ⟨.hbm, 380, rfl⟩
abbrev main_v298 : Ref sig .tc := ⟨.hbm, 381, rfl⟩
abbrev main_v299 : Ref sig .tc := ⟨.hbm, 382, rfl⟩
abbrev main_v300 : Ref sig .tc := ⟨.hbm, 383, rfl⟩
abbrev main_v301 : Ref sig .tc := ⟨.hbm, 384, rfl⟩
abbrev main_v302 : Ref sig .tc := ⟨.hbm, 385, rfl⟩
abbrev main_call17_cst : Ref sig .tc := ⟨.hbm, 386, rfl⟩
abbrev main_call17_v0 : Ref sig .tc := ⟨.hbm, 387, rfl⟩
abbrev main_v303 : Ref sig .tc := ⟨.hbm, 388, rfl⟩
abbrev main_v304 : Ref sig .tc := ⟨.hbm, 389, rfl⟩
abbrev main_v305 : Ref sig .tc := ⟨.hbm, 390, rfl⟩
abbrev main_v306 : Ref sig .tc := ⟨.hbm, 391, rfl⟩
abbrev main_v307 : Ref sig .tc := ⟨.hbm, 392, rfl⟩
abbrev main_v308 : Ref sig .tc := ⟨.hbm, 393, rfl⟩
abbrev main_v309 : Ref sig .tc := ⟨.hbm, 394, rfl⟩
abbrev main_v310 : Ref sig .tc := ⟨.hbm, 395, rfl⟩
abbrev main_v311 : Ref sig .tc := ⟨.hbm, 396, rfl⟩
abbrev main_v312 : Ref sig .tc := ⟨.hbm, 397, rfl⟩
abbrev main_v313 : Ref sig .tc := ⟨.hbm, 398, rfl⟩
abbrev main_v314 : Ref sig .tc := ⟨.hbm, 399, rfl⟩
abbrev main_v315 : Ref sig .tc := ⟨.hbm, 400, rfl⟩
abbrev main_c_29 : Ref sig .tc := ⟨.hbm, 401, rfl⟩
abbrev main_v316 : Ref sig .tc := ⟨.hbm, 402, rfl⟩
abbrev main_v317 : Ref sig .tc := ⟨.hbm, 403, rfl⟩
abbrev main_c_30 : Ref sig .tc := ⟨.hbm, 404, rfl⟩
abbrev main_v318 : Ref sig .tc := ⟨.hbm, 405, rfl⟩
abbrev main_v319 : Ref sig .tc := ⟨.hbm, 406, rfl⟩
abbrev main_v320 : Ref sig .tc := ⟨.hbm, 407, rfl⟩
abbrev main_v321 : Ref sig .tc := ⟨.hbm, 408, rfl⟩
abbrev main_v322 : Ref sig .tc := ⟨.hbm, 409, rfl⟩
abbrev main_v323 : Ref sig .tc := ⟨.hbm, 410, rfl⟩
abbrev main_call18_cst : Ref sig .tc := ⟨.hbm, 411, rfl⟩
abbrev main_call18_v0 : Ref sig .tc := ⟨.hbm, 412, rfl⟩
abbrev main_v324 : Ref sig .tc := ⟨.hbm, 413, rfl⟩
abbrev main_cst_31 : Ref sig .tc := ⟨.hbm, 414, rfl⟩
abbrev main_v325 : Ref sig .tc := ⟨.hbm, 415, rfl⟩
abbrev main_v326 : Ref sig .tc := ⟨.hbm, 416, rfl⟩
abbrev main_v327 : Ref sig .tc := ⟨.hbm, 417, rfl⟩
abbrev main_v328 : Ref sig .tc := ⟨.hbm, 418, rfl⟩
abbrev main_v329 : Ref sig .tc := ⟨.hbm, 419, rfl⟩
abbrev main_v330 : Ref sig .tc := ⟨.hbm, 420, rfl⟩
abbrev main_v331 : Ref sig .tc := ⟨.hbm, 421, rfl⟩
abbrev main_v332 : Ref sig .tc := ⟨.hbm, 422, rfl⟩
abbrev main_call19_cst : Ref sig .tc := ⟨.hbm, 423, rfl⟩
abbrev main_call19_v0 : Ref sig .tc := ⟨.hbm, 424, rfl⟩
abbrev main_v333 : Ref sig .tc := ⟨.hbm, 425, rfl⟩
abbrev main_v334 : Ref sig .tc := ⟨.hbm, 426, rfl⟩
abbrev main_v335 : Ref sig .tc := ⟨.hbm, 427, rfl⟩
abbrev main_v336 : Ref sig .tc := ⟨.hbm, 428, rfl⟩
abbrev main_v337 : Ref sig .tc := ⟨.hbm, 429, rfl⟩
abbrev main_v338 : Ref sig .tc := ⟨.hbm, 430, rfl⟩
abbrev main_v339 : Ref sig .tc := ⟨.hbm, 431, rfl⟩
abbrev main_v340 : Ref sig .tc := ⟨.hbm, 432, rfl⟩
abbrev main_v341 : Ref sig .tc := ⟨.hbm, 433, rfl⟩
abbrev main_v342 : Ref sig .tc := ⟨.hbm, 434, rfl⟩
abbrev main_v343 : Ref sig .tc := ⟨.hbm, 435, rfl⟩
abbrev main_v344 : Ref sig .tc := ⟨.hbm, 436, rfl⟩
abbrev main_v345 : Ref sig .tc := ⟨.hbm, 437, rfl⟩
abbrev main_v346 : Ref sig .tc := ⟨.hbm, 438, rfl⟩
abbrev main_c_32 : Ref sig .tc := ⟨.hbm, 439, rfl⟩
abbrev main_v347 : Ref sig .tc := ⟨.hbm, 440, rfl⟩
abbrev main_v348 : Ref sig .tc := ⟨.hbm, 441, rfl⟩
abbrev main_c_33 : Ref sig .tc := ⟨.hbm, 442, rfl⟩
abbrev main_v349 : Ref sig .tc := ⟨.hbm, 443, rfl⟩
abbrev main_v350 : Ref sig .tc := ⟨.hbm, 444, rfl⟩
abbrev main_v351 : Ref sig .tc := ⟨.hbm, 445, rfl⟩
abbrev main_v352 : Ref sig .tc := ⟨.hbm, 446, rfl⟩
abbrev main_v353 : Ref sig .tc := ⟨.hbm, 447, rfl⟩
abbrev main_v354 : Ref sig .tc := ⟨.hbm, 448, rfl⟩
abbrev main_call20_cst : Ref sig .tc := ⟨.hbm, 449, rfl⟩
abbrev main_call20_v0 : Ref sig .tc := ⟨.hbm, 450, rfl⟩
abbrev main_v355 : Ref sig .tc := ⟨.hbm, 451, rfl⟩
abbrev main_cst_34 : Ref sig .tc := ⟨.hbm, 452, rfl⟩
abbrev main_v356 : Ref sig .tc := ⟨.hbm, 453, rfl⟩
abbrev main_v357 : Ref sig .tc := ⟨.hbm, 454, rfl⟩
abbrev main_v358 : Ref sig .tc := ⟨.hbm, 455, rfl⟩
abbrev main_v359 : Ref sig .tc := ⟨.hbm, 456, rfl⟩
abbrev main_v360 : Ref sig .tc := ⟨.hbm, 457, rfl⟩
abbrev main_v361 : Ref sig .tc := ⟨.hbm, 458, rfl⟩
abbrev main_v362 : Ref sig .tc := ⟨.hbm, 459, rfl⟩
abbrev main_v363 : Ref sig .tc := ⟨.hbm, 460, rfl⟩
abbrev main_call21_cst : Ref sig .tc := ⟨.hbm, 461, rfl⟩
abbrev main_call21_v0 : Ref sig .tc := ⟨.hbm, 462, rfl⟩
abbrev main_v364 : Ref sig .tc := ⟨.hbm, 463, rfl⟩
abbrev main_v365 : Ref sig .tc := ⟨.hbm, 464, rfl⟩
abbrev main_v366 : Ref sig .tc := ⟨.hbm, 465, rfl⟩
abbrev main_v367 : Ref sig .tc := ⟨.hbm, 466, rfl⟩
abbrev main_v368 : Ref sig .tc := ⟨.hbm, 467, rfl⟩
abbrev main_v369 : Ref sig .tc := ⟨.hbm, 468, rfl⟩
abbrev main_v370 : Ref sig .tc := ⟨.hbm, 469, rfl⟩
abbrev main_v371 : Ref sig .tc := ⟨.hbm, 470, rfl⟩
abbrev main_v372 : Ref sig .tc := ⟨.hbm, 471, rfl⟩
abbrev main_v373 : Ref sig .tc := ⟨.hbm, 472, rfl⟩
abbrev main_v374 : Ref sig .tc := ⟨.hbm, 473, rfl⟩
abbrev main_v375 : Ref sig .tc := ⟨.hbm, 474, rfl⟩
abbrev main_v376 : Ref sig .tc := ⟨.hbm, 475, rfl⟩
abbrev main_v377 : Ref sig .tc := ⟨.hbm, 476, rfl⟩
abbrev main_v378 : Ref sig .tc := ⟨.hbm, 477, rfl⟩
abbrev main_v379 : Ref sig .tc := ⟨.hbm, 478, rfl⟩
abbrev main_v380 : Ref sig .tc := ⟨.hbm, 479, rfl⟩
abbrev main_c_35 : Ref sig .tc := ⟨.hbm, 480, rfl⟩
abbrev main_v381 : Ref sig .tc := ⟨.hbm, 481, rfl⟩
abbrev main_v382 : Ref sig .tc := ⟨.hbm, 482, rfl⟩
abbrev main_c_36 : Ref sig .tc := ⟨.hbm, 483, rfl⟩
abbrev main_v383 : Ref sig .tc := ⟨.hbm, 484, rfl⟩
abbrev main_v384 : Ref sig .tc := ⟨.hbm, 485, rfl⟩
abbrev main_v385 : Ref sig .tc := ⟨.hbm, 486, rfl⟩
abbrev main_v386 : Ref sig .tc := ⟨.hbm, 487, rfl⟩
abbrev main_v387 : Ref sig .tc := ⟨.hbm, 488, rfl⟩
abbrev main_v388 : Ref sig .tc := ⟨.hbm, 489, rfl⟩
abbrev main_call22_cst : Ref sig .tc := ⟨.hbm, 490, rfl⟩
abbrev main_call22_v0 : Ref sig .tc := ⟨.hbm, 491, rfl⟩
abbrev main_v389 : Ref sig .tc := ⟨.hbm, 492, rfl⟩
abbrev main_cst_37 : Ref sig .tc := ⟨.hbm, 493, rfl⟩
abbrev main_v390 : Ref sig .tc := ⟨.hbm, 494, rfl⟩
abbrev main_v391 : Ref sig .tc := ⟨.hbm, 495, rfl⟩
abbrev main_v392 : Ref sig .tc := ⟨.hbm, 496, rfl⟩
abbrev main_v393 : Ref sig .tc := ⟨.hbm, 497, rfl⟩
abbrev main_v394 : Ref sig .tc := ⟨.hbm, 498, rfl⟩
abbrev main_v395 : Ref sig .tc := ⟨.hbm, 499, rfl⟩
abbrev main_v396 : Ref sig .tc := ⟨.hbm, 500, rfl⟩
abbrev main_v397 : Ref sig .tc := ⟨.hbm, 501, rfl⟩
abbrev main_call23_cst : Ref sig .tc := ⟨.hbm, 502, rfl⟩
abbrev main_call23_v0 : Ref sig .tc := ⟨.hbm, 503, rfl⟩
abbrev main_v398 : Ref sig .tc := ⟨.hbm, 504, rfl⟩
abbrev main_v399 : Ref sig .tc := ⟨.hbm, 505, rfl⟩
abbrev main_v400 : Ref sig .tc := ⟨.hbm, 506, rfl⟩
abbrev main_v401 : Ref sig .tc := ⟨.hbm, 507, rfl⟩
abbrev main_v402 : Ref sig .tc := ⟨.hbm, 508, rfl⟩
abbrev main_v403 : Ref sig .tc := ⟨.hbm, 509, rfl⟩
abbrev main_cst_38 : Ref sig .tc := ⟨.hbm, 510, rfl⟩
abbrev main_v404 : Ref sig .tc := ⟨.hbm, 511, rfl⟩
abbrev main_v405 : Ref sig .tc := ⟨.hbm, 512, rfl⟩
abbrev main_v406 : Ref sig .tc := ⟨.hbm, 513, rfl⟩
abbrev main_cst_39 : Ref sig .tc := ⟨.hbm, 514, rfl⟩
abbrev main_v407 : Ref sig .tc := ⟨.hbm, 515, rfl⟩
abbrev main_v408 : Ref sig .tc := ⟨.hbm, 516, rfl⟩
abbrev main_v409 : Ref sig .tc := ⟨.hbm, 517, rfl⟩
abbrev main_v410 : Ref sig .tc := ⟨.hbm, 518, rfl⟩
abbrev main_v411 : Ref sig .tc := ⟨.hbm, 519, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  slices_S3x4x256x256_S1x1x256x256_0_0_0_0 : S3x4x256x256.Slices ![0, 0, 0, 0] S1x1x256x256
  shapeCasts_S1x1x256x256_S256x256 : S1x1x256x256.ShapeCasts S256x256
  slices_S3x4x256_S1x1x256_0_0_0 : S3x4x256.Slices ![0, 0, 0] S1x1x256
  shapeCasts_S1x1x256_S256 : S1x1x256.ShapeCasts S256
  bcast_S_S400000 : S_.BroadcastsInDim S400000 (![] : Fin 0 → Fin S400000.rank)
  bcast_S400000_S400000x1_0 : S400000.BroadcastsInDim S400000x1 (![0] : Fin 1 → Fin S400000x1.rank)
  bcast_S_S400000x256 : S_.BroadcastsInDim S400000x256 (![] : Fin 0 → Fin S400000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S3x4x256x256_S1x1x256x256_0_2_0_0 : S3x4x256x256.Slices ![0, 2, 0, 0] S1x1x256x256
  slices_S3x4x256_S1x1x256_0_2_0 : S3x4x256.Slices ![0, 2, 0] S1x1x256
  bcast_S_S150000 : S_.BroadcastsInDim S150000 (![] : Fin 0 → Fin S150000.rank)
  bcast_S150000_S150000x1_0 : S150000.BroadcastsInDim S150000x1 (![0] : Fin 1 → Fin S150000x1.rank)
  bcast_S_S150000x256 : S_.BroadcastsInDim S150000x256 (![] : Fin 0 → Fin S150000x256.rank)
  slices_S3x4x256x256_S1x1x256x256_0_1_0_0 : S3x4x256x256.Slices ![0, 1, 0, 0] S1x1x256x256
  slices_S3x4x256_S1x1x256_0_1_0 : S3x4x256.Slices ![0, 1, 0] S1x1x256
  bcast_S_S10000x256 : S_.BroadcastsInDim S10000x256 (![] : Fin 0 → Fin S10000x256.rank)
  bcast_S1x256_S10000x256_0_1 : S1x256.BroadcastsInDim S10000x256 (![0, 1] : Fin 2 → Fin S10000x256.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  slices_S3x4x256x256_S1x1x256x256_0_3_0_0 : S3x4x256x256.Slices ![0, 3, 0, 0] S1x1x256x256
  slices_S3x4x256_S1x1x256_0_3_0 : S3x4x256.Slices ![0, 3, 0] S1x1x256
  bcast_S_S100000 : S_.BroadcastsInDim S100000 (![] : Fin 0 → Fin S100000.rank)
  bcast_S100000_S100000x1_0 : S100000.BroadcastsInDim S100000x1 (![0] : Fin 1 → Fin S100000x1.rank)
  bcast_S_S100000x256 : S_.BroadcastsInDim S100000x256 (![] : Fin 0 → Fin S100000x256.rank)
  bcast_S_S500x256 : S_.BroadcastsInDim S500x256 (![] : Fin 0 → Fin S500x256.rank)
  bcast_S50000_S50000x1_0 : S50000.BroadcastsInDim S50000x1 (![0] : Fin 1 → Fin S50000x1.rank)
  bcast_S10000_S10000x1_0 : S10000.BroadcastsInDim S10000x1 (![0] : Fin 1 → Fin S10000x1.rank)
  slices_S3x4x256x256_S1x1x256x256_1_0_0_0 : S3x4x256x256.Slices ![1, 0, 0, 0] S1x1x256x256
  slices_S3x4x256_S1x1x256_1_0_0 : S3x4x256.Slices ![1, 0, 0] S1x1x256
  slices_S3x4x256x256_S1x1x256x256_1_2_0_0 : S3x4x256x256.Slices ![1, 2, 0, 0] S1x1x256x256
  slices_S3x4x256_S1x1x256_1_2_0 : S3x4x256.Slices ![1, 2, 0] S1x1x256
  slices_S3x4x256x256_S1x1x256x256_1_1_0_0 : S3x4x256x256.Slices ![1, 1, 0, 0] S1x1x256x256
  slices_S3x4x256_S1x1x256_1_1_0 : S3x4x256.Slices ![1, 1, 0] S1x1x256
  slices_S3x4x256x256_S1x1x256x256_1_3_0_0 : S3x4x256x256.Slices ![1, 3, 0, 0] S1x1x256x256
  slices_S3x4x256_S1x1x256_1_3_0 : S3x4x256.Slices ![1, 3, 0] S1x1x256
  slices_S3x4x256x256_S1x1x256x256_2_0_0_0 : S3x4x256x256.Slices ![2, 0, 0, 0] S1x1x256x256
  slices_S3x4x256_S1x1x256_2_0_0 : S3x4x256.Slices ![2, 0, 0] S1x1x256
  slices_S3x4x256x256_S1x1x256x256_2_2_0_0 : S3x4x256x256.Slices ![2, 2, 0, 0] S1x1x256x256
  slices_S3x4x256_S1x1x256_2_2_0 : S3x4x256.Slices ![2, 2, 0] S1x1x256
  slices_S3x4x256x256_S1x1x256x256_2_1_0_0 : S3x4x256x256.Slices ![2, 1, 0, 0] S1x1x256x256
  slices_S3x4x256_S1x1x256_2_1_0 : S3x4x256.Slices ![2, 1, 0] S1x1x256
  slices_S3x4x256x256_S1x1x256x256_2_3_0_0 : S3x4x256x256.Slices ![2, 3, 0, 0] S1x1x256x256
  slices_S3x4x256_S1x1x256_2_3_0 : S3x4x256.Slices ![2, 3, 0] S1x1x256
  concatenates_S500x256_S500x256_S500x256_S500x768_d1 : Shape.Concatenates [S500x256, S500x256, S500x256] S500x768 1
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x256_S50000x256_1_0_0_1_n_n_wf : DotDims.WF S50000x256 S256x256 S50000x256 [1] [0] [0] [1] [] []
  gather_S10000x256_S150000x1_S150000x256_1_0_n_n_0_1_1256_wf : GatherDims.WF S10000x256 S150000x1 S150000x256 [1] [0] [] [0] [] 1 ![1, 256]
  scatter_S50000x256_S150000x1_S150000x256_1_0_0_1_wf : ScatterDims.WF S50000x256 S150000x1 S150000x256 [1] [0] [0] 1
  gather_S50000x256_S150000x1_S150000x256_1_0_n_n_0_1_1256_wf : GatherDims.WF S50000x256 S150000x1 S150000x256 [1] [0] [] [0] [] 1 ![1, 256]
  scatter_S10000x256_S150000x1_S150000x256_1_0_0_1_wf : ScatterDims.WF S10000x256 S150000x1 S150000x256 [1] [0] [0] 1
  dot_S10000x256_S256x256_S10000x256_1_0_0_1_n_n_wf : DotDims.WF S10000x256 S256x256 S10000x256 [1] [0] [0] [1] [] []
  gather_S10000x256_S100000x1_S100000x256_1_0_n_n_0_1_1256_wf : GatherDims.WF S10000x256 S100000x1 S100000x256 [1] [0] [] [0] [] 1 ![1, 256]
  scatter_S10000x256_S100000x1_S100000x256_1_0_0_1_wf : ScatterDims.WF S10000x256 S100000x1 S100000x256 [1] [0] [0] 1
  scatter_S500x256_S50000x1_S50000x256_1_0_0_1_wf : ScatterDims.WF S500x256 S50000x1 S50000x256 [1] [0] [0] 1
  scatter_S500x256_S10000x1_S10000x256_1_0_0_1_wf : ScatterDims.WF S500x256 S10000x1 S10000x256 [1] [0] [0] 1

variable [Facts₀]

def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S10000x256_S150000x1_S150000x256_1_0_n_n_0_1_1256 : GatherDims S10000x256 S150000x1 S150000x256 where
  offsetDims := [1]
  collapsedSliceDims := [0]
  operandBatchingDims := []
  startIndicesBatchingDims := []
  startIndexMap := [0]
  indexVectorDim := 1
  sliceSizes := ![1, 256]
  wf := gather_S10000x256_S150000x1_S150000x256_1_0_n_n_0_1_1256_wf
def scatter_S50000x256_S150000x1_S150000x256_1_0_0_1 : ScatterDims S50000x256 S150000x1 S150000x256 where
  updateWindowDims := [1]
  insertedWindowDims := [0]
  scatterDimsToOperandDims := [0]
  indexVectorDim := 1
  wf := scatter_S50000x256_S150000x1_S150000x256_1_0_0_1_wf
def gather_S50000x256_S150000x1_S150000x256_1_0_n_n_0_1_1256 : GatherDims S50000x256 S150000x1 S150000x256 where
  offsetDims := [1]
  collapsedSliceDims := [0]
  operandBatchingDims := []
  startIndicesBatchingDims := []
  startIndexMap := [0]
  indexVectorDim := 1
  sliceSizes := ![1, 256]
  wf := gather_S50000x256_S150000x1_S150000x256_1_0_n_n_0_1_1256_wf
def scatter_S10000x256_S150000x1_S150000x256_1_0_0_1 : ScatterDims S10000x256 S150000x1 S150000x256 where
  updateWindowDims := [1]
  insertedWindowDims := [0]
  scatterDimsToOperandDims := [0]
  indexVectorDim := 1
  wf := scatter_S10000x256_S150000x1_S150000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S100000x1_S100000x256_1_0_n_n_0_1_1256 : GatherDims S10000x256 S100000x1 S100000x256 where
  offsetDims := [1]
  collapsedSliceDims := [0]
  operandBatchingDims := []
  startIndicesBatchingDims := []
  startIndexMap := [0]
  indexVectorDim := 1
  sliceSizes := ![1, 256]
  wf := gather_S10000x256_S100000x1_S100000x256_1_0_n_n_0_1_1256_wf
def scatter_S10000x256_S100000x1_S100000x256_1_0_0_1 : ScatterDims S10000x256 S100000x1 S100000x256 where
  updateWindowDims := [1]
  insertedWindowDims := [0]
  scatterDimsToOperandDims := [0]
  indexVectorDim := 1
  wf := scatter_S10000x256_S100000x1_S100000x256_1_0_0_1_wf
def scatter_S500x256_S50000x1_S50000x256_1_0_0_1 : ScatterDims S500x256 S50000x1 S50000x256 where
  updateWindowDims := [1]
  insertedWindowDims := [0]
  scatterDimsToOperandDims := [0]
  indexVectorDim := 1
  wf := scatter_S500x256_S50000x1_S50000x256_1_0_0_1_wf
def scatter_S500x256_S10000x1_S10000x256_1_0_0_1 : ScatterDims S500x256 S10000x1 S10000x256 where
  updateWindowDims := [1]
  insertedWindowDims := [0]
  scatterDimsToOperandDims := [0]
  indexVectorDim := 1
  wf := scatter_S500x256_S10000x1_S10000x256_1_0_0_1_wf

class Facts : Prop extends Facts₀ where

variable [Facts]
-- ==== Proof.K.R0.lean ====
/-
  Region 0 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.Kernel.Launch
import proofs.«171333_j58007828300388_1_alg».proof.Proof.Gen.Kernel.Skeleton
import proofs.«171333_j58007828300388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether fetched there or carried over
    from an earlier point (its block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether fetched there or carried over
    from an earlier point (its block index has not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether fetched there or carried over
    from an earlier point (its block index has not moved since). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether fetched there or carried over
    from an earlier point (its block index has not moved since). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, whether fetched there or carried over
    from an earlier point (its block index has not moved since). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev rX0 : Rect S2000x256 := Rect.unit (s := S2000x256) ![0, 0] S2000x256.size inb_S2000x256_S2000x256_0_0
abbrev rW0 : Rect S256x256 := Rect.unit (s := S256x256) ![0, 0] S256x256.size inb_S256x256_S256x256_0_0
abbrev rB0 : Rect S256 := Rect.unit (s := S256) ![0] S256.size inb_S256_S256_0

/-- The output buffer after the body, from the five input blocks: its single store, of the payload of the loads. -/
def out0_5 (x0 : Vec F S2000x256 .f32) (x1 : Vec F S256x256 .f32) (x2 : Vec F S256 .f32) (x3 : Vec F S256x256 .f32) (x4 : Vec F S256 .f32) : Vec F S2000x256 .f32 :=
  View.canon [⟨rX0, k0_pay1 (View.ld x0 rX0) (View.ld x1 rW0) (View.ld x2 rB0) (View.ld x3 rW0) (View.ld x4 rB0)⟩]

/-- The store's rectangle is the whole buffer, so it covers it. -/
theorem cover0_5 (p0 : Vec F S2000x256 .f32) (y : S2000x256.Idx) :
    ∃ pc ∈ ([⟨rX0, p0⟩] : List (View.Piece (Elt F) S2000x256 .f32)), y ∈ pc.1.set :=
  View.cover_of_tiled [⟨rX0, p0⟩] S2000x256.size (by rfl) y

set_option maxHeartbeats 1000000 in
/-- The body on whole staging buffers, the five inputs' at known contents and the output's at anything, runs to the
    continuation with the inputs' unchanged and the output's at `out0_5` of the inputs'. -/
theorem sound_kernel0 (c : Dev nD) (E : Set ℕ) (i : grid0.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them; after the body at point `t`
    each input's buffer at its block and the output's at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic grid point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any grid point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1.lean ====
/-
  Region 1 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.Kernel.Launch
import proofs.«171333_j58007828300388_1_alg».proof.Proof.Gen.Kernel.Skeleton
import proofs.«171333_j58007828300388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether fetched there or carried over
    from an earlier point (its block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether fetched there or carried over
    from an earlier point (its block index has not moved since). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether fetched there or carried over
    from an earlier point (its block index has not moved since). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether fetched there or carried over
    from an earlier point (its block index has not moved since). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether fetched there or carried over
    from an earlier point (its block index has not moved since). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev rX1 : Rect S2000x256 := Rect.unit (s := S2000x256) ![0, 0] S2000x256.size inb_S2000x256_S2000x256_0_0
abbrev rW1 : Rect S256x256 := Rect.unit (s := S256x256) ![0, 0] S256x256.size inb_S256x256_S256x256_0_0
abbrev rB1 : Rect S256 := Rect.unit (s := S256) ![0] S256.size inb_S256_S256_0

/-- The output buffer after the body, from the five input blocks: its single store, of the payload of the loads. -/
def out1_5 (x0 : Vec F S2000x256 .f32) (x1 : Vec F S256x256 .f32) (x2 : Vec F S256 .f32) (x3 : Vec F S256x256 .f32) (x4 : Vec F S256 .f32) : Vec F S2000x256 .f32 :=
  View.canon [⟨rX1, k1_pay1 (View.ld x0 rX1) (View.ld x1 rW1) (View.ld x2 rB1) (View.ld x3 rW1) (View.ld x4 rB1)⟩]

/-- The store's rectangle is the whole buffer, so it covers it. -/
theorem cover1_5 (p0 : Vec F S2000x256 .f32) (y : S2000x256.Idx) :
    ∃ pc ∈ ([⟨rX1, p0⟩] : List (View.Piece (Elt F) S2000x256 .f32)), y ∈ pc.1.set :=
  View.cover_of_tiled [⟨rX1, p0⟩] S2000x256.size (by rfl) y

set_option maxHeartbeats 1000000 in
/-- The body on whole staging buffers, the five inputs' at known contents and the output's at anything, runs to the
    continuation with the inputs' unchanged and the output's at `out1_5` of the inputs'. -/
theorem sound_kernel1 (c : Dev nD) (E : Set ℕ) (i : grid1.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t`
    each input's buffer at its block and the output's at `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic grid point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any grid point: the inputs' buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.R2.lean ====
/-
  Region 2 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.Kernel.Launch
import proofs.«171333_j58007828300388_1_alg».proof.Proof.Gen.Kernel.Skeleton
import proofs.«171333_j58007828300388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether fetched there or carried over
    from an earlier point (its block index has not moved since). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, whether fetched there or carried over
    from an earlier point (its block index has not moved since). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, whether fetched there or carried over
    from an earlier point (its block index has not moved since). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, whether fetched there or carried over
    from an earlier point (its block index has not moved since). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, whether fetched there or carried over
    from an earlier point (its block index has not moved since). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

abbrev rX2 : Rect S2000x256 := Rect.unit (s := S2000x256) ![0, 0] S2000x256.size inb_S2000x256_S2000x256_0_0
abbrev rW2 : Rect S256x256 := Rect.unit (s := S256x256) ![0, 0] S256x256.size inb_S256x256_S256x256_0_0
abbrev rB2 : Rect S256 := Rect.unit (s := S256) ![0] S256.size inb_S256_S256_0

/-- The output buffer after the body, from the five input blocks: its single store, of the payload of the loads. -/
def out2_5 (x0 : Vec F S2000x256 .f32) (x1 : Vec F S256x256 .f32) (x2 : Vec F S256 .f32) (x3 : Vec F S256x256 .f32) (x4 : Vec F S256 .f32) : Vec F S2000x256 .f32 :=
  View.canon [⟨rX2, k2_pay1 (View.ld x0 rX2) (View.ld x1 rW2) (View.ld x2 rB2) (View.ld x3 rW2) (View.ld x4 rB2)⟩]

/-- The store's rectangle is the whole buffer, so it covers it. -/
theorem cover2_5 (p0 : Vec F S2000x256 .f32) (y : S2000x256.Idx) :
    ∃ pc ∈ ([⟨rX2, p0⟩] : List (View.Piece (Elt F) S2000x256 .f32)), y ∈ pc.1.set :=
  View.cover_of_tiled [⟨rX2, p0⟩] S2000x256.size (by rfl) y

set_option maxHeartbeats 1000000 in
/-- The body on whole staging buffers, the five inputs' at known contents and the output's at anything, runs to the
    continuation with the inputs' unchanged and the output's at `out2_5` of the inputs'. -/
theorem sound_kernel2 (c : Dev nD) (E : Set ℕ) (i : grid2.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them; after the body at point `t`
    each input's buffer at its block and the output's at `out2_5` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic grid point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any grid point: the inputs' buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.R3.lean ====
/-
  Region 3 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.Kernel.Launch
import proofs.«171333_j58007828300388_1_alg».proof.Proof.Gen.Kernel.Skeleton
import proofs.«171333_j58007828300388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether fetched there or carried over
    from an earlier point (its block index has not moved since). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether fetched there or carried over
    from an earlier point (its block index has not moved since). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether fetched there or carried over
    from an earlier point (its block index has not moved since). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether fetched there or carried over
    from an earlier point (its block index has not moved since). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, whether fetched there or carried over
    from an earlier point (its block index has not moved since). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole buffer -/

abbrev rX3 : Rect S2000x256 := Rect.unit (s := S2000x256) ![0, 0] S2000x256.size inb_S2000x256_S2000x256_0_0
abbrev rW3 : Rect S256x256 := Rect.unit (s := S256x256) ![0, 0] S256x256.size inb_S256x256_S256x256_0_0
abbrev rB3 : Rect S256 := Rect.unit (s := S256) ![0] S256.size inb_S256_S256_0

/-- The output buffer after the body, from the five input blocks: its single store, of the payload of the loads. -/
def out3_5 (x0 : Vec F S2000x256 .f32) (x1 : Vec F S256x256 .f32) (x2 : Vec F S256 .f32) (x3 : Vec F S256x256 .f32) (x4 : Vec F S256 .f32) : Vec F S2000x256 .f32 :=
  View.canon [⟨rX3, k3_pay1 (View.ld x0 rX3) (View.ld x1 rW3) (View.ld x2 rB3) (View.ld x3 rW3) (View.ld x4 rB3)⟩]

/-- The store's rectangle is the whole buffer, so it covers it. -/
theorem cover3_5 (p0 : Vec F S2000x256 .f32) (y : S2000x256.Idx) :
    ∃ pc ∈ ([⟨rX3, p0⟩] : List (View.Piece (Elt F) S2000x256 .f32)), y ∈ pc.1.set :=
  View.cover_of_tiled [⟨rX3, p0⟩] S2000x256.size (by rfl) y

set_option maxHeartbeats 1000000 in
/-- The body on whole staging buffers, the five inputs' at known contents and the output's at anything, runs to the
    continuation with the inputs' unchanged and the output's at `out3_5` of the inputs'. -/
theorem sound_kernel3 (c : Dev nD) (E : Set ℕ) (i : grid3.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of this pipeline on core `c`: the arrays as the region finds them; after the body at point `t`
    each input's buffer at its block and the output's at `out3_5` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic grid point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any grid point: the inputs' buffers hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.R4.lean ====
/-
  Region 4 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.Kernel.Launch
import proofs.«171333_j58007828300388_1_alg».proof.Proof.Gen.Kernel.Skeleton
import proofs.«171333_j58007828300388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether fetched there or carried over
    from an earlier point (its block index has not moved since). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, whether fetched there or carried over
    from an earlier point (its block index has not moved since). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, whether fetched there or carried over
    from an earlier point (its block index has not moved since). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, whether fetched there or carried over
    from an earlier point (its block index has not moved since). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, whether fetched there or carried over
    from an earlier point (its block index has not moved since). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store take a whole buffer -/

abbrev rX4 : Rect S2000x256 := Rect.unit (s := S2000x256) ![0, 0] S2000x256.size inb_S2000x256_S2000x256_0_0
abbrev rW4 : Rect S256x256 := Rect.unit (s := S256x256) ![0, 0] S256x256.size inb_S256x256_S256x256_0_0
abbrev rB4 : Rect S256 := Rect.unit (s := S256) ![0] S256.size inb_S256_S256_0

/-- The output buffer after the body, from the five input blocks: its single store, of the payload of the loads. -/
def out4_5 (x0 : Vec F S2000x256 .f32) (x1 : Vec F S256x256 .f32) (x2 : Vec F S256 .f32) (x3 : Vec F S256x256 .f32) (x4 : Vec F S256 .f32) : Vec F S2000x256 .f32 :=
  View.canon [⟨rX4, k4_pay1 (View.ld x0 rX4) (View.ld x1 rW4) (View.ld x2 rB4) (View.ld x3 rW4) (View.ld x4 rB4)⟩]

/-- The store's rectangle is the whole buffer, so it covers it. -/
theorem cover4_5 (p0 : Vec F S2000x256 .f32) (y : S2000x256.Idx) :
    ∃ pc ∈ ([⟨rX4, p0⟩] : List (View.Piece (Elt F) S2000x256 .f32)), y ∈ pc.1.set :=
  View.cover_of_tiled [⟨rX4, p0⟩] S2000x256.size (by rfl) y

set_option maxHeartbeats 1000000 in
/-- The body on whole staging buffers, the five inputs' at known contents and the output's at anything, runs to the
    continuation with the inputs' unchanged and the output's at `out4_5` of the inputs'. -/
theorem sound_kernel4 (c : Dev nD) (E : Set ℕ) (i : grid4.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__mlp_kernel i arg1 harg1 arg2 harg2 arg3 harg3 arg4 harg4 arg5 harg5 arg6 harg6) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of this pipeline on core `c`: the arrays as the region finds them; after the body at point `t`
    each input's buffer at its block and the output's at `out4_5` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic grid point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any grid point: the inputs' buffers hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.K.R5.lean ====
/-
  Region 5 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.Kernel.Launch
import proofs.«171333_j58007828300388_1_alg».proof.Proof.Gen.Kernel.Skeleton
import proofs.«171333_j58007828300388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether fetched there or carried over
    from an earlier point (its block index has not moved since). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether fetched there or carried over
    from an earlier point (its block index has not moved since). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, whether fetched there or carried over
    from an earlier point (its block index has not moved since). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, whether fetched there or carried over
    from an earlier point (its block index has not moved since). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, whether fetched there or carried over
    from an earlier point (its block index has not moved since). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take a whole buffer -/

abbrev rX5 : Rect S2000x256 := Rect.unit (s := S2000x256) ![0, 0] S2000x256.size inb_S2000x256_S2000x256_0_0
abbrev rW5 : Rect S256x256 := Rect.unit (s := S256x256) ![0, 0] S256x256.size inb_S256x256_S256x256_0_0
abbrev rB5 : Rect S256 := Rect.unit (s := S256) ![0] S256.size inb_S256_S256_0

/-- The output buffer after the body, from the five input blocks: its single store, of the payload of the loads. -/
def out5_5 (x0 : Vec F S2000x256 .f32) (x1 : Vec F S256x256 .f32) (x2 : Vec F S256 .f32) (x3 : Vec F S256x256 .f32) (x4 : Vec F S256 .f32) : Vec F S2000x256 .f32 :=
  View.canon [⟨rX5, k5_pay1 (View.ld x0 rX5) (View.ld x1 rW5) (View.ld x2 rB5) (View.ld x3 rW5) (View.ld x4 rB5)⟩]

/-- The store's rectangle is the whole buffer, so it covers it. -/
theorem cover5_5 (p0 : Vec F S2000x256 .f32) (y : S2000x256.Idx) :
    ∃ pc ∈ ([⟨rX5, p0⟩] : List (View.Piece (Elt F) S2000x256 .f32)), y ∈ pc.1.set :=
  View.cover_of_tiled [⟨rX5, p0⟩] S2000x256.size (by rfl) y

set_option maxHeartbeats 1000000 in
/-- The body on whole staging buffers, the five inputs' at known contents and the output's at anything, runs to the
    continuation with the inputs' unchanged and the output's at `out5_5` of the inputs'. -/
theorem sound_kernel5 (c : Dev nD) (E : Set ℕ) (i : grid5.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__mlp_kernel i arg1 harg1 arg2 harg2 arg3 harg3 arg4 harg4 arg5 harg5 arg6 harg6) K := by
  simp only [cc5__mlp_kernel_eq_skeleton]; unfold cc5__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of this pipeline on core `c`: the arrays as the region finds them; after the body at point `t`
    each input's buffer at its block and the output's at `out5_5` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic grid point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any grid point: the inputs' buffers hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.K.R6.lean ====
/-
  Region 6 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.Kernel.Launch
import proofs.«171333_j58007828300388_1_alg».proof.Proof.Gen.Kernel.Skeleton
import proofs.«171333_j58007828300388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether fetched there or carried over
    from an earlier point (its block index has not moved since). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, whether fetched there or carried over
    from an earlier point (its block index has not moved since). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, whether fetched there or carried over
    from an earlier point (its block index has not moved since). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, whether fetched there or carried over
    from an earlier point (its block index has not moved since). -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, whether fetched there or carried over
    from an earlier point (its block index has not moved since). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store take a whole buffer -/

abbrev rX6 : Rect S2000x256 := Rect.unit (s := S2000x256) ![0, 0] S2000x256.size inb_S2000x256_S2000x256_0_0
abbrev rW6 : Rect S256x256 := Rect.unit (s := S256x256) ![0, 0] S256x256.size inb_S256x256_S256x256_0_0
abbrev rB6 : Rect S256 := Rect.unit (s := S256) ![0] S256.size inb_S256_S256_0

/-- The output buffer after the body, from the five input blocks: its single store, of the payload of the loads. -/
def out6_5 (x0 : Vec F S2000x256 .f32) (x1 : Vec F S256x256 .f32) (x2 : Vec F S256 .f32) (x3 : Vec F S256x256 .f32) (x4 : Vec F S256 .f32) : Vec F S2000x256 .f32 :=
  View.canon [⟨rX6, k6_pay1 (View.ld x0 rX6) (View.ld x1 rW6) (View.ld x2 rB6) (View.ld x3 rW6) (View.ld x4 rB6)⟩]

/-- The store's rectangle is the whole buffer, so it covers it. -/
theorem cover6_5 (p0 : Vec F S2000x256 .f32) (y : S2000x256.Idx) :
    ∃ pc ∈ ([⟨rX6, p0⟩] : List (View.Piece (Elt F) S2000x256 .f32)), y ∈ pc.1.set :=
  View.cover_of_tiled [⟨rX6, p0⟩] S2000x256.size (by rfl) y

set_option maxHeartbeats 1000000 in
/-- The body on whole staging buffers, the five inputs' at known contents and the output's at anything, runs to the
    continuation with the inputs' unchanged and the output's at `out6_5` of the inputs'. -/
theorem sound_kernel6 (c : Dev nD) (E : Set ℕ) (i : grid6.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__mlp_kernel i arg1 harg1 arg2 harg2 arg3 harg3 arg4 harg4 arg5 harg5 arg6 harg6) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of this pipeline on core `c`: the arrays as the region finds them; after the body at point `t`
    each input's buffer at its block and the output's at `out6_5` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic grid point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any grid point: the inputs' buffers hold their blocks, so the body's triple applies; the invariant and
    the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.K.R7.lean ====
/-
  Region 7 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.Kernel.Launch
import proofs.«171333_j58007828300388_1_alg».proof.Proof.Gen.Kernel.Skeleton
import proofs.«171333_j58007828300388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether fetched there or carried over
    from an earlier point (its block index has not moved since). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, whether fetched there or carried over
    from an earlier point (its block index has not moved since). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, whether fetched there or carried over
    from an earlier point (its block index has not moved since). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, whether fetched there or carried over
    from an earlier point (its block index has not moved since). -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, whether fetched there or carried over
    from an earlier point (its block index has not moved since). -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and the one store take a whole buffer -/

abbrev rX7 : Rect S2000x256 := Rect.unit (s := S2000x256) ![0, 0] S2000x256.size inb_S2000x256_S2000x256_0_0
abbrev rW7 : Rect S256x256 := Rect.unit (s := S256x256) ![0, 0] S256x256.size inb_S256x256_S256x256_0_0
abbrev rB7 : Rect S256 := Rect.unit (s := S256) ![0] S256.size inb_S256_S256_0

/-- The output buffer after the body, from the five input blocks: its single store, of the payload of the loads. -/
def out7_5 (x0 : Vec F S2000x256 .f32) (x1 : Vec F S256x256 .f32) (x2 : Vec F S256 .f32) (x3 : Vec F S256x256 .f32) (x4 : Vec F S256 .f32) : Vec F S2000x256 .f32 :=
  View.canon [⟨rX7, k7_pay1 (View.ld x0 rX7) (View.ld x1 rW7) (View.ld x2 rB7) (View.ld x3 rW7) (View.ld x4 rB7)⟩]

/-- The store's rectangle is the whole buffer, so it covers it. -/
theorem cover7_5 (p0 : Vec F S2000x256 .f32) (y : S2000x256.Idx) :
    ∃ pc ∈ ([⟨rX7, p0⟩] : List (View.Piece (Elt F) S2000x256 .f32)), y ∈ pc.1.set :=
  View.cover_of_tiled [⟨rX7, p0⟩] S2000x256.size (by rfl) y

set_option maxHeartbeats 1000000 in
/-- The body on whole staging buffers, the five inputs' at known contents and the output's at anything, runs to the
    continuation with the inputs' unchanged and the output's at `out7_5` of the inputs'. -/
theorem sound_kernel7 (c : Dev nD) (E : Set ℕ) (i : grid7.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__mlp_kernel i arg1 harg1 arg2 harg2 arg3 harg3 arg4 harg4 arg5 harg5 arg6 harg6) K := by
  simp only [cc7__mlp_kernel_eq_skeleton]; unfold cc7__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of this pipeline on core `c`: the arrays as the region finds them; after the body at point `t`
    each input's buffer at its block and the output's at `out7_5` of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic grid point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any grid point: the inputs' buffers hold their blocks, so the body's triple applies; the invariant and
    the core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation7 (c : Dev nD) : BodyObligation (dat7 (F := F) V c) (defs₀ (F := F)) Variants.none () Set.univ := fun t => by
  rw [bigSep_W7, bigSep_W7]
  exact sound_body7 V c t

end Cert.Kernel.Fr

end
-- ==== Proof.K.R8.lean ====
/-
  Region 8 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.Kernel.Launch
import proofs.«171333_j58007828300388_1_alg».proof.Proof.Gen.Kernel.Skeleton
import proofs.«171333_j58007828300388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, whether fetched there or carried over
    from an earlier point (its block index has not moved since). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, whether fetched there or carried over
    from an earlier point (its block index has not moved since). -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, whether fetched there or carried over
    from an earlier point (its block index has not moved since). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's current staging buffer holds its block at every point, whether fetched there or carried over
    from an earlier point (its block index has not moved since). -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4's current staging buffer holds its block at every point, whether fetched there or carried over
    from an earlier point (its block index has not moved since). -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and the one store take a whole buffer -/

abbrev rX8 : Rect S2000x256 := Rect.unit (s := S2000x256) ![0, 0] S2000x256.size inb_S2000x256_S2000x256_0_0
abbrev rW8 : Rect S256x256 := Rect.unit (s := S256x256) ![0, 0] S256x256.size inb_S256x256_S256x256_0_0
abbrev rB8 : Rect S256 := Rect.unit (s := S256) ![0] S256.size inb_S256_S256_0

/-- The output buffer after the body, from the five input blocks: its single store, of the payload of the loads. -/
def out8_5 (x0 : Vec F S2000x256 .f32) (x1 : Vec F S256x256 .f32) (x2 : Vec F S256 .f32) (x3 : Vec F S256x256 .f32) (x4 : Vec F S256 .f32) : Vec F S2000x256 .f32 :=
  View.canon [⟨rX8, k8_pay1 (View.ld x0 rX8) (View.ld x1 rW8) (View.ld x2 rB8) (View.ld x3 rW8) (View.ld x4 rB8)⟩]

/-- The store's rectangle is the whole buffer, so it covers it. -/
theorem cover8_5 (p0 : Vec F S2000x256 .f32) (y : S2000x256.Idx) :
    ∃ pc ∈ ([⟨rX8, p0⟩] : List (View.Piece (Elt F) S2000x256 .f32)), y ∈ pc.1.set :=
  View.cover_of_tiled [⟨rX8, p0⟩] S2000x256.size (by rfl) y

set_option maxHeartbeats 1000000 in
/-- The body on whole staging buffers, the five inputs' at known contents and the output's at anything, runs to the
    continuation with the inputs' unchanged and the output's at `out8_5` of the inputs'. -/
theorem sound_kernel8 (c : Dev nD) (E : Set ℕ) (i : grid8.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__mlp_kernel i arg1 harg1 arg2 harg2 arg3 harg3 arg4 harg4 arg5 harg5 arg6 harg6) K := by
  simp only [cc8__mlp_kernel_eq_skeleton]; unfold cc8__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of this pipeline on core `c`: the arrays as the region finds them; after the body at point `t`
    each input's buffer at its block and the output's at `out8_5` of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic grid point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any grid point: the inputs' buffers hold their blocks, so the body's triple applies; the invariant and
    the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation8 (c : Dev nD) : BodyObligation (dat8 (F := F) V c) (defs₀ (F := F)) Variants.none () Set.univ := fun t => by
  rw [bigSep_W8, bigSep_W8]
  exact sound_body8 V c t

end Cert.Kernel.Fr

end
-- ==== Proof.K.R9.lean ====
/-
  Region 9 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.Kernel.Launch
import proofs.«171333_j58007828300388_1_alg».proof.Proof.Gen.Kernel.Skeleton
import proofs.«171333_j58007828300388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, whether fetched there or carried over
    from an earlier point (its block index has not moved since). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's current staging buffer holds its block at every point, whether fetched there or carried over
    from an earlier point (its block index has not moved since). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's current staging buffer holds its block at every point, whether fetched there or carried over
    from an earlier point (its block index has not moved since). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- Input window 3's current staging buffer holds its block at every point, whether fetched there or carried over
    from an earlier point (its block index has not moved since). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- Input window 4's current staging buffer holds its block at every point, whether fetched there or carried over
    from an earlier point (its block index has not moved since). -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every load and the one store take a whole buffer -/

abbrev rX9 : Rect S2000x256 := Rect.unit (s := S2000x256) ![0, 0] S2000x256.size inb_S2000x256_S2000x256_0_0
abbrev rW9 : Rect S256x256 := Rect.unit (s := S256x256) ![0, 0] S256x256.size inb_S256x256_S256x256_0_0
abbrev rB9 : Rect S256 := Rect.unit (s := S256) ![0] S256.size inb_S256_S256_0

/-- The output buffer after the body, from the five input blocks: its single store, of the payload of the loads. -/
def out9_5 (x0 : Vec F S2000x256 .f32) (x1 : Vec F S256x256 .f32) (x2 : Vec F S256 .f32) (x3 : Vec F S256x256 .f32) (x4 : Vec F S256 .f32) : Vec F S2000x256 .f32 :=
  View.canon [⟨rX9, k9_pay1 (View.ld x0 rX9) (View.ld x1 rW9) (View.ld x2 rB9) (View.ld x3 rW9) (View.ld x4 rB9)⟩]

/-- The store's rectangle is the whole buffer, so it covers it. -/
theorem cover9_5 (p0 : Vec F S2000x256 .f32) (y : S2000x256.Idx) :
    ∃ pc ∈ ([⟨rX9, p0⟩] : List (View.Piece (Elt F) S2000x256 .f32)), y ∈ pc.1.set :=
  View.cover_of_tiled [⟨rX9, p0⟩] S2000x256.size (by rfl) y

set_option maxHeartbeats 1000000 in
/-- The body on whole staging buffers, the five inputs' at known contents and the output's at anything, runs to the
    continuation with the inputs' unchanged and the output's at `out9_5` of the inputs'. -/
theorem sound_kernel9 (c : Dev nD) (E : Set ℕ) (i : grid9.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9__mlp_kernel i arg1 harg1 arg2 harg2 arg3 harg3 arg4 harg4 arg5 harg5 arg6 harg6) K := by
  simp only [cc9__mlp_kernel_eq_skeleton]; unfold cc9__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of this pipeline on core `c`: the arrays as the region finds them; after the body at point `t`
    each input's buffer at its block and the output's at `out9_5` of the input blocks; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic grid point -/

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any grid point: the inputs' buffers hold their blocks, so the body's triple applies; the invariant and
    the core's debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation9 (c : Dev nD) : BodyObligation (dat9 (F := F) V c) (defs₀ (F := F)) Variants.none () Set.univ := fun t => by
  rw [bigSep_W9, bigSep_W9]
  exact sound_body9 V c t

end Cert.Kernel.Fr

end
-- ==== Proof.K.R10.lean ====
/-
  Region 10 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.Kernel.Launch
import proofs.«171333_j58007828300388_1_alg».proof.Proof.Gen.Kernel.Skeleton
import proofs.«171333_j58007828300388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, whether fetched there or carried over
    from an earlier point (its block index has not moved since). -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- Input window 1's current staging buffer holds its block at every point, whether fetched there or carried over
    from an earlier point (its block index has not moved since). -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- Input window 2's current staging buffer holds its block at every point, whether fetched there or carried over
    from an earlier point (its block index has not moved since). -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
/-- Input window 3's current staging buffer holds its block at every point, whether fetched there or carried over
    from an earlier point (its block index has not moved since). -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
/-- Input window 4's current staging buffer holds its block at every point, whether fetched there or carried over
    from an earlier point (its block index has not moved since). -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: every load and the one store take a whole buffer -/

abbrev rX10 : Rect S2000x256 := Rect.unit (s := S2000x256) ![0, 0] S2000x256.size inb_S2000x256_S2000x256_0_0
abbrev rW10 : Rect S256x256 := Rect.unit (s := S256x256) ![0, 0] S256x256.size inb_S256x256_S256x256_0_0
abbrev rB10 : Rect S256 := Rect.unit (s := S256) ![0] S256.size inb_S256_S256_0

/-- The output buffer after the body, from the five input blocks: its single store, of the payload of the loads. -/
def out10_5 (x0 : Vec F S2000x256 .f32) (x1 : Vec F S256x256 .f32) (x2 : Vec F S256 .f32) (x3 : Vec F S256x256 .f32) (x4 : Vec F S256 .f32) : Vec F S2000x256 .f32 :=
  View.canon [⟨rX10, k10_pay1 (View.ld x0 rX10) (View.ld x1 rW10) (View.ld x2 rB10) (View.ld x3 rW10) (View.ld x4 rB10)⟩]

/-- The store's rectangle is the whole buffer, so it covers it. -/
theorem cover10_5 (p0 : Vec F S2000x256 .f32) (y : S2000x256.Idx) :
    ∃ pc ∈ ([⟨rX10, p0⟩] : List (View.Piece (Elt F) S2000x256 .f32)), y ∈ pc.1.set :=
  View.cover_of_tiled [⟨rX10, p0⟩] S2000x256.size (by rfl) y

set_option maxHeartbeats 1000000 in
/-- The body on whole staging buffers, the five inputs' at known contents and the output's at anything, runs to the
    continuation with the inputs' unchanged and the output's at `out10_5` of the inputs'. -/
theorem sound_kernel10 (c : Dev nD) (E : Set ℕ) (i : grid10.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out10_5 x0 x1 x2 x3 x4)) -∗ K ⟨⟩))
      ⊢ wp frame (wpE (defs₀ (F := F)) Variants.none c none) E (cc10__mlp_kernel i arg1 harg1 arg2 harg2 arg3 harg3 arg4 harg4 arg5 harg5 arg6 harg6) K := by
  simp only [cc10__mlp_kernel_eq_skeleton]; unfold cc10__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-! ## The pipeline's proof data -/

/-- The proof data of this pipeline on core `c`: the arrays as the region finds them; after the body at point `t`
    each input's buffer at its block and the output's at `out10_5` of the input blocks; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation, at a generic grid point -/

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any grid point: the inputs' buffers hold their blocks, so the body's triple applies; the invariant and
    the core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation10 (c : Dev nD) : BodyObligation (dat10 (F := F) V c) (defs₀ (F := F)) Variants.none () Set.univ := fun t => by
  rw [bigSep_W10, bigSep_W10]
  exact sound_body10 V c t

end Cert.Kernel.Fr

end
-- ==== Proof.K.R11.lean ====
/-
  Region 11 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.Kernel.Launch
import proofs.«171333_j58007828300388_1_alg».proof.Proof.Gen.Kernel.Skeleton
import proofs.«171333_j58007828300388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, whether fetched there or carried over
    from an earlier point (its block index has not moved since). -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its block at every point, whether fetched there or carried over
    from an earlier point (its block index has not moved since). -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its block at every point, whether fetched there or carried over
    from an earlier point (its block index has not moved since). -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3's current staging buffer holds its block at every point, whether fetched there or carried over
    from an earlier point (its block index has not moved since). -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4's current staging buffer holds its block at every point, whether fetched there or carried over
    from an earlier point (its block index has not moved since). -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: every load and the one store take a whole buffer -/

abbrev rX11 : Rect S2000x256 := Rect.unit (s := S2000x256) ![0, 0] S2000x256.size inb_S2000x256_S2000x256_0_0
abbrev rW11 : Rect S256x256 := Rect.unit (s := S256x256) ![0, 0] S256x256.size inb_S256x256_S256x256_0_0
abbrev rB11 : Rect S256 := Rect.unit (s := S256) ![0] S256.size inb_S256_S256_0

/-- The output buffer after the body, from the five input blocks: its single store, of the payload of the loads. -/
def out11_5 (x0 : Vec F S2000x256 .f32) (x1 : Vec F S256x256 .f32) (x2 : Vec F S256 .f32) (x3 : Vec F S256x256 .f32) (x4 : Vec F S256 .f32) : Vec F S2000x256 .f32 :=
  View.canon [⟨rX11, k11_pay1 (View.ld x0 rX11) (View.ld x1 rW11) (View.ld x2 rB11) (View.ld x3 rW11) (View.ld x4 rB11)⟩]

/-- The store's rectangle is the whole buffer, so it covers it. -/
theorem cover11_5 (p0 : Vec F S2000x256 .f32) (y : S2000x256.Idx) :
    ∃ pc ∈ ([⟨rX11, p0⟩] : List (View.Piece (Elt F) S2000x256 .f32)), y ∈ pc.1.set :=
  View.cover_of_tiled [⟨rX11, p0⟩] S2000x256.size (by rfl) y

set_option maxHeartbeats 1000000 in
/-- The body on whole staging buffers, the five inputs' at known contents and the output's at anything, runs to the
    continuation with the inputs' unchanged and the output's at `out11_5` of the inputs'. -/
theorem sound_kernel11 (c : Dev nD) (E : Set ℕ) (i : grid11.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out11_5 x0 x1 x2 x3 x4)) -∗ K ⟨⟩))
      ⊢ wp frame (wpE (defs₀ (F := F)) Variants.none c none) E (cc11__mlp_kernel i arg1 harg1 arg2 harg2 arg3 harg3 arg4 harg4 arg5 harg5 arg6 harg6) K := by
  simp only [cc11__mlp_kernel_eq_skeleton]; unfold cc11__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-! ## The pipeline's proof data -/

/-- The proof data of this pipeline on core `c`: the arrays as the region finds them; after the body at point `t`
    each input's buffer at its block and the output's at `out11_5` of the input blocks; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation, at a generic grid point -/

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any grid point: the inputs' buffers hold their blocks, so the body's triple applies; the invariant and
    the core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation11 (c : Dev nD) : BodyObligation (dat11 (F := F) V c) (defs₀ (F := F)) Variants.none () Set.univ := fun t => by
  rw [bigSep_W11, bigSep_W11]
  exact sound_body11 V c t

end Cert.Kernel.Fr

end
-- ==== Proof.K.Chain.lean ====
/-
  The contents of a core's buffers at every boundary between two items of the program's main function, as a fold from
  the launch memory: a stretch of host operations applies them in order; a kernel region leaves each of its arrays at
  what its pipeline's write-backs leave (the inputs as entered, the output's blocks folded in) and every other buffer
  as entered.  Beside the fold: which buffers each item leaves alone.
-/
import proofs.«171333_j58007828300388_1_alg».proof.Proof.K.R0
import proofs.«171333_j58007828300388_1_alg».proof.Proof.K.R1
import proofs.«171333_j58007828300388_1_alg».proof.Proof.K.R2
import proofs.«171333_j58007828300388_1_alg».proof.Proof.K.R3
import proofs.«171333_j58007828300388_1_alg».proof.Proof.K.R4
import proofs.«171333_j58007828300388_1_alg».proof.Proof.K.R5
import proofs.«171333_j58007828300388_1_alg».proof.Proof.K.R6
import proofs.«171333_j58007828300388_1_alg».proof.Proof.K.R7
import proofs.«171333_j58007828300388_1_alg».proof.Proof.K.R8
import proofs.«171333_j58007828300388_1_alg».proof.Proof.K.R9
import proofs.«171333_j58007828300388_1_alg».proof.Proof.K.R10
import proofs.«171333_j58007828300388_1_alg».proof.Proof.K.R11
import proofs.«171333_j58007828300388_1_alg».proof.Proof.WritesK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- After item 0, the host stretch `hostOps0`. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
theorem W1_of (c : Dev nD) (r : Ref sig .tc) (h : r ∉ hostOps0_W) : W1 m ρ c r = W0 m ρ c r :=
  StableHlo.after_of_writes_sub hostOps0 _ hostOps0_writes h
/-- After item 1, the host stretch `hostOps0_1`. -/
abbrev W2 : Dev nD → Valuation τ sig (Elt F) := fun c => StableHlo.after hostOps0_1 (W1 m ρ c)
abbrev U2 : (c : Dev nD) → (b : Ref sig .tc) → Buf (Elt F) ((c : Thread nD τ).loc b) := fun c b => W2 m ρ c b
theorem W2_of (c : Dev nD) (r : Ref sig .tc) (h : r ∉ hostOps0_1_W) : W2 m ρ c r = W1 m ρ c r :=
  StableHlo.after_of_writes_sub hostOps0_1 _ hostOps0_1_writes h
/-- After item 2, the host stretch `hostOps0_2`. -/
abbrev W3 : Dev nD → Valuation τ sig (Elt F) := fun c => StableHlo.after hostOps0_2 (W2 m ρ c)
abbrev U3 : (c : Dev nD) → (b : Ref sig .tc) → Buf (Elt F) ((c : Thread nD τ).loc b) := fun c b => W3 m ρ c b
theorem W3_of (c : Dev nD) (r : Ref sig .tc) (h : r ∉ hostOps0_2_W) : W3 m ρ c r = W2 m ρ c r :=
  StableHlo.after_of_writes_sub hostOps0_2 _ hostOps0_2_writes h
/-- After item 3, the host stretch `hostOps0_3`. -/
abbrev W4 : Dev nD → Valuation τ sig (Elt F) := fun c => StableHlo.after hostOps0_3 (W3 m ρ c)
abbrev U4 : (c : Dev nD) → (b : Ref sig .tc) → Buf (Elt F) ((c : Thread nD τ).loc b) := fun c b => W4 m ρ c b
theorem W4_of (c : Dev nD) (r : Ref sig .tc) (h : r ∉ hostOps0_3_W) : W4 m ρ c r = W3 m ρ c r :=
  StableHlo.after_of_writes_sub hostOps0_3 _ hostOps0_3_writes h
/-- After item 4, the host stretch `hostOps0_4`. -/
abbrev W5 : Dev nD → Valuation τ sig (Elt F) := fun c => StableHlo.after hostOps0_4 (W4 m ρ c)
abbrev U5 : (c : Dev nD) → (b : Ref sig .tc) → Buf (Elt F) ((c : Thread nD τ).loc b) := fun c b => W5 m ρ c b
theorem W5_of (c : Dev nD) (r : Ref sig .tc) (h : r ∉ hostOps0_4_W) : W5 m ρ c r = W4 m ρ c r :=
  StableHlo.after_of_writes_sub hostOps0_4 _ hostOps0_4_writes h
/-- After item 5, the host stretch `hostOps0_5`. -/
abbrev W6 : Dev nD → Valuation τ sig (Elt F) := fun c => StableHlo.after hostOps0_5 (W5 m ρ c)
abbrev U6 : (c : Dev nD) → (b : Ref sig .tc) → Buf (Elt F) ((c : Thread nD τ).loc b) := fun c b => W6 m ρ c b
theorem W6_of (c : Dev nD) (r : Ref sig .tc) (h : r ∉ hostOps0_5_W) : W6 m ρ c r = W5 m ρ c r :=
  StableHlo.after_of_writes_sub hostOps0_5 _ hostOps0_5_writes h
/-- After item 6, the host stretch `hostOps0_6`. -/
abbrev W7 : Dev nD → Valuation τ sig (Elt F) := fun c => StableHlo.after hostOps0_6 (W6 m ρ c)
abbrev U7 : (c : Dev nD) → (b : Ref sig .tc) → Buf (Elt F) ((c : Thread nD τ).loc b) := fun c b => W7 m ρ c b
theorem W7_of (c : Dev nD) (r : Ref sig .tc) (h : r ∉ hostOps0_6_W) : W7 m ρ c r = W6 m ρ c r :=
  StableHlo.after_of_writes_sub hostOps0_6 _ hostOps0_6_writes h
/-- After item 7, the host stretch `hostOps0_7`. -/
abbrev W8 : Dev nD → Valuation τ sig (Elt F) := fun c => StableHlo.after hostOps0_7 (W7 m ρ c)
abbrev U8 : (c : Dev nD) → (b : Ref sig .tc) → Buf (Elt F) ((c : Thread nD τ).loc b) := fun c b => W8 m ρ c b
theorem W8_of (c : Dev nD) (r : Ref sig .tc) (h : r ∉ hostOps0_7_W) : W8 m ρ c r = W7 m ρ c r :=
  StableHlo.after_of_writes_sub hostOps0_7 _ hostOps0_7_writes h
/-- After item 8, the host stretch `hostOps0_8`. -/
abbrev W9 : Dev nD → Valuation τ sig (Elt F) := fun c => StableHlo.after hostOps0_8 (W8 m ρ c)
abbrev U9 : (c : Dev nD) → (b : Ref sig .tc) → Buf (Elt F) ((c : Thread nD τ).loc b) := fun c b => W9 m ρ c b
theorem W9_of (c : Dev nD) (r : Ref sig .tc) (h : r ∉ hostOps0_8_W) : W9 m ρ c r = W8 m ρ c r :=
  StableHlo.after_of_writes_sub hostOps0_8 _ hostOps0_8_writes h
/-- After item 9, kernel region 0: its arrays at what the pipeline leaves, every other buffer as entered. -/
def W10 (c : Dev nD) : Valuation τ sig (Elt F) :=
  Pipeline.withArrays spec0 c (W9 m ρ c) fun w => (dat0 (U9 m ρ) c).arrAt w cfg0.N
theorem W10_arr (c : Dev nD) (w : Fin cfg0.W) :
    W10 m ρ c (Proc.devRef .tc (Pipeline.arrRef spec0 w)) = (dat0 (U9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
abbrev U10 : (c : Dev nD) → (b : Ref sig .tc) → Buf (Elt F) ((c : Thread nD τ).loc b) := fun c b => W10 m ρ c b
theorem hF0 (c : Dev nD) (w : Fin cfg0.W) : (dat0 (U9 m ρ) c).arrAt w cfg0.N = U10 m ρ c (Pipeline.arrRef spec0 w) :=
  (W10_arr m ρ c w).symm
theorem hrest0 (c : Dev nD) : ∀ b, b ∉ Finset.univ.image (Pipeline.arrRef spec0) → U10 m ρ c b = U9 m ρ c b :=
  fun b hb => W10_of_ne m ρ c b fun w e => hb (Finset.mem_image.mpr ⟨w, Finset.mem_univ _, e⟩)
theorem W10_of (c : Dev nD) (r : Ref sig .tc) (h : ∀ w, Pipeline.arrRef spec0 w ≠ r) : W10 m ρ c r = W9 m ρ c r :=
  W10_of_ne m ρ c r h
/-- After item 10, the host stretch `hostOps1`. -/
abbrev W11 : Dev nD → Valuation τ sig (Elt F) := fun c => StableHlo.after hostOps1 (W10 m ρ c)
abbrev U11 : (c : Dev nD) → (b : Ref sig .tc) → Buf (Elt F) ((c : Thread nD τ).loc b) := fun c b => W11 m ρ c b
theorem W11_of (c : Dev nD) (r : Ref sig .tc) (h : r ∉ hostOps1_W) : W11 m ρ c r = W10 m ρ c r :=
  StableHlo.after_of_writes_sub hostOps1 _ hostOps1_writes h
/-- After item 11, kernel region 1: its arrays at what the pipeline leaves, every other buffer as entered. -/
def W12 (c : Dev nD) : Valuation τ sig (Elt F) :=
  Pipeline.withArrays spec1 c (W11 m ρ c) fun w => (dat1 (U11 m ρ) c).arrAt w cfg1.N
theorem W12_arr (c : Dev nD) (w : Fin cfg1.W) :
    W12 m ρ c (Proc.devRef .tc (Pipeline.arrRef spec1 w)) = (dat1 (U11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev U12 : (c : Dev nD) → (b : Ref sig .tc) → Buf (Elt F) ((c : Thread nD τ).loc b) := fun c b => W12 m ρ c b
theorem hF1 (c : Dev nD) (w : Fin cfg1.W) : (dat1 (U11 m ρ) c).arrAt w cfg1.N = U12 m ρ c (Pipeline.arrRef spec1 w) :=
  (W12_arr m ρ c w).symm
theorem hrest1 (c : Dev nD) : ∀ b, b ∉ Finset.univ.image (Pipeline.arrRef spec1) → U12 m ρ c b = U11 m ρ c b :=
  fun b hb => W12_of_ne m ρ c b fun w e => hb (Finset.mem_image.mpr ⟨w, Finset.mem_univ _, e⟩)
theorem W12_of (c : Dev nD) (r : Ref sig .tc) (h : ∀ w, Pipeline.arrRef spec1 w ≠ r) : W12 m ρ c r = W11 m ρ c r :=
  W12_of_ne m ρ c r h
/-- After item 12, the host stretch `hostOps2`. -/
abbrev W13 : Dev nD → Valuation τ sig (Elt F) := fun c => StableHlo.after hostOps2 (W12 m ρ c)
abbrev U13 : (c : Dev nD) → (b : Ref sig .tc) → Buf (Elt F) ((c : Thread nD τ).loc b) := fun c b => W13 m ρ c b
theorem W13_of (c : Dev nD) (r : Ref sig .tc) (h : r ∉ hostOps2_W) : W13 m ρ c r = W12 m ρ c r :=
  StableHlo.after_of_writes_sub hostOps2 _ hostOps2_writes h
/-- After item 13, kernel region 2: its arrays at what the pipeline leaves, every other buffer as entered. -/
def W14 (c : Dev nD) : Valuation τ sig (Elt F) :=
  Pipeline.withArrays spec2 c (W13 m ρ c) fun w => (dat2 (U13 m ρ) c).arrAt w cfg2.N
theorem W14_arr (c : Dev nD) (w : Fin cfg2.W) :
    W14 m ρ c (Proc.devRef .tc (Pipeline.arrRef spec2 w)) = (dat2 (U13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
abbrev U14 : (c : Dev nD) → (b : Ref sig .tc) → Buf (Elt F) ((c : Thread nD τ).loc b) := fun c b => W14 m ρ c b
theorem hF2 (c : Dev nD) (w : Fin cfg2.W) : (dat2 (U13 m ρ) c).arrAt w cfg2.N = U14 m ρ c (Pipeline.arrRef spec2 w) :=
  (W14_arr m ρ c w).symm
theorem hrest2 (c : Dev nD) : ∀ b, b ∉ Finset.univ.image (Pipeline.arrRef spec2) → U14 m ρ c b = U13 m ρ c b :=
  fun b hb => W14_of_ne m ρ c b fun w e => hb (Finset.mem_image.mpr ⟨w, Finset.mem_univ _, e⟩)
theorem W14_of (c : Dev nD) (r : Ref sig .tc) (h : ∀ w, Pipeline.arrRef spec2 w ≠ r) : W14 m ρ c r = W13 m ρ c r :=
  W14_of_ne m ρ c r h
/-- After item 14, the host stretch `hostOps3`. -/
abbrev W15 : Dev nD → Valuation τ sig (Elt F) := fun c => StableHlo.after hostOps3 (W14 m ρ c)
abbrev U15 : (c : Dev nD) → (b : Ref sig .tc) → Buf (Elt F) ((c : Thread nD τ).loc b) := fun c b => W15 m ρ c b
theorem W15_of (c : Dev nD) (r : Ref sig .tc) (h : r ∉ hostOps3_W) : W15 m ρ c r = W14 m ρ c r :=
  StableHlo.after_of_writes_sub hostOps3 _ hostOps3_writes h
/-- After item 15, kernel region 3: its arrays at what the pipeline leaves, every other buffer as entered. -/
def W16 (c : Dev nD) : Valuation τ sig (Elt F) :=
  Pipeline.withArrays spec3 c (W15 m ρ c) fun w => (dat3 (U15 m ρ) c).arrAt w cfg3.N
theorem W16_arr (c : Dev nD) (w : Fin cfg3.W) :
    W16 m ρ c (Proc.devRef .tc (Pipeline.arrRef spec3 w)) = (dat3 (U15 m ρ) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m ρ c (Proc.devRef .tc b) = W15 m ρ c (Proc.devRef .tc b) := by
  unfold W16; exact Pipeline.withArrays_of_ne spec3 c _ _ b hb
abbrev U16 : (c : Dev nD) → (b : Ref sig .tc) → Buf (Elt F) ((c : Thread nD τ).loc b) := fun c b => W16 m ρ c b
theorem hF3 (c : Dev nD) (w : Fin cfg3.W) : (dat3 (U15 m ρ) c).arrAt w cfg3.N = U16 m ρ c (Pipeline.arrRef spec3 w) :=
  (W16_arr m ρ c w).symm
theorem hrest3 (c : Dev nD) : ∀ b, b ∉ Finset.univ.image (Pipeline.arrRef spec3) → U16 m ρ c b = U15 m ρ c b :=
  fun b hb => W16_of_ne m ρ c b fun w e => hb (Finset.mem_image.mpr ⟨w, Finset.mem_univ _, e⟩)
theorem W16_of (c : Dev nD) (r : Ref sig .tc) (h : ∀ w, Pipeline.arrRef spec3 w ≠ r) : W16 m ρ c r = W15 m ρ c r :=
  W16_of_ne m ρ c r h
/-- After item 16, the host stretch `hostOps4`. -/
abbrev W17 : Dev nD → Valuation τ sig (Elt F) := fun c => StableHlo.after hostOps4 (W16 m ρ c)
abbrev U17 : (c : Dev nD) → (b : Ref sig .tc) → Buf (Elt F) ((c : Thread nD τ).loc b) := fun c b => W17 m ρ c b
theorem W17_of (c : Dev nD) (r : Ref sig .tc) (h : r ∉ hostOps4_W) : W17 m ρ c r = W16 m ρ c r :=
  StableHlo.after_of_writes_sub hostOps4 _ hostOps4_writes h
/-- After item 17, the host stretch `hostOps4_1`. -/
abbrev W18 : Dev nD → Valuation τ sig (Elt F) := fun c => StableHlo.after hostOps4_1 (W17 m ρ c)
abbrev U18 : (c : Dev nD) → (b : Ref sig .tc) → Buf (Elt F) ((c : Thread nD τ).loc b) := fun c b => W18 m ρ c b
theorem W18_of (c : Dev nD) (r : Ref sig .tc) (h : r ∉ hostOps4_1_W) : W18 m ρ c r = W17 m ρ c r :=
  StableHlo.after_of_writes_sub hostOps4_1 _ hostOps4_1_writes h
/-- After item 18, the host stretch `hostOps4_2`. -/
abbrev W19 : Dev nD → Valuation τ sig (Elt F) := fun c => StableHlo.after hostOps4_2 (W18 m ρ c)
abbrev U19 : (c : Dev nD) → (b : Ref sig .tc) → Buf (Elt F) ((c : Thread nD τ).loc b) := fun c b => W19 m ρ c b
theorem W19_of (c : Dev nD) (r : Ref sig .tc) (h : r ∉ hostOps4_2_W) : W19 m ρ c r = W18 m ρ c r :=
  StableHlo.after_of_writes_sub hostOps4_2 _ hostOps4_2_writes h
/-- After item 19, the host stretch `hostOps4_3`. -/
abbrev W20 : Dev nD → Valuation τ sig (Elt F) := fun c => StableHlo.after hostOps4_3 (W19 m ρ c)
abbrev U20 : (c : Dev nD) → (b : Ref sig .tc) → Buf (Elt F) ((c : Thread nD τ).loc b) := fun c b => W20 m ρ c b
theorem W20_of (c : Dev nD) (r : Ref sig .tc) (h : r ∉ hostOps4_3_W) : W20 m ρ c r = W19 m ρ c r :=
  StableHlo.after_of_writes_sub hostOps4_3 _ hostOps4_3_writes h
/-- After item 20, the host stretch `hostOps4_4`. -/
abbrev W21 : Dev nD → Valuation τ sig (Elt F) := fun c => StableHlo.after hostOps4_4 (W20 m ρ c)
abbrev U21 : (c : Dev nD) → (b : Ref sig .tc) → Buf (Elt F) ((c : Thread nD τ).loc b) := fun c b => W21 m ρ c b
theorem W21_of (c : Dev nD) (r : Ref sig .tc) (h : r ∉ hostOps4_4_W) : W21 m ρ c r = W20 m ρ c r :=
  StableHlo.after_of_writes_sub hostOps4_4 _ hostOps4_4_writes h
/-- After item 21, the host stretch `hostOps4_5`. -/
abbrev W22 : Dev nD → Valuation τ sig (Elt F) := fun c => StableHlo.after hostOps4_5 (W21 m ρ c)
abbrev U22 : (c : Dev nD) → (b : Ref sig .tc) → Buf (Elt F) ((c : Thread nD τ).loc b) := fun c b => W22 m ρ c b
theorem W22_of (c : Dev nD) (r : Ref sig .tc) (h : r ∉ hostOps4_5_W) : W22 m ρ c r = W21 m ρ c r :=
  StableHlo.after_of_writes_sub hostOps4_5 _ hostOps4_5_writes h
/-- After item 22, the host stretch `hostOps4_6`. -/
abbrev W23 : Dev nD → Valuation τ sig (Elt F) := fun c => StableHlo.after hostOps4_6 (W22 m ρ c)
abbrev U23 : (c : Dev nD) → (b : Ref sig .tc) → Buf (Elt F) ((c : Thread nD τ).loc b) := fun c b => W23 m ρ c b
theorem W23_of (c : Dev nD) (r : Ref sig .tc) (h : r ∉ hostOps4_6_W) : W23 m ρ c r = W22 m ρ c r :=
  StableHlo.after_of_writes_sub hostOps4_6 _ hostOps4_6_writes h
/-- After item 23, the host stretch `hostOps4_7`. -/
abbrev W24 : Dev nD → Valuation τ sig (Elt F) := fun c => StableHlo.after hostOps4_7 (W23 m ρ c)
abbrev U24 : (c : Dev nD) → (b : Ref sig .tc) → Buf (Elt F) ((c : Thread nD τ).loc b) := fun c b => W24 m ρ c b
theorem W24_of (c : Dev nD) (r : Ref sig .tc) (h : r ∉ hostOps4_7_W) : W24 m ρ c r = W23 m ρ c r :=
  StableHlo.after_of_writes_sub hostOps4_7 _ hostOps4_7_writes h
/-- After item 24, the host stretch `hostOps4_8`. -/
abbrev W25 : Dev nD → Valuation τ sig (Elt F) := fun c => StableHlo.after hostOps4_8 (W24 m ρ c)
abbrev U25 : (c : Dev nD) → (b : Ref sig .tc) → Buf (Elt F) ((c : Thread nD τ).loc b) := fun c b => W25 m ρ c b
theorem W25_of (c : Dev nD) (r : Ref sig .tc) (h : r ∉ hostOps4_8_W) : W25 m ρ c r = W24 m ρ c r :=
  StableHlo.after_of_writes_sub hostOps4_8 _ hostOps4_8_writes h
/-- After item 25, kernel region 4: its arrays at what the pipeline leaves, every other buffer as entered. -/
def W26 (c : Dev nD) : Valuation τ sig (Elt F) :=
  Pipeline.withArrays spec4 c (W25 m ρ c) fun w => (dat4 (U25 m ρ) c).arrAt w cfg4.N
theorem W26_arr (c : Dev nD) (w : Fin cfg4.W) :
    W26 m ρ c (Proc.devRef .tc (Pipeline.arrRef spec4 w)) = (dat4 (U25 m ρ) c).arrAt w cfg4.N := by
  unfold W26; exact Pipeline.withArrays_arr spec4 launch4.win.arr_inj c _ _ w
theorem W26_of_ne (c : Dev nD) (b : Ref sig .tc) (hb : ∀ w, Pipeline.arrRef spec4 w ≠ b) :
    W26 m ρ c (Proc.devRef .tc b) = W25 m ρ c (Proc.devRef .tc b) := by
  unfold W26; exact Pipeline.withArrays_of_ne spec4 c _ _ b hb
abbrev U26 : (c : Dev nD) → (b : Ref sig .tc) → Buf (Elt F) ((c : Thread nD τ).loc b) := fun c b => W26 m ρ c b
theorem hF4 (c : Dev nD) (w : Fin cfg4.W) : (dat4 (U25 m ρ) c).arrAt w cfg4.N = U26 m ρ c (Pipeline.arrRef spec4 w) :=
  (W26_arr m ρ c w).symm
theorem hrest4 (c : Dev nD) : ∀ b, b ∉ Finset.univ.image (Pipeline.arrRef spec4) → U26 m ρ c b = U25 m ρ c b :=
  fun b hb => W26_of_ne m ρ c b fun w e => hb (Finset.mem_image.mpr ⟨w, Finset.mem_univ _, e⟩)
theorem W26_of (c : Dev nD) (r : Ref sig .tc) (h : ∀ w, Pipeline.arrRef spec4 w ≠ r) : W26 m ρ c r = W25 m ρ c r :=
  W26_of_ne m ρ c r h
/-- After item 26, the host stretch `hostOps5`. -/
abbrev W27 : Dev nD → Valuation τ sig (Elt F) := fun c => StableHlo.after hostOps5 (W26 m ρ c)
abbrev U27 : (c : Dev nD) → (b : Ref sig .tc) → Buf (Elt F) ((c : Thread nD τ).loc b) := fun c b => W27 m ρ c b
theorem W27_of (c : Dev nD) (r : Ref sig .tc) (h : r ∉ hostOps5_W) : W27 m ρ c r = W26 m ρ c r :=
  StableHlo.after_of_writes_sub hostOps5 _ hostOps5_writes h
/-- After item 27, kernel region 5: its arrays at what the pipeline leaves, every other buffer as entered. -/
def W28 (c : Dev nD) : Valuation τ sig (Elt F) :=
  Pipeline.withArrays spec5 c (W27 m ρ c) fun w => (dat5 (U27 m ρ) c).arrAt w cfg5.N
theorem W28_arr (c : Dev nD) (w : Fin cfg5.W) :
    W28 m ρ c (Proc.devRef .tc (Pipeline.arrRef spec5 w)) = (dat5 (U27 m ρ) c).arrAt w cfg5.N := by
  unfold W28; exact Pipeline.withArrays_arr spec5 launch5.win.arr_inj c _ _ w
theorem W28_of_ne (c : Dev nD) (b : Ref sig .tc) (hb : ∀ w, Pipeline.arrRef spec5 w ≠ b) :
    W28 m ρ c (Proc.devRef .tc b) = W27 m ρ c (Proc.devRef .tc b) := by
  unfold W28; exact Pipeline.withArrays_of_ne spec5 c _ _ b hb
abbrev U28 : (c : Dev nD) → (b : Ref sig .tc) → Buf (Elt F) ((c : Thread nD τ).loc b) := fun c b => W28 m ρ c b
theorem hF5 (c : Dev nD) (w : Fin cfg5.W) : (dat5 (U27 m ρ) c).arrAt w cfg5.N = U28 m ρ c (Pipeline.arrRef spec5 w) :=
  (W28_arr m ρ c w).symm
theorem hrest5 (c : Dev nD) : ∀ b, b ∉ Finset.univ.image (Pipeline.arrRef spec5) → U28 m ρ c b = U27 m ρ c b :=
  fun b hb => W28_of_ne m ρ c b fun w e => hb (Finset.mem_image.mpr ⟨w, Finset.mem_univ _, e⟩)
theorem W28_of (c : Dev nD) (r : Ref sig .tc) (h : ∀ w, Pipeline.arrRef spec5 w ≠ r) : W28 m ρ c r = W27 m ρ c r :=
  W28_of_ne m ρ c r h
/-- After item 28, the host stretch `hostOps6`. -/
abbrev W29 : Dev nD → Valuation τ sig (Elt F) := fun c => StableHlo.after hostOps6 (W28 m ρ c)
abbrev U29 : (c : Dev nD) → (b : Ref sig .tc) → Buf (Elt F) ((c : Thread nD τ).loc b) := fun c b => W29 m ρ c b
theorem W29_of (c : Dev nD) (r : Ref sig .tc) (h : r ∉ hostOps6_W) : W29 m ρ c r = W28 m ρ c r :=
  StableHlo.after_of_writes_sub hostOps6 _ hostOps6_writes h
/-- After item 29, kernel region 6: its arrays at what the pipeline leaves, every other buffer as entered. -/
def W30 (c : Dev nD) : Valuation τ sig (Elt F) :=
  Pipeline.withArrays spec6 c (W29 m ρ c) fun w => (dat6 (U29 m ρ) c).arrAt w cfg6.N
theorem W30_arr (c : Dev nD) (w : Fin cfg6.W) :
    W30 m ρ c (Proc.devRef .tc (Pipeline.arrRef spec6 w)) = (dat6 (U29 m ρ) c).arrAt w cfg6.N := by
  unfold W30; exact Pipeline.withArrays_arr spec6 launch6.win.arr_inj c _ _ w
theorem W30_of_ne (c : Dev nD) (b : Ref sig .tc) (hb : ∀ w, Pipeline.arrRef spec6 w ≠ b) :
    W30 m ρ c (Proc.devRef .tc b) = W29 m ρ c (Proc.devRef .tc b) := by
  unfold W30; exact Pipeline.withArrays_of_ne spec6 c _ _ b hb
abbrev U30 : (c : Dev nD) → (b : Ref sig .tc) → Buf (Elt F) ((c : Thread nD τ).loc b) := fun c b => W30 m ρ c b
theorem hF6 (c : Dev nD) (w : Fin cfg6.W) : (dat6 (U29 m ρ) c).arrAt w cfg6.N = U30 m ρ c (Pipeline.arrRef spec6 w) :=
  (W30_arr m ρ c w).symm
theorem hrest6 (c : Dev nD) : ∀ b, b ∉ Finset.univ.image (Pipeline.arrRef spec6) → U30 m ρ c b = U29 m ρ c b :=
  fun b hb => W30_of_ne m ρ c b fun w e => hb (Finset.mem_image.mpr ⟨w, Finset.mem_univ _, e⟩)
theorem W30_of (c : Dev nD) (r : Ref sig .tc) (h : ∀ w, Pipeline.arrRef spec6 w ≠ r) : W30 m ρ c r = W29 m ρ c r :=
  W30_of_ne m ρ c r h
/-- After item 30, the host stretch `hostOps7`. -/
abbrev W31 : Dev nD → Valuation τ sig (Elt F) := fun c => StableHlo.after hostOps7 (W30 m ρ c)
abbrev U31 : (c : Dev nD) → (b : Ref sig .tc) → Buf (Elt F) ((c : Thread nD τ).loc b) := fun c b => W31 m ρ c b
theorem W31_of (c : Dev nD) (r : Ref sig .tc) (h : r ∉ hostOps7_W) : W31 m ρ c r = W30 m ρ c r :=
  StableHlo.after_of_writes_sub hostOps7 _ hostOps7_writes h
/-- After item 31, kernel region 7: its arrays at what the pipeline leaves, every other buffer as entered. -/
def W32 (c : Dev nD) : Valuation τ sig (Elt F) :=
  Pipeline.withArrays spec7 c (W31 m ρ c) fun w => (dat7 (U31 m ρ) c).arrAt w cfg7.N
theorem W32_arr (c : Dev nD) (w : Fin cfg7.W) :
    W32 m ρ c (Proc.devRef .tc (Pipeline.arrRef spec7 w)) = (dat7 (U31 m ρ) c).arrAt w cfg7.N := by
  unfold W32; exact Pipeline.withArrays_arr spec7 launch7.win.arr_inj c _ _ w
theorem W32_of_ne (c : Dev nD) (b : Ref sig .tc) (hb : ∀ w, Pipeline.arrRef spec7 w ≠ b) :
    W32 m ρ c (Proc.devRef .tc b) = W31 m ρ c (Proc.devRef .tc b) := by
  unfold W32; exact Pipeline.withArrays_of_ne spec7 c _ _ b hb
abbrev U32 : (c : Dev nD) → (b : Ref sig .tc) → Buf (Elt F) ((c : Thread nD τ).loc b) := fun c b => W32 m ρ c b
theorem hF7 (c : Dev nD) (w : Fin cfg7.W) : (dat7 (U31 m ρ) c).arrAt w cfg7.N = U32 m ρ c (Pipeline.arrRef spec7 w) :=
  (W32_arr m ρ c w).symm
theorem hrest7 (c : Dev nD) : ∀ b, b ∉ Finset.univ.image (Pipeline.arrRef spec7) → U32 m ρ c b = U31 m ρ c b :=
  fun b hb => W32_of_ne m ρ c b fun w e => hb (Finset.mem_image.mpr ⟨w, Finset.mem_univ _, e⟩)
theorem W32_of (c : Dev nD) (r : Ref sig .tc) (h : ∀ w, Pipeline.arrRef spec7 w ≠ r) : W32 m ρ c r = W31 m ρ c r :=
  W32_of_ne m ρ c r h
/-- After item 32, the host stretch `hostOps8`. -/
abbrev W33 : Dev nD → Valuation τ sig (Elt F) := fun c => StableHlo.after hostOps8 (W32 m ρ c)
abbrev U33 : (c : Dev nD) → (b : Ref sig .tc) → Buf (Elt F) ((c : Thread nD τ).loc b) := fun c b => W33 m ρ c b
theorem W33_of (c : Dev nD) (r : Ref sig .tc) (h : r ∉ hostOps8_W) : W33 m ρ c r = W32 m ρ c r :=
  StableHlo.after_of_writes_sub hostOps8 _ hostOps8_writes h
/-- After item 33, the host stretch `hostOps8_1`. -/
abbrev W34 : Dev nD → Valuation τ sig (Elt F) := fun c => StableHlo.after hostOps8_1 (W33 m ρ c)
abbrev U34 : (c : Dev nD) → (b : Ref sig .tc) → Buf (Elt F) ((c : Thread nD τ).loc b) := fun c b => W34 m ρ c b
theorem W34_of (c : Dev nD) (r : Ref sig .tc) (h : r ∉ hostOps8_1_W) : W34 m ρ c r = W33 m ρ c r :=
  StableHlo.after_of_writes_sub hostOps8_1 _ hostOps8_1_writes h
/-- After item 34, the host stretch `hostOps8_2`. -/
abbrev W35 : Dev nD → Valuation τ sig (Elt F) := fun c => StableHlo.after hostOps8_2 (W34 m ρ c)
abbrev U35 : (c : Dev nD) → (b : Ref sig .tc) → Buf (Elt F) ((c : Thread nD τ).loc b) := fun c b => W35 m ρ c b
theorem W35_of (c : Dev nD) (r : Ref sig .tc) (h : r ∉ hostOps8_2_W) : W35 m ρ c r = W34 m ρ c r :=
  StableHlo.after_of_writes_sub hostOps8_2 _ hostOps8_2_writes h
/-- After item 35, the host stretch `hostOps8_3`. -/
abbrev W36 : Dev nD → Valuation τ sig (Elt F) := fun c => StableHlo.after hostOps8_3 (W35 m ρ c)
abbrev U36 : (c : Dev nD) → (b : Ref sig .tc) → Buf (Elt F) ((c : Thread nD τ).loc b) := fun c b => W36 m ρ c b
theorem W36_of (c : Dev nD) (r : Ref sig .tc) (h : r ∉ hostOps8_3_W) : W36 m ρ c r = W35 m ρ c r :=
  StableHlo.after_of_writes_sub hostOps8_3 _ hostOps8_3_writes h
/-- After item 36, the host stretch `hostOps8_4`. -/
abbrev W37 : Dev nD → Valuation τ sig (Elt F) := fun c => StableHlo.after hostOps8_4 (W36 m ρ c)
abbrev U37 : (c : Dev nD) → (b : Ref sig .tc) → Buf (Elt F) ((c : Thread nD τ).loc b) := fun c b => W37 m ρ c b
theorem W37_of (c : Dev nD) (r : Ref sig .tc) (h : r ∉ hostOps8_4_W) : W37 m ρ c r = W36 m ρ c r :=
  StableHlo.after_of_writes_sub hostOps8_4 _ hostOps8_4_writes h
/-- After item 37, the host stretch `hostOps8_5`. -/
abbrev W38 : Dev nD → Valuation τ sig (Elt F) := fun c => StableHlo.after hostOps8_5 (W37 m ρ c)
abbrev U38 : (c : Dev nD) → (b : Ref sig .tc) → Buf (Elt F) ((c : Thread nD τ).loc b) := fun c b => W38 m ρ c b
theorem W38_of (c : Dev nD) (r : Ref sig .tc) (h : r ∉ hostOps8_5_W) : W38 m ρ c r = W37 m ρ c r :=
  StableHlo.after_of_writes_sub hostOps8_5 _ hostOps8_5_writes h
/-- After item 38, the host stretch `hostOps8_6`. -/
abbrev W39 : Dev nD → Valuation τ sig (Elt F) := fun c => StableHlo.after hostOps8_6 (W38 m ρ c)
abbrev U39 : (c : Dev nD) → (b : Ref sig .tc) → Buf (Elt F) ((c : Thread nD τ).loc b) := fun c b => W39 m ρ c b
theorem W39_of (c : Dev nD) (r : Ref sig .tc) (h : r ∉ hostOps8_6_W) : W39 m ρ c r = W38 m ρ c r :=
  StableHlo.after_of_writes_sub hostOps8_6 _ hostOps8_6_writes h
/-- After item 39, the host stretch `hostOps8_7`. -/
abbrev W40 : Dev nD → Valuation τ sig (Elt F) := fun c => StableHlo.after hostOps8_7 (W39 m ρ c)
abbrev U40 : (c : Dev nD) → (b : Ref sig .tc) → Buf (Elt F) ((c : Thread nD τ).loc b) := fun c b => W40 m ρ c b
theorem W40_of (c : Dev nD) (r : Ref sig .tc) (h : r ∉ hostOps8_7_W) : W40 m ρ c r = W39 m ρ c r :=
  StableHlo.after_of_writes_sub hostOps8_7 _ hostOps8_7_writes h
/-- After item 40, the host stretch `hostOps8_8`. -/
abbrev W41 : Dev nD → Valuation τ sig (Elt F) := fun c => StableHlo.after hostOps8_8 (W40 m ρ c)
abbrev U41 : (c : Dev nD) → (b : Ref sig .tc) → Buf (Elt F) ((c : Thread nD τ).loc b) := fun c b => W41 m ρ c b
theorem W41_of (c : Dev nD) (r : Ref sig .tc) (h : r ∉ hostOps8_8_W) : W41 m ρ c r = W40 m ρ c r :=
  StableHlo.after_of_writes_sub hostOps8_8 _ hostOps8_8_writes h
/-- After item 41, kernel region 8: its arrays at what the pipeline leaves, every other buffer as entered. -/
def W42 (c : Dev nD) : Valuation τ sig (Elt F) :=
  Pipeline.withArrays spec8 c (W41 m ρ c) fun w => (dat8 (U41 m ρ) c).arrAt w cfg8.N
theorem W42_arr (c : Dev nD) (w : Fin cfg8.W) :
    W42 m ρ c (Proc.devRef .tc (Pipeline.arrRef spec8 w)) = (dat8 (U41 m ρ) c).arrAt w cfg8.N := by
  unfold W42; exact Pipeline.withArrays_arr spec8 launch8.win.arr_inj c _ _ w
theorem W42_of_ne (c : Dev nD) (b : Ref sig .tc) (hb : ∀ w, Pipeline.arrRef spec8 w ≠ b) :
    W42 m ρ c (Proc.devRef .tc b) = W41 m ρ c (Proc.devRef .tc b) := by
  unfold W42; exact Pipeline.withArrays_of_ne spec8 c _ _ b hb
abbrev U42 : (c : Dev nD) → (b : Ref sig .tc) → Buf (Elt F) ((c : Thread nD τ).loc b) := fun c b => W42 m ρ c b
theorem hF8 (c : Dev nD) (w : Fin cfg8.W) : (dat8 (U41 m ρ) c).arrAt w cfg8.N = U42 m ρ c (Pipeline.arrRef spec8 w) :=
  (W42_arr m ρ c w).symm
theorem hrest8 (c : Dev nD) : ∀ b, b ∉ Finset.univ.image (Pipeline.arrRef spec8) → U42 m ρ c b = U41 m ρ c b :=
  fun b hb => W42_of_ne m ρ c b fun w e => hb (Finset.mem_image.mpr ⟨w, Finset.mem_univ _, e⟩)
theorem W42_of (c : Dev nD) (r : Ref sig .tc) (h : ∀ w, Pipeline.arrRef spec8 w ≠ r) : W42 m ρ c r = W41 m ρ c r :=
  W42_of_ne m ρ c r h
/-- After item 42, the host stretch `hostOps9`. -/
abbrev W43 : Dev nD → Valuation τ sig (Elt F) := fun c => StableHlo.after hostOps9 (W42 m ρ c)
abbrev U43 : (c : Dev nD) → (b : Ref sig .tc) → Buf (Elt F) ((c : Thread nD τ).loc b) := fun c b => W43 m ρ c b
theorem W43_of (c : Dev nD) (r : Ref sig .tc) (h : r ∉ hostOps9_W) : W43 m ρ c r = W42 m ρ c r :=
  StableHlo.after_of_writes_sub hostOps9 _ hostOps9_writes h
/-- After item 43, kernel region 9: its arrays at what the pipeline leaves, every other buffer as entered. -/
def W44 (c : Dev nD) : Valuation τ sig (Elt F) :=
  Pipeline.withArrays spec9 c (W43 m ρ c) fun w => (dat9 (U43 m ρ) c).arrAt w cfg9.N
theorem W44_arr (c : Dev nD) (w : Fin cfg9.W) :
    W44 m ρ c (Proc.devRef .tc (Pipeline.arrRef spec9 w)) = (dat9 (U43 m ρ) c).arrAt w cfg9.N := by
  unfold W44; exact Pipeline.withArrays_arr spec9 launch9.win.arr_inj c _ _ w
theorem W44_of_ne (c : Dev nD) (b : Ref sig .tc) (hb : ∀ w, Pipeline.arrRef spec9 w ≠ b) :
    W44 m ρ c (Proc.devRef .tc b) = W43 m ρ c (Proc.devRef .tc b) := by
  unfold W44; exact Pipeline.withArrays_of_ne spec9 c _ _ b hb
abbrev U44 : (c : Dev nD) → (b : Ref sig .tc) → Buf (Elt F) ((c : Thread nD τ).loc b) := fun c b => W44 m ρ c b
theorem hF9 (c : Dev nD) (w : Fin cfg9.W) : (dat9 (U43 m ρ) c).arrAt w cfg9.N = U44 m ρ c (Pipeline.arrRef spec9 w) :=
  (W44_arr m ρ c w).symm
theorem hrest9 (c : Dev nD) : ∀ b, b ∉ Finset.univ.image (Pipeline.arrRef spec9) → U44 m ρ c b = U43 m ρ c b :=
  fun b hb => W44_of_ne m ρ c b fun w e => hb (Finset.mem_image.mpr ⟨w, Finset.mem_univ _, e⟩)
theorem W44_of (c : Dev nD) (r : Ref sig .tc) (h : ∀ w, Pipeline.arrRef spec9 w ≠ r) : W44 m ρ c r = W43 m ρ c r :=
  W44_of_ne m ρ c r h
/-- After item 44, the host stretch `hostOps10`. -/
abbrev W45 : Dev nD → Valuation τ sig (Elt F) := fun c => StableHlo.after hostOps10 (W44 m ρ c)
abbrev U45 : (c : Dev nD) → (b : Ref sig .tc) → Buf (Elt F) ((c : Thread nD τ).loc b) := fun c b => W45 m ρ c b
theorem W45_of (c : Dev nD) (r : Ref sig .tc) (h : r ∉ hostOps10_W) : W45 m ρ c r = W44 m ρ c r :=
  StableHlo.after_of_writes_sub hostOps10 _ hostOps10_writes h
/-- After item 45, kernel region 10: its arrays at what the pipeline leaves, every other buffer as entered. -/
def W46 (c : Dev nD) : Valuation τ sig (Elt F) :=
  Pipeline.withArrays spec10 c (W45 m ρ c) fun w => (dat10 (U45 m ρ) c).arrAt w cfg10.N
theorem W46_arr (c : Dev nD) (w : Fin cfg10.W) :
    W46 m ρ c (Proc.devRef .tc (Pipeline.arrRef spec10 w)) = (dat10 (U45 m ρ) c).arrAt w cfg10.N := by
  unfold W46; exact Pipeline.withArrays_arr spec10 launch10.win.arr_inj c _ _ w
theorem W46_of_ne (c : Dev nD) (b : Ref sig .tc) (hb : ∀ w, Pipeline.arrRef spec10 w ≠ b) :
    W46 m ρ c (Proc.devRef .tc b) = W45 m ρ c (Proc.devRef .tc b) := by
  unfold W46; exact Pipeline.withArrays_of_ne spec10 c _ _ b hb
abbrev U46 : (c : Dev nD) → (b : Ref sig .tc) → Buf (Elt F) ((c : Thread nD τ).loc b) := fun c b => W46 m ρ c b
theorem hF10 (c : Dev nD) (w : Fin cfg10.W) : (dat10 (U45 m ρ) c).arrAt w cfg10.N = U46 m ρ c (Pipeline.arrRef spec10 w) :=
  (W46_arr m ρ c w).symm
theorem hrest10 (c : Dev nD) : ∀ b, b ∉ Finset.univ.image (Pipeline.arrRef spec10) → U46 m ρ c b = U45 m ρ c b :=
  fun b hb => W46_of_ne m ρ c b fun w e => hb (Finset.mem_image.mpr ⟨w, Finset.mem_univ _, e⟩)
theorem W46_of (c : Dev nD) (r : Ref sig .tc) (h : ∀ w, Pipeline.arrRef spec10 w ≠ r) : W46 m ρ c r = W45 m ρ c r :=
  W46_of_ne m ρ c r h
/-- After item 46, the host stretch `hostOps11`. -/
abbrev W47 : Dev nD → Valuation τ sig (Elt F) := fun c => StableHlo.after hostOps11 (W46 m ρ c)
abbrev U47 : (c : Dev nD) → (b : Ref sig .tc) → Buf (Elt F) ((c : Thread nD τ).loc b) := fun c b => W47 m ρ c b
theorem W47_of (c : Dev nD) (r : Ref sig .tc) (h : r ∉ hostOps11_W) : W47 m ρ c r = W46 m ρ c r :=
  StableHlo.after_of_writes_sub hostOps11 _ hostOps11_writes h
/-- After item 47, kernel region 11: its arrays at what the pipeline leaves, every other buffer as entered. -/
def W48 (c : Dev nD) : Valuation τ sig (Elt F) :=
  Pipeline.withArrays spec11 c (W47 m ρ c) fun w => (dat11 (U47 m ρ) c).arrAt w cfg11.N
theorem W48_arr (c : Dev nD) (w : Fin cfg11.W) :
    W48 m ρ c (Proc.devRef .tc (Pipeline.arrRef spec11 w)) = (dat11 (U47 m ρ) c).arrAt w cfg11.N := by
  unfold W48; exact Pipeline.withArrays_arr spec11 launch11.win.arr_inj c _ _ w
theorem W48_of_ne (c : Dev nD) (b : Ref sig .tc) (hb : ∀ w, Pipeline.arrRef spec11 w ≠ b) :
    W48 m ρ c (Proc.devRef .tc b) = W47 m ρ c (Proc.devRef .tc b) := by
  unfold W48; exact Pipeline.withArrays_of_ne spec11 c _ _ b hb
abbrev U48 : (c : Dev nD) → (b : Ref sig .tc) → Buf (Elt F) ((c : Thread nD τ).loc b) := fun c b => W48 m ρ c b
theorem hF11 (c : Dev nD) (w : Fin cfg11.W) : (dat11 (U47 m ρ) c).arrAt w cfg11.N = U48 m ρ c (Pipeline.arrRef spec11 w) :=
  (W48_arr m ρ c w).symm
theorem hrest11 (c : Dev nD) : ∀ b, b ∉ Finset.univ.image (Pipeline.arrRef spec11) → U48 m ρ c b = U47 m ρ c b :=
  fun b hb => W48_of_ne m ρ c b fun w e => hb (Finset.mem_image.mpr ⟨w, Finset.mem_univ _, e⟩)
theorem W48_of (c : Dev nD) (r : Ref sig .tc) (h : ∀ w, Pipeline.arrRef spec11 w ≠ r) : W48 m ρ c r = W47 m ρ c r :=
  W48_of_ne m ρ c r h
/-- After item 48, the host stretch `hostOps12`. -/
abbrev W49 : Dev nD → Valuation τ sig (Elt F) := fun c => StableHlo.after hostOps12 (W48 m ρ c)
abbrev U49 : (c : Dev nD) → (b : Ref sig .tc) → Buf (Elt F) ((c : Thread nD τ).loc b) := fun c b => W49 m ρ c b
theorem W49_of (c : Dev nD) (r : Ref sig .tc) (h : r ∉ hostOps12_W) : W49 m ρ c r = W48 m ρ c r :=
  StableHlo.after_of_writes_sub hostOps12 _ hostOps12_writes h

/-! ## The proof data family and the thread state -/

/-- No pipeline has a prefetched table. -/
abbrev fadm : (p : Fin 12) → (pcfgs (F := F) p).Adm := fun p => (cfgs p).toPCfg_adm
/-- Every pipeline's proof data, each at its region's entry contents. -/
def fdats : (p : Fin 12) → (c : Dev nD) → Dat τ (Elt F) Unit ℕ (UR sig nD τ) ℕ (Pipeline.pin (pcfgs (F := F)) fadm p) c
  | ⟨0, _⟩ => fun c => dat0 (U9 m ρ) c
  | ⟨1, _⟩ => fun c => dat1 (U11 m ρ) c
  | ⟨2, _⟩ => fun c => dat2 (U13 m ρ) c
  | ⟨3, _⟩ => fun c => dat3 (U15 m ρ) c
  | ⟨4, _⟩ => fun c => dat4 (U25 m ρ) c
  | ⟨5, _⟩ => fun c => dat5 (U27 m ρ) c
  | ⟨6, _⟩ => fun c => dat6 (U29 m ρ) c
  | ⟨7, _⟩ => fun c => dat7 (U31 m ρ) c
  | ⟨8, _⟩ => fun c => dat8 (U41 m ρ) c
  | ⟨9, _⟩ => fun c => dat9 (U43 m ρ) c
  | ⟨10, _⟩ => fun c => dat10 (U45 m ρ) c
  | ⟨11, _⟩ => fun c => dat11 (U47 m ρ) c
abbrev 𝒱f : Variants := Variants.none
abbrev Lf : GSem nD τ sig → Finset Unit := fun _ => ∅
abbrev lvf : GSem nD τ sig → Unit → ℕ := fun _ _ => 0
/-- What rides beside the buffers through every item: the core's generator register at some state, and nothing owed. -/
abbrev Rf (c : Dev nD) : sProp (MT nD τ sig Unit (Elt F) ℕ (UR sig nD τ) ℕ) := iprop((∃ r, prngReg c r) ∗ ∃ W, owes (c : Thread nD τ) (0 : CellTallies nD τ sig Unit) W)
/-- A host stretch as a segment over the unscoped buffers from the contents `W`. -/
abbrev hsegf (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱f Lf lvf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rf
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched: no host operation writes one and no region stages one -/

theorem W49_main_arg0 (c : Dev nD) : W49 m ρ c main_arg0 = m ((c : Thread nD τ).loc main_arg0) :=
  (W49_of m ρ c main_arg0 (by decide)).trans <| (W48_of m ρ c main_arg0 (by decide)).trans <| (W47_of m ρ c main_arg0 (by decide)).trans <| (W46_of m ρ c main_arg0 (by decide)).trans <| (W45_of m ρ c main_arg0 (by decide)).trans <| (W44_of m ρ c main_arg0 (by decide)).trans <| (W43_of m ρ c main_arg0 (by decide)).trans <| (W42_of m ρ c main_arg0 (by decide)).trans <| (W41_of m ρ c main_arg0 (by decide)).trans <| (W40_of m ρ c main_arg0 (by decide)).trans <| (W39_of m ρ c main_arg0 (by decide)).trans <| (W38_of m ρ c main_arg0 (by decide)).trans <| (W37_of m ρ c main_arg0 (by decide)).trans <| (W36_of m ρ c main_arg0 (by decide)).trans <| (W35_of m ρ c main_arg0 (by decide)).trans <| (W34_of m ρ c main_arg0 (by decide)).trans <| (W33_of m ρ c main_arg0 (by decide)).trans <| (W32_of m ρ c main_arg0 (by decide)).trans <| (W31_of m ρ c main_arg0 (by decide)).trans <| (W30_of m ρ c main_arg0 (by decide)).trans <| (W29_of m ρ c main_arg0 (by decide)).trans <| (W28_of m ρ c main_arg0 (by decide)).trans <| (W27_of m ρ c main_arg0 (by decide)).trans <| (W26_of m ρ c main_arg0 (by decide)).trans <| (W25_of m ρ c main_arg0 (by decide)).trans <| (W24_of m ρ c main_arg0 (by decide)).trans <| (W23_of m ρ c main_arg0 (by decide)).trans <| (W22_of m ρ c main_arg0 (by decide)).trans <| (W21_of m ρ c main_arg0 (by decide)).trans <| (W20_of m ρ c main_arg0 (by decide)).trans <| (W19_of m ρ c main_arg0 (by decide)).trans <| (W18_of m ρ c main_arg0 (by decide)).trans <| (W17_of m ρ c main_arg0 (by decide)).trans <| (W16_of m ρ c main_arg0 (by decide)).trans <| (W15_of m ρ c main_arg0 (by decide)).trans <| (W14_of m ρ c main_arg0 (by decide)).trans <| (W13_of m ρ c main_arg0 (by decide)).trans <| (W12_of m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans <| rfl
theorem W49_main_arg1 (c : Dev nD) : W49 m ρ c main_arg1 = m ((c : Thread nD τ).loc main_arg1) :=
  (W49_of m ρ c main_arg1 (by decide)).trans <| (W48_of m ρ c main_arg1 (by decide)).trans <| (W47_of m ρ c main_arg1 (by decide)).trans <| (W46_of m ρ c main_arg1 (by decide)).trans <| (W45_of m ρ c main_arg1 (by decide)).trans <| (W44_of m ρ c main_arg1 (by decide)).trans <| (W43_of m ρ c main_arg1 (by decide)).trans <| (W42_of m ρ c main_arg1 (by decide)).trans <| (W41_of m ρ c main_arg1 (by decide)).trans <| (W40_of m ρ c main_arg1 (by decide)).trans <| (W39_of m ρ c main_arg1 (by decide)).trans <| (W38_of m ρ c main_arg1 (by decide)).trans <| (W37_of m ρ c main_arg1 (by decide)).trans <| (W36_of m ρ c main_arg1 (by decide)).trans <| (W35_of m ρ c main_arg1 (by decide)).trans <| (W34_of m ρ c main_arg1 (by decide)).trans <| (W33_of m ρ c main_arg1 (by decide)).trans <| (W32_of m ρ c main_arg1 (by decide)).trans <| (W31_of m ρ c main_arg1 (by decide)).trans <| (W30_of m ρ c main_arg1 (by decide)).trans <| (W29_of m ρ c main_arg1 (by decide)).trans <| (W28_of m ρ c main_arg1 (by decide)).trans <| (W27_of m ρ c main_arg1 (by decide)).trans <| (W26_of m ρ c main_arg1 (by decide)).trans <| (W25_of m ρ c main_arg1 (by decide)).trans <| (W24_of m ρ c main_arg1 (by decide)).trans <| (W23_of m ρ c main_arg1 (by decide)).trans <| (W22_of m ρ c main_arg1 (by decide)).trans <| (W21_of m ρ c main_arg1 (by decide)).trans <| (W20_of m ρ c main_arg1 (by decide)).trans <| (W19_of m ρ c main_arg1 (by decide)).trans <| (W18_of m ρ c main_arg1 (by decide)).trans <| (W17_of m ρ c main_arg1 (by decide)).trans <| (W16_of m ρ c main_arg1 (by decide)).trans <| (W15_of m ρ c main_arg1 (by decide)).trans <| (W14_of m ρ c main_arg1 (by decide)).trans <| (W13_of m ρ c main_arg1 (by decide)).trans <| (W12_of m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans <| rfl
theorem W49_main_arg2 (c : Dev nD) : W49 m ρ c main_arg2 = m ((c : Thread nD τ).loc main_arg2) :=
  (W49_of m ρ c main_arg2 (by decide)).trans <| (W48_of m ρ c main_arg2 (by decide)).trans <| (W47_of m ρ c main_arg2 (by decide)).trans <| (W46_of m ρ c main_arg2 (by decide)).trans <| (W45_of m ρ c main_arg2 (by decide)).trans <| (W44_of m ρ c main_arg2 (by decide)).trans <| (W43_of m ρ c main_arg2 (by decide)).trans <| (W42_of m ρ c main_arg2 (by decide)).trans <| (W41_of m ρ c main_arg2 (by decide)).trans <| (W40_of m ρ c main_arg2 (by decide)).trans <| (W39_of m ρ c main_arg2 (by decide)).trans <| (W38_of m ρ c main_arg2 (by decide)).trans <| (W37_of m ρ c main_arg2 (by decide)).trans <| (W36_of m ρ c main_arg2 (by decide)).trans <| (W35_of m ρ c main_arg2 (by decide)).trans <| (W34_of m ρ c main_arg2 (by decide)).trans <| (W33_of m ρ c main_arg2 (by decide)).trans <| (W32_of m ρ c main_arg2 (by decide)).trans <| (W31_of m ρ c main_arg2 (by decide)).trans <| (W30_of m ρ c main_arg2 (by decide)).trans <| (W29_of m ρ c main_arg2 (by decide)).trans <| (W28_of m ρ c main_arg2 (by decide)).trans <| (W27_of m ρ c main_arg2 (by decide)).trans <| (W26_of m ρ c main_arg2 (by decide)).trans <| (W25_of m ρ c main_arg2 (by decide)).trans <| (W24_of m ρ c main_arg2 (by decide)).trans <| (W23_of m ρ c main_arg2 (by decide)).trans <| (W22_of m ρ c main_arg2 (by decide)).trans <| (W21_of m ρ c main_arg2 (by decide)).trans <| (W20_of m ρ c main_arg2 (by decide)).trans <| (W19_of m ρ c main_arg2 (by decide)).trans <| (W18_of m ρ c main_arg2 (by decide)).trans <| (W17_of m ρ c main_arg2 (by decide)).trans <| (W16_of m ρ c main_arg2 (by decide)).trans <| (W15_of m ρ c main_arg2 (by decide)).trans <| (W14_of m ρ c main_arg2 (by decide)).trans <| (W13_of m ρ c main_arg2 (by decide)).trans <| (W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans <| rfl
theorem W49_main_arg3 (c : Dev nD) : W49 m ρ c main_arg3 = m ((c : Thread nD τ).loc main_arg3) :=
  (W49_of m ρ c main_arg3 (by decide)).trans <| (W48_of m ρ c main_arg3 (by decide)).trans <| (W47_of m ρ c main_arg3 (by decide)).trans <| (W46_of m ρ c main_arg3 (by decide)).trans <| (W45_of m ρ c main_arg3 (by decide)).trans <| (W44_of m ρ c main_arg3 (by decide)).trans <| (W43_of m ρ c main_arg3 (by decide)).trans <| (W42_of m ρ c main_arg3 (by decide)).trans <| (W41_of m ρ c main_arg3 (by decide)).trans <| (W40_of m ρ c main_arg3 (by decide)).trans <| (W39_of m ρ c main_arg3 (by decide)).trans <| (W38_of m ρ c main_arg3 (by decide)).trans <| (W37_of m ρ c main_arg3 (by decide)).trans <| (W36_of m ρ c main_arg3 (by decide)).trans <| (W35_of m ρ c main_arg3 (by decide)).trans <| (W34_of m ρ c main_arg3 (by decide)).trans <| (W33_of m ρ c main_arg3 (by decide)).trans <| (W32_of m ρ c main_arg3 (by decide)).trans <| (W31_of m ρ c main_arg3 (by decide)).trans <| (W30_of m ρ c main_arg3 (by decide)).trans <| (W29_of m ρ c main_arg3 (by decide)).trans <| (W28_of m ρ c main_arg3 (by decide)).trans <| (W27_of m ρ c main_arg3 (by decide)).trans <| (W26_of m ρ c main_arg3 (by decide)).trans <| (W25_of m ρ c main_arg3 (by decide)).trans <| (W24_of m ρ c main_arg3 (by decide)).trans <| (W23_of m ρ c main_arg3 (by decide)).trans <| (W22_of m ρ c main_arg3 (by decide)).trans <| (W21_of m ρ c main_arg3 (by decide)).trans <| (W20_of m ρ c main_arg3 (by decide)).trans <| (W19_of m ρ c main_arg3 (by decide)).trans <| (W18_of m ρ c main_arg3 (by decide)).trans <| (W17_of m ρ c main_arg3 (by decide)).trans <| (W16_of m ρ c main_arg3 (by decide)).trans <| (W15_of m ρ c main_arg3 (by decide)).trans <| (W14_of m ρ c main_arg3 (by decide)).trans <| (W13_of m ρ c main_arg3 (by decide)).trans <| (W12_of m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans <| rfl
theorem W49_main_arg4 (c : Dev nD) : W49 m ρ c main_arg4 = m ((c : Thread nD τ).loc main_arg4) :=
  (W49_of m ρ c main_arg4 (by decide)).trans <| (W48_of m ρ c main_arg4 (by decide)).trans <| (W47_of m ρ c main_arg4 (by decide)).trans <| (W46_of m ρ c main_arg4 (by decide)).trans <| (W45_of m ρ c main_arg4 (by decide)).trans <| (W44_of m ρ c main_arg4 (by decide)).trans <| (W43_of m ρ c main_arg4 (by decide)).trans <| (W42_of m ρ c main_arg4 (by decide)).trans <| (W41_of m ρ c main_arg4 (by decide)).trans <| (W40_of m ρ c main_arg4 (by decide)).trans <| (W39_of m ρ c main_arg4 (by decide)).trans <| (W38_of m ρ c main_arg4 (by decide)).trans <| (W37_of m ρ c main_arg4 (by decide)).trans <| (W36_of m ρ c main_arg4 (by decide)).trans <| (W35_of m ρ c main_arg4 (by decide)).trans <| (W34_of m ρ c main_arg4 (by decide)).trans <| (W33_of m ρ c main_arg4 (by decide)).trans <| (W32_of m ρ c main_arg4 (by decide)).trans <| (W31_of m ρ c main_arg4 (by decide)).trans <| (W30_of m ρ c main_arg4 (by decide)).trans <| (W29_of m ρ c main_arg4 (by decide)).trans <| (W28_of m ρ c main_arg4 (by decide)).trans <| (W27_of m ρ c main_arg4 (by decide)).trans <| (W26_of m ρ c main_arg4 (by decide)).trans <| (W25_of m ρ c main_arg4 (by decide)).trans <| (W24_of m ρ c main_arg4 (by decide)).trans <| (W23_of m ρ c main_arg4 (by decide)).trans <| (W22_of m ρ c main_arg4 (by decide)).trans <| (W21_of m ρ c main_arg4 (by decide)).trans <| (W20_of m ρ c main_arg4 (by decide)).trans <| (W19_of m ρ c main_arg4 (by decide)).trans <| (W18_of m ρ c main_arg4 (by decide)).trans <| (W17_of m ρ c main_arg4 (by decide)).trans <| (W16_of m ρ c main_arg4 (by decide)).trans <| (W15_of m ρ c main_arg4 (by decide)).trans <| (W14_of m ρ c main_arg4 (by decide)).trans <| (W13_of m ρ c main_arg4 (by decide)).trans <| (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans <| rfl
theorem W49_main_arg5 (c : Dev nD) : W49 m ρ c main_arg5 = m ((c : Thread nD τ).loc main_arg5) :=
  (W49_of m ρ c main_arg5 (by decide)).trans <| (W48_of m ρ c main_arg5 (by decide)).trans <| (W47_of m ρ c main_arg5 (by decide)).trans <| (W46_of m ρ c main_arg5 (by decide)).trans <| (W45_of m ρ c main_arg5 (by decide)).trans <| (W44_of m ρ c main_arg5 (by decide)).trans <| (W43_of m ρ c main_arg5 (by decide)).trans <| (W42_of m ρ c main_arg5 (by decide)).trans <| (W41_of m ρ c main_arg5 (by decide)).trans <| (W40_of m ρ c main_arg5 (by decide)).trans <| (W39_of m ρ c main_arg5 (by decide)).trans <| (W38_of m ρ c main_arg5 (by decide)).trans <| (W37_of m ρ c main_arg5 (by decide)).trans <| (W36_of m ρ c main_arg5 (by decide)).trans <| (W35_of m ρ c main_arg5 (by decide)).trans <| (W34_of m ρ c main_arg5 (by decide)).trans <| (W33_of m ρ c main_arg5 (by decide)).trans <| (W32_of m ρ c main_arg5 (by decide)).trans <| (W31_of m ρ c main_arg5 (by decide)).trans <| (W30_of m ρ c main_arg5 (by decide)).trans <| (W29_of m ρ c main_arg5 (by decide)).trans <| (W28_of m ρ c main_arg5 (by decide)).trans <| (W27_of m ρ c main_arg5 (by decide)).trans <| (W26_of m ρ c main_arg5 (by decide)).trans <| (W25_of m ρ c main_arg5 (by decide)).trans <| (W24_of m ρ c main_arg5 (by decide)).trans <| (W23_of m ρ c main_arg5 (by decide)).trans <| (W22_of m ρ c main_arg5 (by decide)).trans <| (W21_of m ρ c main_arg5 (by decide)).trans <| (W20_of m ρ c main_arg5 (by decide)).trans <| (W19_of m ρ c main_arg5 (by decide)).trans <| (W18_of m ρ c main_arg5 (by decide)).trans <| (W17_of m ρ c main_arg5 (by decide)).trans <| (W16_of m ρ c main_arg5 (by decide)).trans <| (W15_of m ρ c main_arg5 (by decide)).trans <| (W14_of m ρ c main_arg5 (by decide)).trans <| (W13_of m ρ c main_arg5 (by decide)).trans <| (W12_of m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide)).trans <| rfl
theorem W49_main_arg6 (c : Dev nD) : W49 m ρ c main_arg6 = m ((c : Thread nD τ).loc main_arg6) :=
  (W49_of m ρ c main_arg6 (by decide)).trans <| (W48_of m ρ c main_arg6 (by decide)).trans <| (W47_of m ρ c main_arg6 (by decide)).trans <| (W46_of m ρ c main_arg6 (by decide)).trans <| (W45_of m ρ c main_arg6 (by decide)).trans <| (W44_of m ρ c main_arg6 (by decide)).trans <| (W43_of m ρ c main_arg6 (by decide)).trans <| (W42_of m ρ c main_arg6 (by decide)).trans <| (W41_of m ρ c main_arg6 (by decide)).trans <| (W40_of m ρ c main_arg6 (by decide)).trans <| (W39_of m ρ c main_arg6 (by decide)).trans <| (W38_of m ρ c main_arg6 (by decide)).trans <| (W37_of m ρ c main_arg6 (by decide)).trans <| (W36_of m ρ c main_arg6 (by decide)).trans <| (W35_of m ρ c main_arg6 (by decide)).trans <| (W34_of m ρ c main_arg6 (by decide)).trans <| (W33_of m ρ c main_arg6 (by decide)).trans <| (W32_of m ρ c main_arg6 (by decide)).trans <| (W31_of m ρ c main_arg6 (by decide)).trans <| (W30_of m ρ c main_arg6 (by decide)).trans <| (W29_of m ρ c main_arg6 (by decide)).trans <| (W28_of m ρ c main_arg6 (by decide)).trans <| (W27_of m ρ c main_arg6 (by decide)).trans <| (W26_of m ρ c main_arg6 (by decide)).trans <| (W25_of m ρ c main_arg6 (by decide)).trans <| (W24_of m ρ c main_arg6 (by decide)).trans <| (W23_of m ρ c main_arg6 (by decide)).trans <| (W22_of m ρ c main_arg6 (by decide)).trans <| (W21_of m ρ c main_arg6 (by decide)).trans <| (W20_of m ρ c main_arg6 (by decide)).trans <| (W19_of m ρ c main_arg6 (by decide)).trans <| (W18_of m ρ c main_arg6 (by decide)).trans <| (W17_of m ρ c main_arg6 (by decide)).trans <| (W16_of m ρ c main_arg6 (by decide)).trans <| (W15_of m ρ c main_arg6 (by decide)).trans <| (W14_of m ρ c main_arg6 (by decide)).trans <| (W13_of m ρ c main_arg6 (by decide)).trans <| (W12_of m ρ c main_arg6 (by decide)).trans <| (W11_of m ρ c main_arg6 (by decide)).trans <| (W10_of m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of m ρ c main_arg6 (by decide)).trans <| (W4_of m ρ c main_arg6 (by decide)).trans <| (W3_of m ρ c main_arg6 (by decide)).trans <| (W2_of m ρ c main_arg6 (by decide)).trans <| (W1_of m ρ c main_arg6 (by decide)).trans <| rfl
theorem W49_main_arg7 (c : Dev nD) : W49 m ρ c main_arg7 = m ((c : Thread nD τ).loc main_arg7) :=
  (W49_of m ρ c main_arg7 (by decide)).trans <| (W48_of m ρ c main_arg7 (by decide)).trans <| (W47_of m ρ c main_arg7 (by decide)).trans <| (W46_of m ρ c main_arg7 (by decide)).trans <| (W45_of m ρ c main_arg7 (by decide)).trans <| (W44_of m ρ c main_arg7 (by decide)).trans <| (W43_of m ρ c main_arg7 (by decide)).trans <| (W42_of m ρ c main_arg7 (by decide)).trans <| (W41_of m ρ c main_arg7 (by decide)).trans <| (W40_of m ρ c main_arg7 (by decide)).trans <| (W39_of m ρ c main_arg7 (by decide)).trans <| (W38_of m ρ c main_arg7 (by decide)).trans <| (W37_of m ρ c main_arg7 (by decide)).trans <| (W36_of m ρ c main_arg7 (by decide)).trans <| (W35_of m ρ c main_arg7 (by decide)).trans <| (W34_of m ρ c main_arg7 (by decide)).trans <| (W33_of m ρ c main_arg7 (by decide)).trans <| (W32_of m ρ c main_arg7 (by decide)).trans <| (W31_of m ρ c main_arg7 (by decide)).trans <| (W30_of m ρ c main_arg7 (by decide)).trans <| (W29_of m ρ c main_arg7 (by decide)).trans <| (W28_of m ρ c main_arg7 (by decide)).trans <| (W27_of m ρ c main_arg7 (by decide)).trans <| (W26_of m ρ c main_arg7 (by decide)).trans <| (W25_of m ρ c main_arg7 (by decide)).trans <| (W24_of m ρ c main_arg7 (by decide)).trans <| (W23_of m ρ c main_arg7 (by decide)).trans <| (W22_of m ρ c main_arg7 (by decide)).trans <| (W21_of m ρ c main_arg7 (by decide)).trans <| (W20_of m ρ c main_arg7 (by decide)).trans <| (W19_of m ρ c main_arg7 (by decide)).trans <| (W18_of m ρ c main_arg7 (by decide)).trans <| (W17_of m ρ c main_arg7 (by decide)).trans <| (W16_of m ρ c main_arg7 (by decide)).trans <| (W15_of m ρ c main_arg7 (by decide)).trans <| (W14_of m ρ c main_arg7 (by decide)).trans <| (W13_of m ρ c main_arg7 (by decide)).trans <| (W12_of m ρ c main_arg7 (by decide)).trans <| (W11_of m ρ c main_arg7 (by decide)).trans <| (W10_of m ρ c main_arg7 (by decide)).trans <| (W9_of m ρ c main_arg7 (by decide)).trans <| (W8_of m ρ c main_arg7 (by decide)).trans <| (W7_of m ρ c main_arg7 (by decide)).trans <| (W6_of m ρ c main_arg7 (by decide)).trans <| (W5_of m ρ c main_arg7 (by decide)).trans <| (W4_of m ρ c main_arg7 (by decide)).trans <| (W3_of m ρ c main_arg7 (by decide)).trans <| (W2_of m ρ c main_arg7 (by decide)).trans <| (W1_of m ρ c main_arg7 (by decide)).trans <| rfl
theorem W49_main_arg8 (c : Dev nD) : W49 m ρ c main_arg8 = m ((c : Thread nD τ).loc main_arg8) :=
  (W49_of m ρ c main_arg8 (by decide)).trans <| (W48_of m ρ c main_arg8 (by decide)).trans <| (W47_of m ρ c main_arg8 (by decide)).trans <| (W46_of m ρ c main_arg8 (by decide)).trans <| (W45_of m ρ c main_arg8 (by decide)).trans <| (W44_of m ρ c main_arg8 (by decide)).trans <| (W43_of m ρ c main_arg8 (by decide)).trans <| (W42_of m ρ c main_arg8 (by decide)).trans <| (W41_of m ρ c main_arg8 (by decide)).trans <| (W40_of m ρ c main_arg8 (by decide)).trans <| (W39_of m ρ c main_arg8 (by decide)).trans <| (W38_of m ρ c main_arg8 (by decide)).trans <| (W37_of m ρ c main_arg8 (by decide)).trans <| (W36_of m ρ c main_arg8 (by decide)).trans <| (W35_of m ρ c main_arg8 (by decide)).trans <| (W34_of m ρ c main_arg8 (by decide)).trans <| (W33_of m ρ c main_arg8 (by decide)).trans <| (W32_of m ρ c main_arg8 (by decide)).trans <| (W31_of m ρ c main_arg8 (by decide)).trans <| (W30_of m ρ c main_arg8 (by decide)).trans <| (W29_of m ρ c main_arg8 (by decide)).trans <| (W28_of m ρ c main_arg8 (by decide)).trans <| (W27_of m ρ c main_arg8 (by decide)).trans <| (W26_of m ρ c main_arg8 (by decide)).trans <| (W25_of m ρ c main_arg8 (by decide)).trans <| (W24_of m ρ c main_arg8 (by decide)).trans <| (W23_of m ρ c main_arg8 (by decide)).trans <| (W22_of m ρ c main_arg8 (by decide)).trans <| (W21_of m ρ c main_arg8 (by decide)).trans <| (W20_of m ρ c main_arg8 (by decide)).trans <| (W19_of m ρ c main_arg8 (by decide)).trans <| (W18_of m ρ c main_arg8 (by decide)).trans <| (W17_of m ρ c main_arg8 (by decide)).trans <| (W16_of m ρ c main_arg8 (by decide)).trans <| (W15_of m ρ c main_arg8 (by decide)).trans <| (W14_of m ρ c main_arg8 (by decide)).trans <| (W13_of m ρ c main_arg8 (by decide)).trans <| (W12_of m ρ c main_arg8 (by decide)).trans <| (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide)).trans <| rfl
theorem W49_main_arg9 (c : Dev nD) : W49 m ρ c main_arg9 = m ((c : Thread nD τ).loc main_arg9) :=
  (W49_of m ρ c main_arg9 (by decide)).trans <| (W48_of m ρ c main_arg9 (by decide)).trans <| (W47_of m ρ c main_arg9 (by decide)).trans <| (W46_of m ρ c main_arg9 (by decide)).trans <| (W45_of m ρ c main_arg9 (by decide)).trans <| (W44_of m ρ c main_arg9 (by decide)).trans <| (W43_of m ρ c main_arg9 (by decide)).trans <| (W42_of m ρ c main_arg9 (by decide)).trans <| (W41_of m ρ c main_arg9 (by decide)).trans <| (W40_of m ρ c main_arg9 (by decide)).trans <| (W39_of m ρ c main_arg9 (by decide)).trans <| (W38_of m ρ c main_arg9 (by decide)).trans <| (W37_of m ρ c main_arg9 (by decide)).trans <| (W36_of m ρ c main_arg9 (by decide)).trans <| (W35_of m ρ c main_arg9 (by decide)).trans <| (W34_of m ρ c main_arg9 (by decide)).trans <| (W33_of m ρ c main_arg9 (by decide)).trans <| (W32_of m ρ c main_arg9 (by decide)).trans <| (W31_of m ρ c main_arg9 (by decide)).trans <| (W30_of m ρ c main_arg9 (by decide)).trans <| (W29_of m ρ c main_arg9 (by decide)).trans <| (W28_of m ρ c main_arg9 (by decide)).trans <| (W27_of m ρ c main_arg9 (by decide)).trans <| (W26_of m ρ c main_arg9 (by decide)).trans <| (W25_of m ρ c main_arg9 (by decide)).trans <| (W24_of m ρ c main_arg9 (by decide)).trans <| (W23_of m ρ c main_arg9 (by decide)).trans <| (W22_of m ρ c main_arg9 (by decide)).trans <| (W21_of m ρ c main_arg9 (by decide)).trans <| (W20_of m ρ c main_arg9 (by decide)).trans <| (W19_of m ρ c main_arg9 (by decide)).trans <| (W18_of m ρ c main_arg9 (by decide)).trans <| (W17_of m ρ c main_arg9 (by decide)).trans <| (W16_of m ρ c main_arg9 (by decide)).trans <| (W15_of m ρ c main_arg9 (by decide)).trans <| (W14_of m ρ c main_arg9 (by decide)).trans <| (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)).trans <| rfl
theorem W49_main_arg10 (c : Dev nD) : W49 m ρ c main_arg10 = m ((c : Thread nD τ).loc main_arg10) :=
  (W49_of m ρ c main_arg10 (by decide)).trans <| (W48_of m ρ c main_arg10 (by decide)).trans <| (W47_of m ρ c main_arg10 (by decide)).trans <| (W46_of m ρ c main_arg10 (by decide)).trans <| (W45_of m ρ c main_arg10 (by decide)).trans <| (W44_of m ρ c main_arg10 (by decide)).trans <| (W43_of m ρ c main_arg10 (by decide)).trans <| (W42_of m ρ c main_arg10 (by decide)).trans <| (W41_of m ρ c main_arg10 (by decide)).trans <| (W40_of m ρ c main_arg10 (by decide)).trans <| (W39_of m ρ c main_arg10 (by decide)).trans <| (W38_of m ρ c main_arg10 (by decide)).trans <| (W37_of m ρ c main_arg10 (by decide)).trans <| (W36_of m ρ c main_arg10 (by decide)).trans <| (W35_of m ρ c main_arg10 (by decide)).trans <| (W34_of m ρ c main_arg10 (by decide)).trans <| (W33_of m ρ c main_arg10 (by decide)).trans <| (W32_of m ρ c main_arg10 (by decide)).trans <| (W31_of m ρ c main_arg10 (by decide)).trans <| (W30_of m ρ c main_arg10 (by decide)).trans <| (W29_of m ρ c main_arg10 (by decide)).trans <| (W28_of m ρ c main_arg10 (by decide)).trans <| (W27_of m ρ c main_arg10 (by decide)).trans <| (W26_of m ρ c main_arg10 (by decide)).trans <| (W25_of m ρ c main_arg10 (by decide)).trans <| (W24_of m ρ c main_arg10 (by decide)).trans <| (W23_of m ρ c main_arg10 (by decide)).trans <| (W22_of m ρ c main_arg10 (by decide)).trans <| (W21_of m ρ c main_arg10 (by decide)).trans <| (W20_of m ρ c main_arg10 (by decide)).trans <| (W19_of m ρ c main_arg10 (by decide)).trans <| (W18_of m ρ c main_arg10 (by decide)).trans <| (W17_of m ρ c main_arg10 (by decide)).trans <| (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide)).trans <| rfl
theorem W49_main_arg11 (c : Dev nD) : W49 m ρ c main_arg11 = m ((c : Thread nD τ).loc main_arg11) :=
  (W49_of m ρ c main_arg11 (by decide)).trans <| (W48_of m ρ c main_arg11 (by decide)).trans <| (W47_of m ρ c main_arg11 (by decide)).trans <| (W46_of m ρ c main_arg11 (by decide)).trans <| (W45_of m ρ c main_arg11 (by decide)).trans <| (W44_of m ρ c main_arg11 (by decide)).trans <| (W43_of m ρ c main_arg11 (by decide)).trans <| (W42_of m ρ c main_arg11 (by decide)).trans <| (W41_of m ρ c main_arg11 (by decide)).trans <| (W40_of m ρ c main_arg11 (by decide)).trans <| (W39_of m ρ c main_arg11 (by decide)).trans <| (W38_of m ρ c main_arg11 (by decide)).trans <| (W37_of m ρ c main_arg11 (by decide)).trans <| (W36_of m ρ c main_arg11 (by decide)).trans <| (W35_of m ρ c main_arg11 (by decide)).trans <| (W34_of m ρ c main_arg11 (by decide)).trans <| (W33_of m ρ c main_arg11 (by decide)).trans <| (W32_of m ρ c main_arg11 (by decide)).trans <| (W31_of m ρ c main_arg11 (by decide)).trans <| (W30_of m ρ c main_arg11 (by decide)).trans <| (W29_of m ρ c main_arg11 (by decide)).trans <| (W28_of m ρ c main_arg11 (by decide)).trans <| (W27_of m ρ c main_arg11 (by decide)).trans <| (W26_of m ρ c main_arg11 (by decide)).trans <| (W25_of m ρ c main_arg11 (by decide)).trans <| (W24_of m ρ c main_arg11 (by decide)).trans <| (W23_of m ρ c main_arg11 (by decide)).trans <| (W22_of m ρ c main_arg11 (by decide)).trans <| (W21_of m ρ c main_arg11 (by decide)).trans <| (W20_of m ρ c main_arg11 (by decide)).trans <| (W19_of m ρ c main_arg11 (by decide)).trans <| (W18_of m ρ c main_arg11 (by decide)).trans <| (W17_of m ρ c main_arg11 (by decide)).trans <| (W16_of m ρ c main_arg11 (by decide)).trans <| (W15_of m ρ c main_arg11 (by decide)).trans <| (W14_of m ρ c main_arg11 (by decide)).trans <| (W13_of m ρ c main_arg11 (by decide)).trans <| (W12_of m ρ c main_arg11 (by decide)).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)).trans <| rfl
theorem W49_main_arg12 (c : Dev nD) : W49 m ρ c main_arg12 = m ((c : Thread nD τ).loc main_arg12) :=
  (W49_of m ρ c main_arg12 (by decide)).trans <| (W48_of m ρ c main_arg12 (by decide)).trans <| (W47_of m ρ c main_arg12 (by decide)).trans <| (W46_of m ρ c main_arg12 (by decide)).trans <| (W45_of m ρ c main_arg12 (by decide)).trans <| (W44_of m ρ c main_arg12 (by decide)).trans <| (W43_of m ρ c main_arg12 (by decide)).trans <| (W42_of m ρ c main_arg12 (by decide)).trans <| (W41_of m ρ c main_arg12 (by decide)).trans <| (W40_of m ρ c main_arg12 (by decide)).trans <| (W39_of m ρ c main_arg12 (by decide)).trans <| (W38_of m ρ c main_arg12 (by decide)).trans <| (W37_of m ρ c main_arg12 (by decide)).trans <| (W36_of m ρ c main_arg12 (by decide)).trans <| (W35_of m ρ c main_arg12 (by decide)).trans <| (W34_of m ρ c main_arg12 (by decide)).trans <| (W33_of m ρ c main_arg12 (by decide)).trans <| (W32_of m ρ c main_arg12 (by decide)).trans <| (W31_of m ρ c main_arg12 (by decide)).trans <| (W30_of m ρ c main_arg12 (by decide)).trans <| (W29_of m ρ c main_arg12 (by decide)).trans <| (W28_of m ρ c main_arg12 (by decide)).trans <| (W27_of m ρ c main_arg12 (by decide)).trans <| (W26_of m ρ c main_arg12 (by decide)).trans <| (W25_of m ρ c main_arg12 (by decide)).trans <| (W24_of m ρ c main_arg12 (by decide)).trans <| (W23_of m ρ c main_arg12 (by decide)).trans <| (W22_of m ρ c main_arg12 (by decide)).trans <| (W21_of m ρ c main_arg12 (by decide)).trans <| (W20_of m ρ c main_arg12 (by decide)).trans <| (W19_of m ρ c main_arg12 (by decide)).trans <| (W18_of m ρ c main_arg12 (by decide)).trans <| (W17_of m ρ c main_arg12 (by decide)).trans <| (W16_of m ρ c main_arg12 (by decide)).trans <| (W15_of m ρ c main_arg12 (by decide)).trans <| (W14_of m ρ c main_arg12 (by decide)).trans <| (W13_of m ρ c main_arg12 (by decide)).trans <| (W12_of m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans <| rfl
theorem W49_main_arg13 (c : Dev nD) : W49 m ρ c main_arg13 = m ((c : Thread nD τ).loc main_arg13) :=
  (W49_of m ρ c main_arg13 (by decide)).trans <| (W48_of m ρ c main_arg13 (by decide)).trans <| (W47_of m ρ c main_arg13 (by decide)).trans <| (W46_of m ρ c main_arg13 (by decide)).trans <| (W45_of m ρ c main_arg13 (by decide)).trans <| (W44_of m ρ c main_arg13 (by decide)).trans <| (W43_of m ρ c main_arg13 (by decide)).trans <| (W42_of m ρ c main_arg13 (by decide)).trans <| (W41_of m ρ c main_arg13 (by decide)).trans <| (W40_of m ρ c main_arg13 (by decide)).trans <| (W39_of m ρ c main_arg13 (by decide)).trans <| (W38_of m ρ c main_arg13 (by decide)).trans <| (W37_of m ρ c main_arg13 (by decide)).trans <| (W36_of m ρ c main_arg13 (by decide)).trans <| (W35_of m ρ c main_arg13 (by decide)).trans <| (W34_of m ρ c main_arg13 (by decide)).trans <| (W33_of m ρ c main_arg13 (by decide)).trans <| (W32_of m ρ c main_arg13 (by decide)).trans <| (W31_of m ρ c main_arg13 (by decide)).trans <| (W30_of m ρ c main_arg13 (by decide)).trans <| (W29_of m ρ c main_arg13 (by decide)).trans <| (W28_of m ρ c main_arg13 (by decide)).trans <| (W27_of m ρ c main_arg13 (by decide)).trans <| (W26_of m ρ c main_arg13 (by decide)).trans <| (W25_of m ρ c main_arg13 (by decide)).trans <| (W24_of m ρ c main_arg13 (by decide)).trans <| (W23_of m ρ c main_arg13 (by decide)).trans <| (W22_of m ρ c main_arg13 (by decide)).trans <| (W21_of m ρ c main_arg13 (by decide)).trans <| (W20_of m ρ c main_arg13 (by decide)).trans <| (W19_of m ρ c main_arg13 (by decide)).trans <| (W18_of m ρ c main_arg13 (by decide)).trans <| (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans <| rfl
theorem W49_main_arg14 (c : Dev nD) : W49 m ρ c main_arg14 = m ((c : Thread nD τ).loc main_arg14) :=
  (W49_of m ρ c main_arg14 (by decide)).trans <| (W48_of m ρ c main_arg14 (by decide)).trans <| (W47_of m ρ c main_arg14 (by decide)).trans <| (W46_of m ρ c main_arg14 (by decide)).trans <| (W45_of m ρ c main_arg14 (by decide)).trans <| (W44_of m ρ c main_arg14 (by decide)).trans <| (W43_of m ρ c main_arg14 (by decide)).trans <| (W42_of m ρ c main_arg14 (by decide)).trans <| (W41_of m ρ c main_arg14 (by decide)).trans <| (W40_of m ρ c main_arg14 (by decide)).trans <| (W39_of m ρ c main_arg14 (by decide)).trans <| (W38_of m ρ c main_arg14 (by decide)).trans <| (W37_of m ρ c main_arg14 (by decide)).trans <| (W36_of m ρ c main_arg14 (by decide)).trans <| (W35_of m ρ c main_arg14 (by decide)).trans <| (W34_of m ρ c main_arg14 (by decide)).trans <| (W33_of m ρ c main_arg14 (by decide)).trans <| (W32_of m ρ c main_arg14 (by decide)).trans <| (W31_of m ρ c main_arg14 (by decide)).trans <| (W30_of m ρ c main_arg14 (by decide)).trans <| (W29_of m ρ c main_arg14 (by decide)).trans <| (W28_of m ρ c main_arg14 (by decide)).trans <| (W27_of m ρ c main_arg14 (by decide)).trans <| (W26_of m ρ c main_arg14 (by decide)).trans <| (W25_of m ρ c main_arg14 (by decide)).trans <| (W24_of m ρ c main_arg14 (by decide)).trans <| (W23_of m ρ c main_arg14 (by decide)).trans <| (W22_of m ρ c main_arg14 (by decide)).trans <| (W21_of m ρ c main_arg14 (by decide)).trans <| (W20_of m ρ c main_arg14 (by decide)).trans <| (W19_of m ρ c main_arg14 (by decide)).trans <| (W18_of m ρ c main_arg14 (by decide)).trans <| (W17_of m ρ c main_arg14 (by decide)).trans <| (W16_of m ρ c main_arg14 (by decide)).trans <| (W15_of m ρ c main_arg14 (by decide)).trans <| (W14_of m ρ c main_arg14 (by decide)).trans <| (W13_of m ρ c main_arg14 (by decide)).trans <| (W12_of m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans <| rfl
theorem W49_main_arg15 (c : Dev nD) : W49 m ρ c main_arg15 = m ((c : Thread nD τ).loc main_arg15) :=
  (W49_of m ρ c main_arg15 (by decide)).trans <| (W48_of m ρ c main_arg15 (by decide)).trans <| (W47_of m ρ c main_arg15 (by decide)).trans <| (W46_of m ρ c main_arg15 (by decide)).trans <| (W45_of m ρ c main_arg15 (by decide)).trans <| (W44_of m ρ c main_arg15 (by decide)).trans <| (W43_of m ρ c main_arg15 (by decide)).trans <| (W42_of m ρ c main_arg15 (by decide)).trans <| (W41_of m ρ c main_arg15 (by decide)).trans <| (W40_of m ρ c main_arg15 (by decide)).trans <| (W39_of m ρ c main_arg15 (by decide)).trans <| (W38_of m ρ c main_arg15 (by decide)).trans <| (W37_of m ρ c main_arg15 (by decide)).trans <| (W36_of m ρ c main_arg15 (by decide)).trans <| (W35_of m ρ c main_arg15 (by decide)).trans <| (W34_of m ρ c main_arg15 (by decide)).trans <| (W33_of m ρ c main_arg15 (by decide)).trans <| (W32_of m ρ c main_arg15 (by decide)).trans <| (W31_of m ρ c main_arg15 (by decide)).trans <| (W30_of m ρ c main_arg15 (by decide)).trans <| (W29_of m ρ c main_arg15 (by decide)).trans <| (W28_of m ρ c main_arg15 (by decide)).trans <| (W27_of m ρ c main_arg15 (by decide)).trans <| (W26_of m ρ c main_arg15 (by decide)).trans <| (W25_of m ρ c main_arg15 (by decide)).trans <| (W24_of m ρ c main_arg15 (by decide)).trans <| (W23_of m ρ c main_arg15 (by decide)).trans <| (W22_of m ρ c main_arg15 (by decide)).trans <| (W21_of m ρ c main_arg15 (by decide)).trans <| (W20_of m ρ c main_arg15 (by decide)).trans <| (W19_of m ρ c main_arg15 (by decide)).trans <| (W18_of m ρ c main_arg15 (by decide)).trans <| (W17_of m ρ c main_arg15 (by decide)).trans <| (W16_of m ρ c main_arg15 (by decide)).trans <| (W15_of m ρ c main_arg15 (by decide)).trans <| (W14_of m ρ c main_arg15 (by decide)).trans <| (W13_of m ρ c main_arg15 (by decide)).trans <| (W12_of m ρ c main_arg15 (by decide)).trans <| (W11_of m ρ c main_arg15 (by decide)).trans <| (W10_of m ρ c main_arg15 (by decide)).trans <| (W9_of m ρ c main_arg15 (by decide)).trans <| (W8_of m ρ c main_arg15 (by decide)).trans <| (W7_of m ρ c main_arg15 (by decide)).trans <| (W6_of m ρ c main_arg15 (by decide)).trans <| (W5_of m ρ c main_arg15 (by decide)).trans <| (W4_of m ρ c main_arg15 (by decide)).trans <| (W3_of m ρ c main_arg15 (by decide)).trans <| (W2_of m ρ c main_arg15 (by decide)).trans <| (W1_of m ρ c main_arg15 (by decide)).trans <| rfl
theorem W49_main_arg16 (c : Dev nD) : W49 m ρ c main_arg16 = m ((c : Thread nD τ).loc main_arg16) :=
  (W49_of m ρ c main_arg16 (by decide)).trans <| (W48_of m ρ c main_arg16 (by decide)).trans <| (W47_of m ρ c main_arg16 (by decide)).trans <| (W46_of m ρ c main_arg16 (by decide)).trans <| (W45_of m ρ c main_arg16 (by decide)).trans <| (W44_of m ρ c main_arg16 (by decide)).trans <| (W43_of m ρ c main_arg16 (by decide)).trans <| (W42_of m ρ c main_arg16 (by decide)).trans <| (W41_of m ρ c main_arg16 (by decide)).trans <| (W40_of m ρ c main_arg16 (by decide)).trans <| (W39_of m ρ c main_arg16 (by decide)).trans <| (W38_of m ρ c main_arg16 (by decide)).trans <| (W37_of m ρ c main_arg16 (by decide)).trans <| (W36_of m ρ c main_arg16 (by decide)).trans <| (W35_of m ρ c main_arg16 (by decide)).trans <| (W34_of m ρ c main_arg16 (by decide)).trans <| (W33_of m ρ c main_arg16 (by decide)).trans <| (W32_of m ρ c main_arg16 (by decide)).trans <| (W31_of m ρ c main_arg16 (by decide)).trans <| (W30_of m ρ c main_arg16 (by decide)).trans <| (W29_of m ρ c main_arg16 (by decide)).trans <| (W28_of m ρ c main_arg16 (by decide)).trans <| (W27_of m ρ c main_arg16 (by decide)).trans <| (W26_of m ρ c main_arg16 (by decide)).trans <| (W25_of m ρ c main_arg16 (by decide)).trans <| (W24_of m ρ c main_arg16 (by decide)).trans <| (W23_of m ρ c main_arg16 (by decide)).trans <| (W22_of m ρ c main_arg16 (by decide)).trans <| (W21_of m ρ c main_arg16 (by decide)).trans <| (W20_of m ρ c main_arg16 (by decide)).trans <| (W19_of m ρ c main_arg16 (by decide)).trans <| (W18_of m ρ c main_arg16 (by decide)).trans <| (W17_of m ρ c main_arg16 (by decide)).trans <| (W16_of m ρ c main_arg16 (by decide)).trans <| (W15_of m ρ c main_arg16 (by decide)).trans <| (W14_of m ρ c main_arg16 (by decide)).trans <| (W13_of m ρ c main_arg16 (by decide)).trans <| (W12_of m ρ c main_arg16 (by decide)).trans <| (W11_of m ρ c main_arg16 (by decide)).trans <| (W10_of m ρ c main_arg16 (by decide)).trans <| (W9_of m ρ c main_arg16 (by decide)).trans <| (W8_of m ρ c main_arg16 (by decide)).trans <| (W7_of m ρ c main_arg16 (by decide)).trans <| (W6_of m ρ c main_arg16 (by decide)).trans <| (W5_of m ρ c main_arg16 (by decide)).trans <| (W4_of m ρ c main_arg16 (by decide)).trans <| (W3_of m ρ c main_arg16 (by decide)).trans <| (W2_of m ρ c main_arg16 (by decide)).trans <| (W1_of m ρ c main_arg16 (by decide)).trans <| rfl
theorem W49_main_arg17 (c : Dev nD) : W49 m ρ c main_arg17 = m ((c : Thread nD τ).loc main_arg17) :=
  (W49_of m ρ c main_arg17 (by decide)).trans <| (W48_of m ρ c main_arg17 (by decide)).trans <| (W47_of m ρ c main_arg17 (by decide)).trans <| (W46_of m ρ c main_arg17 (by decide)).trans <| (W45_of m ρ c main_arg17 (by decide)).trans <| (W44_of m ρ c main_arg17 (by decide)).trans <| (W43_of m ρ c main_arg17 (by decide)).trans <| (W42_of m ρ c main_arg17 (by decide)).trans <| (W41_of m ρ c main_arg17 (by decide)).trans <| (W40_of m ρ c main_arg17 (by decide)).trans <| (W39_of m ρ c main_arg17 (by decide)).trans <| (W38_of m ρ c main_arg17 (by decide)).trans <| (W37_of m ρ c main_arg17 (by decide)).trans <| (W36_of m ρ c main_arg17 (by decide)).trans <| (W35_of m ρ c main_arg17 (by decide)).trans <| (W34_of m ρ c main_arg17 (by decide)).trans <| (W33_of m ρ c main_arg17 (by decide)).trans <| (W32_of m ρ c main_arg17 (by decide)).trans <| (W31_of m ρ c main_arg17 (by decide)).trans <| (W30_of m ρ c main_arg17 (by decide)).trans <| (W29_of m ρ c main_arg17 (by decide)).trans <| (W28_of m ρ c main_arg17 (by decide)).trans <| (W27_of m ρ c main_arg17 (by decide)).trans <| (W26_of m ρ c main_arg17 (by decide)).trans <| (W25_of m ρ c main_arg17 (by decide)).trans <| (W24_of m ρ c main_arg17 (by decide)).trans <| (W23_of m ρ c main_arg17 (by decide)).trans <| (W22_of m ρ c main_arg17 (by decide)).trans <| (W21_of m ρ c main_arg17 (by decide)).trans <| (W20_of m ρ c main_arg17 (by decide)).trans <| (W19_of m ρ c main_arg17 (by decide)).trans <| (W18_of m ρ c main_arg17 (by decide)).trans <| (W17_of m ρ c main_arg17 (by decide)).trans <| (W16_of m ρ c main_arg17 (by decide)).trans <| (W15_of m ρ c main_arg17 (by decide)).trans <| (W14_of m ρ c main_arg17 (by decide)).trans <| (W13_of m ρ c main_arg17 (by decide)).trans <| (W12_of m ρ c main_arg17 (by decide)).trans <| (W11_of m ρ c main_arg17 (by decide)).trans <| (W10_of m ρ c main_arg17 (by decide)).trans <| (W9_of m ρ c main_arg17 (by decide)).trans <| (W8_of m ρ c main_arg17 (by decide)).trans <| (W7_of m ρ c main_arg17 (by decide)).trans <| (W6_of m ρ c main_arg17 (by decide)).trans <| (W5_of m ρ c main_arg17 (by decide)).trans <| (W4_of m ρ c main_arg17 (by decide)).trans <| (W3_of m ρ c main_arg17 (by decide)).trans <| (W2_of m ρ c main_arg17 (by decide)).trans <| (W1_of m ρ c main_arg17 (by decide)).trans <| rfl

end Cert.Kernel.Fr

end
-- ==== Proof.K.Seg0.lean ====
/-
  Kernel region 0 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) fadm (fdats m ρ) () defs₀ 𝒱f Lf lvf 0 where
  win := launch0.win.to₀
  block_pos := launch0.block_pos
  stage_whole := launch0.stage_whole
  K := PEmpty
  osem k := k.elim
  ho := Pipeline.OwnSemFacts.none _
  hbody c := (body_obligation0 (U9 m ρ) c).loose
  hwaits := Pipeline.hwaits_of_owed_zero _ _ _ _ Lf lvf 0 fun _ _ => rfl
  pre c := iprop(StableHlo.held (c : Thread nD τ) (Pipeline.ucRefs τ sig) (W9 m ρ c) ∗ Rf c)
  post c := iprop(StableHlo.held (c : Thread nD τ) (Pipeline.ucRefs τ sig) (W10 m ρ c) ∗ Rf c)
  X c := iprop(∃ r, prngReg c r)
  Y c := iprop(∃ r, prngReg c r)
  Z c := Pipeline.unscopedRest (Ix := Unit) (Name := ℕ) (U := UR sig nD τ) (Lvl := ℕ) spec0 c (U9 m ρ c)
  hentry c := by
    rw [Pipeline.ownSems0_none]
    have hsplit := Pipeline.arrays_of_unscopedBufs (p := 0) (pcfgs (F := F)) fadm (fdats m ρ) launch0.win launch0.arr_whole c
      ((fdats m ρ 0 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (fdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) fadm (Ix := Unit) (Name := ℕ) (U := UR sig nD τ) (Lvl := ℕ)
      launch0.win launch0.arr_whole c (fdats m ρ) ((fdats m ρ 0 c).share_full fun _ => rfl)
      (U9 m ρ c) (U10 m ρ c) ((fdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg1.lean ====
/-
  Kernel region 1 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) fadm (fdats m ρ) () defs₀ 𝒱f Lf lvf 1 where
  win := launch1.win.to₀
  block_pos := launch1.block_pos
  stage_whole := launch1.stage_whole
  K := PEmpty
  osem k := k.elim
  ho := Pipeline.OwnSemFacts.none _
  hbody c := (body_obligation1 (U11 m ρ) c).loose
  hwaits := Pipeline.hwaits_of_owed_zero _ _ _ _ Lf lvf 1 fun _ _ => rfl
  pre c := iprop(StableHlo.held (c : Thread nD τ) (Pipeline.ucRefs τ sig) (W11 m ρ c) ∗ Rf c)
  post c := iprop(StableHlo.held (c : Thread nD τ) (Pipeline.ucRefs τ sig) (W12 m ρ c) ∗ Rf c)
  X c := iprop(∃ r, prngReg c r)
  Y c := iprop(∃ r, prngReg c r)
  Z c := Pipeline.unscopedRest (Ix := Unit) (Name := ℕ) (U := UR sig nD τ) (Lvl := ℕ) spec1 c (U11 m ρ c)
  hentry c := by
    rw [Pipeline.ownSems0_none]
    have hsplit := Pipeline.arrays_of_unscopedBufs (p := 1) (pcfgs (F := F)) fadm (fdats m ρ) launch1.win launch1.arr_whole c
      ((fdats m ρ 1 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (fdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) fadm (Ix := Unit) (Name := ℕ) (U := UR sig nD τ) (Lvl := ℕ)
      launch1.win launch1.arr_whole c (fdats m ρ) ((fdats m ρ 1 c).share_full fun _ => rfl)
      (U11 m ρ c) (U12 m ρ c) ((fdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg2.lean ====
/-
  Kernel region 2 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) fadm (fdats m ρ) () defs₀ 𝒱f Lf lvf 2 where
  win := launch2.win.to₀
  block_pos := launch2.block_pos
  stage_whole := launch2.stage_whole
  K := PEmpty
  osem k := k.elim
  ho := Pipeline.OwnSemFacts.none _
  hbody c := (body_obligation2 (U13 m ρ) c).loose
  hwaits := Pipeline.hwaits_of_owed_zero _ _ _ _ Lf lvf 2 fun _ _ => rfl
  pre c := iprop(StableHlo.held (c : Thread nD τ) (Pipeline.ucRefs τ sig) (W13 m ρ c) ∗ Rf c)
  post c := iprop(StableHlo.held (c : Thread nD τ) (Pipeline.ucRefs τ sig) (W14 m ρ c) ∗ Rf c)
  X c := iprop(∃ r, prngReg c r)
  Y c := iprop(∃ r, prngReg c r)
  Z c := Pipeline.unscopedRest (Ix := Unit) (Name := ℕ) (U := UR sig nD τ) (Lvl := ℕ) spec2 c (U13 m ρ c)
  hentry c := by
    rw [Pipeline.ownSems0_none]
    have hsplit := Pipeline.arrays_of_unscopedBufs (p := 2) (pcfgs (F := F)) fadm (fdats m ρ) launch2.win launch2.arr_whole c
      ((fdats m ρ 2 c).share_full fun _ => rfl) (U13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (fdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) fadm (Ix := Unit) (Name := ℕ) (U := UR sig nD τ) (Lvl := ℕ)
      launch2.win launch2.arr_whole c (fdats m ρ) ((fdats m ρ 2 c).share_full fun _ => rfl)
      (U13 m ρ c) (U14 m ρ c) ((fdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg3.lean ====
/-
  Kernel region 3 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) fadm (fdats m ρ) () defs₀ 𝒱f Lf lvf 3 where
  win := launch3.win.to₀
  block_pos := launch3.block_pos
  stage_whole := launch3.stage_whole
  K := PEmpty
  osem k := k.elim
  ho := Pipeline.OwnSemFacts.none _
  hbody c := (body_obligation3 (U15 m ρ) c).loose
  hwaits := Pipeline.hwaits_of_owed_zero _ _ _ _ Lf lvf 3 fun _ _ => rfl
  pre c := iprop(StableHlo.held (c : Thread nD τ) (Pipeline.ucRefs τ sig) (W15 m ρ c) ∗ Rf c)
  post c := iprop(StableHlo.held (c : Thread nD τ) (Pipeline.ucRefs τ sig) (W16 m ρ c) ∗ Rf c)
  X c := iprop(∃ r, prngReg c r)
  Y c := iprop(∃ r, prngReg c r)
  Z c := Pipeline.unscopedRest (Ix := Unit) (Name := ℕ) (U := UR sig nD τ) (Lvl := ℕ) spec3 c (U15 m ρ c)
  hentry c := by
    rw [Pipeline.ownSems0_none]
    have hsplit := Pipeline.arrays_of_unscopedBufs (p := 3) (pcfgs (F := F)) fadm (fdats m ρ) launch3.win launch3.arr_whole c
      ((fdats m ρ 3 c).share_full fun _ => rfl) (U15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (fdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) fadm (Ix := Unit) (Name := ℕ) (U := UR sig nD τ) (Lvl := ℕ)
      launch3.win launch3.arr_whole c (fdats m ρ) ((fdats m ρ 3 c).share_full fun _ => rfl)
      (U15 m ρ c) (U16 m ρ c) ((fdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg4.lean ====
/-
  Kernel region 4 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) fadm (fdats m ρ) () defs₀ 𝒱f Lf lvf 4 where
  win := launch4.win.to₀
  block_pos := launch4.block_pos
  stage_whole := launch4.stage_whole
  K := PEmpty
  osem k := k.elim
  ho := Pipeline.OwnSemFacts.none _
  hbody c := (body_obligation4 (U25 m ρ) c).loose
  hwaits := Pipeline.hwaits_of_owed_zero _ _ _ _ Lf lvf 4 fun _ _ => rfl
  pre c := iprop(StableHlo.held (c : Thread nD τ) (Pipeline.ucRefs τ sig) (W25 m ρ c) ∗ Rf c)
  post c := iprop(StableHlo.held (c : Thread nD τ) (Pipeline.ucRefs τ sig) (W26 m ρ c) ∗ Rf c)
  X c := iprop(∃ r, prngReg c r)
  Y c := iprop(∃ r, prngReg c r)
  Z c := Pipeline.unscopedRest (Ix := Unit) (Name := ℕ) (U := UR sig nD τ) (Lvl := ℕ) spec4 c (U25 m ρ c)
  hentry c := by
    rw [Pipeline.ownSems0_none]
    have hsplit := Pipeline.arrays_of_unscopedBufs (p := 4) (pcfgs (F := F)) fadm (fdats m ρ) launch4.win launch4.arr_whole c
      ((fdats m ρ 4 c).share_full fun _ => rfl) (U25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (fdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) fadm (Ix := Unit) (Name := ℕ) (U := UR sig nD τ) (Lvl := ℕ)
      launch4.win launch4.arr_whole c (fdats m ρ) ((fdats m ρ 4 c).share_full fun _ => rfl)
      (U25 m ρ c) (U26 m ρ c) ((fdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg5.lean ====
/-
  Kernel region 5 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) fadm (fdats m ρ) () defs₀ 𝒱f Lf lvf 5 where
  win := launch5.win.to₀
  block_pos := launch5.block_pos
  stage_whole := launch5.stage_whole
  K := PEmpty
  osem k := k.elim
  ho := Pipeline.OwnSemFacts.none _
  hbody c := (body_obligation5 (U27 m ρ) c).loose
  hwaits := Pipeline.hwaits_of_owed_zero _ _ _ _ Lf lvf 5 fun _ _ => rfl
  pre c := iprop(StableHlo.held (c : Thread nD τ) (Pipeline.ucRefs τ sig) (W27 m ρ c) ∗ Rf c)
  post c := iprop(StableHlo.held (c : Thread nD τ) (Pipeline.ucRefs τ sig) (W28 m ρ c) ∗ Rf c)
  X c := iprop(∃ r, prngReg c r)
  Y c := iprop(∃ r, prngReg c r)
  Z c := Pipeline.unscopedRest (Ix := Unit) (Name := ℕ) (U := UR sig nD τ) (Lvl := ℕ) spec5 c (U27 m ρ c)
  hentry c := by
    rw [Pipeline.ownSems0_none]
    have hsplit := Pipeline.arrays_of_unscopedBufs (p := 5) (pcfgs (F := F)) fadm (fdats m ρ) launch5.win launch5.arr_whole c
      ((fdats m ρ 5 c).share_full fun _ => rfl) (U27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (fdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) fadm (Ix := Unit) (Name := ℕ) (U := UR sig nD τ) (Lvl := ℕ)
      launch5.win launch5.arr_whole c (fdats m ρ) ((fdats m ρ 5 c).share_full fun _ => rfl)
      (U27 m ρ c) (U28 m ρ c) ((fdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg6.lean ====
/-
  Kernel region 6 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) fadm (fdats m ρ) () defs₀ 𝒱f Lf lvf 6 where
  win := launch6.win.to₀
  block_pos := launch6.block_pos
  stage_whole := launch6.stage_whole
  K := PEmpty
  osem k := k.elim
  ho := Pipeline.OwnSemFacts.none _
  hbody c := (body_obligation6 (U29 m ρ) c).loose
  hwaits := Pipeline.hwaits_of_owed_zero _ _ _ _ Lf lvf 6 fun _ _ => rfl
  pre c := iprop(StableHlo.held (c : Thread nD τ) (Pipeline.ucRefs τ sig) (W29 m ρ c) ∗ Rf c)
  post c := iprop(StableHlo.held (c : Thread nD τ) (Pipeline.ucRefs τ sig) (W30 m ρ c) ∗ Rf c)
  X c := iprop(∃ r, prngReg c r)
  Y c := iprop(∃ r, prngReg c r)
  Z c := Pipeline.unscopedRest (Ix := Unit) (Name := ℕ) (U := UR sig nD τ) (Lvl := ℕ) spec6 c (U29 m ρ c)
  hentry c := by
    rw [Pipeline.ownSems0_none]
    have hsplit := Pipeline.arrays_of_unscopedBufs (p := 6) (pcfgs (F := F)) fadm (fdats m ρ) launch6.win launch6.arr_whole c
      ((fdats m ρ 6 c).share_full fun _ => rfl) (U29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (fdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) fadm (Ix := Unit) (Name := ℕ) (U := UR sig nD τ) (Lvl := ℕ)
      launch6.win launch6.arr_whole c (fdats m ρ) ((fdats m ρ 6 c).share_full fun _ => rfl)
      (U29 m ρ c) (U30 m ρ c) ((fdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg7.lean ====
/-
  Kernel region 7 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) fadm (fdats m ρ) () defs₀ 𝒱f Lf lvf 7 where
  win := launch7.win.to₀
  block_pos := launch7.block_pos
  stage_whole := launch7.stage_whole
  K := PEmpty
  osem k := k.elim
  ho := Pipeline.OwnSemFacts.none _
  hbody c := (body_obligation7 (U31 m ρ) c).loose
  hwaits := Pipeline.hwaits_of_owed_zero _ _ _ _ Lf lvf 7 fun _ _ => rfl
  pre c := iprop(StableHlo.held (c : Thread nD τ) (Pipeline.ucRefs τ sig) (W31 m ρ c) ∗ Rf c)
  post c := iprop(StableHlo.held (c : Thread nD τ) (Pipeline.ucRefs τ sig) (W32 m ρ c) ∗ Rf c)
  X c := iprop(∃ r, prngReg c r)
  Y c := iprop(∃ r, prngReg c r)
  Z c := Pipeline.unscopedRest (Ix := Unit) (Name := ℕ) (U := UR sig nD τ) (Lvl := ℕ) spec7 c (U31 m ρ c)
  hentry c := by
    rw [Pipeline.ownSems0_none]
    have hsplit := Pipeline.arrays_of_unscopedBufs (p := 7) (pcfgs (F := F)) fadm (fdats m ρ) launch7.win launch7.arr_whole c
      ((fdats m ρ 7 c).share_full fun _ => rfl) (U31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (fdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) fadm (Ix := Unit) (Name := ℕ) (U := UR sig nD τ) (Lvl := ℕ)
      launch7.win launch7.arr_whole c (fdats m ρ) ((fdats m ρ 7 c).share_full fun _ => rfl)
      (U31 m ρ c) (U32 m ρ c) ((fdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg8.lean ====
/-
  Kernel region 8 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg8 : Pipeline.RegionSeg (pcfgs (F := F)) fadm (fdats m ρ) () defs₀ 𝒱f Lf lvf 8 where
  win := launch8.win.to₀
  block_pos := launch8.block_pos
  stage_whole := launch8.stage_whole
  K := PEmpty
  osem k := k.elim
  ho := Pipeline.OwnSemFacts.none _
  hbody c := (body_obligation8 (U41 m ρ) c).loose
  hwaits := Pipeline.hwaits_of_owed_zero _ _ _ _ Lf lvf 8 fun _ _ => rfl
  pre c := iprop(StableHlo.held (c : Thread nD τ) (Pipeline.ucRefs τ sig) (W41 m ρ c) ∗ Rf c)
  post c := iprop(StableHlo.held (c : Thread nD τ) (Pipeline.ucRefs τ sig) (W42 m ρ c) ∗ Rf c)
  X c := iprop(∃ r, prngReg c r)
  Y c := iprop(∃ r, prngReg c r)
  Z c := Pipeline.unscopedRest (Ix := Unit) (Name := ℕ) (U := UR sig nD τ) (Lvl := ℕ) spec8 c (U41 m ρ c)
  hentry c := by
    rw [Pipeline.ownSems0_none]
    have hsplit := Pipeline.arrays_of_unscopedBufs (p := 8) (pcfgs (F := F)) fadm (fdats m ρ) launch8.win launch8.arr_whole c
      ((fdats m ρ 8 c).share_full fun _ => rfl) (U41 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (fdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) fadm (Ix := Unit) (Name := ℕ) (U := UR sig nD τ) (Lvl := ℕ)
      launch8.win launch8.arr_whole c (fdats m ρ) ((fdats m ρ 8 c).share_full fun _ => rfl)
      (U41 m ρ c) (U42 m ρ c) ((fdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg9.lean ====
/-
  Kernel region 9 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg9 : Pipeline.RegionSeg (pcfgs (F := F)) fadm (fdats m ρ) () defs₀ 𝒱f Lf lvf 9 where
  win := launch9.win.to₀
  block_pos := launch9.block_pos
  stage_whole := launch9.stage_whole
  K := PEmpty
  osem k := k.elim
  ho := Pipeline.OwnSemFacts.none _
  hbody c := (body_obligation9 (U43 m ρ) c).loose
  hwaits := Pipeline.hwaits_of_owed_zero _ _ _ _ Lf lvf 9 fun _ _ => rfl
  pre c := iprop(StableHlo.held (c : Thread nD τ) (Pipeline.ucRefs τ sig) (W43 m ρ c) ∗ Rf c)
  post c := iprop(StableHlo.held (c : Thread nD τ) (Pipeline.ucRefs τ sig) (W44 m ρ c) ∗ Rf c)
  X c := iprop(∃ r, prngReg c r)
  Y c := iprop(∃ r, prngReg c r)
  Z c := Pipeline.unscopedRest (Ix := Unit) (Name := ℕ) (U := UR sig nD τ) (Lvl := ℕ) spec9 c (U43 m ρ c)
  hentry c := by
    rw [Pipeline.ownSems0_none]
    have hsplit := Pipeline.arrays_of_unscopedBufs (p := 9) (pcfgs (F := F)) fadm (fdats m ρ) launch9.win launch9.arr_whole c
      ((fdats m ρ 9 c).share_full fun _ => rfl) (U43 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (fdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) fadm (Ix := Unit) (Name := ℕ) (U := UR sig nD τ) (Lvl := ℕ)
      launch9.win launch9.arr_whole c (fdats m ρ) ((fdats m ρ 9 c).share_full fun _ => rfl)
      (U43 m ρ c) (U44 m ρ c) ((fdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg10.lean ====
/-
  Kernel region 10 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg10 : Pipeline.RegionSeg (pcfgs (F := F)) fadm (fdats m ρ) () defs₀ 𝒱f Lf lvf 10 where
  win := launch10.win.to₀
  block_pos := launch10.block_pos
  stage_whole := launch10.stage_whole
  K := PEmpty
  osem k := k.elim
  ho := Pipeline.OwnSemFacts.none _
  hbody c := (body_obligation10 (U45 m ρ) c).loose
  hwaits := Pipeline.hwaits_of_owed_zero _ _ _ _ Lf lvf 10 fun _ _ => rfl
  pre c := iprop(StableHlo.held (c : Thread nD τ) (Pipeline.ucRefs τ sig) (W45 m ρ c) ∗ Rf c)
  post c := iprop(StableHlo.held (c : Thread nD τ) (Pipeline.ucRefs τ sig) (W46 m ρ c) ∗ Rf c)
  X c := iprop(∃ r, prngReg c r)
  Y c := iprop(∃ r, prngReg c r)
  Z c := Pipeline.unscopedRest (Ix := Unit) (Name := ℕ) (U := UR sig nD τ) (Lvl := ℕ) spec10 c (U45 m ρ c)
  hentry c := by
    rw [Pipeline.ownSems0_none]
    have hsplit := Pipeline.arrays_of_unscopedBufs (p := 10) (pcfgs (F := F)) fadm (fdats m ρ) launch10.win launch10.arr_whole c
      ((fdats m ρ 10 c).share_full fun _ => rfl) (U45 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (fdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) fadm (Ix := Unit) (Name := ℕ) (U := UR sig nD τ) (Lvl := ℕ)
      launch10.win launch10.arr_whole c (fdats m ρ) ((fdats m ρ 10 c).share_full fun _ => rfl)
      (U45 m ρ c) (U46 m ρ c) ((fdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg11.lean ====
/-
  Kernel region 11 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.K.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg11 : Pipeline.RegionSeg (pcfgs (F := F)) fadm (fdats m ρ) () defs₀ 𝒱f Lf lvf 11 where
  win := launch11.win.to₀
  block_pos := launch11.block_pos
  stage_whole := launch11.stage_whole
  K := PEmpty
  osem k := k.elim
  ho := Pipeline.OwnSemFacts.none _
  hbody c := (body_obligation11 (U47 m ρ) c).loose
  hwaits := Pipeline.hwaits_of_owed_zero _ _ _ _ Lf lvf 11 fun _ _ => rfl
  pre c := iprop(StableHlo.held (c : Thread nD τ) (Pipeline.ucRefs τ sig) (W47 m ρ c) ∗ Rf c)
  post c := iprop(StableHlo.held (c : Thread nD τ) (Pipeline.ucRefs τ sig) (W48 m ρ c) ∗ Rf c)
  X c := iprop(∃ r, prngReg c r)
  Y c := iprop(∃ r, prngReg c r)
  Z c := Pipeline.unscopedRest (Ix := Unit) (Name := ℕ) (U := UR sig nD τ) (Lvl := ℕ) spec11 c (U47 m ρ c)
  hentry c := by
    rw [Pipeline.ownSems0_none]
    have hsplit := Pipeline.arrays_of_unscopedBufs (p := 11) (pcfgs (F := F)) fadm (fdats m ρ) launch11.win launch11.arr_whole c
      ((fdats m ρ 11 c).share_full fun _ => rfl) (U47 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (fdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) fadm (Ix := Unit) (Name := ℕ) (U := UR sig nD τ) (Lvl := ℕ)
      launch11.win launch11.arr_whole c (fdats m ρ) ((fdats m ρ 11 c).share_full fun _ => rfl)
      (U47 m ρ c) (U48 m ρ c) ((fdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Run.lean ====
/-
  The whole run of the program's main function: its forty-nine items — stretches of host operations and the twelve
  kernel regions — chained over the thread state, from the launch memory to the last boundary's contents.  The
  conclusion: every weakly fair execution terminates without a fault, and at the end every unscoped buffer of
  every core holds the last boundary's contents.
-/
import proofs.«171333_j58007828300388_1_alg».proof.Proof.K.Seg0
import proofs.«171333_j58007828300388_1_alg».proof.Proof.K.Seg1
import proofs.«171333_j58007828300388_1_alg».proof.Proof.K.Seg2
import proofs.«171333_j58007828300388_1_alg».proof.Proof.K.Seg3
import proofs.«171333_j58007828300388_1_alg».proof.Proof.K.Seg4
import proofs.«171333_j58007828300388_1_alg».proof.Proof.K.Seg5
import proofs.«171333_j58007828300388_1_alg».proof.Proof.K.Seg6
import proofs.«171333_j58007828300388_1_alg».proof.Proof.K.Seg7
import proofs.«171333_j58007828300388_1_alg».proof.Proof.K.Seg8
import proofs.«171333_j58007828300388_1_alg».proof.Proof.K.Seg9
import proofs.«171333_j58007828300388_1_alg».proof.Proof.K.Seg10
import proofs.«171333_j58007828300388_1_alg».proof.Proof.K.Seg11

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The main function's items in order: a host segment per stretch from its boundary's contents, a region per launch. -/
abbrev fsegs : List (Pipeline.Seg (pcfgs (F := F)) fadm (fdats m ρ) () defs₀ 𝒱f Lf lvf) :=
  [
    .host (hsegf hostOps0 hostOps0_sub hostOps0_fresh (W0 m ρ)),
    .host (hsegf hostOps0_1 hostOps0_1_sub hostOps0_1_fresh (W1 m ρ)),
    .host (hsegf hostOps0_2 hostOps0_2_sub hostOps0_2_fresh (W2 m ρ)),
    .host (hsegf hostOps0_3 hostOps0_3_sub hostOps0_3_fresh (W3 m ρ)),
    .host (hsegf hostOps0_4 hostOps0_4_sub hostOps0_4_fresh (W4 m ρ)),
    .host (hsegf hostOps0_5 hostOps0_5_sub hostOps0_5_fresh (W5 m ρ)),
    .host (hsegf hostOps0_6 hostOps0_6_sub hostOps0_6_fresh (W6 m ρ)),
    .host (hsegf hostOps0_7 hostOps0_7_sub hostOps0_7_fresh (W7 m ρ)),
    .host (hsegf hostOps0_8 hostOps0_8_sub hostOps0_8_fresh (W8 m ρ)),
    .region (reg0 m ρ),
    .host (hsegf hostOps1 hostOps1_sub hostOps1_fresh (W10 m ρ)),
    .region (reg1 m ρ),
    .host (hsegf hostOps2 hostOps2_sub hostOps2_fresh (W12 m ρ)),
    .region (reg2 m ρ),
    .host (hsegf hostOps3 hostOps3_sub hostOps3_fresh (W14 m ρ)),
    .region (reg3 m ρ),
    .host (hsegf hostOps4 hostOps4_sub hostOps4_fresh (W16 m ρ)),
    .host (hsegf hostOps4_1 hostOps4_1_sub hostOps4_1_fresh (W17 m ρ)),
    .host (hsegf hostOps4_2 hostOps4_2_sub hostOps4_2_fresh (W18 m ρ)),
    .host (hsegf hostOps4_3 hostOps4_3_sub hostOps4_3_fresh (W19 m ρ)),
    .host (hsegf hostOps4_4 hostOps4_4_sub hostOps4_4_fresh (W20 m ρ)),
    .host (hsegf hostOps4_5 hostOps4_5_sub hostOps4_5_fresh (W21 m ρ)),
    .host (hsegf hostOps4_6 hostOps4_6_sub hostOps4_6_fresh (W22 m ρ)),
    .host (hsegf hostOps4_7 hostOps4_7_sub hostOps4_7_fresh (W23 m ρ)),
    .host (hsegf hostOps4_8 hostOps4_8_sub hostOps4_8_fresh (W24 m ρ)),
    .region (reg4 m ρ),
    .host (hsegf hostOps5 hostOps5_sub hostOps5_fresh (W26 m ρ)),
    .region (reg5 m ρ),
    .host (hsegf hostOps6 hostOps6_sub hostOps6_fresh (W28 m ρ)),
    .region (reg6 m ρ),
    .host (hsegf hostOps7 hostOps7_sub hostOps7_fresh (W30 m ρ)),
    .region (reg7 m ρ),
    .host (hsegf hostOps8 hostOps8_sub hostOps8_fresh (W32 m ρ)),
    .host (hsegf hostOps8_1 hostOps8_1_sub hostOps8_1_fresh (W33 m ρ)),
    .host (hsegf hostOps8_2 hostOps8_2_sub hostOps8_2_fresh (W34 m ρ)),
    .host (hsegf hostOps8_3 hostOps8_3_sub hostOps8_3_fresh (W35 m ρ)),
    .host (hsegf hostOps8_4 hostOps8_4_sub hostOps8_4_fresh (W36 m ρ)),
    .host (hsegf hostOps8_5 hostOps8_5_sub hostOps8_5_fresh (W37 m ρ)),
    .host (hsegf hostOps8_6 hostOps8_6_sub hostOps8_6_fresh (W38 m ρ)),
    .host (hsegf hostOps8_7 hostOps8_7_sub hostOps8_7_fresh (W39 m ρ)),
    .host (hsegf hostOps8_8 hostOps8_8_sub hostOps8_8_fresh (W40 m ρ)),
    .region (reg8 m ρ),
    .host (hsegf hostOps9 hostOps9_sub hostOps9_fresh (W42 m ρ)),
    .region (reg9 m ρ),
    .host (hsegf hostOps10 hostOps10_sub hostOps10_fresh (W44 m ρ)),
    .region (reg10 m ρ),
    .host (hsegf hostOps11 hostOps11_sub hostOps11_fresh (W46 m ρ)),
    .region (reg11 m ρ),
    .host (hsegf hostOps12 hostOps12_sub hostOps12_fresh (W48 m ρ)) ]

theorem main_run (c : Dev nD) : main (F := F) c = Pipeline.Seg.run (fsegs m ρ) := (main_chain c).trans (by chain_rfl)

/-- The last thread state without the debts: every unscoped buffer at the last boundary's contents. -/
abbrev Tfin (c : Dev nD) : sProp 𝕄 := iprop(StableHlo.held (c : Thread nD τ) (Pipeline.ucRefs τ sig) (W49 m ρ c) ∗ ∃ r, prngReg c r)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W49 m ρ c b) :=
  Pipeline.θ_run_regions_kit (pcfgs (F := F)) fadm (fdats m ρ) () cellOf_inj emb₁ defs₀ 𝒱f Lf lvf m ρ main (fsegs m ρ)
    (fun c Q => by rw [main_run m ρ c])
    (by simp only [fsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rf c)) (Tₙ := Tfin m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W49 m ρ c) ∗ Rf c) ⊢ iprop(Tfin m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lf lvf fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W49 m ρ c b)
    (hfin := fun c s' => by
      iintro ⟨⟨Hh, -⟩, HSI⟩
      unfold StableHlo.held
      imodintro
      iapply (pointsTo_read_all (Pipeline.ucRefs τ sig) (fun b => (((c : Thread nD τ)).1, b)) (W49 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c _ (mem_uc main_arg0 (by decide))).trans (W49_main_arg0 m ρ c),
      (h c _ (mem_uc main_arg1 (by decide))).trans (W49_main_arg1 m ρ c),
      (h c _ (mem_uc main_arg2 (by decide))).trans (W49_main_arg2 m ρ c),
      (h c _ (mem_uc main_arg3 (by decide))).trans (W49_main_arg3 m ρ c),
      (h c _ (mem_uc main_arg4 (by decide))).trans (W49_main_arg4 m ρ c),
      (h c _ (mem_uc main_arg5 (by decide))).trans (W49_main_arg5 m ρ c),
      (h c _ (mem_uc main_arg6 (by decide))).trans (W49_main_arg6 m ρ c),
      (h c _ (mem_uc main_arg7 (by decide))).trans (W49_main_arg7 m ρ c),
      (h c _ (mem_uc main_arg8 (by decide))).trans (W49_main_arg8 m ρ c),
      (h c _ (mem_uc main_arg9 (by decide))).trans (W49_main_arg9 m ρ c),
      (h c _ (mem_uc main_arg10 (by decide))).trans (W49_main_arg10 m ρ c),
      (h c _ (mem_uc main_arg11 (by decide))).trans (W49_main_arg11 m ρ c),
      (h c _ (mem_uc main_arg12 (by decide))).trans (W49_main_arg12 m ρ c),
      (h c _ (mem_uc main_arg13 (by decide))).trans (W49_main_arg13 m ρ c),
      (h c _ (mem_uc main_arg14 (by decide))).trans (W49_main_arg14 m ρ c),
      (h c _ (mem_uc main_arg15 (by decide))).trans (W49_main_arg15 m ρ c),
      (h c _ (mem_uc main_arg16 (by decide))).trans (W49_main_arg16 m ρ c),
      (h c _ (mem_uc main_arg17 (by decide))).trans (W49_main_arg17 m ρ c)⟩) (run_all m ρ)

end Cert.Kernel.Fr

end
-- ==== Proof.KI.R0.lean ====
/-
  Region 0 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.KernelIdeal.Launch
import proofs.«171333_j58007828300388_1_alg».proof.Proof.Gen.KernelIdeal.Skeleton
import proofs.«171333_j58007828300388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether fetched there or carried over
    from an earlier point (its block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether fetched there or carried over
    from an earlier point (its block index has not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether fetched there or carried over
    from an earlier point (its block index has not moved since). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether fetched there or carried over
    from an earlier point (its block index has not moved since). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, whether fetched there or carried over
    from an earlier point (its block index has not moved since). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev rX0 : Rect S2000x256 := Rect.unit (s := S2000x256) ![0, 0] S2000x256.size inb_S2000x256_S2000x256_0_0
abbrev rW0 : Rect S256x256 := Rect.unit (s := S256x256) ![0, 0] S256x256.size inb_S256x256_S256x256_0_0
abbrev rB0 : Rect S256 := Rect.unit (s := S256) ![0] S256.size inb_S256_S256_0

/-- The output buffer after the body, from the five input blocks: its single store, of the payload of the loads. -/
def out0_5 (x0 : Vec F S2000x256 .f32) (x1 : Vec F S256x256 .f32) (x2 : Vec F S256 .f32) (x3 : Vec F S256x256 .f32) (x4 : Vec F S256 .f32) : Vec F S2000x256 .f32 :=
  View.canon [⟨rX0, k0_pay1 (View.ld x0 rX0) (View.ld x1 rW0) (View.ld x2 rB0) (View.ld x3 rW0) (View.ld x4 rB0)⟩]

/-- The store's rectangle is the whole buffer, so it covers it. -/
theorem cover0_5 (p0 : Vec F S2000x256 .f32) (y : S2000x256.Idx) :
    ∃ pc ∈ ([⟨rX0, p0⟩] : List (View.Piece (Elt F) S2000x256 .f32)), y ∈ pc.1.set :=
  View.cover_of_tiled [⟨rX0, p0⟩] S2000x256.size (by rfl) y

set_option maxHeartbeats 1000000 in
/-- The body on whole staging buffers, the five inputs' at known contents and the output's at anything, runs to the
    continuation with the inputs' unchanged and the output's at `out0_5` of the inputs'. -/
theorem sound_kernel0 (c : Dev nD) (E : Set ℕ) (i : grid0.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them; after the body at point `t`
    each input's buffer at its block and the output's at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic grid point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any grid point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1.lean ====
/-
  Region 1 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.KernelIdeal.Launch
import proofs.«171333_j58007828300388_1_alg».proof.Proof.Gen.KernelIdeal.Skeleton
import proofs.«171333_j58007828300388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether fetched there or carried over
    from an earlier point (its block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether fetched there or carried over
    from an earlier point (its block index has not moved since). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether fetched there or carried over
    from an earlier point (its block index has not moved since). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether fetched there or carried over
    from an earlier point (its block index has not moved since). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether fetched there or carried over
    from an earlier point (its block index has not moved since). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev rX1 : Rect S2000x256 := Rect.unit (s := S2000x256) ![0, 0] S2000x256.size inb_S2000x256_S2000x256_0_0
abbrev rW1 : Rect S256x256 := Rect.unit (s := S256x256) ![0, 0] S256x256.size inb_S256x256_S256x256_0_0
abbrev rB1 : Rect S256 := Rect.unit (s := S256) ![0] S256.size inb_S256_S256_0

/-- The output buffer after the body, from the five input blocks: its single store, of the payload of the loads. -/
def out1_5 (x0 : Vec F S2000x256 .f32) (x1 : Vec F S256x256 .f32) (x2 : Vec F S256 .f32) (x3 : Vec F S256x256 .f32) (x4 : Vec F S256 .f32) : Vec F S2000x256 .f32 :=
  View.canon [⟨rX1, k1_pay1 (View.ld x0 rX1) (View.ld x1 rW1) (View.ld x2 rB1) (View.ld x3 rW1) (View.ld x4 rB1)⟩]

/-- The store's rectangle is the whole buffer, so it covers it. -/
theorem cover1_5 (p0 : Vec F S2000x256 .f32) (y : S2000x256.Idx) :
    ∃ pc ∈ ([⟨rX1, p0⟩] : List (View.Piece (Elt F) S2000x256 .f32)), y ∈ pc.1.set :=
  View.cover_of_tiled [⟨rX1, p0⟩] S2000x256.size (by rfl) y

set_option maxHeartbeats 1000000 in
/-- The body on whole staging buffers, the five inputs' at known contents and the output's at anything, runs to the
    continuation with the inputs' unchanged and the output's at `out1_5` of the inputs'. -/
theorem sound_kernel1 (c : Dev nD) (E : Set ℕ) (i : grid1.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t`
    each input's buffer at its block and the output's at `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic grid point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any grid point: the inputs' buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.R2.lean ====
/-
  Region 2 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.KernelIdeal.Launch
import proofs.«171333_j58007828300388_1_alg».proof.Proof.Gen.KernelIdeal.Skeleton
import proofs.«171333_j58007828300388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether fetched there or carried over
    from an earlier point (its block index has not moved since). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, whether fetched there or carried over
    from an earlier point (its block index has not moved since). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, whether fetched there or carried over
    from an earlier point (its block index has not moved since). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, whether fetched there or carried over
    from an earlier point (its block index has not moved since). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, whether fetched there or carried over
    from an earlier point (its block index has not moved since). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

abbrev rX2 : Rect S2000x256 := Rect.unit (s := S2000x256) ![0, 0] S2000x256.size inb_S2000x256_S2000x256_0_0
abbrev rW2 : Rect S256x256 := Rect.unit (s := S256x256) ![0, 0] S256x256.size inb_S256x256_S256x256_0_0
abbrev rB2 : Rect S256 := Rect.unit (s := S256) ![0] S256.size inb_S256_S256_0

/-- The output buffer after the body, from the five input blocks: its single store, of the payload of the loads. -/
def out2_5 (x0 : Vec F S2000x256 .f32) (x1 : Vec F S256x256 .f32) (x2 : Vec F S256 .f32) (x3 : Vec F S256x256 .f32) (x4 : Vec F S256 .f32) : Vec F S2000x256 .f32 :=
  View.canon [⟨rX2, k2_pay1 (View.ld x0 rX2) (View.ld x1 rW2) (View.ld x2 rB2) (View.ld x3 rW2) (View.ld x4 rB2)⟩]

/-- The store's rectangle is the whole buffer, so it covers it. -/
theorem cover2_5 (p0 : Vec F S2000x256 .f32) (y : S2000x256.Idx) :
    ∃ pc ∈ ([⟨rX2, p0⟩] : List (View.Piece (Elt F) S2000x256 .f32)), y ∈ pc.1.set :=
  View.cover_of_tiled [⟨rX2, p0⟩] S2000x256.size (by rfl) y

set_option maxHeartbeats 1000000 in
/-- The body on whole staging buffers, the five inputs' at known contents and the output's at anything, runs to the
    continuation with the inputs' unchanged and the output's at `out2_5` of the inputs'. -/
theorem sound_kernel2 (c : Dev nD) (E : Set ℕ) (i : grid2.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them; after the body at point `t`
    each input's buffer at its block and the output's at `out2_5` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic grid point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any grid point: the inputs' buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.R3.lean ====
/-
  Region 3 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.KernelIdeal.Launch
import proofs.«171333_j58007828300388_1_alg».proof.Proof.Gen.KernelIdeal.Skeleton
import proofs.«171333_j58007828300388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether fetched there or carried over
    from an earlier point (its block index has not moved since). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether fetched there or carried over
    from an earlier point (its block index has not moved since). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether fetched there or carried over
    from an earlier point (its block index has not moved since). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether fetched there or carried over
    from an earlier point (its block index has not moved since). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, whether fetched there or carried over
    from an earlier point (its block index has not moved since). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole buffer -/

abbrev rX3 : Rect S2000x256 := Rect.unit (s := S2000x256) ![0, 0] S2000x256.size inb_S2000x256_S2000x256_0_0
abbrev rW3 : Rect S256x256 := Rect.unit (s := S256x256) ![0, 0] S256x256.size inb_S256x256_S256x256_0_0
abbrev rB3 : Rect S256 := Rect.unit (s := S256) ![0] S256.size inb_S256_S256_0

/-- The output buffer after the body, from the five input blocks: its single store, of the payload of the loads. -/
def out3_5 (x0 : Vec F S2000x256 .f32) (x1 : Vec F S256x256 .f32) (x2 : Vec F S256 .f32) (x3 : Vec F S256x256 .f32) (x4 : Vec F S256 .f32) : Vec F S2000x256 .f32 :=
  View.canon [⟨rX3, k3_pay1 (View.ld x0 rX3) (View.ld x1 rW3) (View.ld x2 rB3) (View.ld x3 rW3) (View.ld x4 rB3)⟩]

/-- The store's rectangle is the whole buffer, so it covers it. -/
theorem cover3_5 (p0 : Vec F S2000x256 .f32) (y : S2000x256.Idx) :
    ∃ pc ∈ ([⟨rX3, p0⟩] : List (View.Piece (Elt F) S2000x256 .f32)), y ∈ pc.1.set :=
  View.cover_of_tiled [⟨rX3, p0⟩] S2000x256.size (by rfl) y

set_option maxHeartbeats 1000000 in
/-- The body on whole staging buffers, the five inputs' at known contents and the output's at anything, runs to the
    continuation with the inputs' unchanged and the output's at `out3_5` of the inputs'. -/
theorem sound_kernel3 (c : Dev nD) (E : Set ℕ) (i : grid3.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of this pipeline on core `c`: the arrays as the region finds them; after the body at point `t`
    each input's buffer at its block and the output's at `out3_5` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic grid point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any grid point: the inputs' buffers hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.R4.lean ====
/-
  Region 4 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.KernelIdeal.Launch
import proofs.«171333_j58007828300388_1_alg».proof.Proof.Gen.KernelIdeal.Skeleton
import proofs.«171333_j58007828300388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether fetched there or carried over
    from an earlier point (its block index has not moved since). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, whether fetched there or carried over
    from an earlier point (its block index has not moved since). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, whether fetched there or carried over
    from an earlier point (its block index has not moved since). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, whether fetched there or carried over
    from an earlier point (its block index has not moved since). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, whether fetched there or carried over
    from an earlier point (its block index has not moved since). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store take a whole buffer -/

abbrev rX4 : Rect S2000x256 := Rect.unit (s := S2000x256) ![0, 0] S2000x256.size inb_S2000x256_S2000x256_0_0
abbrev rW4 : Rect S256x256 := Rect.unit (s := S256x256) ![0, 0] S256x256.size inb_S256x256_S256x256_0_0
abbrev rB4 : Rect S256 := Rect.unit (s := S256) ![0] S256.size inb_S256_S256_0

/-- The output buffer after the body, from the five input blocks: its single store, of the payload of the loads. -/
def out4_5 (x0 : Vec F S2000x256 .f32) (x1 : Vec F S256x256 .f32) (x2 : Vec F S256 .f32) (x3 : Vec F S256x256 .f32) (x4 : Vec F S256 .f32) : Vec F S2000x256 .f32 :=
  View.canon [⟨rX4, k4_pay1 (View.ld x0 rX4) (View.ld x1 rW4) (View.ld x2 rB4) (View.ld x3 rW4) (View.ld x4 rB4)⟩]

/-- The store's rectangle is the whole buffer, so it covers it. -/
theorem cover4_5 (p0 : Vec F S2000x256 .f32) (y : S2000x256.Idx) :
    ∃ pc ∈ ([⟨rX4, p0⟩] : List (View.Piece (Elt F) S2000x256 .f32)), y ∈ pc.1.set :=
  View.cover_of_tiled [⟨rX4, p0⟩] S2000x256.size (by rfl) y

set_option maxHeartbeats 1000000 in
/-- The body on whole staging buffers, the five inputs' at known contents and the output's at anything, runs to the
    continuation with the inputs' unchanged and the output's at `out4_5` of the inputs'. -/
theorem sound_kernel4 (c : Dev nD) (E : Set ℕ) (i : grid4.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__mlp_kernel i arg1 harg1 arg2 harg2 arg3 harg3 arg4 harg4 arg5 harg5 arg6 harg6) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of this pipeline on core `c`: the arrays as the region finds them; after the body at point `t`
    each input's buffer at its block and the output's at `out4_5` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic grid point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any grid point: the inputs' buffers hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.R5.lean ====
/-
  Region 5 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.KernelIdeal.Launch
import proofs.«171333_j58007828300388_1_alg».proof.Proof.Gen.KernelIdeal.Skeleton
import proofs.«171333_j58007828300388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether fetched there or carried over
    from an earlier point (its block index has not moved since). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether fetched there or carried over
    from an earlier point (its block index has not moved since). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, whether fetched there or carried over
    from an earlier point (its block index has not moved since). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, whether fetched there or carried over
    from an earlier point (its block index has not moved since). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, whether fetched there or carried over
    from an earlier point (its block index has not moved since). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take a whole buffer -/

abbrev rX5 : Rect S2000x256 := Rect.unit (s := S2000x256) ![0, 0] S2000x256.size inb_S2000x256_S2000x256_0_0
abbrev rW5 : Rect S256x256 := Rect.unit (s := S256x256) ![0, 0] S256x256.size inb_S256x256_S256x256_0_0
abbrev rB5 : Rect S256 := Rect.unit (s := S256) ![0] S256.size inb_S256_S256_0

/-- The output buffer after the body, from the five input blocks: its single store, of the payload of the loads. -/
def out5_5 (x0 : Vec F S2000x256 .f32) (x1 : Vec F S256x256 .f32) (x2 : Vec F S256 .f32) (x3 : Vec F S256x256 .f32) (x4 : Vec F S256 .f32) : Vec F S2000x256 .f32 :=
  View.canon [⟨rX5, k5_pay1 (View.ld x0 rX5) (View.ld x1 rW5) (View.ld x2 rB5) (View.ld x3 rW5) (View.ld x4 rB5)⟩]

/-- The store's rectangle is the whole buffer, so it covers it. -/
theorem cover5_5 (p0 : Vec F S2000x256 .f32) (y : S2000x256.Idx) :
    ∃ pc ∈ ([⟨rX5, p0⟩] : List (View.Piece (Elt F) S2000x256 .f32)), y ∈ pc.1.set :=
  View.cover_of_tiled [⟨rX5, p0⟩] S2000x256.size (by rfl) y

set_option maxHeartbeats 1000000 in
/-- The body on whole staging buffers, the five inputs' at known contents and the output's at anything, runs to the
    continuation with the inputs' unchanged and the output's at `out5_5` of the inputs'. -/
theorem sound_kernel5 (c : Dev nD) (E : Set ℕ) (i : grid5.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__mlp_kernel i arg1 harg1 arg2 harg2 arg3 harg3 arg4 harg4 arg5 harg5 arg6 harg6) K := by
  simp only [cc5__mlp_kernel_eq_skeleton]; unfold cc5__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of this pipeline on core `c`: the arrays as the region finds them; after the body at point `t`
    each input's buffer at its block and the output's at `out5_5` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic grid point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any grid point: the inputs' buffers hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.R6.lean ====
/-
  Region 6 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.KernelIdeal.Launch
import proofs.«171333_j58007828300388_1_alg».proof.Proof.Gen.KernelIdeal.Skeleton
import proofs.«171333_j58007828300388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether fetched there or carried over
    from an earlier point (its block index has not moved since). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, whether fetched there or carried over
    from an earlier point (its block index has not moved since). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, whether fetched there or carried over
    from an earlier point (its block index has not moved since). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, whether fetched there or carried over
    from an earlier point (its block index has not moved since). -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, whether fetched there or carried over
    from an earlier point (its block index has not moved since). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store take a whole buffer -/

abbrev rX6 : Rect S2000x256 := Rect.unit (s := S2000x256) ![0, 0] S2000x256.size inb_S2000x256_S2000x256_0_0
abbrev rW6 : Rect S256x256 := Rect.unit (s := S256x256) ![0, 0] S256x256.size inb_S256x256_S256x256_0_0
abbrev rB6 : Rect S256 := Rect.unit (s := S256) ![0] S256.size inb_S256_S256_0

/-- The output buffer after the body, from the five input blocks: its single store, of the payload of the loads. -/
def out6_5 (x0 : Vec F S2000x256 .f32) (x1 : Vec F S256x256 .f32) (x2 : Vec F S256 .f32) (x3 : Vec F S256x256 .f32) (x4 : Vec F S256 .f32) : Vec F S2000x256 .f32 :=
  View.canon [⟨rX6, k6_pay1 (View.ld x0 rX6) (View.ld x1 rW6) (View.ld x2 rB6) (View.ld x3 rW6) (View.ld x4 rB6)⟩]

/-- The store's rectangle is the whole buffer, so it covers it. -/
theorem cover6_5 (p0 : Vec F S2000x256 .f32) (y : S2000x256.Idx) :
    ∃ pc ∈ ([⟨rX6, p0⟩] : List (View.Piece (Elt F) S2000x256 .f32)), y ∈ pc.1.set :=
  View.cover_of_tiled [⟨rX6, p0⟩] S2000x256.size (by rfl) y

set_option maxHeartbeats 1000000 in
/-- The body on whole staging buffers, the five inputs' at known contents and the output's at anything, runs to the
    continuation with the inputs' unchanged and the output's at `out6_5` of the inputs'. -/
theorem sound_kernel6 (c : Dev nD) (E : Set ℕ) (i : grid6.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__mlp_kernel i arg1 harg1 arg2 harg2 arg3 harg3 arg4 harg4 arg5 harg5 arg6 harg6) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of this pipeline on core `c`: the arrays as the region finds them; after the body at point `t`
    each input's buffer at its block and the output's at `out6_5` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic grid point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any grid point: the inputs' buffers hold their blocks, so the body's triple applies; the invariant and
    the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.R7.lean ====
/-
  Region 7 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.KernelIdeal.Launch
import proofs.«171333_j58007828300388_1_alg».proof.Proof.Gen.KernelIdeal.Skeleton
import proofs.«171333_j58007828300388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether fetched there or carried over
    from an earlier point (its block index has not moved since). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, whether fetched there or carried over
    from an earlier point (its block index has not moved since). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, whether fetched there or carried over
    from an earlier point (its block index has not moved since). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, whether fetched there or carried over
    from an earlier point (its block index has not moved since). -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, whether fetched there or carried over
    from an earlier point (its block index has not moved since). -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and the one store take a whole buffer -/

abbrev rX7 : Rect S2000x256 := Rect.unit (s := S2000x256) ![0, 0] S2000x256.size inb_S2000x256_S2000x256_0_0
abbrev rW7 : Rect S256x256 := Rect.unit (s := S256x256) ![0, 0] S256x256.size inb_S256x256_S256x256_0_0
abbrev rB7 : Rect S256 := Rect.unit (s := S256) ![0] S256.size inb_S256_S256_0

/-- The output buffer after the body, from the five input blocks: its single store, of the payload of the loads. -/
def out7_5 (x0 : Vec F S2000x256 .f32) (x1 : Vec F S256x256 .f32) (x2 : Vec F S256 .f32) (x3 : Vec F S256x256 .f32) (x4 : Vec F S256 .f32) : Vec F S2000x256 .f32 :=
  View.canon [⟨rX7, k7_pay1 (View.ld x0 rX7) (View.ld x1 rW7) (View.ld x2 rB7) (View.ld x3 rW7) (View.ld x4 rB7)⟩]

/-- The store's rectangle is the whole buffer, so it covers it. -/
theorem cover7_5 (p0 : Vec F S2000x256 .f32) (y : S2000x256.Idx) :
    ∃ pc ∈ ([⟨rX7, p0⟩] : List (View.Piece (Elt F) S2000x256 .f32)), y ∈ pc.1.set :=
  View.cover_of_tiled [⟨rX7, p0⟩] S2000x256.size (by rfl) y

set_option maxHeartbeats 1000000 in
/-- The body on whole staging buffers, the five inputs' at known contents and the output's at anything, runs to the
    continuation with the inputs' unchanged and the output's at `out7_5` of the inputs'. -/
theorem sound_kernel7 (c : Dev nD) (E : Set ℕ) (i : grid7.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__mlp_kernel i arg1 harg1 arg2 harg2 arg3 harg3 arg4 harg4 arg5 harg5 arg6 harg6) K := by
  simp only [cc7__mlp_kernel_eq_skeleton]; unfold cc7__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of this pipeline on core `c`: the arrays as the region finds them; after the body at point `t`
    each input's buffer at its block and the output's at `out7_5` of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic grid point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any grid point: the inputs' buffers hold their blocks, so the body's triple applies; the invariant and
    the core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation7 (c : Dev nD) : BodyObligation (dat7 (F := F) V c) (defs₀ (F := F)) Variants.none () Set.univ := fun t => by
  rw [bigSep_W7, bigSep_W7]
  exact sound_body7 V c t

end Cert.KernelIdeal.Fr

end
-- ==== Proof.KI.R8.lean ====
/-
  Region 8 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.KernelIdeal.Launch
import proofs.«171333_j58007828300388_1_alg».proof.Proof.Gen.KernelIdeal.Skeleton
import proofs.«171333_j58007828300388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, whether fetched there or carried over
    from an earlier point (its block index has not moved since). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, whether fetched there or carried over
    from an earlier point (its block index has not moved since). -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, whether fetched there or carried over
    from an earlier point (its block index has not moved since). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's current staging buffer holds its block at every point, whether fetched there or carried over
    from an earlier point (its block index has not moved since). -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4's current staging buffer holds its block at every point, whether fetched there or carried over
    from an earlier point (its block index has not moved since). -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and the one store take a whole buffer -/

abbrev rX8 : Rect S2000x256 := Rect.unit (s := S2000x256) ![0, 0] S2000x256.size inb_S2000x256_S2000x256_0_0
abbrev rW8 : Rect S256x256 := Rect.unit (s := S256x256) ![0, 0] S256x256.size inb_S256x256_S256x256_0_0
abbrev rB8 : Rect S256 := Rect.unit (s := S256) ![0] S256.size inb_S256_S256_0

/-- The output buffer after the body, from the five input blocks: its single store, of the payload of the loads. -/
def out8_5 (x0 : Vec F S2000x256 .f32) (x1 : Vec F S256x256 .f32) (x2 : Vec F S256 .f32) (x3 : Vec F S256x256 .f32) (x4 : Vec F S256 .f32) : Vec F S2000x256 .f32 :=
  View.canon [⟨rX8, k8_pay1 (View.ld x0 rX8) (View.ld x1 rW8) (View.ld x2 rB8) (View.ld x3 rW8) (View.ld x4 rB8)⟩]

/-- The store's rectangle is the whole buffer, so it covers it. -/
theorem cover8_5 (p0 : Vec F S2000x256 .f32) (y : S2000x256.Idx) :
    ∃ pc ∈ ([⟨rX8, p0⟩] : List (View.Piece (Elt F) S2000x256 .f32)), y ∈ pc.1.set :=
  View.cover_of_tiled [⟨rX8, p0⟩] S2000x256.size (by rfl) y

set_option maxHeartbeats 1000000 in
/-- The body on whole staging buffers, the five inputs' at known contents and the output's at anything, runs to the
    continuation with the inputs' unchanged and the output's at `out8_5` of the inputs'. -/
theorem sound_kernel8 (c : Dev nD) (E : Set ℕ) (i : grid8.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__mlp_kernel i arg1 harg1 arg2 harg2 arg3 harg3 arg4 harg4 arg5 harg5 arg6 harg6) K := by
  simp only [cc8__mlp_kernel_eq_skeleton]; unfold cc8__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of this pipeline on core `c`: the arrays as the region finds them; after the body at point `t`
    each input's buffer at its block and the output's at `out8_5` of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic grid point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any grid point: the inputs' buffers hold their blocks, so the body's triple applies; the invariant and
    the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation8 (c : Dev nD) : BodyObligation (dat8 (F := F) V c) (defs₀ (F := F)) Variants.none () Set.univ := fun t => by
  rw [bigSep_W8, bigSep_W8]
  exact sound_body8 V c t

end Cert.KernelIdeal.Fr

end
-- ==== Proof.KI.R9.lean ====
/-
  Region 9 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.KernelIdeal.Launch
import proofs.«171333_j58007828300388_1_alg».proof.Proof.Gen.KernelIdeal.Skeleton
import proofs.«171333_j58007828300388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, whether fetched there or carried over
    from an earlier point (its block index has not moved since). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's current staging buffer holds its block at every point, whether fetched there or carried over
    from an earlier point (its block index has not moved since). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's current staging buffer holds its block at every point, whether fetched there or carried over
    from an earlier point (its block index has not moved since). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- Input window 3's current staging buffer holds its block at every point, whether fetched there or carried over
    from an earlier point (its block index has not moved since). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- Input window 4's current staging buffer holds its block at every point, whether fetched there or carried over
    from an earlier point (its block index has not moved since). -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every load and the one store take a whole buffer -/

abbrev rX9 : Rect S2000x256 := Rect.unit (s := S2000x256) ![0, 0] S2000x256.size inb_S2000x256_S2000x256_0_0
abbrev rW9 : Rect S256x256 := Rect.unit (s := S256x256) ![0, 0] S256x256.size inb_S256x256_S256x256_0_0
abbrev rB9 : Rect S256 := Rect.unit (s := S256) ![0] S256.size inb_S256_S256_0

/-- The output buffer after the body, from the five input blocks: its single store, of the payload of the loads. -/
def out9_5 (x0 : Vec F S2000x256 .f32) (x1 : Vec F S256x256 .f32) (x2 : Vec F S256 .f32) (x3 : Vec F S256x256 .f32) (x4 : Vec F S256 .f32) : Vec F S2000x256 .f32 :=
  View.canon [⟨rX9, k9_pay1 (View.ld x0 rX9) (View.ld x1 rW9) (View.ld x2 rB9) (View.ld x3 rW9) (View.ld x4 rB9)⟩]

/-- The store's rectangle is the whole buffer, so it covers it. -/
theorem cover9_5 (p0 : Vec F S2000x256 .f32) (y : S2000x256.Idx) :
    ∃ pc ∈ ([⟨rX9, p0⟩] : List (View.Piece (Elt F) S2000x256 .f32)), y ∈ pc.1.set :=
  View.cover_of_tiled [⟨rX9, p0⟩] S2000x256.size (by rfl) y

set_option maxHeartbeats 1000000 in
/-- The body on whole staging buffers, the five inputs' at known contents and the output's at anything, runs to the
    continuation with the inputs' unchanged and the output's at `out9_5` of the inputs'. -/
theorem sound_kernel9 (c : Dev nD) (E : Set ℕ) (i : grid9.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9__mlp_kernel i arg1 harg1 arg2 harg2 arg3 harg3 arg4 harg4 arg5 harg5 arg6 harg6) K := by
  simp only [cc9__mlp_kernel_eq_skeleton]; unfold cc9__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of this pipeline on core `c`: the arrays as the region finds them; after the body at point `t`
    each input's buffer at its block and the output's at `out9_5` of the input blocks; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic grid point -/

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any grid point: the inputs' buffers hold their blocks, so the body's triple applies; the invariant and
    the core's debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation9 (c : Dev nD) : BodyObligation (dat9 (F := F) V c) (defs₀ (F := F)) Variants.none () Set.univ := fun t => by
  rw [bigSep_W9, bigSep_W9]
  exact sound_body9 V c t

end Cert.KernelIdeal.Fr

end
-- ==== Proof.KI.R10.lean ====
/-
  Region 10 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.KernelIdeal.Launch
import proofs.«171333_j58007828300388_1_alg».proof.Proof.Gen.KernelIdeal.Skeleton
import proofs.«171333_j58007828300388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, whether fetched there or carried over
    from an earlier point (its block index has not moved since). -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- Input window 1's current staging buffer holds its block at every point, whether fetched there or carried over
    from an earlier point (its block index has not moved since). -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- Input window 2's current staging buffer holds its block at every point, whether fetched there or carried over
    from an earlier point (its block index has not moved since). -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
/-- Input window 3's current staging buffer holds its block at every point, whether fetched there or carried over
    from an earlier point (its block index has not moved since). -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
/-- Input window 4's current staging buffer holds its block at every point, whether fetched there or carried over
    from an earlier point (its block index has not moved since). -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: every load and the one store take a whole buffer -/

abbrev rX10 : Rect S2000x256 := Rect.unit (s := S2000x256) ![0, 0] S2000x256.size inb_S2000x256_S2000x256_0_0
abbrev rW10 : Rect S256x256 := Rect.unit (s := S256x256) ![0, 0] S256x256.size inb_S256x256_S256x256_0_0
abbrev rB10 : Rect S256 := Rect.unit (s := S256) ![0] S256.size inb_S256_S256_0

/-- The output buffer after the body, from the five input blocks: its single store, of the payload of the loads. -/
def out10_5 (x0 : Vec F S2000x256 .f32) (x1 : Vec F S256x256 .f32) (x2 : Vec F S256 .f32) (x3 : Vec F S256x256 .f32) (x4 : Vec F S256 .f32) : Vec F S2000x256 .f32 :=
  View.canon [⟨rX10, k10_pay1 (View.ld x0 rX10) (View.ld x1 rW10) (View.ld x2 rB10) (View.ld x3 rW10) (View.ld x4 rB10)⟩]

/-- The store's rectangle is the whole buffer, so it covers it. -/
theorem cover10_5 (p0 : Vec F S2000x256 .f32) (y : S2000x256.Idx) :
    ∃ pc ∈ ([⟨rX10, p0⟩] : List (View.Piece (Elt F) S2000x256 .f32)), y ∈ pc.1.set :=
  View.cover_of_tiled [⟨rX10, p0⟩] S2000x256.size (by rfl) y

set_option maxHeartbeats 1000000 in
/-- The body on whole staging buffers, the five inputs' at known contents and the output's at anything, runs to the
    continuation with the inputs' unchanged and the output's at `out10_5` of the inputs'. -/
theorem sound_kernel10 (c : Dev nD) (E : Set ℕ) (i : grid10.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out10_5 x0 x1 x2 x3 x4)) -∗ K ⟨⟩))
      ⊢ wp frame (wpE (defs₀ (F := F)) Variants.none c none) E (cc10__mlp_kernel i arg1 harg1 arg2 harg2 arg3 harg3 arg4 harg4 arg5 harg5 arg6 harg6) K := by
  simp only [cc10__mlp_kernel_eq_skeleton]; unfold cc10__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-! ## The pipeline's proof data -/

/-- The proof data of this pipeline on core `c`: the arrays as the region finds them; after the body at point `t`
    each input's buffer at its block and the output's at `out10_5` of the input blocks; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation, at a generic grid point -/

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any grid point: the inputs' buffers hold their blocks, so the body's triple applies; the invariant and
    the core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation10 (c : Dev nD) : BodyObligation (dat10 (F := F) V c) (defs₀ (F := F)) Variants.none () Set.univ := fun t => by
  rw [bigSep_W10, bigSep_W10]
  exact sound_body10 V c t

end Cert.KernelIdeal.Fr

end
-- ==== Proof.KI.R11.lean ====
/-
  Region 11 of the program's twelve: one launch of the two-layer perceptron body over a grid of row blocks.
  The body reads five whole staging buffers — a block of 2000 rows of the activations, the two 256×256 weight
  matrices and the two bias rows — and overwrites the sixth with one value, a pure function of the five
  (the skeleton's payload).  Stated at arbitrary contents `V` of the core's buffers at the region's entry:
  each window's block at a grid point, what the body leaves in the output buffer, the body's triple,
  the pipeline's proof data and the body obligation at every grid point.  Nothing here depends on the float
  instance.
-/
import proofs.«171333_j58007828300388_1_alg».proof.Proof.Gen.KernelIdeal.Launch
import proofs.«171333_j58007828300388_1_alg».proof.Proof.Gen.KernelIdeal.Skeleton
import proofs.«171333_j58007828300388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, whether fetched there or carried over
    from an earlier point (its block index has not moved since). -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its block at every point, whether fetched there or carried over
    from an earlier point (its block index has not moved since). -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its block at every point, whether fetched there or carried over
    from an earlier point (its block index has not moved since). -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3's current staging buffer holds its block at every point, whether fetched there or carried over
    from an earlier point (its block index has not moved since). -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4's current staging buffer holds its block at every point, whether fetched there or carried over
    from an earlier point (its block index has not moved since). -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: every load and the one store take a whole buffer -/

abbrev rX11 : Rect S2000x256 := Rect.unit (s := S2000x256) ![0, 0] S2000x256.size inb_S2000x256_S2000x256_0_0
abbrev rW11 : Rect S256x256 := Rect.unit (s := S256x256) ![0, 0] S256x256.size inb_S256x256_S256x256_0_0
abbrev rB11 : Rect S256 := Rect.unit (s := S256) ![0] S256.size inb_S256_S256_0

/-- The output buffer after the body, from the five input blocks: its single store, of the payload of the loads. -/
def out11_5 (x0 : Vec F S2000x256 .f32) (x1 : Vec F S256x256 .f32) (x2 : Vec F S256 .f32) (x3 : Vec F S256x256 .f32) (x4 : Vec F S256 .f32) : Vec F S2000x256 .f32 :=
  View.canon [⟨rX11, k11_pay1 (View.ld x0 rX11) (View.ld x1 rW11) (View.ld x2 rB11) (View.ld x3 rW11) (View.ld x4 rB11)⟩]

/-- The store's rectangle is the whole buffer, so it covers it. -/
theorem cover11_5 (p0 : Vec F S2000x256 .f32) (y : S2000x256.Idx) :
    ∃ pc ∈ ([⟨rX11, p0⟩] : List (View.Piece (Elt F) S2000x256 .f32)), y ∈ pc.1.set :=
  View.cover_of_tiled [⟨rX11, p0⟩] S2000x256.size (by rfl) y

set_option maxHeartbeats 1000000 in
/-- The body on whole staging buffers, the five inputs' at known contents and the output's at anything, runs to the
    continuation with the inputs' unchanged and the output's at `out11_5` of the inputs'. -/
theorem sound_kernel11 (c : Dev nD) (E : Set ℕ) (i : grid11.Coords) (arg1 : Memref sig .tc .vmem S2000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out11_5 x0 x1 x2 x3 x4)) -∗ K ⟨⟩))
      ⊢ wp frame (wpE (defs₀ (F := F)) Variants.none c none) E (cc11__mlp_kernel i arg1 harg1 arg2 harg2 arg3 harg3 arg4 harg4 arg5 harg5 arg6 harg6) K := by
  simp only [cc11__mlp_kernel_eq_skeleton]; unfold cc11__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-! ## The pipeline's proof data -/

/-- The proof data of this pipeline on core `c`: the arrays as the region finds them; after the body at point `t`
    each input's buffer at its block and the output's at `out11_5` of the input blocks; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation, at a generic grid point -/

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any grid point: the inputs' buffers hold their blocks, so the body's triple applies; the invariant and
    the core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation11 (c : Dev nD) : BodyObligation (dat11 (F := F) V c) (defs₀ (F := F)) Variants.none () Set.univ := fun t => by
  rw [bigSep_W11, bigSep_W11]
  exact sound_body11 V c t

end Cert.KernelIdeal.Fr

end
-- ==== Proof.KI.Chain.lean ====
/-
  The contents of a core's buffers at every boundary between two items of the program's main function, as a fold from
  the launch memory: a stretch of host operations applies them in order; a kernel region leaves each of its arrays at
  what its pipeline's write-backs leave (the inputs as entered, the output's blocks folded in) and every other buffer
  as entered.  Beside the fold: which buffers each item leaves alone.
-/
import proofs.«171333_j58007828300388_1_alg».proof.Proof.KI.R0
import proofs.«171333_j58007828300388_1_alg».proof.Proof.KI.R1
import proofs.«171333_j58007828300388_1_alg».proof.Proof.KI.R2
import proofs.«171333_j58007828300388_1_alg».proof.Proof.KI.R3
import proofs.«171333_j58007828300388_1_alg».proof.Proof.KI.R4
import proofs.«171333_j58007828300388_1_alg».proof.Proof.KI.R5
import proofs.«171333_j58007828300388_1_alg».proof.Proof.KI.R6
import proofs.«171333_j58007828300388_1_alg».proof.Proof.KI.R7
import proofs.«171333_j58007828300388_1_alg».proof.Proof.KI.R8
import proofs.«171333_j58007828300388_1_alg».proof.Proof.KI.R9
import proofs.«171333_j58007828300388_1_alg».proof.Proof.KI.R10
import proofs.«171333_j58007828300388_1_alg».proof.Proof.KI.R11
import proofs.«171333_j58007828300388_1_alg».proof.Proof.WritesKI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- After item 0, the host stretch `hostOps0`. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
theorem W1_of (c : Dev nD) (r : Ref sig .tc) (h : r ∉ hostOps0_W) : W1 m ρ c r = W0 m ρ c r :=
  StableHlo.after_of_writes_sub hostOps0 _ hostOps0_writes h
/-- After item 1, the host stretch `hostOps0_1`. -/
abbrev W2 : Dev nD → Valuation τ sig (Elt F) := fun c => StableHlo.after hostOps0_1 (W1 m ρ c)
abbrev U2 : (c : Dev nD) → (b : Ref sig .tc) → Buf (Elt F) ((c : Thread nD τ).loc b) := fun c b => W2 m ρ c b
theorem W2_of (c : Dev nD) (r : Ref sig .tc) (h : r ∉ hostOps0_1_W) : W2 m ρ c r = W1 m ρ c r :=
  StableHlo.after_of_writes_sub hostOps0_1 _ hostOps0_1_writes h
/-- After item 2, the host stretch `hostOps0_2`. -/
abbrev W3 : Dev nD → Valuation τ sig (Elt F) := fun c => StableHlo.after hostOps0_2 (W2 m ρ c)
abbrev U3 : (c : Dev nD) → (b : Ref sig .tc) → Buf (Elt F) ((c : Thread nD τ).loc b) := fun c b => W3 m ρ c b
theorem W3_of (c : Dev nD) (r : Ref sig .tc) (h : r ∉ hostOps0_2_W) : W3 m ρ c r = W2 m ρ c r :=
  StableHlo.after_of_writes_sub hostOps0_2 _ hostOps0_2_writes h
/-- After item 3, the host stretch `hostOps0_3`. -/
abbrev W4 : Dev nD → Valuation τ sig (Elt F) := fun c => StableHlo.after hostOps0_3 (W3 m ρ c)
abbrev U4 : (c : Dev nD) → (b : Ref sig .tc) → Buf (Elt F) ((c : Thread nD τ).loc b) := fun c b => W4 m ρ c b
theorem W4_of (c : Dev nD) (r : Ref sig .tc) (h : r ∉ hostOps0_3_W) : W4 m ρ c r = W3 m ρ c r :=
  StableHlo.after_of_writes_sub hostOps0_3 _ hostOps0_3_writes h
/-- After item 4, the host stretch `hostOps0_4`. -/
abbrev W5 : Dev nD → Valuation τ sig (Elt F) := fun c => StableHlo.after hostOps0_4 (W4 m ρ c)
abbrev U5 : (c : Dev nD) → (b : Ref sig .tc) → Buf (Elt F) ((c : Thread nD τ).loc b) := fun c b => W5 m ρ c b
theorem W5_of (c : Dev nD) (r : Ref sig .tc) (h : r ∉ hostOps0_4_W) : W5 m ρ c r = W4 m ρ c r :=
  StableHlo.after_of_writes_sub hostOps0_4 _ hostOps0_4_writes h
/-- After item 5, the host stretch `hostOps0_5`. -/
abbrev W6 : Dev nD → Valuation τ sig (Elt F) := fun c => StableHlo.after hostOps0_5 (W5 m ρ c)
abbrev U6 : (c : Dev nD) → (b : Ref sig .tc) → Buf (Elt F) ((c : Thread nD τ).loc b) := fun c b => W6 m ρ c b
theorem W6_of (c : Dev nD) (r : Ref sig .tc) (h : r ∉ hostOps0_5_W) : W6 m ρ c r = W5 m ρ c r :=
  StableHlo.after_of_writes_sub hostOps0_5 _ hostOps0_5_writes h
/-- After item 6, the host stretch `hostOps0_6`. -/
abbrev W7 : Dev nD → Valuation τ sig (Elt F) := fun c => StableHlo.after hostOps0_6 (W6 m ρ c)
abbrev U7 : (c : Dev nD) → (b : Ref sig .tc) → Buf (Elt F) ((c : Thread nD τ).loc b) := fun c b => W7 m ρ c b
theorem W7_of (c : Dev nD) (r : Ref sig .tc) (h : r ∉ hostOps0_6_W) : W7 m ρ c r = W6 m ρ c r :=
  StableHlo.after_of_writes_sub hostOps0_6 _ hostOps0_6_writes h
/-- After item 7, the host stretch `hostOps0_7`. -/
abbrev W8 : Dev nD → Valuation τ sig (Elt F) := fun c => StableHlo.after hostOps0_7 (W7 m ρ c)
abbrev U8 : (c : Dev nD) → (b : Ref sig .tc) → Buf (Elt F) ((c : Thread nD τ).loc b) := fun c b => W8 m ρ c b
theorem W8_of (c : Dev nD) (r : Ref sig .tc) (h : r ∉ hostOps0_7_W) : W8 m ρ c r = W7 m ρ c r :=
  StableHlo.after_of_writes_sub hostOps0_7 _ hostOps0_7_writes h
/-- After item 8, the host stretch `hostOps0_8`. -/
abbrev W9 : Dev nD → Valuation τ sig (Elt F) := fun c => StableHlo.after hostOps0_8 (W8 m ρ c)
abbrev U9 : (c : Dev nD) → (b : Ref sig .tc) → Buf (Elt F) ((c : Thread nD τ).loc b) := fun c b => W9 m ρ c b
theorem W9_of (c : Dev nD) (r : Ref sig .tc) (h : r ∉ hostOps0_8_W) : W9 m ρ c r = W8 m ρ c r :=
  StableHlo.after_of_writes_sub hostOps0_8 _ hostOps0_8_writes h
/-- After item 9, kernel region 0: its arrays at what the pipeline leaves, every other buffer as entered. -/
def W10 (c : Dev nD) : Valuation τ sig (Elt F) :=
  Pipeline.withArrays spec0 c (W9 m ρ c) fun w => (dat0 (U9 m ρ) c).arrAt w cfg0.N
theorem W10_arr (c : Dev nD) (w : Fin cfg0.W) :
    W10 m ρ c (Proc.devRef .tc (Pipeline.arrRef spec0 w)) = (dat0 (U9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
abbrev U10 : (c : Dev nD) → (b : Ref sig .tc) → Buf (Elt F) ((c : Thread nD τ).loc b) := fun c b => W10 m ρ c b
theorem hF0 (c : Dev nD) (w : Fin cfg0.W) : (dat0 (U9 m ρ) c).arrAt w cfg0.N = U10 m ρ c (Pipeline.arrRef spec0 w) :=
  (W10_arr m ρ c w).symm
theorem hrest0 (c : Dev nD) : ∀ b, b ∉ Finset.univ.image (Pipeline.arrRef spec0) → U10 m ρ c b = U9 m ρ c b :=
  fun b hb => W10_of_ne m ρ c b fun w e => hb (Finset.mem_image.mpr ⟨w, Finset.mem_univ _, e⟩)
theorem W10_of (c : Dev nD) (r : Ref sig .tc) (h : ∀ w, Pipeline.arrRef spec0 w ≠ r) : W10 m ρ c r = W9 m ρ c r :=
  W10_of_ne m ρ c r h
/-- After item 10, the host stretch `hostOps1`. -/
abbrev W11 : Dev nD → Valuation τ sig (Elt F) := fun c => StableHlo.after hostOps1 (W10 m ρ c)
abbrev U11 : (c : Dev nD) → (b : Ref sig .tc) → Buf (Elt F) ((c : Thread nD τ).loc b) := fun c b => W11 m ρ c b
theorem W11_of (c : Dev nD) (r : Ref sig .tc) (h : r ∉ hostOps1_W) : W11 m ρ c r = W10 m ρ c r :=
  StableHlo.after_of_writes_sub hostOps1 _ hostOps1_writes h
/-- After item 11, kernel region 1: its arrays at what the pipeline leaves, every other buffer as entered. -/
def W12 (c : Dev nD) : Valuation τ sig (Elt F) :=
  Pipeline.withArrays spec1 c (W11 m ρ c) fun w => (dat1 (U11 m ρ) c).arrAt w cfg1.N
theorem W12_arr (c : Dev nD) (w : Fin cfg1.W) :
    W12 m ρ c (Proc.devRef .tc (Pipeline.arrRef spec1 w)) = (dat1 (U11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev U12 : (c : Dev nD) → (b : Ref sig .tc) → Buf (Elt F) ((c : Thread nD τ).loc b) := fun c b => W12 m ρ c b
theorem hF1 (c : Dev nD) (w : Fin cfg1.W) : (dat1 (U11 m ρ) c).arrAt w cfg1.N = U12 m ρ c (Pipeline.arrRef spec1 w) :=
  (W12_arr m ρ c w).symm
theorem hrest1 (c : Dev nD) : ∀ b, b ∉ Finset.univ.image (Pipeline.arrRef spec1) → U12 m ρ c b = U11 m ρ c b :=
  fun b hb => W12_of_ne m ρ c b fun w e => hb (Finset.mem_image.mpr ⟨w, Finset.mem_univ _, e⟩)
theorem W12_of (c : Dev nD) (r : Ref sig .tc) (h : ∀ w, Pipeline.arrRef spec1 w ≠ r) : W12 m ρ c r = W11 m ρ c r :=
  W12_of_ne m ρ c r h
/-- After item 12, the host stretch `hostOps2`. -/
abbrev W13 : Dev nD → Valuation τ sig (Elt F) := fun c => StableHlo.after hostOps2 (W12 m ρ c)
abbrev U13 : (c : Dev nD) → (b : Ref sig .tc) → Buf (Elt F) ((c : Thread nD τ).loc b) := fun c b => W13 m ρ c b
theorem W13_of (c : Dev nD) (r : Ref sig .tc) (h : r ∉ hostOps2_W) : W13 m ρ c r = W12 m ρ c r :=
  StableHlo.after_of_writes_sub hostOps2 _ hostOps2_writes h
/-- After item 13, kernel region 2: its arrays at what the pipeline leaves, every other buffer as entered. -/
def W14 (c : Dev nD) : Valuation τ sig (Elt F) :=
  Pipeline.withArrays spec2 c (W13 m ρ c) fun w => (dat2 (U13 m ρ) c).arrAt w cfg2.N
theorem W14_arr (c : Dev nD) (w : Fin cfg2.W) :
    W14 m ρ c (Proc.devRef .tc (Pipeline.arrRef spec2 w)) = (dat2 (U13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
abbrev U14 : (c : Dev nD) → (b : Ref sig .tc) → Buf (Elt F) ((c : Thread nD τ).loc b) := fun c b => W14 m ρ c b
theorem hF2 (c : Dev nD) (w : Fin cfg2.W) : (dat2 (U13 m ρ) c).arrAt w cfg2.N = U14 m ρ c (Pipeline.arrRef spec2 w) :=
  (W14_arr m ρ c w).symm
theorem hrest2 (c : Dev nD) : ∀ b, b ∉ Finset.univ.image (Pipeline.arrRef spec2) → U14 m ρ c b = U13 m ρ c b :=
  fun b hb => W14_of_ne m ρ c b fun w e => hb (Finset.mem_image.mpr ⟨w, Finset.mem_univ _, e⟩)
theorem W14_of (c : Dev nD) (r : Ref sig .tc) (h : ∀ w, Pipeline.arrRef spec2 w ≠ r) : W14 m ρ c r = W13 m ρ c r :=
  W14_of_ne m ρ c r h
/-- After item 14, the host stretch `hostOps3`. -/
abbrev W15 : Dev nD → Valuation τ sig (Elt F) := fun c => StableHlo.after hostOps3 (W14 m ρ c)
abbrev U15 : (c : Dev nD) → (b : Ref sig .tc) → Buf (Elt F) ((c : Thread nD τ).loc b) := fun c b => W15 m ρ c b
theorem W15_of (c : Dev nD) (r : Ref sig .tc) (h : r ∉ hostOps3_W) : W15 m ρ c r = W14 m ρ c r :=
  StableHlo.after_of_writes_sub hostOps3 _ hostOps3_writes h
/-- After item 15, kernel region 3: its arrays at what the pipeline leaves, every other buffer as entered. -/
def W16 (c : Dev nD) : Valuation τ sig (Elt F) :=
  Pipeline.withArrays spec3 c (W15 m ρ c) fun w => (dat3 (U15 m ρ) c).arrAt w cfg3.N
theorem W16_arr (c : Dev nD) (w : Fin cfg3.W) :
    W16 m ρ c (Proc.devRef .tc (Pipeline.arrRef spec3 w)) = (dat3 (U15 m ρ) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m ρ c (Proc.devRef .tc b) = W15 m ρ c (Proc.devRef .tc b) := by
  unfold W16; exact Pipeline.withArrays_of_ne spec3 c _ _ b hb
abbrev U16 : (c : Dev nD) → (b : Ref sig .tc) → Buf (Elt F) ((c : Thread nD τ).loc b) := fun c b => W16 m ρ c b
theorem hF3 (c : Dev nD) (w : Fin cfg3.W) : (dat3 (U15 m ρ) c).arrAt w cfg3.N = U16 m ρ c (Pipeline.arrRef spec3 w) :=
  (W16_arr m ρ c w).symm
theorem hrest3 (c : Dev nD) : ∀ b, b ∉ Finset.univ.image (Pipeline.arrRef spec3) → U16 m ρ c b = U15 m ρ c b :=
  fun b hb => W16_of_ne m ρ c b fun w e => hb (Finset.mem_image.mpr ⟨w, Finset.mem_univ _, e⟩)
theorem W16_of (c : Dev nD) (r : Ref sig .tc) (h : ∀ w, Pipeline.arrRef spec3 w ≠ r) : W16 m ρ c r = W15 m ρ c r :=
  W16_of_ne m ρ c r h
/-- After item 16, the host stretch `hostOps4`. -/
abbrev W17 : Dev nD → Valuation τ sig (Elt F) := fun c => StableHlo.after hostOps4 (W16 m ρ c)
abbrev U17 : (c : Dev nD) → (b : Ref sig .tc) → Buf (Elt F) ((c : Thread nD τ).loc b) := fun c b => W17 m ρ c b
theorem W17_of (c : Dev nD) (r : Ref sig .tc) (h : r ∉ hostOps4_W) : W17 m ρ c r = W16 m ρ c r :=
  StableHlo.after_of_writes_sub hostOps4 _ hostOps4_writes h
/-- After item 17, the host stretch `hostOps4_1`. -/
abbrev W18 : Dev nD → Valuation τ sig (Elt F) := fun c => StableHlo.after hostOps4_1 (W17 m ρ c)
abbrev U18 : (c : Dev nD) → (b : Ref sig .tc) → Buf (Elt F) ((c : Thread nD τ).loc b) := fun c b => W18 m ρ c b
theorem W18_of (c : Dev nD) (r : Ref sig .tc) (h : r ∉ hostOps4_1_W) : W18 m ρ c r = W17 m ρ c r :=
  StableHlo.after_of_writes_sub hostOps4_1 _ hostOps4_1_writes h
/-- After item 18, the host stretch `hostOps4_2`. -/
abbrev W19 : Dev nD → Valuation τ sig (Elt F) := fun c => StableHlo.after hostOps4_2 (W18 m ρ c)
abbrev U19 : (c : Dev nD) → (b : Ref sig .tc) → Buf (Elt F) ((c : Thread nD τ).loc b) := fun c b => W19 m ρ c b
theorem W19_of (c : Dev nD) (r : Ref sig .tc) (h : r ∉ hostOps4_2_W) : W19 m ρ c r = W18 m ρ c r :=
  StableHlo.after_of_writes_sub hostOps4_2 _ hostOps4_2_writes h
/-- After item 19, the host stretch `hostOps4_3`. -/
abbrev W20 : Dev nD → Valuation τ sig (Elt F) := fun c => StableHlo.after hostOps4_3 (W19 m ρ c)
abbrev U20 : (c : Dev nD) → (b : Ref sig .tc) → Buf (Elt F) ((c : Thread nD τ).loc b) := fun c b => W20 m ρ c b
theorem W20_of (c : Dev nD) (r : Ref sig .tc) (h : r ∉ hostOps4_3_W) : W20 m ρ c r = W19 m ρ c r :=
  StableHlo.after_of_writes_sub hostOps4_3 _ hostOps4_3_writes h
/-- After item 20, the host stretch `hostOps4_4`. -/
abbrev W21 : Dev nD → Valuation τ sig (Elt F) := fun c => StableHlo.after hostOps4_4 (W20 m ρ c)
abbrev U21 : (c : Dev nD) → (b : Ref sig .tc) → Buf (Elt F) ((c : Thread nD τ).loc b) := fun c b => W21 m ρ c b
theorem W21_of (c : Dev nD) (r : Ref sig .tc) (h : r ∉ hostOps4_4_W) : W21 m ρ c r = W20 m ρ c r :=
  StableHlo.after_of_writes_sub hostOps4_4 _ hostOps4_4_writes h
/-- After item 21, the host stretch `hostOps4_5`. -/
abbrev W22 : Dev nD → Valuation τ sig (Elt F) := fun c => StableHlo.after hostOps4_5 (W21 m ρ c)
abbrev U22 : (c : Dev nD) → (b : Ref sig .tc) → Buf (Elt F) ((c : Thread nD τ).loc b) := fun c b => W22 m ρ c b
theorem W22_of (c : Dev nD) (r : Ref sig .tc) (h : r ∉ hostOps4_5_W) : W22 m ρ c r = W21 m ρ c r :=
  StableHlo.after_of_writes_sub hostOps4_5 _ hostOps4_5_writes h
/-- After item 22, the host stretch `hostOps4_6`. -/
abbrev W23 : Dev nD → Valuation τ sig (Elt F) := fun c => StableHlo.after hostOps4_6 (W22 m ρ c)
abbrev U23 : (c : Dev nD) → (b : Ref sig .tc) → Buf (Elt F) ((c : Thread nD τ).loc b) := fun c b => W23 m ρ c b
theorem W23_of (c : Dev nD) (r : Ref sig .tc) (h : r ∉ hostOps4_6_W) : W23 m ρ c r = W22 m ρ c r :=
  StableHlo.after_of_writes_sub hostOps4_6 _ hostOps4_6_writes h
/-- After item 23, the host stretch `hostOps4_7`. -/
abbrev W24 : Dev nD → Valuation τ sig (Elt F) := fun c => StableHlo.after hostOps4_7 (W23 m ρ c)
abbrev U24 : (c : Dev nD) → (b : Ref sig .tc) → Buf (Elt F) ((c : Thread nD τ).loc b) := fun c b => W24 m ρ c b
theorem W24_of (c : Dev nD) (r : Ref sig .tc) (h : r ∉ hostOps4_7_W) : W24 m ρ c r = W23 m ρ c r :=
  StableHlo.after_of_writes_sub hostOps4_7 _ hostOps4_7_writes h
/-- After item 24, the host stretch `hostOps4_8`. -/
abbrev W25 : Dev nD → Valuation τ sig (Elt F) := fun c => StableHlo.after hostOps4_8 (W24 m ρ c)
abbrev U25 : (c : Dev nD) → (b : Ref sig .tc) → Buf (Elt F) ((c : Thread nD τ).loc b) := fun c b => W25 m ρ c b
theorem W25_of (c : Dev nD) (r : Ref sig .tc) (h : r ∉ hostOps4_8_W) : W25 m ρ c r = W24 m ρ c r :=
  StableHlo.after_of_writes_sub hostOps4_8 _ hostOps4_8_writes h
/-- After item 25, kernel region 4: its arrays at what the pipeline leaves, every other buffer as entered. -/
def W26 (c : Dev nD) : Valuation τ sig (Elt F) :=
  Pipeline.withArrays spec4 c (W25 m ρ c) fun w => (dat4 (U25 m ρ) c).arrAt w cfg4.N
theorem W26_arr (c : Dev nD) (w : Fin cfg4.W) :
    W26 m ρ c (Proc.devRef .tc (Pipeline.arrRef spec4 w)) = (dat4 (U25 m ρ) c).arrAt w cfg4.N := by
  unfold W26; exact Pipeline.withArrays_arr spec4 launch4.win.arr_inj c _ _ w
theorem W26_of_ne (c : Dev nD) (b : Ref sig .tc) (hb : ∀ w, Pipeline.arrRef spec4 w ≠ b) :
    W26 m ρ c (Proc.devRef .tc b) = W25 m ρ c (Proc.devRef .tc b) := by
  unfold W26; exact Pipeline.withArrays_of_ne spec4 c _ _ b hb
abbrev U26 : (c : Dev nD) → (b : Ref sig .tc) → Buf (Elt F) ((c : Thread nD τ).loc b) := fun c b => W26 m ρ c b
theorem hF4 (c : Dev nD) (w : Fin cfg4.W) : (dat4 (U25 m ρ) c).arrAt w cfg4.N = U26 m ρ c (Pipeline.arrRef spec4 w) :=
  (W26_arr m ρ c w).symm
theorem hrest4 (c : Dev nD) : ∀ b, b ∉ Finset.univ.image (Pipeline.arrRef spec4) → U26 m ρ c b = U25 m ρ c b :=
  fun b hb => W26_of_ne m ρ c b fun w e => hb (Finset.mem_image.mpr ⟨w, Finset.mem_univ _, e⟩)
theorem W26_of (c : Dev nD) (r : Ref sig .tc) (h : ∀ w, Pipeline.arrRef spec4 w ≠ r) : W26 m ρ c r = W25 m ρ c r :=
  W26_of_ne m ρ c r h
/-- After item 26, the host stretch `hostOps5`. -/
abbrev W27 : Dev nD → Valuation τ sig (Elt F) := fun c => StableHlo.after hostOps5 (W26 m ρ c)
abbrev U27 : (c : Dev nD) → (b : Ref sig .tc) → Buf (Elt F) ((c : Thread nD τ).loc b) := fun c b => W27 m ρ c b
theorem W27_of (c : Dev nD) (r : Ref sig .tc) (h : r ∉ hostOps5_W) : W27 m ρ c r = W26 m ρ c r :=
  StableHlo.after_of_writes_sub hostOps5 _ hostOps5_writes h
/-- After item 27, kernel region 5: its arrays at what the pipeline leaves, every other buffer as entered. -/
def W28 (c : Dev nD) : Valuation τ sig (Elt F) :=
  Pipeline.withArrays spec5 c (W27 m ρ c) fun w => (dat5 (U27 m ρ) c).arrAt w cfg5.N
theorem W28_arr (c : Dev nD) (w : Fin cfg5.W) :
    W28 m ρ c (Proc.devRef .tc (Pipeline.arrRef spec5 w)) = (dat5 (U27 m ρ) c).arrAt w cfg5.N := by
  unfold W28; exact Pipeline.withArrays_arr spec5 launch5.win.arr_inj c _ _ w
theorem W28_of_ne (c : Dev nD) (b : Ref sig .tc) (hb : ∀ w, Pipeline.arrRef spec5 w ≠ b) :
    W28 m ρ c (Proc.devRef .tc b) = W27 m ρ c (Proc.devRef .tc b) := by
  unfold W28; exact Pipeline.withArrays_of_ne spec5 c _ _ b hb
abbrev U28 : (c : Dev nD) → (b : Ref sig .tc) → Buf (Elt F) ((c : Thread nD τ).loc b) := fun c b => W28 m ρ c b
theorem hF5 (c : Dev nD) (w : Fin cfg5.W) : (dat5 (U27 m ρ) c).arrAt w cfg5.N = U28 m ρ c (Pipeline.arrRef spec5 w) :=
  (W28_arr m ρ c w).symm
theorem hrest5 (c : Dev nD) : ∀ b, b ∉ Finset.univ.image (Pipeline.arrRef spec5) → U28 m ρ c b = U27 m ρ c b :=
  fun b hb => W28_of_ne m ρ c b fun w e => hb (Finset.mem_image.mpr ⟨w, Finset.mem_univ _, e⟩)
theorem W28_of (c : Dev nD) (r : Ref sig .tc) (h : ∀ w, Pipeline.arrRef spec5 w ≠ r) : W28 m ρ c r = W27 m ρ c r :=
  W28_of_ne m ρ c r h
/-- After item 28, the host stretch `hostOps6`. -/
abbrev W29 : Dev nD → Valuation τ sig (Elt F) := fun c => StableHlo.after hostOps6 (W28 m ρ c)
abbrev U29 : (c : Dev nD) → (b : Ref sig .tc) → Buf (Elt F) ((c : Thread nD τ).loc b) := fun c b => W29 m ρ c b
theorem W29_of (c : Dev nD) (r : Ref sig .tc) (h : r ∉ hostOps6_W) : W29 m ρ c r = W28 m ρ c r :=
  StableHlo.after_of_writes_sub hostOps6 _ hostOps6_writes h
/-- After item 29, kernel region 6: its arrays at what the pipeline leaves, every other buffer as entered. -/
def W30 (c : Dev nD) : Valuation τ sig (Elt F) :=
  Pipeline.withArrays spec6 c (W29 m ρ c) fun w => (dat6 (U29 m ρ) c).arrAt w cfg6.N
theorem W30_arr (c : Dev nD) (w : Fin cfg6.W) :
    W30 m ρ c (Proc.devRef .tc (Pipeline.arrRef spec6 w)) = (dat6 (U29 m ρ) c).arrAt w cfg6.N := by
  unfold W30; exact Pipeline.withArrays_arr spec6 launch6.win.arr_inj c _ _ w
theorem W30_of_ne (c : Dev nD) (b : Ref sig .tc) (hb : ∀ w, Pipeline.arrRef spec6 w ≠ b) :
    W30 m ρ c (Proc.devRef .tc b) = W29 m ρ c (Proc.devRef .tc b) := by
  unfold W30; exact Pipeline.withArrays_of_ne spec6 c _ _ b hb
abbrev U30 : (c : Dev nD) → (b : Ref sig .tc) → Buf (Elt F) ((c : Thread nD τ).loc b) := fun c b => W30 m ρ c b
theorem hF6 (c : Dev nD) (w : Fin cfg6.W) : (dat6 (U29 m ρ) c).arrAt w cfg6.N = U30 m ρ c (Pipeline.arrRef spec6 w) :=
  (W30_arr m ρ c w).symm
theorem hrest6 (c : Dev nD) : ∀ b, b ∉ Finset.univ.image (Pipeline.arrRef spec6) → U30 m ρ c b = U29 m ρ c b :=
  fun b hb => W30_of_ne m ρ c b fun w e => hb (Finset.mem_image.mpr ⟨w, Finset.mem_univ _, e⟩)
theorem W30_of (c : Dev nD) (r : Ref sig .tc) (h : ∀ w, Pipeline.arrRef spec6 w ≠ r) : W30 m ρ c r = W29 m ρ c r :=
  W30_of_ne m ρ c r h
/-- After item 30, the host stretch `hostOps7`. -/
abbrev W31 : Dev nD → Valuation τ sig (Elt F) := fun c => StableHlo.after hostOps7 (W30 m ρ c)
abbrev U31 : (c : Dev nD) → (b : Ref sig .tc) → Buf (Elt F) ((c : Thread nD τ).loc b) := fun c b => W31 m ρ c b
theorem W31_of (c : Dev nD) (r : Ref sig .tc) (h : r ∉ hostOps7_W) : W31 m ρ c r = W30 m ρ c r :=
  StableHlo.after_of_writes_sub hostOps7 _ hostOps7_writes h
/-- After item 31, kernel region 7: its arrays at what the pipeline leaves, every other buffer as entered. -/
def W32 (c : Dev nD) : Valuation τ sig (Elt F) :=
  Pipeline.withArrays spec7 c (W31 m ρ c) fun w => (dat7 (U31 m ρ) c).arrAt w cfg7.N
theorem W32_arr (c : Dev nD) (w : Fin cfg7.W) :
    W32 m ρ c (Proc.devRef .tc (Pipeline.arrRef spec7 w)) = (dat7 (U31 m ρ) c).arrAt w cfg7.N := by
  unfold W32; exact Pipeline.withArrays_arr spec7 launch7.win.arr_inj c _ _ w
theorem W32_of_ne (c : Dev nD) (b : Ref sig .tc) (hb : ∀ w, Pipeline.arrRef spec7 w ≠ b) :
    W32 m ρ c (Proc.devRef .tc b) = W31 m ρ c (Proc.devRef .tc b) := by
  unfold W32; exact Pipeline.withArrays_of_ne spec7 c _ _ b hb
abbrev U32 : (c : Dev nD) → (b : Ref sig .tc) → Buf (Elt F) ((c : Thread nD τ).loc b) := fun c b => W32 m ρ c b
theorem hF7 (c : Dev nD) (w : Fin cfg7.W) : (dat7 (U31 m ρ) c).arrAt w cfg7.N = U32 m ρ c (Pipeline.arrRef spec7 w) :=
  (W32_arr m ρ c w).symm
theorem hrest7 (c : Dev nD) : ∀ b, b ∉ Finset.univ.image (Pipeline.arrRef spec7) → U32 m ρ c b = U31 m ρ c b :=
  fun b hb => W32_of_ne m ρ c b fun w e => hb (Finset.mem_image.mpr ⟨w, Finset.mem_univ _, e⟩)
theorem W32_of (c : Dev nD) (r : Ref sig .tc) (h : ∀ w, Pipeline.arrRef spec7 w ≠ r) : W32 m ρ c r = W31 m ρ c r :=
  W32_of_ne m ρ c r h
/-- After item 32, the host stretch `hostOps8`. -/
abbrev W33 : Dev nD → Valuation τ sig (Elt F) := fun c => StableHlo.after hostOps8 (W32 m ρ c)
abbrev U33 : (c : Dev nD) → (b : Ref sig .tc) → Buf (Elt F) ((c : Thread nD τ).loc b) := fun c b => W33 m ρ c b
theorem W33_of (c : Dev nD) (r : Ref sig .tc) (h : r ∉ hostOps8_W) : W33 m ρ c r = W32 m ρ c r :=
  StableHlo.after_of_writes_sub hostOps8 _ hostOps8_writes h
/-- After item 33, the host stretch `hostOps8_1`. -/
abbrev W34 : Dev nD → Valuation τ sig (Elt F) := fun c => StableHlo.after hostOps8_1 (W33 m ρ c)
abbrev U34 : (c : Dev nD) → (b : Ref sig .tc) → Buf (Elt F) ((c : Thread nD τ).loc b) := fun c b => W34 m ρ c b
theorem W34_of (c : Dev nD) (r : Ref sig .tc) (h : r ∉ hostOps8_1_W) : W34 m ρ c r = W33 m ρ c r :=
  StableHlo.after_of_writes_sub hostOps8_1 _ hostOps8_1_writes h
/-- After item 34, the host stretch `hostOps8_2`. -/
abbrev W35 : Dev nD → Valuation τ sig (Elt F) := fun c => StableHlo.after hostOps8_2 (W34 m ρ c)
abbrev U35 : (c : Dev nD) → (b : Ref sig .tc) → Buf (Elt F) ((c : Thread nD τ).loc b) := fun c b => W35 m ρ c b
theorem W35_of (c : Dev nD) (r : Ref sig .tc) (h : r ∉ hostOps8_2_W) : W35 m ρ c r = W34 m ρ c r :=
  StableHlo.after_of_writes_sub hostOps8_2 _ hostOps8_2_writes h
/-- After item 35, the host stretch `hostOps8_3`. -/
abbrev W36 : Dev nD → Valuation τ sig (Elt F) := fun c => StableHlo.after hostOps8_3 (W35 m ρ c)
abbrev U36 : (c : Dev nD) → (b : Ref sig .tc) → Buf (Elt F) ((c : Thread nD τ).loc b) := fun c b => W36 m ρ c b
theorem W36_of (c : Dev nD) (r : Ref sig .tc) (h : r ∉ hostOps8_3_W) : W36 m ρ c r = W35 m ρ c r :=
  StableHlo.after_of_writes_sub hostOps8_3 _ hostOps8_3_writes h
/-- After item 36, the host stretch `hostOps8_4`. -/
abbrev W37 : Dev nD → Valuation τ sig (Elt F) := fun c => StableHlo.after hostOps8_4 (W36 m ρ c)
abbrev U37 : (c : Dev nD) → (b : Ref sig .tc) → Buf (Elt F) ((c : Thread nD τ).loc b) := fun c b => W37 m ρ c b
theorem W37_of (c : Dev nD) (r : Ref sig .tc) (h : r ∉ hostOps8_4_W) : W37 m ρ c r = W36 m ρ c r :=
  StableHlo.after_of_writes_sub hostOps8_4 _ hostOps8_4_writes h
/-- After item 37, the host stretch `hostOps8_5`. -/
abbrev W38 : Dev nD → Valuation τ sig (Elt F) := fun c => StableHlo.after hostOps8_5 (W37 m ρ c)
abbrev U38 : (c : Dev nD) → (b : Ref sig .tc) → Buf (Elt F) ((c : Thread nD τ).loc b) := fun c b => W38 m ρ c b
theorem W38_of (c : Dev nD) (r : Ref sig .tc) (h : r ∉ hostOps8_5_W) : W38 m ρ c r = W37 m ρ c r :=
  StableHlo.after_of_writes_sub hostOps8_5 _ hostOps8_5_writes h
/-- After item 38, the host stretch `hostOps8_6`. -/
abbrev W39 : Dev nD → Valuation τ sig (Elt F) := fun c => StableHlo.after hostOps8_6 (W38 m ρ c)
abbrev U39 : (c : Dev nD) → (b : Ref sig .tc) → Buf (Elt F) ((c : Thread nD τ).loc b) := fun c b => W39 m ρ c b
theorem W39_of (c : Dev nD) (r : Ref sig .tc) (h : r ∉ hostOps8_6_W) : W39 m ρ c r = W38 m ρ c r :=
  StableHlo.after_of_writes_sub hostOps8_6 _ hostOps8_6_writes h
/-- After item 39, the host stretch `hostOps8_7`. -/
abbrev W40 : Dev nD → Valuation τ sig (Elt F) := fun c => StableHlo.after hostOps8_7 (W39 m ρ c)
abbrev U40 : (c : Dev nD) → (b : Ref sig .tc) → Buf (Elt F) ((c : Thread nD τ).loc b) := fun c b => W40 m ρ c b
theorem W40_of (c : Dev nD) (r : Ref sig .tc) (h : r ∉ hostOps8_7_W) : W40 m ρ c r = W39 m ρ c r :=
  StableHlo.after_of_writes_sub hostOps8_7 _ hostOps8_7_writes h
/-- After item 40, the host stretch `hostOps8_8`. -/
abbrev W41 : Dev nD → Valuation τ sig (Elt F) := fun c => StableHlo.after hostOps8_8 (W40 m ρ c)
abbrev U41 : (c : Dev nD) → (b : Ref sig .tc) → Buf (Elt F) ((c : Thread nD τ).loc b) := fun c b => W41 m ρ c b
theorem W41_of (c : Dev nD) (r : Ref sig .tc) (h : r ∉ hostOps8_8_W) : W41 m ρ c r = W40 m ρ c r :=
  StableHlo.after_of_writes_sub hostOps8_8 _ hostOps8_8_writes h
/-- After item 41, kernel region 8: its arrays at what the pipeline leaves, every other buffer as entered. -/
def W42 (c : Dev nD) : Valuation τ sig (Elt F) :=
  Pipeline.withArrays spec8 c (W41 m ρ c) fun w => (dat8 (U41 m ρ) c).arrAt w cfg8.N
theorem W42_arr (c : Dev nD) (w : Fin cfg8.W) :
    W42 m ρ c (Proc.devRef .tc (Pipeline.arrRef spec8 w)) = (dat8 (U41 m ρ) c).arrAt w cfg8.N := by
  unfold W42; exact Pipeline.withArrays_arr spec8 launch8.win.arr_inj c _ _ w
theorem W42_of_ne (c : Dev nD) (b : Ref sig .tc) (hb : ∀ w, Pipeline.arrRef spec8 w ≠ b) :
    W42 m ρ c (Proc.devRef .tc b) = W41 m ρ c (Proc.devRef .tc b) := by
  unfold W42; exact Pipeline.withArrays_of_ne spec8 c _ _ b hb
abbrev U42 : (c : Dev nD) → (b : Ref sig .tc) → Buf (Elt F) ((c : Thread nD τ).loc b) := fun c b => W42 m ρ c b
theorem hF8 (c : Dev nD) (w : Fin cfg8.W) : (dat8 (U41 m ρ) c).arrAt w cfg8.N = U42 m ρ c (Pipeline.arrRef spec8 w) :=
  (W42_arr m ρ c w).symm
theorem hrest8 (c : Dev nD) : ∀ b, b ∉ Finset.univ.image (Pipeline.arrRef spec8) → U42 m ρ c b = U41 m ρ c b :=
  fun b hb => W42_of_ne m ρ c b fun w e => hb (Finset.mem_image.mpr ⟨w, Finset.mem_univ _, e⟩)
theorem W42_of (c : Dev nD) (r : Ref sig .tc) (h : ∀ w, Pipeline.arrRef spec8 w ≠ r) : W42 m ρ c r = W41 m ρ c r :=
  W42_of_ne m ρ c r h
/-- After item 42, the host stretch `hostOps9`. -/
abbrev W43 : Dev nD → Valuation τ sig (Elt F) := fun c => StableHlo.after hostOps9 (W42 m ρ c)
abbrev U43 : (c : Dev nD) → (b : Ref sig .tc) → Buf (Elt F) ((c : Thread nD τ).loc b) := fun c b => W43 m ρ c b
theorem W43_of (c : Dev nD) (r : Ref sig .tc) (h : r ∉ hostOps9_W) : W43 m ρ c r = W42 m ρ c r :=
  StableHlo.after_of_writes_sub hostOps9 _ hostOps9_writes h
/-- After item 43, kernel region 9: its arrays at what the pipeline leaves, every other buffer as entered. -/
def W44 (c : Dev nD) : Valuation τ sig (Elt F) :=
  Pipeline.withArrays spec9 c (W43 m ρ c) fun w => (dat9 (U43 m ρ) c).arrAt w cfg9.N
theorem W44_arr (c : Dev nD) (w : Fin cfg9.W) :
    W44 m ρ c (Proc.devRef .tc (Pipeline.arrRef spec9 w)) = (dat9 (U43 m ρ) c).arrAt w cfg9.N := by
  unfold W44; exact Pipeline.withArrays_arr spec9 launch9.win.arr_inj c _ _ w
theorem W44_of_ne (c : Dev nD) (b : Ref sig .tc) (hb : ∀ w, Pipeline.arrRef spec9 w ≠ b) :
    W44 m ρ c (Proc.devRef .tc b) = W43 m ρ c (Proc.devRef .tc b) := by
  unfold W44; exact Pipeline.withArrays_of_ne spec9 c _ _ b hb
abbrev U44 : (c : Dev nD) → (b : Ref sig .tc) → Buf (Elt F) ((c : Thread nD τ).loc b) := fun c b => W44 m ρ c b
theorem hF9 (c : Dev nD) (w : Fin cfg9.W) : (dat9 (U43 m ρ) c).arrAt w cfg9.N = U44 m ρ c (Pipeline.arrRef spec9 w) :=
  (W44_arr m ρ c w).symm
theorem hrest9 (c : Dev nD) : ∀ b, b ∉ Finset.univ.image (Pipeline.arrRef spec9) → U44 m ρ c b = U43 m ρ c b :=
  fun b hb => W44_of_ne m ρ c b fun w e => hb (Finset.mem_image.mpr ⟨w, Finset.mem_univ _, e⟩)
theorem W44_of (c : Dev nD) (r : Ref sig .tc) (h : ∀ w, Pipeline.arrRef spec9 w ≠ r) : W44 m ρ c r = W43 m ρ c r :=
  W44_of_ne m ρ c r h
/-- After item 44, the host stretch `hostOps10`. -/
abbrev W45 : Dev nD → Valuation τ sig (Elt F) := fun c => StableHlo.after hostOps10 (W44 m ρ c)
abbrev U45 : (c : Dev nD) → (b : Ref sig .tc) → Buf (Elt F) ((c : Thread nD τ).loc b) := fun c b => W45 m ρ c b
theorem W45_of (c : Dev nD) (r : Ref sig .tc) (h : r ∉ hostOps10_W) : W45 m ρ c r = W44 m ρ c r :=
  StableHlo.after_of_writes_sub hostOps10 _ hostOps10_writes h
/-- After item 45, kernel region 10: its arrays at what the pipeline leaves, every other buffer as entered. -/
def W46 (c : Dev nD) : Valuation τ sig (Elt F) :=
  Pipeline.withArrays spec10 c (W45 m ρ c) fun w => (dat10 (U45 m ρ) c).arrAt w cfg10.N
theorem W46_arr (c : Dev nD) (w : Fin cfg10.W) :
    W46 m ρ c (Proc.devRef .tc (Pipeline.arrRef spec10 w)) = (dat10 (U45 m ρ) c).arrAt w cfg10.N := by
  unfold W46; exact Pipeline.withArrays_arr spec10 launch10.win.arr_inj c _ _ w
theorem W46_of_ne (c : Dev nD) (b : Ref sig .tc) (hb : ∀ w, Pipeline.arrRef spec10 w ≠ b) :
    W46 m ρ c (Proc.devRef .tc b) = W45 m ρ c (Proc.devRef .tc b) := by
  unfold W46; exact Pipeline.withArrays_of_ne spec10 c _ _ b hb
abbrev U46 : (c : Dev nD) → (b : Ref sig .tc) → Buf (Elt F) ((c : Thread nD τ).loc b) := fun c b => W46 m ρ c b
theorem hF10 (c : Dev nD) (w : Fin cfg10.W) : (dat10 (U45 m ρ) c).arrAt w cfg10.N = U46 m ρ c (Pipeline.arrRef spec10 w) :=
  (W46_arr m ρ c w).symm
theorem hrest10 (c : Dev nD) : ∀ b, b ∉ Finset.univ.image (Pipeline.arrRef spec10) → U46 m ρ c b = U45 m ρ c b :=
  fun b hb => W46_of_ne m ρ c b fun w e => hb (Finset.mem_image.mpr ⟨w, Finset.mem_univ _, e⟩)
theorem W46_of (c : Dev nD) (r : Ref sig .tc) (h : ∀ w, Pipeline.arrRef spec10 w ≠ r) : W46 m ρ c r = W45 m ρ c r :=
  W46_of_ne m ρ c r h
/-- After item 46, the host stretch `hostOps11`. -/
abbrev W47 : Dev nD → Valuation τ sig (Elt F) := fun c => StableHlo.after hostOps11 (W46 m ρ c)
abbrev U47 : (c : Dev nD) → (b : Ref sig .tc) → Buf (Elt F) ((c : Thread nD τ).loc b) := fun c b => W47 m ρ c b
theorem W47_of (c : Dev nD) (r : Ref sig .tc) (h : r ∉ hostOps11_W) : W47 m ρ c r = W46 m ρ c r :=
  StableHlo.after_of_writes_sub hostOps11 _ hostOps11_writes h
/-- After item 47, kernel region 11: its arrays at what the pipeline leaves, every other buffer as entered. -/
def W48 (c : Dev nD) : Valuation τ sig (Elt F) :=
  Pipeline.withArrays spec11 c (W47 m ρ c) fun w => (dat11 (U47 m ρ) c).arrAt w cfg11.N
theorem W48_arr (c : Dev nD) (w : Fin cfg11.W) :
    W48 m ρ c (Proc.devRef .tc (Pipeline.arrRef spec11 w)) = (dat11 (U47 m ρ) c).arrAt w cfg11.N := by
  unfold W48; exact Pipeline.withArrays_arr spec11 launch11.win.arr_inj c _ _ w
theorem W48_of_ne (c : Dev nD) (b : Ref sig .tc) (hb : ∀ w, Pipeline.arrRef spec11 w ≠ b) :
    W48 m ρ c (Proc.devRef .tc b) = W47 m ρ c (Proc.devRef .tc b) := by
  unfold W48; exact Pipeline.withArrays_of_ne spec11 c _ _ b hb
abbrev U48 : (c : Dev nD) → (b : Ref sig .tc) → Buf (Elt F) ((c : Thread nD τ).loc b) := fun c b => W48 m ρ c b
theorem hF11 (c : Dev nD) (w : Fin cfg11.W) : (dat11 (U47 m ρ) c).arrAt w cfg11.N = U48 m ρ c (Pipeline.arrRef spec11 w) :=
  (W48_arr m ρ c w).symm
theorem hrest11 (c : Dev nD) : ∀ b, b ∉ Finset.univ.image (Pipeline.arrRef spec11) → U48 m ρ c b = U47 m ρ c b :=
  fun b hb => W48_of_ne m ρ c b fun w e => hb (Finset.mem_image.mpr ⟨w, Finset.mem_univ _, e⟩)
theorem W48_of (c : Dev nD) (r : Ref sig .tc) (h : ∀ w, Pipeline.arrRef spec11 w ≠ r) : W48 m ρ c r = W47 m ρ c r :=
  W48_of_ne m ρ c r h
/-- After item 48, the host stretch `hostOps12`. -/
abbrev W49 : Dev nD → Valuation τ sig (Elt F) := fun c => StableHlo.after hostOps12 (W48 m ρ c)
abbrev U49 : (c : Dev nD) → (b : Ref sig .tc) → Buf (Elt F) ((c : Thread nD τ).loc b) := fun c b => W49 m ρ c b
theorem W49_of (c : Dev nD) (r : Ref sig .tc) (h : r ∉ hostOps12_W) : W49 m ρ c r = W48 m ρ c r :=
  StableHlo.after_of_writes_sub hostOps12 _ hostOps12_writes h

/-! ## The proof data family and the thread state -/

/-- No pipeline has a prefetched table. -/
abbrev fadm : (p : Fin 12) → (pcfgs (F := F) p).Adm := fun p => (cfgs p).toPCfg_adm
/-- Every pipeline's proof data, each at its region's entry contents. -/
def fdats : (p : Fin 12) → (c : Dev nD) → Dat τ (Elt F) Unit ℕ (UR sig nD τ) ℕ (Pipeline.pin (pcfgs (F := F)) fadm p) c
  | ⟨0, _⟩ => fun c => dat0 (U9 m ρ) c
  | ⟨1, _⟩ => fun c => dat1 (U11 m ρ) c
  | ⟨2, _⟩ => fun c => dat2 (U13 m ρ) c
  | ⟨3, _⟩ => fun c => dat3 (U15 m ρ) c
  | ⟨4, _⟩ => fun c => dat4 (U25 m ρ) c
  | ⟨5, _⟩ => fun c => dat5 (U27 m ρ) c
  | ⟨6, _⟩ => fun c => dat6 (U29 m ρ) c
  | ⟨7, _⟩ => fun c => dat7 (U31 m ρ) c
  | ⟨8, _⟩ => fun c => dat8 (U41 m ρ) c
  | ⟨9, _⟩ => fun c => dat9 (U43 m ρ) c
  | ⟨10, _⟩ => fun c => dat10 (U45 m ρ) c
  | ⟨11, _⟩ => fun c => dat11 (U47 m ρ) c
abbrev 𝒱f : Variants := Variants.none
abbrev Lf : GSem nD τ sig → Finset Unit := fun _ => ∅
abbrev lvf : GSem nD τ sig → Unit → ℕ := fun _ _ => 0
/-- What rides beside the buffers through every item: the core's generator register at some state, and nothing owed. -/
abbrev Rf (c : Dev nD) : sProp (MT nD τ sig Unit (Elt F) ℕ (UR sig nD τ) ℕ) := iprop((∃ r, prngReg c r) ∗ ∃ W, owes (c : Thread nD τ) (0 : CellTallies nD τ sig Unit) W)
/-- A host stretch as a segment over the unscoped buffers from the contents `W`. -/
abbrev hsegf (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱f Lf lvf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rf
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched: no host operation writes one and no region stages one -/

theorem W49_main_arg0 (c : Dev nD) : W49 m ρ c main_arg0 = m ((c : Thread nD τ).loc main_arg0) :=
  (W49_of m ρ c main_arg0 (by decide)).trans <| (W48_of m ρ c main_arg0 (by decide)).trans <| (W47_of m ρ c main_arg0 (by decide)).trans <| (W46_of m ρ c main_arg0 (by decide)).trans <| (W45_of m ρ c main_arg0 (by decide)).trans <| (W44_of m ρ c main_arg0 (by decide)).trans <| (W43_of m ρ c main_arg0 (by decide)).trans <| (W42_of m ρ c main_arg0 (by decide)).trans <| (W41_of m ρ c main_arg0 (by decide)).trans <| (W40_of m ρ c main_arg0 (by decide)).trans <| (W39_of m ρ c main_arg0 (by decide)).trans <| (W38_of m ρ c main_arg0 (by decide)).trans <| (W37_of m ρ c main_arg0 (by decide)).trans <| (W36_of m ρ c main_arg0 (by decide)).trans <| (W35_of m ρ c main_arg0 (by decide)).trans <| (W34_of m ρ c main_arg0 (by decide)).trans <| (W33_of m ρ c main_arg0 (by decide)).trans <| (W32_of m ρ c main_arg0 (by decide)).trans <| (W31_of m ρ c main_arg0 (by decide)).trans <| (W30_of m ρ c main_arg0 (by decide)).trans <| (W29_of m ρ c main_arg0 (by decide)).trans <| (W28_of m ρ c main_arg0 (by decide)).trans <| (W27_of m ρ c main_arg0 (by decide)).trans <| (W26_of m ρ c main_arg0 (by decide)).trans <| (W25_of m ρ c main_arg0 (by decide)).trans <| (W24_of m ρ c main_arg0 (by decide)).trans <| (W23_of m ρ c main_arg0 (by decide)).trans <| (W22_of m ρ c main_arg0 (by decide)).trans <| (W21_of m ρ c main_arg0 (by decide)).trans <| (W20_of m ρ c main_arg0 (by decide)).trans <| (W19_of m ρ c main_arg0 (by decide)).trans <| (W18_of m ρ c main_arg0 (by decide)).trans <| (W17_of m ρ c main_arg0 (by decide)).trans <| (W16_of m ρ c main_arg0 (by decide)).trans <| (W15_of m ρ c main_arg0 (by decide)).trans <| (W14_of m ρ c main_arg0 (by decide)).trans <| (W13_of m ρ c main_arg0 (by decide)).trans <| (W12_of m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans <| rfl
theorem W49_main_arg1 (c : Dev nD) : W49 m ρ c main_arg1 = m ((c : Thread nD τ).loc main_arg1) :=
  (W49_of m ρ c main_arg1 (by decide)).trans <| (W48_of m ρ c main_arg1 (by decide)).trans <| (W47_of m ρ c main_arg1 (by decide)).trans <| (W46_of m ρ c main_arg1 (by decide)).trans <| (W45_of m ρ c main_arg1 (by decide)).trans <| (W44_of m ρ c main_arg1 (by decide)).trans <| (W43_of m ρ c main_arg1 (by decide)).trans <| (W42_of m ρ c main_arg1 (by decide)).trans <| (W41_of m ρ c main_arg1 (by decide)).trans <| (W40_of m ρ c main_arg1 (by decide)).trans <| (W39_of m ρ c main_arg1 (by decide)).trans <| (W38_of m ρ c main_arg1 (by decide)).trans <| (W37_of m ρ c main_arg1 (by decide)).trans <| (W36_of m ρ c main_arg1 (by decide)).trans <| (W35_of m ρ c main_arg1 (by decide)).trans <| (W34_of m ρ c main_arg1 (by decide)).trans <| (W33_of m ρ c main_arg1 (by decide)).trans <| (W32_of m ρ c main_arg1 (by decide)).trans <| (W31_of m ρ c main_arg1 (by decide)).trans <| (W30_of m ρ c main_arg1 (by decide)).trans <| (W29_of m ρ c main_arg1 (by decide)).trans <| (W28_of m ρ c main_arg1 (by decide)).trans <| (W27_of m ρ c main_arg1 (by decide)).trans <| (W26_of m ρ c main_arg1 (by decide)).trans <| (W25_of m ρ c main_arg1 (by decide)).trans <| (W24_of m ρ c main_arg1 (by decide)).trans <| (W23_of m ρ c main_arg1 (by decide)).trans <| (W22_of m ρ c main_arg1 (by decide)).trans <| (W21_of m ρ c main_arg1 (by decide)).trans <| (W20_of m ρ c main_arg1 (by decide)).trans <| (W19_of m ρ c main_arg1 (by decide)).trans <| (W18_of m ρ c main_arg1 (by decide)).trans <| (W17_of m ρ c main_arg1 (by decide)).trans <| (W16_of m ρ c main_arg1 (by decide)).trans <| (W15_of m ρ c main_arg1 (by decide)).trans <| (W14_of m ρ c main_arg1 (by decide)).trans <| (W13_of m ρ c main_arg1 (by decide)).trans <| (W12_of m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans <| rfl
theorem W49_main_arg2 (c : Dev nD) : W49 m ρ c main_arg2 = m ((c : Thread nD τ).loc main_arg2) :=
  (W49_of m ρ c main_arg2 (by decide)).trans <| (W48_of m ρ c main_arg2 (by decide)).trans <| (W47_of m ρ c main_arg2 (by decide)).trans <| (W46_of m ρ c main_arg2 (by decide)).trans <| (W45_of m ρ c main_arg2 (by decide)).trans <| (W44_of m ρ c main_arg2 (by decide)).trans <| (W43_of m ρ c main_arg2 (by decide)).trans <| (W42_of m ρ c main_arg2 (by decide)).trans <| (W41_of m ρ c main_arg2 (by decide)).trans <| (W40_of m ρ c main_arg2 (by decide)).trans <| (W39_of m ρ c main_arg2 (by decide)).trans <| (W38_of m ρ c main_arg2 (by decide)).trans <| (W37_of m ρ c main_arg2 (by decide)).trans <| (W36_of m ρ c main_arg2 (by decide)).trans <| (W35_of m ρ c main_arg2 (by decide)).trans <| (W34_of m ρ c main_arg2 (by decide)).trans <| (W33_of m ρ c main_arg2 (by decide)).trans <| (W32_of m ρ c main_arg2 (by decide)).trans <| (W31_of m ρ c main_arg2 (by decide)).trans <| (W30_of m ρ c main_arg2 (by decide)).trans <| (W29_of m ρ c main_arg2 (by decide)).trans <| (W28_of m ρ c main_arg2 (by decide)).trans <| (W27_of m ρ c main_arg2 (by decide)).trans <| (W26_of m ρ c main_arg2 (by decide)).trans <| (W25_of m ρ c main_arg2 (by decide)).trans <| (W24_of m ρ c main_arg2 (by decide)).trans <| (W23_of m ρ c main_arg2 (by decide)).trans <| (W22_of m ρ c main_arg2 (by decide)).trans <| (W21_of m ρ c main_arg2 (by decide)).trans <| (W20_of m ρ c main_arg2 (by decide)).trans <| (W19_of m ρ c main_arg2 (by decide)).trans <| (W18_of m ρ c main_arg2 (by decide)).trans <| (W17_of m ρ c main_arg2 (by decide)).trans <| (W16_of m ρ c main_arg2 (by decide)).trans <| (W15_of m ρ c main_arg2 (by decide)).trans <| (W14_of m ρ c main_arg2 (by decide)).trans <| (W13_of m ρ c main_arg2 (by decide)).trans <| (W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans <| rfl
theorem W49_main_arg3 (c : Dev nD) : W49 m ρ c main_arg3 = m ((c : Thread nD τ).loc main_arg3) :=
  (W49_of m ρ c main_arg3 (by decide)).trans <| (W48_of m ρ c main_arg3 (by decide)).trans <| (W47_of m ρ c main_arg3 (by decide)).trans <| (W46_of m ρ c main_arg3 (by decide)).trans <| (W45_of m ρ c main_arg3 (by decide)).trans <| (W44_of m ρ c main_arg3 (by decide)).trans <| (W43_of m ρ c main_arg3 (by decide)).trans <| (W42_of m ρ c main_arg3 (by decide)).trans <| (W41_of m ρ c main_arg3 (by decide)).trans <| (W40_of m ρ c main_arg3 (by decide)).trans <| (W39_of m ρ c main_arg3 (by decide)).trans <| (W38_of m ρ c main_arg3 (by decide)).trans <| (W37_of m ρ c main_arg3 (by decide)).trans <| (W36_of m ρ c main_arg3 (by decide)).trans <| (W35_of m ρ c main_arg3 (by decide)).trans <| (W34_of m ρ c main_arg3 (by decide)).trans <| (W33_of m ρ c main_arg3 (by decide)).trans <| (W32_of m ρ c main_arg3 (by decide)).trans <| (W31_of m ρ c main_arg3 (by decide)).trans <| (W30_of m ρ c main_arg3 (by decide)).trans <| (W29_of m ρ c main_arg3 (by decide)).trans <| (W28_of m ρ c main_arg3 (by decide)).trans <| (W27_of m ρ c main_arg3 (by decide)).trans <| (W26_of m ρ c main_arg3 (by decide)).trans <| (W25_of m ρ c main_arg3 (by decide)).trans <| (W24_of m ρ c main_arg3 (by decide)).trans <| (W23_of m ρ c main_arg3 (by decide)).trans <| (W22_of m ρ c main_arg3 (by decide)).trans <| (W21_of m ρ c main_arg3 (by decide)).trans <| (W20_of m ρ c main_arg3 (by decide)).trans <| (W19_of m ρ c main_arg3 (by decide)).trans <| (W18_of m ρ c main_arg3 (by decide)).trans <| (W17_of m ρ c main_arg3 (by decide)).trans <| (W16_of m ρ c main_arg3 (by decide)).trans <| (W15_of m ρ c main_arg3 (by decide)).trans <| (W14_of m ρ c main_arg3 (by decide)).trans <| (W13_of m ρ c main_arg3 (by decide)).trans <| (W12_of m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans <| rfl
theorem W49_main_arg4 (c : Dev nD) : W49 m ρ c main_arg4 = m ((c : Thread nD τ).loc main_arg4) :=
  (W49_of m ρ c main_arg4 (by decide)).trans <| (W48_of m ρ c main_arg4 (by decide)).trans <| (W47_of m ρ c main_arg4 (by decide)).trans <| (W46_of m ρ c main_arg4 (by decide)).trans <| (W45_of m ρ c main_arg4 (by decide)).trans <| (W44_of m ρ c main_arg4 (by decide)).trans <| (W43_of m ρ c main_arg4 (by decide)).trans <| (W42_of m ρ c main_arg4 (by decide)).trans <| (W41_of m ρ c main_arg4 (by decide)).trans <| (W40_of m ρ c main_arg4 (by decide)).trans <| (W39_of m ρ c main_arg4 (by decide)).trans <| (W38_of m ρ c main_arg4 (by decide)).trans <| (W37_of m ρ c main_arg4 (by decide)).trans <| (W36_of m ρ c main_arg4 (by decide)).trans <| (W35_of m ρ c main_arg4 (by decide)).trans <| (W34_of m ρ c main_arg4 (by decide)).trans <| (W33_of m ρ c main_arg4 (by decide)).trans <| (W32_of m ρ c main_arg4 (by decide)).trans <| (W31_of m ρ c main_arg4 (by decide)).trans <| (W30_of m ρ c main_arg4 (by decide)).trans <| (W29_of m ρ c main_arg4 (by decide)).trans <| (W28_of m ρ c main_arg4 (by decide)).trans <| (W27_of m ρ c main_arg4 (by decide)).trans <| (W26_of m ρ c main_arg4 (by decide)).trans <| (W25_of m ρ c main_arg4 (by decide)).trans <| (W24_of m ρ c main_arg4 (by decide)).trans <| (W23_of m ρ c main_arg4 (by decide)).trans <| (W22_of m ρ c main_arg4 (by decide)).trans <| (W21_of m ρ c main_arg4 (by decide)).trans <| (W20_of m ρ c main_arg4 (by decide)).trans <| (W19_of m ρ c main_arg4 (by decide)).trans <| (W18_of m ρ c main_arg4 (by decide)).trans <| (W17_of m ρ c main_arg4 (by decide)).trans <| (W16_of m ρ c main_arg4 (by decide)).trans <| (W15_of m ρ c main_arg4 (by decide)).trans <| (W14_of m ρ c main_arg4 (by decide)).trans <| (W13_of m ρ c main_arg4 (by decide)).trans <| (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans <| rfl
theorem W49_main_arg5 (c : Dev nD) : W49 m ρ c main_arg5 = m ((c : Thread nD τ).loc main_arg5) :=
  (W49_of m ρ c main_arg5 (by decide)).trans <| (W48_of m ρ c main_arg5 (by decide)).trans <| (W47_of m ρ c main_arg5 (by decide)).trans <| (W46_of m ρ c main_arg5 (by decide)).trans <| (W45_of m ρ c main_arg5 (by decide)).trans <| (W44_of m ρ c main_arg5 (by decide)).trans <| (W43_of m ρ c main_arg5 (by decide)).trans <| (W42_of m ρ c main_arg5 (by decide)).trans <| (W41_of m ρ c main_arg5 (by decide)).trans <| (W40_of m ρ c main_arg5 (by decide)).trans <| (W39_of m ρ c main_arg5 (by decide)).trans <| (W38_of m ρ c main_arg5 (by decide)).trans <| (W37_of m ρ c main_arg5 (by decide)).trans <| (W36_of m ρ c main_arg5 (by decide)).trans <| (W35_of m ρ c main_arg5 (by decide)).trans <| (W34_of m ρ c main_arg5 (by decide)).trans <| (W33_of m ρ c main_arg5 (by decide)).trans <| (W32_of m ρ c main_arg5 (by decide)).trans <| (W31_of m ρ c main_arg5 (by decide)).trans <| (W30_of m ρ c main_arg5 (by decide)).trans <| (W29_of m ρ c main_arg5 (by decide)).trans <| (W28_of m ρ c main_arg5 (by decide)).trans <| (W27_of m ρ c main_arg5 (by decide)).trans <| (W26_of m ρ c main_arg5 (by decide)).trans <| (W25_of m ρ c main_arg5 (by decide)).trans <| (W24_of m ρ c main_arg5 (by decide)).trans <| (W23_of m ρ c main_arg5 (by decide)).trans <| (W22_of m ρ c main_arg5 (by decide)).trans <| (W21_of m ρ c main_arg5 (by decide)).trans <| (W20_of m ρ c main_arg5 (by decide)).trans <| (W19_of m ρ c main_arg5 (by decide)).trans <| (W18_of m ρ c main_arg5 (by decide)).trans <| (W17_of m ρ c main_arg5 (by decide)).trans <| (W16_of m ρ c main_arg5 (by decide)).trans <| (W15_of m ρ c main_arg5 (by decide)).trans <| (W14_of m ρ c main_arg5 (by decide)).trans <| (W13_of m ρ c main_arg5 (by decide)).trans <| (W12_of m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide)).trans <| rfl
theorem W49_main_arg6 (c : Dev nD) : W49 m ρ c main_arg6 = m ((c : Thread nD τ).loc main_arg6) :=
  (W49_of m ρ c main_arg6 (by decide)).trans <| (W48_of m ρ c main_arg6 (by decide)).trans <| (W47_of m ρ c main_arg6 (by decide)).trans <| (W46_of m ρ c main_arg6 (by decide)).trans <| (W45_of m ρ c main_arg6 (by decide)).trans <| (W44_of m ρ c main_arg6 (by decide)).trans <| (W43_of m ρ c main_arg6 (by decide)).trans <| (W42_of m ρ c main_arg6 (by decide)).trans <| (W41_of m ρ c main_arg6 (by decide)).trans <| (W40_of m ρ c main_arg6 (by decide)).trans <| (W39_of m ρ c main_arg6 (by decide)).trans <| (W38_of m ρ c main_arg6 (by decide)).trans <| (W37_of m ρ c main_arg6 (by decide)).trans <| (W36_of m ρ c main_arg6 (by decide)).trans <| (W35_of m ρ c main_arg6 (by decide)).trans <| (W34_of m ρ c main_arg6 (by decide)).trans <| (W33_of m ρ c main_arg6 (by decide)).trans <| (W32_of m ρ c main_arg6 (by decide)).trans <| (W31_of m ρ c main_arg6 (by decide)).trans <| (W30_of m ρ c main_arg6 (by decide)).trans <| (W29_of m ρ c main_arg6 (by decide)).trans <| (W28_of m ρ c main_arg6 (by decide)).trans <| (W27_of m ρ c main_arg6 (by decide)).trans <| (W26_of m ρ c main_arg6 (by decide)).trans <| (W25_of m ρ c main_arg6 (by decide)).trans <| (W24_of m ρ c main_arg6 (by decide)).trans <| (W23_of m ρ c main_arg6 (by decide)).trans <| (W22_of m ρ c main_arg6 (by decide)).trans <| (W21_of m ρ c main_arg6 (by decide)).trans <| (W20_of m ρ c main_arg6 (by decide)).trans <| (W19_of m ρ c main_arg6 (by decide)).trans <| (W18_of m ρ c main_arg6 (by decide)).trans <| (W17_of m ρ c main_arg6 (by decide)).trans <| (W16_of m ρ c main_arg6 (by decide)).trans <| (W15_of m ρ c main_arg6 (by decide)).trans <| (W14_of m ρ c main_arg6 (by decide)).trans <| (W13_of m ρ c main_arg6 (by decide)).trans <| (W12_of m ρ c main_arg6 (by decide)).trans <| (W11_of m ρ c main_arg6 (by decide)).trans <| (W10_of m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of m ρ c main_arg6 (by decide)).trans <| (W4_of m ρ c main_arg6 (by decide)).trans <| (W3_of m ρ c main_arg6 (by decide)).trans <| (W2_of m ρ c main_arg6 (by decide)).trans <| (W1_of m ρ c main_arg6 (by decide)).trans <| rfl
theorem W49_main_arg7 (c : Dev nD) : W49 m ρ c main_arg7 = m ((c : Thread nD τ).loc main_arg7) :=
  (W49_of m ρ c main_arg7 (by decide)).trans <| (W48_of m ρ c main_arg7 (by decide)).trans <| (W47_of m ρ c main_arg7 (by decide)).trans <| (W46_of m ρ c main_arg7 (by decide)).trans <| (W45_of m ρ c main_arg7 (by decide)).trans <| (W44_of m ρ c main_arg7 (by decide)).trans <| (W43_of m ρ c main_arg7 (by decide)).trans <| (W42_of m ρ c main_arg7 (by decide)).trans <| (W41_of m ρ c main_arg7 (by decide)).trans <| (W40_of m ρ c main_arg7 (by decide)).trans <| (W39_of m ρ c main_arg7 (by decide)).trans <| (W38_of m ρ c main_arg7 (by decide)).trans <| (W37_of m ρ c main_arg7 (by decide)).trans <| (W36_of m ρ c main_arg7 (by decide)).trans <| (W35_of m ρ c main_arg7 (by decide)).trans <| (W34_of m ρ c main_arg7 (by decide)).trans <| (W33_of m ρ c main_arg7 (by decide)).trans <| (W32_of m ρ c main_arg7 (by decide)).trans <| (W31_of m ρ c main_arg7 (by decide)).trans <| (W30_of m ρ c main_arg7 (by decide)).trans <| (W29_of m ρ c main_arg7 (by decide)).trans <| (W28_of m ρ c main_arg7 (by decide)).trans <| (W27_of m ρ c main_arg7 (by decide)).trans <| (W26_of m ρ c main_arg7 (by decide)).trans <| (W25_of m ρ c main_arg7 (by decide)).trans <| (W24_of m ρ c main_arg7 (by decide)).trans <| (W23_of m ρ c main_arg7 (by decide)).trans <| (W22_of m ρ c main_arg7 (by decide)).trans <| (W21_of m ρ c main_arg7 (by decide)).trans <| (W20_of m ρ c main_arg7 (by decide)).trans <| (W19_of m ρ c main_arg7 (by decide)).trans <| (W18_of m ρ c main_arg7 (by decide)).trans <| (W17_of m ρ c main_arg7 (by decide)).trans <| (W16_of m ρ c main_arg7 (by decide)).trans <| (W15_of m ρ c main_arg7 (by decide)).trans <| (W14_of m ρ c main_arg7 (by decide)).trans <| (W13_of m ρ c main_arg7 (by decide)).trans <| (W12_of m ρ c main_arg7 (by decide)).trans <| (W11_of m ρ c main_arg7 (by decide)).trans <| (W10_of m ρ c main_arg7 (by decide)).trans <| (W9_of m ρ c main_arg7 (by decide)).trans <| (W8_of m ρ c main_arg7 (by decide)).trans <| (W7_of m ρ c main_arg7 (by decide)).trans <| (W6_of m ρ c main_arg7 (by decide)).trans <| (W5_of m ρ c main_arg7 (by decide)).trans <| (W4_of m ρ c main_arg7 (by decide)).trans <| (W3_of m ρ c main_arg7 (by decide)).trans <| (W2_of m ρ c main_arg7 (by decide)).trans <| (W1_of m ρ c main_arg7 (by decide)).trans <| rfl
theorem W49_main_arg8 (c : Dev nD) : W49 m ρ c main_arg8 = m ((c : Thread nD τ).loc main_arg8) :=
  (W49_of m ρ c main_arg8 (by decide)).trans <| (W48_of m ρ c main_arg8 (by decide)).trans <| (W47_of m ρ c main_arg8 (by decide)).trans <| (W46_of m ρ c main_arg8 (by decide)).trans <| (W45_of m ρ c main_arg8 (by decide)).trans <| (W44_of m ρ c main_arg8 (by decide)).trans <| (W43_of m ρ c main_arg8 (by decide)).trans <| (W42_of m ρ c main_arg8 (by decide)).trans <| (W41_of m ρ c main_arg8 (by decide)).trans <| (W40_of m ρ c main_arg8 (by decide)).trans <| (W39_of m ρ c main_arg8 (by decide)).trans <| (W38_of m ρ c main_arg8 (by decide)).trans <| (W37_of m ρ c main_arg8 (by decide)).trans <| (W36_of m ρ c main_arg8 (by decide)).trans <| (W35_of m ρ c main_arg8 (by decide)).trans <| (W34_of m ρ c main_arg8 (by decide)).trans <| (W33_of m ρ c main_arg8 (by decide)).trans <| (W32_of m ρ c main_arg8 (by decide)).trans <| (W31_of m ρ c main_arg8 (by decide)).trans <| (W30_of m ρ c main_arg8 (by decide)).trans <| (W29_of m ρ c main_arg8 (by decide)).trans <| (W28_of m ρ c main_arg8 (by decide)).trans <| (W27_of m ρ c main_arg8 (by decide)).trans <| (W26_of m ρ c main_arg8 (by decide)).trans <| (W25_of m ρ c main_arg8 (by decide)).trans <| (W24_of m ρ c main_arg8 (by decide)).trans <| (W23_of m ρ c main_arg8 (by decide)).trans <| (W22_of m ρ c main_arg8 (by decide)).trans <| (W21_of m ρ c main_arg8 (by decide)).trans <| (W20_of m ρ c main_arg8 (by decide)).trans <| (W19_of m ρ c main_arg8 (by decide)).trans <| (W18_of m ρ c main_arg8 (by decide)).trans <| (W17_of m ρ c main_arg8 (by decide)).trans <| (W16_of m ρ c main_arg8 (by decide)).trans <| (W15_of m ρ c main_arg8 (by decide)).trans <| (W14_of m ρ c main_arg8 (by decide)).trans <| (W13_of m ρ c main_arg8 (by decide)).trans <| (W12_of m ρ c main_arg8 (by decide)).trans <| (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide)).trans <| rfl
theorem W49_main_arg9 (c : Dev nD) : W49 m ρ c main_arg9 = m ((c : Thread nD τ).loc main_arg9) :=
  (W49_of m ρ c main_arg9 (by decide)).trans <| (W48_of m ρ c main_arg9 (by decide)).trans <| (W47_of m ρ c main_arg9 (by decide)).trans <| (W46_of m ρ c main_arg9 (by decide)).trans <| (W45_of m ρ c main_arg9 (by decide)).trans <| (W44_of m ρ c main_arg9 (by decide)).trans <| (W43_of m ρ c main_arg9 (by decide)).trans <| (W42_of m ρ c main_arg9 (by decide)).trans <| (W41_of m ρ c main_arg9 (by decide)).trans <| (W40_of m ρ c main_arg9 (by decide)).trans <| (W39_of m ρ c main_arg9 (by decide)).trans <| (W38_of m ρ c main_arg9 (by decide)).trans <| (W37_of m ρ c main_arg9 (by decide)).trans <| (W36_of m ρ c main_arg9 (by decide)).trans <| (W35_of m ρ c main_arg9 (by decide)).trans <| (W34_of m ρ c main_arg9 (by decide)).trans <| (W33_of m ρ c main_arg9 (by decide)).trans <| (W32_of m ρ c main_arg9 (by decide)).trans <| (W31_of m ρ c main_arg9 (by decide)).trans <| (W30_of m ρ c main_arg9 (by decide)).trans <| (W29_of m ρ c main_arg9 (by decide)).trans <| (W28_of m ρ c main_arg9 (by decide)).trans <| (W27_of m ρ c main_arg9 (by decide)).trans <| (W26_of m ρ c main_arg9 (by decide)).trans <| (W25_of m ρ c main_arg9 (by decide)).trans <| (W24_of m ρ c main_arg9 (by decide)).trans <| (W23_of m ρ c main_arg9 (by decide)).trans <| (W22_of m ρ c main_arg9 (by decide)).trans <| (W21_of m ρ c main_arg9 (by decide)).trans <| (W20_of m ρ c main_arg9 (by decide)).trans <| (W19_of m ρ c main_arg9 (by decide)).trans <| (W18_of m ρ c main_arg9 (by decide)).trans <| (W17_of m ρ c main_arg9 (by decide)).trans <| (W16_of m ρ c main_arg9 (by decide)).trans <| (W15_of m ρ c main_arg9 (by decide)).trans <| (W14_of m ρ c main_arg9 (by decide)).trans <| (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)).trans <| rfl
theorem W49_main_arg10 (c : Dev nD) : W49 m ρ c main_arg10 = m ((c : Thread nD τ).loc main_arg10) :=
  (W49_of m ρ c main_arg10 (by decide)).trans <| (W48_of m ρ c main_arg10 (by decide)).trans <| (W47_of m ρ c main_arg10 (by decide)).trans <| (W46_of m ρ c main_arg10 (by decide)).trans <| (W45_of m ρ c main_arg10 (by decide)).trans <| (W44_of m ρ c main_arg10 (by decide)).trans <| (W43_of m ρ c main_arg10 (by decide)).trans <| (W42_of m ρ c main_arg10 (by decide)).trans <| (W41_of m ρ c main_arg10 (by decide)).trans <| (W40_of m ρ c main_arg10 (by decide)).trans <| (W39_of m ρ c main_arg10 (by decide)).trans <| (W38_of m ρ c main_arg10 (by decide)).trans <| (W37_of m ρ c main_arg10 (by decide)).trans <| (W36_of m ρ c main_arg10 (by decide)).trans <| (W35_of m ρ c main_arg10 (by decide)).trans <| (W34_of m ρ c main_arg10 (by decide)).trans <| (W33_of m ρ c main_arg10 (by decide)).trans <| (W32_of m ρ c main_arg10 (by decide)).trans <| (W31_of m ρ c main_arg10 (by decide)).trans <| (W30_of m ρ c main_arg10 (by decide)).trans <| (W29_of m ρ c main_arg10 (by decide)).trans <| (W28_of m ρ c main_arg10 (by decide)).trans <| (W27_of m ρ c main_arg10 (by decide)).trans <| (W26_of m ρ c main_arg10 (by decide)).trans <| (W25_of m ρ c main_arg10 (by decide)).trans <| (W24_of m ρ c main_arg10 (by decide)).trans <| (W23_of m ρ c main_arg10 (by decide)).trans <| (W22_of m ρ c main_arg10 (by decide)).trans <| (W21_of m ρ c main_arg10 (by decide)).trans <| (W20_of m ρ c main_arg10 (by decide)).trans <| (W19_of m ρ c main_arg10 (by decide)).trans <| (W18_of m ρ c main_arg10 (by decide)).trans <| (W17_of m ρ c main_arg10 (by decide)).trans <| (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide)).trans <| rfl
theorem W49_main_arg11 (c : Dev nD) : W49 m ρ c main_arg11 = m ((c : Thread nD τ).loc main_arg11) :=
  (W49_of m ρ c main_arg11 (by decide)).trans <| (W48_of m ρ c main_arg11 (by decide)).trans <| (W47_of m ρ c main_arg11 (by decide)).trans <| (W46_of m ρ c main_arg11 (by decide)).trans <| (W45_of m ρ c main_arg11 (by decide)).trans <| (W44_of m ρ c main_arg11 (by decide)).trans <| (W43_of m ρ c main_arg11 (by decide)).trans <| (W42_of m ρ c main_arg11 (by decide)).trans <| (W41_of m ρ c main_arg11 (by decide)).trans <| (W40_of m ρ c main_arg11 (by decide)).trans <| (W39_of m ρ c main_arg11 (by decide)).trans <| (W38_of m ρ c main_arg11 (by decide)).trans <| (W37_of m ρ c main_arg11 (by decide)).trans <| (W36_of m ρ c main_arg11 (by decide)).trans <| (W35_of m ρ c main_arg11 (by decide)).trans <| (W34_of m ρ c main_arg11 (by decide)).trans <| (W33_of m ρ c main_arg11 (by decide)).trans <| (W32_of m ρ c main_arg11 (by decide)).trans <| (W31_of m ρ c main_arg11 (by decide)).trans <| (W30_of m ρ c main_arg11 (by decide)).trans <| (W29_of m ρ c main_arg11 (by decide)).trans <| (W28_of m ρ c main_arg11 (by decide)).trans <| (W27_of m ρ c main_arg11 (by decide)).trans <| (W26_of m ρ c main_arg11 (by decide)).trans <| (W25_of m ρ c main_arg11 (by decide)).trans <| (W24_of m ρ c main_arg11 (by decide)).trans <| (W23_of m ρ c main_arg11 (by decide)).trans <| (W22_of m ρ c main_arg11 (by decide)).trans <| (W21_of m ρ c main_arg11 (by decide)).trans <| (W20_of m ρ c main_arg11 (by decide)).trans <| (W19_of m ρ c main_arg11 (by decide)).trans <| (W18_of m ρ c main_arg11 (by decide)).trans <| (W17_of m ρ c main_arg11 (by decide)).trans <| (W16_of m ρ c main_arg11 (by decide)).trans <| (W15_of m ρ c main_arg11 (by decide)).trans <| (W14_of m ρ c main_arg11 (by decide)).trans <| (W13_of m ρ c main_arg11 (by decide)).trans <| (W12_of m ρ c main_arg11 (by decide)).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)).trans <| rfl
theorem W49_main_arg12 (c : Dev nD) : W49 m ρ c main_arg12 = m ((c : Thread nD τ).loc main_arg12) :=
  (W49_of m ρ c main_arg12 (by decide)).trans <| (W48_of m ρ c main_arg12 (by decide)).trans <| (W47_of m ρ c main_arg12 (by decide)).trans <| (W46_of m ρ c main_arg12 (by decide)).trans <| (W45_of m ρ c main_arg12 (by decide)).trans <| (W44_of m ρ c main_arg12 (by decide)).trans <| (W43_of m ρ c main_arg12 (by decide)).trans <| (W42_of m ρ c main_arg12 (by decide)).trans <| (W41_of m ρ c main_arg12 (by decide)).trans <| (W40_of m ρ c main_arg12 (by decide)).trans <| (W39_of m ρ c main_arg12 (by decide)).trans <| (W38_of m ρ c main_arg12 (by decide)).trans <| (W37_of m ρ c main_arg12 (by decide)).trans <| (W36_of m ρ c main_arg12 (by decide)).trans <| (W35_of m ρ c main_arg12 (by decide)).trans <| (W34_of m ρ c main_arg12 (by decide)).trans <| (W33_of m ρ c main_arg12 (by decide)).trans <| (W32_of m ρ c main_arg12 (by decide)).trans <| (W31_of m ρ c main_arg12 (by decide)).trans <| (W30_of m ρ c main_arg12 (by decide)).trans <| (W29_of m ρ c main_arg12 (by decide)).trans <| (W28_of m ρ c main_arg12 (by decide)).trans <| (W27_of m ρ c main_arg12 (by decide)).trans <| (W26_of m ρ c main_arg12 (by decide)).trans <| (W25_of m ρ c main_arg12 (by decide)).trans <| (W24_of m ρ c main_arg12 (by decide)).trans <| (W23_of m ρ c main_arg12 (by decide)).trans <| (W22_of m ρ c main_arg12 (by decide)).trans <| (W21_of m ρ c main_arg12 (by decide)).trans <| (W20_of m ρ c main_arg12 (by decide)).trans <| (W19_of m ρ c main_arg12 (by decide)).trans <| (W18_of m ρ c main_arg12 (by decide)).trans <| (W17_of m ρ c main_arg12 (by decide)).trans <| (W16_of m ρ c main_arg12 (by decide)).trans <| (W15_of m ρ c main_arg12 (by decide)).trans <| (W14_of m ρ c main_arg12 (by decide)).trans <| (W13_of m ρ c main_arg12 (by decide)).trans <| (W12_of m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans <| rfl
theorem W49_main_arg13 (c : Dev nD) : W49 m ρ c main_arg13 = m ((c : Thread nD τ).loc main_arg13) :=
  (W49_of m ρ c main_arg13 (by decide)).trans <| (W48_of m ρ c main_arg13 (by decide)).trans <| (W47_of m ρ c main_arg13 (by decide)).trans <| (W46_of m ρ c main_arg13 (by decide)).trans <| (W45_of m ρ c main_arg13 (by decide)).trans <| (W44_of m ρ c main_arg13 (by decide)).trans <| (W43_of m ρ c main_arg13 (by decide)).trans <| (W42_of m ρ c main_arg13 (by decide)).trans <| (W41_of m ρ c main_arg13 (by decide)).trans <| (W40_of m ρ c main_arg13 (by decide)).trans <| (W39_of m ρ c main_arg13 (by decide)).trans <| (W38_of m ρ c main_arg13 (by decide)).trans <| (W37_of m ρ c main_arg13 (by decide)).trans <| (W36_of m ρ c main_arg13 (by decide)).trans <| (W35_of m ρ c main_arg13 (by decide)).trans <| (W34_of m ρ c main_arg13 (by decide)).trans <| (W33_of m ρ c main_arg13 (by decide)).trans <| (W32_of m ρ c main_arg13 (by decide)).trans <| (W31_of m ρ c main_arg13 (by decide)).trans <| (W30_of m ρ c main_arg13 (by decide)).trans <| (W29_of m ρ c main_arg13 (by decide)).trans <| (W28_of m ρ c main_arg13 (by decide)).trans <| (W27_of m ρ c main_arg13 (by decide)).trans <| (W26_of m ρ c main_arg13 (by decide)).trans <| (W25_of m ρ c main_arg13 (by decide)).trans <| (W24_of m ρ c main_arg13 (by decide)).trans <| (W23_of m ρ c main_arg13 (by decide)).trans <| (W22_of m ρ c main_arg13 (by decide)).trans <| (W21_of m ρ c main_arg13 (by decide)).trans <| (W20_of m ρ c main_arg13 (by decide)).trans <| (W19_of m ρ c main_arg13 (by decide)).trans <| (W18_of m ρ c main_arg13 (by decide)).trans <| (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans <| rfl
theorem W49_main_arg14 (c : Dev nD) : W49 m ρ c main_arg14 = m ((c : Thread nD τ).loc main_arg14) :=
  (W49_of m ρ c main_arg14 (by decide)).trans <| (W48_of m ρ c main_arg14 (by decide)).trans <| (W47_of m ρ c main_arg14 (by decide)).trans <| (W46_of m ρ c main_arg14 (by decide)).trans <| (W45_of m ρ c main_arg14 (by decide)).trans <| (W44_of m ρ c main_arg14 (by decide)).trans <| (W43_of m ρ c main_arg14 (by decide)).trans <| (W42_of m ρ c main_arg14 (by decide)).trans <| (W41_of m ρ c main_arg14 (by decide)).trans <| (W40_of m ρ c main_arg14 (by decide)).trans <| (W39_of m ρ c main_arg14 (by decide)).trans <| (W38_of m ρ c main_arg14 (by decide)).trans <| (W37_of m ρ c main_arg14 (by decide)).trans <| (W36_of m ρ c main_arg14 (by decide)).trans <| (W35_of m ρ c main_arg14 (by decide)).trans <| (W34_of m ρ c main_arg14 (by decide)).trans <| (W33_of m ρ c main_arg14 (by decide)).trans <| (W32_of m ρ c main_arg14 (by decide)).trans <| (W31_of m ρ c main_arg14 (by decide)).trans <| (W30_of m ρ c main_arg14 (by decide)).trans <| (W29_of m ρ c main_arg14 (by decide)).trans <| (W28_of m ρ c main_arg14 (by decide)).trans <| (W27_of m ρ c main_arg14 (by decide)).trans <| (W26_of m ρ c main_arg14 (by decide)).trans <| (W25_of m ρ c main_arg14 (by decide)).trans <| (W24_of m ρ c main_arg14 (by decide)).trans <| (W23_of m ρ c main_arg14 (by decide)).trans <| (W22_of m ρ c main_arg14 (by decide)).trans <| (W21_of m ρ c main_arg14 (by decide)).trans <| (W20_of m ρ c main_arg14 (by decide)).trans <| (W19_of m ρ c main_arg14 (by decide)).trans <| (W18_of m ρ c main_arg14 (by decide)).trans <| (W17_of m ρ c main_arg14 (by decide)).trans <| (W16_of m ρ c main_arg14 (by decide)).trans <| (W15_of m ρ c main_arg14 (by decide)).trans <| (W14_of m ρ c main_arg14 (by decide)).trans <| (W13_of m ρ c main_arg14 (by decide)).trans <| (W12_of m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans <| rfl
theorem W49_main_arg15 (c : Dev nD) : W49 m ρ c main_arg15 = m ((c : Thread nD τ).loc main_arg15) :=
  (W49_of m ρ c main_arg15 (by decide)).trans <| (W48_of m ρ c main_arg15 (by decide)).trans <| (W47_of m ρ c main_arg15 (by decide)).trans <| (W46_of m ρ c main_arg15 (by decide)).trans <| (W45_of m ρ c main_arg15 (by decide)).trans <| (W44_of m ρ c main_arg15 (by decide)).trans <| (W43_of m ρ c main_arg15 (by decide)).trans <| (W42_of m ρ c main_arg15 (by decide)).trans <| (W41_of m ρ c main_arg15 (by decide)).trans <| (W40_of m ρ c main_arg15 (by decide)).trans <| (W39_of m ρ c main_arg15 (by decide)).trans <| (W38_of m ρ c main_arg15 (by decide)).trans <| (W37_of m ρ c main_arg15 (by decide)).trans <| (W36_of m ρ c main_arg15 (by decide)).trans <| (W35_of m ρ c main_arg15 (by decide)).trans <| (W34_of m ρ c main_arg15 (by decide)).trans <| (W33_of m ρ c main_arg15 (by decide)).trans <| (W32_of m ρ c main_arg15 (by decide)).trans <| (W31_of m ρ c main_arg15 (by decide)).trans <| (W30_of m ρ c main_arg15 (by decide)).trans <| (W29_of m ρ c main_arg15 (by decide)).trans <| (W28_of m ρ c main_arg15 (by decide)).trans <| (W27_of m ρ c main_arg15 (by decide)).trans <| (W26_of m ρ c main_arg15 (by decide)).trans <| (W25_of m ρ c main_arg15 (by decide)).trans <| (W24_of m ρ c main_arg15 (by decide)).trans <| (W23_of m ρ c main_arg15 (by decide)).trans <| (W22_of m ρ c main_arg15 (by decide)).trans <| (W21_of m ρ c main_arg15 (by decide)).trans <| (W20_of m ρ c main_arg15 (by decide)).trans <| (W19_of m ρ c main_arg15 (by decide)).trans <| (W18_of m ρ c main_arg15 (by decide)).trans <| (W17_of m ρ c main_arg15 (by decide)).trans <| (W16_of m ρ c main_arg15 (by decide)).trans <| (W15_of m ρ c main_arg15 (by decide)).trans <| (W14_of m ρ c main_arg15 (by decide)).trans <| (W13_of m ρ c main_arg15 (by decide)).trans <| (W12_of m ρ c main_arg15 (by decide)).trans <| (W11_of m ρ c main_arg15 (by decide)).trans <| (W10_of m ρ c main_arg15 (by decide)).trans <| (W9_of m ρ c main_arg15 (by decide)).trans <| (W8_of m ρ c main_arg15 (by decide)).trans <| (W7_of m ρ c main_arg15 (by decide)).trans <| (W6_of m ρ c main_arg15 (by decide)).trans <| (W5_of m ρ c main_arg15 (by decide)).trans <| (W4_of m ρ c main_arg15 (by decide)).trans <| (W3_of m ρ c main_arg15 (by decide)).trans <| (W2_of m ρ c main_arg15 (by decide)).trans <| (W1_of m ρ c main_arg15 (by decide)).trans <| rfl
theorem W49_main_arg16 (c : Dev nD) : W49 m ρ c main_arg16 = m ((c : Thread nD τ).loc main_arg16) :=
  (W49_of m ρ c main_arg16 (by decide)).trans <| (W48_of m ρ c main_arg16 (by decide)).trans <| (W47_of m ρ c main_arg16 (by decide)).trans <| (W46_of m ρ c main_arg16 (by decide)).trans <| (W45_of m ρ c main_arg16 (by decide)).trans <| (W44_of m ρ c main_arg16 (by decide)).trans <| (W43_of m ρ c main_arg16 (by decide)).trans <| (W42_of m ρ c main_arg16 (by decide)).trans <| (W41_of m ρ c main_arg16 (by decide)).trans <| (W40_of m ρ c main_arg16 (by decide)).trans <| (W39_of m ρ c main_arg16 (by decide)).trans <| (W38_of m ρ c main_arg16 (by decide)).trans <| (W37_of m ρ c main_arg16 (by decide)).trans <| (W36_of m ρ c main_arg16 (by decide)).trans <| (W35_of m ρ c main_arg16 (by decide)).trans <| (W34_of m ρ c main_arg16 (by decide)).trans <| (W33_of m ρ c main_arg16 (by decide)).trans <| (W32_of m ρ c main_arg16 (by decide)).trans <| (W31_of m ρ c main_arg16 (by decide)).trans <| (W30_of m ρ c main_arg16 (by decide)).trans <| (W29_of m ρ c main_arg16 (by decide)).trans <| (W28_of m ρ c main_arg16 (by decide)).trans <| (W27_of m ρ c main_arg16 (by decide)).trans <| (W26_of m ρ c main_arg16 (by decide)).trans <| (W25_of m ρ c main_arg16 (by decide)).trans <| (W24_of m ρ c main_arg16 (by decide)).trans <| (W23_of m ρ c main_arg16 (by decide)).trans <| (W22_of m ρ c main_arg16 (by decide)).trans <| (W21_of m ρ c main_arg16 (by decide)).trans <| (W20_of m ρ c main_arg16 (by decide)).trans <| (W19_of m ρ c main_arg16 (by decide)).trans <| (W18_of m ρ c main_arg16 (by decide)).trans <| (W17_of m ρ c main_arg16 (by decide)).trans <| (W16_of m ρ c main_arg16 (by decide)).trans <| (W15_of m ρ c main_arg16 (by decide)).trans <| (W14_of m ρ c main_arg16 (by decide)).trans <| (W13_of m ρ c main_arg16 (by decide)).trans <| (W12_of m ρ c main_arg16 (by decide)).trans <| (W11_of m ρ c main_arg16 (by decide)).trans <| (W10_of m ρ c main_arg16 (by decide)).trans <| (W9_of m ρ c main_arg16 (by decide)).trans <| (W8_of m ρ c main_arg16 (by decide)).trans <| (W7_of m ρ c main_arg16 (by decide)).trans <| (W6_of m ρ c main_arg16 (by decide)).trans <| (W5_of m ρ c main_arg16 (by decide)).trans <| (W4_of m ρ c main_arg16 (by decide)).trans <| (W3_of m ρ c main_arg16 (by decide)).trans <| (W2_of m ρ c main_arg16 (by decide)).trans <| (W1_of m ρ c main_arg16 (by decide)).trans <| rfl
theorem W49_main_arg17 (c : Dev nD) : W49 m ρ c main_arg17 = m ((c : Thread nD τ).loc main_arg17) :=
  (W49_of m ρ c main_arg17 (by decide)).trans <| (W48_of m ρ c main_arg17 (by decide)).trans <| (W47_of m ρ c main_arg17 (by decide)).trans <| (W46_of m ρ c main_arg17 (by decide)).trans <| (W45_of m ρ c main_arg17 (by decide)).trans <| (W44_of m ρ c main_arg17 (by decide)).trans <| (W43_of m ρ c main_arg17 (by decide)).trans <| (W42_of m ρ c main_arg17 (by decide)).trans <| (W41_of m ρ c main_arg17 (by decide)).trans <| (W40_of m ρ c main_arg17 (by decide)).trans <| (W39_of m ρ c main_arg17 (by decide)).trans <| (W38_of m ρ c main_arg17 (by decide)).trans <| (W37_of m ρ c main_arg17 (by decide)).trans <| (W36_of m ρ c main_arg17 (by decide)).trans <| (W35_of m ρ c main_arg17 (by decide)).trans <| (W34_of m ρ c main_arg17 (by decide)).trans <| (W33_of m ρ c main_arg17 (by decide)).trans <| (W32_of m ρ c main_arg17 (by decide)).trans <| (W31_of m ρ c main_arg17 (by decide)).trans <| (W30_of m ρ c main_arg17 (by decide)).trans <| (W29_of m ρ c main_arg17 (by decide)).trans <| (W28_of m ρ c main_arg17 (by decide)).trans <| (W27_of m ρ c main_arg17 (by decide)).trans <| (W26_of m ρ c main_arg17 (by decide)).trans <| (W25_of m ρ c main_arg17 (by decide)).trans <| (W24_of m ρ c main_arg17 (by decide)).trans <| (W23_of m ρ c main_arg17 (by decide)).trans <| (W22_of m ρ c main_arg17 (by decide)).trans <| (W21_of m ρ c main_arg17 (by decide)).trans <| (W20_of m ρ c main_arg17 (by decide)).trans <| (W19_of m ρ c main_arg17 (by decide)).trans <| (W18_of m ρ c main_arg17 (by decide)).trans <| (W17_of m ρ c main_arg17 (by decide)).trans <| (W16_of m ρ c main_arg17 (by decide)).trans <| (W15_of m ρ c main_arg17 (by decide)).trans <| (W14_of m ρ c main_arg17 (by decide)).trans <| (W13_of m ρ c main_arg17 (by decide)).trans <| (W12_of m ρ c main_arg17 (by decide)).trans <| (W11_of m ρ c main_arg17 (by decide)).trans <| (W10_of m ρ c main_arg17 (by decide)).trans <| (W9_of m ρ c main_arg17 (by decide)).trans <| (W8_of m ρ c main_arg17 (by decide)).trans <| (W7_of m ρ c main_arg17 (by decide)).trans <| (W6_of m ρ c main_arg17 (by decide)).trans <| (W5_of m ρ c main_arg17 (by decide)).trans <| (W4_of m ρ c main_arg17 (by decide)).trans <| (W3_of m ρ c main_arg17 (by decide)).trans <| (W2_of m ρ c main_arg17 (by decide)).trans <| (W1_of m ρ c main_arg17 (by decide)).trans <| rfl

end Cert.KernelIdeal.Fr

end
-- ==== Proof.KI.Seg0.lean ====
/-
  Kernel region 0 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) fadm (fdats m ρ) () defs₀ 𝒱f Lf lvf 0 where
  win := launch0.win.to₀
  block_pos := launch0.block_pos
  stage_whole := launch0.stage_whole
  K := PEmpty
  osem k := k.elim
  ho := Pipeline.OwnSemFacts.none _
  hbody c := (body_obligation0 (U9 m ρ) c).loose
  hwaits := Pipeline.hwaits_of_owed_zero _ _ _ _ Lf lvf 0 fun _ _ => rfl
  pre c := iprop(StableHlo.held (c : Thread nD τ) (Pipeline.ucRefs τ sig) (W9 m ρ c) ∗ Rf c)
  post c := iprop(StableHlo.held (c : Thread nD τ) (Pipeline.ucRefs τ sig) (W10 m ρ c) ∗ Rf c)
  X c := iprop(∃ r, prngReg c r)
  Y c := iprop(∃ r, prngReg c r)
  Z c := Pipeline.unscopedRest (Ix := Unit) (Name := ℕ) (U := UR sig nD τ) (Lvl := ℕ) spec0 c (U9 m ρ c)
  hentry c := by
    rw [Pipeline.ownSems0_none]
    have hsplit := Pipeline.arrays_of_unscopedBufs (p := 0) (pcfgs (F := F)) fadm (fdats m ρ) launch0.win launch0.arr_whole c
      ((fdats m ρ 0 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (fdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) fadm (Ix := Unit) (Name := ℕ) (U := UR sig nD τ) (Lvl := ℕ)
      launch0.win launch0.arr_whole c (fdats m ρ) ((fdats m ρ 0 c).share_full fun _ => rfl)
      (U9 m ρ c) (U10 m ρ c) ((fdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg1.lean ====
/-
  Kernel region 1 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) fadm (fdats m ρ) () defs₀ 𝒱f Lf lvf 1 where
  win := launch1.win.to₀
  block_pos := launch1.block_pos
  stage_whole := launch1.stage_whole
  K := PEmpty
  osem k := k.elim
  ho := Pipeline.OwnSemFacts.none _
  hbody c := (body_obligation1 (U11 m ρ) c).loose
  hwaits := Pipeline.hwaits_of_owed_zero _ _ _ _ Lf lvf 1 fun _ _ => rfl
  pre c := iprop(StableHlo.held (c : Thread nD τ) (Pipeline.ucRefs τ sig) (W11 m ρ c) ∗ Rf c)
  post c := iprop(StableHlo.held (c : Thread nD τ) (Pipeline.ucRefs τ sig) (W12 m ρ c) ∗ Rf c)
  X c := iprop(∃ r, prngReg c r)
  Y c := iprop(∃ r, prngReg c r)
  Z c := Pipeline.unscopedRest (Ix := Unit) (Name := ℕ) (U := UR sig nD τ) (Lvl := ℕ) spec1 c (U11 m ρ c)
  hentry c := by
    rw [Pipeline.ownSems0_none]
    have hsplit := Pipeline.arrays_of_unscopedBufs (p := 1) (pcfgs (F := F)) fadm (fdats m ρ) launch1.win launch1.arr_whole c
      ((fdats m ρ 1 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (fdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) fadm (Ix := Unit) (Name := ℕ) (U := UR sig nD τ) (Lvl := ℕ)
      launch1.win launch1.arr_whole c (fdats m ρ) ((fdats m ρ 1 c).share_full fun _ => rfl)
      (U11 m ρ c) (U12 m ρ c) ((fdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg2.lean ====
/-
  Kernel region 2 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) fadm (fdats m ρ) () defs₀ 𝒱f Lf lvf 2 where
  win := launch2.win.to₀
  block_pos := launch2.block_pos
  stage_whole := launch2.stage_whole
  K := PEmpty
  osem k := k.elim
  ho := Pipeline.OwnSemFacts.none _
  hbody c := (body_obligation2 (U13 m ρ) c).loose
  hwaits := Pipeline.hwaits_of_owed_zero _ _ _ _ Lf lvf 2 fun _ _ => rfl
  pre c := iprop(StableHlo.held (c : Thread nD τ) (Pipeline.ucRefs τ sig) (W13 m ρ c) ∗ Rf c)
  post c := iprop(StableHlo.held (c : Thread nD τ) (Pipeline.ucRefs τ sig) (W14 m ρ c) ∗ Rf c)
  X c := iprop(∃ r, prngReg c r)
  Y c := iprop(∃ r, prngReg c r)
  Z c := Pipeline.unscopedRest (Ix := Unit) (Name := ℕ) (U := UR sig nD τ) (Lvl := ℕ) spec2 c (U13 m ρ c)
  hentry c := by
    rw [Pipeline.ownSems0_none]
    have hsplit := Pipeline.arrays_of_unscopedBufs (p := 2) (pcfgs (F := F)) fadm (fdats m ρ) launch2.win launch2.arr_whole c
      ((fdats m ρ 2 c).share_full fun _ => rfl) (U13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (fdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) fadm (Ix := Unit) (Name := ℕ) (U := UR sig nD τ) (Lvl := ℕ)
      launch2.win launch2.arr_whole c (fdats m ρ) ((fdats m ρ 2 c).share_full fun _ => rfl)
      (U13 m ρ c) (U14 m ρ c) ((fdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg3.lean ====
/-
  Kernel region 3 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) fadm (fdats m ρ) () defs₀ 𝒱f Lf lvf 3 where
  win := launch3.win.to₀
  block_pos := launch3.block_pos
  stage_whole := launch3.stage_whole
  K := PEmpty
  osem k := k.elim
  ho := Pipeline.OwnSemFacts.none _
  hbody c := (body_obligation3 (U15 m ρ) c).loose
  hwaits := Pipeline.hwaits_of_owed_zero _ _ _ _ Lf lvf 3 fun _ _ => rfl
  pre c := iprop(StableHlo.held (c : Thread nD τ) (Pipeline.ucRefs τ sig) (W15 m ρ c) ∗ Rf c)
  post c := iprop(StableHlo.held (c : Thread nD τ) (Pipeline.ucRefs τ sig) (W16 m ρ c) ∗ Rf c)
  X c := iprop(∃ r, prngReg c r)
  Y c := iprop(∃ r, prngReg c r)
  Z c := Pipeline.unscopedRest (Ix := Unit) (Name := ℕ) (U := UR sig nD τ) (Lvl := ℕ) spec3 c (U15 m ρ c)
  hentry c := by
    rw [Pipeline.ownSems0_none]
    have hsplit := Pipeline.arrays_of_unscopedBufs (p := 3) (pcfgs (F := F)) fadm (fdats m ρ) launch3.win launch3.arr_whole c
      ((fdats m ρ 3 c).share_full fun _ => rfl) (U15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (fdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) fadm (Ix := Unit) (Name := ℕ) (U := UR sig nD τ) (Lvl := ℕ)
      launch3.win launch3.arr_whole c (fdats m ρ) ((fdats m ρ 3 c).share_full fun _ => rfl)
      (U15 m ρ c) (U16 m ρ c) ((fdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg4.lean ====
/-
  Kernel region 4 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) fadm (fdats m ρ) () defs₀ 𝒱f Lf lvf 4 where
  win := launch4.win.to₀
  block_pos := launch4.block_pos
  stage_whole := launch4.stage_whole
  K := PEmpty
  osem k := k.elim
  ho := Pipeline.OwnSemFacts.none _
  hbody c := (body_obligation4 (U25 m ρ) c).loose
  hwaits := Pipeline.hwaits_of_owed_zero _ _ _ _ Lf lvf 4 fun _ _ => rfl
  pre c := iprop(StableHlo.held (c : Thread nD τ) (Pipeline.ucRefs τ sig) (W25 m ρ c) ∗ Rf c)
  post c := iprop(StableHlo.held (c : Thread nD τ) (Pipeline.ucRefs τ sig) (W26 m ρ c) ∗ Rf c)
  X c := iprop(∃ r, prngReg c r)
  Y c := iprop(∃ r, prngReg c r)
  Z c := Pipeline.unscopedRest (Ix := Unit) (Name := ℕ) (U := UR sig nD τ) (Lvl := ℕ) spec4 c (U25 m ρ c)
  hentry c := by
    rw [Pipeline.ownSems0_none]
    have hsplit := Pipeline.arrays_of_unscopedBufs (p := 4) (pcfgs (F := F)) fadm (fdats m ρ) launch4.win launch4.arr_whole c
      ((fdats m ρ 4 c).share_full fun _ => rfl) (U25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (fdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) fadm (Ix := Unit) (Name := ℕ) (U := UR sig nD τ) (Lvl := ℕ)
      launch4.win launch4.arr_whole c (fdats m ρ) ((fdats m ρ 4 c).share_full fun _ => rfl)
      (U25 m ρ c) (U26 m ρ c) ((fdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg5.lean ====
/-
  Kernel region 5 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) fadm (fdats m ρ) () defs₀ 𝒱f Lf lvf 5 where
  win := launch5.win.to₀
  block_pos := launch5.block_pos
  stage_whole := launch5.stage_whole
  K := PEmpty
  osem k := k.elim
  ho := Pipeline.OwnSemFacts.none _
  hbody c := (body_obligation5 (U27 m ρ) c).loose
  hwaits := Pipeline.hwaits_of_owed_zero _ _ _ _ Lf lvf 5 fun _ _ => rfl
  pre c := iprop(StableHlo.held (c : Thread nD τ) (Pipeline.ucRefs τ sig) (W27 m ρ c) ∗ Rf c)
  post c := iprop(StableHlo.held (c : Thread nD τ) (Pipeline.ucRefs τ sig) (W28 m ρ c) ∗ Rf c)
  X c := iprop(∃ r, prngReg c r)
  Y c := iprop(∃ r, prngReg c r)
  Z c := Pipeline.unscopedRest (Ix := Unit) (Name := ℕ) (U := UR sig nD τ) (Lvl := ℕ) spec5 c (U27 m ρ c)
  hentry c := by
    rw [Pipeline.ownSems0_none]
    have hsplit := Pipeline.arrays_of_unscopedBufs (p := 5) (pcfgs (F := F)) fadm (fdats m ρ) launch5.win launch5.arr_whole c
      ((fdats m ρ 5 c).share_full fun _ => rfl) (U27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (fdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) fadm (Ix := Unit) (Name := ℕ) (U := UR sig nD τ) (Lvl := ℕ)
      launch5.win launch5.arr_whole c (fdats m ρ) ((fdats m ρ 5 c).share_full fun _ => rfl)
      (U27 m ρ c) (U28 m ρ c) ((fdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg6.lean ====
/-
  Kernel region 6 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) fadm (fdats m ρ) () defs₀ 𝒱f Lf lvf 6 where
  win := launch6.win.to₀
  block_pos := launch6.block_pos
  stage_whole := launch6.stage_whole
  K := PEmpty
  osem k := k.elim
  ho := Pipeline.OwnSemFacts.none _
  hbody c := (body_obligation6 (U29 m ρ) c).loose
  hwaits := Pipeline.hwaits_of_owed_zero _ _ _ _ Lf lvf 6 fun _ _ => rfl
  pre c := iprop(StableHlo.held (c : Thread nD τ) (Pipeline.ucRefs τ sig) (W29 m ρ c) ∗ Rf c)
  post c := iprop(StableHlo.held (c : Thread nD τ) (Pipeline.ucRefs τ sig) (W30 m ρ c) ∗ Rf c)
  X c := iprop(∃ r, prngReg c r)
  Y c := iprop(∃ r, prngReg c r)
  Z c := Pipeline.unscopedRest (Ix := Unit) (Name := ℕ) (U := UR sig nD τ) (Lvl := ℕ) spec6 c (U29 m ρ c)
  hentry c := by
    rw [Pipeline.ownSems0_none]
    have hsplit := Pipeline.arrays_of_unscopedBufs (p := 6) (pcfgs (F := F)) fadm (fdats m ρ) launch6.win launch6.arr_whole c
      ((fdats m ρ 6 c).share_full fun _ => rfl) (U29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (fdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) fadm (Ix := Unit) (Name := ℕ) (U := UR sig nD τ) (Lvl := ℕ)
      launch6.win launch6.arr_whole c (fdats m ρ) ((fdats m ρ 6 c).share_full fun _ => rfl)
      (U29 m ρ c) (U30 m ρ c) ((fdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg7.lean ====
/-
  Kernel region 7 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) fadm (fdats m ρ) () defs₀ 𝒱f Lf lvf 7 where
  win := launch7.win.to₀
  block_pos := launch7.block_pos
  stage_whole := launch7.stage_whole
  K := PEmpty
  osem k := k.elim
  ho := Pipeline.OwnSemFacts.none _
  hbody c := (body_obligation7 (U31 m ρ) c).loose
  hwaits := Pipeline.hwaits_of_owed_zero _ _ _ _ Lf lvf 7 fun _ _ => rfl
  pre c := iprop(StableHlo.held (c : Thread nD τ) (Pipeline.ucRefs τ sig) (W31 m ρ c) ∗ Rf c)
  post c := iprop(StableHlo.held (c : Thread nD τ) (Pipeline.ucRefs τ sig) (W32 m ρ c) ∗ Rf c)
  X c := iprop(∃ r, prngReg c r)
  Y c := iprop(∃ r, prngReg c r)
  Z c := Pipeline.unscopedRest (Ix := Unit) (Name := ℕ) (U := UR sig nD τ) (Lvl := ℕ) spec7 c (U31 m ρ c)
  hentry c := by
    rw [Pipeline.ownSems0_none]
    have hsplit := Pipeline.arrays_of_unscopedBufs (p := 7) (pcfgs (F := F)) fadm (fdats m ρ) launch7.win launch7.arr_whole c
      ((fdats m ρ 7 c).share_full fun _ => rfl) (U31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (fdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) fadm (Ix := Unit) (Name := ℕ) (U := UR sig nD τ) (Lvl := ℕ)
      launch7.win launch7.arr_whole c (fdats m ρ) ((fdats m ρ 7 c).share_full fun _ => rfl)
      (U31 m ρ c) (U32 m ρ c) ((fdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg8.lean ====
/-
  Kernel region 8 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg8 : Pipeline.RegionSeg (pcfgs (F := F)) fadm (fdats m ρ) () defs₀ 𝒱f Lf lvf 8 where
  win := launch8.win.to₀
  block_pos := launch8.block_pos
  stage_whole := launch8.stage_whole
  K := PEmpty
  osem k := k.elim
  ho := Pipeline.OwnSemFacts.none _
  hbody c := (body_obligation8 (U41 m ρ) c).loose
  hwaits := Pipeline.hwaits_of_owed_zero _ _ _ _ Lf lvf 8 fun _ _ => rfl
  pre c := iprop(StableHlo.held (c : Thread nD τ) (Pipeline.ucRefs τ sig) (W41 m ρ c) ∗ Rf c)
  post c := iprop(StableHlo.held (c : Thread nD τ) (Pipeline.ucRefs τ sig) (W42 m ρ c) ∗ Rf c)
  X c := iprop(∃ r, prngReg c r)
  Y c := iprop(∃ r, prngReg c r)
  Z c := Pipeline.unscopedRest (Ix := Unit) (Name := ℕ) (U := UR sig nD τ) (Lvl := ℕ) spec8 c (U41 m ρ c)
  hentry c := by
    rw [Pipeline.ownSems0_none]
    have hsplit := Pipeline.arrays_of_unscopedBufs (p := 8) (pcfgs (F := F)) fadm (fdats m ρ) launch8.win launch8.arr_whole c
      ((fdats m ρ 8 c).share_full fun _ => rfl) (U41 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (fdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) fadm (Ix := Unit) (Name := ℕ) (U := UR sig nD τ) (Lvl := ℕ)
      launch8.win launch8.arr_whole c (fdats m ρ) ((fdats m ρ 8 c).share_full fun _ => rfl)
      (U41 m ρ c) (U42 m ρ c) ((fdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg9.lean ====
/-
  Kernel region 9 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg9 : Pipeline.RegionSeg (pcfgs (F := F)) fadm (fdats m ρ) () defs₀ 𝒱f Lf lvf 9 where
  win := launch9.win.to₀
  block_pos := launch9.block_pos
  stage_whole := launch9.stage_whole
  K := PEmpty
  osem k := k.elim
  ho := Pipeline.OwnSemFacts.none _
  hbody c := (body_obligation9 (U43 m ρ) c).loose
  hwaits := Pipeline.hwaits_of_owed_zero _ _ _ _ Lf lvf 9 fun _ _ => rfl
  pre c := iprop(StableHlo.held (c : Thread nD τ) (Pipeline.ucRefs τ sig) (W43 m ρ c) ∗ Rf c)
  post c := iprop(StableHlo.held (c : Thread nD τ) (Pipeline.ucRefs τ sig) (W44 m ρ c) ∗ Rf c)
  X c := iprop(∃ r, prngReg c r)
  Y c := iprop(∃ r, prngReg c r)
  Z c := Pipeline.unscopedRest (Ix := Unit) (Name := ℕ) (U := UR sig nD τ) (Lvl := ℕ) spec9 c (U43 m ρ c)
  hentry c := by
    rw [Pipeline.ownSems0_none]
    have hsplit := Pipeline.arrays_of_unscopedBufs (p := 9) (pcfgs (F := F)) fadm (fdats m ρ) launch9.win launch9.arr_whole c
      ((fdats m ρ 9 c).share_full fun _ => rfl) (U43 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (fdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) fadm (Ix := Unit) (Name := ℕ) (U := UR sig nD τ) (Lvl := ℕ)
      launch9.win launch9.arr_whole c (fdats m ρ) ((fdats m ρ 9 c).share_full fun _ => rfl)
      (U43 m ρ c) (U44 m ρ c) ((fdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg10.lean ====
/-
  Kernel region 10 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg10 : Pipeline.RegionSeg (pcfgs (F := F)) fadm (fdats m ρ) () defs₀ 𝒱f Lf lvf 10 where
  win := launch10.win.to₀
  block_pos := launch10.block_pos
  stage_whole := launch10.stage_whole
  K := PEmpty
  osem k := k.elim
  ho := Pipeline.OwnSemFacts.none _
  hbody c := (body_obligation10 (U45 m ρ) c).loose
  hwaits := Pipeline.hwaits_of_owed_zero _ _ _ _ Lf lvf 10 fun _ _ => rfl
  pre c := iprop(StableHlo.held (c : Thread nD τ) (Pipeline.ucRefs τ sig) (W45 m ρ c) ∗ Rf c)
  post c := iprop(StableHlo.held (c : Thread nD τ) (Pipeline.ucRefs τ sig) (W46 m ρ c) ∗ Rf c)
  X c := iprop(∃ r, prngReg c r)
  Y c := iprop(∃ r, prngReg c r)
  Z c := Pipeline.unscopedRest (Ix := Unit) (Name := ℕ) (U := UR sig nD τ) (Lvl := ℕ) spec10 c (U45 m ρ c)
  hentry c := by
    rw [Pipeline.ownSems0_none]
    have hsplit := Pipeline.arrays_of_unscopedBufs (p := 10) (pcfgs (F := F)) fadm (fdats m ρ) launch10.win launch10.arr_whole c
      ((fdats m ρ 10 c).share_full fun _ => rfl) (U45 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (fdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) fadm (Ix := Unit) (Name := ℕ) (U := UR sig nD τ) (Lvl := ℕ)
      launch10.win launch10.arr_whole c (fdats m ρ) ((fdats m ρ 10 c).share_full fun _ => rfl)
      (U45 m ρ c) (U46 m ρ c) ((fdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg11.lean ====
/-
  Kernel region 11 as a segment of the main function's run over the thread state "every unscoped buffer at the
  boundary's contents, the generator register at some state, nothing owed": entered from the contents before it, left at
  the contents after it.  Its arrays are split out of the unscoped buffers at the entry and put back at the exit.
-/
import proofs.«171333_j58007828300388_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg11 : Pipeline.RegionSeg (pcfgs (F := F)) fadm (fdats m ρ) () defs₀ 𝒱f Lf lvf 11 where
  win := launch11.win.to₀
  block_pos := launch11.block_pos
  stage_whole := launch11.stage_whole
  K := PEmpty
  osem k := k.elim
  ho := Pipeline.OwnSemFacts.none _
  hbody c := (body_obligation11 (U47 m ρ) c).loose
  hwaits := Pipeline.hwaits_of_owed_zero _ _ _ _ Lf lvf 11 fun _ _ => rfl
  pre c := iprop(StableHlo.held (c : Thread nD τ) (Pipeline.ucRefs τ sig) (W47 m ρ c) ∗ Rf c)
  post c := iprop(StableHlo.held (c : Thread nD τ) (Pipeline.ucRefs τ sig) (W48 m ρ c) ∗ Rf c)
  X c := iprop(∃ r, prngReg c r)
  Y c := iprop(∃ r, prngReg c r)
  Z c := Pipeline.unscopedRest (Ix := Unit) (Name := ℕ) (U := UR sig nD τ) (Lvl := ℕ) spec11 c (U47 m ρ c)
  hentry c := by
    rw [Pipeline.ownSems0_none]
    have hsplit := Pipeline.arrays_of_unscopedBufs (p := 11) (pcfgs (F := F)) fadm (fdats m ρ) launch11.win launch11.arr_whole c
      ((fdats m ρ 11 c).share_full fun _ => rfl) (U47 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (fdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) fadm (Ix := Unit) (Name := ℕ) (U := UR sig nD τ) (Lvl := ℕ)
      launch11.win launch11.arr_whole c (fdats m ρ) ((fdats m ρ 11 c).share_full fun _ => rfl)
      (U47 m ρ c) (U48 m ρ c) ((fdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Run.lean ====
/-
  The whole run of the program's main function: its forty-nine items — stretches of host operations and the twelve
  kernel regions — chained over the thread state, from the launch memory to the last boundary's contents.  The
  conclusion: every weakly fair execution terminates without a fault, and at the end every unscoped buffer of
  every core holds the last boundary's contents.
-/
import proofs.«171333_j58007828300388_1_alg».proof.Proof.KI.Seg0
import proofs.«171333_j58007828300388_1_alg».proof.Proof.KI.Seg1
import proofs.«171333_j58007828300388_1_alg».proof.Proof.KI.Seg2
import proofs.«171333_j58007828300388_1_alg».proof.Proof.KI.Seg3
import proofs.«171333_j58007828300388_1_alg».proof.Proof.KI.Seg4
import proofs.«171333_j58007828300388_1_alg».proof.Proof.KI.Seg5
import proofs.«171333_j58007828300388_1_alg».proof.Proof.KI.Seg6
import proofs.«171333_j58007828300388_1_alg».proof.Proof.KI.Seg7
import proofs.«171333_j58007828300388_1_alg».proof.Proof.KI.Seg8
import proofs.«171333_j58007828300388_1_alg».proof.Proof.KI.Seg9
import proofs.«171333_j58007828300388_1_alg».proof.Proof.KI.Seg10
import proofs.«171333_j58007828300388_1_alg».proof.Proof.KI.Seg11

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The main function's items in order: a host segment per stretch from its boundary's contents, a region per launch. -/
abbrev fsegs : List (Pipeline.Seg (pcfgs (F := F)) fadm (fdats m ρ) () defs₀ 𝒱f Lf lvf) :=
  [
    .host (hsegf hostOps0 hostOps0_sub hostOps0_fresh (W0 m ρ)),
    .host (hsegf hostOps0_1 hostOps0_1_sub hostOps0_1_fresh (W1 m ρ)),
    .host (hsegf hostOps0_2 hostOps0_2_sub hostOps0_2_fresh (W2 m ρ)),
    .host (hsegf hostOps0_3 hostOps0_3_sub hostOps0_3_fresh (W3 m ρ)),
    .host (hsegf hostOps0_4 hostOps0_4_sub hostOps0_4_fresh (W4 m ρ)),
    .host (hsegf hostOps0_5 hostOps0_5_sub hostOps0_5_fresh (W5 m ρ)),
    .host (hsegf hostOps0_6 hostOps0_6_sub hostOps0_6_fresh (W6 m ρ)),
    .host (hsegf hostOps0_7 hostOps0_7_sub hostOps0_7_fresh (W7 m ρ)),
    .host (hsegf hostOps0_8 hostOps0_8_sub hostOps0_8_fresh (W8 m ρ)),
    .region (reg0 m ρ),
    .host (hsegf hostOps1 hostOps1_sub hostOps1_fresh (W10 m ρ)),
    .region (reg1 m ρ),
    .host (hsegf hostOps2 hostOps2_sub hostOps2_fresh (W12 m ρ)),
    .region (reg2 m ρ),
    .host (hsegf hostOps3 hostOps3_sub hostOps3_fresh (W14 m ρ)),
    .region (reg3 m ρ),
    .host (hsegf hostOps4 hostOps4_sub hostOps4_fresh (W16 m ρ)),
    .host (hsegf hostOps4_1 hostOps4_1_sub hostOps4_1_fresh (W17 m ρ)),
    .host (hsegf hostOps4_2 hostOps4_2_sub hostOps4_2_fresh (W18 m ρ)),
    .host (hsegf hostOps4_3 hostOps4_3_sub hostOps4_3_fresh (W19 m ρ)),
    .host (hsegf hostOps4_4 hostOps4_4_sub hostOps4_4_fresh (W20 m ρ)),
    .host (hsegf hostOps4_5 hostOps4_5_sub hostOps4_5_fresh (W21 m ρ)),
    .host (hsegf hostOps4_6 hostOps4_6_sub hostOps4_6_fresh (W22 m ρ)),
    .host (hsegf hostOps4_7 hostOps4_7_sub hostOps4_7_fresh (W23 m ρ)),
    .host (hsegf hostOps4_8 hostOps4_8_sub hostOps4_8_fresh (W24 m ρ)),
    .region (reg4 m ρ),
    .host (hsegf hostOps5 hostOps5_sub hostOps5_fresh (W26 m ρ)),
    .region (reg5 m ρ),
    .host (hsegf hostOps6 hostOps6_sub hostOps6_fresh (W28 m ρ)),
    .region (reg6 m ρ),
    .host (hsegf hostOps7 hostOps7_sub hostOps7_fresh (W30 m ρ)),
    .region (reg7 m ρ),
    .host (hsegf hostOps8 hostOps8_sub hostOps8_fresh (W32 m ρ)),
    .host (hsegf hostOps8_1 hostOps8_1_sub hostOps8_1_fresh (W33 m ρ)),
    .host (hsegf hostOps8_2 hostOps8_2_sub hostOps8_2_fresh (W34 m ρ)),
    .host (hsegf hostOps8_3 hostOps8_3_sub hostOps8_3_fresh (W35 m ρ)),
    .host (hsegf hostOps8_4 hostOps8_4_sub hostOps8_4_fresh (W36 m ρ)),
    .host (hsegf hostOps8_5 hostOps8_5_sub hostOps8_5_fresh (W37 m ρ)),
    .host (hsegf hostOps8_6 hostOps8_6_sub hostOps8_6_fresh (W38 m ρ)),
    .host (hsegf hostOps8_7 hostOps8_7_sub hostOps8_7_fresh (W39 m ρ)),
    .host (hsegf hostOps8_8 hostOps8_8_sub hostOps8_8_fresh (W40 m ρ)),
    .region (reg8 m ρ),
    .host (hsegf hostOps9 hostOps9_sub hostOps9_fresh (W42 m ρ)),
    .region (reg9 m ρ),
    .host (hsegf hostOps10 hostOps10_sub hostOps10_fresh (W44 m ρ)),
    .region (reg10 m ρ),
    .host (hsegf hostOps11 hostOps11_sub hostOps11_fresh (W46 m ρ)),
    .region (reg11 m ρ),
    .host (hsegf hostOps12 hostOps12_sub hostOps12_fresh (W48 m ρ)) ]

theorem main_run (c : Dev nD) : main (F := F) c = Pipeline.Seg.run (fsegs m ρ) := (main_chain c).trans (by chain_rfl)

/-- The last thread state without the debts: every unscoped buffer at the last boundary's contents. -/
abbrev Tfin (c : Dev nD) : sProp 𝕄 := iprop(StableHlo.held (c : Thread nD τ) (Pipeline.ucRefs τ sig) (W49 m ρ c) ∗ ∃ r, prngReg c r)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W49 m ρ c b) :=
  Pipeline.θ_run_regions_kit (pcfgs (F := F)) fadm (fdats m ρ) () cellOf_inj emb₁ defs₀ 𝒱f Lf lvf m ρ main (fsegs m ρ)
    (fun c Q => by rw [main_run m ρ c])
    (by simp only [fsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rf c)) (Tₙ := Tfin m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W49 m ρ c) ∗ Rf c) ⊢ iprop(Tfin m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lf lvf fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W49 m ρ c b)
    (hfin := fun c s' => by
      iintro ⟨⟨Hh, -⟩, HSI⟩
      unfold StableHlo.held
      imodintro
      iapply (pointsTo_read_all (Pipeline.ucRefs τ sig) (fun b => (((c : Thread nD τ)).1, b)) (W49 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c _ (mem_uc main_arg0 (by decide))).trans (W49_main_arg0 m ρ c),
      (h c _ (mem_uc main_arg1 (by decide))).trans (W49_main_arg1 m ρ c),
      (h c _ (mem_uc main_arg2 (by decide))).trans (W49_main_arg2 m ρ c),
      (h c _ (mem_uc main_arg3 (by decide))).trans (W49_main_arg3 m ρ c),
      (h c _ (mem_uc main_arg4 (by decide))).trans (W49_main_arg4 m ρ c),
      (h c _ (mem_uc main_arg5 (by decide))).trans (W49_main_arg5 m ρ c),
      (h c _ (mem_uc main_arg6 (by decide))).trans (W49_main_arg6 m ρ c),
      (h c _ (mem_uc main_arg7 (by decide))).trans (W49_main_arg7 m ρ c),
      (h c _ (mem_uc main_arg8 (by decide))).trans (W49_main_arg8 m ρ c),
      (h c _ (mem_uc main_arg9 (by decide))).trans (W49_main_arg9 m ρ c),
      (h c _ (mem_uc main_arg10 (by decide))).trans (W49_main_arg10 m ρ c),
      (h c _ (mem_uc main_arg11 (by decide))).trans (W49_main_arg11 m ρ c),
      (h c _ (mem_uc main_arg12 (by decide))).trans (W49_main_arg12 m ρ c),
      (h c _ (mem_uc main_arg13 (by decide))).trans (W49_main_arg13 m ρ c),
      (h c _ (mem_uc main_arg14 (by decide))).trans (W49_main_arg14 m ρ c),
      (h c _ (mem_uc main_arg15 (by decide))).trans (W49_main_arg15 m ρ c),
      (h c _ (mem_uc main_arg16 (by decide))).trans (W49_main_arg16 m ρ c),
      (h c _ (mem_uc main_arg17 (by decide))).trans (W49_main_arg17 m ρ c)⟩) (run_all m ρ)

end Cert.KernelIdeal.Fr

end
-- ==== Proof.MlpMath.lean ====
/-
  The two-layer perceptron of this certificate, read at one output element.

  Both programs compute, for a row x of 256 inputs, weights W1, W2 (256 x 256) and biases b1, b2,
      out q = (sum over k of max ((sum over j of x j * W1 j k) + b1 k) 0 * W2 k q) + b2 q.
  The kernel does it on a block of 2000 rows with two matrix products into a zero accumulator, on operands it first
  narrows to bf16; the reference does it on whole arrays of 50000 or 10000 rows with two host products. At the extended
  reals a change of format is the identity and a product into a zero accumulator is the product, so both are this one
  function of the row: `mlpAt`. No distributivity or reassociation is used, only the reading of each operation at an index.
-/
import proofs.«171333_j58007828300388_1_alg».proof.Proof.Gen.KernelIdeal.Skeleton
import proofs.«171333_j58007828300388_1_alg».proof.ReferenceIdeal
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember
import Idealize.ShloMosaic.PureOps.Ideal.Laws

noncomputable section

open scoped BigOperators

namespace Cert.Mlp

open Idealize.ShloMosaic Idealize.ShloMosaic.ValueIdx

/-! ## The function of one row -/

/-- Output column `q` of the perceptron applied to the row `x`: the hidden unit `k` is the rectified affine form
    `max ((∑ j, x j * w1 j k) + b1 k) 0`, and the output is the affine form of the hidden units. -/
def mlpAt (x : Fin 256 → EReal) (w1 : Fin 256 → Fin 256 → EReal) (b1 : Fin 256 → EReal)
    (w2 : Fin 256 → Fin 256 → EReal) (b2 : Fin 256 → EReal) (q : Fin 256) : EReal :=
  (∑ k : Fin 256, max ((∑ j : Fin 256, x j * w1 j k) + b1 k) 0 * w2 k q) + b2 q

/-! ## The reference's perceptron on whole arrays -/

section Host
variable [Cert.ReferenceIdeal.Facts₀]

open Cert.ReferenceIdeal Cert.ReferenceIdeal.Facts₀ in
/-- The reference's perceptron on an array of 50000 rows, for any float values: two host products, each followed by the
    bias laid along every row, with the maximum against the zero splat between them. -/
def hostMlpA {F : FTy → Type} [FloatOps F] (h : FVec F S50000x256 .f32) (w1 : FVec F S256x256 .f32) (b1 : FVec F S256 .f32)
    (w2 : FVec F S256x256 .f32) (b2 : FVec F S256 .f32) : FVec F S50000x256 .f32 :=
  addf (Host.dotGeneral dot_S50000x256_S256x256_S50000x256_1_0_0_1_n_n none (maximumf (addf (Host.dotGeneral dot_S50000x256_S256x256_S50000x256_1_0_0_1_n_n none h w1) (broadcastInDim S50000x256 ![0, 1] bcast_S1x256_S50000x256_0_1 (broadcastInDim S1x256 ![1] bcast_S256_S1x256_1 b1))) (broadcastInDim S50000x256 ![] bcast_S_S50000x256 (constant S_ .f32 0x00000000#32))) w2) (broadcastInDim S50000x256 ![0, 1] bcast_S1x256_S50000x256_0_1 (broadcastInDim S1x256 ![1] bcast_S256_S1x256_1 b2))

open Cert.ReferenceIdeal Cert.ReferenceIdeal.Facts₀ in
/-- The same on an array of 10000 rows. -/
def hostMlpM {F : FTy → Type} [FloatOps F] (h : FVec F S10000x256 .f32) (w1 : FVec F S256x256 .f32) (b1 : FVec F S256 .f32)
    (w2 : FVec F S256x256 .f32) (b2 : FVec F S256 .f32) : FVec F S10000x256 .f32 :=
  addf (Host.dotGeneral dot_S10000x256_S256x256_S10000x256_1_0_0_1_n_n none (maximumf (addf (Host.dotGeneral dot_S10000x256_S256x256_S10000x256_1_0_0_1_n_n none h w1) (broadcastInDim S10000x256 ![0, 1] bcast_S1x256_S10000x256_0_1 (broadcastInDim S1x256 ![1] bcast_S256_S1x256_1 b1))) (broadcastInDim S10000x256 ![] bcast_S_S10000x256 (constant S_ .f32 0x00000000#32))) w2) (broadcastInDim S10000x256 ![0, 1] bcast_S1x256_S10000x256_0_1 (broadcastInDim S1x256 ![1] bcast_S256_S1x256_1 b2))

end Host

/-! ## The pieces, read at an index

Each is stated at a generic row count `M`, with the shape facts a program cites as hypotheses, so that the kernel's block
of 2000 rows and the reference's arrays of 50000 and 10000 rows are instances. -/

section Pieces
variable {M : Nat}

/-- A matrix product into the zero splat, of an `M × K` by a `K × N` matrix contracted on the one shared axis, read at
    `(a, b)`: the sum over the shared coordinate of the products of the entries. -/
theorem matmul_plain_apply {K N : Nat} {φ₁ φ₂ : FTy}
    (w : DotDims.WF ⟨2, ![M, K]⟩ ⟨2, ![K, N]⟩ ⟨2, ![M, N]⟩ [1] [0] [0] [1] [] [])
    (A : FVec Ideal ⟨2, ![M, K]⟩ φ₁) (B : FVec Ideal ⟨2, ![K, N]⟩ φ₂) (a : Fin M) (b : Fin N) :
    matmul (⟨[1], [0], [0], [1], [], [], w⟩ : DotDims ⟨2, ![M, K]⟩ ⟨2, ![K, N]⟩ ⟨2, ![M, N]⟩) none A B
        (constant ⟨2, ![M, N]⟩ .f32 0x00000000#32) (ix2 a b)
      = ∑ c : Fin K, A (ix2 a c) * B (ix2 c b) :=
  (congrFun (matmul_zero_eq_dotGeneral _ none A B) (ix2 a b)).trans (StackMember.dotGeneral_plain_apply none A B a b)

/-- The host's product of the same matrices, read at `(a, b)`: the same sum. -/
theorem dot_plain_apply {K N : Nat} {φ₁ φ₂ : FTy}
    (w : DotDims.WF ⟨2, ![M, K]⟩ ⟨2, ![K, N]⟩ ⟨2, ![M, N]⟩ [1] [0] [0] [1] [] [])
    (A : FVec Ideal ⟨2, ![M, K]⟩ φ₁) (B : FVec Ideal ⟨2, ![K, N]⟩ φ₂) (a : Fin M) (b : Fin N) :
    Host.dotGeneral (⟨[1], [0], [0], [1], [], [], w⟩ : DotDims ⟨2, ![M, K]⟩ ⟨2, ![K, N]⟩ ⟨2, ![M, N]⟩) none A B (ix2 a b)
      = ∑ c : Fin K, A (ix2 a c) * B (ix2 c b) :=
  StackMember.dotGeneral_plain_apply none A B a b

/-- The kernel's bias: the vector cast to one row and broadcast down the rows reads, at `(p, c)`, the vector at `c`. -/
theorem rowBias_apply {α : Type} {n : Nat} (h1 : (⟨1, ![n]⟩ : Shape).ShapeCasts ⟨2, ![1, n]⟩)
    (hb : (⟨2, ![1, n]⟩ : Shape).Broadcasts ⟨2, ![M, n]⟩) (v : (⟨1, ![n]⟩ : Shape).Idx → α) (p : Fin M) (c : Fin n) :
    broadcastTo ⟨2, ![M, n]⟩ (shapeCast ⟨2, ![1, n]⟩ v h1) hb (ix2 p c) = v (ix1 c) :=
  (broadcastTo_1b_ab_apply _ hb p c).trans (shapeCast_a_1a_apply v h1 0 c)

/-- The reference's bias: the vector broadcast to one row along axis 1, then down the rows, reads, at `(r, c)`, the
    vector at `c`. -/
theorem hostBias_apply {α : Type} {n : Nat} (hv : (⟨1, ![n]⟩ : Shape).BroadcastsInDim ⟨2, ![1, n]⟩ ![1])
    (hr : (⟨2, ![1, n]⟩ : Shape).BroadcastsInDim ⟨2, ![M, n]⟩ ![0, 1]) (v : (⟨1, ![n]⟩ : Shape).Idx → α) (r : Fin M) (c : Fin n) :
    broadcastInDim ⟨2, ![M, n]⟩ ![0, 1] hr (broadcastInDim ⟨2, ![1, n]⟩ ![1] hv v) (ix2 r c) = v (ix1 c) := by
  refine (broadcastInDim_oneRow_apply hr _ r c).trans ?_
  refine broadcastInDim_apply ![1] hv v (ix2 (0 : Fin 1) c) (ix1 c) fun a => ?_
  match a with
  | ⟨0, _⟩ =>
    show c.val = if n = 1 then 0 else c.val
    split
    · have := c.isLt; omega
    · rfl

/-- THE KERNEL'S BODY on a block of `M` rows, as the payload spells it, read at `(p, q)`. The casts to the same shape and
    the changes of format are the identity; each product into the zero splat is the sum over the shared coordinate. -/
theorem kernelMlp_apply
    (wd : DotDims.WF ⟨2, ![M, 256]⟩ ⟨2, ![256, 256]⟩ ⟨2, ![M, 256]⟩ [1] [0] [0] [1] [] [])
    (hx : (⟨2, ![M, 256]⟩ : Shape).ShapeCasts ⟨2, ![M, 256]⟩) (hw : (⟨2, ![256, 256]⟩ : Shape).ShapeCasts ⟨2, ![256, 256]⟩)
    (hv : (⟨1, ![256]⟩ : Shape).ShapeCasts ⟨1, ![256]⟩) (h1 : (⟨1, ![256]⟩ : Shape).ShapeCasts ⟨2, ![1, 256]⟩)
    (hb : (⟨2, ![1, 256]⟩ : Shape).Broadcasts ⟨2, ![M, 256]⟩) (hlt : FTy.bits .bf16 < FTy.bits .f32)
    (x0 : FVec Ideal ⟨2, ![M, 256]⟩ .f32) (w1 : FVec Ideal ⟨2, ![256, 256]⟩ .f32) (b1 : FVec Ideal ⟨1, ![256]⟩ .f32)
    (w2 : FVec Ideal ⟨2, ![256, 256]⟩ .f32) (b2 : FVec Ideal ⟨1, ![256]⟩ .f32) (p : Fin M) (q : Fin 256) :
    addf
        (matmul (⟨[1], [0], [0], [1], [], [], wd⟩ : DotDims ⟨2, ![M, 256]⟩ ⟨2, ![256, 256]⟩ ⟨2, ![M, 256]⟩) none
          (truncf .bf16
            (maximumf
              (addf
                (matmul (⟨[1], [0], [0], [1], [], [], wd⟩ : DotDims ⟨2, ![M, 256]⟩ ⟨2, ![256, 256]⟩ ⟨2, ![M, 256]⟩) none
                  (truncf .bf16 (shapeCast ⟨2, ![M, 256]⟩ x0 hx) hlt) (truncf .bf16 (shapeCast ⟨2, ![256, 256]⟩ w1 hw) hlt)
                  (constant ⟨2, ![M, 256]⟩ .f32 0x00000000#32))
                (broadcastTo ⟨2, ![M, 256]⟩ (shapeCast ⟨2, ![1, 256]⟩ (shapeCast ⟨1, ![256]⟩ b1 hv) h1) hb))
              (broadcast ⟨2, ![M, 256]⟩ (Scalar.ofBits (F := Ideal) .f32 0x00000000#32)))
            hlt)
          (truncf .bf16 (shapeCast ⟨2, ![256, 256]⟩ w2 hw) hlt) (constant ⟨2, ![M, 256]⟩ .f32 0x00000000#32))
        (broadcastTo ⟨2, ![M, 256]⟩ (shapeCast ⟨2, ![1, 256]⟩ (shapeCast ⟨1, ![256]⟩ b2 hv) h1) hb) (ix2 p q)
      = mlpAt (fun j => x0 (ix2 p j)) (fun j k => w1 (ix2 j k)) (fun k => b1 (ix1 k)) (fun k q' => w2 (ix2 k q'))
          (fun q' => b2 (ix1 q')) q := by
  rw [shapeCast_self x0, shapeCast_self w1, shapeCast_self w2, shapeCast_self b1, shapeCast_self b2]
  show _ = (∑ k : Fin 256, max ((∑ j : Fin 256, x0 (ix2 p j) * w1 (ix2 j k)) + b1 (ix1 k)) 0 * w2 (ix2 k q)) + b2 (ix1 q)
  refine (addf_apply _ _ _).trans ?_
  refine congrArg₂ (· + ·) ?_ (rowBias_apply h1 hb b2 p q)
  refine (matmul_plain_apply wd _ _ p q).trans ?_
  refine Finset.sum_congr rfl fun k _ => ?_
  refine congrArg (· * w2 (ix2 k q)) ?_
  show max (_ + _) (Ideal.ofBits .f32 0x00000000#32) = _
  refine congrArg₂ max (congrArg₂ (· + ·) (matmul_plain_apply wd _ _ p k) (rowBias_apply h1 hb b1 p k)) Ideal.ofBits_zero_f32

/-- THE REFERENCE'S PERCEPTRON on an array of `M` rows, as its program spells it, read at `(r, q)`. -/
theorem hostMlp_apply
    (wd : DotDims.WF ⟨2, ![M, 256]⟩ ⟨2, ![256, 256]⟩ ⟨2, ![M, 256]⟩ [1] [0] [0] [1] [] [])
    (hr : (⟨2, ![1, 256]⟩ : Shape).BroadcastsInDim ⟨2, ![M, 256]⟩ ![0, 1])
    (hv : (⟨1, ![256]⟩ : Shape).BroadcastsInDim ⟨2, ![1, 256]⟩ ![1])
    (hz : (⟨0, ![]⟩ : Shape).BroadcastsInDim ⟨2, ![M, 256]⟩ ![])
    (h : FVec Ideal ⟨2, ![M, 256]⟩ .f32) (w1 : FVec Ideal ⟨2, ![256, 256]⟩ .f32) (b1 : FVec Ideal ⟨1, ![256]⟩ .f32)
    (w2 : FVec Ideal ⟨2, ![256, 256]⟩ .f32) (b2 : FVec Ideal ⟨1, ![256]⟩ .f32) (r : Fin M) (q : Fin 256) :
    addf
        (Host.dotGeneral (⟨[1], [0], [0], [1], [], [], wd⟩ : DotDims ⟨2, ![M, 256]⟩ ⟨2, ![256, 256]⟩ ⟨2, ![M, 256]⟩) none
          (maximumf
            (addf
              (Host.dotGeneral (⟨[1], [0], [0], [1], [], [], wd⟩ : DotDims ⟨2, ![M, 256]⟩ ⟨2, ![256, 256]⟩ ⟨2, ![M, 256]⟩) none h w1)
              (broadcastInDim ⟨2, ![M, 256]⟩ ![0, 1] hr (broadcastInDim ⟨2, ![1, 256]⟩ ![1] hv b1)))
            (broadcastInDim ⟨2, ![M, 256]⟩ ![] hz (constant (F := Ideal) ⟨0, ![]⟩ .f32 0x00000000#32)))
          w2)
        (broadcastInDim ⟨2, ![M, 256]⟩ ![0, 1] hr (broadcastInDim ⟨2, ![1, 256]⟩ ![1] hv b2)) (ix2 r q)
      = mlpAt (fun j => h (ix2 r j)) (fun j k => w1 (ix2 j k)) (fun k => b1 (ix1 k)) (fun k q' => w2 (ix2 k q'))
          (fun q' => b2 (ix1 q')) q := by
  show _ = (∑ k : Fin 256, max ((∑ j : Fin 256, h (ix2 r j) * w1 (ix2 j k)) + b1 (ix1 k)) 0 * w2 (ix2 k q)) + b2 (ix1 q)
  refine (addf_apply _ _ _).trans ?_
  refine congrArg₂ (· + ·) ?_ (hostBias_apply hv hr b2 r q)
  refine (dot_plain_apply wd _ _ r q).trans ?_
  refine Finset.sum_congr rfl fun k _ => ?_
  refine congrArg (· * w2 (ix2 k q)) ?_
  show max (_ + _) (Ideal.ofBits .f32 0x00000000#32) = _
  refine congrArg₂ max (congrArg₂ (· + ·) (dot_plain_apply wd _ _ r k) (hostBias_apply hv hr b1 r k)) Ideal.ofBits_zero_f32

end Pieces

/-! ## The kernel's payload and the reference's perceptron at an index -/

/-- The kernel's stored value at row `p`, column `q` of its block is the perceptron of row `p` of the block. -/
theorem pay_apply (x0 : FVec Ideal Cert.KernelIdeal.S2000x256 .f32) (w1 : FVec Ideal Cert.KernelIdeal.S256x256 .f32)
    (b1 : FVec Ideal Cert.KernelIdeal.S256 .f32) (w2 : FVec Ideal Cert.KernelIdeal.S256x256 .f32)
    (b2 : FVec Ideal Cert.KernelIdeal.S256 .f32) (p : Fin 2000) (q : Fin 256) :
    Cert.KernelIdeal.Gen.k0_pay1 (F := Ideal) x0 w1 b1 w2 b2 (ix2 p q)
      = mlpAt (fun j => x0 (ix2 p j)) (fun j k => w1 (ix2 j k)) (fun k => b1 (ix1 k)) (fun k q' => w2 (ix2 k q'))
          (fun q' => b2 (ix1 q')) q :=
  kernelMlp_apply (M := 2000) Cert.KernelIdeal.Facts₀.dot_S2000x256_S256x256_S2000x256_1_0_0_1_n_n_wf
    Cert.KernelIdeal.Facts₀.shapeCasts_S2000x256_S2000x256 Cert.KernelIdeal.Facts₀.shapeCasts_S256x256_S256x256
    Cert.KernelIdeal.Facts₀.shapeCasts_S256_S256 Cert.KernelIdeal.Facts₀.shapeCasts_S256_S1x256
    Cert.KernelIdeal.Facts₀.broadcasts_S1x256_S2000x256 Cert.KernelIdeal.Facts₀.bitsLt_bf16_f32 x0 w1 b1 w2 b2 p q

section HostApply
variable [Cert.ReferenceIdeal.Facts₀]

/-- The reference's perceptron on 50000 rows at row `r`, column `q` is the perceptron of row `r`. -/
theorem hostMlpA_apply (h : FVec Ideal Cert.ReferenceIdeal.S50000x256 .f32) (w1 : FVec Ideal Cert.ReferenceIdeal.S256x256 .f32)
    (b1 : FVec Ideal Cert.ReferenceIdeal.S256 .f32) (w2 : FVec Ideal Cert.ReferenceIdeal.S256x256 .f32)
    (b2 : FVec Ideal Cert.ReferenceIdeal.S256 .f32) (r : Fin 50000) (q : Fin 256) :
    hostMlpA (F := Ideal) h w1 b1 w2 b2 (ix2 r q)
      = mlpAt (fun j => h (ix2 r j)) (fun j k => w1 (ix2 j k)) (fun k => b1 (ix1 k)) (fun k q' => w2 (ix2 k q'))
          (fun q' => b2 (ix1 q')) q :=
  hostMlp_apply (M := 50000) Cert.ReferenceIdeal.Facts₀.dot_S50000x256_S256x256_S50000x256_1_0_0_1_n_n_wf
    Cert.ReferenceIdeal.Facts₀.bcast_S1x256_S50000x256_0_1 Cert.ReferenceIdeal.Facts₀.bcast_S256_S1x256_1
    Cert.ReferenceIdeal.Facts₀.bcast_S_S50000x256 h w1 b1 w2 b2 r q

/-- The reference's perceptron on 10000 rows at row `r`, column `q` is the perceptron of row `r`. -/
theorem hostMlpM_apply (h : FVec Ideal Cert.ReferenceIdeal.S10000x256 .f32) (w1 : FVec Ideal Cert.ReferenceIdeal.S256x256 .f32)
    (b1 : FVec Ideal Cert.ReferenceIdeal.S256 .f32) (w2 : FVec Ideal Cert.ReferenceIdeal.S256x256 .f32)
    (b2 : FVec Ideal Cert.ReferenceIdeal.S256 .f32) (r : Fin 10000) (q : Fin 256) :
    hostMlpM (F := Ideal) h w1 b1 w2 b2 (ix2 r q)
      = mlpAt (fun j => h (ix2 r j)) (fun j k => w1 (ix2 j k)) (fun k => b1 (ix1 k)) (fun k q' => w2 (ix2 k q'))
          (fun q' => b2 (ix1 q')) q :=
  hostMlp_apply (M := 10000) Cert.ReferenceIdeal.Facts₀.dot_S10000x256_S256x256_S10000x256_1_0_0_1_n_n_wf
    Cert.ReferenceIdeal.Facts₀.bcast_S1x256_S10000x256_0_1 Cert.ReferenceIdeal.Facts₀.bcast_S256_S1x256_1
    Cert.ReferenceIdeal.Facts₀.bcast_S_S10000x256 h w1 b1 w2 b2 r q

end HostApply

end Cert.Mlp

end
-- ==== Proof.KI.ValCommon.lean ====
/-
  The kernel body's payload and the host's two-layer perceptron, read at one output entry, are the same number as soon
  as the block's row is the array's row: both are (∑ₖ max (∑ⱼ xⱼ·W1ⱼₖ + b1ₖ) 0 · W2ₖq) + b2q on the extended reals.
-/
import proofs.«171333_j58007828300388_1_alg».proof.Proof.MlpMath
import proofs.«171333_j58007828300388_1_alg».proof.Proof.Gen.ReferenceIdeal

noncomputable section

namespace Cert.KernelIdeal.Fr

open Idealize.ShloMosaic Idealize.ShloMosaic.ValueIdx

/-- A block's row `p` against the 50000-row array's row `r` holding the same 256 entries, the weights and biases equal entry by
    entry: the payload at `(p, q)` is the host perceptron at `(r, q)`. -/
theorem pay_host_A (x0 : FVec Ideal Cert.KernelIdeal.S2000x256 .f32) (w1 : FVec Ideal Cert.KernelIdeal.S256x256 .f32) (b1 : FVec Ideal Cert.KernelIdeal.S256 .f32)
    (w2 : FVec Ideal Cert.KernelIdeal.S256x256 .f32) (b2 : FVec Ideal Cert.KernelIdeal.S256 .f32)
    (h : FVec Ideal Cert.ReferenceIdeal.S50000x256 .f32) (w1' : FVec Ideal Cert.ReferenceIdeal.S256x256 .f32) (b1' : FVec Ideal Cert.ReferenceIdeal.S256 .f32)
    (w2' : FVec Ideal Cert.ReferenceIdeal.S256x256 .f32) (b2' : FVec Ideal Cert.ReferenceIdeal.S256 .f32)
    (p : Fin 2000) (q : Fin 256) (r : Fin 50000)
    (hx : ∀ j : Fin 256, x0 (ix2 p j) = h (ix2 r j)) (hw1 : ∀ j k : Fin 256, w1 (ix2 j k) = w1' (ix2 j k)) (hb1 : ∀ k : Fin 256, b1 (ix1 k) = b1' (ix1 k))
    (hw2 : ∀ j k : Fin 256, w2 (ix2 j k) = w2' (ix2 j k)) (hb2 : ∀ k : Fin 256, b2 (ix1 k) = b2' (ix1 k)) :
    Cert.KernelIdeal.Gen.k0_pay1 (F := Ideal) x0 w1 b1 w2 b2 (ix2 p q) = Cert.Mlp.hostMlpA (F := Ideal) h w1' b1' w2' b2' (ix2 r q) := by
  rw [Cert.Mlp.pay_apply, Cert.Mlp.hostMlpA_apply]
  simp only [hx, hw1, hb1, hw2, hb2]

/-- The same against the 10000-row array. -/
theorem pay_host_M (x0 : FVec Ideal Cert.KernelIdeal.S2000x256 .f32) (w1 : FVec Ideal Cert.KernelIdeal.S256x256 .f32) (b1 : FVec Ideal Cert.KernelIdeal.S256 .f32)
    (w2 : FVec Ideal Cert.KernelIdeal.S256x256 .f32) (b2 : FVec Ideal Cert.KernelIdeal.S256 .f32)
    (h : FVec Ideal Cert.ReferenceIdeal.S10000x256 .f32) (w1' : FVec Ideal Cert.ReferenceIdeal.S256x256 .f32) (b1' : FVec Ideal Cert.ReferenceIdeal.S256 .f32)
    (w2' : FVec Ideal Cert.ReferenceIdeal.S256x256 .f32) (b2' : FVec Ideal Cert.ReferenceIdeal.S256 .f32)
    (p : Fin 2000) (q : Fin 256) (r : Fin 10000)
    (hx : ∀ j : Fin 256, x0 (ix2 p j) = h (ix2 r j)) (hw1 : ∀ j k : Fin 256, w1 (ix2 j k) = w1' (ix2 j k)) (hb1 : ∀ k : Fin 256, b1 (ix1 k) = b1' (ix1 k))
    (hw2 : ∀ j k : Fin 256, w2 (ix2 j k) = w2' (ix2 j k)) (hb2 : ∀ k : Fin 256, b2 (ix1 k) = b2' (ix1 k)) :
    Cert.KernelIdeal.Gen.k0_pay1 (F := Ideal) x0 w1 b1 w2 b2 (ix2 p q) = Cert.Mlp.hostMlpM (F := Ideal) h w1' b1' w2' b2' (ix2 r q) := by
  rw [Cert.Mlp.pay_apply, Cert.Mlp.hostMlpM_apply]
  simp only [hx, hw1, hb1, hw2, hb2]

end Cert.KernelIdeal.Fr

end
-- ==== Proof.KI.Val0.lean ====
/-
  What region 0 leaves in its output array, at the ideal instance: the host's two-layer perceptron of the region's five
  input arrays, entry by entry.  Grid point `t` stages rows 2000·t … 2000·t+1999 of the activations and the whole of the
  weights and biases, and writes back the same rows of the output; the 25 blocks tile the 50000 rows.
-/
import proofs.«171333_j58007828300388_1_alg».proof.Proof.KI.R0
import proofs.«171333_j58007828300388_1_alg».proof.Proof.KI.ValCommon
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem hz2_0 : (![0, 0] : Fin 2 → Nat) = fun _ => 0 := funext fun a => by fin_cases a <;> rfl
theorem hz1_0 : (![0] : Fin 1 → Nat) = fun _ => 0 := funext fun a => by fin_cases a; rfl

/-- The printed index maps, decided over the grid: the activations' and the output's block follow the grid point along the
    rows; the weights' and biases' blocks never move. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 ∧ t.val < 25 :=
  (by decide +kernel : ∀ t : Fin grid0.N, _)

/-- Every row block is some grid point's. -/
theorem idx_onto0 : ∀ (q0 : Fin 25), ∃ t : Fin cfg0.N, win0_5.index t = ![q0.val, 0] :=
  (by decide +kernel : ∀ (q0 : Fin 25), ∃ t : Fin grid0.N, win0_5.index t = ![q0.val, 0])

/-- The array the region's output ends holding: the host perceptron of the five input arrays as the region finds them. -/
def G0 (c : Dev nD) : S50000x256.Idx → Elt Ideal .f32 :=
  Cert.Mlp.hostMlpA (F := Ideal) (V c (Pipeline.arrRef spec0 0) : S50000x256.Idx → Elt Ideal .f32) (V c (Pipeline.arrRef spec0 1) : S256x256.Idx → Elt Ideal .f32) (V c (Pipeline.arrRef spec0 2) : S256.Idx → Elt Ideal .f32) (V c (Pipeline.arrRef spec0 3) : S256x256.Idx → Elt Ideal .f32) (V c (Pipeline.arrRef spec0 4) : S256.Idx → Elt Ideal .f32)

set_option maxHeartbeats 4000000 in
/-- What grid point `t` writes back is block `t` of that array. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2_0]
  simp only [View.ld_unit_zero (S := S2000x256) hz2_0, View.ld_unit_zero (S := S256x256) hz2_0, View.ld_unit_zero (S := S256) hz1_0]
  obtain ⟨e0, e1, e2, e3, e4, e5, e6, e7, e8, e9, e10⟩ := idx_facts0 t
  funext y
  obtain ⟨p, q, rfl⟩ : ∃ (p : Fin 2000) (q : Fin 256), y = ix2 p q := ⟨y 0, y 1, eq_ix2 y⟩
  have hp : p.val < 2000 := p.isLt
  have hq : q.val < 256 := q.isLt
  let r : Fin 50000 := ⟨t.val * 2000 + p.val, by omega⟩
  have hemb : ((cfg0.win 5).blk t).view.emb (ix2 p q) = (ix2 r q : S50000x256.Idx) := by
    funext a; apply Fin.ext
    match a with
    | ⟨0, _⟩ => show win0_5.index t (0 : Fin 2) * 2000 + 1 * p.val = t.val * 2000 + p.val; omega
    | ⟨1, _⟩ => show win0_5.index t (1 : Fin 2) * 256 + 1 * q.val = q.val; omega
  show Cert.KernelIdeal.Gen.k0_pay1 (F := Ideal) (iblk0 V c 0 t) (iblk0 V c 1 t) (iblk0 V c 2 t) (iblk0 V c 3 t) (iblk0 V c 4 t) (ix2 p q)
    = G0 V c (((cfg0.win 5).blk t).view.emb (ix2 p q))
  rw [hemb]
  unfold G0
  refine pay_host_A (iblk0 V c 0 t) (iblk0 V c 1 t) (iblk0 V c 2 t) (iblk0 V c 3 t) (iblk0 V c 4 t) _ _ _ _ _ p q r ?_ ?_ ?_ ?_ ?_
  · intro j
    have hj : j.val < 256 := j.isLt
    show (V c (Pipeline.arrRef spec0 0) : S50000x256.Idx → Elt Ideal .f32) (((cfg0.win 0).blk t).view.emb (ix2 p j)) = (V c (Pipeline.arrRef spec0 0) : S50000x256.Idx → Elt Ideal .f32) (ix2 r j)
    refine congrArg _ ?_
    funext a; apply Fin.ext
    match a with
    | ⟨0, _⟩ => show win0_0.index t (0 : Fin 2) * 2000 + 1 * p.val = t.val * 2000 + p.val; omega
    | ⟨1, _⟩ => show win0_0.index t (1 : Fin 2) * 256 + 1 * j.val = j.val; omega
  · intro j k
    show (V c (Pipeline.arrRef spec0 1) : S256x256.Idx → Elt Ideal .f32) (((cfg0.win 1).blk t).view.emb (ix2 j k)) = (V c (Pipeline.arrRef spec0 1) : S256x256.Idx → Elt Ideal .f32) (ix2 j k)
    refine congrArg _ ?_
    funext a; apply Fin.ext
    match a with
    | ⟨0, _⟩ => show win0_1.index t (0 : Fin 2) * 256 + 1 * j.val = j.val; omega
    | ⟨1, _⟩ => show win0_1.index t (1 : Fin 2) * 256 + 1 * k.val = k.val; omega
  · intro k
    show (V c (Pipeline.arrRef spec0 2) : S256.Idx → Elt Ideal .f32) (((cfg0.win 2).blk t).view.emb (ix1 k)) = (V c (Pipeline.arrRef spec0 2) : S256.Idx → Elt Ideal .f32) (ix1 k)
    refine congrArg _ ?_
    funext a; apply Fin.ext
    match a with
    | ⟨0, _⟩ => show win0_2.index t (0 : Fin 1) * 256 + 1 * k.val = k.val; omega
  · intro j k
    show (V c (Pipeline.arrRef spec0 3) : S256x256.Idx → Elt Ideal .f32) (((cfg0.win 3).blk t).view.emb (ix2 j k)) = (V c (Pipeline.arrRef spec0 3) : S256x256.Idx → Elt Ideal .f32) (ix2 j k)
    refine congrArg _ ?_
    funext a; apply Fin.ext
    match a with
    | ⟨0, _⟩ => show win0_3.index t (0 : Fin 2) * 256 + 1 * j.val = j.val; omega
    | ⟨1, _⟩ => show win0_3.index t (1 : Fin 2) * 256 + 1 * k.val = k.val; omega
  · intro k
    show (V c (Pipeline.arrRef spec0 4) : S256.Idx → Elt Ideal .f32) (((cfg0.win 4).blk t).view.emb (ix1 k)) = (V c (Pipeline.arrRef spec0 4) : S256.Idx → Elt Ideal .f32) (ix1 k)
    refine congrArg _ ?_
    funext a; apply Fin.ext
    match a with
    | ⟨0, _⟩ => show win0_4.index t (0 : Fin 1) * 256 + 1 * k.val = k.val; omega

/-- An index of the output array is in point `t`'s block iff its row is among the block's 2000 rows. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v68).slice (win0_5.rect t)).set ↔ _
  rw [View.set_slice_whole, Rect.mem_set_unit]
  exact Iff.rfl

/-- The blocks cover the output array: row `ρ` lies in the block of point `ρ / 2000`. -/
theorem cover0 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto0 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- The region's output array after the region. -/
theorem final0 (c : Dev nD) : (dat0 V c).arrAt 5 cfg0.N = G0 V c :=
  (dat0 V c).arrAt_eq_of_cover 5 (G0 V c) (fun t _ => flushed0_eq V c t) (cover0)

end Cert.KernelIdeal.Fr

end
-- ==== Proof.KI.Val1.lean ====
/-
  What region 1 leaves in its output array, at the ideal instance: the host's two-layer perceptron of the region's five
  input arrays, entry by entry.  Grid point `t` stages rows 2000·t … 2000·t+1999 of the activations and the whole of the
  weights and biases, and writes back the same rows of the output; the 25 blocks tile the 50000 rows.
-/
import proofs.«171333_j58007828300388_1_alg».proof.Proof.KI.R1
import proofs.«171333_j58007828300388_1_alg».proof.Proof.KI.ValCommon
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a; rfl

/-- The printed index maps, decided over the grid: the activations' and the output's block follow the grid point along the
    rows; the weights' and biases' blocks never move. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 ∧ t.val < 25 :=
  (by decide +kernel : ∀ t : Fin grid1.N, _)

/-- Every row block is some grid point's. -/
theorem idx_onto1 : ∀ (q0 : Fin 25), ∃ t : Fin cfg1.N, win1_5.index t = ![q0.val, 0] :=
  (by decide +kernel : ∀ (q0 : Fin 25), ∃ t : Fin grid1.N, win1_5.index t = ![q0.val, 0])

/-- The array the region's output ends holding: the host perceptron of the five input arrays as the region finds them. -/
def G1 (c : Dev nD) : S50000x256.Idx → Elt Ideal .f32 :=
  Cert.Mlp.hostMlpA (F := Ideal) (V c (Pipeline.arrRef spec1 0) : S50000x256.Idx → Elt Ideal .f32) (V c (Pipeline.arrRef spec1 1) : S256x256.Idx → Elt Ideal .f32) (V c (Pipeline.arrRef spec1 2) : S256.Idx → Elt Ideal .f32) (V c (Pipeline.arrRef spec1 3) : S256x256.Idx → Elt Ideal .f32) (V c (Pipeline.arrRef spec1 4) : S256.Idx → Elt Ideal .f32)

set_option maxHeartbeats 4000000 in
/-- What grid point `t` writes back is block `t` of that array. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2_1]
  simp only [View.ld_unit_zero (S := S2000x256) hz2_1, View.ld_unit_zero (S := S256x256) hz2_1, View.ld_unit_zero (S := S256) hz1_1]
  obtain ⟨e0, e1, e2, e3, e4, e5, e6, e7, e8, e9, e10⟩ := idx_facts1 t
  funext y
  obtain ⟨p, q, rfl⟩ : ∃ (p : Fin 2000) (q : Fin 256), y = ix2 p q := ⟨y 0, y 1, eq_ix2 y⟩
  have hp : p.val < 2000 := p.isLt
  have hq : q.val < 256 := q.isLt
  let r : Fin 50000 := ⟨t.val * 2000 + p.val, by omega⟩
  have hemb : ((cfg1.win 5).blk t).view.emb (ix2 p q) = (ix2 r q : S50000x256.Idx) := by
    funext a; apply Fin.ext
    match a with
    | ⟨0, _⟩ => show win1_5.index t (0 : Fin 2) * 2000 + 1 * p.val = t.val * 2000 + p.val; omega
    | ⟨1, _⟩ => show win1_5.index t (1 : Fin 2) * 256 + 1 * q.val = q.val; omega
  show Cert.KernelIdeal.Gen.k0_pay1 (F := Ideal) (iblk1 V c 0 t) (iblk1 V c 1 t) (iblk1 V c 2 t) (iblk1 V c 3 t) (iblk1 V c 4 t) (ix2 p q)
    = G1 V c (((cfg1.win 5).blk t).view.emb (ix2 p q))
  rw [hemb]
  unfold G1
  refine pay_host_A (iblk1 V c 0 t) (iblk1 V c 1 t) (iblk1 V c 2 t) (iblk1 V c 3 t) (iblk1 V c 4 t) _ _ _ _ _ p q r ?_ ?_ ?_ ?_ ?_
  · intro j
    have hj : j.val < 256 := j.isLt
    show (V c (Pipeline.arrRef spec1 0) : S50000x256.Idx → Elt Ideal .f32) (((cfg1.win 0).blk t).view.emb (ix2 p j)) = (V c (Pipeline.arrRef spec1 0) : S50000x256.Idx → Elt Ideal .f32) (ix2 r j)
    refine congrArg _ ?_
    funext a; apply Fin.ext
    match a with
    | ⟨0, _⟩ => show win1_0.index t (0 : Fin 2) * 2000 + 1 * p.val = t.val * 2000 + p.val; omega
    | ⟨1, _⟩ => show win1_0.index t (1 : Fin 2) * 256 + 1 * j.val = j.val; omega
  · intro j k
    show (V c (Pipeline.arrRef spec1 1) : S256x256.Idx → Elt Ideal .f32) (((cfg1.win 1).blk t).view.emb (ix2 j k)) = (V c (Pipeline.arrRef spec1 1) : S256x256.Idx → Elt Ideal .f32) (ix2 j k)
    refine congrArg _ ?_
    funext a; apply Fin.ext
    match a with
    | ⟨0, _⟩ => show win1_1.index t (0 : Fin 2) * 256 + 1 * j.val = j.val; omega
    | ⟨1, _⟩ => show win1_1.index t (1 : Fin 2) * 256 + 1 * k.val = k.val; omega
  · intro k
    show (V c (Pipeline.arrRef spec1 2) : S256.Idx → Elt Ideal .f32) (((cfg1.win 2).blk t).view.emb (ix1 k)) = (V c (Pipeline.arrRef spec1 2) : S256.Idx → Elt Ideal .f32) (ix1 k)
    refine congrArg _ ?_
    funext a; apply Fin.ext
    match a with
    | ⟨0, _⟩ => show win1_2.index t (0 : Fin 1) * 256 + 1 * k.val = k.val; omega
  · intro j k
    show (V c (Pipeline.arrRef spec1 3) : S256x256.Idx → Elt Ideal .f32) (((cfg1.win 3).blk t).view.emb (ix2 j k)) = (V c (Pipeline.arrRef spec1 3) : S256x256.Idx → Elt Ideal .f32) (ix2 j k)
    refine congrArg _ ?_
    funext a; apply Fin.ext
    match a with
    | ⟨0, _⟩ => show win1_3.index t (0 : Fin 2) * 256 + 1 * j.val = j.val; omega
    | ⟨1, _⟩ => show win1_3.index t (1 : Fin 2) * 256 + 1 * k.val = k.val; omega
  · intro k
    show (V c (Pipeline.arrRef spec1 4) : S256.Idx → Elt Ideal .f32) (((cfg1.win 4).blk t).view.emb (ix1 k)) = (V c (Pipeline.arrRef spec1 4) : S256.Idx → Elt Ideal .f32) (ix1 k)
    refine congrArg _ ?_
    funext a; apply Fin.ext
    match a with
    | ⟨0, _⟩ => show win1_4.index t (0 : Fin 1) * 256 + 1 * k.val = k.val; omega

/-- An index of the output array is in point `t`'s block iff its row is among the block's 2000 rows. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v77).slice (win1_5.rect t)).set ↔ _
  rw [View.set_slice_whole, Rect.mem_set_unit]
  exact Iff.rfl

/-- The blocks cover the output array: row `ρ` lies in the block of point `ρ / 2000`. -/
theorem cover1 (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ := idx_onto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- The region's output array after the region. -/
theorem final1 (c : Dev nD) : (dat1 V c).arrAt 5 cfg1.N = G1 V c :=
  (dat1 V c).arrAt_eq_of_cover 5 (G1 V c) (fun t _ => flushed1_eq V c t) (cover1)

end Cert.KernelIdeal.Fr

end
-- ==== Proof.KI.Val2.lean ====
/-
  What region 2 leaves in its output array, at the ideal instance: the host's two-layer perceptron of the region's five
  input arrays, entry by entry.  Grid point `t` stages rows 2000·t … 2000·t+1999 of the activations and the whole of the
  weights and biases, and writes back the same rows of the output; the 5 blocks tile the 10000 rows.
-/
import proofs.«171333_j58007828300388_1_alg».proof.Proof.KI.R2
import proofs.«171333_j58007828300388_1_alg».proof.Proof.KI.ValCommon
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem hz2_2 : (![0, 0] : Fin 2 → Nat) = fun _ => 0 := funext fun a => by fin_cases a <;> rfl
theorem hz1_2 : (![0] : Fin 1 → Nat) = fun _ => 0 := funext fun a => by fin_cases a; rfl

/-- The printed index maps, decided over the grid: the activations' and the output's block follow the grid point along the
    rows; the weights' and biases' blocks never move. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 ∧ t.val < 5 :=
  (by decide +kernel : ∀ t : Fin grid2.N, _)

/-- Every row block is some grid point's. -/
theorem idx_onto2 : ∀ (q0 : Fin 5), ∃ t : Fin cfg2.N, win2_5.index t = ![q0.val, 0] :=
  (by decide +kernel : ∀ (q0 : Fin 5), ∃ t : Fin grid2.N, win2_5.index t = ![q0.val, 0])

/-- The array the region's output ends holding: the host perceptron of the five input arrays as the region finds them. -/
def G2 (c : Dev nD) : S10000x256.Idx → Elt Ideal .f32 :=
  Cert.Mlp.hostMlpM (F := Ideal) (V c (Pipeline.arrRef spec2 0) : S10000x256.Idx → Elt Ideal .f32) (V c (Pipeline.arrRef spec2 1) : S256x256.Idx → Elt Ideal .f32) (V c (Pipeline.arrRef spec2 2) : S256.Idx → Elt Ideal .f32) (V c (Pipeline.arrRef spec2 3) : S256x256.Idx → Elt Ideal .f32) (V c (Pipeline.arrRef spec2 4) : S256.Idx → Elt Ideal .f32)

set_option maxHeartbeats 4000000 in
/-- What grid point `t` writes back is block `t` of that array. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2_2]
  simp only [View.ld_unit_zero (S := S2000x256) hz2_2, View.ld_unit_zero (S := S256x256) hz2_2, View.ld_unit_zero (S := S256) hz1_2]
  obtain ⟨e0, e1, e2, e3, e4, e5, e6, e7, e8, e9, e10⟩ := idx_facts2 t
  funext y
  obtain ⟨p, q, rfl⟩ : ∃ (p : Fin 2000) (q : Fin 256), y = ix2 p q := ⟨y 0, y 1, eq_ix2 y⟩
  have hp : p.val < 2000 := p.isLt
  have hq : q.val < 256 := q.isLt
  let r : Fin 10000 := ⟨t.val * 2000 + p.val, by omega⟩
  have hemb : ((cfg2.win 5).blk t).view.emb (ix2 p q) = (ix2 r q : S10000x256.Idx) := by
    funext a; apply Fin.ext
    match a with
    | ⟨0, _⟩ => show win2_5.index t (0 : Fin 2) * 2000 + 1 * p.val = t.val * 2000 + p.val; omega
    | ⟨1, _⟩ => show win2_5.index t (1 : Fin 2) * 256 + 1 * q.val = q.val; omega
  show Cert.KernelIdeal.Gen.k0_pay1 (F := Ideal) (iblk2 V c 0 t) (iblk2 V c 1 t) (iblk2 V c 2 t) (iblk2 V c 3 t) (iblk2 V c 4 t) (ix2 p q)
    = G2 V c (((cfg2.win 5).blk t).view.emb (ix2 p q))
  rw [hemb]
  unfold G2
  refine pay_host_M (iblk2 V c 0 t) (iblk2 V c 1 t) (iblk2 V c 2 t) (iblk2 V c 3 t) (iblk2 V c 4 t) _ _ _ _ _ p q r ?_ ?_ ?_ ?_ ?_
  · intro j
    have hj : j.val < 256 := j.isLt
    show (V c (Pipeline.arrRef spec2 0) : S10000x256.Idx → Elt Ideal .f32) (((cfg2.win 0).blk t).view.emb (ix2 p j)) = (V c (Pipeline.arrRef spec2 0) : S10000x256.Idx → Elt Ideal .f32) (ix2 r j)
    refine congrArg _ ?_
    funext a; apply Fin.ext
    match a with
    | ⟨0, _⟩ => show win2_0.index t (0 : Fin 2) * 2000 + 1 * p.val = t.val * 2000 + p.val; omega
    | ⟨1, _⟩ => show win2_0.index t (1 : Fin 2) * 256 + 1 * j.val = j.val; omega
  · intro j k
    show (V c (Pipeline.arrRef spec2 1) : S256x256.Idx → Elt Ideal .f32) (((cfg2.win 1).blk t).view.emb (ix2 j k)) = (V c (Pipeline.arrRef spec2 1) : S256x256.Idx → Elt Ideal .f32) (ix2 j k)
    refine congrArg _ ?_
    funext a; apply Fin.ext
    match a with
    | ⟨0, _⟩ => show win2_1.index t (0 : Fin 2) * 256 + 1 * j.val = j.val; omega
    | ⟨1, _⟩ => show win2_1.index t (1 : Fin 2) * 256 + 1 * k.val = k.val; omega
  · intro k
    show (V c (Pipeline.arrRef spec2 2) : S256.Idx → Elt Ideal .f32) (((cfg2.win 2).blk t).view.emb (ix1 k)) = (V c (Pipeline.arrRef spec2 2) : S256.Idx → Elt Ideal .f32) (ix1 k)
    refine congrArg _ ?_
    funext a; apply Fin.ext
    match a with
    | ⟨0, _⟩ => show win2_2.index t (0 : Fin 1) * 256 + 1 * k.val = k.val; omega
  · intro j k
    show (V c (Pipeline.arrRef spec2 3) : S256x256.Idx → Elt Ideal .f32) (((cfg2.win 3).blk t).view.emb (ix2 j k)) = (V c (Pipeline.arrRef spec2 3) : S256x256.Idx → Elt Ideal .f32) (ix2 j k)
    refine congrArg _ ?_
    funext a; apply Fin.ext
    match a with
    | ⟨0, _⟩ => show win2_3.index t (0 : Fin 2) * 256 + 1 * j.val = j.val; omega
    | ⟨1, _⟩ => show win2_3.index t (1 : Fin 2) * 256 + 1 * k.val = k.val; omega
  · intro k
    show (V c (Pipeline.arrRef spec2 4) : S256.Idx → Elt Ideal .f32) (((cfg2.win 4).blk t).view.emb (ix1 k)) = (V c (Pipeline.arrRef spec2 4) : S256.Idx → Elt Ideal .f32) (ix1 k)
    refine congrArg _ ?_
    funext a; apply Fin.ext
    match a with
    | ⟨0, _⟩ => show win2_4.index t (0 : Fin 1) * 256 + 1 * k.val = k.val; omega

/-- An index of the output array is in point `t`'s block iff its row is among the block's 2000 rows. -/
theorem mem_blk2 (t : Fin cfg2.N) (i : S10000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v86).slice (win2_5.rect t)).set ↔ _
  rw [View.set_slice_whole, Rect.mem_set_unit]
  exact Iff.rfl

/-- The blocks cover the output array: row `ρ` lies in the block of point `ρ / 2000`. -/
theorem cover2 (i : S10000x256.Idx) : ∃ t : Fin cfg2.N, (cfg2.win 5).flush t = true ∧ i ∈ ((cfg2.win 5).blk t).view.set := by
  have hi0 : (i 0).val < 10000 := (i 0).isLt
  have hi1 : (i 1).val < 256 := (i 1).isLt
  obtain ⟨t, ht⟩ := idx_onto2 ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- The region's output array after the region. -/
theorem final2 (c : Dev nD) : (dat2 V c).arrAt 5 cfg2.N = G2 V c :=
  (dat2 V c).arrAt_eq_of_cover 5 (G2 V c) (fun t _ => flushed2_eq V c t) (cover2)

end Cert.KernelIdeal.Fr

end
-- ==== Proof.KI.Val3.lean ====
/-
  What region 3 leaves in its output array, at the ideal instance: the host's two-layer perceptron of the region's five
  input arrays, entry by entry.  Grid point `t` stages rows 2000·t … 2000·t+1999 of the activations and the whole of the
  weights and biases, and writes back the same rows of the output; the 5 blocks tile the 10000 rows.
-/
import proofs.«171333_j58007828300388_1_alg».proof.Proof.KI.R3
import proofs.«171333_j58007828300388_1_alg».proof.Proof.KI.ValCommon
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem hz2_3 : (![0, 0] : Fin 2 → Nat) = fun _ => 0 := funext fun a => by fin_cases a <;> rfl
theorem hz1_3 : (![0] : Fin 1 → Nat) = fun _ => 0 := funext fun a => by fin_cases a; rfl

/-- The printed index maps, decided over the grid: the activations' and the output's block follow the grid point along the
    rows; the weights' and biases' blocks never move. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 ∧ t.val < 5 :=
  (by decide +kernel : ∀ t : Fin grid3.N, _)

/-- Every row block is some grid point's. -/
theorem idx_onto3 : ∀ (q0 : Fin 5), ∃ t : Fin cfg3.N, win3_5.index t = ![q0.val, 0] :=
  (by decide +kernel : ∀ (q0 : Fin 5), ∃ t : Fin grid3.N, win3_5.index t = ![q0.val, 0])

/-- The array the region's output ends holding: the host perceptron of the five input arrays as the region finds them. -/
def G3 (c : Dev nD) : S10000x256.Idx → Elt Ideal .f32 :=
  Cert.Mlp.hostMlpM (F := Ideal) (V c (Pipeline.arrRef spec3 0) : S10000x256.Idx → Elt Ideal .f32) (V c (Pipeline.arrRef spec3 1) : S256x256.Idx → Elt Ideal .f32) (V c (Pipeline.arrRef spec3 2) : S256.Idx → Elt Ideal .f32) (V c (Pipeline.arrRef spec3 3) : S256x256.Idx → Elt Ideal .f32) (V c (Pipeline.arrRef spec3 4) : S256.Idx → Elt Ideal .f32)

set_option maxHeartbeats 4000000 in
/-- What grid point `t` writes back is block `t` of that array. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz2_3]
  simp only [View.ld_unit_zero (S := S2000x256) hz2_3, View.ld_unit_zero (S := S256x256) hz2_3, View.ld_unit_zero (S := S256) hz1_3]
  obtain ⟨e0, e1, e2, e3, e4, e5, e6, e7, e8, e9, e10⟩ := idx_facts3 t
  funext y
  obtain ⟨p, q, rfl⟩ : ∃ (p : Fin 2000) (q : Fin 256), y = ix2 p q := ⟨y 0, y 1, eq_ix2 y⟩
  have hp : p.val < 2000 := p.isLt
  have hq : q.val < 256 := q.isLt
  let r : Fin 10000 := ⟨t.val * 2000 + p.val, by omega⟩
  have hemb : ((cfg3.win 5).blk t).view.emb (ix2 p q) = (ix2 r q : S10000x256.Idx) := by
    funext a; apply Fin.ext
    match a with
    | ⟨0, _⟩ => show win3_5.index t (0 : Fin 2) * 2000 + 1 * p.val = t.val * 2000 + p.val; omega
    | ⟨1, _⟩ => show win3_5.index t (1 : Fin 2) * 256 + 1 * q.val = q.val; omega
  show Cert.KernelIdeal.Gen.k0_pay1 (F := Ideal) (iblk3 V c 0 t) (iblk3 V c 1 t) (iblk3 V c 2 t) (iblk3 V c 3 t) (iblk3 V c 4 t) (ix2 p q)
    = G3 V c (((cfg3.win 5).blk t).view.emb (ix2 p q))
  rw [hemb]
  unfold G3
  refine pay_host_M (iblk3 V c 0 t) (iblk3 V c 1 t) (iblk3 V c 2 t) (iblk3 V c 3 t) (iblk3 V c 4 t) _ _ _ _ _ p q r ?_ ?_ ?_ ?_ ?_
  · intro j
    have hj : j.val < 256 := j.isLt
    show (V c (Pipeline.arrRef spec3 0) : S10000x256.Idx → Elt Ideal .f32) (((cfg3.win 0).blk t).view.emb (ix2 p j)) = (V c (Pipeline.arrRef spec3 0) : S10000x256.Idx → Elt Ideal .f32) (ix2 r j)
    refine congrArg _ ?_
    funext a; apply Fin.ext
    match a with
    | ⟨0, _⟩ => show win3_0.index t (0 : Fin 2) * 2000 + 1 * p.val = t.val * 2000 + p.val; omega
    | ⟨1, _⟩ => show win3_0.index t (1 : Fin 2) * 256 + 1 * j.val = j.val; omega
  · intro j k
    show (V c (Pipeline.arrRef spec3 1) : S256x256.Idx → Elt Ideal .f32) (((cfg3.win 1).blk t).view.emb (ix2 j k)) = (V c (Pipeline.arrRef spec3 1) : S256x256.Idx → Elt Ideal .f32) (ix2 j k)
    refine congrArg _ ?_
    funext a; apply Fin.ext
    match a with
    | ⟨0, _⟩ => show win3_1.index t (0 : Fin 2) * 256 + 1 * j.val = j.val; omega
    | ⟨1, _⟩ => show win3_1.index t (1 : Fin 2) * 256 + 1 * k.val = k.val; omega
  · intro k
    show (V c (Pipeline.arrRef spec3 2) : S256.Idx → Elt Ideal .f32) (((cfg3.win 2).blk t).view.emb (ix1 k)) = (V c (Pipeline.arrRef spec3 2) : S256.Idx → Elt Ideal .f32) (ix1 k)
    refine congrArg _ ?_
    funext a; apply Fin.ext
    match a with
    | ⟨0, _⟩ => show win3_2.index t (0 : Fin 1) * 256 + 1 * k.val = k.val; omega
  · intro j k
    show (V c (Pipeline.arrRef spec3 3) : S256x256.Idx → Elt Ideal .f32) (((cfg3.win 3).blk t).view.emb (ix2 j k)) = (V c (Pipeline.arrRef spec3 3) : S256x256.Idx → Elt Ideal .f32) (ix2 j k)
    refine congrArg _ ?_
    funext a; apply Fin.ext
    match a with
    | ⟨0, _⟩ => show win3_3.index t (0 : Fin 2) * 256 + 1 * j.val = j.val; omega
    | ⟨1, _⟩ => show win3_3.index t (1 : Fin 2) * 256 + 1 * k.val = k.val; omega
  · intro k
    show (V c (Pipeline.arrRef spec3 4) : S256.Idx → Elt Ideal .f32) (((cfg3.win 4).blk t).view.emb (ix1 k)) = (V c (Pipeline.arrRef spec3 4) : S256.Idx → Elt Ideal .f32) (ix1 k)
    refine congrArg _ ?_
    funext a; apply Fin.ext
    match a with
    | ⟨0, _⟩ => show win3_4.index t (0 : Fin 1) * 256 + 1 * k.val = k.val; omega

/-- An index of the output array is in point `t`'s block iff its row is among the block's 2000 rows. -/
theorem mem_blk3 (t : Fin cfg3.N) (i : S10000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v95).slice (win3_5.rect t)).set ↔ _
  rw [View.set_slice_whole, Rect.mem_set_unit]
  exact Iff.rfl

/-- The blocks cover the output array: row `ρ` lies in the block of point `ρ / 2000`. -/
theorem cover3 (i : S10000x256.Idx) : ∃ t : Fin cfg3.N, (cfg3.win 5).flush t = true ∧ i ∈ ((cfg3.win 5).blk t).view.set := by
  have hi0 : (i 0).val < 10000 := (i 0).isLt
  have hi1 : (i 1).val < 256 := (i 1).isLt
  obtain ⟨t, ht⟩ := idx_onto3 ⟨(i 0).val / 2000, by omega⟩
  have q0 : win3_5.index t (0 : Fin 2) = (i 0).val / 2000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 256 ≤ (i 1).val ∧ (i 1).val < win3_5.index t (1 : Fin 2) * 256 + 256; omega

/-- The region's output array after the region. -/
theorem final3 (c : Dev nD) : (dat3 V c).arrAt 5 cfg3.N = G3 V c :=
  (dat3 V c).arrAt_eq_of_cover 5 (G3 V c) (fun t _ => flushed3_eq V c t) (cover3)

end Cert.KernelIdeal.Fr

end
-- ==== Proof.KI.Val4.lean ====
/-
  What region 4 leaves in its output array, at the ideal instance: the host's two-layer perceptron of the region's five
  input arrays, entry by entry.  Grid point `t` stages rows 2000·t … 2000·t+1999 of the activations and the whole of the
  weights and biases, and writes back the same rows of the output; the 25 blocks tile the 50000 rows.
-/
import proofs.«171333_j58007828300388_1_alg».proof.Proof.KI.R4
import proofs.«171333_j58007828300388_1_alg».proof.Proof.KI.ValCommon
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem hz2_4 : (![0, 0] : Fin 2 → Nat) = fun _ => 0 := funext fun a => by fin_cases a <;> rfl
theorem hz1_4 : (![0] : Fin 1 → Nat) = fun _ => 0 := funext fun a => by fin_cases a; rfl

/-- The printed index maps, decided over the grid: the activations' and the output's block follow the grid point along the
    rows; the weights' and biases' blocks never move. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 ∧ t.val < 25 :=
  (by decide +kernel : ∀ t : Fin grid4.N, _)

/-- Every row block is some grid point's. -/
theorem idx_onto4 : ∀ (q0 : Fin 25), ∃ t : Fin cfg4.N, win4_5.index t = ![q0.val, 0] :=
  (by decide +kernel : ∀ (q0 : Fin 25), ∃ t : Fin grid4.N, win4_5.index t = ![q0.val, 0])

/-- The array the region's output ends holding: the host perceptron of the five input arrays as the region finds them. -/
def G4 (c : Dev nD) : S50000x256.Idx → Elt Ideal .f32 :=
  Cert.Mlp.hostMlpA (F := Ideal) (V c (Pipeline.arrRef spec4 0) : S50000x256.Idx → Elt Ideal .f32) (V c (Pipeline.arrRef spec4 1) : S256x256.Idx → Elt Ideal .f32) (V c (Pipeline.arrRef spec4 2) : S256.Idx → Elt Ideal .f32) (V c (Pipeline.arrRef spec4 3) : S256x256.Idx → Elt Ideal .f32) (V c (Pipeline.arrRef spec4 4) : S256.Idx → Elt Ideal .f32)

set_option maxHeartbeats 4000000 in
/-- What grid point `t` writes back is block `t` of that array. -/
theorem flushed4_eq (c : Dev nD) (t : Fin cfg4.N) :
    (dat4 V c).flushed 5 t = ((cfg4.win 5).blk t).view.read (Elt Ideal) (G4 V c) := by
  show (cfg4.win 5).cut (grid4.coords t) ((dat4 V c).after 5 t) = _
  rw [after4_5]
  unfold out4_5
  rw [View.canon_unit_zero hz2_4]
  simp only [View.ld_unit_zero (S := S2000x256) hz2_4, View.ld_unit_zero (S := S256x256) hz2_4, View.ld_unit_zero (S := S256) hz1_4]
  obtain ⟨e0, e1, e2, e3, e4, e5, e6, e7, e8, e9, e10⟩ := idx_facts4 t
  funext y
  obtain ⟨p, q, rfl⟩ : ∃ (p : Fin 2000) (q : Fin 256), y = ix2 p q := ⟨y 0, y 1, eq_ix2 y⟩
  have hp : p.val < 2000 := p.isLt
  have hq : q.val < 256 := q.isLt
  let r : Fin 50000 := ⟨t.val * 2000 + p.val, by omega⟩
  have hemb : ((cfg4.win 5).blk t).view.emb (ix2 p q) = (ix2 r q : S50000x256.Idx) := by
    funext a; apply Fin.ext
    match a with
    | ⟨0, _⟩ => show win4_5.index t (0 : Fin 2) * 2000 + 1 * p.val = t.val * 2000 + p.val; omega
    | ⟨1, _⟩ => show win4_5.index t (1 : Fin 2) * 256 + 1 * q.val = q.val; omega
  show Cert.KernelIdeal.Gen.k0_pay1 (F := Ideal) (iblk4 V c 0 t) (iblk4 V c 1 t) (iblk4 V c 2 t) (iblk4 V c 3 t) (iblk4 V c 4 t) (ix2 p q)
    = G4 V c (((cfg4.win 5).blk t).view.emb (ix2 p q))
  rw [hemb]
  unfold G4
  refine pay_host_A (iblk4 V c 0 t) (iblk4 V c 1 t) (iblk4 V c 2 t) (iblk4 V c 3 t) (iblk4 V c 4 t) _ _ _ _ _ p q r ?_ ?_ ?_ ?_ ?_
  · intro j
    have hj : j.val < 256 := j.isLt
    show (V c (Pipeline.arrRef spec4 0) : S50000x256.Idx → Elt Ideal .f32) (((cfg4.win 0).blk t).view.emb (ix2 p j)) = (V c (Pipeline.arrRef spec4 0) : S50000x256.Idx → Elt Ideal .f32) (ix2 r j)
    refine congrArg _ ?_
    funext a; apply Fin.ext
    match a with
    | ⟨0, _⟩ => show win4_0.index t (0 : Fin 2) * 2000 + 1 * p.val = t.val * 2000 + p.val; omega
    | ⟨1, _⟩ => show win4_0.index t (1 : Fin 2) * 256 + 1 * j.val = j.val; omega
  · intro j k
    show (V c (Pipeline.arrRef spec4 1) : S256x256.Idx → Elt Ideal .f32) (((cfg4.win 1).blk t).view.emb (ix2 j k)) = (V c (Pipeline.arrRef spec4 1) : S256x256.Idx → Elt Ideal .f32) (ix2 j k)
    refine congrArg _ ?_
    funext a; apply Fin.ext
    match a with
    | ⟨0, _⟩ => show win4_1.index t (0 : Fin 2) * 256 + 1 * j.val = j.val; omega
    | ⟨1, _⟩ => show win4_1.index t (1 : Fin 2) * 256 + 1 * k.val = k.val; omega
  · intro k
    show (V c (Pipeline.arrRef spec4 2) : S256.Idx → Elt Ideal .f32) (((cfg4.win 2).blk t).view.emb (ix1 k)) = (V c (Pipeline.arrRef spec4 2) : S256.Idx → Elt Ideal .f32) (ix1 k)
    refine congrArg _ ?_
    funext a; apply Fin.ext
    match a with
    | ⟨0, _⟩ => show win4_2.index t (0 : Fin 1) * 256 + 1 * k.val = k.val; omega
  · intro j k
    show (V c (Pipeline.arrRef spec4 3) : S256x256.Idx → Elt Ideal .f32) (((cfg4.win 3).blk t).view.emb (ix2 j k)) = (V c (Pipeline.arrRef spec4 3) : S256x256.Idx → Elt Ideal .f32) (ix2 j k)
    refine congrArg _ ?_
    funext a; apply Fin.ext
    match a with
    | ⟨0, _⟩ => show win4_3.index t (0 : Fin 2) * 256 + 1 * j.val = j.val; omega
    | ⟨1, _⟩ => show win4_3.index t (1 : Fin 2) * 256 + 1 * k.val = k.val; omega
  · intro k
    show (V c (Pipeline.arrRef spec4 4) : S256.Idx → Elt Ideal .f32) (((cfg4.win 4).blk t).view.emb (ix1 k)) = (V c (Pipeline.arrRef spec4 4) : S256.Idx → Elt Ideal .f32) (ix1 k)
    refine congrArg _ ?_
    funext a; apply Fin.ext
    match a with
    | ⟨0, _⟩ => show win4_4.index t (0 : Fin 1) * 256 + 1 * k.val = k.val; omega

/-- An index of the output array is in point `t`'s block iff its row is among the block's 2000 rows. -/
theorem mem_blk4 (t : Fin cfg4.N) (i : S50000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v173).slice (win4_5.rect t)).set ↔ _
  rw [View.set_slice_whole, Rect.mem_set_unit]
  exact Iff.rfl

/-- The blocks cover the output array: row `ρ` lies in the block of point `ρ / 2000`. -/
theorem cover4 (i : S50000x256.Idx) : ∃ t : Fin cfg4.N, (cfg4.win 5).flush t = true ∧ i ∈ ((cfg4.win 5).blk t).view.set := by
  have hi0 : (i 0).val < 50000 := (i 0).isLt
  have hi1 : (i 1).val < 256 := (i 1).isLt
  obtain ⟨t, ht⟩ := idx_onto4 ⟨(i 0).val / 2000, by omega⟩
  have q0 : win4_5.index t (0 : Fin 2) = (i 0).val / 2000 := congrFun ht 0
  have q1 : win4_5.index t (1 : Fin 2) = 0 := congrFun ht 1
  refine ⟨t, flush4_5 t, ?_⟩
  rw [mem_blk4]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 256 ≤ (i 1).val ∧ (i 1).val < win4_5.index t (1 : Fin 2) * 256 + 256; omega

/-- The region's output array after the region. -/
theorem final4 (c : Dev nD) : (dat4 V c).arrAt 5 cfg4.N = G4 V c :=
  (dat4 V c).arrAt_eq_of_cover 5 (G4 V c) (fun t _ => flushed4_eq V c t) (cover4)

end Cert.KernelIdeal.Fr

end
-- ==== Proof.KI.Val5.lean ====
/-
  What region 5 leaves in its output array, at the ideal instance: the host's two-layer perceptron of the region's five
  input arrays, entry by entry.  Grid point `t` stages rows 2000·t … 2000·t+1999 of the activations and the whole of the
  weights and biases, and writes back the same rows of the output; the 25 blocks tile the 50000 rows.
-/
import proofs.«171333_j58007828300388_1_alg».proof.Proof.KI.R5
import proofs.«171333_j58007828300388_1_alg».proof.Proof.KI.ValCommon
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem hz2_5 : (![0, 0] : Fin 2 → Nat) = fun _ => 0 := funext fun a => by fin_cases a <;> rfl
theorem hz1_5 : (![0] : Fin 1 → Nat) = fun _ => 0 := funext fun a => by fin_cases a; rfl

/-- The printed index maps, decided over the grid: the activations' and the output's block follow the grid point along the
    rows; the weights' and biases' blocks never move. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 ∧ t.val < 25 :=
  (by decide +kernel : ∀ t : Fin grid5.N, _)

/-- Every row block is some grid point's. -/
theorem idx_onto5 : ∀ (q0 : Fin 25), ∃ t : Fin cfg5.N, win5_5.index t = ![q0.val, 0] :=
  (by decide +kernel : ∀ (q0 : Fin 25), ∃ t : Fin grid5.N, win5_5.index t = ![q0.val, 0])

/-- The array the region's output ends holding: the host perceptron of the five input arrays as the region finds them. -/
def G5 (c : Dev nD) : S50000x256.Idx → Elt Ideal .f32 :=
  Cert.Mlp.hostMlpA (F := Ideal) (V c (Pipeline.arrRef spec5 0) : S50000x256.Idx → Elt Ideal .f32) (V c (Pipeline.arrRef spec5 1) : S256x256.Idx → Elt Ideal .f32) (V c (Pipeline.arrRef spec5 2) : S256.Idx → Elt Ideal .f32) (V c (Pipeline.arrRef spec5 3) : S256x256.Idx → Elt Ideal .f32) (V c (Pipeline.arrRef spec5 4) : S256.Idx → Elt Ideal .f32)

set_option maxHeartbeats 4000000 in
/-- What grid point `t` writes back is block `t` of that array. -/
theorem flushed5_eq (c : Dev nD) (t : Fin cfg5.N) :
    (dat5 V c).flushed 5 t = ((cfg5.win 5).blk t).view.read (Elt Ideal) (G5 V c) := by
  show (cfg5.win 5).cut (grid5.coords t) ((dat5 V c).after 5 t) = _
  rw [after5_5]
  unfold out5_5
  rw [View.canon_unit_zero hz2_5]
  simp only [View.ld_unit_zero (S := S2000x256) hz2_5, View.ld_unit_zero (S := S256x256) hz2_5, View.ld_unit_zero (S := S256) hz1_5]
  obtain ⟨e0, e1, e2, e3, e4, e5, e6, e7, e8, e9, e10⟩ := idx_facts5 t
  funext y
  obtain ⟨p, q, rfl⟩ : ∃ (p : Fin 2000) (q : Fin 256), y = ix2 p q := ⟨y 0, y 1, eq_ix2 y⟩
  have hp : p.val < 2000 := p.isLt
  have hq : q.val < 256 := q.isLt
  let r : Fin 50000 := ⟨t.val * 2000 + p.val, by omega⟩
  have hemb : ((cfg5.win 5).blk t).view.emb (ix2 p q) = (ix2 r q : S50000x256.Idx) := by
    funext a; apply Fin.ext
    match a with
    | ⟨0, _⟩ => show win5_5.index t (0 : Fin 2) * 2000 + 1 * p.val = t.val * 2000 + p.val; omega
    | ⟨1, _⟩ => show win5_5.index t (1 : Fin 2) * 256 + 1 * q.val = q.val; omega
  show Cert.KernelIdeal.Gen.k0_pay1 (F := Ideal) (iblk5 V c 0 t) (iblk5 V c 1 t) (iblk5 V c 2 t) (iblk5 V c 3 t) (iblk5 V c 4 t) (ix2 p q)
    = G5 V c (((cfg5.win 5).blk t).view.emb (ix2 p q))
  rw [hemb]
  unfold G5
  refine pay_host_A (iblk5 V c 0 t) (iblk5 V c 1 t) (iblk5 V c 2 t) (iblk5 V c 3 t) (iblk5 V c 4 t) _ _ _ _ _ p q r ?_ ?_ ?_ ?_ ?_
  · intro j
    have hj : j.val < 256 := j.isLt
    show (V c (Pipeline.arrRef spec5 0) : S50000x256.Idx → Elt Ideal .f32) (((cfg5.win 0).blk t).view.emb (ix2 p j)) = (V c (Pipeline.arrRef spec5 0) : S50000x256.Idx → Elt Ideal .f32) (ix2 r j)
    refine congrArg _ ?_
    funext a; apply Fin.ext
    match a with
    | ⟨0, _⟩ => show win5_0.index t (0 : Fin 2) * 2000 + 1 * p.val = t.val * 2000 + p.val; omega
    | ⟨1, _⟩ => show win5_0.index t (1 : Fin 2) * 256 + 1 * j.val = j.val; omega
  · intro j k
    show (V c (Pipeline.arrRef spec5 1) : S256x256.Idx → Elt Ideal .f32) (((cfg5.win 1).blk t).view.emb (ix2 j k)) = (V c (Pipeline.arrRef spec5 1) : S256x256.Idx → Elt Ideal .f32) (ix2 j k)
    refine congrArg _ ?_
    funext a; apply Fin.ext
    match a with
    | ⟨0, _⟩ => show win5_1.index t (0 : Fin 2) * 256 + 1 * j.val = j.val; omega
    | ⟨1, _⟩ => show win5_1.index t (1 : Fin 2) * 256 + 1 * k.val = k.val; omega
  · intro k
    show (V c (Pipeline.arrRef spec5 2) : S256.Idx → Elt Ideal .f32) (((cfg5.win 2).blk t).view.emb (ix1 k)) = (V c (Pipeline.arrRef spec5 2) : S256.Idx → Elt Ideal .f32) (ix1 k)
    refine congrArg _ ?_
    funext a; apply Fin.ext
    match a with
    | ⟨0, _⟩ => show win5_2.index t (0 : Fin 1) * 256 + 1 * k.val = k.val; omega
  · intro j k
    show (V c (Pipeline.arrRef spec5 3) : S256x256.Idx → Elt Ideal .f32) (((cfg5.win 3).blk t).view.emb (ix2 j k)) = (V c (Pipeline.arrRef spec5 3) : S256x256.Idx → Elt Ideal .f32) (ix2 j k)
    refine congrArg _ ?_
    funext a; apply Fin.ext
    match a with
    | ⟨0, _⟩ => show win5_3.index t (0 : Fin 2) * 256 + 1 * j.val = j.val; omega
    | ⟨1, _⟩ => show win5_3.index t (1 : Fin 2) * 256 + 1 * k.val = k.val; omega
  · intro k
    show (V c (Pipeline.arrRef spec5 4) : S256.Idx → Elt Ideal .f32) (((cfg5.win 4).blk t).view.emb (ix1 k)) = (V c (Pipeline.arrRef spec5 4) : S256.Idx → Elt Ideal .f32) (ix1 k)
    refine congrArg _ ?_
    funext a; apply Fin.ext
    match a with
    | ⟨0, _⟩ => show win5_4.index t (0 : Fin 1) * 256 + 1 * k.val = k.val; omega

/-- An index of the output array is in point `t`'s block iff its row is among the block's 2000 rows. -/
theorem mem_blk5 (t : Fin cfg5.N) (i : S50000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v182).slice (win5_5.rect t)).set ↔ _
  rw [View.set_slice_whole, Rect.mem_set_unit]
  exact Iff.rfl

/-- The blocks cover the output array: row `ρ` lies in the block of point `ρ / 2000`. -/
theorem cover5 (i : S50000x256.Idx) : ∃ t : Fin cfg5.N, (cfg5.win 5).flush t = true ∧ i ∈ ((cfg5.win 5).blk t).view.set := by
  have hi0 : (i 0).val < 50000 := (i 0).isLt
  have hi1 : (i 1).val < 256 := (i 1).isLt
  obtain ⟨t, ht⟩ := idx_onto5 ⟨(i 0).val / 2000, by omega⟩
  have q0 : win5_5.index t (0 : Fin 2) = (i 0).val / 2000 := congrFun ht 0
  have q1 : win5_5.index t (1 : Fin 2) = 0 := congrFun ht 1
  refine ⟨t, flush5_5 t, ?_⟩
  rw [mem_blk5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 256 ≤ (i 1).val ∧ (i 1).val < win5_5.index t (1 : Fin 2) * 256 + 256; omega

/-- The region's output array after the region. -/
theorem final5 (c : Dev nD) : (dat5 V c).arrAt 5 cfg5.N = G5 V c :=
  (dat5 V c).arrAt_eq_of_cover 5 (G5 V c) (fun t _ => flushed5_eq V c t) (cover5)

end Cert.KernelIdeal.Fr

end
-- ==== Proof.KI.Val6.lean ====
/-
  What region 6 leaves in its output array, at the ideal instance: the host's two-layer perceptron of the region's five
  input arrays, entry by entry.  Grid point `t` stages rows 2000·t … 2000·t+1999 of the activations and the whole of the
  weights and biases, and writes back the same rows of the output; the 5 blocks tile the 10000 rows.
-/
import proofs.«171333_j58007828300388_1_alg».proof.Proof.KI.R6
import proofs.«171333_j58007828300388_1_alg».proof.Proof.KI.ValCommon
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem hz2_6 : (![0, 0] : Fin 2 → Nat) = fun _ => 0 := funext fun a => by fin_cases a <;> rfl
theorem hz1_6 : (![0] : Fin 1 → Nat) = fun _ => 0 := funext fun a => by fin_cases a; rfl

/-- The printed index maps, decided over the grid: the activations' and the output's block follow the grid point along the
    rows; the weights' and biases' blocks never move. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = 0 ∧ win6_3.index t (1 : Fin 2) = 0
    ∧ win6_4.index t (0 : Fin 1) = 0
    ∧ win6_5.index t (0 : Fin 2) = t.val ∧ win6_5.index t (1 : Fin 2) = 0 ∧ t.val < 5 :=
  (by decide +kernel : ∀ t : Fin grid6.N, _)

/-- Every row block is some grid point's. -/
theorem idx_onto6 : ∀ (q0 : Fin 5), ∃ t : Fin cfg6.N, win6_5.index t = ![q0.val, 0] :=
  (by decide +kernel : ∀ (q0 : Fin 5), ∃ t : Fin grid6.N, win6_5.index t = ![q0.val, 0])

/-- The array the region's output ends holding: the host perceptron of the five input arrays as the region finds them. -/
def G6 (c : Dev nD) : S10000x256.Idx → Elt Ideal .f32 :=
  Cert.Mlp.hostMlpM (F := Ideal) (V c (Pipeline.arrRef spec6 0) : S10000x256.Idx → Elt Ideal .f32) (V c (Pipeline.arrRef spec6 1) : S256x256.Idx → Elt Ideal .f32) (V c (Pipeline.arrRef spec6 2) : S256.Idx → Elt Ideal .f32) (V c (Pipeline.arrRef spec6 3) : S256x256.Idx → Elt Ideal .f32) (V c (Pipeline.arrRef spec6 4) : S256.Idx → Elt Ideal .f32)

set_option maxHeartbeats 4000000 in
/-- What grid point `t` writes back is block `t` of that array. -/
theorem flushed6_eq (c : Dev nD) (t : Fin cfg6.N) :
    (dat6 V c).flushed 5 t = ((cfg6.win 5).blk t).view.read (Elt Ideal) (G6 V c) := by
  show (cfg6.win 5).cut (grid6.coords t) ((dat6 V c).after 5 t) = _
  rw [after6_5]
  unfold out6_5
  rw [View.canon_unit_zero hz2_6]
  simp only [View.ld_unit_zero (S := S2000x256) hz2_6, View.ld_unit_zero (S := S256x256) hz2_6, View.ld_unit_zero (S := S256) hz1_6]
  obtain ⟨e0, e1, e2, e3, e4, e5, e6, e7, e8, e9, e10⟩ := idx_facts6 t
  funext y
  obtain ⟨p, q, rfl⟩ : ∃ (p : Fin 2000) (q : Fin 256), y = ix2 p q := ⟨y 0, y 1, eq_ix2 y⟩
  have hp : p.val < 2000 := p.isLt
  have hq : q.val < 256 := q.isLt
  let r : Fin 10000 := ⟨t.val * 2000 + p.val, by omega⟩
  have hemb : ((cfg6.win 5).blk t).view.emb (ix2 p q) = (ix2 r q : S10000x256.Idx) := by
    funext a; apply Fin.ext
    match a with
    | ⟨0, _⟩ => show win6_5.index t (0 : Fin 2) * 2000 + 1 * p.val = t.val * 2000 + p.val; omega
    | ⟨1, _⟩ => show win6_5.index t (1 : Fin 2) * 256 + 1 * q.val = q.val; omega
  show Cert.KernelIdeal.Gen.k0_pay1 (F := Ideal) (iblk6 V c 0 t) (iblk6 V c 1 t) (iblk6 V c 2 t) (iblk6 V c 3 t) (iblk6 V c 4 t) (ix2 p q)
    = G6 V c (((cfg6.win 5).blk t).view.emb (ix2 p q))
  rw [hemb]
  unfold G6
  refine pay_host_M (iblk6 V c 0 t) (iblk6 V c 1 t) (iblk6 V c 2 t) (iblk6 V c 3 t) (iblk6 V c 4 t) _ _ _ _ _ p q r ?_ ?_ ?_ ?_ ?_
  · intro j
    have hj : j.val < 256 := j.isLt
    show (V c (Pipeline.arrRef spec6 0) : S10000x256.Idx → Elt Ideal .f32) (((cfg6.win 0).blk t).view.emb (ix2 p j)) = (V c (Pipeline.arrRef spec6 0) : S10000x256.Idx → Elt Ideal .f32) (ix2 r j)
    refine congrArg _ ?_
    funext a; apply Fin.ext
    match a with
    | ⟨0, _⟩ => show win6_0.index t (0 : Fin 2) * 2000 + 1 * p.val = t.val * 2000 + p.val; omega
    | ⟨1, _⟩ => show win6_0.index t (1 : Fin 2) * 256 + 1 * j.val = j.val; omega
  · intro j k
    show (V c (Pipeline.arrRef spec6 1) : S256x256.Idx → Elt Ideal .f32) (((cfg6.win 1).blk t).view.emb (ix2 j k)) = (V c (Pipeline.arrRef spec6 1) : S256x256.Idx → Elt Ideal .f32) (ix2 j k)
    refine congrArg _ ?_
    funext a; apply Fin.ext
    match a with
    | ⟨0, _⟩ => show win6_1.index t (0 : Fin 2) * 256 + 1 * j.val = j.val; omega
    | ⟨1, _⟩ => show win6_1.index t (1 : Fin 2) * 256 + 1 * k.val = k.val; omega
  · intro k
    show (V c (Pipeline.arrRef spec6 2) : S256.Idx → Elt Ideal .f32) (((cfg6.win 2).blk t).view.emb (ix1 k)) = (V c (Pipeline.arrRef spec6 2) : S256.Idx → Elt Ideal .f32) (ix1 k)
    refine congrArg _ ?_
    funext a; apply Fin.ext
    match a with
    | ⟨0, _⟩ => show win6_2.index t (0 : Fin 1) * 256 + 1 * k.val = k.val; omega
  · intro j k
    show (V c (Pipeline.arrRef spec6 3) : S256x256.Idx → Elt Ideal .f32) (((cfg6.win 3).blk t).view.emb (ix2 j k)) = (V c (Pipeline.arrRef spec6 3) : S256x256.Idx → Elt Ideal .f32) (ix2 j k)
    refine congrArg _ ?_
    funext a; apply Fin.ext
    match a with
    | ⟨0, _⟩ => show win6_3.index t (0 : Fin 2) * 256 + 1 * j.val = j.val; omega
    | ⟨1, _⟩ => show win6_3.index t (1 : Fin 2) * 256 + 1 * k.val = k.val; omega
  · intro k
    show (V c (Pipeline.arrRef spec6 4) : S256.Idx → Elt Ideal .f32) (((cfg6.win 4).blk t).view.emb (ix1 k)) = (V c (Pipeline.arrRef spec6 4) : S256.Idx → Elt Ideal .f32) (ix1 k)
    refine congrArg _ ?_
    funext a; apply Fin.ext
    match a with
    | ⟨0, _⟩ => show win6_4.index t (0 : Fin 1) * 256 + 1 * k.val = k.val; omega

/-- An index of the output array is in point `t`'s block iff its row is among the block's 2000 rows. -/
theorem mem_blk6 (t : Fin cfg6.N) (i : S10000x256.Idx) :
    i ∈ ((cfg6.win 5).blk t).view.set ↔ ∀ a : Fin 2, win6_5.index t a * S2000x256.size a ≤ (i a).val ∧ (i a).val < win6_5.index t a * S2000x256.size a + S2000x256.size a := by
  show i ∈ ((View.whole main_v191).slice (win6_5.rect t)).set ↔ _
  rw [View.set_slice_whole, Rect.mem_set_unit]
  exact Iff.rfl

/-- The blocks cover the output array: row `ρ` lies in the block of point `ρ / 2000`. -/
theorem cover6 (i : S10000x256.Idx) : ∃ t : Fin cfg6.N, (cfg6.win 5).flush t = true ∧ i ∈ ((cfg6.win 5).blk t).view.set := by
  have hi0 : (i 0).val < 10000 := (i 0).isLt
  have hi1 : (i 1).val < 256 := (i 1).isLt
  obtain ⟨t, ht⟩ := idx_onto6 ⟨(i 0).val / 2000, by omega⟩
  have q0 : win6_5.index t (0 : Fin 2) = (i 0).val / 2000 := congrFun ht 0
  have q1 : win6_5.index t (1 : Fin 2) = 0 := congrFun ht 1
  refine ⟨t, flush6_5 t, ?_⟩
  rw [mem_blk6]
  intro a
  match a with
  | ⟨0, _⟩ => show win6_5.index t (0 : Fin 2) * 2000 ≤ (i 0).val ∧ (i 0).val < win6_5.index t (0 : Fin 2) * 2000 + 2000; omega
  | ⟨1, _⟩ => show win6_5.index t (1 : Fin 2) * 256 ≤ (i 1).val ∧ (i 1).val < win6_5.index t (1 : Fin 2) * 256 + 256; omega

/-- The region's output array after the region. -/
theorem final6 (c : Dev nD) : (dat6 V c).arrAt 5 cfg6.N = G6 V c :=
  (dat6 V c).arrAt_eq_of_cover 5 (G6 V c) (fun t _ => flushed6_eq V c t) (cover6)

end Cert.KernelIdeal.Fr

end
-- ==== Proof.KI.Val7.lean ====
/-
  What region 7 leaves in its output array, at the ideal instance: the host's two-layer perceptron of the region's five
  input arrays, entry by entry.  Grid point `t` stages rows 2000·t … 2000·t+1999 of the activations and the whole of the
  weights and biases, and writes back the same rows of the output; the 5 blocks tile the 10000 rows.
-/
import proofs.«171333_j58007828300388_1_alg».proof.Proof.KI.R7
import proofs.«171333_j58007828300388_1_alg».proof.Proof.KI.ValCommon
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem hz2_7 : (![0, 0] : Fin 2 → Nat) = fun _ => 0 := funext fun a => by fin_cases a <;> rfl
theorem hz1_7 : (![0] : Fin 1 → Nat) = fun _ => 0 := funext fun a => by fin_cases a; rfl

/-- The printed index maps, decided over the grid: the activations' and the output's block follow the grid point along the
    rows; the weights' and biases' blocks never move. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = 0 ∧ win7_3.index t (1 : Fin 2) = 0
    ∧ win7_4.index t (0 : Fin 1) = 0
    ∧ win7_5.index t (0 : Fin 2) = t.val ∧ win7_5.index t (1 : Fin 2) = 0 ∧ t.val < 5 :=
  (by decide +kernel : ∀ t : Fin grid7.N, _)

/-- Every row block is some grid point's. -/
theorem idx_onto7 : ∀ (q0 : Fin 5), ∃ t : Fin cfg7.N, win7_5.index t = ![q0.val, 0] :=
  (by decide +kernel : ∀ (q0 : Fin 5), ∃ t : Fin grid7.N, win7_5.index t = ![q0.val, 0])

/-- The array the region's output ends holding: the host perceptron of the five input arrays as the region finds them. -/
def G7 (c : Dev nD) : S10000x256.Idx → Elt Ideal .f32 :=
  Cert.Mlp.hostMlpM (F := Ideal) (V c (Pipeline.arrRef spec7 0) : S10000x256.Idx → Elt Ideal .f32) (V c (Pipeline.arrRef spec7 1) : S256x256.Idx → Elt Ideal .f32) (V c (Pipeline.arrRef spec7 2) : S256.Idx → Elt Ideal .f32) (V c (Pipeline.arrRef spec7 3) : S256x256.Idx → Elt Ideal .f32) (V c (Pipeline.arrRef spec7 4) : S256.Idx → Elt Ideal .f32)

set_option maxHeartbeats 4000000 in
/-- What grid point `t` writes back is block `t` of that array. -/
theorem flushed7_eq (c : Dev nD) (t : Fin cfg7.N) :
    (dat7 V c).flushed 5 t = ((cfg7.win 5).blk t).view.read (Elt Ideal) (G7 V c) := by
  show (cfg7.win 5).cut (grid7.coords t) ((dat7 V c).after 5 t) = _
  rw [after7_5]
  unfold out7_5
  rw [View.canon_unit_zero hz2_7]
  simp only [View.ld_unit_zero (S := S2000x256) hz2_7, View.ld_unit_zero (S := S256x256) hz2_7, View.ld_unit_zero (S := S256) hz1_7]
  obtain ⟨e0, e1, e2, e3, e4, e5, e6, e7, e8, e9, e10⟩ := idx_facts7 t
  funext y
  obtain ⟨p, q, rfl⟩ : ∃ (p : Fin 2000) (q : Fin 256), y = ix2 p q := ⟨y 0, y 1, eq_ix2 y⟩
  have hp : p.val < 2000 := p.isLt
  have hq : q.val < 256 := q.isLt
  let r : Fin 10000 := ⟨t.val * 2000 + p.val, by omega⟩
  have hemb : ((cfg7.win 5).blk t).view.emb (ix2 p q) = (ix2 r q : S10000x256.Idx) := by
    funext a; apply Fin.ext
    match a with
    | ⟨0, _⟩ => show win7_5.index t (0 : Fin 2) * 2000 + 1 * p.val = t.val * 2000 + p.val; omega
    | ⟨1, _⟩ => show win7_5.index t (1 : Fin 2) * 256 + 1 * q.val = q.val; omega
  show Cert.KernelIdeal.Gen.k0_pay1 (F := Ideal) (iblk7 V c 0 t) (iblk7 V c 1 t) (iblk7 V c 2 t) (iblk7 V c 3 t) (iblk7 V c 4 t) (ix2 p q)
    = G7 V c (((cfg7.win 5).blk t).view.emb (ix2 p q))
  rw [hemb]
  unfold G7
  refine pay_host_M (iblk7 V c 0 t) (iblk7 V c 1 t) (iblk7 V c 2 t) (iblk7 V c 3 t) (iblk7 V c 4 t) _ _ _ _ _ p q r ?_ ?_ ?_ ?_ ?_
  · intro j
    have hj : j.val < 256 := j.isLt
    show (V c (Pipeline.arrRef spec7 0) : S10000x256.Idx → Elt Ideal .f32) (((cfg7.win 0).blk t).view.emb (ix2 p j)) = (V c (Pipeline.arrRef spec7 0) : S10000x256.Idx → Elt Ideal .f32) (ix2 r j)
    refine congrArg _ ?_
    funext a; apply Fin.ext
    match a with
    | ⟨0, _⟩ => show win7_0.index t (0 : Fin 2) * 2000 + 1 * p.val = t.val * 2000 + p.val; omega
    | ⟨1, _⟩ => show win7_0.index t (1 : Fin 2) * 256 + 1 * j.val = j.val; omega
  · intro j k
    show (V c (Pipeline.arrRef spec7 1) : S256x256.Idx → Elt Ideal .f32) (((cfg7.win 1).blk t).view.emb (ix2 j k)) = (V c (Pipeline.arrRef spec7 1) : S256x256.Idx → Elt Ideal .f32) (ix2 j k)
    refine congrArg _ ?_
    funext a; apply Fin.ext
    match a with
    | ⟨0, _⟩ => show win7_1.index t (0 : Fin 2) * 256 + 1 * j.val = j.val; omega
    | ⟨1, _⟩ => show win7_1.index t (1 : Fin 2) * 256 + 1 * k.val = k.val; omega
  · intro k
    show (V c (Pipeline.arrRef spec7 2) : S256.Idx → Elt Ideal .f32) (((cfg7.win 2).blk t).view.emb (ix1 k)) = (V c (Pipeline.arrRef spec7 2) : S256.Idx → Elt Ideal .f32) (ix1 k)
    refine congrArg _ ?_
    funext a; apply Fin.ext
    match a with
    | ⟨0, _⟩ => show win7_2.index t (0 : Fin 1) * 256 + 1 * k.val = k.val; omega
  · intro j k
    show (V c (Pipeline.arrRef spec7 3) : S256x256.Idx → Elt Ideal .f32) (((cfg7.win 3).blk t).view.emb (ix2 j k)) = (V c (Pipeline.arrRef spec7 3) : S256x256.Idx → Elt Ideal .f32) (ix2 j k)
    refine congrArg _ ?_
    funext a; apply Fin.ext
    match a with
    | ⟨0, _⟩ => show win7_3.index t (0 : Fin 2) * 256 + 1 * j.val = j.val; omega
    | ⟨1, _⟩ => show win7_3.index t (1 : Fin 2) * 256 + 1 * k.val = k.val; omega
  · intro k
    show (V c (Pipeline.arrRef spec7 4) : S256.Idx → Elt Ideal .f32) (((cfg7.win 4).blk t).view.emb (ix1 k)) = (V c (Pipeline.arrRef spec7 4) : S256.Idx → Elt Ideal .f32) (ix1 k)
    refine congrArg _ ?_
    funext a; apply Fin.ext
    match a with
    | ⟨0, _⟩ => show win7_4.index t (0 : Fin 1) * 256 + 1 * k.val = k.val; omega

/-- An index of the output array is in point `t`'s block iff its row is among the block's 2000 rows. -/
theorem mem_blk7 (t : Fin cfg7.N) (i : S10000x256.Idx) :
    i ∈ ((cfg7.win 5).blk t).view.set ↔ ∀ a : Fin 2, win7_5.index t a * S2000x256.size a ≤ (i a).val ∧ (i a).val < win7_5.index t a * S2000x256.size a + S2000x256.size a := by
  show i ∈ ((View.whole main_v200).slice (win7_5.rect t)).set ↔ _
  rw [View.set_slice_whole, Rect.mem_set_unit]
  exact Iff.rfl

/-- The blocks cover the output array: row `ρ` lies in the block of point `ρ / 2000`. -/
theorem cover7 (i : S10000x256.Idx) : ∃ t : Fin cfg7.N, (cfg7.win 5).flush t = true ∧ i ∈ ((cfg7.win 5).blk t).view.set := by
  have hi0 : (i 0).val < 10000 := (i 0).isLt
  have hi1 : (i 1).val < 256 := (i 1).isLt
  obtain ⟨t, ht⟩ := idx_onto7 ⟨(i 0).val / 2000, by omega⟩
  have q0 : win7_5.index t (0 : Fin 2) = (i 0).val / 2000 := congrFun ht 0
  have q1 : win7_5.index t (1 : Fin 2) = 0 := congrFun ht 1
  refine ⟨t, flush7_5 t, ?_⟩
  rw [mem_blk7]
  intro a
  match a with
  | ⟨0, _⟩ => show win7_5.index t (0 : Fin 2) * 2000 ≤ (i 0).val ∧ (i 0).val < win7_5.index t (0 : Fin 2) * 2000 + 2000; omega
  | ⟨1, _⟩ => show win7_5.index t (1 : Fin 2) * 256 ≤ (i 1).val ∧ (i 1).val < win7_5.index t (1 : Fin 2) * 256 + 256; omega

/-- The region's output array after the region. -/
theorem final7 (c : Dev nD) : (dat7 V c).arrAt 5 cfg7.N = G7 V c :=
  (dat7 V c).arrAt_eq_of_cover 5 (G7 V c) (fun t _ => flushed7_eq V c t) (cover7)

end Cert.KernelIdeal.Fr

end
-- ==== Proof.KI.Val8.lean ====
/-
  What region 8 leaves in its output array, at the ideal instance: the host's two-layer perceptron of the region's five
  input arrays, entry by entry.  Grid point `t` stages rows 2000·t … 2000·t+1999 of the activations and the whole of the
  weights and biases, and writes back the same rows of the output; the 25 blocks tile the 50000 rows.
-/
import proofs.«171333_j58007828300388_1_alg».proof.Proof.KI.R8
import proofs.«171333_j58007828300388_1_alg».proof.Proof.KI.ValCommon
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem hz2_8 : (![0, 0] : Fin 2 → Nat) = fun _ => 0 := funext fun a => by fin_cases a <;> rfl
theorem hz1_8 : (![0] : Fin 1 → Nat) = fun _ => 0 := funext fun a => by fin_cases a; rfl

/-- The printed index maps, decided over the grid: the activations' and the output's block follow the grid point along the
    rows; the weights' and biases' blocks never move. -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 1) = 0
    ∧ win8_3.index t (0 : Fin 2) = 0 ∧ win8_3.index t (1 : Fin 2) = 0
    ∧ win8_4.index t (0 : Fin 1) = 0
    ∧ win8_5.index t (0 : Fin 2) = t.val ∧ win8_5.index t (1 : Fin 2) = 0 ∧ t.val < 25 :=
  (by decide +kernel : ∀ t : Fin grid8.N, _)

/-- Every row block is some grid point's. -/
theorem idx_onto8 : ∀ (q0 : Fin 25), ∃ t : Fin cfg8.N, win8_5.index t = ![q0.val, 0] :=
  (by decide +kernel : ∀ (q0 : Fin 25), ∃ t : Fin grid8.N, win8_5.index t = ![q0.val, 0])

/-- The array the region's output ends holding: the host perceptron of the five input arrays as the region finds them. -/
def G8 (c : Dev nD) : S50000x256.Idx → Elt Ideal .f32 :=
  Cert.Mlp.hostMlpA (F := Ideal) (V c (Pipeline.arrRef spec8 0) : S50000x256.Idx → Elt Ideal .f32) (V c (Pipeline.arrRef spec8 1) : S256x256.Idx → Elt Ideal .f32) (V c (Pipeline.arrRef spec8 2) : S256.Idx → Elt Ideal .f32) (V c (Pipeline.arrRef spec8 3) : S256x256.Idx → Elt Ideal .f32) (V c (Pipeline.arrRef spec8 4) : S256.Idx → Elt Ideal .f32)

set_option maxHeartbeats 4000000 in
/-- What grid point `t` writes back is block `t` of that array. -/
theorem flushed8_eq (c : Dev nD) (t : Fin cfg8.N) :
    (dat8 V c).flushed 5 t = ((cfg8.win 5).blk t).view.read (Elt Ideal) (G8 V c) := by
  show (cfg8.win 5).cut (grid8.coords t) ((dat8 V c).after 5 t) = _
  rw [after8_5]
  unfold out8_5
  rw [View.canon_unit_zero hz2_8]
  simp only [View.ld_unit_zero (S := S2000x256) hz2_8, View.ld_unit_zero (S := S256x256) hz2_8, View.ld_unit_zero (S := S256) hz1_8]
  obtain ⟨e0, e1, e2, e3, e4, e5, e6, e7, e8, e9, e10⟩ := idx_facts8 t
  funext y
  obtain ⟨p, q, rfl⟩ : ∃ (p : Fin 2000) (q : Fin 256), y = ix2 p q := ⟨y 0, y 1, eq_ix2 y⟩
  have hp : p.val < 2000 := p.isLt
  have hq : q.val < 256 := q.isLt
  let r : Fin 50000 := ⟨t.val * 2000 + p.val, by omega⟩
  have hemb : ((cfg8.win 5).blk t).view.emb (ix2 p q) = (ix2 r q : S50000x256.Idx) := by
    funext a; apply Fin.ext
    match a with
    | ⟨0, _⟩ => show win8_5.index t (0 : Fin 2) * 2000 + 1 * p.val = t.val * 2000 + p.val; omega
    | ⟨1, _⟩ => show win8_5.index t (1 : Fin 2) * 256 + 1 * q.val = q.val; omega
  show Cert.KernelIdeal.Gen.k0_pay1 (F := Ideal) (iblk8 V c 0 t) (iblk8 V c 1 t) (iblk8 V c 2 t) (iblk8 V c 3 t) (iblk8 V c 4 t) (ix2 p q)
    = G8 V c (((cfg8.win 5).blk t).view.emb (ix2 p q))
  rw [hemb]
  unfold G8
  refine pay_host_A (iblk8 V c 0 t) (iblk8 V c 1 t) (iblk8 V c 2 t) (iblk8 V c 3 t) (iblk8 V c 4 t) _ _ _ _ _ p q r ?_ ?_ ?_ ?_ ?_
  · intro j
    have hj : j.val < 256 := j.isLt
    show (V c (Pipeline.arrRef spec8 0) : S50000x256.Idx → Elt Ideal .f32) (((cfg8.win 0).blk t).view.emb (ix2 p j)) = (V c (Pipeline.arrRef spec8 0) : S50000x256.Idx → Elt Ideal .f32) (ix2 r j)
    refine congrArg _ ?_
    funext a; apply Fin.ext
    match a with
    | ⟨0, _⟩ => show win8_0.index t (0 : Fin 2) * 2000 + 1 * p.val = t.val * 2000 + p.val; omega
    | ⟨1, _⟩ => show win8_0.index t (1 : Fin 2) * 256 + 1 * j.val = j.val; omega
  · intro j k
    show (V c (Pipeline.arrRef spec8 1) : S256x256.Idx → Elt Ideal .f32) (((cfg8.win 1).blk t).view.emb (ix2 j k)) = (V c (Pipeline.arrRef spec8 1) : S256x256.Idx → Elt Ideal .f32) (ix2 j k)
    refine congrArg _ ?_
    funext a; apply Fin.ext
    match a with
    | ⟨0, _⟩ => show win8_1.index t (0 : Fin 2) * 256 + 1 * j.val = j.val; omega
    | ⟨1, _⟩ => show win8_1.index t (1 : Fin 2) * 256 + 1 * k.val = k.val; omega
  · intro k
    show (V c (Pipeline.arrRef spec8 2) : S256.Idx → Elt Ideal .f32) (((cfg8.win 2).blk t).view.emb (ix1 k)) = (V c (Pipeline.arrRef spec8 2) : S256.Idx → Elt Ideal .f32) (ix1 k)
    refine congrArg _ ?_
    funext a; apply Fin.ext
    match a with
    | ⟨0, _⟩ => show win8_2.index t (0 : Fin 1) * 256 + 1 * k.val = k.val; omega
  · intro j k
    show (V c (Pipeline.arrRef spec8 3) : S256x256.Idx → Elt Ideal .f32) (((cfg8.win 3).blk t).view.emb (ix2 j k)) = (V c (Pipeline.arrRef spec8 3) : S256x256.Idx → Elt Ideal .f32) (ix2 j k)
    refine congrArg _ ?_
    funext a; apply Fin.ext
    match a with
    | ⟨0, _⟩ => show win8_3.index t (0 : Fin 2) * 256 + 1 * j.val = j.val; omega
    | ⟨1, _⟩ => show win8_3.index t (1 : Fin 2) * 256 + 1 * k.val = k.val; omega
  · intro k
    show (V c (Pipeline.arrRef spec8 4) : S256.Idx → Elt Ideal .f32) (((cfg8.win 4).blk t).view.emb (ix1 k)) = (V c (Pipeline.arrRef spec8 4) : S256.Idx → Elt Ideal .f32) (ix1 k)
    refine congrArg _ ?_
    funext a; apply Fin.ext
    match a with
    | ⟨0, _⟩ => show win8_4.index t (0 : Fin 1) * 256 + 1 * k.val = k.val; omega

/-- An index of the output array is in point `t`'s block iff its row is among the block's 2000 rows. -/
theorem mem_blk8 (t : Fin cfg8.N) (i : S50000x256.Idx) :
    i ∈ ((cfg8.win 5).blk t).view.set ↔ ∀ a : Fin 2, win8_5.index t a * S2000x256.size a ≤ (i a).val ∧ (i a).val < win8_5.index t a * S2000x256.size a + S2000x256.size a := by
  show i ∈ ((View.whole main_v278).slice (win8_5.rect t)).set ↔ _
  rw [View.set_slice_whole, Rect.mem_set_unit]
  exact Iff.rfl

/-- The blocks cover the output array: row `ρ` lies in the block of point `ρ / 2000`. -/
theorem cover8 (i : S50000x256.Idx) : ∃ t : Fin cfg8.N, (cfg8.win 5).flush t = true ∧ i ∈ ((cfg8.win 5).blk t).view.set := by
  have hi0 : (i 0).val < 50000 := (i 0).isLt
  have hi1 : (i 1).val < 256 := (i 1).isLt
  obtain ⟨t, ht⟩ := idx_onto8 ⟨(i 0).val / 2000, by omega⟩
  have q0 : win8_5.index t (0 : Fin 2) = (i 0).val / 2000 := congrFun ht 0
  have q1 : win8_5.index t (1 : Fin 2) = 0 := congrFun ht 1
  refine ⟨t, flush8_5 t, ?_⟩
  rw [mem_blk8]
  intro a
  match a with
  | ⟨0, _⟩ => show win8_5.index t (0 : Fin 2) * 2000 ≤ (i 0).val ∧ (i 0).val < win8_5.index t (0 : Fin 2) * 2000 + 2000; omega
  | ⟨1, _⟩ => show win8_5.index t (1 : Fin 2) * 256 ≤ (i 1).val ∧ (i 1).val < win8_5.index t (1 : Fin 2) * 256 + 256; omega

/-- The region's output array after the region. -/
theorem final8 (c : Dev nD) : (dat8 V c).arrAt 5 cfg8.N = G8 V c :=
  (dat8 V c).arrAt_eq_of_cover 5 (G8 V c) (fun t _ => flushed8_eq V c t) (cover8)

end Cert.KernelIdeal.Fr

end
-- ==== Proof.KI.Val9.lean ====
/-
  What region 9 leaves in its output array, at the ideal instance: the host's two-layer perceptron of the region's five
  input arrays, entry by entry.  Grid point `t` stages rows 2000·t … 2000·t+1999 of the activations and the whole of the
  weights and biases, and writes back the same rows of the output; the 25 blocks tile the 50000 rows.
-/
import proofs.«171333_j58007828300388_1_alg».proof.Proof.KI.R9
import proofs.«171333_j58007828300388_1_alg».proof.Proof.KI.ValCommon
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem hz2_9 : (![0, 0] : Fin 2 → Nat) = fun _ => 0 := funext fun a => by fin_cases a <;> rfl
theorem hz1_9 : (![0] : Fin 1 → Nat) = fun _ => 0 := funext fun a => by fin_cases a; rfl

/-- The printed index maps, decided over the grid: the activations' and the output's block follow the grid point along the
    rows; the weights' and biases' blocks never move. -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 1) = 0
    ∧ win9_3.index t (0 : Fin 2) = 0 ∧ win9_3.index t (1 : Fin 2) = 0
    ∧ win9_4.index t (0 : Fin 1) = 0
    ∧ win9_5.index t (0 : Fin 2) = t.val ∧ win9_5.index t (1 : Fin 2) = 0 ∧ t.val < 25 :=
  (by decide +kernel : ∀ t : Fin grid9.N, _)

/-- Every row block is some grid point's. -/
theorem idx_onto9 : ∀ (q0 : Fin 25), ∃ t : Fin cfg9.N, win9_5.index t = ![q0.val, 0] :=
  (by decide +kernel : ∀ (q0 : Fin 25), ∃ t : Fin grid9.N, win9_5.index t = ![q0.val, 0])

/-- The array the region's output ends holding: the host perceptron of the five input arrays as the region finds them. -/
def G9 (c : Dev nD) : S50000x256.Idx → Elt Ideal .f32 :=
  Cert.Mlp.hostMlpA (F := Ideal) (V c (Pipeline.arrRef spec9 0) : S50000x256.Idx → Elt Ideal .f32) (V c (Pipeline.arrRef spec9 1) : S256x256.Idx → Elt Ideal .f32) (V c (Pipeline.arrRef spec9 2) : S256.Idx → Elt Ideal .f32) (V c (Pipeline.arrRef spec9 3) : S256x256.Idx → Elt Ideal .f32) (V c (Pipeline.arrRef spec9 4) : S256.Idx → Elt Ideal .f32)

set_option maxHeartbeats 4000000 in
/-- What grid point `t` writes back is block `t` of that array. -/
theorem flushed9_eq (c : Dev nD) (t : Fin cfg9.N) :
    (dat9 V c).flushed 5 t = ((cfg9.win 5).blk t).view.read (Elt Ideal) (G9 V c) := by
  show (cfg9.win 5).cut (grid9.coords t) ((dat9 V c).after 5 t) = _
  rw [after9_5]
  unfold out9_5
  rw [View.canon_unit_zero hz2_9]
  simp only [View.ld_unit_zero (S := S2000x256) hz2_9, View.ld_unit_zero (S := S256x256) hz2_9, View.ld_unit_zero (S := S256) hz1_9]
  obtain ⟨e0, e1, e2, e3, e4, e5, e6, e7, e8, e9, e10⟩ := idx_facts9 t
  funext y
  obtain ⟨p, q, rfl⟩ : ∃ (p : Fin 2000) (q : Fin 256), y = ix2 p q := ⟨y 0, y 1, eq_ix2 y⟩
  have hp : p.val < 2000 := p.isLt
  have hq : q.val < 256 := q.isLt
  let r : Fin 50000 := ⟨t.val * 2000 + p.val, by omega⟩
  have hemb : ((cfg9.win 5).blk t).view.emb (ix2 p q) = (ix2 r q : S50000x256.Idx) := by
    funext a; apply Fin.ext
    match a with
    | ⟨0, _⟩ => show win9_5.index t (0 : Fin 2) * 2000 + 1 * p.val = t.val * 2000 + p.val; omega
    | ⟨1, _⟩ => show win9_5.index t (1 : Fin 2) * 256 + 1 * q.val = q.val; omega
  show Cert.KernelIdeal.Gen.k0_pay1 (F := Ideal) (iblk9 V c 0 t) (iblk9 V c 1 t) (iblk9 V c 2 t) (iblk9 V c 3 t) (iblk9 V c 4 t) (ix2 p q)
    = G9 V c (((cfg9.win 5).blk t).view.emb (ix2 p q))
  rw [hemb]
  unfold G9
  refine pay_host_A (iblk9 V c 0 t) (iblk9 V c 1 t) (iblk9 V c 2 t) (iblk9 V c 3 t) (iblk9 V c 4 t) _ _ _ _ _ p q r ?_ ?_ ?_ ?_ ?_
  · intro j
    have hj : j.val < 256 := j.isLt
    show (V c (Pipeline.arrRef spec9 0) : S50000x256.Idx → Elt Ideal .f32) (((cfg9.win 0).blk t).view.emb (ix2 p j)) = (V c (Pipeline.arrRef spec9 0) : S50000x256.Idx → Elt Ideal .f32) (ix2 r j)
    refine congrArg _ ?_
    funext a; apply Fin.ext
    match a with
    | ⟨0, _⟩ => show win9_0.index t (0 : Fin 2) * 2000 + 1 * p.val = t.val * 2000 + p.val; omega
    | ⟨1, _⟩ => show win9_0.index t (1 : Fin 2) * 256 + 1 * j.val = j.val; omega
  · intro j k
    show (V c (Pipeline.arrRef spec9 1) : S256x256.Idx → Elt Ideal .f32) (((cfg9.win 1).blk t).view.emb (ix2 j k)) = (V c (Pipeline.arrRef spec9 1) : S256x256.Idx → Elt Ideal .f32) (ix2 j k)
    refine congrArg _ ?_
    funext a; apply Fin.ext
    match a with
    | ⟨0, _⟩ => show win9_1.index t (0 : Fin 2) * 256 + 1 * j.val = j.val; omega
    | ⟨1, _⟩ => show win9_1.index t (1 : Fin 2) * 256 + 1 * k.val = k.val; omega
  · intro k
    show (V c (Pipeline.arrRef spec9 2) : S256.Idx → Elt Ideal .f32) (((cfg9.win 2).blk t).view.emb (ix1 k)) = (V c (Pipeline.arrRef spec9 2) : S256.Idx → Elt Ideal .f32) (ix1 k)
    refine congrArg _ ?_
    funext a; apply Fin.ext
    match a with
    | ⟨0, _⟩ => show win9_2.index t (0 : Fin 1) * 256 + 1 * k.val = k.val; omega
  · intro j k
    show (V c (Pipeline.arrRef spec9 3) : S256x256.Idx → Elt Ideal .f32) (((cfg9.win 3).blk t).view.emb (ix2 j k)) = (V c (Pipeline.arrRef spec9 3) : S256x256.Idx → Elt Ideal .f32) (ix2 j k)
    refine congrArg _ ?_
    funext a; apply Fin.ext
    match a with
    | ⟨0, _⟩ => show win9_3.index t (0 : Fin 2) * 256 + 1 * j.val = j.val; omega
    | ⟨1, _⟩ => show win9_3.index t (1 : Fin 2) * 256 + 1 * k.val = k.val; omega
  · intro k
    show (V c (Pipeline.arrRef spec9 4) : S256.Idx → Elt Ideal .f32) (((cfg9.win 4).blk t).view.emb (ix1 k)) = (V c (Pipeline.arrRef spec9 4) : S256.Idx → Elt Ideal .f32) (ix1 k)
    refine congrArg _ ?_
    funext a; apply Fin.ext
    match a with
    | ⟨0, _⟩ => show win9_4.index t (0 : Fin 1) * 256 + 1 * k.val = k.val; omega

/-- An index of the output array is in point `t`'s block iff its row is among the block's 2000 rows. -/
theorem mem_blk9 (t : Fin cfg9.N) (i : S50000x256.Idx) :
    i ∈ ((cfg9.win 5).blk t).view.set ↔ ∀ a : Fin 2, win9_5.index t a * S2000x256.size a ≤ (i a).val ∧ (i a).val < win9_5.index t a * S2000x256.size a + S2000x256.size a := by
  show i ∈ ((View.whole main_v287).slice (win9_5.rect t)).set ↔ _
  rw [View.set_slice_whole, Rect.mem_set_unit]
  exact Iff.rfl

/-- The blocks cover the output array: row `ρ` lies in the block of point `ρ / 2000`. -/
theorem cover9 (i : S50000x256.Idx) : ∃ t : Fin cfg9.N, (cfg9.win 5).flush t = true ∧ i ∈ ((cfg9.win 5).blk t).view.set := by
  have hi0 : (i 0).val < 50000 := (i 0).isLt
  have hi1 : (i 1).val < 256 := (i 1).isLt
  obtain ⟨t, ht⟩ := idx_onto9 ⟨(i 0).val / 2000, by omega⟩
  have q0 : win9_5.index t (0 : Fin 2) = (i 0).val / 2000 := congrFun ht 0
  have q1 : win9_5.index t (1 : Fin 2) = 0 := congrFun ht 1
  refine ⟨t, flush9_5 t, ?_⟩
  rw [mem_blk9]
  intro a
  match a with
  | ⟨0, _⟩ => show win9_5.index t (0 : Fin 2) * 2000 ≤ (i 0).val ∧ (i 0).val < win9_5.index t (0 : Fin 2) * 2000 + 2000; omega
  | ⟨1, _⟩ => show win9_5.index t (1 : Fin 2) * 256 ≤ (i 1).val ∧ (i 1).val < win9_5.index t (1 : Fin 2) * 256 + 256; omega

/-- The region's output array after the region. -/
theorem final9 (c : Dev nD) : (dat9 V c).arrAt 5 cfg9.N = G9 V c :=
  (dat9 V c).arrAt_eq_of_cover 5 (G9 V c) (fun t _ => flushed9_eq V c t) (cover9)

end Cert.KernelIdeal.Fr

end
-- ==== Proof.KI.Val10.lean ====
/-
  What region 10 leaves in its output array, at the ideal instance: the host's two-layer perceptron of the region's five
  input arrays, entry by entry.  Grid point `t` stages rows 2000·t … 2000·t+1999 of the activations and the whole of the
  weights and biases, and writes back the same rows of the output; the 5 blocks tile the 10000 rows.
-/
import proofs.«171333_j58007828300388_1_alg».proof.Proof.KI.R10
import proofs.«171333_j58007828300388_1_alg».proof.Proof.KI.ValCommon
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem hz2_10 : (![0, 0] : Fin 2 → Nat) = fun _ => 0 := funext fun a => by fin_cases a <;> rfl
theorem hz1_10 : (![0] : Fin 1 → Nat) = fun _ => 0 := funext fun a => by fin_cases a; rfl

/-- The printed index maps, decided over the grid: the activations' and the output's block follow the grid point along the
    rows; the weights' and biases' blocks never move. -/
theorem idx_facts10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 1) = 0
    ∧ win10_3.index t (0 : Fin 2) = 0 ∧ win10_3.index t (1 : Fin 2) = 0
    ∧ win10_4.index t (0 : Fin 1) = 0
    ∧ win10_5.index t (0 : Fin 2) = t.val ∧ win10_5.index t (1 : Fin 2) = 0 ∧ t.val < 5 :=
  (by decide +kernel : ∀ t : Fin grid10.N, _)

/-- Every row block is some grid point's. -/
theorem idx_onto10 : ∀ (q0 : Fin 5), ∃ t : Fin cfg10.N, win10_5.index t = ![q0.val, 0] :=
  (by decide +kernel : ∀ (q0 : Fin 5), ∃ t : Fin grid10.N, win10_5.index t = ![q0.val, 0])

/-- The array the region's output ends holding: the host perceptron of the five input arrays as the region finds them. -/
def G10 (c : Dev nD) : S10000x256.Idx → Elt Ideal .f32 :=
  Cert.Mlp.hostMlpM (F := Ideal) (V c (Pipeline.arrRef spec10 0) : S10000x256.Idx → Elt Ideal .f32) (V c (Pipeline.arrRef spec10 1) : S256x256.Idx → Elt Ideal .f32) (V c (Pipeline.arrRef spec10 2) : S256.Idx → Elt Ideal .f32) (V c (Pipeline.arrRef spec10 3) : S256x256.Idx → Elt Ideal .f32) (V c (Pipeline.arrRef spec10 4) : S256.Idx → Elt Ideal .f32)

set_option maxHeartbeats 4000000 in
/-- What grid point `t` writes back is block `t` of that array. -/
theorem flushed10_eq (c : Dev nD) (t : Fin cfg10.N) :
    (dat10 V c).flushed 5 t = ((cfg10.win 5).blk t).view.read (Elt Ideal) (G10 V c) := by
  show (cfg10.win 5).cut (grid10.coords t) ((dat10 V c).after 5 t) = _
  rw [after10_5]
  unfold out10_5
  rw [View.canon_unit_zero hz2_10]
  simp only [View.ld_unit_zero (S := S2000x256) hz2_10, View.ld_unit_zero (S := S256x256) hz2_10, View.ld_unit_zero (S := S256) hz1_10]
  obtain ⟨e0, e1, e2, e3, e4, e5, e6, e7, e8, e9, e10⟩ := idx_facts10 t
  funext y
  obtain ⟨p, q, rfl⟩ : ∃ (p : Fin 2000) (q : Fin 256), y = ix2 p q := ⟨y 0, y 1, eq_ix2 y⟩
  have hp : p.val < 2000 := p.isLt
  have hq : q.val < 256 := q.isLt
  let r : Fin 10000 := ⟨t.val * 2000 + p.val, by omega⟩
  have hemb : ((cfg10.win 5).blk t).view.emb (ix2 p q) = (ix2 r q : S10000x256.Idx) := by
    funext a; apply Fin.ext
    match a with
    | ⟨0, _⟩ => show win10_5.index t (0 : Fin 2) * 2000 + 1 * p.val = t.val * 2000 + p.val; omega
    | ⟨1, _⟩ => show win10_5.index t (1 : Fin 2) * 256 + 1 * q.val = q.val; omega
  show Cert.KernelIdeal.Gen.k0_pay1 (F := Ideal) (iblk10 V c 0 t) (iblk10 V c 1 t) (iblk10 V c 2 t) (iblk10 V c 3 t) (iblk10 V c 4 t) (ix2 p q)
    = G10 V c (((cfg10.win 5).blk t).view.emb (ix2 p q))
  rw [hemb]
  unfold G10
  refine pay_host_M (iblk10 V c 0 t) (iblk10 V c 1 t) (iblk10 V c 2 t) (iblk10 V c 3 t) (iblk10 V c 4 t) _ _ _ _ _ p q r ?_ ?_ ?_ ?_ ?_
  · intro j
    have hj : j.val < 256 := j.isLt
    show (V c (Pipeline.arrRef spec10 0) : S10000x256.Idx → Elt Ideal .f32) (((cfg10.win 0).blk t).view.emb (ix2 p j)) = (V c (Pipeline.arrRef spec10 0) : S10000x256.Idx → Elt Ideal .f32) (ix2 r j)
    refine congrArg _ ?_
    funext a; apply Fin.ext
    match a with
    | ⟨0, _⟩ => show win10_0.index t (0 : Fin 2) * 2000 + 1 * p.val = t.val * 2000 + p.val; omega
    | ⟨1, _⟩ => show win10_0.index t (1 : Fin 2) * 256 + 1 * j.val = j.val; omega
  · intro j k
    show (V c (Pipeline.arrRef spec10 1) : S256x256.Idx → Elt Ideal .f32) (((cfg10.win 1).blk t).view.emb (ix2 j k)) = (V c (Pipeline.arrRef spec10 1) : S256x256.Idx → Elt Ideal .f32) (ix2 j k)
    refine congrArg _ ?_
    funext a; apply Fin.ext
    match a with
    | ⟨0, _⟩ => show win10_1.index t (0 : Fin 2) * 256 + 1 * j.val = j.val; omega
    | ⟨1, _⟩ => show win10_1.index t (1 : Fin 2) * 256 + 1 * k.val = k.val; omega
  · intro k
    show (V c (Pipeline.arrRef spec10 2) : S256.Idx → Elt Ideal .f32) (((cfg10.win 2).blk t).view.emb (ix1 k)) = (V c (Pipeline.arrRef spec10 2) : S256.Idx → Elt Ideal .f32) (ix1 k)
    refine congrArg _ ?_
    funext a; apply Fin.ext
    match a with
    | ⟨0, _⟩ => show win10_2.index t (0 : Fin 1) * 256 + 1 * k.val = k.val; omega
  · intro j k
    show (V c (Pipeline.arrRef spec10 3) : S256x256.Idx → Elt Ideal .f32) (((cfg10.win 3).blk t).view.emb (ix2 j k)) = (V c (Pipeline.arrRef spec10 3) : S256x256.Idx → Elt Ideal .f32) (ix2 j k)
    refine congrArg _ ?_
    funext a; apply Fin.ext
    match a with
    | ⟨0, _⟩ => show win10_3.index t (0 : Fin 2) * 256 + 1 * j.val = j.val; omega
    | ⟨1, _⟩ => show win10_3.index t (1 : Fin 2) * 256 + 1 * k.val = k.val; omega
  · intro k
    show (V c (Pipeline.arrRef spec10 4) : S256.Idx → Elt Ideal .f32) (((cfg10.win 4).blk t).view.emb (ix1 k)) = (V c (Pipeline.arrRef spec10 4) : S256.Idx → Elt Ideal .f32) (ix1 k)
    refine congrArg _ ?_
    funext a; apply Fin.ext
    match a with
    | ⟨0, _⟩ => show win10_4.index t (0 : Fin 1) * 256 + 1 * k.val = k.val; omega

/-- An index of the output array is in point `t`'s block iff its row is among the block's 2000 rows. -/
theorem mem_blk10 (t : Fin cfg10.N) (i : S10000x256.Idx) :
    i ∈ ((cfg10.win 5).blk t).view.set ↔ ∀ a : Fin 2, win10_5.index t a * S2000x256.size a ≤ (i a).val ∧ (i a).val < win10_5.index t a * S2000x256.size a + S2000x256.size a := by
  show i ∈ ((View.whole main_v296).slice (win10_5.rect t)).set ↔ _
  rw [View.set_slice_whole, Rect.mem_set_unit]
  exact Iff.rfl

/-- The blocks cover the output array: row `ρ` lies in the block of point `ρ / 2000`. -/
theorem cover10 (i : S10000x256.Idx) : ∃ t : Fin cfg10.N, (cfg10.win 5).flush t = true ∧ i ∈ ((cfg10.win 5).blk t).view.set := by
  have hi0 : (i 0).val < 10000 := (i 0).isLt
  have hi1 : (i 1).val < 256 := (i 1).isLt
  obtain ⟨t, ht⟩ := idx_onto10 ⟨(i 0).val / 2000, by omega⟩
  have q0 : win10_5.index t (0 : Fin 2) = (i 0).val / 2000 := congrFun ht 0
  have q1 : win10_5.index t (1 : Fin 2) = 0 := congrFun ht 1
  refine ⟨t, flush10_5 t, ?_⟩
  rw [mem_blk10]
  intro a
  match a with
  | ⟨0, _⟩ => show win10_5.index t (0 : Fin 2) * 2000 ≤ (i 0).val ∧ (i 0).val < win10_5.index t (0 : Fin 2) * 2000 + 2000; omega
  | ⟨1, _⟩ => show win10_5.index t (1 : Fin 2) * 256 ≤ (i 1).val ∧ (i 1).val < win10_5.index t (1 : Fin 2) * 256 + 256; omega

/-- The region's output array after the region. -/
theorem final10 (c : Dev nD) : (dat10 V c).arrAt 5 cfg10.N = G10 V c :=
  (dat10 V c).arrAt_eq_of_cover 5 (G10 V c) (fun t _ => flushed10_eq V c t) (cover10)

end Cert.KernelIdeal.Fr

end
-- ==== Proof.KI.Val11.lean ====
/-
  What region 11 leaves in its output array, at the ideal instance: the host's two-layer perceptron of the region's five
  input arrays, entry by entry.  Grid point `t` stages rows 2000·t … 2000·t+1999 of the activations and the whole of the
  weights and biases, and writes back the same rows of the output; the 5 blocks tile the 10000 rows.
-/
import proofs.«171333_j58007828300388_1_alg».proof.Proof.KI.R11
import proofs.«171333_j58007828300388_1_alg».proof.Proof.KI.ValCommon
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem hz2_11 : (![0, 0] : Fin 2 → Nat) = fun _ => 0 := funext fun a => by fin_cases a <;> rfl
theorem hz1_11 : (![0] : Fin 1 → Nat) = fun _ => 0 := funext fun a => by fin_cases a; rfl

/-- The printed index maps, decided over the grid: the activations' and the output's block follow the grid point along the
    rows; the weights' and biases' blocks never move. -/
theorem idx_facts11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 1) = 0
    ∧ win11_3.index t (0 : Fin 2) = 0 ∧ win11_3.index t (1 : Fin 2) = 0
    ∧ win11_4.index t (0 : Fin 1) = 0
    ∧ win11_5.index t (0 : Fin 2) = t.val ∧ win11_5.index t (1 : Fin 2) = 0 ∧ t.val < 5 :=
  (by decide +kernel : ∀ t : Fin grid11.N, _)

/-- Every row block is some grid point's. -/
theorem idx_onto11 : ∀ (q0 : Fin 5), ∃ t : Fin cfg11.N, win11_5.index t = ![q0.val, 0] :=
  (by decide +kernel : ∀ (q0 : Fin 5), ∃ t : Fin grid11.N, win11_5.index t = ![q0.val, 0])

/-- The array the region's output ends holding: the host perceptron of the five input arrays as the region finds them. -/
def G11 (c : Dev nD) : S10000x256.Idx → Elt Ideal .f32 :=
  Cert.Mlp.hostMlpM (F := Ideal) (V c (Pipeline.arrRef spec11 0) : S10000x256.Idx → Elt Ideal .f32) (V c (Pipeline.arrRef spec11 1) : S256x256.Idx → Elt Ideal .f32) (V c (Pipeline.arrRef spec11 2) : S256.Idx → Elt Ideal .f32) (V c (Pipeline.arrRef spec11 3) : S256x256.Idx → Elt Ideal .f32) (V c (Pipeline.arrRef spec11 4) : S256.Idx → Elt Ideal .f32)

set_option maxHeartbeats 4000000 in
/-- What grid point `t` writes back is block `t` of that array. -/
theorem flushed11_eq (c : Dev nD) (t : Fin cfg11.N) :
    (dat11 V c).flushed 5 t = ((cfg11.win 5).blk t).view.read (Elt Ideal) (G11 V c) := by
  show (cfg11.win 5).cut (grid11.coords t) ((dat11 V c).after 5 t) = _
  rw [after11_5]
  unfold out11_5
  rw [View.canon_unit_zero hz2_11]
  simp only [View.ld_unit_zero (S := S2000x256) hz2_11, View.ld_unit_zero (S := S256x256) hz2_11, View.ld_unit_zero (S := S256) hz1_11]
  obtain ⟨e0, e1, e2, e3, e4, e5, e6, e7, e8, e9, e10⟩ := idx_facts11 t
  funext y
  obtain ⟨p, q, rfl⟩ : ∃ (p : Fin 2000) (q : Fin 256), y = ix2 p q := ⟨y 0, y 1, eq_ix2 y⟩
  have hp : p.val < 2000 := p.isLt
  have hq : q.val < 256 := q.isLt
  let r : Fin 10000 := ⟨t.val * 2000 + p.val, by omega⟩
  have hemb : ((cfg11.win 5).blk t).view.emb (ix2 p q) = (ix2 r q : S10000x256.Idx) := by
    funext a; apply Fin.ext
    match a with
    | ⟨0, _⟩ => show win11_5.index t (0 : Fin 2) * 2000 + 1 * p.val = t.val * 2000 + p.val; omega
    | ⟨1, _⟩ => show win11_5.index t (1 : Fin 2) * 256 + 1 * q.val = q.val; omega
  show Cert.KernelIdeal.Gen.k0_pay1 (F := Ideal) (iblk11 V c 0 t) (iblk11 V c 1 t) (iblk11 V c 2 t) (iblk11 V c 3 t) (iblk11 V c 4 t) (ix2 p q)
    = G11 V c (((cfg11.win 5).blk t).view.emb (ix2 p q))
  rw [hemb]
  unfold G11
  refine pay_host_M (iblk11 V c 0 t) (iblk11 V c 1 t) (iblk11 V c 2 t) (iblk11 V c 3 t) (iblk11 V c 4 t) _ _ _ _ _ p q r ?_ ?_ ?_ ?_ ?_
  · intro j
    have hj : j.val < 256 := j.isLt
    show (V c (Pipeline.arrRef spec11 0) : S10000x256.Idx → Elt Ideal .f32) (((cfg11.win 0).blk t).view.emb (ix2 p j)) = (V c (Pipeline.arrRef spec11 0) : S10000x256.Idx → Elt Ideal .f32) (ix2 r j)
    refine congrArg _ ?_
    funext a; apply Fin.ext
    match a with
    | ⟨0, _⟩ => show win11_0.index t (0 : Fin 2) * 2000 + 1 * p.val = t.val * 2000 + p.val; omega
    | ⟨1, _⟩ => show win11_0.index t (1 : Fin 2) * 256 + 1 * j.val = j.val; omega
  · intro j k
    show (V c (Pipeline.arrRef spec11 1) : S256x256.Idx → Elt Ideal .f32) (((cfg11.win 1).blk t).view.emb (ix2 j k)) = (V c (Pipeline.arrRef spec11 1) : S256x256.Idx → Elt Ideal .f32) (ix2 j k)
    refine congrArg _ ?_
    funext a; apply Fin.ext
    match a with
    | ⟨0, _⟩ => show win11_1.index t (0 : Fin 2) * 256 + 1 * j.val = j.val; omega
    | ⟨1, _⟩ => show win11_1.index t (1 : Fin 2) * 256 + 1 * k.val = k.val; omega
  · intro k
    show (V c (Pipeline.arrRef spec11 2) : S256.Idx → Elt Ideal .f32) (((cfg11.win 2).blk t).view.emb (ix1 k)) = (V c (Pipeline.arrRef spec11 2) : S256.Idx → Elt Ideal .f32) (ix1 k)
    refine congrArg _ ?_
    funext a; apply Fin.ext
    match a with
    | ⟨0, _⟩ => show win11_2.index t (0 : Fin 1) * 256 + 1 * k.val = k.val; omega
  · intro j k
    show (V c (Pipeline.arrRef spec11 3) : S256x256.Idx → Elt Ideal .f32) (((cfg11.win 3).blk t).view.emb (ix2 j k)) = (V c (Pipeline.arrRef spec11 3) : S256x256.Idx → Elt Ideal .f32) (ix2 j k)
    refine congrArg _ ?_
    funext a; apply Fin.ext
    match a with
    | ⟨0, _⟩ => show win11_3.index t (0 : Fin 2) * 256 + 1 * j.val = j.val; omega
    | ⟨1, _⟩ => show win11_3.index t (1 : Fin 2) * 256 + 1 * k.val = k.val; omega
  · intro k
    show (V c (Pipeline.arrRef spec11 4) : S256.Idx → Elt Ideal .f32) (((cfg11.win 4).blk t).view.emb (ix1 k)) = (V c (Pipeline.arrRef spec11 4) : S256.Idx → Elt Ideal .f32) (ix1 k)
    refine congrArg _ ?_
    funext a; apply Fin.ext
    match a with
    | ⟨0, _⟩ => show win11_4.index t (0 : Fin 1) * 256 + 1 * k.val = k.val; omega

/-- An index of the output array is in point `t`'s block iff its row is among the block's 2000 rows. -/
theorem mem_blk11 (t : Fin cfg11.N) (i : S10000x256.Idx) :
    i ∈ ((cfg11.win 5).blk t).view.set ↔ ∀ a : Fin 2, win11_5.index t a * S2000x256.size a ≤ (i a).val ∧ (i a).val < win11_5.index t a * S2000x256.size a + S2000x256.size a := by
  show i ∈ ((View.whole main_v305).slice (win11_5.rect t)).set ↔ _
  rw [View.set_slice_whole, Rect.mem_set_unit]
  exact Iff.rfl

/-- The blocks cover the output array: row `ρ` lies in the block of point `ρ / 2000`. -/
theorem cover11 (i : S10000x256.Idx) : ∃ t : Fin cfg11.N, (cfg11.win 5).flush t = true ∧ i ∈ ((cfg11.win 5).blk t).view.set := by
  have hi0 : (i 0).val < 10000 := (i 0).isLt
  have hi1 : (i 1).val < 256 := (i 1).isLt
  obtain ⟨t, ht⟩ := idx_onto11 ⟨(i 0).val / 2000, by omega⟩
  have q0 : win11_5.index t (0 : Fin 2) = (i 0).val / 2000 := congrFun ht 0
  have q1 : win11_5.index t (1 : Fin 2) = 0 := congrFun ht 1
  refine ⟨t, flush11_5 t, ?_⟩
  rw [mem_blk11]
  intro a
  match a with
  | ⟨0, _⟩ => show win11_5.index t (0 : Fin 2) * 2000 ≤ (i 0).val ∧ (i 0).val < win11_5.index t (0 : Fin 2) * 2000 + 2000; omega
  | ⟨1, _⟩ => show win11_5.index t (1 : Fin 2) * 256 ≤ (i 1).val ∧ (i 1).val < win11_5.index t (1 : Fin 2) * 256 + 256; omega

/-- The region's output array after the region. -/
theorem final11 (c : Dev nD) : (dat11 V c).arrAt 5 cfg11.N = G11 V c :=
  (dat11 V c).arrAt_eq_of_cover 5 (G11 V c) (fun t _ => flushed11_eq V c t) (cover11)

end Cert.KernelIdeal.Fr

end
-- ==== Proof.HC.Spec.lean ====
/-
  The result of both programs as ONE layered function of the eighteen argument arrays.

  A layer takes the atom rows `xa` (50000 x 256) and the motif rows `xm` (10000 x 256). For each of the four edge types it
  forms an aggregate: gather the source rows at the edge list's source indices (a negative index wrapped by the row count),
  add the edge attributes, rectify against zero, scatter-add into a zero array at the destination indices, add the
  destination rows. Each aggregate goes through a two-layer perceptron with that layer's and edge type's parameters; the
  two atom-side outputs are added, and so are the two motif-side outputs. After each layer the atom rows and the motif rows
  are pooled into 500 graph rows by scatter-add and added; the three pooled arrays are concatenated along the columns.

  Every host operation is spelt exactly as the reference program's composed result spells it, and the perceptron is
  `Cert.Mlp.hostMlpA` / `Cert.Mlp.hostMlpM`, so the reference's result is this function by unfolding.
-/
import proofs.«171333_j58007828300388_1_alg».proof.Proof.MlpMath

noncomputable section

namespace Cert.HostChain

open Idealize.ShloMosaic
open Cert.ReferenceIdeal Cert.ReferenceIdeal.Facts₀

variable [Cert.ReferenceIdeal.Facts₀] {F : FTy → Type} [FloatOps F]

/-! ## The edge lists' rows -/

/-- Row 0 of the atom-atom edge list: the source atom of each edge. -/
def srcAA (e : IVec S2x400000 32) :
    IVec S400000 32 :=
  shapeCast _ (extractStridedSlice S1x400000 ![0 , 0] e slices_S2x400000_S1x400000_0_0) shapeCasts_S1x400000_S400000

/-- Row 1 of the atom-atom edge list: the destination atom of each edge. -/
def dstAA (e : IVec S2x400000 32) :
    IVec S400000 32 :=
  shapeCast _ (extractStridedSlice S1x400000 ![1 , 0] e slices_S2x400000_S1x400000_1_0) shapeCasts_S1x400000_S400000

/-- Row 0 of the motif-motif edge list. -/
def srcMM (e : IVec S2x100000 32) :
    IVec S100000 32 :=
  shapeCast _ (extractStridedSlice S1x100000 ![0 , 0] e slices_S2x100000_S1x100000_0_0) shapeCasts_S1x100000_S100000

/-- Row 1 of the motif-motif edge list. -/
def dstMM (e : IVec S2x100000 32) :
    IVec S100000 32 :=
  shapeCast _ (extractStridedSlice S1x100000 ![1 , 0] e slices_S2x100000_S1x100000_1_0) shapeCasts_S1x100000_S100000

/-! ## The parameters of each layer and edge type (edge type 0 = atom-atom, 1 = atom-to-motif, 2 = motif-to-atom, 3 = motif-motif) -/

/-- The first weight matrix of layer 0, edge type 0: one slice of the stacked parameter, reshaped. -/
def w1_0_0 (w : FVec F S3x4x256x256 .f32) :
    FVec F S256x256 .f32 :=
  shapeCast _ (extractStridedSlice S1x1x256x256 ![0 , 0 , 0 , 0] w slices_S3x4x256x256_S1x1x256x256_0_0_0_0) shapeCasts_S1x1x256x256_S256x256

/-- The first bias of layer 0, edge type 0: one slice of the stacked parameter, reshaped. -/
def b1_0_0 (w : FVec F S3x4x256 .f32) :
    FVec F S256 .f32 :=
  shapeCast _ (extractStridedSlice S1x1x256 ![0 , 0 , 0] w slices_S3x4x256_S1x1x256_0_0_0) shapeCasts_S1x1x256_S256

/-- The second weight matrix of layer 0, edge type 0: one slice of the stacked parameter, reshaped. -/
def w2_0_0 (w : FVec F S3x4x256x256 .f32) :
    FVec F S256x256 .f32 :=
  shapeCast _ (extractStridedSlice S1x1x256x256 ![0 , 0 , 0 , 0] w slices_S3x4x256x256_S1x1x256x256_0_0_0_0) shapeCasts_S1x1x256x256_S256x256

/-- The second bias of layer 0, edge type 0: one slice of the stacked parameter, reshaped. -/
def b2_0_0 (w : FVec F S3x4x256 .f32) :
    FVec F S256 .f32 :=
  shapeCast _ (extractStridedSlice S1x1x256 ![0 , 0 , 0] w slices_S3x4x256_S1x1x256_0_0_0) shapeCasts_S1x1x256_S256

/-- The first weight matrix of layer 0, edge type 1: one slice of the stacked parameter, reshaped. -/
def w1_0_1 (w : FVec F S3x4x256x256 .f32) :
    FVec F S256x256 .f32 :=
  shapeCast _ (extractStridedSlice S1x1x256x256 ![0 , 1 , 0 , 0] w slices_S3x4x256x256_S1x1x256x256_0_1_0_0) shapeCasts_S1x1x256x256_S256x256

/-- The first bias of layer 0, edge type 1: one slice of the stacked parameter, reshaped. -/
def b1_0_1 (w : FVec F S3x4x256 .f32) :
    FVec F S256 .f32 :=
  shapeCast _ (extractStridedSlice S1x1x256 ![0 , 1 , 0] w slices_S3x4x256_S1x1x256_0_1_0) shapeCasts_S1x1x256_S256

/-- The second weight matrix of layer 0, edge type 1: one slice of the stacked parameter, reshaped. -/
def w2_0_1 (w : FVec F S3x4x256x256 .f32) :
    FVec F S256x256 .f32 :=
  shapeCast _ (extractStridedSlice S1x1x256x256 ![0 , 1 , 0 , 0] w slices_S3x4x256x256_S1x1x256x256_0_1_0_0) shapeCasts_S1x1x256x256_S256x256

/-- The second bias of layer 0, edge type 1: one slice of the stacked parameter, reshaped. -/
def b2_0_1 (w : FVec F S3x4x256 .f32) :
    FVec F S256 .f32 :=
  shapeCast _ (extractStridedSlice S1x1x256 ![0 , 1 , 0] w slices_S3x4x256_S1x1x256_0_1_0) shapeCasts_S1x1x256_S256

/-- The first weight matrix of layer 0, edge type 2: one slice of the stacked parameter, reshaped. -/
def w1_0_2 (w : FVec F S3x4x256x256 .f32) :
    FVec F S256x256 .f32 :=
  shapeCast _ (extractStridedSlice S1x1x256x256 ![0 , 2 , 0 , 0] w slices_S3x4x256x256_S1x1x256x256_0_2_0_0) shapeCasts_S1x1x256x256_S256x256

/-- The first bias of layer 0, edge type 2: one slice of the stacked parameter, reshaped. -/
def b1_0_2 (w : FVec F S3x4x256 .f32) :
    FVec F S256 .f32 :=
  shapeCast _ (extractStridedSlice S1x1x256 ![0 , 2 , 0] w slices_S3x4x256_S1x1x256_0_2_0) shapeCasts_S1x1x256_S256

/-- The second weight matrix of layer 0, edge type 2: one slice of the stacked parameter, reshaped. -/
def w2_0_2 (w : FVec F S3x4x256x256 .f32) :
    FVec F S256x256 .f32 :=
  shapeCast _ (extractStridedSlice S1x1x256x256 ![0 , 2 , 0 , 0] w slices_S3x4x256x256_S1x1x256x256_0_2_0_0) shapeCasts_S1x1x256x256_S256x256

/-- The second bias of layer 0, edge type 2: one slice of the stacked parameter, reshaped. -/
def b2_0_2 (w : FVec F S3x4x256 .f32) :
    FVec F S256 .f32 :=
  shapeCast _ (extractStridedSlice S1x1x256 ![0 , 2 , 0] w slices_S3x4x256_S1x1x256_0_2_0) shapeCasts_S1x1x256_S256

/-- The first weight matrix of layer 0, edge type 3: one slice of the stacked parameter, reshaped. -/
def w1_0_3 (w : FVec F S3x4x256x256 .f32) :
    FVec F S256x256 .f32 :=
  shapeCast _ (extractStridedSlice S1x1x256x256 ![0 , 3 , 0 , 0] w slices_S3x4x256x256_S1x1x256x256_0_3_0_0) shapeCasts_S1x1x256x256_S256x256

/-- The first bias of layer 0, edge type 3: one slice of the stacked parameter, reshaped. -/
def b1_0_3 (w : FVec F S3x4x256 .f32) :
    FVec F S256 .f32 :=
  shapeCast _ (extractStridedSlice S1x1x256 ![0 , 3 , 0] w slices_S3x4x256_S1x1x256_0_3_0) shapeCasts_S1x1x256_S256

/-- The second weight matrix of layer 0, edge type 3: one slice of the stacked parameter, reshaped. -/
def w2_0_3 (w : FVec F S3x4x256x256 .f32) :
    FVec F S256x256 .f32 :=
  shapeCast _ (extractStridedSlice S1x1x256x256 ![0 , 3 , 0 , 0] w slices_S3x4x256x256_S1x1x256x256_0_3_0_0) shapeCasts_S1x1x256x256_S256x256

/-- The second bias of layer 0, edge type 3: one slice of the stacked parameter, reshaped. -/
def b2_0_3 (w : FVec F S3x4x256 .f32) :
    FVec F S256 .f32 :=
  shapeCast _ (extractStridedSlice S1x1x256 ![0 , 3 , 0] w slices_S3x4x256_S1x1x256_0_3_0) shapeCasts_S1x1x256_S256

/-- The first weight matrix of layer 1, edge type 0: one slice of the stacked parameter, reshaped. -/
def w1_1_0 (w : FVec F S3x4x256x256 .f32) :
    FVec F S256x256 .f32 :=
  shapeCast _ (extractStridedSlice S1x1x256x256 ![1 , 0 , 0 , 0] w slices_S3x4x256x256_S1x1x256x256_1_0_0_0) shapeCasts_S1x1x256x256_S256x256

/-- The first bias of layer 1, edge type 0: one slice of the stacked parameter, reshaped. -/
def b1_1_0 (w : FVec F S3x4x256 .f32) :
    FVec F S256 .f32 :=
  shapeCast _ (extractStridedSlice S1x1x256 ![1 , 0 , 0] w slices_S3x4x256_S1x1x256_1_0_0) shapeCasts_S1x1x256_S256

/-- The second weight matrix of layer 1, edge type 0: one slice of the stacked parameter, reshaped. -/
def w2_1_0 (w : FVec F S3x4x256x256 .f32) :
    FVec F S256x256 .f32 :=
  shapeCast _ (extractStridedSlice S1x1x256x256 ![1 , 0 , 0 , 0] w slices_S3x4x256x256_S1x1x256x256_1_0_0_0) shapeCasts_S1x1x256x256_S256x256

/-- The second bias of layer 1, edge type 0: one slice of the stacked parameter, reshaped. -/
def b2_1_0 (w : FVec F S3x4x256 .f32) :
    FVec F S256 .f32 :=
  shapeCast _ (extractStridedSlice S1x1x256 ![1 , 0 , 0] w slices_S3x4x256_S1x1x256_1_0_0) shapeCasts_S1x1x256_S256

/-- The first weight matrix of layer 1, edge type 1: one slice of the stacked parameter, reshaped. -/
def w1_1_1 (w : FVec F S3x4x256x256 .f32) :
    FVec F S256x256 .f32 :=
  shapeCast _ (extractStridedSlice S1x1x256x256 ![1 , 1 , 0 , 0] w slices_S3x4x256x256_S1x1x256x256_1_1_0_0) shapeCasts_S1x1x256x256_S256x256

/-- The first bias of layer 1, edge type 1: one slice of the stacked parameter, reshaped. -/
def b1_1_1 (w : FVec F S3x4x256 .f32) :
    FVec F S256 .f32 :=
  shapeCast _ (extractStridedSlice S1x1x256 ![1 , 1 , 0] w slices_S3x4x256_S1x1x256_1_1_0) shapeCasts_S1x1x256_S256

/-- The second weight matrix of layer 1, edge type 1: one slice of the stacked parameter, reshaped. -/
def w2_1_1 (w : FVec F S3x4x256x256 .f32) :
    FVec F S256x256 .f32 :=
  shapeCast _ (extractStridedSlice S1x1x256x256 ![1 , 1 , 0 , 0] w slices_S3x4x256x256_S1x1x256x256_1_1_0_0) shapeCasts_S1x1x256x256_S256x256

/-- The second bias of layer 1, edge type 1: one slice of the stacked parameter, reshaped. -/
def b2_1_1 (w : FVec F S3x4x256 .f32) :
    FVec F S256 .f32 :=
  shapeCast _ (extractStridedSlice S1x1x256 ![1 , 1 , 0] w slices_S3x4x256_S1x1x256_1_1_0) shapeCasts_S1x1x256_S256

/-- The first weight matrix of layer 1, edge type 2: one slice of the stacked parameter, reshaped. -/
def w1_1_2 (w : FVec F S3x4x256x256 .f32) :
    FVec F S256x256 .f32 :=
  shapeCast _ (extractStridedSlice S1x1x256x256 ![1 , 2 , 0 , 0] w slices_S3x4x256x256_S1x1x256x256_1_2_0_0) shapeCasts_S1x1x256x256_S256x256

/-- The first bias of layer 1, edge type 2: one slice of the stacked parameter, reshaped. -/
def b1_1_2 (w : FVec F S3x4x256 .f32) :
    FVec F S256 .f32 :=
  shapeCast _ (extractStridedSlice S1x1x256 ![1 , 2 , 0] w slices_S3x4x256_S1x1x256_1_2_0) shapeCasts_S1x1x256_S256

/-- The second weight matrix of layer 1, edge type 2: one slice of the stacked parameter, reshaped. -/
def w2_1_2 (w : FVec F S3x4x256x256 .f32) :
    FVec F S256x256 .f32 :=
  shapeCast _ (extractStridedSlice S1x1x256x256 ![1 , 2 , 0 , 0] w slices_S3x4x256x256_S1x1x256x256_1_2_0_0) shapeCasts_S1x1x256x256_S256x256

/-- The second bias of layer 1, edge type 2: one slice of the stacked parameter, reshaped. -/
def b2_1_2 (w : FVec F S3x4x256 .f32) :
    FVec F S256 .f32 :=
  shapeCast _ (extractStridedSlice S1x1x256 ![1 , 2 , 0] w slices_S3x4x256_S1x1x256_1_2_0) shapeCasts_S1x1x256_S256

/-- The first weight matrix of layer 1, edge type 3: one slice of the stacked parameter, reshaped. -/
def w1_1_3 (w : FVec F S3x4x256x256 .f32) :
    FVec F S256x256 .f32 :=
  shapeCast _ (extractStridedSlice S1x1x256x256 ![1 , 3 , 0 , 0] w slices_S3x4x256x256_S1x1x256x256_1_3_0_0) shapeCasts_S1x1x256x256_S256x256

/-- The first bias of layer 1, edge type 3: one slice of the stacked parameter, reshaped. -/
def b1_1_3 (w : FVec F S3x4x256 .f32) :
    FVec F S256 .f32 :=
  shapeCast _ (extractStridedSlice S1x1x256 ![1 , 3 , 0] w slices_S3x4x256_S1x1x256_1_3_0) shapeCasts_S1x1x256_S256

/-- The second weight matrix of layer 1, edge type 3: one slice of the stacked parameter, reshaped. -/
def w2_1_3 (w : FVec F S3x4x256x256 .f32) :
    FVec F S256x256 .f32 :=
  shapeCast _ (extractStridedSlice S1x1x256x256 ![1 , 3 , 0 , 0] w slices_S3x4x256x256_S1x1x256x256_1_3_0_0) shapeCasts_S1x1x256x256_S256x256

/-- The second bias of layer 1, edge type 3: one slice of the stacked parameter, reshaped. -/
def b2_1_3 (w : FVec F S3x4x256 .f32) :
    FVec F S256 .f32 :=
  shapeCast _ (extractStridedSlice S1x1x256 ![1 , 3 , 0] w slices_S3x4x256_S1x1x256_1_3_0) shapeCasts_S1x1x256_S256

/-- The first weight matrix of layer 2, edge type 0: one slice of the stacked parameter, reshaped. -/
def w1_2_0 (w : FVec F S3x4x256x256 .f32) :
    FVec F S256x256 .f32 :=
  shapeCast _ (extractStridedSlice S1x1x256x256 ![2 , 0 , 0 , 0] w slices_S3x4x256x256_S1x1x256x256_2_0_0_0) shapeCasts_S1x1x256x256_S256x256

/-- The first bias of layer 2, edge type 0: one slice of the stacked parameter, reshaped. -/
def b1_2_0 (w : FVec F S3x4x256 .f32) :
    FVec F S256 .f32 :=
  shapeCast _ (extractStridedSlice S1x1x256 ![2 , 0 , 0] w slices_S3x4x256_S1x1x256_2_0_0) shapeCasts_S1x1x256_S256

/-- The second weight matrix of layer 2, edge type 0: one slice of the stacked parameter, reshaped. -/
def w2_2_0 (w : FVec F S3x4x256x256 .f32) :
    FVec F S256x256 .f32 :=
  shapeCast _ (extractStridedSlice S1x1x256x256 ![2 , 0 , 0 , 0] w slices_S3x4x256x256_S1x1x256x256_2_0_0_0) shapeCasts_S1x1x256x256_S256x256

/-- The second bias of layer 2, edge type 0: one slice of the stacked parameter, reshaped. -/
def b2_2_0 (w : FVec F S3x4x256 .f32) :
    FVec F S256 .f32 :=
  shapeCast _ (extractStridedSlice S1x1x256 ![2 , 0 , 0] w slices_S3x4x256_S1x1x256_2_0_0) shapeCasts_S1x1x256_S256

/-- The first weight matrix of layer 2, edge type 1: one slice of the stacked parameter, reshaped. -/
def w1_2_1 (w : FVec F S3x4x256x256 .f32) :
    FVec F S256x256 .f32 :=
  shapeCast _ (extractStridedSlice S1x1x256x256 ![2 , 1 , 0 , 0] w slices_S3x4x256x256_S1x1x256x256_2_1_0_0) shapeCasts_S1x1x256x256_S256x256

/-- The first bias of layer 2, edge type 1: one slice of the stacked parameter, reshaped. -/
def b1_2_1 (w : FVec F S3x4x256 .f32) :
    FVec F S256 .f32 :=
  shapeCast _ (extractStridedSlice S1x1x256 ![2 , 1 , 0] w slices_S3x4x256_S1x1x256_2_1_0) shapeCasts_S1x1x256_S256

/-- The second weight matrix of layer 2, edge type 1: one slice of the stacked parameter, reshaped. -/
def w2_2_1 (w : FVec F S3x4x256x256 .f32) :
    FVec F S256x256 .f32 :=
  shapeCast _ (extractStridedSlice S1x1x256x256 ![2 , 1 , 0 , 0] w slices_S3x4x256x256_S1x1x256x256_2_1_0_0) shapeCasts_S1x1x256x256_S256x256

/-- The second bias of layer 2, edge type 1: one slice of the stacked parameter, reshaped. -/
def b2_2_1 (w : FVec F S3x4x256 .f32) :
    FVec F S256 .f32 :=
  shapeCast _ (extractStridedSlice S1x1x256 ![2 , 1 , 0] w slices_S3x4x256_S1x1x256_2_1_0) shapeCasts_S1x1x256_S256

/-- The first weight matrix of layer 2, edge type 2: one slice of the stacked parameter, reshaped. -/
def w1_2_2 (w : FVec F S3x4x256x256 .f32) :
    FVec F S256x256 .f32 :=
  shapeCast _ (extractStridedSlice S1x1x256x256 ![2 , 2 , 0 , 0] w slices_S3x4x256x256_S1x1x256x256_2_2_0_0) shapeCasts_S1x1x256x256_S256x256

/-- The first bias of layer 2, edge type 2: one slice of the stacked parameter, reshaped. -/
def b1_2_2 (w : FVec F S3x4x256 .f32) :
    FVec F S256 .f32 :=
  shapeCast _ (extractStridedSlice S1x1x256 ![2 , 2 , 0] w slices_S3x4x256_S1x1x256_2_2_0) shapeCasts_S1x1x256_S256

/-- The second weight matrix of layer 2, edge type 2: one slice of the stacked parameter, reshaped. -/
def w2_2_2 (w : FVec F S3x4x256x256 .f32) :
    FVec F S256x256 .f32 :=
  shapeCast _ (extractStridedSlice S1x1x256x256 ![2 , 2 , 0 , 0] w slices_S3x4x256x256_S1x1x256x256_2_2_0_0) shapeCasts_S1x1x256x256_S256x256

/-- The second bias of layer 2, edge type 2: one slice of the stacked parameter, reshaped. -/
def b2_2_2 (w : FVec F S3x4x256 .f32) :
    FVec F S256 .f32 :=
  shapeCast _ (extractStridedSlice S1x1x256 ![2 , 2 , 0] w slices_S3x4x256_S1x1x256_2_2_0) shapeCasts_S1x1x256_S256

/-- The first weight matrix of layer 2, edge type 3: one slice of the stacked parameter, reshaped. -/
def w1_2_3 (w : FVec F S3x4x256x256 .f32) :
    FVec F S256x256 .f32 :=
  shapeCast _ (extractStridedSlice S1x1x256x256 ![2 , 3 , 0 , 0] w slices_S3x4x256x256_S1x1x256x256_2_3_0_0) shapeCasts_S1x1x256x256_S256x256

/-- The first bias of layer 2, edge type 3: one slice of the stacked parameter, reshaped. -/
def b1_2_3 (w : FVec F S3x4x256 .f32) :
    FVec F S256 .f32 :=
  shapeCast _ (extractStridedSlice S1x1x256 ![2 , 3 , 0] w slices_S3x4x256_S1x1x256_2_3_0) shapeCasts_S1x1x256_S256

/-- The second weight matrix of layer 2, edge type 3: one slice of the stacked parameter, reshaped. -/
def w2_2_3 (w : FVec F S3x4x256x256 .f32) :
    FVec F S256x256 .f32 :=
  shapeCast _ (extractStridedSlice S1x1x256x256 ![2 , 3 , 0 , 0] w slices_S3x4x256x256_S1x1x256x256_2_3_0_0) shapeCasts_S1x1x256x256_S256x256

/-- The second bias of layer 2, edge type 3: one slice of the stacked parameter, reshaped. -/
def b2_2_3 (w : FVec F S3x4x256 .f32) :
    FVec F S256 .f32 :=
  shapeCast _ (extractStridedSlice S1x1x256 ![2 , 3 , 0] w slices_S3x4x256_S1x1x256_2_3_0) shapeCasts_S1x1x256_S256

/-! ## The four aggregates -/

/-- The atom-atom aggregate: gather the rows of `x` at the (wrapped) source indices, add the edge attributes, rectify, scatter-add into zeros at the destination indices, add `x`. -/
def aggAA (x : FVec F S50000x256 .f32) (src : IVec S400000 32) (dst : IVec S400000 32) (attr : FVec F S400000x256 .f32) :
    FVec F S50000x256 .f32 :=
  addf (Host.scatterAdd scatter_S50000x256_S400000x1_S400000x256_1_0_0_1 (broadcastInDim S50000x256 ![] bcast_S_S50000x256 (constant S_ .f32 0x00000000#32)) (broadcastInDim S400000x1 ![0] bcast_S400000_S400000x1_0 dst) (maximumf (addf (Host.gather gather_S50000x256_S400000x1_S400000x256_1_0_n_n_0_1_1256 x (broadcastInDim S400000x1 ![0] bcast_S400000_S400000x1_0 (select (cmpi .slt src (broadcastInDim S400000 ![] bcast_S_S400000 (constantI S_ 32 0#32))) (addi src (broadcastInDim S400000 ![] bcast_S_S400000 (constantI S_ 32 50000#32))) src))) attr) (broadcastInDim S400000x256 ![] bcast_S_S400000x256 (constant S_ .f32 0x00000000#32)))) x

/-- The motif-to-atom aggregate: gather from the motif rows `xm`, scatter-add into 50000 rows, add `xa`. -/
def aggMA (xm : FVec F S10000x256 .f32) (xa : FVec F S50000x256 .f32) (src : IVec S150000 32) (dst : IVec S150000 32) (attr : FVec F S150000x256 .f32) :
    FVec F S50000x256 .f32 :=
  addf (Host.scatterAdd scatter_S50000x256_S150000x1_S150000x256_1_0_0_1 (broadcastInDim S50000x256 ![] bcast_S_S50000x256 (constant S_ .f32 0x00000000#32)) (broadcastInDim S150000x1 ![0] bcast_S150000_S150000x1_0 dst) (maximumf (addf (Host.gather gather_S10000x256_S150000x1_S150000x256_1_0_n_n_0_1_1256 xm (broadcastInDim S150000x1 ![0] bcast_S150000_S150000x1_0 (select (cmpi .slt src (broadcastInDim S150000 ![] bcast_S_S150000 (constantI S_ 32 0#32))) (addi src (broadcastInDim S150000 ![] bcast_S_S150000 (constantI S_ 32 10000#32))) src))) attr) (broadcastInDim S150000x256 ![] bcast_S_S150000x256 (constant S_ .f32 0x00000000#32)))) xa

/-- The atom-to-motif aggregate: gather from the atom rows `xa`, scatter-add into 10000 rows, add `xm`. -/
def aggAM (xa : FVec F S50000x256 .f32) (xm : FVec F S10000x256 .f32) (src : IVec S150000 32) (dst : IVec S150000 32) (attr : FVec F S150000x256 .f32) :
    FVec F S10000x256 .f32 :=
  addf (Host.scatterAdd scatter_S10000x256_S150000x1_S150000x256_1_0_0_1 (broadcastInDim S10000x256 ![] bcast_S_S10000x256 (constant S_ .f32 0x00000000#32)) (broadcastInDim S150000x1 ![0] bcast_S150000_S150000x1_0 dst) (maximumf (addf (Host.gather gather_S50000x256_S150000x1_S150000x256_1_0_n_n_0_1_1256 xa (broadcastInDim S150000x1 ![0] bcast_S150000_S150000x1_0 (select (cmpi .slt src (broadcastInDim S150000 ![] bcast_S_S150000 (constantI S_ 32 0#32))) (addi src (broadcastInDim S150000 ![] bcast_S_S150000 (constantI S_ 32 50000#32))) src))) attr) (broadcastInDim S150000x256 ![] bcast_S_S150000x256 (constant S_ .f32 0x00000000#32)))) xm

/-- The motif-motif aggregate. -/
def aggMM (x : FVec F S10000x256 .f32) (src : IVec S100000 32) (dst : IVec S100000 32) (attr : FVec F S100000x256 .f32) :
    FVec F S10000x256 .f32 :=
  addf (Host.scatterAdd scatter_S10000x256_S100000x1_S100000x256_1_0_0_1 (broadcastInDim S10000x256 ![] bcast_S_S10000x256 (constant S_ .f32 0x00000000#32)) (broadcastInDim S100000x1 ![0] bcast_S100000_S100000x1_0 dst) (maximumf (addf (Host.gather gather_S10000x256_S100000x1_S100000x256_1_0_n_n_0_1_1256 x (broadcastInDim S100000x1 ![0] bcast_S100000_S100000x1_0 (select (cmpi .slt src (broadcastInDim S100000 ![] bcast_S_S100000 (constantI S_ 32 0#32))) (addi src (broadcastInDim S100000 ![] bcast_S_S100000 (constantI S_ 32 10000#32))) src))) attr) (broadcastInDim S100000x256 ![] bcast_S_S100000x256 (constant S_ .f32 0x00000000#32)))) x

/-! ## A layer and the pooling -/

/-- One layer, atom side: the perceptron of the atom-atom aggregate plus the perceptron of the motif-to-atom aggregate. -/
def layerA (xa : FVec F S50000x256 .f32) (xm : FVec F S10000x256 .f32) (sAA : IVec S400000 32) (dAA : IVec S400000 32) (eAA : FVec F S400000x256 .f32) (sMA : IVec S150000 32) (dMA : IVec S150000 32) (eMA : FVec F S150000x256 .f32) (w1aa : FVec F S256x256 .f32) (b1aa : FVec F S256 .f32) (w2aa : FVec F S256x256 .f32) (b2aa : FVec F S256 .f32) (w1ma : FVec F S256x256 .f32) (b1ma : FVec F S256 .f32) (w2ma : FVec F S256x256 .f32) (b2ma : FVec F S256 .f32) :
    FVec F S50000x256 .f32 :=
  addf (Cert.Mlp.hostMlpA (aggAA xa sAA dAA eAA) w1aa b1aa w2aa b2aa) (Cert.Mlp.hostMlpA (aggMA xm xa sMA dMA eMA) w1ma b1ma w2ma b2ma)

/-- One layer, motif side: the perceptron of the atom-to-motif aggregate plus the perceptron of the motif-motif aggregate. -/
def layerM (xa : FVec F S50000x256 .f32) (xm : FVec F S10000x256 .f32) (sAM : IVec S150000 32) (dAM : IVec S150000 32) (eAM : FVec F S150000x256 .f32) (sMM : IVec S100000 32) (dMM : IVec S100000 32) (eMM : FVec F S100000x256 .f32) (w1am : FVec F S256x256 .f32) (b1am : FVec F S256 .f32) (w2am : FVec F S256x256 .f32) (b2am : FVec F S256 .f32) (w1mm : FVec F S256x256 .f32) (b1mm : FVec F S256 .f32) (w2mm : FVec F S256x256 .f32) (b2mm : FVec F S256 .f32) :
    FVec F S10000x256 .f32 :=
  addf (Cert.Mlp.hostMlpM (aggAM xa xm sAM dAM eAM) w1am b1am w2am b2am) (Cert.Mlp.hostMlpM (aggMM xm sMM dMM eMM) w1mm b1mm w2mm b2mm)

/-- The pooling: scatter-add the atom rows and the motif rows into 500 graph rows each, and add. -/
def pool (xa : FVec F S50000x256 .f32) (xm : FVec F S10000x256 .f32) (ba : IVec S50000 32) (bm : IVec S10000 32) :
    FVec F S500x256 .f32 :=
  addf (Host.scatterAdd scatter_S500x256_S50000x1_S50000x256_1_0_0_1 (broadcastInDim S500x256 ![] bcast_S_S500x256 (constant S_ .f32 0x00000000#32)) (broadcastInDim S50000x1 ![0] bcast_S50000_S50000x1_0 ba) xa) (Host.scatterAdd scatter_S500x256_S10000x1_S10000x256_1_0_0_1 (broadcastInDim S500x256 ![] bcast_S_S500x256 (constant S_ .f32 0x00000000#32)) (broadcastInDim S10000x1 ![0] bcast_S10000_S10000x1_0 bm) xm)

/-! ## The rows after each layer, and the result -/

/-- The atom rows after layer 1. -/
def xa1 (a0 : FVec F S50000x256 .f32) (a1 : FVec F S10000x256 .f32) (a2 : FVec F S400000x256 .f32) (a3 : FVec F S150000x256 .f32) (a4 : FVec F S150000x256 .f32) (a5 : FVec F S100000x256 .f32) (a6 : FVec F S3x4x256x256 .f32) (a7 : FVec F S3x4x256 .f32) (a8 : FVec F S3x4x256x256 .f32) (a9 : FVec F S3x4x256 .f32) (a10 : IVec S2x400000 32) (a11 : IVec S2x100000 32) (a12 : IVec S150000 32) (a13 : IVec S150000 32) (a14 : IVec S150000 32) (a15 : IVec S150000 32) :
    FVec F S50000x256 .f32 :=
  layerA a0 a1 (srcAA a10) (dstAA a10) a2 a14 a15 a4 (w1_0_0 a6) (b1_0_0 a7) (w2_0_0 a8) (b2_0_0 a9) (w1_0_2 a6) (b1_0_2 a7) (w2_0_2 a8) (b2_0_2 a9)

/-- The motif rows after layer 1. -/
def xm1 (a0 : FVec F S50000x256 .f32) (a1 : FVec F S10000x256 .f32) (a2 : FVec F S400000x256 .f32) (a3 : FVec F S150000x256 .f32) (a4 : FVec F S150000x256 .f32) (a5 : FVec F S100000x256 .f32) (a6 : FVec F S3x4x256x256 .f32) (a7 : FVec F S3x4x256 .f32) (a8 : FVec F S3x4x256x256 .f32) (a9 : FVec F S3x4x256 .f32) (a10 : IVec S2x400000 32) (a11 : IVec S2x100000 32) (a12 : IVec S150000 32) (a13 : IVec S150000 32) (a14 : IVec S150000 32) (a15 : IVec S150000 32) :
    FVec F S10000x256 .f32 :=
  layerM a0 a1 a12 a13 a3 (srcMM a11) (dstMM a11) a5 (w1_0_1 a6) (b1_0_1 a7) (w2_0_1 a8) (b2_0_1 a9) (w1_0_3 a6) (b1_0_3 a7) (w2_0_3 a8) (b2_0_3 a9)

/-- The atom rows after layer 2. -/
def xa2 (a0 : FVec F S50000x256 .f32) (a1 : FVec F S10000x256 .f32) (a2 : FVec F S400000x256 .f32) (a3 : FVec F S150000x256 .f32) (a4 : FVec F S150000x256 .f32) (a5 : FVec F S100000x256 .f32) (a6 : FVec F S3x4x256x256 .f32) (a7 : FVec F S3x4x256 .f32) (a8 : FVec F S3x4x256x256 .f32) (a9 : FVec F S3x4x256 .f32) (a10 : IVec S2x400000 32) (a11 : IVec S2x100000 32) (a12 : IVec S150000 32) (a13 : IVec S150000 32) (a14 : IVec S150000 32) (a15 : IVec S150000 32) :
    FVec F S50000x256 .f32 :=
  layerA (xa1 a0 a1 a2 a3 a4 a5 a6 a7 a8 a9 a10 a11 a12 a13 a14 a15) (xm1 a0 a1 a2 a3 a4 a5 a6 a7 a8 a9 a10 a11 a12 a13 a14 a15) (srcAA a10) (dstAA a10) a2 a14 a15 a4 (w1_1_0 a6) (b1_1_0 a7) (w2_1_0 a8) (b2_1_0 a9) (w1_1_2 a6) (b1_1_2 a7) (w2_1_2 a8) (b2_1_2 a9)

/-- The motif rows after layer 2. -/
def xm2 (a0 : FVec F S50000x256 .f32) (a1 : FVec F S10000x256 .f32) (a2 : FVec F S400000x256 .f32) (a3 : FVec F S150000x256 .f32) (a4 : FVec F S150000x256 .f32) (a5 : FVec F S100000x256 .f32) (a6 : FVec F S3x4x256x256 .f32) (a7 : FVec F S3x4x256 .f32) (a8 : FVec F S3x4x256x256 .f32) (a9 : FVec F S3x4x256 .f32) (a10 : IVec S2x400000 32) (a11 : IVec S2x100000 32) (a12 : IVec S150000 32) (a13 : IVec S150000 32) (a14 : IVec S150000 32) (a15 : IVec S150000 32) :
    FVec F S10000x256 .f32 :=
  layerM (xa1 a0 a1 a2 a3 a4 a5 a6 a7 a8 a9 a10 a11 a12 a13 a14 a15) (xm1 a0 a1 a2 a3 a4 a5 a6 a7 a8 a9 a10 a11 a12 a13 a14 a15) a12 a13 a3 (srcMM a11) (dstMM a11) a5 (w1_1_1 a6) (b1_1_1 a7) (w2_1_1 a8) (b2_1_1 a9) (w1_1_3 a6) (b1_1_3 a7) (w2_1_3 a8) (b2_1_3 a9)

/-- The atom rows after layer 3. -/
def xa3 (a0 : FVec F S50000x256 .f32) (a1 : FVec F S10000x256 .f32) (a2 : FVec F S400000x256 .f32) (a3 : FVec F S150000x256 .f32) (a4 : FVec F S150000x256 .f32) (a5 : FVec F S100000x256 .f32) (a6 : FVec F S3x4x256x256 .f32) (a7 : FVec F S3x4x256 .f32) (a8 : FVec F S3x4x256x256 .f32) (a9 : FVec F S3x4x256 .f32) (a10 : IVec S2x400000 32) (a11 : IVec S2x100000 32) (a12 : IVec S150000 32) (a13 : IVec S150000 32) (a14 : IVec S150000 32) (a15 : IVec S150000 32) :
    FVec F S50000x256 .f32 :=
  layerA (xa2 a0 a1 a2 a3 a4 a5 a6 a7 a8 a9 a10 a11 a12 a13 a14 a15) (xm2 a0 a1 a2 a3 a4 a5 a6 a7 a8 a9 a10 a11 a12 a13 a14 a15) (srcAA a10) (dstAA a10) a2 a14 a15 a4 (w1_2_0 a6) (b1_2_0 a7) (w2_2_0 a8) (b2_2_0 a9) (w1_2_2 a6) (b1_2_2 a7) (w2_2_2 a8) (b2_2_2 a9)

/-- The motif rows after layer 3. -/
def xm3 (a0 : FVec F S50000x256 .f32) (a1 : FVec F S10000x256 .f32) (a2 : FVec F S400000x256 .f32) (a3 : FVec F S150000x256 .f32) (a4 : FVec F S150000x256 .f32) (a5 : FVec F S100000x256 .f32) (a6 : FVec F S3x4x256x256 .f32) (a7 : FVec F S3x4x256 .f32) (a8 : FVec F S3x4x256x256 .f32) (a9 : FVec F S3x4x256 .f32) (a10 : IVec S2x400000 32) (a11 : IVec S2x100000 32) (a12 : IVec S150000 32) (a13 : IVec S150000 32) (a14 : IVec S150000 32) (a15 : IVec S150000 32) :
    FVec F S10000x256 .f32 :=
  layerM (xa2 a0 a1 a2 a3 a4 a5 a6 a7 a8 a9 a10 a11 a12 a13 a14 a15) (xm2 a0 a1 a2 a3 a4 a5 a6 a7 a8 a9 a10 a11 a12 a13 a14 a15) a12 a13 a3 (srcMM a11) (dstMM a11) a5 (w1_2_1 a6) (b1_2_1 a7) (w2_2_1 a8) (b2_2_1 a9) (w1_2_3 a6) (b1_2_3 a7) (w2_2_3 a8) (b2_2_3 a9)

/-- THE RESULT as a layered function of the eighteen arguments: three layers, each pooled, the three pooled arrays concatenated along the columns. -/
def specRes (a0 : FVec F S50000x256 .f32) (a1 : FVec F S10000x256 .f32) (a2 : FVec F S400000x256 .f32) (a3 : FVec F S150000x256 .f32) (a4 : FVec F S150000x256 .f32) (a5 : FVec F S100000x256 .f32) (a6 : FVec F S3x4x256x256 .f32) (a7 : FVec F S3x4x256 .f32) (a8 : FVec F S3x4x256x256 .f32) (a9 : FVec F S3x4x256 .f32) (a10 : IVec S2x400000 32) (a11 : IVec S2x100000 32) (a12 : IVec S150000 32) (a13 : IVec S150000 32) (a14 : IVec S150000 32) (a15 : IVec S150000 32) (a16 : IVec S50000 32) (a17 : IVec S10000 32) :
    FVec F S500x768 .f32 :=
  concatenate S500x768 1 [⟨S500x256, pool (xa1 a0 a1 a2 a3 a4 a5 a6 a7 a8 a9 a10 a11 a12 a13 a14 a15) (xm1 a0 a1 a2 a3 a4 a5 a6 a7 a8 a9 a10 a11 a12 a13 a14 a15) a16 a17⟩, ⟨S500x256, pool (xa2 a0 a1 a2 a3 a4 a5 a6 a7 a8 a9 a10 a11 a12 a13 a14 a15) (xm2 a0 a1 a2 a3 a4 a5 a6 a7 a8 a9 a10 a11 a12 a13 a14 a15) a16 a17⟩, ⟨S500x256, pool (xa3 a0 a1 a2 a3 a4 a5 a6 a7 a8 a9 a10 a11 a12 a13 a14 a15) (xm3 a0 a1 a2 a3 a4 a5 a6 a7 a8 a9 a10 a11 a12 a13 a14 a15) a16 a17⟩] concatenates_S500x256_S500x256_S500x256_S500x768_d1

end Cert.HostChain

end
-- ==== Proof.HC.Hyp.lean ====
/-
  What the host chain of the kernel program assumes of its twelve kernel regions, and two congruences.

  Each region runs the two-layer perceptron on five arrays (the activations, two weight matrices, two bias rows) and
  writes a sixth. The assumption, one equation per region: the output array, after the region, is the reference's
  perceptron (`Cert.Mlp.hostMlpA` on 50000 rows, `Cert.Mlp.hostMlpM` on 10000 rows) of the five input arrays as they
  stood at the region's entry.
-/
import proofs.«171333_j58007828300388_1_alg».proof.Proof.KI.Chain
import proofs.«171333_j58007828300388_1_alg».proof.Proof.HC.Spec

set_option maxRecDepth 16384

noncomputable section

namespace Cert.HostChain

open Cert.KernelIdeal Cert.KernelIdeal.Gen Cert.KernelIdeal.Fr
open Idealize.ShloMosaic Idealize.ShloMosaic.TcCoe Idealize.SL.Sem Idealize.ShloMosaic.StableHlo

variable [Cert.ReferenceIdeal.Facts₀]

set_option maxHeartbeats 8000000 in
/-- The twelve regions each compute the perceptron of their inputs. -/
structure RegionMlp (m : (ℓ : Loc nD τ sig) → Buf (Elt Ideal) ℓ) (ρ : Dev nD → PrngReg) : Prop where
  /-- Region 0 leaves its output array at the perceptron of its five input arrays as entered. -/
  fin0 : ∀ c : Dev nD, (dat0 (U9 (F := Ideal) m ρ) c).arrAt 5 cfg0.N
      = Cert.Mlp.hostMlpA (F := Ideal) (U9 m ρ c (Pipeline.arrRef spec0 0)) (U9 m ρ c (Pipeline.arrRef spec0 1)) (U9 m ρ c (Pipeline.arrRef spec0 2)) (U9 m ρ c (Pipeline.arrRef spec0 3)) (U9 m ρ c (Pipeline.arrRef spec0 4))
  /-- Region 1 leaves its output array at the perceptron of its five input arrays as entered. -/
  fin1 : ∀ c : Dev nD, (dat1 (U11 (F := Ideal) m ρ) c).arrAt 5 cfg1.N
      = Cert.Mlp.hostMlpA (F := Ideal) (U11 m ρ c (Pipeline.arrRef spec1 0)) (U11 m ρ c (Pipeline.arrRef spec1 1)) (U11 m ρ c (Pipeline.arrRef spec1 2)) (U11 m ρ c (Pipeline.arrRef spec1 3)) (U11 m ρ c (Pipeline.arrRef spec1 4))
  /-- Region 2 leaves its output array at the perceptron of its five input arrays as entered. -/
  fin2 : ∀ c : Dev nD, (dat2 (U13 (F := Ideal) m ρ) c).arrAt 5 cfg2.N
      = Cert.Mlp.hostMlpM (F := Ideal) (U13 m ρ c (Pipeline.arrRef spec2 0)) (U13 m ρ c (Pipeline.arrRef spec2 1)) (U13 m ρ c (Pipeline.arrRef spec2 2)) (U13 m ρ c (Pipeline.arrRef spec2 3)) (U13 m ρ c (Pipeline.arrRef spec2 4))
  /-- Region 3 leaves its output array at the perceptron of its five input arrays as entered. -/
  fin3 : ∀ c : Dev nD, (dat3 (U15 (F := Ideal) m ρ) c).arrAt 5 cfg3.N
      = Cert.Mlp.hostMlpM (F := Ideal) (U15 m ρ c (Pipeline.arrRef spec3 0)) (U15 m ρ c (Pipeline.arrRef spec3 1)) (U15 m ρ c (Pipeline.arrRef spec3 2)) (U15 m ρ c (Pipeline.arrRef spec3 3)) (U15 m ρ c (Pipeline.arrRef spec3 4))
  /-- Region 4 leaves its output array at the perceptron of its five input arrays as entered. -/
  fin4 : ∀ c : Dev nD, (dat4 (U25 (F := Ideal) m ρ) c).arrAt 5 cfg4.N
      = Cert.Mlp.hostMlpA (F := Ideal) (U25 m ρ c (Pipeline.arrRef spec4 0)) (U25 m ρ c (Pipeline.arrRef spec4 1)) (U25 m ρ c (Pipeline.arrRef spec4 2)) (U25 m ρ c (Pipeline.arrRef spec4 3)) (U25 m ρ c (Pipeline.arrRef spec4 4))
  /-- Region 5 leaves its output array at the perceptron of its five input arrays as entered. -/
  fin5 : ∀ c : Dev nD, (dat5 (U27 (F := Ideal) m ρ) c).arrAt 5 cfg5.N
      = Cert.Mlp.hostMlpA (F := Ideal) (U27 m ρ c (Pipeline.arrRef spec5 0)) (U27 m ρ c (Pipeline.arrRef spec5 1)) (U27 m ρ c (Pipeline.arrRef spec5 2)) (U27 m ρ c (Pipeline.arrRef spec5 3)) (U27 m ρ c (Pipeline.arrRef spec5 4))
  /-- Region 6 leaves its output array at the perceptron of its five input arrays as entered. -/
  fin6 : ∀ c : Dev nD, (dat6 (U29 (F := Ideal) m ρ) c).arrAt 5 cfg6.N
      = Cert.Mlp.hostMlpM (F := Ideal) (U29 m ρ c (Pipeline.arrRef spec6 0)) (U29 m ρ c (Pipeline.arrRef spec6 1)) (U29 m ρ c (Pipeline.arrRef spec6 2)) (U29 m ρ c (Pipeline.arrRef spec6 3)) (U29 m ρ c (Pipeline.arrRef spec6 4))
  /-- Region 7 leaves its output array at the perceptron of its five input arrays as entered. -/
  fin7 : ∀ c : Dev nD, (dat7 (U31 (F := Ideal) m ρ) c).arrAt 5 cfg7.N
      = Cert.Mlp.hostMlpM (F := Ideal) (U31 m ρ c (Pipeline.arrRef spec7 0)) (U31 m ρ c (Pipeline.arrRef spec7 1)) (U31 m ρ c (Pipeline.arrRef spec7 2)) (U31 m ρ c (Pipeline.arrRef spec7 3)) (U31 m ρ c (Pipeline.arrRef spec7 4))
  /-- Region 8 leaves its output array at the perceptron of its five input arrays as entered. -/
  fin8 : ∀ c : Dev nD, (dat8 (U41 (F := Ideal) m ρ) c).arrAt 5 cfg8.N
      = Cert.Mlp.hostMlpA (F := Ideal) (U41 m ρ c (Pipeline.arrRef spec8 0)) (U41 m ρ c (Pipeline.arrRef spec8 1)) (U41 m ρ c (Pipeline.arrRef spec8 2)) (U41 m ρ c (Pipeline.arrRef spec8 3)) (U41 m ρ c (Pipeline.arrRef spec8 4))
  /-- Region 9 leaves its output array at the perceptron of its five input arrays as entered. -/
  fin9 : ∀ c : Dev nD, (dat9 (U43 (F := Ideal) m ρ) c).arrAt 5 cfg9.N
      = Cert.Mlp.hostMlpA (F := Ideal) (U43 m ρ c (Pipeline.arrRef spec9 0)) (U43 m ρ c (Pipeline.arrRef spec9 1)) (U43 m ρ c (Pipeline.arrRef spec9 2)) (U43 m ρ c (Pipeline.arrRef spec9 3)) (U43 m ρ c (Pipeline.arrRef spec9 4))
  /-- Region 10 leaves its output array at the perceptron of its five input arrays as entered. -/
  fin10 : ∀ c : Dev nD, (dat10 (U45 (F := Ideal) m ρ) c).arrAt 5 cfg10.N
      = Cert.Mlp.hostMlpM (F := Ideal) (U45 m ρ c (Pipeline.arrRef spec10 0)) (U45 m ρ c (Pipeline.arrRef spec10 1)) (U45 m ρ c (Pipeline.arrRef spec10 2)) (U45 m ρ c (Pipeline.arrRef spec10 3)) (U45 m ρ c (Pipeline.arrRef spec10 4))
  /-- Region 11 leaves its output array at the perceptron of its five input arrays as entered. -/
  fin11 : ∀ c : Dev nD, (dat11 (U47 (F := Ideal) m ρ) c).arrAt 5 cfg11.N
      = Cert.Mlp.hostMlpM (F := Ideal) (U47 m ρ c (Pipeline.arrRef spec11 0)) (U47 m ρ c (Pipeline.arrRef spec11 1)) (U47 m ρ c (Pipeline.arrRef spec11 2)) (U47 m ρ c (Pipeline.arrRef spec11 3)) (U47 m ρ c (Pipeline.arrRef spec11 4))

/-- The perceptron on 50000 rows respects equality of its five arguments. -/
theorem mlpA_congr {h h' : FVec Ideal Cert.ReferenceIdeal.S50000x256 .f32} {w1 w1' : FVec Ideal Cert.ReferenceIdeal.S256x256 .f32}
    {b1 b1' : FVec Ideal Cert.ReferenceIdeal.S256 .f32} {w2 w2' : FVec Ideal Cert.ReferenceIdeal.S256x256 .f32}
    {b2 b2' : FVec Ideal Cert.ReferenceIdeal.S256 .f32} (e0 : h = h') (e1 : w1 = w1') (e2 : b1 = b1') (e3 : w2 = w2') (e4 : b2 = b2') :
    Cert.Mlp.hostMlpA h w1 b1 w2 b2 = Cert.Mlp.hostMlpA h' w1' b1' w2' b2' := by
  subst e0 e1 e2 e3 e4; rfl

/-- The perceptron on 10000 rows respects equality of its five arguments. -/
theorem mlpM_congr {h h' : FVec Ideal Cert.ReferenceIdeal.S10000x256 .f32} {w1 w1' : FVec Ideal Cert.ReferenceIdeal.S256x256 .f32}
    {b1 b1' : FVec Ideal Cert.ReferenceIdeal.S256 .f32} {w2 w2' : FVec Ideal Cert.ReferenceIdeal.S256x256 .f32}
    {b2 b2' : FVec Ideal Cert.ReferenceIdeal.S256 .f32} (e0 : h = h') (e1 : w1 = w1') (e2 : b1 = b1') (e3 : w2 = w2') (e4 : b2 = b2') :
    Cert.Mlp.hostMlpM h w1 b1 w2 b2 = Cert.Mlp.hostMlpM h' w1' b1' w2' b2' := by
  subst e0 e1 e2 e3 e4; rfl

end Cert.HostChain

end
-- ==== Proof.KI.Fins.lean ====
/-
  The twelve regions' outputs at the ideal instance, collected: each is the host's perceptron of the region's five input
  arrays as its entry boundary holds them.
-/
import proofs.«171333_j58007828300388_1_alg».proof.Proof.KI.Chain
import proofs.«171333_j58007828300388_1_alg».proof.Proof.KI.Val0
import proofs.«171333_j58007828300388_1_alg».proof.Proof.KI.Val1
import proofs.«171333_j58007828300388_1_alg».proof.Proof.KI.Val2
import proofs.«171333_j58007828300388_1_alg».proof.Proof.KI.Val3
import proofs.«171333_j58007828300388_1_alg».proof.Proof.KI.Val4
import proofs.«171333_j58007828300388_1_alg».proof.Proof.KI.Val5
import proofs.«171333_j58007828300388_1_alg».proof.Proof.KI.Val6
import proofs.«171333_j58007828300388_1_alg».proof.Proof.KI.Val7
import proofs.«171333_j58007828300388_1_alg».proof.Proof.KI.Val8
import proofs.«171333_j58007828300388_1_alg».proof.Proof.KI.Val9
import proofs.«171333_j58007828300388_1_alg».proof.Proof.KI.Val10
import proofs.«171333_j58007828300388_1_alg».proof.Proof.KI.Val11
import proofs.«171333_j58007828300388_1_alg».proof.Proof.HC.Hyp

set_option maxRecDepth 16384

noncomputable section

namespace Cert.KernelIdeal.Fr

open Cert.KernelIdeal Cert.KernelIdeal.Gen Idealize.ShloMosaic Idealize.ShloMosaic.TcCoe Idealize.SL.Sem

theorem regionMlp (m : (ℓ : Loc nD τ sig) → Buf (Elt Ideal) ℓ) (ρ : Dev nD → PrngReg) : Cert.HostChain.RegionMlp m ρ :=
  ⟨fun c => final0 (U9 (F := Ideal) m ρ) c,
   fun c => final1 (U11 (F := Ideal) m ρ) c,
   fun c => final2 (U13 (F := Ideal) m ρ) c,
   fun c => final3 (U15 (F := Ideal) m ρ) c,
   fun c => final4 (U25 (F := Ideal) m ρ) c,
   fun c => final5 (U27 (F := Ideal) m ρ) c,
   fun c => final6 (U29 (F := Ideal) m ρ) c,
   fun c => final7 (U31 (F := Ideal) m ρ) c,
   fun c => final8 (U41 (F := Ideal) m ρ) c,
   fun c => final9 (U43 (F := Ideal) m ρ) c,
   fun c => final10 (U45 (F := Ideal) m ρ) c,
   fun c => final11 (U47 (F := Ideal) m ρ) c⟩

end Cert.KernelIdeal.Fr

end
-- ==== Proof.HC.Ker1.lean ====
/-
  The kernel program's buffers through its first layer (items 0 to 15 of its main function), as terms of the arguments.

  For each buffer that a later item reads: its contents at each boundary where it is read. A buffer a stretch of host
  operations writes is the operations' composed term of what the stretch found; a region's output is the perceptron of
  its inputs (the assumption `RegionMlp`); any other buffer is what it was before the item.
-/
import proofs.«171333_j58007828300388_1_alg».proof.Proof.HC.Hyp

set_option maxRecDepth 16384

noncomputable section

namespace Cert.HostChain

open Cert.KernelIdeal Cert.KernelIdeal.Gen Cert.KernelIdeal.Fr
open Idealize.ShloMosaic Idealize.ShloMosaic.TcCoe Idealize.SL.Sem Idealize.ShloMosaic.StableHlo

variable [Cert.ReferenceIdeal.Facts₀]

variable (m : (ℓ : Loc nD τ sig) → Buf (Elt Ideal) ℓ) (ρ : Dev nD → PrngReg) (H : RegionMlp m ρ) (c : Dev nD)
include H

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)
local notation "a17" => m ((c : Thread nD τ).loc main_arg17)

theorem e3_v16 : W3 (F := Ideal) m ρ c (Proc.devRef .tc main_v16) = aggAA (F := Ideal) a0 (srcAA a10) (dstAA a10) a2 := by
  show StableHlo.after hostOps0_2 (W2 (F := Ideal) m ρ c) (Proc.devRef .tc main_v16) = _
  after_results_simp
  rfl
theorem e4_v16 : W4 (F := Ideal) m ρ c (Proc.devRef .tc main_v16) = aggAA (F := Ideal) a0 (srcAA a10) (dstAA a10) a2 :=
  (W4_of m ρ c main_v16 (by decide)).trans (e3_v16 m ρ H c)
theorem e5_v16 : W5 (F := Ideal) m ρ c (Proc.devRef .tc main_v16) = aggAA (F := Ideal) a0 (srcAA a10) (dstAA a10) a2 :=
  (W5_of m ρ c main_v16 (by decide)).trans (e4_v16 m ρ H c)
theorem e6_v16 : W6 (F := Ideal) m ρ c (Proc.devRef .tc main_v16) = aggAA (F := Ideal) a0 (srcAA a10) (dstAA a10) a2 :=
  (W6_of m ρ c main_v16 (by decide)).trans (e5_v16 m ρ H c)
theorem e7_v16 : W7 (F := Ideal) m ρ c (Proc.devRef .tc main_v16) = aggAA (F := Ideal) a0 (srcAA a10) (dstAA a10) a2 :=
  (W7_of m ρ c main_v16 (by decide)).trans (e6_v16 m ρ H c)
theorem e8_v16 : W8 (F := Ideal) m ρ c (Proc.devRef .tc main_v16) = aggAA (F := Ideal) a0 (srcAA a10) (dstAA a10) a2 :=
  (W8_of m ρ c main_v16 (by decide)).trans (e7_v16 m ρ H c)
theorem e9_v16 : W9 (F := Ideal) m ρ c (Proc.devRef .tc main_v16) = aggAA (F := Ideal) a0 (srcAA a10) (dstAA a10) a2 :=
  (W9_of m ρ c main_v16 (by decide)).trans (e8_v16 m ρ H c)
theorem e9_v61 : W9 (F := Ideal) m ρ c (Proc.devRef .tc main_v61) = w1_0_0 (F := Ideal) a6 := by
  show StableHlo.after hostOps0_8 (W8 (F := Ideal) m ρ c) (Proc.devRef .tc main_v61) = _
  after_results_simp
  rfl
theorem e9_v63 : W9 (F := Ideal) m ρ c (Proc.devRef .tc main_v63) = b1_0_0 (F := Ideal) a7 := by
  show StableHlo.after hostOps0_8 (W8 (F := Ideal) m ρ c) (Proc.devRef .tc main_v63) = _
  after_results_simp
  rfl
theorem e9_v65 : W9 (F := Ideal) m ρ c (Proc.devRef .tc main_v65) = w2_0_0 (F := Ideal) a8 := by
  show StableHlo.after hostOps0_8 (W8 (F := Ideal) m ρ c) (Proc.devRef .tc main_v65) = _
  after_results_simp
  rfl
theorem e9_v67 : W9 (F := Ideal) m ρ c (Proc.devRef .tc main_v67) = b2_0_0 (F := Ideal) a9 := by
  show StableHlo.after hostOps0_8 (W8 (F := Ideal) m ρ c) (Proc.devRef .tc main_v67) = _
  after_results_simp
  rfl
theorem e10_v68 : W10 (F := Ideal) m ρ c (Proc.devRef .tc main_v68) = Cert.Mlp.hostMlpA (F := Ideal) (aggAA (F := Ideal) a0 (srcAA a10) (dstAA a10) a2) (w1_0_0 (F := Ideal) a6) (b1_0_0 (F := Ideal) a7) (w2_0_0 (F := Ideal) a8) (b2_0_0 (F := Ideal) a9) :=
  ((W10_arr (F := Ideal) m ρ c 5).trans (H.fin0 c)).trans
    (mlpA_congr (e9_v16 m ρ H c) (e9_v61 m ρ H c) (e9_v63 m ρ H c) (e9_v65 m ρ H c) (e9_v67 m ρ H c))
theorem e5_v29 : W5 (F := Ideal) m ρ c (Proc.devRef .tc main_v29) = aggMA (F := Ideal) a1 a0 a14 a15 a4 := by
  show StableHlo.after hostOps0_4 (W4 (F := Ideal) m ρ c) (Proc.devRef .tc main_v29) = _
  after_results_simp
  rfl
theorem e6_v29 : W6 (F := Ideal) m ρ c (Proc.devRef .tc main_v29) = aggMA (F := Ideal) a1 a0 a14 a15 a4 :=
  (W6_of m ρ c main_v29 (by decide)).trans (e5_v29 m ρ H c)
theorem e7_v29 : W7 (F := Ideal) m ρ c (Proc.devRef .tc main_v29) = aggMA (F := Ideal) a1 a0 a14 a15 a4 :=
  (W7_of m ρ c main_v29 (by decide)).trans (e6_v29 m ρ H c)
theorem e8_v29 : W8 (F := Ideal) m ρ c (Proc.devRef .tc main_v29) = aggMA (F := Ideal) a1 a0 a14 a15 a4 :=
  (W8_of m ρ c main_v29 (by decide)).trans (e7_v29 m ρ H c)
theorem e9_v29 : W9 (F := Ideal) m ρ c (Proc.devRef .tc main_v29) = aggMA (F := Ideal) a1 a0 a14 a15 a4 :=
  (W9_of m ρ c main_v29 (by decide)).trans (e8_v29 m ρ H c)
theorem e10_v29 : W10 (F := Ideal) m ρ c (Proc.devRef .tc main_v29) = aggMA (F := Ideal) a1 a0 a14 a15 a4 :=
  (W10_of m ρ c main_v29 (by decide)).trans (e9_v29 m ρ H c)
theorem e11_v29 : W11 (F := Ideal) m ρ c (Proc.devRef .tc main_v29) = aggMA (F := Ideal) a1 a0 a14 a15 a4 :=
  (W11_of m ρ c main_v29 (by decide)).trans (e10_v29 m ρ H c)
theorem e0_arg6 : W0 (F := Ideal) m ρ c (Proc.devRef .tc main_arg6) = m ((c : Thread nD τ).loc main_arg6) := rfl
theorem e1_arg6 : W1 (F := Ideal) m ρ c (Proc.devRef .tc main_arg6) = m ((c : Thread nD τ).loc main_arg6) :=
  (W1_of m ρ c main_arg6 (by decide)).trans (e0_arg6 m ρ H c)
theorem e2_arg6 : W2 (F := Ideal) m ρ c (Proc.devRef .tc main_arg6) = m ((c : Thread nD τ).loc main_arg6) :=
  (W2_of m ρ c main_arg6 (by decide)).trans (e1_arg6 m ρ H c)
theorem e3_arg6 : W3 (F := Ideal) m ρ c (Proc.devRef .tc main_arg6) = m ((c : Thread nD τ).loc main_arg6) :=
  (W3_of m ρ c main_arg6 (by decide)).trans (e2_arg6 m ρ H c)
theorem e4_arg6 : W4 (F := Ideal) m ρ c (Proc.devRef .tc main_arg6) = m ((c : Thread nD τ).loc main_arg6) :=
  (W4_of m ρ c main_arg6 (by decide)).trans (e3_arg6 m ρ H c)
theorem e5_arg6 : W5 (F := Ideal) m ρ c (Proc.devRef .tc main_arg6) = m ((c : Thread nD τ).loc main_arg6) :=
  (W5_of m ρ c main_arg6 (by decide)).trans (e4_arg6 m ρ H c)
theorem e6_arg6 : W6 (F := Ideal) m ρ c (Proc.devRef .tc main_arg6) = m ((c : Thread nD τ).loc main_arg6) :=
  (W6_of m ρ c main_arg6 (by decide)).trans (e5_arg6 m ρ H c)
theorem e7_arg6 : W7 (F := Ideal) m ρ c (Proc.devRef .tc main_arg6) = m ((c : Thread nD τ).loc main_arg6) :=
  (W7_of m ρ c main_arg6 (by decide)).trans (e6_arg6 m ρ H c)
theorem e8_arg6 : W8 (F := Ideal) m ρ c (Proc.devRef .tc main_arg6) = m ((c : Thread nD τ).loc main_arg6) :=
  (W8_of m ρ c main_arg6 (by decide)).trans (e7_arg6 m ρ H c)
theorem e9_arg6 : W9 (F := Ideal) m ρ c (Proc.devRef .tc main_arg6) = m ((c : Thread nD τ).loc main_arg6) :=
  (W9_of m ρ c main_arg6 (by decide)).trans (e8_arg6 m ρ H c)
theorem e10_arg6 : W10 (F := Ideal) m ρ c (Proc.devRef .tc main_arg6) = m ((c : Thread nD τ).loc main_arg6) :=
  (W10_of m ρ c main_arg6 (by decide)).trans (e9_arg6 m ρ H c)
theorem e11_v70 : W11 (F := Ideal) m ρ c (Proc.devRef .tc main_v70) = w1_0_2 (F := Ideal) a6 := by
  show StableHlo.after hostOps1 (W10 (F := Ideal) m ρ c) (Proc.devRef .tc main_v70) = _
  after_results_simp
  rw [e10_arg6 m ρ H c]
  rfl
theorem e0_arg7 : W0 (F := Ideal) m ρ c (Proc.devRef .tc main_arg7) = m ((c : Thread nD τ).loc main_arg7) := rfl
theorem e1_arg7 : W1 (F := Ideal) m ρ c (Proc.devRef .tc main_arg7) = m ((c : Thread nD τ).loc main_arg7) :=
  (W1_of m ρ c main_arg7 (by decide)).trans (e0_arg7 m ρ H c)
theorem e2_arg7 : W2 (F := Ideal) m ρ c (Proc.devRef .tc main_arg7) = m ((c : Thread nD τ).loc main_arg7) :=
  (W2_of m ρ c main_arg7 (by decide)).trans (e1_arg7 m ρ H c)
theorem e3_arg7 : W3 (F := Ideal) m ρ c (Proc.devRef .tc main_arg7) = m ((c : Thread nD τ).loc main_arg7) :=
  (W3_of m ρ c main_arg7 (by decide)).trans (e2_arg7 m ρ H c)
theorem e4_arg7 : W4 (F := Ideal) m ρ c (Proc.devRef .tc main_arg7) = m ((c : Thread nD τ).loc main_arg7) :=
  (W4_of m ρ c main_arg7 (by decide)).trans (e3_arg7 m ρ H c)
theorem e5_arg7 : W5 (F := Ideal) m ρ c (Proc.devRef .tc main_arg7) = m ((c : Thread nD τ).loc main_arg7) :=
  (W5_of m ρ c main_arg7 (by decide)).trans (e4_arg7 m ρ H c)
theorem e6_arg7 : W6 (F := Ideal) m ρ c (Proc.devRef .tc main_arg7) = m ((c : Thread nD τ).loc main_arg7) :=
  (W6_of m ρ c main_arg7 (by decide)).trans (e5_arg7 m ρ H c)
theorem e7_arg7 : W7 (F := Ideal) m ρ c (Proc.devRef .tc main_arg7) = m ((c : Thread nD τ).loc main_arg7) :=
  (W7_of m ρ c main_arg7 (by decide)).trans (e6_arg7 m ρ H c)
theorem e8_arg7 : W8 (F := Ideal) m ρ c (Proc.devRef .tc main_arg7) = m ((c : Thread nD τ).loc main_arg7) :=
  (W8_of m ρ c main_arg7 (by decide)).trans (e7_arg7 m ρ H c)
theorem e9_arg7 : W9 (F := Ideal) m ρ c (Proc.devRef .tc main_arg7) = m ((c : Thread nD τ).loc main_arg7) :=
  (W9_of m ρ c main_arg7 (by decide)).trans (e8_arg7 m ρ H c)
theorem e10_arg7 : W10 (F := Ideal) m ρ c (Proc.devRef .tc main_arg7) = m ((c : Thread nD τ).loc main_arg7) :=
  (W10_of m ρ c main_arg7 (by decide)).trans (e9_arg7 m ρ H c)
theorem e11_v72 : W11 (F := Ideal) m ρ c (Proc.devRef .tc main_v72) = b1_0_2 (F := Ideal) a7 := by
  show StableHlo.after hostOps1 (W10 (F := Ideal) m ρ c) (Proc.devRef .tc main_v72) = _
  after_results_simp
  rw [e10_arg7 m ρ H c]
  rfl
theorem e0_arg8 : W0 (F := Ideal) m ρ c (Proc.devRef .tc main_arg8) = m ((c : Thread nD τ).loc main_arg8) := rfl
theorem e1_arg8 : W1 (F := Ideal) m ρ c (Proc.devRef .tc main_arg8) = m ((c : Thread nD τ).loc main_arg8) :=
  (W1_of m ρ c main_arg8 (by decide)).trans (e0_arg8 m ρ H c)
theorem e2_arg8 : W2 (F := Ideal) m ρ c (Proc.devRef .tc main_arg8) = m ((c : Thread nD τ).loc main_arg8) :=
  (W2_of m ρ c main_arg8 (by decide)).trans (e1_arg8 m ρ H c)
theorem e3_arg8 : W3 (F := Ideal) m ρ c (Proc.devRef .tc main_arg8) = m ((c : Thread nD τ).loc main_arg8) :=
  (W3_of m ρ c main_arg8 (by decide)).trans (e2_arg8 m ρ H c)
theorem e4_arg8 : W4 (F := Ideal) m ρ c (Proc.devRef .tc main_arg8) = m ((c : Thread nD τ).loc main_arg8) :=
  (W4_of m ρ c main_arg8 (by decide)).trans (e3_arg8 m ρ H c)
theorem e5_arg8 : W5 (F := Ideal) m ρ c (Proc.devRef .tc main_arg8) = m ((c : Thread nD τ).loc main_arg8) :=
  (W5_of m ρ c main_arg8 (by decide)).trans (e4_arg8 m ρ H c)
theorem e6_arg8 : W6 (F := Ideal) m ρ c (Proc.devRef .tc main_arg8) = m ((c : Thread nD τ).loc main_arg8) :=
  (W6_of m ρ c main_arg8 (by decide)).trans (e5_arg8 m ρ H c)
theorem e7_arg8 : W7 (F := Ideal) m ρ c (Proc.devRef .tc main_arg8) = m ((c : Thread nD τ).loc main_arg8) :=
  (W7_of m ρ c main_arg8 (by decide)).trans (e6_arg8 m ρ H c)
theorem e8_arg8 : W8 (F := Ideal) m ρ c (Proc.devRef .tc main_arg8) = m ((c : Thread nD τ).loc main_arg8) :=
  (W8_of m ρ c main_arg8 (by decide)).trans (e7_arg8 m ρ H c)
theorem e9_arg8 : W9 (F := Ideal) m ρ c (Proc.devRef .tc main_arg8) = m ((c : Thread nD τ).loc main_arg8) :=
  (W9_of m ρ c main_arg8 (by decide)).trans (e8_arg8 m ρ H c)
theorem e10_arg8 : W10 (F := Ideal) m ρ c (Proc.devRef .tc main_arg8) = m ((c : Thread nD τ).loc main_arg8) :=
  (W10_of m ρ c main_arg8 (by decide)).trans (e9_arg8 m ρ H c)
theorem e11_v74 : W11 (F := Ideal) m ρ c (Proc.devRef .tc main_v74) = w2_0_2 (F := Ideal) a8 := by
  show StableHlo.after hostOps1 (W10 (F := Ideal) m ρ c) (Proc.devRef .tc main_v74) = _
  after_results_simp
  rw [e10_arg8 m ρ H c]
  rfl
theorem e0_arg9 : W0 (F := Ideal) m ρ c (Proc.devRef .tc main_arg9) = m ((c : Thread nD τ).loc main_arg9) := rfl
theorem e1_arg9 : W1 (F := Ideal) m ρ c (Proc.devRef .tc main_arg9) = m ((c : Thread nD τ).loc main_arg9) :=
  (W1_of m ρ c main_arg9 (by decide)).trans (e0_arg9 m ρ H c)
theorem e2_arg9 : W2 (F := Ideal) m ρ c (Proc.devRef .tc main_arg9) = m ((c : Thread nD τ).loc main_arg9) :=
  (W2_of m ρ c main_arg9 (by decide)).trans (e1_arg9 m ρ H c)
theorem e3_arg9 : W3 (F := Ideal) m ρ c (Proc.devRef .tc main_arg9) = m ((c : Thread nD τ).loc main_arg9) :=
  (W3_of m ρ c main_arg9 (by decide)).trans (e2_arg9 m ρ H c)
theorem e4_arg9 : W4 (F := Ideal) m ρ c (Proc.devRef .tc main_arg9) = m ((c : Thread nD τ).loc main_arg9) :=
  (W4_of m ρ c main_arg9 (by decide)).trans (e3_arg9 m ρ H c)
theorem e5_arg9 : W5 (F := Ideal) m ρ c (Proc.devRef .tc main_arg9) = m ((c : Thread nD τ).loc main_arg9) :=
  (W5_of m ρ c main_arg9 (by decide)).trans (e4_arg9 m ρ H c)
theorem e6_arg9 : W6 (F := Ideal) m ρ c (Proc.devRef .tc main_arg9) = m ((c : Thread nD τ).loc main_arg9) :=
  (W6_of m ρ c main_arg9 (by decide)).trans (e5_arg9 m ρ H c)
theorem e7_arg9 : W7 (F := Ideal) m ρ c (Proc.devRef .tc main_arg9) = m ((c : Thread nD τ).loc main_arg9) :=
  (W7_of m ρ c main_arg9 (by decide)).trans (e6_arg9 m ρ H c)
theorem e8_arg9 : W8 (F := Ideal) m ρ c (Proc.devRef .tc main_arg9) = m ((c : Thread nD τ).loc main_arg9) :=
  (W8_of m ρ c main_arg9 (by decide)).trans (e7_arg9 m ρ H c)
theorem e9_arg9 : W9 (F := Ideal) m ρ c (Proc.devRef .tc main_arg9) = m ((c : Thread nD τ).loc main_arg9) :=
  (W9_of m ρ c main_arg9 (by decide)).trans (e8_arg9 m ρ H c)
theorem e10_arg9 : W10 (F := Ideal) m ρ c (Proc.devRef .tc main_arg9) = m ((c : Thread nD τ).loc main_arg9) :=
  (W10_of m ρ c main_arg9 (by decide)).trans (e9_arg9 m ρ H c)
theorem e11_v76 : W11 (F := Ideal) m ρ c (Proc.devRef .tc main_v76) = b2_0_2 (F := Ideal) a9 := by
  show StableHlo.after hostOps1 (W10 (F := Ideal) m ρ c) (Proc.devRef .tc main_v76) = _
  after_results_simp
  rw [e10_arg9 m ρ H c]
  rfl
theorem e12_v77 : W12 (F := Ideal) m ρ c (Proc.devRef .tc main_v77) = Cert.Mlp.hostMlpA (F := Ideal) (aggMA (F := Ideal) a1 a0 a14 a15 a4) (w1_0_2 (F := Ideal) a6) (b1_0_2 (F := Ideal) a7) (w2_0_2 (F := Ideal) a8) (b2_0_2 (F := Ideal) a9) :=
  ((W12_arr (F := Ideal) m ρ c 5).trans (H.fin1 c)).trans
    (mlpA_congr (e11_v29 m ρ H c) (e11_v70 m ρ H c) (e11_v72 m ρ H c) (e11_v74 m ρ H c) (e11_v76 m ρ H c))
theorem e7_v42 : W7 (F := Ideal) m ρ c (Proc.devRef .tc main_v42) = aggAM (F := Ideal) a0 a1 a12 a13 a3 := by
  show StableHlo.after hostOps0_6 (W6 (F := Ideal) m ρ c) (Proc.devRef .tc main_v42) = _
  after_results_simp
  rfl
theorem e8_v42 : W8 (F := Ideal) m ρ c (Proc.devRef .tc main_v42) = aggAM (F := Ideal) a0 a1 a12 a13 a3 :=
  (W8_of m ρ c main_v42 (by decide)).trans (e7_v42 m ρ H c)
theorem e9_v42 : W9 (F := Ideal) m ρ c (Proc.devRef .tc main_v42) = aggAM (F := Ideal) a0 a1 a12 a13 a3 :=
  (W9_of m ρ c main_v42 (by decide)).trans (e8_v42 m ρ H c)
theorem e10_v42 : W10 (F := Ideal) m ρ c (Proc.devRef .tc main_v42) = aggAM (F := Ideal) a0 a1 a12 a13 a3 :=
  (W10_of m ρ c main_v42 (by decide)).trans (e9_v42 m ρ H c)
theorem e11_v42 : W11 (F := Ideal) m ρ c (Proc.devRef .tc main_v42) = aggAM (F := Ideal) a0 a1 a12 a13 a3 :=
  (W11_of m ρ c main_v42 (by decide)).trans (e10_v42 m ρ H c)
theorem e12_v42 : W12 (F := Ideal) m ρ c (Proc.devRef .tc main_v42) = aggAM (F := Ideal) a0 a1 a12 a13 a3 :=
  (W12_of m ρ c main_v42 (by decide)).trans (e11_v42 m ρ H c)
theorem e13_v42 : W13 (F := Ideal) m ρ c (Proc.devRef .tc main_v42) = aggAM (F := Ideal) a0 a1 a12 a13 a3 :=
  (W13_of m ρ c main_v42 (by decide)).trans (e12_v42 m ρ H c)
theorem e11_arg6 : W11 (F := Ideal) m ρ c (Proc.devRef .tc main_arg6) = m ((c : Thread nD τ).loc main_arg6) :=
  (W11_of m ρ c main_arg6 (by decide)).trans (e10_arg6 m ρ H c)
theorem e12_arg6 : W12 (F := Ideal) m ρ c (Proc.devRef .tc main_arg6) = m ((c : Thread nD τ).loc main_arg6) :=
  (W12_of m ρ c main_arg6 (by decide)).trans (e11_arg6 m ρ H c)
theorem e13_v79 : W13 (F := Ideal) m ρ c (Proc.devRef .tc main_v79) = w1_0_1 (F := Ideal) a6 := by
  show StableHlo.after hostOps2 (W12 (F := Ideal) m ρ c) (Proc.devRef .tc main_v79) = _
  after_results_simp
  rw [e12_arg6 m ρ H c]
  rfl
theorem e11_arg7 : W11 (F := Ideal) m ρ c (Proc.devRef .tc main_arg7) = m ((c : Thread nD τ).loc main_arg7) :=
  (W11_of m ρ c main_arg7 (by decide)).trans (e10_arg7 m ρ H c)
theorem e12_arg7 : W12 (F := Ideal) m ρ c (Proc.devRef .tc main_arg7) = m ((c : Thread nD τ).loc main_arg7) :=
  (W12_of m ρ c main_arg7 (by decide)).trans (e11_arg7 m ρ H c)
theorem e13_v81 : W13 (F := Ideal) m ρ c (Proc.devRef .tc main_v81) = b1_0_1 (F := Ideal) a7 := by
  show StableHlo.after hostOps2 (W12 (F := Ideal) m ρ c) (Proc.devRef .tc main_v81) = _
  after_results_simp
  rw [e12_arg7 m ρ H c]
  rfl
theorem e11_arg8 : W11 (F := Ideal) m ρ c (Proc.devRef .tc main_arg8) = m ((c : Thread nD τ).loc main_arg8) :=
  (W11_of m ρ c main_arg8 (by decide)).trans (e10_arg8 m ρ H c)
theorem e12_arg8 : W12 (F := Ideal) m ρ c (Proc.devRef .tc main_arg8) = m ((c : Thread nD τ).loc main_arg8) :=
  (W12_of m ρ c main_arg8 (by decide)).trans (e11_arg8 m ρ H c)
theorem e13_v83 : W13 (F := Ideal) m ρ c (Proc.devRef .tc main_v83) = w2_0_1 (F := Ideal) a8 := by
  show StableHlo.after hostOps2 (W12 (F := Ideal) m ρ c) (Proc.devRef .tc main_v83) = _
  after_results_simp
  rw [e12_arg8 m ρ H c]
  rfl
theorem e11_arg9 : W11 (F := Ideal) m ρ c (Proc.devRef .tc main_arg9) = m ((c : Thread nD τ).loc main_arg9) :=
  (W11_of m ρ c main_arg9 (by decide)).trans (e10_arg9 m ρ H c)
theorem e12_arg9 : W12 (F := Ideal) m ρ c (Proc.devRef .tc main_arg9) = m ((c : Thread nD τ).loc main_arg9) :=
  (W12_of m ρ c main_arg9 (by decide)).trans (e11_arg9 m ρ H c)
theorem e13_v85 : W13 (F := Ideal) m ρ c (Proc.devRef .tc main_v85) = b2_0_1 (F := Ideal) a9 := by
  show StableHlo.after hostOps2 (W12 (F := Ideal) m ρ c) (Proc.devRef .tc main_v85) = _
  after_results_simp
  rw [e12_arg9 m ρ H c]
  rfl
theorem e14_v86 : W14 (F := Ideal) m ρ c (Proc.devRef .tc main_v86) = Cert.Mlp.hostMlpM (F := Ideal) (aggAM (F := Ideal) a0 a1 a12 a13 a3) (w1_0_1 (F := Ideal) a6) (b1_0_1 (F := Ideal) a7) (w2_0_1 (F := Ideal) a8) (b2_0_1 (F := Ideal) a9) :=
  ((W14_arr (F := Ideal) m ρ c 5).trans (H.fin2 c)).trans
    (mlpM_congr (e13_v42 m ρ H c) (e13_v79 m ρ H c) (e13_v81 m ρ H c) (e13_v83 m ρ H c) (e13_v85 m ρ H c))
theorem e9_v59 : W9 (F := Ideal) m ρ c (Proc.devRef .tc main_v59) = aggMM (F := Ideal) a1 (srcMM a11) (dstMM a11) a5 := by
  show StableHlo.after hostOps0_8 (W8 (F := Ideal) m ρ c) (Proc.devRef .tc main_v59) = _
  after_results_simp
  rfl
theorem e10_v59 : W10 (F := Ideal) m ρ c (Proc.devRef .tc main_v59) = aggMM (F := Ideal) a1 (srcMM a11) (dstMM a11) a5 :=
  (W10_of m ρ c main_v59 (by decide)).trans (e9_v59 m ρ H c)
theorem e11_v59 : W11 (F := Ideal) m ρ c (Proc.devRef .tc main_v59) = aggMM (F := Ideal) a1 (srcMM a11) (dstMM a11) a5 :=
  (W11_of m ρ c main_v59 (by decide)).trans (e10_v59 m ρ H c)
theorem e12_v59 : W12 (F := Ideal) m ρ c (Proc.devRef .tc main_v59) = aggMM (F := Ideal) a1 (srcMM a11) (dstMM a11) a5 :=
  (W12_of m ρ c main_v59 (by decide)).trans (e11_v59 m ρ H c)
theorem e13_v59 : W13 (F := Ideal) m ρ c (Proc.devRef .tc main_v59) = aggMM (F := Ideal) a1 (srcMM a11) (dstMM a11) a5 :=
  (W13_of m ρ c main_v59 (by decide)).trans (e12_v59 m ρ H c)
theorem e14_v59 : W14 (F := Ideal) m ρ c (Proc.devRef .tc main_v59) = aggMM (F := Ideal) a1 (srcMM a11) (dstMM a11) a5 :=
  (W14_of m ρ c main_v59 (by decide)).trans (e13_v59 m ρ H c)
theorem e15_v59 : W15 (F := Ideal) m ρ c (Proc.devRef .tc main_v59) = aggMM (F := Ideal) a1 (srcMM a11) (dstMM a11) a5 :=
  (W15_of m ρ c main_v59 (by decide)).trans (e14_v59 m ρ H c)
theorem e13_arg6 : W13 (F := Ideal) m ρ c (Proc.devRef .tc main_arg6) = m ((c : Thread nD τ).loc main_arg6) :=
  (W13_of m ρ c main_arg6 (by decide)).trans (e12_arg6 m ρ H c)
theorem e14_arg6 : W14 (F := Ideal) m ρ c (Proc.devRef .tc main_arg6) = m ((c : Thread nD τ).loc main_arg6) :=
  (W14_of m ρ c main_arg6 (by decide)).trans (e13_arg6 m ρ H c)
theorem e15_v88 : W15 (F := Ideal) m ρ c (Proc.devRef .tc main_v88) = w1_0_3 (F := Ideal) a6 := by
  show StableHlo.after hostOps3 (W14 (F := Ideal) m ρ c) (Proc.devRef .tc main_v88) = _
  after_results_simp
  rw [e14_arg6 m ρ H c]
  rfl
theorem e13_arg7 : W13 (F := Ideal) m ρ c (Proc.devRef .tc main_arg7) = m ((c : Thread nD τ).loc main_arg7) :=
  (W13_of m ρ c main_arg7 (by decide)).trans (e12_arg7 m ρ H c)
theorem e14_arg7 : W14 (F := Ideal) m ρ c (Proc.devRef .tc main_arg7) = m ((c : Thread nD τ).loc main_arg7) :=
  (W14_of m ρ c main_arg7 (by decide)).trans (e13_arg7 m ρ H c)
theorem e15_v90 : W15 (F := Ideal) m ρ c (Proc.devRef .tc main_v90) = b1_0_3 (F := Ideal) a7 := by
  show StableHlo.after hostOps3 (W14 (F := Ideal) m ρ c) (Proc.devRef .tc main_v90) = _
  after_results_simp
  rw [e14_arg7 m ρ H c]
  rfl
theorem e13_arg8 : W13 (F := Ideal) m ρ c (Proc.devRef .tc main_arg8) = m ((c : Thread nD τ).loc main_arg8) :=
  (W13_of m ρ c main_arg8 (by decide)).trans (e12_arg8 m ρ H c)
theorem e14_arg8 : W14 (F := Ideal) m ρ c (Proc.devRef .tc main_arg8) = m ((c : Thread nD τ).loc main_arg8) :=
  (W14_of m ρ c main_arg8 (by decide)).trans (e13_arg8 m ρ H c)
theorem e15_v92 : W15 (F := Ideal) m ρ c (Proc.devRef .tc main_v92) = w2_0_3 (F := Ideal) a8 := by
  show StableHlo.after hostOps3 (W14 (F := Ideal) m ρ c) (Proc.devRef .tc main_v92) = _
  after_results_simp
  rw [e14_arg8 m ρ H c]
  rfl
theorem e13_arg9 : W13 (F := Ideal) m ρ c (Proc.devRef .tc main_arg9) = m ((c : Thread nD τ).loc main_arg9) :=
  (W13_of m ρ c main_arg9 (by decide)).trans (e12_arg9 m ρ H c)
theorem e14_arg9 : W14 (F := Ideal) m ρ c (Proc.devRef .tc main_arg9) = m ((c : Thread nD τ).loc main_arg9) :=
  (W14_of m ρ c main_arg9 (by decide)).trans (e13_arg9 m ρ H c)
theorem e15_v94 : W15 (F := Ideal) m ρ c (Proc.devRef .tc main_v94) = b2_0_3 (F := Ideal) a9 := by
  show StableHlo.after hostOps3 (W14 (F := Ideal) m ρ c) (Proc.devRef .tc main_v94) = _
  after_results_simp
  rw [e14_arg9 m ρ H c]
  rfl
theorem e16_v95 : W16 (F := Ideal) m ρ c (Proc.devRef .tc main_v95) = Cert.Mlp.hostMlpM (F := Ideal) (aggMM (F := Ideal) a1 (srcMM a11) (dstMM a11) a5) (w1_0_3 (F := Ideal) a6) (b1_0_3 (F := Ideal) a7) (w2_0_3 (F := Ideal) a8) (b2_0_3 (F := Ideal) a9) :=
  ((W16_arr (F := Ideal) m ρ c 5).trans (H.fin3 c)).trans
    (mlpM_congr (e15_v59 m ρ H c) (e15_v88 m ρ H c) (e15_v90 m ρ H c) (e15_v92 m ρ H c) (e15_v94 m ρ H c))
theorem e0_arg10 : W0 (F := Ideal) m ρ c (Proc.devRef .tc main_arg10) = m ((c : Thread nD τ).loc main_arg10) := rfl
theorem e1_arg10 : W1 (F := Ideal) m ρ c (Proc.devRef .tc main_arg10) = m ((c : Thread nD τ).loc main_arg10) :=
  (W1_of m ρ c main_arg10 (by decide)).trans (e0_arg10 m ρ H c)
theorem e2_arg10 : W2 (F := Ideal) m ρ c (Proc.devRef .tc main_arg10) = m ((c : Thread nD τ).loc main_arg10) :=
  (W2_of m ρ c main_arg10 (by decide)).trans (e1_arg10 m ρ H c)
theorem e3_arg10 : W3 (F := Ideal) m ρ c (Proc.devRef .tc main_arg10) = m ((c : Thread nD τ).loc main_arg10) :=
  (W3_of m ρ c main_arg10 (by decide)).trans (e2_arg10 m ρ H c)
theorem e4_arg10 : W4 (F := Ideal) m ρ c (Proc.devRef .tc main_arg10) = m ((c : Thread nD τ).loc main_arg10) :=
  (W4_of m ρ c main_arg10 (by decide)).trans (e3_arg10 m ρ H c)
theorem e5_arg10 : W5 (F := Ideal) m ρ c (Proc.devRef .tc main_arg10) = m ((c : Thread nD τ).loc main_arg10) :=
  (W5_of m ρ c main_arg10 (by decide)).trans (e4_arg10 m ρ H c)
theorem e6_arg10 : W6 (F := Ideal) m ρ c (Proc.devRef .tc main_arg10) = m ((c : Thread nD τ).loc main_arg10) :=
  (W6_of m ρ c main_arg10 (by decide)).trans (e5_arg10 m ρ H c)
theorem e7_arg10 : W7 (F := Ideal) m ρ c (Proc.devRef .tc main_arg10) = m ((c : Thread nD τ).loc main_arg10) :=
  (W7_of m ρ c main_arg10 (by decide)).trans (e6_arg10 m ρ H c)
theorem e8_arg10 : W8 (F := Ideal) m ρ c (Proc.devRef .tc main_arg10) = m ((c : Thread nD τ).loc main_arg10) :=
  (W8_of m ρ c main_arg10 (by decide)).trans (e7_arg10 m ρ H c)
theorem e9_arg10 : W9 (F := Ideal) m ρ c (Proc.devRef .tc main_arg10) = m ((c : Thread nD τ).loc main_arg10) :=
  (W9_of m ρ c main_arg10 (by decide)).trans (e8_arg10 m ρ H c)
theorem e10_arg10 : W10 (F := Ideal) m ρ c (Proc.devRef .tc main_arg10) = m ((c : Thread nD τ).loc main_arg10) :=
  (W10_of m ρ c main_arg10 (by decide)).trans (e9_arg10 m ρ H c)
theorem e11_arg10 : W11 (F := Ideal) m ρ c (Proc.devRef .tc main_arg10) = m ((c : Thread nD τ).loc main_arg10) :=
  (W11_of m ρ c main_arg10 (by decide)).trans (e10_arg10 m ρ H c)
theorem e12_arg10 : W12 (F := Ideal) m ρ c (Proc.devRef .tc main_arg10) = m ((c : Thread nD τ).loc main_arg10) :=
  (W12_of m ρ c main_arg10 (by decide)).trans (e11_arg10 m ρ H c)
theorem e13_arg10 : W13 (F := Ideal) m ρ c (Proc.devRef .tc main_arg10) = m ((c : Thread nD τ).loc main_arg10) :=
  (W13_of m ρ c main_arg10 (by decide)).trans (e12_arg10 m ρ H c)
theorem e14_arg10 : W14 (F := Ideal) m ρ c (Proc.devRef .tc main_arg10) = m ((c : Thread nD τ).loc main_arg10) :=
  (W14_of m ρ c main_arg10 (by decide)).trans (e13_arg10 m ρ H c)
theorem e15_arg10 : W15 (F := Ideal) m ρ c (Proc.devRef .tc main_arg10) = m ((c : Thread nD τ).loc main_arg10) :=
  (W15_of m ρ c main_arg10 (by decide)).trans (e14_arg10 m ρ H c)
theorem e16_arg10 : W16 (F := Ideal) m ρ c (Proc.devRef .tc main_arg10) = m ((c : Thread nD τ).loc main_arg10) :=
  (W16_of m ρ c main_arg10 (by decide)).trans (e15_arg10 m ρ H c)
theorem e11_v68 : W11 (F := Ideal) m ρ c (Proc.devRef .tc main_v68) = Cert.Mlp.hostMlpA (F := Ideal) (aggAA (F := Ideal) a0 (srcAA a10) (dstAA a10) a2) (w1_0_0 (F := Ideal) a6) (b1_0_0 (F := Ideal) a7) (w2_0_0 (F := Ideal) a8) (b2_0_0 (F := Ideal) a9) :=
  (W11_of m ρ c main_v68 (by decide)).trans (e10_v68 m ρ H c)
theorem e12_v68 : W12 (F := Ideal) m ρ c (Proc.devRef .tc main_v68) = Cert.Mlp.hostMlpA (F := Ideal) (aggAA (F := Ideal) a0 (srcAA a10) (dstAA a10) a2) (w1_0_0 (F := Ideal) a6) (b1_0_0 (F := Ideal) a7) (w2_0_0 (F := Ideal) a8) (b2_0_0 (F := Ideal) a9) :=
  (W12_of m ρ c main_v68 (by decide)).trans (e11_v68 m ρ H c)
theorem e13_v68 : W13 (F := Ideal) m ρ c (Proc.devRef .tc main_v68) = Cert.Mlp.hostMlpA (F := Ideal) (aggAA (F := Ideal) a0 (srcAA a10) (dstAA a10) a2) (w1_0_0 (F := Ideal) a6) (b1_0_0 (F := Ideal) a7) (w2_0_0 (F := Ideal) a8) (b2_0_0 (F := Ideal) a9) :=
  (W13_of m ρ c main_v68 (by decide)).trans (e12_v68 m ρ H c)
theorem e14_v68 : W14 (F := Ideal) m ρ c (Proc.devRef .tc main_v68) = Cert.Mlp.hostMlpA (F := Ideal) (aggAA (F := Ideal) a0 (srcAA a10) (dstAA a10) a2) (w1_0_0 (F := Ideal) a6) (b1_0_0 (F := Ideal) a7) (w2_0_0 (F := Ideal) a8) (b2_0_0 (F := Ideal) a9) :=
  (W14_of m ρ c main_v68 (by decide)).trans (e13_v68 m ρ H c)
theorem e15_v68 : W15 (F := Ideal) m ρ c (Proc.devRef .tc main_v68) = Cert.Mlp.hostMlpA (F := Ideal) (aggAA (F := Ideal) a0 (srcAA a10) (dstAA a10) a2) (w1_0_0 (F := Ideal) a6) (b1_0_0 (F := Ideal) a7) (w2_0_0 (F := Ideal) a8) (b2_0_0 (F := Ideal) a9) :=
  (W15_of m ρ c main_v68 (by decide)).trans (e14_v68 m ρ H c)
theorem e16_v68 : W16 (F := Ideal) m ρ c (Proc.devRef .tc main_v68) = Cert.Mlp.hostMlpA (F := Ideal) (aggAA (F := Ideal) a0 (srcAA a10) (dstAA a10) a2) (w1_0_0 (F := Ideal) a6) (b1_0_0 (F := Ideal) a7) (w2_0_0 (F := Ideal) a8) (b2_0_0 (F := Ideal) a9) :=
  (W16_of m ρ c main_v68 (by decide)).trans (e15_v68 m ρ H c)
theorem e13_v77 : W13 (F := Ideal) m ρ c (Proc.devRef .tc main_v77) = Cert.Mlp.hostMlpA (F := Ideal) (aggMA (F := Ideal) a1 a0 a14 a15 a4) (w1_0_2 (F := Ideal) a6) (b1_0_2 (F := Ideal) a7) (w2_0_2 (F := Ideal) a8) (b2_0_2 (F := Ideal) a9) :=
  (W13_of m ρ c main_v77 (by decide)).trans (e12_v77 m ρ H c)
theorem e14_v77 : W14 (F := Ideal) m ρ c (Proc.devRef .tc main_v77) = Cert.Mlp.hostMlpA (F := Ideal) (aggMA (F := Ideal) a1 a0 a14 a15 a4) (w1_0_2 (F := Ideal) a6) (b1_0_2 (F := Ideal) a7) (w2_0_2 (F := Ideal) a8) (b2_0_2 (F := Ideal) a9) :=
  (W14_of m ρ c main_v77 (by decide)).trans (e13_v77 m ρ H c)
theorem e15_v77 : W15 (F := Ideal) m ρ c (Proc.devRef .tc main_v77) = Cert.Mlp.hostMlpA (F := Ideal) (aggMA (F := Ideal) a1 a0 a14 a15 a4) (w1_0_2 (F := Ideal) a6) (b1_0_2 (F := Ideal) a7) (w2_0_2 (F := Ideal) a8) (b2_0_2 (F := Ideal) a9) :=
  (W15_of m ρ c main_v77 (by decide)).trans (e14_v77 m ρ H c)
theorem e16_v77 : W16 (F := Ideal) m ρ c (Proc.devRef .tc main_v77) = Cert.Mlp.hostMlpA (F := Ideal) (aggMA (F := Ideal) a1 a0 a14 a15 a4) (w1_0_2 (F := Ideal) a6) (b1_0_2 (F := Ideal) a7) (w2_0_2 (F := Ideal) a8) (b2_0_2 (F := Ideal) a9) :=
  (W16_of m ρ c main_v77 (by decide)).trans (e15_v77 m ρ H c)
theorem e0_arg2 : W0 (F := Ideal) m ρ c (Proc.devRef .tc main_arg2) = m ((c : Thread nD τ).loc main_arg2) := rfl
theorem e1_arg2 : W1 (F := Ideal) m ρ c (Proc.devRef .tc main_arg2) = m ((c : Thread nD τ).loc main_arg2) :=
  (W1_of m ρ c main_arg2 (by decide)).trans (e0_arg2 m ρ H c)
theorem e2_arg2 : W2 (F := Ideal) m ρ c (Proc.devRef .tc main_arg2) = m ((c : Thread nD τ).loc main_arg2) :=
  (W2_of m ρ c main_arg2 (by decide)).trans (e1_arg2 m ρ H c)
theorem e3_arg2 : W3 (F := Ideal) m ρ c (Proc.devRef .tc main_arg2) = m ((c : Thread nD τ).loc main_arg2) :=
  (W3_of m ρ c main_arg2 (by decide)).trans (e2_arg2 m ρ H c)
theorem e4_arg2 : W4 (F := Ideal) m ρ c (Proc.devRef .tc main_arg2) = m ((c : Thread nD τ).loc main_arg2) :=
  (W4_of m ρ c main_arg2 (by decide)).trans (e3_arg2 m ρ H c)
theorem e5_arg2 : W5 (F := Ideal) m ρ c (Proc.devRef .tc main_arg2) = m ((c : Thread nD τ).loc main_arg2) :=
  (W5_of m ρ c main_arg2 (by decide)).trans (e4_arg2 m ρ H c)
theorem e6_arg2 : W6 (F := Ideal) m ρ c (Proc.devRef .tc main_arg2) = m ((c : Thread nD τ).loc main_arg2) :=
  (W6_of m ρ c main_arg2 (by decide)).trans (e5_arg2 m ρ H c)
theorem e7_arg2 : W7 (F := Ideal) m ρ c (Proc.devRef .tc main_arg2) = m ((c : Thread nD τ).loc main_arg2) :=
  (W7_of m ρ c main_arg2 (by decide)).trans (e6_arg2 m ρ H c)
theorem e8_arg2 : W8 (F := Ideal) m ρ c (Proc.devRef .tc main_arg2) = m ((c : Thread nD τ).loc main_arg2) :=
  (W8_of m ρ c main_arg2 (by decide)).trans (e7_arg2 m ρ H c)
theorem e9_arg2 : W9 (F := Ideal) m ρ c (Proc.devRef .tc main_arg2) = m ((c : Thread nD τ).loc main_arg2) :=
  (W9_of m ρ c main_arg2 (by decide)).trans (e8_arg2 m ρ H c)
theorem e10_arg2 : W10 (F := Ideal) m ρ c (Proc.devRef .tc main_arg2) = m ((c : Thread nD τ).loc main_arg2) :=
  (W10_of m ρ c main_arg2 (by decide)).trans (e9_arg2 m ρ H c)
theorem e11_arg2 : W11 (F := Ideal) m ρ c (Proc.devRef .tc main_arg2) = m ((c : Thread nD τ).loc main_arg2) :=
  (W11_of m ρ c main_arg2 (by decide)).trans (e10_arg2 m ρ H c)
theorem e12_arg2 : W12 (F := Ideal) m ρ c (Proc.devRef .tc main_arg2) = m ((c : Thread nD τ).loc main_arg2) :=
  (W12_of m ρ c main_arg2 (by decide)).trans (e11_arg2 m ρ H c)
theorem e13_arg2 : W13 (F := Ideal) m ρ c (Proc.devRef .tc main_arg2) = m ((c : Thread nD τ).loc main_arg2) :=
  (W13_of m ρ c main_arg2 (by decide)).trans (e12_arg2 m ρ H c)
theorem e14_arg2 : W14 (F := Ideal) m ρ c (Proc.devRef .tc main_arg2) = m ((c : Thread nD τ).loc main_arg2) :=
  (W14_of m ρ c main_arg2 (by decide)).trans (e13_arg2 m ρ H c)
theorem e15_arg2 : W15 (F := Ideal) m ρ c (Proc.devRef .tc main_arg2) = m ((c : Thread nD τ).loc main_arg2) :=
  (W15_of m ρ c main_arg2 (by decide)).trans (e14_arg2 m ρ H c)
theorem e16_arg2 : W16 (F := Ideal) m ρ c (Proc.devRef .tc main_arg2) = m ((c : Thread nD τ).loc main_arg2) :=
  (W16_of m ρ c main_arg2 (by decide)).trans (e15_arg2 m ρ H c)
theorem e15_arg6 : W15 (F := Ideal) m ρ c (Proc.devRef .tc main_arg6) = m ((c : Thread nD τ).loc main_arg6) :=
  (W15_of m ρ c main_arg6 (by decide)).trans (e14_arg6 m ρ H c)
theorem e16_arg6 : W16 (F := Ideal) m ρ c (Proc.devRef .tc main_arg6) = m ((c : Thread nD τ).loc main_arg6) :=
  (W16_of m ρ c main_arg6 (by decide)).trans (e15_arg6 m ρ H c)
theorem e15_arg7 : W15 (F := Ideal) m ρ c (Proc.devRef .tc main_arg7) = m ((c : Thread nD τ).loc main_arg7) :=
  (W15_of m ρ c main_arg7 (by decide)).trans (e14_arg7 m ρ H c)
theorem e16_arg7 : W16 (F := Ideal) m ρ c (Proc.devRef .tc main_arg7) = m ((c : Thread nD τ).loc main_arg7) :=
  (W16_of m ρ c main_arg7 (by decide)).trans (e15_arg7 m ρ H c)
theorem e15_arg8 : W15 (F := Ideal) m ρ c (Proc.devRef .tc main_arg8) = m ((c : Thread nD τ).loc main_arg8) :=
  (W15_of m ρ c main_arg8 (by decide)).trans (e14_arg8 m ρ H c)
theorem e16_arg8 : W16 (F := Ideal) m ρ c (Proc.devRef .tc main_arg8) = m ((c : Thread nD τ).loc main_arg8) :=
  (W16_of m ρ c main_arg8 (by decide)).trans (e15_arg8 m ρ H c)
theorem e15_arg9 : W15 (F := Ideal) m ρ c (Proc.devRef .tc main_arg9) = m ((c : Thread nD τ).loc main_arg9) :=
  (W15_of m ρ c main_arg9 (by decide)).trans (e14_arg9 m ρ H c)
theorem e16_arg9 : W16 (F := Ideal) m ρ c (Proc.devRef .tc main_arg9) = m ((c : Thread nD τ).loc main_arg9) :=
  (W16_of m ρ c main_arg9 (by decide)).trans (e15_arg9 m ρ H c)
theorem e0_arg15 : W0 (F := Ideal) m ρ c (Proc.devRef .tc main_arg15) = m ((c : Thread nD τ).loc main_arg15) := rfl
theorem e1_arg15 : W1 (F := Ideal) m ρ c (Proc.devRef .tc main_arg15) = m ((c : Thread nD τ).loc main_arg15) :=
  (W1_of m ρ c main_arg15 (by decide)).trans (e0_arg15 m ρ H c)
theorem e2_arg15 : W2 (F := Ideal) m ρ c (Proc.devRef .tc main_arg15) = m ((c : Thread nD τ).loc main_arg15) :=
  (W2_of m ρ c main_arg15 (by decide)).trans (e1_arg15 m ρ H c)
theorem e3_arg15 : W3 (F := Ideal) m ρ c (Proc.devRef .tc main_arg15) = m ((c : Thread nD τ).loc main_arg15) :=
  (W3_of m ρ c main_arg15 (by decide)).trans (e2_arg15 m ρ H c)
theorem e4_arg15 : W4 (F := Ideal) m ρ c (Proc.devRef .tc main_arg15) = m ((c : Thread nD τ).loc main_arg15) :=
  (W4_of m ρ c main_arg15 (by decide)).trans (e3_arg15 m ρ H c)
theorem e5_arg15 : W5 (F := Ideal) m ρ c (Proc.devRef .tc main_arg15) = m ((c : Thread nD τ).loc main_arg15) :=
  (W5_of m ρ c main_arg15 (by decide)).trans (e4_arg15 m ρ H c)
theorem e6_arg15 : W6 (F := Ideal) m ρ c (Proc.devRef .tc main_arg15) = m ((c : Thread nD τ).loc main_arg15) :=
  (W6_of m ρ c main_arg15 (by decide)).trans (e5_arg15 m ρ H c)
theorem e7_arg15 : W7 (F := Ideal) m ρ c (Proc.devRef .tc main_arg15) = m ((c : Thread nD τ).loc main_arg15) :=
  (W7_of m ρ c main_arg15 (by decide)).trans (e6_arg15 m ρ H c)
theorem e8_arg15 : W8 (F := Ideal) m ρ c (Proc.devRef .tc main_arg15) = m ((c : Thread nD τ).loc main_arg15) :=
  (W8_of m ρ c main_arg15 (by decide)).trans (e7_arg15 m ρ H c)
theorem e9_arg15 : W9 (F := Ideal) m ρ c (Proc.devRef .tc main_arg15) = m ((c : Thread nD τ).loc main_arg15) :=
  (W9_of m ρ c main_arg15 (by decide)).trans (e8_arg15 m ρ H c)
theorem e10_arg15 : W10 (F := Ideal) m ρ c (Proc.devRef .tc main_arg15) = m ((c : Thread nD τ).loc main_arg15) :=
  (W10_of m ρ c main_arg15 (by decide)).trans (e9_arg15 m ρ H c)
theorem e11_arg15 : W11 (F := Ideal) m ρ c (Proc.devRef .tc main_arg15) = m ((c : Thread nD τ).loc main_arg15) :=
  (W11_of m ρ c main_arg15 (by decide)).trans (e10_arg15 m ρ H c)
theorem e12_arg15 : W12 (F := Ideal) m ρ c (Proc.devRef .tc main_arg15) = m ((c : Thread nD τ).loc main_arg15) :=
  (W12_of m ρ c main_arg15 (by decide)).trans (e11_arg15 m ρ H c)
theorem e13_arg15 : W13 (F := Ideal) m ρ c (Proc.devRef .tc main_arg15) = m ((c : Thread nD τ).loc main_arg15) :=
  (W13_of m ρ c main_arg15 (by decide)).trans (e12_arg15 m ρ H c)
theorem e14_arg15 : W14 (F := Ideal) m ρ c (Proc.devRef .tc main_arg15) = m ((c : Thread nD τ).loc main_arg15) :=
  (W14_of m ρ c main_arg15 (by decide)).trans (e13_arg15 m ρ H c)
theorem e15_arg15 : W15 (F := Ideal) m ρ c (Proc.devRef .tc main_arg15) = m ((c : Thread nD τ).loc main_arg15) :=
  (W15_of m ρ c main_arg15 (by decide)).trans (e14_arg15 m ρ H c)
theorem e16_arg15 : W16 (F := Ideal) m ρ c (Proc.devRef .tc main_arg15) = m ((c : Thread nD τ).loc main_arg15) :=
  (W16_of m ρ c main_arg15 (by decide)).trans (e15_arg15 m ρ H c)
theorem e15_v86 : W15 (F := Ideal) m ρ c (Proc.devRef .tc main_v86) = Cert.Mlp.hostMlpM (F := Ideal) (aggAM (F := Ideal) a0 a1 a12 a13 a3) (w1_0_1 (F := Ideal) a6) (b1_0_1 (F := Ideal) a7) (w2_0_1 (F := Ideal) a8) (b2_0_1 (F := Ideal) a9) :=
  (W15_of m ρ c main_v86 (by decide)).trans (e14_v86 m ρ H c)
theorem e16_v86 : W16 (F := Ideal) m ρ c (Proc.devRef .tc main_v86) = Cert.Mlp.hostMlpM (F := Ideal) (aggAM (F := Ideal) a0 a1 a12 a13 a3) (w1_0_1 (F := Ideal) a6) (b1_0_1 (F := Ideal) a7) (w2_0_1 (F := Ideal) a8) (b2_0_1 (F := Ideal) a9) :=
  (W16_of m ρ c main_v86 (by decide)).trans (e15_v86 m ρ H c)
theorem e0_arg14 : W0 (F := Ideal) m ρ c (Proc.devRef .tc main_arg14) = m ((c : Thread nD τ).loc main_arg14) := rfl
theorem e1_arg14 : W1 (F := Ideal) m ρ c (Proc.devRef .tc main_arg14) = m ((c : Thread nD τ).loc main_arg14) :=
  (W1_of m ρ c main_arg14 (by decide)).trans (e0_arg14 m ρ H c)
theorem e2_arg14 : W2 (F := Ideal) m ρ c (Proc.devRef .tc main_arg14) = m ((c : Thread nD τ).loc main_arg14) :=
  (W2_of m ρ c main_arg14 (by decide)).trans (e1_arg14 m ρ H c)
theorem e3_arg14 : W3 (F := Ideal) m ρ c (Proc.devRef .tc main_arg14) = m ((c : Thread nD τ).loc main_arg14) :=
  (W3_of m ρ c main_arg14 (by decide)).trans (e2_arg14 m ρ H c)
theorem e4_arg14 : W4 (F := Ideal) m ρ c (Proc.devRef .tc main_arg14) = m ((c : Thread nD τ).loc main_arg14) :=
  (W4_of m ρ c main_arg14 (by decide)).trans (e3_arg14 m ρ H c)
theorem e5_arg14 : W5 (F := Ideal) m ρ c (Proc.devRef .tc main_arg14) = m ((c : Thread nD τ).loc main_arg14) :=
  (W5_of m ρ c main_arg14 (by decide)).trans (e4_arg14 m ρ H c)
theorem e6_arg14 : W6 (F := Ideal) m ρ c (Proc.devRef .tc main_arg14) = m ((c : Thread nD τ).loc main_arg14) :=
  (W6_of m ρ c main_arg14 (by decide)).trans (e5_arg14 m ρ H c)
theorem e7_arg14 : W7 (F := Ideal) m ρ c (Proc.devRef .tc main_arg14) = m ((c : Thread nD τ).loc main_arg14) :=
  (W7_of m ρ c main_arg14 (by decide)).trans (e6_arg14 m ρ H c)
theorem e8_arg14 : W8 (F := Ideal) m ρ c (Proc.devRef .tc main_arg14) = m ((c : Thread nD τ).loc main_arg14) :=
  (W8_of m ρ c main_arg14 (by decide)).trans (e7_arg14 m ρ H c)
theorem e9_arg14 : W9 (F := Ideal) m ρ c (Proc.devRef .tc main_arg14) = m ((c : Thread nD τ).loc main_arg14) :=
  (W9_of m ρ c main_arg14 (by decide)).trans (e8_arg14 m ρ H c)
theorem e10_arg14 : W10 (F := Ideal) m ρ c (Proc.devRef .tc main_arg14) = m ((c : Thread nD τ).loc main_arg14) :=
  (W10_of m ρ c main_arg14 (by decide)).trans (e9_arg14 m ρ H c)
theorem e11_arg14 : W11 (F := Ideal) m ρ c (Proc.devRef .tc main_arg14) = m ((c : Thread nD τ).loc main_arg14) :=
  (W11_of m ρ c main_arg14 (by decide)).trans (e10_arg14 m ρ H c)
theorem e12_arg14 : W12 (F := Ideal) m ρ c (Proc.devRef .tc main_arg14) = m ((c : Thread nD τ).loc main_arg14) :=
  (W12_of m ρ c main_arg14 (by decide)).trans (e11_arg14 m ρ H c)
theorem e13_arg14 : W13 (F := Ideal) m ρ c (Proc.devRef .tc main_arg14) = m ((c : Thread nD τ).loc main_arg14) :=
  (W13_of m ρ c main_arg14 (by decide)).trans (e12_arg14 m ρ H c)
theorem e14_arg14 : W14 (F := Ideal) m ρ c (Proc.devRef .tc main_arg14) = m ((c : Thread nD τ).loc main_arg14) :=
  (W14_of m ρ c main_arg14 (by decide)).trans (e13_arg14 m ρ H c)
theorem e15_arg14 : W15 (F := Ideal) m ρ c (Proc.devRef .tc main_arg14) = m ((c : Thread nD τ).loc main_arg14) :=
  (W15_of m ρ c main_arg14 (by decide)).trans (e14_arg14 m ρ H c)
theorem e16_arg14 : W16 (F := Ideal) m ρ c (Proc.devRef .tc main_arg14) = m ((c : Thread nD τ).loc main_arg14) :=
  (W16_of m ρ c main_arg14 (by decide)).trans (e15_arg14 m ρ H c)
theorem e0_arg4 : W0 (F := Ideal) m ρ c (Proc.devRef .tc main_arg4) = m ((c : Thread nD τ).loc main_arg4) := rfl
theorem e1_arg4 : W1 (F := Ideal) m ρ c (Proc.devRef .tc main_arg4) = m ((c : Thread nD τ).loc main_arg4) :=
  (W1_of m ρ c main_arg4 (by decide)).trans (e0_arg4 m ρ H c)
theorem e2_arg4 : W2 (F := Ideal) m ρ c (Proc.devRef .tc main_arg4) = m ((c : Thread nD τ).loc main_arg4) :=
  (W2_of m ρ c main_arg4 (by decide)).trans (e1_arg4 m ρ H c)
theorem e3_arg4 : W3 (F := Ideal) m ρ c (Proc.devRef .tc main_arg4) = m ((c : Thread nD τ).loc main_arg4) :=
  (W3_of m ρ c main_arg4 (by decide)).trans (e2_arg4 m ρ H c)
theorem e4_arg4 : W4 (F := Ideal) m ρ c (Proc.devRef .tc main_arg4) = m ((c : Thread nD τ).loc main_arg4) :=
  (W4_of m ρ c main_arg4 (by decide)).trans (e3_arg4 m ρ H c)
theorem e5_arg4 : W5 (F := Ideal) m ρ c (Proc.devRef .tc main_arg4) = m ((c : Thread nD τ).loc main_arg4) :=
  (W5_of m ρ c main_arg4 (by decide)).trans (e4_arg4 m ρ H c)
theorem e6_arg4 : W6 (F := Ideal) m ρ c (Proc.devRef .tc main_arg4) = m ((c : Thread nD τ).loc main_arg4) :=
  (W6_of m ρ c main_arg4 (by decide)).trans (e5_arg4 m ρ H c)
theorem e7_arg4 : W7 (F := Ideal) m ρ c (Proc.devRef .tc main_arg4) = m ((c : Thread nD τ).loc main_arg4) :=
  (W7_of m ρ c main_arg4 (by decide)).trans (e6_arg4 m ρ H c)
theorem e8_arg4 : W8 (F := Ideal) m ρ c (Proc.devRef .tc main_arg4) = m ((c : Thread nD τ).loc main_arg4) :=
  (W8_of m ρ c main_arg4 (by decide)).trans (e7_arg4 m ρ H c)
theorem e9_arg4 : W9 (F := Ideal) m ρ c (Proc.devRef .tc main_arg4) = m ((c : Thread nD τ).loc main_arg4) :=
  (W9_of m ρ c main_arg4 (by decide)).trans (e8_arg4 m ρ H c)
theorem e10_arg4 : W10 (F := Ideal) m ρ c (Proc.devRef .tc main_arg4) = m ((c : Thread nD τ).loc main_arg4) :=
  (W10_of m ρ c main_arg4 (by decide)).trans (e9_arg4 m ρ H c)
theorem e11_arg4 : W11 (F := Ideal) m ρ c (Proc.devRef .tc main_arg4) = m ((c : Thread nD τ).loc main_arg4) :=
  (W11_of m ρ c main_arg4 (by decide)).trans (e10_arg4 m ρ H c)
theorem e12_arg4 : W12 (F := Ideal) m ρ c (Proc.devRef .tc main_arg4) = m ((c : Thread nD τ).loc main_arg4) :=
  (W12_of m ρ c main_arg4 (by decide)).trans (e11_arg4 m ρ H c)
theorem e13_arg4 : W13 (F := Ideal) m ρ c (Proc.devRef .tc main_arg4) = m ((c : Thread nD τ).loc main_arg4) :=
  (W13_of m ρ c main_arg4 (by decide)).trans (e12_arg4 m ρ H c)
theorem e14_arg4 : W14 (F := Ideal) m ρ c (Proc.devRef .tc main_arg4) = m ((c : Thread nD τ).loc main_arg4) :=
  (W14_of m ρ c main_arg4 (by decide)).trans (e13_arg4 m ρ H c)
theorem e15_arg4 : W15 (F := Ideal) m ρ c (Proc.devRef .tc main_arg4) = m ((c : Thread nD τ).loc main_arg4) :=
  (W15_of m ρ c main_arg4 (by decide)).trans (e14_arg4 m ρ H c)
theorem e16_arg4 : W16 (F := Ideal) m ρ c (Proc.devRef .tc main_arg4) = m ((c : Thread nD τ).loc main_arg4) :=
  (W16_of m ρ c main_arg4 (by decide)).trans (e15_arg4 m ρ H c)
theorem e0_arg13 : W0 (F := Ideal) m ρ c (Proc.devRef .tc main_arg13) = m ((c : Thread nD τ).loc main_arg13) := rfl
theorem e1_arg13 : W1 (F := Ideal) m ρ c (Proc.devRef .tc main_arg13) = m ((c : Thread nD τ).loc main_arg13) :=
  (W1_of m ρ c main_arg13 (by decide)).trans (e0_arg13 m ρ H c)
theorem e2_arg13 : W2 (F := Ideal) m ρ c (Proc.devRef .tc main_arg13) = m ((c : Thread nD τ).loc main_arg13) :=
  (W2_of m ρ c main_arg13 (by decide)).trans (e1_arg13 m ρ H c)
theorem e3_arg13 : W3 (F := Ideal) m ρ c (Proc.devRef .tc main_arg13) = m ((c : Thread nD τ).loc main_arg13) :=
  (W3_of m ρ c main_arg13 (by decide)).trans (e2_arg13 m ρ H c)
theorem e4_arg13 : W4 (F := Ideal) m ρ c (Proc.devRef .tc main_arg13) = m ((c : Thread nD τ).loc main_arg13) :=
  (W4_of m ρ c main_arg13 (by decide)).trans (e3_arg13 m ρ H c)
theorem e5_arg13 : W5 (F := Ideal) m ρ c (Proc.devRef .tc main_arg13) = m ((c : Thread nD τ).loc main_arg13) :=
  (W5_of m ρ c main_arg13 (by decide)).trans (e4_arg13 m ρ H c)
theorem e6_arg13 : W6 (F := Ideal) m ρ c (Proc.devRef .tc main_arg13) = m ((c : Thread nD τ).loc main_arg13) :=
  (W6_of m ρ c main_arg13 (by decide)).trans (e5_arg13 m ρ H c)
theorem e7_arg13 : W7 (F := Ideal) m ρ c (Proc.devRef .tc main_arg13) = m ((c : Thread nD τ).loc main_arg13) :=
  (W7_of m ρ c main_arg13 (by decide)).trans (e6_arg13 m ρ H c)
theorem e8_arg13 : W8 (F := Ideal) m ρ c (Proc.devRef .tc main_arg13) = m ((c : Thread nD τ).loc main_arg13) :=
  (W8_of m ρ c main_arg13 (by decide)).trans (e7_arg13 m ρ H c)
theorem e9_arg13 : W9 (F := Ideal) m ρ c (Proc.devRef .tc main_arg13) = m ((c : Thread nD τ).loc main_arg13) :=
  (W9_of m ρ c main_arg13 (by decide)).trans (e8_arg13 m ρ H c)
theorem e10_arg13 : W10 (F := Ideal) m ρ c (Proc.devRef .tc main_arg13) = m ((c : Thread nD τ).loc main_arg13) :=
  (W10_of m ρ c main_arg13 (by decide)).trans (e9_arg13 m ρ H c)
theorem e11_arg13 : W11 (F := Ideal) m ρ c (Proc.devRef .tc main_arg13) = m ((c : Thread nD τ).loc main_arg13) :=
  (W11_of m ρ c main_arg13 (by decide)).trans (e10_arg13 m ρ H c)
theorem e12_arg13 : W12 (F := Ideal) m ρ c (Proc.devRef .tc main_arg13) = m ((c : Thread nD τ).loc main_arg13) :=
  (W12_of m ρ c main_arg13 (by decide)).trans (e11_arg13 m ρ H c)
theorem e13_arg13 : W13 (F := Ideal) m ρ c (Proc.devRef .tc main_arg13) = m ((c : Thread nD τ).loc main_arg13) :=
  (W13_of m ρ c main_arg13 (by decide)).trans (e12_arg13 m ρ H c)
theorem e14_arg13 : W14 (F := Ideal) m ρ c (Proc.devRef .tc main_arg13) = m ((c : Thread nD τ).loc main_arg13) :=
  (W14_of m ρ c main_arg13 (by decide)).trans (e13_arg13 m ρ H c)
theorem e15_arg13 : W15 (F := Ideal) m ρ c (Proc.devRef .tc main_arg13) = m ((c : Thread nD τ).loc main_arg13) :=
  (W15_of m ρ c main_arg13 (by decide)).trans (e14_arg13 m ρ H c)
theorem e16_arg13 : W16 (F := Ideal) m ρ c (Proc.devRef .tc main_arg13) = m ((c : Thread nD τ).loc main_arg13) :=
  (W16_of m ρ c main_arg13 (by decide)).trans (e15_arg13 m ρ H c)
theorem e0_arg12 : W0 (F := Ideal) m ρ c (Proc.devRef .tc main_arg12) = m ((c : Thread nD τ).loc main_arg12) := rfl
theorem e1_arg12 : W1 (F := Ideal) m ρ c (Proc.devRef .tc main_arg12) = m ((c : Thread nD τ).loc main_arg12) :=
  (W1_of m ρ c main_arg12 (by decide)).trans (e0_arg12 m ρ H c)
theorem e2_arg12 : W2 (F := Ideal) m ρ c (Proc.devRef .tc main_arg12) = m ((c : Thread nD τ).loc main_arg12) :=
  (W2_of m ρ c main_arg12 (by decide)).trans (e1_arg12 m ρ H c)
theorem e3_arg12 : W3 (F := Ideal) m ρ c (Proc.devRef .tc main_arg12) = m ((c : Thread nD τ).loc main_arg12) :=
  (W3_of m ρ c main_arg12 (by decide)).trans (e2_arg12 m ρ H c)
theorem e4_arg12 : W4 (F := Ideal) m ρ c (Proc.devRef .tc main_arg12) = m ((c : Thread nD τ).loc main_arg12) :=
  (W4_of m ρ c main_arg12 (by decide)).trans (e3_arg12 m ρ H c)
theorem e5_arg12 : W5 (F := Ideal) m ρ c (Proc.devRef .tc main_arg12) = m ((c : Thread nD τ).loc main_arg12) :=
  (W5_of m ρ c main_arg12 (by decide)).trans (e4_arg12 m ρ H c)
theorem e6_arg12 : W6 (F := Ideal) m ρ c (Proc.devRef .tc main_arg12) = m ((c : Thread nD τ).loc main_arg12) :=
  (W6_of m ρ c main_arg12 (by decide)).trans (e5_arg12 m ρ H c)
theorem e7_arg12 : W7 (F := Ideal) m ρ c (Proc.devRef .tc main_arg12) = m ((c : Thread nD τ).loc main_arg12) :=
  (W7_of m ρ c main_arg12 (by decide)).trans (e6_arg12 m ρ H c)
theorem e8_arg12 : W8 (F := Ideal) m ρ c (Proc.devRef .tc main_arg12) = m ((c : Thread nD τ).loc main_arg12) :=
  (W8_of m ρ c main_arg12 (by decide)).trans (e7_arg12 m ρ H c)
theorem e9_arg12 : W9 (F := Ideal) m ρ c (Proc.devRef .tc main_arg12) = m ((c : Thread nD τ).loc main_arg12) :=
  (W9_of m ρ c main_arg12 (by decide)).trans (e8_arg12 m ρ H c)
theorem e10_arg12 : W10 (F := Ideal) m ρ c (Proc.devRef .tc main_arg12) = m ((c : Thread nD τ).loc main_arg12) :=
  (W10_of m ρ c main_arg12 (by decide)).trans (e9_arg12 m ρ H c)
theorem e11_arg12 : W11 (F := Ideal) m ρ c (Proc.devRef .tc main_arg12) = m ((c : Thread nD τ).loc main_arg12) :=
  (W11_of m ρ c main_arg12 (by decide)).trans (e10_arg12 m ρ H c)
theorem e12_arg12 : W12 (F := Ideal) m ρ c (Proc.devRef .tc main_arg12) = m ((c : Thread nD τ).loc main_arg12) :=
  (W12_of m ρ c main_arg12 (by decide)).trans (e11_arg12 m ρ H c)
theorem e13_arg12 : W13 (F := Ideal) m ρ c (Proc.devRef .tc main_arg12) = m ((c : Thread nD τ).loc main_arg12) :=
  (W13_of m ρ c main_arg12 (by decide)).trans (e12_arg12 m ρ H c)
theorem e14_arg12 : W14 (F := Ideal) m ρ c (Proc.devRef .tc main_arg12) = m ((c : Thread nD τ).loc main_arg12) :=
  (W14_of m ρ c main_arg12 (by decide)).trans (e13_arg12 m ρ H c)
theorem e15_arg12 : W15 (F := Ideal) m ρ c (Proc.devRef .tc main_arg12) = m ((c : Thread nD τ).loc main_arg12) :=
  (W15_of m ρ c main_arg12 (by decide)).trans (e14_arg12 m ρ H c)
theorem e16_arg12 : W16 (F := Ideal) m ρ c (Proc.devRef .tc main_arg12) = m ((c : Thread nD τ).loc main_arg12) :=
  (W16_of m ρ c main_arg12 (by decide)).trans (e15_arg12 m ρ H c)
theorem e0_arg3 : W0 (F := Ideal) m ρ c (Proc.devRef .tc main_arg3) = m ((c : Thread nD τ).loc main_arg3) := rfl
theorem e1_arg3 : W1 (F := Ideal) m ρ c (Proc.devRef .tc main_arg3) = m ((c : Thread nD τ).loc main_arg3) :=
  (W1_of m ρ c main_arg3 (by decide)).trans (e0_arg3 m ρ H c)
theorem e2_arg3 : W2 (F := Ideal) m ρ c (Proc.devRef .tc main_arg3) = m ((c : Thread nD τ).loc main_arg3) :=
  (W2_of m ρ c main_arg3 (by decide)).trans (e1_arg3 m ρ H c)
theorem e3_arg3 : W3 (F := Ideal) m ρ c (Proc.devRef .tc main_arg3) = m ((c : Thread nD τ).loc main_arg3) :=
  (W3_of m ρ c main_arg3 (by decide)).trans (e2_arg3 m ρ H c)
theorem e4_arg3 : W4 (F := Ideal) m ρ c (Proc.devRef .tc main_arg3) = m ((c : Thread nD τ).loc main_arg3) :=
  (W4_of m ρ c main_arg3 (by decide)).trans (e3_arg3 m ρ H c)
theorem e5_arg3 : W5 (F := Ideal) m ρ c (Proc.devRef .tc main_arg3) = m ((c : Thread nD τ).loc main_arg3) :=
  (W5_of m ρ c main_arg3 (by decide)).trans (e4_arg3 m ρ H c)
theorem e6_arg3 : W6 (F := Ideal) m ρ c (Proc.devRef .tc main_arg3) = m ((c : Thread nD τ).loc main_arg3) :=
  (W6_of m ρ c main_arg3 (by decide)).trans (e5_arg3 m ρ H c)
theorem e7_arg3 : W7 (F := Ideal) m ρ c (Proc.devRef .tc main_arg3) = m ((c : Thread nD τ).loc main_arg3) :=
  (W7_of m ρ c main_arg3 (by decide)).trans (e6_arg3 m ρ H c)
theorem e8_arg3 : W8 (F := Ideal) m ρ c (Proc.devRef .tc main_arg3) = m ((c : Thread nD τ).loc main_arg3) :=
  (W8_of m ρ c main_arg3 (by decide)).trans (e7_arg3 m ρ H c)
theorem e9_arg3 : W9 (F := Ideal) m ρ c (Proc.devRef .tc main_arg3) = m ((c : Thread nD τ).loc main_arg3) :=
  (W9_of m ρ c main_arg3 (by decide)).trans (e8_arg3 m ρ H c)
theorem e10_arg3 : W10 (F := Ideal) m ρ c (Proc.devRef .tc main_arg3) = m ((c : Thread nD τ).loc main_arg3) :=
  (W10_of m ρ c main_arg3 (by decide)).trans (e9_arg3 m ρ H c)
theorem e11_arg3 : W11 (F := Ideal) m ρ c (Proc.devRef .tc main_arg3) = m ((c : Thread nD τ).loc main_arg3) :=
  (W11_of m ρ c main_arg3 (by decide)).trans (e10_arg3 m ρ H c)
theorem e12_arg3 : W12 (F := Ideal) m ρ c (Proc.devRef .tc main_arg3) = m ((c : Thread nD τ).loc main_arg3) :=
  (W12_of m ρ c main_arg3 (by decide)).trans (e11_arg3 m ρ H c)
theorem e13_arg3 : W13 (F := Ideal) m ρ c (Proc.devRef .tc main_arg3) = m ((c : Thread nD τ).loc main_arg3) :=
  (W13_of m ρ c main_arg3 (by decide)).trans (e12_arg3 m ρ H c)
theorem e14_arg3 : W14 (F := Ideal) m ρ c (Proc.devRef .tc main_arg3) = m ((c : Thread nD τ).loc main_arg3) :=
  (W14_of m ρ c main_arg3 (by decide)).trans (e13_arg3 m ρ H c)
theorem e15_arg3 : W15 (F := Ideal) m ρ c (Proc.devRef .tc main_arg3) = m ((c : Thread nD τ).loc main_arg3) :=
  (W15_of m ρ c main_arg3 (by decide)).trans (e14_arg3 m ρ H c)
theorem e16_arg3 : W16 (F := Ideal) m ρ c (Proc.devRef .tc main_arg3) = m ((c : Thread nD τ).loc main_arg3) :=
  (W16_of m ρ c main_arg3 (by decide)).trans (e15_arg3 m ρ H c)
theorem e0_arg11 : W0 (F := Ideal) m ρ c (Proc.devRef .tc main_arg11) = m ((c : Thread nD τ).loc main_arg11) := rfl
theorem e1_arg11 : W1 (F := Ideal) m ρ c (Proc.devRef .tc main_arg11) = m ((c : Thread nD τ).loc main_arg11) :=
  (W1_of m ρ c main_arg11 (by decide)).trans (e0_arg11 m ρ H c)
theorem e2_arg11 : W2 (F := Ideal) m ρ c (Proc.devRef .tc main_arg11) = m ((c : Thread nD τ).loc main_arg11) :=
  (W2_of m ρ c main_arg11 (by decide)).trans (e1_arg11 m ρ H c)
theorem e3_arg11 : W3 (F := Ideal) m ρ c (Proc.devRef .tc main_arg11) = m ((c : Thread nD τ).loc main_arg11) :=
  (W3_of m ρ c main_arg11 (by decide)).trans (e2_arg11 m ρ H c)
theorem e4_arg11 : W4 (F := Ideal) m ρ c (Proc.devRef .tc main_arg11) = m ((c : Thread nD τ).loc main_arg11) :=
  (W4_of m ρ c main_arg11 (by decide)).trans (e3_arg11 m ρ H c)
theorem e5_arg11 : W5 (F := Ideal) m ρ c (Proc.devRef .tc main_arg11) = m ((c : Thread nD τ).loc main_arg11) :=
  (W5_of m ρ c main_arg11 (by decide)).trans (e4_arg11 m ρ H c)
theorem e6_arg11 : W6 (F := Ideal) m ρ c (Proc.devRef .tc main_arg11) = m ((c : Thread nD τ).loc main_arg11) :=
  (W6_of m ρ c main_arg11 (by decide)).trans (e5_arg11 m ρ H c)
theorem e7_arg11 : W7 (F := Ideal) m ρ c (Proc.devRef .tc main_arg11) = m ((c : Thread nD τ).loc main_arg11) :=
  (W7_of m ρ c main_arg11 (by decide)).trans (e6_arg11 m ρ H c)
theorem e8_arg11 : W8 (F := Ideal) m ρ c (Proc.devRef .tc main_arg11) = m ((c : Thread nD τ).loc main_arg11) :=
  (W8_of m ρ c main_arg11 (by decide)).trans (e7_arg11 m ρ H c)
theorem e9_arg11 : W9 (F := Ideal) m ρ c (Proc.devRef .tc main_arg11) = m ((c : Thread nD τ).loc main_arg11) :=
  (W9_of m ρ c main_arg11 (by decide)).trans (e8_arg11 m ρ H c)
theorem e10_arg11 : W10 (F := Ideal) m ρ c (Proc.devRef .tc main_arg11) = m ((c : Thread nD τ).loc main_arg11) :=
  (W10_of m ρ c main_arg11 (by decide)).trans (e9_arg11 m ρ H c)
theorem e11_arg11 : W11 (F := Ideal) m ρ c (Proc.devRef .tc main_arg11) = m ((c : Thread nD τ).loc main_arg11) :=
  (W11_of m ρ c main_arg11 (by decide)).trans (e10_arg11 m ρ H c)
theorem e12_arg11 : W12 (F := Ideal) m ρ c (Proc.devRef .tc main_arg11) = m ((c : Thread nD τ).loc main_arg11) :=
  (W12_of m ρ c main_arg11 (by decide)).trans (e11_arg11 m ρ H c)
theorem e13_arg11 : W13 (F := Ideal) m ρ c (Proc.devRef .tc main_arg11) = m ((c : Thread nD τ).loc main_arg11) :=
  (W13_of m ρ c main_arg11 (by decide)).trans (e12_arg11 m ρ H c)
theorem e14_arg11 : W14 (F := Ideal) m ρ c (Proc.devRef .tc main_arg11) = m ((c : Thread nD τ).loc main_arg11) :=
  (W14_of m ρ c main_arg11 (by decide)).trans (e13_arg11 m ρ H c)
theorem e15_arg11 : W15 (F := Ideal) m ρ c (Proc.devRef .tc main_arg11) = m ((c : Thread nD τ).loc main_arg11) :=
  (W15_of m ρ c main_arg11 (by decide)).trans (e14_arg11 m ρ H c)
theorem e16_arg11 : W16 (F := Ideal) m ρ c (Proc.devRef .tc main_arg11) = m ((c : Thread nD τ).loc main_arg11) :=
  (W16_of m ρ c main_arg11 (by decide)).trans (e15_arg11 m ρ H c)
theorem e0_arg5 : W0 (F := Ideal) m ρ c (Proc.devRef .tc main_arg5) = m ((c : Thread nD τ).loc main_arg5) := rfl
theorem e1_arg5 : W1 (F := Ideal) m ρ c (Proc.devRef .tc main_arg5) = m ((c : Thread nD τ).loc main_arg5) :=
  (W1_of m ρ c main_arg5 (by decide)).trans (e0_arg5 m ρ H c)
theorem e2_arg5 : W2 (F := Ideal) m ρ c (Proc.devRef .tc main_arg5) = m ((c : Thread nD τ).loc main_arg5) :=
  (W2_of m ρ c main_arg5 (by decide)).trans (e1_arg5 m ρ H c)
theorem e3_arg5 : W3 (F := Ideal) m ρ c (Proc.devRef .tc main_arg5) = m ((c : Thread nD τ).loc main_arg5) :=
  (W3_of m ρ c main_arg5 (by decide)).trans (e2_arg5 m ρ H c)
theorem e4_arg5 : W4 (F := Ideal) m ρ c (Proc.devRef .tc main_arg5) = m ((c : Thread nD τ).loc main_arg5) :=
  (W4_of m ρ c main_arg5 (by decide)).trans (e3_arg5 m ρ H c)
theorem e5_arg5 : W5 (F := Ideal) m ρ c (Proc.devRef .tc main_arg5) = m ((c : Thread nD τ).loc main_arg5) :=
  (W5_of m ρ c main_arg5 (by decide)).trans (e4_arg5 m ρ H c)
theorem e6_arg5 : W6 (F := Ideal) m ρ c (Proc.devRef .tc main_arg5) = m ((c : Thread nD τ).loc main_arg5) :=
  (W6_of m ρ c main_arg5 (by decide)).trans (e5_arg5 m ρ H c)
theorem e7_arg5 : W7 (F := Ideal) m ρ c (Proc.devRef .tc main_arg5) = m ((c : Thread nD τ).loc main_arg5) :=
  (W7_of m ρ c main_arg5 (by decide)).trans (e6_arg5 m ρ H c)
theorem e8_arg5 : W8 (F := Ideal) m ρ c (Proc.devRef .tc main_arg5) = m ((c : Thread nD τ).loc main_arg5) :=
  (W8_of m ρ c main_arg5 (by decide)).trans (e7_arg5 m ρ H c)
theorem e9_arg5 : W9 (F := Ideal) m ρ c (Proc.devRef .tc main_arg5) = m ((c : Thread nD τ).loc main_arg5) :=
  (W9_of m ρ c main_arg5 (by decide)).trans (e8_arg5 m ρ H c)
theorem e10_arg5 : W10 (F := Ideal) m ρ c (Proc.devRef .tc main_arg5) = m ((c : Thread nD τ).loc main_arg5) :=
  (W10_of m ρ c main_arg5 (by decide)).trans (e9_arg5 m ρ H c)
theorem e11_arg5 : W11 (F := Ideal) m ρ c (Proc.devRef .tc main_arg5) = m ((c : Thread nD τ).loc main_arg5) :=
  (W11_of m ρ c main_arg5 (by decide)).trans (e10_arg5 m ρ H c)
theorem e12_arg5 : W12 (F := Ideal) m ρ c (Proc.devRef .tc main_arg5) = m ((c : Thread nD τ).loc main_arg5) :=
  (W12_of m ρ c main_arg5 (by decide)).trans (e11_arg5 m ρ H c)
theorem e13_arg5 : W13 (F := Ideal) m ρ c (Proc.devRef .tc main_arg5) = m ((c : Thread nD τ).loc main_arg5) :=
  (W13_of m ρ c main_arg5 (by decide)).trans (e12_arg5 m ρ H c)
theorem e14_arg5 : W14 (F := Ideal) m ρ c (Proc.devRef .tc main_arg5) = m ((c : Thread nD τ).loc main_arg5) :=
  (W14_of m ρ c main_arg5 (by decide)).trans (e13_arg5 m ρ H c)
theorem e15_arg5 : W15 (F := Ideal) m ρ c (Proc.devRef .tc main_arg5) = m ((c : Thread nD τ).loc main_arg5) :=
  (W15_of m ρ c main_arg5 (by decide)).trans (e14_arg5 m ρ H c)
theorem e16_arg5 : W16 (F := Ideal) m ρ c (Proc.devRef .tc main_arg5) = m ((c : Thread nD τ).loc main_arg5) :=
  (W16_of m ρ c main_arg5 (by decide)).trans (e15_arg5 m ρ H c)
theorem e0_arg16 : W0 (F := Ideal) m ρ c (Proc.devRef .tc main_arg16) = m ((c : Thread nD τ).loc main_arg16) := rfl
theorem e1_arg16 : W1 (F := Ideal) m ρ c (Proc.devRef .tc main_arg16) = m ((c : Thread nD τ).loc main_arg16) :=
  (W1_of m ρ c main_arg16 (by decide)).trans (e0_arg16 m ρ H c)
theorem e2_arg16 : W2 (F := Ideal) m ρ c (Proc.devRef .tc main_arg16) = m ((c : Thread nD τ).loc main_arg16) :=
  (W2_of m ρ c main_arg16 (by decide)).trans (e1_arg16 m ρ H c)
theorem e3_arg16 : W3 (F := Ideal) m ρ c (Proc.devRef .tc main_arg16) = m ((c : Thread nD τ).loc main_arg16) :=
  (W3_of m ρ c main_arg16 (by decide)).trans (e2_arg16 m ρ H c)
theorem e4_arg16 : W4 (F := Ideal) m ρ c (Proc.devRef .tc main_arg16) = m ((c : Thread nD τ).loc main_arg16) :=
  (W4_of m ρ c main_arg16 (by decide)).trans (e3_arg16 m ρ H c)
theorem e5_arg16 : W5 (F := Ideal) m ρ c (Proc.devRef .tc main_arg16) = m ((c : Thread nD τ).loc main_arg16) :=
  (W5_of m ρ c main_arg16 (by decide)).trans (e4_arg16 m ρ H c)
theorem e6_arg16 : W6 (F := Ideal) m ρ c (Proc.devRef .tc main_arg16) = m ((c : Thread nD τ).loc main_arg16) :=
  (W6_of m ρ c main_arg16 (by decide)).trans (e5_arg16 m ρ H c)
theorem e7_arg16 : W7 (F := Ideal) m ρ c (Proc.devRef .tc main_arg16) = m ((c : Thread nD τ).loc main_arg16) :=
  (W7_of m ρ c main_arg16 (by decide)).trans (e6_arg16 m ρ H c)
theorem e8_arg16 : W8 (F := Ideal) m ρ c (Proc.devRef .tc main_arg16) = m ((c : Thread nD τ).loc main_arg16) :=
  (W8_of m ρ c main_arg16 (by decide)).trans (e7_arg16 m ρ H c)
theorem e9_arg16 : W9 (F := Ideal) m ρ c (Proc.devRef .tc main_arg16) = m ((c : Thread nD τ).loc main_arg16) :=
  (W9_of m ρ c main_arg16 (by decide)).trans (e8_arg16 m ρ H c)
theorem e10_arg16 : W10 (F := Ideal) m ρ c (Proc.devRef .tc main_arg16) = m ((c : Thread nD τ).loc main_arg16) :=
  (W10_of m ρ c main_arg16 (by decide)).trans (e9_arg16 m ρ H c)
theorem e11_arg16 : W11 (F := Ideal) m ρ c (Proc.devRef .tc main_arg16) = m ((c : Thread nD τ).loc main_arg16) :=
  (W11_of m ρ c main_arg16 (by decide)).trans (e10_arg16 m ρ H c)
theorem e12_arg16 : W12 (F := Ideal) m ρ c (Proc.devRef .tc main_arg16) = m ((c : Thread nD τ).loc main_arg16) :=
  (W12_of m ρ c main_arg16 (by decide)).trans (e11_arg16 m ρ H c)
theorem e13_arg16 : W13 (F := Ideal) m ρ c (Proc.devRef .tc main_arg16) = m ((c : Thread nD τ).loc main_arg16) :=
  (W13_of m ρ c main_arg16 (by decide)).trans (e12_arg16 m ρ H c)
theorem e14_arg16 : W14 (F := Ideal) m ρ c (Proc.devRef .tc main_arg16) = m ((c : Thread nD τ).loc main_arg16) :=
  (W14_of m ρ c main_arg16 (by decide)).trans (e13_arg16 m ρ H c)
theorem e15_arg16 : W15 (F := Ideal) m ρ c (Proc.devRef .tc main_arg16) = m ((c : Thread nD τ).loc main_arg16) :=
  (W15_of m ρ c main_arg16 (by decide)).trans (e14_arg16 m ρ H c)
theorem e16_arg16 : W16 (F := Ideal) m ρ c (Proc.devRef .tc main_arg16) = m ((c : Thread nD τ).loc main_arg16) :=
  (W16_of m ρ c main_arg16 (by decide)).trans (e15_arg16 m ρ H c)
theorem e0_arg17 : W0 (F := Ideal) m ρ c (Proc.devRef .tc main_arg17) = m ((c : Thread nD τ).loc main_arg17) := rfl
theorem e1_arg17 : W1 (F := Ideal) m ρ c (Proc.devRef .tc main_arg17) = m ((c : Thread nD τ).loc main_arg17) :=
  (W1_of m ρ c main_arg17 (by decide)).trans (e0_arg17 m ρ H c)
theorem e2_arg17 : W2 (F := Ideal) m ρ c (Proc.devRef .tc main_arg17) = m ((c : Thread nD τ).loc main_arg17) :=
  (W2_of m ρ c main_arg17 (by decide)).trans (e1_arg17 m ρ H c)
theorem e3_arg17 : W3 (F := Ideal) m ρ c (Proc.devRef .tc main_arg17) = m ((c : Thread nD τ).loc main_arg17) :=
  (W3_of m ρ c main_arg17 (by decide)).trans (e2_arg17 m ρ H c)
theorem e4_arg17 : W4 (F := Ideal) m ρ c (Proc.devRef .tc main_arg17) = m ((c : Thread nD τ).loc main_arg17) :=
  (W4_of m ρ c main_arg17 (by decide)).trans (e3_arg17 m ρ H c)
theorem e5_arg17 : W5 (F := Ideal) m ρ c (Proc.devRef .tc main_arg17) = m ((c : Thread nD τ).loc main_arg17) :=
  (W5_of m ρ c main_arg17 (by decide)).trans (e4_arg17 m ρ H c)
theorem e6_arg17 : W6 (F := Ideal) m ρ c (Proc.devRef .tc main_arg17) = m ((c : Thread nD τ).loc main_arg17) :=
  (W6_of m ρ c main_arg17 (by decide)).trans (e5_arg17 m ρ H c)
theorem e7_arg17 : W7 (F := Ideal) m ρ c (Proc.devRef .tc main_arg17) = m ((c : Thread nD τ).loc main_arg17) :=
  (W7_of m ρ c main_arg17 (by decide)).trans (e6_arg17 m ρ H c)
theorem e8_arg17 : W8 (F := Ideal) m ρ c (Proc.devRef .tc main_arg17) = m ((c : Thread nD τ).loc main_arg17) :=
  (W8_of m ρ c main_arg17 (by decide)).trans (e7_arg17 m ρ H c)
theorem e9_arg17 : W9 (F := Ideal) m ρ c (Proc.devRef .tc main_arg17) = m ((c : Thread nD τ).loc main_arg17) :=
  (W9_of m ρ c main_arg17 (by decide)).trans (e8_arg17 m ρ H c)
theorem e10_arg17 : W10 (F := Ideal) m ρ c (Proc.devRef .tc main_arg17) = m ((c : Thread nD τ).loc main_arg17) :=
  (W10_of m ρ c main_arg17 (by decide)).trans (e9_arg17 m ρ H c)
theorem e11_arg17 : W11 (F := Ideal) m ρ c (Proc.devRef .tc main_arg17) = m ((c : Thread nD τ).loc main_arg17) :=
  (W11_of m ρ c main_arg17 (by decide)).trans (e10_arg17 m ρ H c)
theorem e12_arg17 : W12 (F := Ideal) m ρ c (Proc.devRef .tc main_arg17) = m ((c : Thread nD τ).loc main_arg17) :=
  (W12_of m ρ c main_arg17 (by decide)).trans (e11_arg17 m ρ H c)
theorem e13_arg17 : W13 (F := Ideal) m ρ c (Proc.devRef .tc main_arg17) = m ((c : Thread nD τ).loc main_arg17) :=
  (W13_of m ρ c main_arg17 (by decide)).trans (e12_arg17 m ρ H c)
theorem e14_arg17 : W14 (F := Ideal) m ρ c (Proc.devRef .tc main_arg17) = m ((c : Thread nD τ).loc main_arg17) :=
  (W14_of m ρ c main_arg17 (by decide)).trans (e13_arg17 m ρ H c)
theorem e15_arg17 : W15 (F := Ideal) m ρ c (Proc.devRef .tc main_arg17) = m ((c : Thread nD τ).loc main_arg17) :=
  (W15_of m ρ c main_arg17 (by decide)).trans (e14_arg17 m ρ H c)
theorem e16_arg17 : W16 (F := Ideal) m ρ c (Proc.devRef .tc main_arg17) = m ((c : Thread nD τ).loc main_arg17) :=
  (W16_of m ρ c main_arg17 (by decide)).trans (e15_arg17 m ρ H c)

end Cert.HostChain

end
-- ==== Proof.HC.Ker2.lean ====
/-
  The kernel program's buffers through its second layer (items 16 to 31), as terms of the arguments: as for the first
  layer, from the rows the first layer left.
-/
import proofs.«171333_j58007828300388_1_alg».proof.Proof.HC.Ker1

set_option maxRecDepth 16384

noncomputable section

namespace Cert.HostChain

open Cert.KernelIdeal Cert.KernelIdeal.Gen Cert.KernelIdeal.Fr
open Idealize.ShloMosaic Idealize.ShloMosaic.TcCoe Idealize.SL.Sem Idealize.ShloMosaic.StableHlo

variable [Cert.ReferenceIdeal.Facts₀]

set_option maxHeartbeats 4000000

variable (m : (ℓ : Loc nD τ sig) → Buf (Elt Ideal) ℓ) (ρ : Dev nD → PrngReg) (H : RegionMlp m ρ) (c : Dev nD)
include H

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)
local notation "a17" => m ((c : Thread nD τ).loc main_arg17)

theorem e19_v121 : W19 (F := Ideal) m ρ c (Proc.devRef .tc main_v121) = aggAA (F := Ideal) (xa1 (F := Ideal) a0 a1 a2 a3 a4 a5 a6 a7 a8 a9 a10 a11 a12 a13 a14 a15) (srcAA a10) (dstAA a10) a2 := by
  show StableHlo.after hostOps4_2 (W18 (F := Ideal) m ρ c) (Proc.devRef .tc main_v121) = _
  after_results_simp
  rw [e16_arg10 m ρ H c, e16_v68 m ρ H c, e16_v77 m ρ H c, e16_arg2 m ρ H c]
  rfl
theorem e20_v121 : W20 (F := Ideal) m ρ c (Proc.devRef .tc main_v121) = aggAA (F := Ideal) (xa1 (F := Ideal) a0 a1 a2 a3 a4 a5 a6 a7 a8 a9 a10 a11 a12 a13 a14 a15) (srcAA a10) (dstAA a10) a2 :=
  (W20_of m ρ c main_v121 (by decide)).trans (e19_v121 m ρ H c)
theorem e21_v121 : W21 (F := Ideal) m ρ c (Proc.devRef .tc main_v121) = aggAA (F := Ideal) (xa1 (F := Ideal) a0 a1 a2 a3 a4 a5 a6 a7 a8 a9 a10 a11 a12 a13 a14 a15) (srcAA a10) (dstAA a10) a2 :=
  (W21_of m ρ c main_v121 (by decide)).trans (e20_v121 m ρ H c)
theorem e22_v121 : W22 (F := Ideal) m ρ c (Proc.devRef .tc main_v121) = aggAA (F := Ideal) (xa1 (F := Ideal) a0 a1 a2 a3 a4 a5 a6 a7 a8 a9 a10 a11 a12 a13 a14 a15) (srcAA a10) (dstAA a10) a2 :=
  (W22_of m ρ c main_v121 (by decide)).trans (e21_v121 m ρ H c)
theorem e23_v121 : W23 (F := Ideal) m ρ c (Proc.devRef .tc main_v121) = aggAA (F := Ideal) (xa1 (F := Ideal) a0 a1 a2 a3 a4 a5 a6 a7 a8 a9 a10 a11 a12 a13 a14 a15) (srcAA a10) (dstAA a10) a2 :=
  (W23_of m ρ c main_v121 (by decide)).trans (e22_v121 m ρ H c)
theorem e24_v121 : W24 (F := Ideal) m ρ c (Proc.devRef .tc main_v121) = aggAA (F := Ideal) (xa1 (F := Ideal) a0 a1 a2 a3 a4 a5 a6 a7 a8 a9 a10 a11 a12 a13 a14 a15) (srcAA a10) (dstAA a10) a2 :=
  (W24_of m ρ c main_v121 (by decide)).trans (e23_v121 m ρ H c)
theorem e25_v121 : W25 (F := Ideal) m ρ c (Proc.devRef .tc main_v121) = aggAA (F := Ideal) (xa1 (F := Ideal) a0 a1 a2 a3 a4 a5 a6 a7 a8 a9 a10 a11 a12 a13 a14 a15) (srcAA a10) (dstAA a10) a2 :=
  (W25_of m ρ c main_v121 (by decide)).trans (e24_v121 m ρ H c)
theorem e25_v166 : W25 (F := Ideal) m ρ c (Proc.devRef .tc main_v166) = w1_1_0 (F := Ideal) a6 := by
  show StableHlo.after hostOps4_8 (W24 (F := Ideal) m ρ c) (Proc.devRef .tc main_v166) = _
  after_results_simp
  rw [e16_arg6 m ρ H c]
  rfl
theorem e25_v168 : W25 (F := Ideal) m ρ c (Proc.devRef .tc main_v168) = b1_1_0 (F := Ideal) a7 := by
  show StableHlo.after hostOps4_8 (W24 (F := Ideal) m ρ c) (Proc.devRef .tc main_v168) = _
  after_results_simp
  rw [e16_arg7 m ρ H c]
  rfl
theorem e25_v170 : W25 (F := Ideal) m ρ c (Proc.devRef .tc main_v170) = w2_1_0 (F := Ideal) a8 := by
  show StableHlo.after hostOps4_8 (W24 (F := Ideal) m ρ c) (Proc.devRef .tc main_v170) = _
  after_results_simp
  rw [e16_arg8 m ρ H c]
  rfl
theorem e25_v172 : W25 (F := Ideal) m ρ c (Proc.devRef .tc main_v172) = b2_1_0 (F := Ideal) a9 := by
  show StableHlo.after hostOps4_8 (W24 (F := Ideal) m ρ c) (Proc.devRef .tc main_v172) = _
  after_results_simp
  rw [e16_arg9 m ρ H c]
  rfl
theorem e26_v173 : W26 (F := Ideal) m ρ c (Proc.devRef .tc main_v173) = Cert.Mlp.hostMlpA (F := Ideal) (aggAA (F := Ideal) (xa1 (F := Ideal) a0 a1 a2 a3 a4 a5 a6 a7 a8 a9 a10 a11 a12 a13 a14 a15) (srcAA a10) (dstAA a10) a2) (w1_1_0 (F := Ideal) a6) (b1_1_0 (F := Ideal) a7) (w2_1_0 (F := Ideal) a8) (b2_1_0 (F := Ideal) a9) :=
  ((W26_arr (F := Ideal) m ρ c 5).trans (H.fin4 c)).trans
    (mlpA_congr (e25_v121 m ρ H c) (e25_v166 m ρ H c) (e25_v168 m ρ H c) (e25_v170 m ρ H c) (e25_v172 m ρ H c))
theorem e21_v134 : W21 (F := Ideal) m ρ c (Proc.devRef .tc main_v134) = aggMA (F := Ideal) (xm1 (F := Ideal) a0 a1 a2 a3 a4 a5 a6 a7 a8 a9 a10 a11 a12 a13 a14 a15) (xa1 (F := Ideal) a0 a1 a2 a3 a4 a5 a6 a7 a8 a9 a10 a11 a12 a13 a14 a15) a14 a15 a4 := by
  show StableHlo.after hostOps4_4 (W20 (F := Ideal) m ρ c) (Proc.devRef .tc main_v134) = _
  after_results_simp
  rw [e16_arg15 m ρ H c, e16_v86 m ρ H c, e16_v95 m ρ H c, e16_arg14 m ρ H c, e16_arg4 m ρ H c, e16_v68 m ρ H c, e16_v77 m ρ H c]
  rfl
theorem e22_v134 : W22 (F := Ideal) m ρ c (Proc.devRef .tc main_v134) = aggMA (F := Ideal) (xm1 (F := Ideal) a0 a1 a2 a3 a4 a5 a6 a7 a8 a9 a10 a11 a12 a13 a14 a15) (xa1 (F := Ideal) a0 a1 a2 a3 a4 a5 a6 a7 a8 a9 a10 a11 a12 a13 a14 a15) a14 a15 a4 :=
  (W22_of m ρ c main_v134 (by decide)).trans (e21_v134 m ρ H c)
theorem e23_v134 : W23 (F := Ideal) m ρ c (Proc.devRef .tc main_v134) = aggMA (F := Ideal) (xm1 (F := Ideal) a0 a1 a2 a3 a4 a5 a6 a7 a8 a9 a10 a11 a12 a13 a14 a15) (xa1 (F := Ideal) a0 a1 a2 a3 a4 a5 a6 a7 a8 a9 a10 a11 a12 a13 a14 a15) a14 a15 a4 :=
  (W23_of m ρ c main_v134 (by decide)).trans (e22_v134 m ρ H c)
theorem e24_v134 : W24 (F := Ideal) m ρ c (Proc.devRef .tc main_v134) = aggMA (F := Ideal) (xm1 (F := Ideal) a0 a1 a2 a3 a4 a5 a6 a7 a8 a9 a10 a11 a12 a13 a14 a15) (xa1 (F := Ideal) a0 a1 a2 a3 a4 a5 a6 a7 a8 a9 a10 a11 a12 a13 a14 a15) a14 a15 a4 :=
  (W24_of m ρ c main_v134 (by decide)).trans (e23_v134 m ρ H c)
theorem e25_v134 : W25 (F := Ideal) m ρ c (Proc.devRef .tc main_v134) = aggMA (F := Ideal) (xm1 (F := Ideal) a0 a1 a2 a3 a4 a5 a6 a7 a8 a9 a10 a11 a12 a13 a14 a15) (xa1 (F := Ideal) a0 a1 a2 a3 a4 a5 a6 a7 a8 a9 a10 a11 a12 a13 a14 a15) a14 a15 a4 :=
  (W25_of m ρ c main_v134 (by decide)).trans (e24_v134 m ρ H c)
theorem e26_v134 : W26 (F := Ideal) m ρ c (Proc.devRef .tc main_v134) = aggMA (F := Ideal) (xm1 (F := Ideal) a0 a1 a2 a3 a4 a5 a6 a7 a8 a9 a10 a11 a12 a13 a14 a15) (xa1 (F := Ideal) a0 a1 a2 a3 a4 a5 a6 a7 a8 a9 a10 a11 a12 a13 a14 a15) a14 a15 a4 :=
  (W26_of m ρ c main_v134 (by decide)).trans (e25_v134 m ρ H c)
theorem e27_v134 : W27 (F := Ideal) m ρ c (Proc.devRef .tc main_v134) = aggMA (F := Ideal) (xm1 (F := Ideal) a0 a1 a2 a3 a4 a5 a6 a7 a8 a9 a10 a11 a12 a13 a14 a15) (xa1 (F := Ideal) a0 a1 a2 a3 a4 a5 a6 a7 a8 a9 a10 a11 a12 a13 a14 a15) a14 a15 a4 :=
  (W27_of m ρ c main_v134 (by decide)).trans (e26_v134 m ρ H c)
theorem e17_arg6 : W17 (F := Ideal) m ρ c (Proc.devRef .tc main_arg6) = m ((c : Thread nD τ).loc main_arg6) :=
  (W17_of m ρ c main_arg6 (by decide)).trans (e16_arg6 m ρ H c)
theorem e18_arg6 : W18 (F := Ideal) m ρ c (Proc.devRef .tc main_arg6) = m ((c : Thread nD τ).loc main_arg6) :=
  (W18_of m ρ c main_arg6 (by decide)).trans (e17_arg6 m ρ H c)
theorem e19_arg6 : W19 (F := Ideal) m ρ c (Proc.devRef .tc main_arg6) = m ((c : Thread nD τ).loc main_arg6) :=
  (W19_of m ρ c main_arg6 (by decide)).trans (e18_arg6 m ρ H c)
theorem e20_arg6 : W20 (F := Ideal) m ρ c (Proc.devRef .tc main_arg6) = m ((c : Thread nD τ).loc main_arg6) :=
  (W20_of m ρ c main_arg6 (by decide)).trans (e19_arg6 m ρ H c)
theorem e21_arg6 : W21 (F := Ideal) m ρ c (Proc.devRef .tc main_arg6) = m ((c : Thread nD τ).loc main_arg6) :=
  (W21_of m ρ c main_arg6 (by decide)).trans (e20_arg6 m ρ H c)
theorem e22_arg6 : W22 (F := Ideal) m ρ c (Proc.devRef .tc main_arg6) = m ((c : Thread nD τ).loc main_arg6) :=
  (W22_of m ρ c main_arg6 (by decide)).trans (e21_arg6 m ρ H c)
theorem e23_arg6 : W23 (F := Ideal) m ρ c (Proc.devRef .tc main_arg6) = m ((c : Thread nD τ).loc main_arg6) :=
  (W23_of m ρ c main_arg6 (by decide)).trans (e22_arg6 m ρ H c)
theorem e24_arg6 : W24 (F := Ideal) m ρ c (Proc.devRef .tc main_arg6) = m ((c : Thread nD τ).loc main_arg6) :=
  (W24_of m ρ c main_arg6 (by decide)).trans (e23_arg6 m ρ H c)
theorem e25_arg6 : W25 (F := Ideal) m ρ c (Proc.devRef .tc main_arg6) = m ((c : Thread nD τ).loc main_arg6) :=
  (W25_of m ρ c main_arg6 (by decide)).trans (e24_arg6 m ρ H c)
theorem e26_arg6 : W26 (F := Ideal) m ρ c (Proc.devRef .tc main_arg6) = m ((c : Thread nD τ).loc main_arg6) :=
  (W26_of m ρ c main_arg6 (by decide)).trans (e25_arg6 m ρ H c)
theorem e27_v175 : W27 (F := Ideal) m ρ c (Proc.devRef .tc main_v175) = w1_1_2 (F := Ideal) a6 := by
  show StableHlo.after hostOps5 (W26 (F := Ideal) m ρ c) (Proc.devRef .tc main_v175) = _
  after_results_simp
  rw [e26_arg6 m ρ H c]
  rfl
theorem e17_arg7 : W17 (F := Ideal) m ρ c (Proc.devRef .tc main_arg7) = m ((c : Thread nD τ).loc main_arg7) :=
  (W17_of m ρ c main_arg7 (by decide)).trans (e16_arg7 m ρ H c)
theorem e18_arg7 : W18 (F := Ideal) m ρ c (Proc.devRef .tc main_arg7) = m ((c : Thread nD τ).loc main_arg7) :=
  (W18_of m ρ c main_arg7 (by decide)).trans (e17_arg7 m ρ H c)
theorem e19_arg7 : W19 (F := Ideal) m ρ c (Proc.devRef .tc main_arg7) = m ((c : Thread nD τ).loc main_arg7) :=
  (W19_of m ρ c main_arg7 (by decide)).trans (e18_arg7 m ρ H c)
theorem e20_arg7 : W20 (F := Ideal) m ρ c (Proc.devRef .tc main_arg7) = m ((c : Thread nD τ).loc main_arg7) :=
  (W20_of m ρ c main_arg7 (by decide)).trans (e19_arg7 m ρ H c)
theorem e21_arg7 : W21 (F := Ideal) m ρ c (Proc.devRef .tc main_arg7) = m ((c : Thread nD τ).loc main_arg7) :=
  (W21_of m ρ c main_arg7 (by decide)).trans (e20_arg7 m ρ H c)
theorem e22_arg7 : W22 (F := Ideal) m ρ c (Proc.devRef .tc main_arg7) = m ((c : Thread nD τ).loc main_arg7) :=
  (W22_of m ρ c main_arg7 (by decide)).trans (e21_arg7 m ρ H c)
theorem e23_arg7 : W23 (F := Ideal) m ρ c (Proc.devRef .tc main_arg7) = m ((c : Thread nD τ).loc main_arg7) :=
  (W23_of m ρ c main_arg7 (by decide)).trans (e22_arg7 m ρ H c)
theorem e24_arg7 : W24 (F := Ideal) m ρ c (Proc.devRef .tc main_arg7) = m ((c : Thread nD τ).loc main_arg7) :=
  (W24_of m ρ c main_arg7 (by decide)).trans (e23_arg7 m ρ H c)
theorem e25_arg7 : W25 (F := Ideal) m ρ c (Proc.devRef .tc main_arg7) = m ((c : Thread nD τ).loc main_arg7) :=
  (W25_of m ρ c main_arg7 (by decide)).trans (e24_arg7 m ρ H c)
theorem e26_arg7 : W26 (F := Ideal) m ρ c (Proc.devRef .tc main_arg7) = m ((c : Thread nD τ).loc main_arg7) :=
  (W26_of m ρ c main_arg7 (by decide)).trans (e25_arg7 m ρ H c)
theorem e27_v177 : W27 (F := Ideal) m ρ c (Proc.devRef .tc main_v177) = b1_1_2 (F := Ideal) a7 := by
  show StableHlo.after hostOps5 (W26 (F := Ideal) m ρ c) (Proc.devRef .tc main_v177) = _
  after_results_simp
  rw [e26_arg7 m ρ H c]
  rfl
theorem e17_arg8 : W17 (F := Ideal) m ρ c (Proc.devRef .tc main_arg8) = m ((c : Thread nD τ).loc main_arg8) :=
  (W17_of m ρ c main_arg8 (by decide)).trans (e16_arg8 m ρ H c)
theorem e18_arg8 : W18 (F := Ideal) m ρ c (Proc.devRef .tc main_arg8) = m ((c : Thread nD τ).loc main_arg8) :=
  (W18_of m ρ c main_arg8 (by decide)).trans (e17_arg8 m ρ H c)
theorem e19_arg8 : W19 (F := Ideal) m ρ c (Proc.devRef .tc main_arg8) = m ((c : Thread nD τ).loc main_arg8) :=
  (W19_of m ρ c main_arg8 (by decide)).trans (e18_arg8 m ρ H c)
theorem e20_arg8 : W20 (F := Ideal) m ρ c (Proc.devRef .tc main_arg8) = m ((c : Thread nD τ).loc main_arg8) :=
  (W20_of m ρ c main_arg8 (by decide)).trans (e19_arg8 m ρ H c)
theorem e21_arg8 : W21 (F := Ideal) m ρ c (Proc.devRef .tc main_arg8) = m ((c : Thread nD τ).loc main_arg8) :=
  (W21_of m ρ c main_arg8 (by decide)).trans (e20_arg8 m ρ H c)
theorem e22_arg8 : W22 (F := Ideal) m ρ c (Proc.devRef .tc main_arg8) = m ((c : Thread nD τ).loc main_arg8) :=
  (W22_of m ρ c main_arg8 (by decide)).trans (e21_arg8 m ρ H c)
theorem e23_arg8 : W23 (F := Ideal) m ρ c (Proc.devRef .tc main_arg8) = m ((c : Thread nD τ).loc main_arg8) :=
  (W23_of m ρ c main_arg8 (by decide)).trans (e22_arg8 m ρ H c)
theorem e24_arg8 : W24 (F := Ideal) m ρ c (Proc.devRef .tc main_arg8) = m ((c : Thread nD τ).loc main_arg8) :=
  (W24_of m ρ c main_arg8 (by decide)).trans (e23_arg8 m ρ H c)
theorem e25_arg8 : W25 (F := Ideal) m ρ c (Proc.devRef .tc main_arg8) = m ((c : Thread nD τ).loc main_arg8) :=
  (W25_of m ρ c main_arg8 (by decide)).trans (e24_arg8 m ρ H c)
theorem e26_arg8 : W26 (F := Ideal) m ρ c (Proc.devRef .tc main_arg8) = m ((c : Thread nD τ).loc main_arg8) :=
  (W26_of m ρ c main_arg8 (by decide)).trans (e25_arg8 m ρ H c)
theorem e27_v179 : W27 (F := Ideal) m ρ c (Proc.devRef .tc main_v179) = w2_1_2 (F := Ideal) a8 := by
  show StableHlo.after hostOps5 (W26 (F := Ideal) m ρ c) (Proc.devRef .tc main_v179) = _
  after_results_simp
  rw [e26_arg8 m ρ H c]
  rfl
theorem e17_arg9 : W17 (F := Ideal) m ρ c (Proc.devRef .tc main_arg9) = m ((c : Thread nD τ).loc main_arg9) :=
  (W17_of m ρ c main_arg9 (by decide)).trans (e16_arg9 m ρ H c)
theorem e18_arg9 : W18 (F := Ideal) m ρ c (Proc.devRef .tc main_arg9) = m ((c : Thread nD τ).loc main_arg9) :=
  (W18_of m ρ c main_arg9 (by decide)).trans (e17_arg9 m ρ H c)
theorem e19_arg9 : W19 (F := Ideal) m ρ c (Proc.devRef .tc main_arg9) = m ((c : Thread nD τ).loc main_arg9) :=
  (W19_of m ρ c main_arg9 (by decide)).trans (e18_arg9 m ρ H c)
theorem e20_arg9 : W20 (F := Ideal) m ρ c (Proc.devRef .tc main_arg9) = m ((c : Thread nD τ).loc main_arg9) :=
  (W20_of m ρ c main_arg9 (by decide)).trans (e19_arg9 m ρ H c)
theorem e21_arg9 : W21 (F := Ideal) m ρ c (Proc.devRef .tc main_arg9) = m ((c : Thread nD τ).loc main_arg9) :=
  (W21_of m ρ c main_arg9 (by decide)).trans (e20_arg9 m ρ H c)
theorem e22_arg9 : W22 (F := Ideal) m ρ c (Proc.devRef .tc main_arg9) = m ((c : Thread nD τ).loc main_arg9) :=
  (W22_of m ρ c main_arg9 (by decide)).trans (e21_arg9 m ρ H c)
theorem e23_arg9 : W23 (F := Ideal) m ρ c (Proc.devRef .tc main_arg9) = m ((c : Thread nD τ).loc main_arg9) :=
  (W23_of m ρ c main_arg9 (by decide)).trans (e22_arg9 m ρ H c)
theorem e24_arg9 : W24 (F := Ideal) m ρ c (Proc.devRef .tc main_arg9) = m ((c : Thread nD τ).loc main_arg9) :=
  (W24_of m ρ c main_arg9 (by decide)).trans (e23_arg9 m ρ H c)
theorem e25_arg9 : W25 (F := Ideal) m ρ c (Proc.devRef .tc main_arg9) = m ((c : Thread nD τ).loc main_arg9) :=
  (W25_of m ρ c main_arg9 (by decide)).trans (e24_arg9 m ρ H c)
theorem e26_arg9 : W26 (F := Ideal) m ρ c (Proc.devRef .tc main_arg9) = m ((c : Thread nD τ).loc main_arg9) :=
  (W26_of m ρ c main_arg9 (by decide)).trans (e25_arg9 m ρ H c)
theorem e27_v181 : W27 (F := Ideal) m ρ c (Proc.devRef .tc main_v181) = b2_1_2 (F := Ideal) a9 := by
  show StableHlo.after hostOps5 (W26 (F := Ideal) m ρ c) (Proc.devRef .tc main_v181) = _
  after_results_simp
  rw [e26_arg9 m ρ H c]
  rfl
theorem e28_v182 : W28 (F := Ideal) m ρ c (Proc.devRef .tc main_v182) = Cert.Mlp.hostMlpA (F := Ideal) (aggMA (F := Ideal) (xm1 (F := Ideal) a0 a1 a2 a3 a4 a5 a6 a7 a8 a9 a10 a11 a12 a13 a14 a15) (xa1 (F := Ideal) a0 a1 a2 a3 a4 a5 a6 a7 a8 a9 a10 a11 a12 a13 a14 a15) a14 a15 a4) (w1_1_2 (F := Ideal) a6) (b1_1_2 (F := Ideal) a7) (w2_1_2 (F := Ideal) a8) (b2_1_2 (F := Ideal) a9) :=
  ((W28_arr (F := Ideal) m ρ c 5).trans (H.fin5 c)).trans
    (mlpA_congr (e27_v134 m ρ H c) (e27_v175 m ρ H c) (e27_v177 m ρ H c) (e27_v179 m ρ H c) (e27_v181 m ρ H c))
theorem e23_v147 : W23 (F := Ideal) m ρ c (Proc.devRef .tc main_v147) = aggAM (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a12 a13 a3 := by
  show StableHlo.after hostOps4_6 (W22 (F := Ideal) m ρ c) (Proc.devRef .tc main_v147) = _
  after_results_simp
  rw [e16_arg13 m ρ H c, e16_v68 m ρ H c, e16_v77 m ρ H c, e16_arg12 m ρ H c, e16_arg3 m ρ H c, e16_v86 m ρ H c, e16_v95 m ρ H c]
  rfl
theorem e24_v147 : W24 (F := Ideal) m ρ c (Proc.devRef .tc main_v147) = aggAM (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a12 a13 a3 :=
  (W24_of m ρ c main_v147 (by decide)).trans (e23_v147 m ρ H c)
theorem e25_v147 : W25 (F := Ideal) m ρ c (Proc.devRef .tc main_v147) = aggAM (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a12 a13 a3 :=
  (W25_of m ρ c main_v147 (by decide)).trans (e24_v147 m ρ H c)
theorem e26_v147 : W26 (F := Ideal) m ρ c (Proc.devRef .tc main_v147) = aggAM (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a12 a13 a3 :=
  (W26_of m ρ c main_v147 (by decide)).trans (e25_v147 m ρ H c)
theorem e27_v147 : W27 (F := Ideal) m ρ c (Proc.devRef .tc main_v147) = aggAM (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a12 a13 a3 :=
  (W27_of m ρ c main_v147 (by decide)).trans (e26_v147 m ρ H c)
theorem e28_v147 : W28 (F := Ideal) m ρ c (Proc.devRef .tc main_v147) = aggAM (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a12 a13 a3 :=
  (W28_of m ρ c main_v147 (by decide)).trans (e27_v147 m ρ H c)
theorem e29_v147 : W29 (F := Ideal) m ρ c (Proc.devRef .tc main_v147) = aggAM (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a12 a13 a3 :=
  (W29_of m ρ c main_v147 (by decide)).trans (e28_v147 m ρ H c)
theorem e27_arg6 : W27 (F := Ideal) m ρ c (Proc.devRef .tc main_arg6) = m ((c : Thread nD τ).loc main_arg6) :=
  (W27_of m ρ c main_arg6 (by decide)).trans (e26_arg6 m ρ H c)
theorem e28_arg6 : W28 (F := Ideal) m ρ c (Proc.devRef .tc main_arg6) = m ((c : Thread nD τ).loc main_arg6) :=
  (W28_of m ρ c main_arg6 (by decide)).trans (e27_arg6 m ρ H c)
theorem e29_v184 : W29 (F := Ideal) m ρ c (Proc.devRef .tc main_v184) = w1_1_1 (F := Ideal) a6 := by
  show StableHlo.after hostOps6 (W28 (F := Ideal) m ρ c) (Proc.devRef .tc main_v184) = _
  after_results_simp
  rw [e28_arg6 m ρ H c]
  rfl
theorem e27_arg7 : W27 (F := Ideal) m ρ c (Proc.devRef .tc main_arg7) = m ((c : Thread nD τ).loc main_arg7) :=
  (W27_of m ρ c main_arg7 (by decide)).trans (e26_arg7 m ρ H c)
theorem e28_arg7 : W28 (F := Ideal) m ρ c (Proc.devRef .tc main_arg7) = m ((c : Thread nD τ).loc main_arg7) :=
  (W28_of m ρ c main_arg7 (by decide)).trans (e27_arg7 m ρ H c)
theorem e29_v186 : W29 (F := Ideal) m ρ c (Proc.devRef .tc main_v186) = b1_1_1 (F := Ideal) a7 := by
  show StableHlo.after hostOps6 (W28 (F := Ideal) m ρ c) (Proc.devRef .tc main_v186) = _
  after_results_simp
  rw [e28_arg7 m ρ H c]
  rfl
theorem e27_arg8 : W27 (F := Ideal) m ρ c (Proc.devRef .tc main_arg8) = m ((c : Thread nD τ).loc main_arg8) :=
  (W27_of m ρ c main_arg8 (by decide)).trans (e26_arg8 m ρ H c)
theorem e28_arg8 : W28 (F := Ideal) m ρ c (Proc.devRef .tc main_arg8) = m ((c : Thread nD τ).loc main_arg8) :=
  (W28_of m ρ c main_arg8 (by decide)).trans (e27_arg8 m ρ H c)
theorem e29_v188 : W29 (F := Ideal) m ρ c (Proc.devRef .tc main_v188) = w2_1_1 (F := Ideal) a8 := by
  show StableHlo.after hostOps6 (W28 (F := Ideal) m ρ c) (Proc.devRef .tc main_v188) = _
  after_results_simp
  rw [e28_arg8 m ρ H c]
  rfl
theorem e27_arg9 : W27 (F := Ideal) m ρ c (Proc.devRef .tc main_arg9) = m ((c : Thread nD τ).loc main_arg9) :=
  (W27_of m ρ c main_arg9 (by decide)).trans (e26_arg9 m ρ H c)
theorem e28_arg9 : W28 (F := Ideal) m ρ c (Proc.devRef .tc main_arg9) = m ((c : Thread nD τ).loc main_arg9) :=
  (W28_of m ρ c main_arg9 (by decide)).trans (e27_arg9 m ρ H c)
theorem e29_v190 : W29 (F := Ideal) m ρ c (Proc.devRef .tc main_v190) = b2_1_1 (F := Ideal) a9 := by
  show StableHlo.after hostOps6 (W28 (F := Ideal) m ρ c) (Proc.devRef .tc main_v190) = _
  after_results_simp
  rw [e28_arg9 m ρ H c]
  rfl
theorem e30_v191 : W30 (F := Ideal) m ρ c (Proc.devRef .tc main_v191) = Cert.Mlp.hostMlpM (F := Ideal) (aggAM (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a12 a13 a3) (w1_1_1 (F := Ideal) a6) (b1_1_1 (F := Ideal) a7) (w2_1_1 (F := Ideal) a8) (b2_1_1 (F := Ideal) a9) :=
  ((W30_arr (F := Ideal) m ρ c 5).trans (H.fin6 c)).trans
    (mlpM_congr (e29_v147 m ρ H c) (e29_v184 m ρ H c) (e29_v186 m ρ H c) (e29_v188 m ρ H c) (e29_v190 m ρ H c))
theorem e25_v164 : W25 (F := Ideal) m ρ c (Proc.devRef .tc main_v164) = aggMM (F := Ideal) (xm1 (F := Ideal) a0 a1 a2 a3 a4 a5 a6 a7 a8 a9 a10 a11 a12 a13 a14 a15) (srcMM a11) (dstMM a11) a5 := by
  show StableHlo.after hostOps4_8 (W24 (F := Ideal) m ρ c) (Proc.devRef .tc main_v164) = _
  after_results_simp
  rw [e16_arg11 m ρ H c, e16_v86 m ρ H c, e16_v95 m ρ H c, e16_arg5 m ρ H c]
  rfl
theorem e26_v164 : W26 (F := Ideal) m ρ c (Proc.devRef .tc main_v164) = aggMM (F := Ideal) (xm1 (F := Ideal) a0 a1 a2 a3 a4 a5 a6 a7 a8 a9 a10 a11 a12 a13 a14 a15) (srcMM a11) (dstMM a11) a5 :=
  (W26_of m ρ c main_v164 (by decide)).trans (e25_v164 m ρ H c)
theorem e27_v164 : W27 (F := Ideal) m ρ c (Proc.devRef .tc main_v164) = aggMM (F := Ideal) (xm1 (F := Ideal) a0 a1 a2 a3 a4 a5 a6 a7 a8 a9 a10 a11 a12 a13 a14 a15) (srcMM a11) (dstMM a11) a5 :=
  (W27_of m ρ c main_v164 (by decide)).trans (e26_v164 m ρ H c)
theorem e28_v164 : W28 (F := Ideal) m ρ c (Proc.devRef .tc main_v164) = aggMM (F := Ideal) (xm1 (F := Ideal) a0 a1 a2 a3 a4 a5 a6 a7 a8 a9 a10 a11 a12 a13 a14 a15) (srcMM a11) (dstMM a11) a5 :=
  (W28_of m ρ c main_v164 (by decide)).trans (e27_v164 m ρ H c)
theorem e29_v164 : W29 (F := Ideal) m ρ c (Proc.devRef .tc main_v164) = aggMM (F := Ideal) (xm1 (F := Ideal) a0 a1 a2 a3 a4 a5 a6 a7 a8 a9 a10 a11 a12 a13 a14 a15) (srcMM a11) (dstMM a11) a5 :=
  (W29_of m ρ c main_v164 (by decide)).trans (e28_v164 m ρ H c)
theorem e30_v164 : W30 (F := Ideal) m ρ c (Proc.devRef .tc main_v164) = aggMM (F := Ideal) (xm1 (F := Ideal) a0 a1 a2 a3 a4 a5 a6 a7 a8 a9 a10 a11 a12 a13 a14 a15) (srcMM a11) (dstMM a11) a5 :=
  (W30_of m ρ c main_v164 (by decide)).trans (e29_v164 m ρ H c)
theorem e31_v164 : W31 (F := Ideal) m ρ c (Proc.devRef .tc main_v164) = aggMM (F := Ideal) (xm1 (F := Ideal) a0 a1 a2 a3 a4 a5 a6 a7 a8 a9 a10 a11 a12 a13 a14 a15) (srcMM a11) (dstMM a11) a5 :=
  (W31_of m ρ c main_v164 (by decide)).trans (e30_v164 m ρ H c)
theorem e29_arg6 : W29 (F := Ideal) m ρ c (Proc.devRef .tc main_arg6) = m ((c : Thread nD τ).loc main_arg6) :=
  (W29_of m ρ c main_arg6 (by decide)).trans (e28_arg6 m ρ H c)
theorem e30_arg6 : W30 (F := Ideal) m ρ c (Proc.devRef .tc main_arg6) = m ((c : Thread nD τ).loc main_arg6) :=
  (W30_of m ρ c main_arg6 (by decide)).trans (e29_arg6 m ρ H c)
theorem e31_v193 : W31 (F := Ideal) m ρ c (Proc.devRef .tc main_v193) = w1_1_3 (F := Ideal) a6 := by
  show StableHlo.after hostOps7 (W30 (F := Ideal) m ρ c) (Proc.devRef .tc main_v193) = _
  after_results_simp
  rw [e30_arg6 m ρ H c]
  rfl
theorem e29_arg7 : W29 (F := Ideal) m ρ c (Proc.devRef .tc main_arg7) = m ((c : Thread nD τ).loc main_arg7) :=
  (W29_of m ρ c main_arg7 (by decide)).trans (e28_arg7 m ρ H c)
theorem e30_arg7 : W30 (F := Ideal) m ρ c (Proc.devRef .tc main_arg7) = m ((c : Thread nD τ).loc main_arg7) :=
  (W30_of m ρ c main_arg7 (by decide)).trans (e29_arg7 m ρ H c)
theorem e31_v195 : W31 (F := Ideal) m ρ c (Proc.devRef .tc main_v195) = b1_1_3 (F := Ideal) a7 := by
  show StableHlo.after hostOps7 (W30 (F := Ideal) m ρ c) (Proc.devRef .tc main_v195) = _
  after_results_simp
  rw [e30_arg7 m ρ H c]
  rfl
theorem e29_arg8 : W29 (F := Ideal) m ρ c (Proc.devRef .tc main_arg8) = m ((c : Thread nD τ).loc main_arg8) :=
  (W29_of m ρ c main_arg8 (by decide)).trans (e28_arg8 m ρ H c)
theorem e30_arg8 : W30 (F := Ideal) m ρ c (Proc.devRef .tc main_arg8) = m ((c : Thread nD τ).loc main_arg8) :=
  (W30_of m ρ c main_arg8 (by decide)).trans (e29_arg8 m ρ H c)
theorem e31_v197 : W31 (F := Ideal) m ρ c (Proc.devRef .tc main_v197) = w2_1_3 (F := Ideal) a8 := by
  show StableHlo.after hostOps7 (W30 (F := Ideal) m ρ c) (Proc.devRef .tc main_v197) = _
  after_results_simp
  rw [e30_arg8 m ρ H c]
  rfl
theorem e29_arg9 : W29 (F := Ideal) m ρ c (Proc.devRef .tc main_arg9) = m ((c : Thread nD τ).loc main_arg9) :=
  (W29_of m ρ c main_arg9 (by decide)).trans (e28_arg9 m ρ H c)
theorem e30_arg9 : W30 (F := Ideal) m ρ c (Proc.devRef .tc main_arg9) = m ((c : Thread nD τ).loc main_arg9) :=
  (W30_of m ρ c main_arg9 (by decide)).trans (e29_arg9 m ρ H c)
theorem e31_v199 : W31 (F := Ideal) m ρ c (Proc.devRef .tc main_v199) = b2_1_3 (F := Ideal) a9 := by
  show StableHlo.after hostOps7 (W30 (F := Ideal) m ρ c) (Proc.devRef .tc main_v199) = _
  after_results_simp
  rw [e30_arg9 m ρ H c]
  rfl
theorem e32_v200 : W32 (F := Ideal) m ρ c (Proc.devRef .tc main_v200) = Cert.Mlp.hostMlpM (F := Ideal) (aggMM (F := Ideal) (xm1 (F := Ideal) a0 a1 a2 a3 a4 a5 a6 a7 a8 a9 a10 a11 a12 a13 a14 a15) (srcMM a11) (dstMM a11) a5) (w1_1_3 (F := Ideal) a6) (b1_1_3 (F := Ideal) a7) (w2_1_3 (F := Ideal) a8) (b2_1_3 (F := Ideal) a9) :=
  ((W32_arr (F := Ideal) m ρ c 5).trans (H.fin7 c)).trans
    (mlpM_congr (e31_v164 m ρ H c) (e31_v193 m ρ H c) (e31_v195 m ρ H c) (e31_v197 m ρ H c) (e31_v199 m ρ H c))
theorem e17_arg10 : W17 (F := Ideal) m ρ c (Proc.devRef .tc main_arg10) = m ((c : Thread nD τ).loc main_arg10) :=
  (W17_of m ρ c main_arg10 (by decide)).trans (e16_arg10 m ρ H c)
theorem e18_arg10 : W18 (F := Ideal) m ρ c (Proc.devRef .tc main_arg10) = m ((c : Thread nD τ).loc main_arg10) :=
  (W18_of m ρ c main_arg10 (by decide)).trans (e17_arg10 m ρ H c)
theorem e19_arg10 : W19 (F := Ideal) m ρ c (Proc.devRef .tc main_arg10) = m ((c : Thread nD τ).loc main_arg10) :=
  (W19_of m ρ c main_arg10 (by decide)).trans (e18_arg10 m ρ H c)
theorem e20_arg10 : W20 (F := Ideal) m ρ c (Proc.devRef .tc main_arg10) = m ((c : Thread nD τ).loc main_arg10) :=
  (W20_of m ρ c main_arg10 (by decide)).trans (e19_arg10 m ρ H c)
theorem e21_arg10 : W21 (F := Ideal) m ρ c (Proc.devRef .tc main_arg10) = m ((c : Thread nD τ).loc main_arg10) :=
  (W21_of m ρ c main_arg10 (by decide)).trans (e20_arg10 m ρ H c)
theorem e22_arg10 : W22 (F := Ideal) m ρ c (Proc.devRef .tc main_arg10) = m ((c : Thread nD τ).loc main_arg10) :=
  (W22_of m ρ c main_arg10 (by decide)).trans (e21_arg10 m ρ H c)
theorem e23_arg10 : W23 (F := Ideal) m ρ c (Proc.devRef .tc main_arg10) = m ((c : Thread nD τ).loc main_arg10) :=
  (W23_of m ρ c main_arg10 (by decide)).trans (e22_arg10 m ρ H c)
theorem e24_arg10 : W24 (F := Ideal) m ρ c (Proc.devRef .tc main_arg10) = m ((c : Thread nD τ).loc main_arg10) :=
  (W24_of m ρ c main_arg10 (by decide)).trans (e23_arg10 m ρ H c)
theorem e25_arg10 : W25 (F := Ideal) m ρ c (Proc.devRef .tc main_arg10) = m ((c : Thread nD τ).loc main_arg10) :=
  (W25_of m ρ c main_arg10 (by decide)).trans (e24_arg10 m ρ H c)
theorem e26_arg10 : W26 (F := Ideal) m ρ c (Proc.devRef .tc main_arg10) = m ((c : Thread nD τ).loc main_arg10) :=
  (W26_of m ρ c main_arg10 (by decide)).trans (e25_arg10 m ρ H c)
theorem e27_arg10 : W27 (F := Ideal) m ρ c (Proc.devRef .tc main_arg10) = m ((c : Thread nD τ).loc main_arg10) :=
  (W27_of m ρ c main_arg10 (by decide)).trans (e26_arg10 m ρ H c)
theorem e28_arg10 : W28 (F := Ideal) m ρ c (Proc.devRef .tc main_arg10) = m ((c : Thread nD τ).loc main_arg10) :=
  (W28_of m ρ c main_arg10 (by decide)).trans (e27_arg10 m ρ H c)
theorem e29_arg10 : W29 (F := Ideal) m ρ c (Proc.devRef .tc main_arg10) = m ((c : Thread nD τ).loc main_arg10) :=
  (W29_of m ρ c main_arg10 (by decide)).trans (e28_arg10 m ρ H c)
theorem e30_arg10 : W30 (F := Ideal) m ρ c (Proc.devRef .tc main_arg10) = m ((c : Thread nD τ).loc main_arg10) :=
  (W30_of m ρ c main_arg10 (by decide)).trans (e29_arg10 m ρ H c)
theorem e31_arg10 : W31 (F := Ideal) m ρ c (Proc.devRef .tc main_arg10) = m ((c : Thread nD τ).loc main_arg10) :=
  (W31_of m ρ c main_arg10 (by decide)).trans (e30_arg10 m ρ H c)
theorem e32_arg10 : W32 (F := Ideal) m ρ c (Proc.devRef .tc main_arg10) = m ((c : Thread nD τ).loc main_arg10) :=
  (W32_of m ρ c main_arg10 (by decide)).trans (e31_arg10 m ρ H c)
theorem e27_v173 : W27 (F := Ideal) m ρ c (Proc.devRef .tc main_v173) = Cert.Mlp.hostMlpA (F := Ideal) (aggAA (F := Ideal) (xa1 (F := Ideal) a0 a1 a2 a3 a4 a5 a6 a7 a8 a9 a10 a11 a12 a13 a14 a15) (srcAA a10) (dstAA a10) a2) (w1_1_0 (F := Ideal) a6) (b1_1_0 (F := Ideal) a7) (w2_1_0 (F := Ideal) a8) (b2_1_0 (F := Ideal) a9) :=
  (W27_of m ρ c main_v173 (by decide)).trans (e26_v173 m ρ H c)
theorem e28_v173 : W28 (F := Ideal) m ρ c (Proc.devRef .tc main_v173) = Cert.Mlp.hostMlpA (F := Ideal) (aggAA (F := Ideal) (xa1 (F := Ideal) a0 a1 a2 a3 a4 a5 a6 a7 a8 a9 a10 a11 a12 a13 a14 a15) (srcAA a10) (dstAA a10) a2) (w1_1_0 (F := Ideal) a6) (b1_1_0 (F := Ideal) a7) (w2_1_0 (F := Ideal) a8) (b2_1_0 (F := Ideal) a9) :=
  (W28_of m ρ c main_v173 (by decide)).trans (e27_v173 m ρ H c)
theorem e29_v173 : W29 (F := Ideal) m ρ c (Proc.devRef .tc main_v173) = Cert.Mlp.hostMlpA (F := Ideal) (aggAA (F := Ideal) (xa1 (F := Ideal) a0 a1 a2 a3 a4 a5 a6 a7 a8 a9 a10 a11 a12 a13 a14 a15) (srcAA a10) (dstAA a10) a2) (w1_1_0 (F := Ideal) a6) (b1_1_0 (F := Ideal) a7) (w2_1_0 (F := Ideal) a8) (b2_1_0 (F := Ideal) a9) :=
  (W29_of m ρ c main_v173 (by decide)).trans (e28_v173 m ρ H c)
theorem e30_v173 : W30 (F := Ideal) m ρ c (Proc.devRef .tc main_v173) = Cert.Mlp.hostMlpA (F := Ideal) (aggAA (F := Ideal) (xa1 (F := Ideal) a0 a1 a2 a3 a4 a5 a6 a7 a8 a9 a10 a11 a12 a13 a14 a15) (srcAA a10) (dstAA a10) a2) (w1_1_0 (F := Ideal) a6) (b1_1_0 (F := Ideal) a7) (w2_1_0 (F := Ideal) a8) (b2_1_0 (F := Ideal) a9) :=
  (W30_of m ρ c main_v173 (by decide)).trans (e29_v173 m ρ H c)
theorem e31_v173 : W31 (F := Ideal) m ρ c (Proc.devRef .tc main_v173) = Cert.Mlp.hostMlpA (F := Ideal) (aggAA (F := Ideal) (xa1 (F := Ideal) a0 a1 a2 a3 a4 a5 a6 a7 a8 a9 a10 a11 a12 a13 a14 a15) (srcAA a10) (dstAA a10) a2) (w1_1_0 (F := Ideal) a6) (b1_1_0 (F := Ideal) a7) (w2_1_0 (F := Ideal) a8) (b2_1_0 (F := Ideal) a9) :=
  (W31_of m ρ c main_v173 (by decide)).trans (e30_v173 m ρ H c)
theorem e32_v173 : W32 (F := Ideal) m ρ c (Proc.devRef .tc main_v173) = Cert.Mlp.hostMlpA (F := Ideal) (aggAA (F := Ideal) (xa1 (F := Ideal) a0 a1 a2 a3 a4 a5 a6 a7 a8 a9 a10 a11 a12 a13 a14 a15) (srcAA a10) (dstAA a10) a2) (w1_1_0 (F := Ideal) a6) (b1_1_0 (F := Ideal) a7) (w2_1_0 (F := Ideal) a8) (b2_1_0 (F := Ideal) a9) :=
  (W32_of m ρ c main_v173 (by decide)).trans (e31_v173 m ρ H c)
theorem e29_v182 : W29 (F := Ideal) m ρ c (Proc.devRef .tc main_v182) = Cert.Mlp.hostMlpA (F := Ideal) (aggMA (F := Ideal) (xm1 (F := Ideal) a0 a1 a2 a3 a4 a5 a6 a7 a8 a9 a10 a11 a12 a13 a14 a15) (xa1 (F := Ideal) a0 a1 a2 a3 a4 a5 a6 a7 a8 a9 a10 a11 a12 a13 a14 a15) a14 a15 a4) (w1_1_2 (F := Ideal) a6) (b1_1_2 (F := Ideal) a7) (w2_1_2 (F := Ideal) a8) (b2_1_2 (F := Ideal) a9) :=
  (W29_of m ρ c main_v182 (by decide)).trans (e28_v182 m ρ H c)
theorem e30_v182 : W30 (F := Ideal) m ρ c (Proc.devRef .tc main_v182) = Cert.Mlp.hostMlpA (F := Ideal) (aggMA (F := Ideal) (xm1 (F := Ideal) a0 a1 a2 a3 a4 a5 a6 a7 a8 a9 a10 a11 a12 a13 a14 a15) (xa1 (F := Ideal) a0 a1 a2 a3 a4 a5 a6 a7 a8 a9 a10 a11 a12 a13 a14 a15) a14 a15 a4) (w1_1_2 (F := Ideal) a6) (b1_1_2 (F := Ideal) a7) (w2_1_2 (F := Ideal) a8) (b2_1_2 (F := Ideal) a9) :=
  (W30_of m ρ c main_v182 (by decide)).trans (e29_v182 m ρ H c)
theorem e31_v182 : W31 (F := Ideal) m ρ c (Proc.devRef .tc main_v182) = Cert.Mlp.hostMlpA (F := Ideal) (aggMA (F := Ideal) (xm1 (F := Ideal) a0 a1 a2 a3 a4 a5 a6 a7 a8 a9 a10 a11 a12 a13 a14 a15) (xa1 (F := Ideal) a0 a1 a2 a3 a4 a5 a6 a7 a8 a9 a10 a11 a12 a13 a14 a15) a14 a15 a4) (w1_1_2 (F := Ideal) a6) (b1_1_2 (F := Ideal) a7) (w2_1_2 (F := Ideal) a8) (b2_1_2 (F := Ideal) a9) :=
  (W31_of m ρ c main_v182 (by decide)).trans (e30_v182 m ρ H c)
theorem e32_v182 : W32 (F := Ideal) m ρ c (Proc.devRef .tc main_v182) = Cert.Mlp.hostMlpA (F := Ideal) (aggMA (F := Ideal) (xm1 (F := Ideal) a0 a1 a2 a3 a4 a5 a6 a7 a8 a9 a10 a11 a12 a13 a14 a15) (xa1 (F := Ideal) a0 a1 a2 a3 a4 a5 a6 a7 a8 a9 a10 a11 a12 a13 a14 a15) a14 a15 a4) (w1_1_2 (F := Ideal) a6) (b1_1_2 (F := Ideal) a7) (w2_1_2 (F := Ideal) a8) (b2_1_2 (F := Ideal) a9) :=
  (W32_of m ρ c main_v182 (by decide)).trans (e31_v182 m ρ H c)
theorem e17_arg2 : W17 (F := Ideal) m ρ c (Proc.devRef .tc main_arg2) = m ((c : Thread nD τ).loc main_arg2) :=
  (W17_of m ρ c main_arg2 (by decide)).trans (e16_arg2 m ρ H c)
theorem e18_arg2 : W18 (F := Ideal) m ρ c (Proc.devRef .tc main_arg2) = m ((c : Thread nD τ).loc main_arg2) :=
  (W18_of m ρ c main_arg2 (by decide)).trans (e17_arg2 m ρ H c)
theorem e19_arg2 : W19 (F := Ideal) m ρ c (Proc.devRef .tc main_arg2) = m ((c : Thread nD τ).loc main_arg2) :=
  (W19_of m ρ c main_arg2 (by decide)).trans (e18_arg2 m ρ H c)
theorem e20_arg2 : W20 (F := Ideal) m ρ c (Proc.devRef .tc main_arg2) = m ((c : Thread nD τ).loc main_arg2) :=
  (W20_of m ρ c main_arg2 (by decide)).trans (e19_arg2 m ρ H c)
theorem e21_arg2 : W21 (F := Ideal) m ρ c (Proc.devRef .tc main_arg2) = m ((c : Thread nD τ).loc main_arg2) :=
  (W21_of m ρ c main_arg2 (by decide)).trans (e20_arg2 m ρ H c)
theorem e22_arg2 : W22 (F := Ideal) m ρ c (Proc.devRef .tc main_arg2) = m ((c : Thread nD τ).loc main_arg2) :=
  (W22_of m ρ c main_arg2 (by decide)).trans (e21_arg2 m ρ H c)
theorem e23_arg2 : W23 (F := Ideal) m ρ c (Proc.devRef .tc main_arg2) = m ((c : Thread nD τ).loc main_arg2) :=
  (W23_of m ρ c main_arg2 (by decide)).trans (e22_arg2 m ρ H c)
theorem e24_arg2 : W24 (F := Ideal) m ρ c (Proc.devRef .tc main_arg2) = m ((c : Thread nD τ).loc main_arg2) :=
  (W24_of m ρ c main_arg2 (by decide)).trans (e23_arg2 m ρ H c)
theorem e25_arg2 : W25 (F := Ideal) m ρ c (Proc.devRef .tc main_arg2) = m ((c : Thread nD τ).loc main_arg2) :=
  (W25_of m ρ c main_arg2 (by decide)).trans (e24_arg2 m ρ H c)
theorem e26_arg2 : W26 (F := Ideal) m ρ c (Proc.devRef .tc main_arg2) = m ((c : Thread nD τ).loc main_arg2) :=
  (W26_of m ρ c main_arg2 (by decide)).trans (e25_arg2 m ρ H c)
theorem e27_arg2 : W27 (F := Ideal) m ρ c (Proc.devRef .tc main_arg2) = m ((c : Thread nD τ).loc main_arg2) :=
  (W27_of m ρ c main_arg2 (by decide)).trans (e26_arg2 m ρ H c)
theorem e28_arg2 : W28 (F := Ideal) m ρ c (Proc.devRef .tc main_arg2) = m ((c : Thread nD τ).loc main_arg2) :=
  (W28_of m ρ c main_arg2 (by decide)).trans (e27_arg2 m ρ H c)
theorem e29_arg2 : W29 (F := Ideal) m ρ c (Proc.devRef .tc main_arg2) = m ((c : Thread nD τ).loc main_arg2) :=
  (W29_of m ρ c main_arg2 (by decide)).trans (e28_arg2 m ρ H c)
theorem e30_arg2 : W30 (F := Ideal) m ρ c (Proc.devRef .tc main_arg2) = m ((c : Thread nD τ).loc main_arg2) :=
  (W30_of m ρ c main_arg2 (by decide)).trans (e29_arg2 m ρ H c)
theorem e31_arg2 : W31 (F := Ideal) m ρ c (Proc.devRef .tc main_arg2) = m ((c : Thread nD τ).loc main_arg2) :=
  (W31_of m ρ c main_arg2 (by decide)).trans (e30_arg2 m ρ H c)
theorem e32_arg2 : W32 (F := Ideal) m ρ c (Proc.devRef .tc main_arg2) = m ((c : Thread nD τ).loc main_arg2) :=
  (W32_of m ρ c main_arg2 (by decide)).trans (e31_arg2 m ρ H c)
theorem e31_arg6 : W31 (F := Ideal) m ρ c (Proc.devRef .tc main_arg6) = m ((c : Thread nD τ).loc main_arg6) :=
  (W31_of m ρ c main_arg6 (by decide)).trans (e30_arg6 m ρ H c)
theorem e32_arg6 : W32 (F := Ideal) m ρ c (Proc.devRef .tc main_arg6) = m ((c : Thread nD τ).loc main_arg6) :=
  (W32_of m ρ c main_arg6 (by decide)).trans (e31_arg6 m ρ H c)
theorem e31_arg7 : W31 (F := Ideal) m ρ c (Proc.devRef .tc main_arg7) = m ((c : Thread nD τ).loc main_arg7) :=
  (W31_of m ρ c main_arg7 (by decide)).trans (e30_arg7 m ρ H c)
theorem e32_arg7 : W32 (F := Ideal) m ρ c (Proc.devRef .tc main_arg7) = m ((c : Thread nD τ).loc main_arg7) :=
  (W32_of m ρ c main_arg7 (by decide)).trans (e31_arg7 m ρ H c)
theorem e31_arg8 : W31 (F := Ideal) m ρ c (Proc.devRef .tc main_arg8) = m ((c : Thread nD τ).loc main_arg8) :=
  (W31_of m ρ c main_arg8 (by decide)).trans (e30_arg8 m ρ H c)
theorem e32_arg8 : W32 (F := Ideal) m ρ c (Proc.devRef .tc main_arg8) = m ((c : Thread nD τ).loc main_arg8) :=
  (W32_of m ρ c main_arg8 (by decide)).trans (e31_arg8 m ρ H c)
theorem e31_arg9 : W31 (F := Ideal) m ρ c (Proc.devRef .tc main_arg9) = m ((c : Thread nD τ).loc main_arg9) :=
  (W31_of m ρ c main_arg9 (by decide)).trans (e30_arg9 m ρ H c)
theorem e32_arg9 : W32 (F := Ideal) m ρ c (Proc.devRef .tc main_arg9) = m ((c : Thread nD τ).loc main_arg9) :=
  (W32_of m ρ c main_arg9 (by decide)).trans (e31_arg9 m ρ H c)
theorem e17_arg15 : W17 (F := Ideal) m ρ c (Proc.devRef .tc main_arg15) = m ((c : Thread nD τ).loc main_arg15) :=
  (W17_of m ρ c main_arg15 (by decide)).trans (e16_arg15 m ρ H c)
theorem e18_arg15 : W18 (F := Ideal) m ρ c (Proc.devRef .tc main_arg15) = m ((c : Thread nD τ).loc main_arg15) :=
  (W18_of m ρ c main_arg15 (by decide)).trans (e17_arg15 m ρ H c)
theorem e19_arg15 : W19 (F := Ideal) m ρ c (Proc.devRef .tc main_arg15) = m ((c : Thread nD τ).loc main_arg15) :=
  (W19_of m ρ c main_arg15 (by decide)).trans (e18_arg15 m ρ H c)
theorem e20_arg15 : W20 (F := Ideal) m ρ c (Proc.devRef .tc main_arg15) = m ((c : Thread nD τ).loc main_arg15) :=
  (W20_of m ρ c main_arg15 (by decide)).trans (e19_arg15 m ρ H c)
theorem e21_arg15 : W21 (F := Ideal) m ρ c (Proc.devRef .tc main_arg15) = m ((c : Thread nD τ).loc main_arg15) :=
  (W21_of m ρ c main_arg15 (by decide)).trans (e20_arg15 m ρ H c)
theorem e22_arg15 : W22 (F := Ideal) m ρ c (Proc.devRef .tc main_arg15) = m ((c : Thread nD τ).loc main_arg15) :=
  (W22_of m ρ c main_arg15 (by decide)).trans (e21_arg15 m ρ H c)
theorem e23_arg15 : W23 (F := Ideal) m ρ c (Proc.devRef .tc main_arg15) = m ((c : Thread nD τ).loc main_arg15) :=
  (W23_of m ρ c main_arg15 (by decide)).trans (e22_arg15 m ρ H c)
theorem e24_arg15 : W24 (F := Ideal) m ρ c (Proc.devRef .tc main_arg15) = m ((c : Thread nD τ).loc main_arg15) :=
  (W24_of m ρ c main_arg15 (by decide)).trans (e23_arg15 m ρ H c)
theorem e25_arg15 : W25 (F := Ideal) m ρ c (Proc.devRef .tc main_arg15) = m ((c : Thread nD τ).loc main_arg15) :=
  (W25_of m ρ c main_arg15 (by decide)).trans (e24_arg15 m ρ H c)
theorem e26_arg15 : W26 (F := Ideal) m ρ c (Proc.devRef .tc main_arg15) = m ((c : Thread nD τ).loc main_arg15) :=
  (W26_of m ρ c main_arg15 (by decide)).trans (e25_arg15 m ρ H c)
theorem e27_arg15 : W27 (F := Ideal) m ρ c (Proc.devRef .tc main_arg15) = m ((c : Thread nD τ).loc main_arg15) :=
  (W27_of m ρ c main_arg15 (by decide)).trans (e26_arg15 m ρ H c)
theorem e28_arg15 : W28 (F := Ideal) m ρ c (Proc.devRef .tc main_arg15) = m ((c : Thread nD τ).loc main_arg15) :=
  (W28_of m ρ c main_arg15 (by decide)).trans (e27_arg15 m ρ H c)
theorem e29_arg15 : W29 (F := Ideal) m ρ c (Proc.devRef .tc main_arg15) = m ((c : Thread nD τ).loc main_arg15) :=
  (W29_of m ρ c main_arg15 (by decide)).trans (e28_arg15 m ρ H c)
theorem e30_arg15 : W30 (F := Ideal) m ρ c (Proc.devRef .tc main_arg15) = m ((c : Thread nD τ).loc main_arg15) :=
  (W30_of m ρ c main_arg15 (by decide)).trans (e29_arg15 m ρ H c)
theorem e31_arg15 : W31 (F := Ideal) m ρ c (Proc.devRef .tc main_arg15) = m ((c : Thread nD τ).loc main_arg15) :=
  (W31_of m ρ c main_arg15 (by decide)).trans (e30_arg15 m ρ H c)
theorem e32_arg15 : W32 (F := Ideal) m ρ c (Proc.devRef .tc main_arg15) = m ((c : Thread nD τ).loc main_arg15) :=
  (W32_of m ρ c main_arg15 (by decide)).trans (e31_arg15 m ρ H c)
theorem e31_v191 : W31 (F := Ideal) m ρ c (Proc.devRef .tc main_v191) = Cert.Mlp.hostMlpM (F := Ideal) (aggAM (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a12 a13 a3) (w1_1_1 (F := Ideal) a6) (b1_1_1 (F := Ideal) a7) (w2_1_1 (F := Ideal) a8) (b2_1_1 (F := Ideal) a9) :=
  (W31_of m ρ c main_v191 (by decide)).trans (e30_v191 m ρ H c)
theorem e32_v191 : W32 (F := Ideal) m ρ c (Proc.devRef .tc main_v191) = Cert.Mlp.hostMlpM (F := Ideal) (aggAM (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a12 a13 a3) (w1_1_1 (F := Ideal) a6) (b1_1_1 (F := Ideal) a7) (w2_1_1 (F := Ideal) a8) (b2_1_1 (F := Ideal) a9) :=
  (W32_of m ρ c main_v191 (by decide)).trans (e31_v191 m ρ H c)
theorem e17_arg14 : W17 (F := Ideal) m ρ c (Proc.devRef .tc main_arg14) = m ((c : Thread nD τ).loc main_arg14) :=
  (W17_of m ρ c main_arg14 (by decide)).trans (e16_arg14 m ρ H c)
theorem e18_arg14 : W18 (F := Ideal) m ρ c (Proc.devRef .tc main_arg14) = m ((c : Thread nD τ).loc main_arg14) :=
  (W18_of m ρ c main_arg14 (by decide)).trans (e17_arg14 m ρ H c)
theorem e19_arg14 : W19 (F := Ideal) m ρ c (Proc.devRef .tc main_arg14) = m ((c : Thread nD τ).loc main_arg14) :=
  (W19_of m ρ c main_arg14 (by decide)).trans (e18_arg14 m ρ H c)
theorem e20_arg14 : W20 (F := Ideal) m ρ c (Proc.devRef .tc main_arg14) = m ((c : Thread nD τ).loc main_arg14) :=
  (W20_of m ρ c main_arg14 (by decide)).trans (e19_arg14 m ρ H c)
theorem e21_arg14 : W21 (F := Ideal) m ρ c (Proc.devRef .tc main_arg14) = m ((c : Thread nD τ).loc main_arg14) :=
  (W21_of m ρ c main_arg14 (by decide)).trans (e20_arg14 m ρ H c)
theorem e22_arg14 : W22 (F := Ideal) m ρ c (Proc.devRef .tc main_arg14) = m ((c : Thread nD τ).loc main_arg14) :=
  (W22_of m ρ c main_arg14 (by decide)).trans (e21_arg14 m ρ H c)
theorem e23_arg14 : W23 (F := Ideal) m ρ c (Proc.devRef .tc main_arg14) = m ((c : Thread nD τ).loc main_arg14) :=
  (W23_of m ρ c main_arg14 (by decide)).trans (e22_arg14 m ρ H c)
theorem e24_arg14 : W24 (F := Ideal) m ρ c (Proc.devRef .tc main_arg14) = m ((c : Thread nD τ).loc main_arg14) :=
  (W24_of m ρ c main_arg14 (by decide)).trans (e23_arg14 m ρ H c)
theorem e25_arg14 : W25 (F := Ideal) m ρ c (Proc.devRef .tc main_arg14) = m ((c : Thread nD τ).loc main_arg14) :=
  (W25_of m ρ c main_arg14 (by decide)).trans (e24_arg14 m ρ H c)
theorem e26_arg14 : W26 (F := Ideal) m ρ c (Proc.devRef .tc main_arg14) = m ((c : Thread nD τ).loc main_arg14) :=
  (W26_of m ρ c main_arg14 (by decide)).trans (e25_arg14 m ρ H c)
theorem e27_arg14 : W27 (F := Ideal) m ρ c (Proc.devRef .tc main_arg14) = m ((c : Thread nD τ).loc main_arg14) :=
  (W27_of m ρ c main_arg14 (by decide)).trans (e26_arg14 m ρ H c)
theorem e28_arg14 : W28 (F := Ideal) m ρ c (Proc.devRef .tc main_arg14) = m ((c : Thread nD τ).loc main_arg14) :=
  (W28_of m ρ c main_arg14 (by decide)).trans (e27_arg14 m ρ H c)
theorem e29_arg14 : W29 (F := Ideal) m ρ c (Proc.devRef .tc main_arg14) = m ((c : Thread nD τ).loc main_arg14) :=
  (W29_of m ρ c main_arg14 (by decide)).trans (e28_arg14 m ρ H c)
theorem e30_arg14 : W30 (F := Ideal) m ρ c (Proc.devRef .tc main_arg14) = m ((c : Thread nD τ).loc main_arg14) :=
  (W30_of m ρ c main_arg14 (by decide)).trans (e29_arg14 m ρ H c)
theorem e31_arg14 : W31 (F := Ideal) m ρ c (Proc.devRef .tc main_arg14) = m ((c : Thread nD τ).loc main_arg14) :=
  (W31_of m ρ c main_arg14 (by decide)).trans (e30_arg14 m ρ H c)
theorem e32_arg14 : W32 (F := Ideal) m ρ c (Proc.devRef .tc main_arg14) = m ((c : Thread nD τ).loc main_arg14) :=
  (W32_of m ρ c main_arg14 (by decide)).trans (e31_arg14 m ρ H c)
theorem e17_arg4 : W17 (F := Ideal) m ρ c (Proc.devRef .tc main_arg4) = m ((c : Thread nD τ).loc main_arg4) :=
  (W17_of m ρ c main_arg4 (by decide)).trans (e16_arg4 m ρ H c)
theorem e18_arg4 : W18 (F := Ideal) m ρ c (Proc.devRef .tc main_arg4) = m ((c : Thread nD τ).loc main_arg4) :=
  (W18_of m ρ c main_arg4 (by decide)).trans (e17_arg4 m ρ H c)
theorem e19_arg4 : W19 (F := Ideal) m ρ c (Proc.devRef .tc main_arg4) = m ((c : Thread nD τ).loc main_arg4) :=
  (W19_of m ρ c main_arg4 (by decide)).trans (e18_arg4 m ρ H c)
theorem e20_arg4 : W20 (F := Ideal) m ρ c (Proc.devRef .tc main_arg4) = m ((c : Thread nD τ).loc main_arg4) :=
  (W20_of m ρ c main_arg4 (by decide)).trans (e19_arg4 m ρ H c)
theorem e21_arg4 : W21 (F := Ideal) m ρ c (Proc.devRef .tc main_arg4) = m ((c : Thread nD τ).loc main_arg4) :=
  (W21_of m ρ c main_arg4 (by decide)).trans (e20_arg4 m ρ H c)
theorem e22_arg4 : W22 (F := Ideal) m ρ c (Proc.devRef .tc main_arg4) = m ((c : Thread nD τ).loc main_arg4) :=
  (W22_of m ρ c main_arg4 (by decide)).trans (e21_arg4 m ρ H c)
theorem e23_arg4 : W23 (F := Ideal) m ρ c (Proc.devRef .tc main_arg4) = m ((c : Thread nD τ).loc main_arg4) :=
  (W23_of m ρ c main_arg4 (by decide)).trans (e22_arg4 m ρ H c)
theorem e24_arg4 : W24 (F := Ideal) m ρ c (Proc.devRef .tc main_arg4) = m ((c : Thread nD τ).loc main_arg4) :=
  (W24_of m ρ c main_arg4 (by decide)).trans (e23_arg4 m ρ H c)
theorem e25_arg4 : W25 (F := Ideal) m ρ c (Proc.devRef .tc main_arg4) = m ((c : Thread nD τ).loc main_arg4) :=
  (W25_of m ρ c main_arg4 (by decide)).trans (e24_arg4 m ρ H c)
theorem e26_arg4 : W26 (F := Ideal) m ρ c (Proc.devRef .tc main_arg4) = m ((c : Thread nD τ).loc main_arg4) :=
  (W26_of m ρ c main_arg4 (by decide)).trans (e25_arg4 m ρ H c)
theorem e27_arg4 : W27 (F := Ideal) m ρ c (Proc.devRef .tc main_arg4) = m ((c : Thread nD τ).loc main_arg4) :=
  (W27_of m ρ c main_arg4 (by decide)).trans (e26_arg4 m ρ H c)
theorem e28_arg4 : W28 (F := Ideal) m ρ c (Proc.devRef .tc main_arg4) = m ((c : Thread nD τ).loc main_arg4) :=
  (W28_of m ρ c main_arg4 (by decide)).trans (e27_arg4 m ρ H c)
theorem e29_arg4 : W29 (F := Ideal) m ρ c (Proc.devRef .tc main_arg4) = m ((c : Thread nD τ).loc main_arg4) :=
  (W29_of m ρ c main_arg4 (by decide)).trans (e28_arg4 m ρ H c)
theorem e30_arg4 : W30 (F := Ideal) m ρ c (Proc.devRef .tc main_arg4) = m ((c : Thread nD τ).loc main_arg4) :=
  (W30_of m ρ c main_arg4 (by decide)).trans (e29_arg4 m ρ H c)
theorem e31_arg4 : W31 (F := Ideal) m ρ c (Proc.devRef .tc main_arg4) = m ((c : Thread nD τ).loc main_arg4) :=
  (W31_of m ρ c main_arg4 (by decide)).trans (e30_arg4 m ρ H c)
theorem e32_arg4 : W32 (F := Ideal) m ρ c (Proc.devRef .tc main_arg4) = m ((c : Thread nD τ).loc main_arg4) :=
  (W32_of m ρ c main_arg4 (by decide)).trans (e31_arg4 m ρ H c)
theorem e17_arg13 : W17 (F := Ideal) m ρ c (Proc.devRef .tc main_arg13) = m ((c : Thread nD τ).loc main_arg13) :=
  (W17_of m ρ c main_arg13 (by decide)).trans (e16_arg13 m ρ H c)
theorem e18_arg13 : W18 (F := Ideal) m ρ c (Proc.devRef .tc main_arg13) = m ((c : Thread nD τ).loc main_arg13) :=
  (W18_of m ρ c main_arg13 (by decide)).trans (e17_arg13 m ρ H c)
theorem e19_arg13 : W19 (F := Ideal) m ρ c (Proc.devRef .tc main_arg13) = m ((c : Thread nD τ).loc main_arg13) :=
  (W19_of m ρ c main_arg13 (by decide)).trans (e18_arg13 m ρ H c)
theorem e20_arg13 : W20 (F := Ideal) m ρ c (Proc.devRef .tc main_arg13) = m ((c : Thread nD τ).loc main_arg13) :=
  (W20_of m ρ c main_arg13 (by decide)).trans (e19_arg13 m ρ H c)
theorem e21_arg13 : W21 (F := Ideal) m ρ c (Proc.devRef .tc main_arg13) = m ((c : Thread nD τ).loc main_arg13) :=
  (W21_of m ρ c main_arg13 (by decide)).trans (e20_arg13 m ρ H c)
theorem e22_arg13 : W22 (F := Ideal) m ρ c (Proc.devRef .tc main_arg13) = m ((c : Thread nD τ).loc main_arg13) :=
  (W22_of m ρ c main_arg13 (by decide)).trans (e21_arg13 m ρ H c)
theorem e23_arg13 : W23 (F := Ideal) m ρ c (Proc.devRef .tc main_arg13) = m ((c : Thread nD τ).loc main_arg13) :=
  (W23_of m ρ c main_arg13 (by decide)).trans (e22_arg13 m ρ H c)
theorem e24_arg13 : W24 (F := Ideal) m ρ c (Proc.devRef .tc main_arg13) = m ((c : Thread nD τ).loc main_arg13) :=
  (W24_of m ρ c main_arg13 (by decide)).trans (e23_arg13 m ρ H c)
theorem e25_arg13 : W25 (F := Ideal) m ρ c (Proc.devRef .tc main_arg13) = m ((c : Thread nD τ).loc main_arg13) :=
  (W25_of m ρ c main_arg13 (by decide)).trans (e24_arg13 m ρ H c)
theorem e26_arg13 : W26 (F := Ideal) m ρ c (Proc.devRef .tc main_arg13) = m ((c : Thread nD τ).loc main_arg13) :=
  (W26_of m ρ c main_arg13 (by decide)).trans (e25_arg13 m ρ H c)
theorem e27_arg13 : W27 (F := Ideal) m ρ c (Proc.devRef .tc main_arg13) = m ((c : Thread nD τ).loc main_arg13) :=
  (W27_of m ρ c main_arg13 (by decide)).trans (e26_arg13 m ρ H c)
theorem e28_arg13 : W28 (F := Ideal) m ρ c (Proc.devRef .tc main_arg13) = m ((c : Thread nD τ).loc main_arg13) :=
  (W28_of m ρ c main_arg13 (by decide)).trans (e27_arg13 m ρ H c)
theorem e29_arg13 : W29 (F := Ideal) m ρ c (Proc.devRef .tc main_arg13) = m ((c : Thread nD τ).loc main_arg13) :=
  (W29_of m ρ c main_arg13 (by decide)).trans (e28_arg13 m ρ H c)
theorem e30_arg13 : W30 (F := Ideal) m ρ c (Proc.devRef .tc main_arg13) = m ((c : Thread nD τ).loc main_arg13) :=
  (W30_of m ρ c main_arg13 (by decide)).trans (e29_arg13 m ρ H c)
theorem e31_arg13 : W31 (F := Ideal) m ρ c (Proc.devRef .tc main_arg13) = m ((c : Thread nD τ).loc main_arg13) :=
  (W31_of m ρ c main_arg13 (by decide)).trans (e30_arg13 m ρ H c)
theorem e32_arg13 : W32 (F := Ideal) m ρ c (Proc.devRef .tc main_arg13) = m ((c : Thread nD τ).loc main_arg13) :=
  (W32_of m ρ c main_arg13 (by decide)).trans (e31_arg13 m ρ H c)
theorem e17_arg12 : W17 (F := Ideal) m ρ c (Proc.devRef .tc main_arg12) = m ((c : Thread nD τ).loc main_arg12) :=
  (W17_of m ρ c main_arg12 (by decide)).trans (e16_arg12 m ρ H c)
theorem e18_arg12 : W18 (F := Ideal) m ρ c (Proc.devRef .tc main_arg12) = m ((c : Thread nD τ).loc main_arg12) :=
  (W18_of m ρ c main_arg12 (by decide)).trans (e17_arg12 m ρ H c)
theorem e19_arg12 : W19 (F := Ideal) m ρ c (Proc.devRef .tc main_arg12) = m ((c : Thread nD τ).loc main_arg12) :=
  (W19_of m ρ c main_arg12 (by decide)).trans (e18_arg12 m ρ H c)
theorem e20_arg12 : W20 (F := Ideal) m ρ c (Proc.devRef .tc main_arg12) = m ((c : Thread nD τ).loc main_arg12) :=
  (W20_of m ρ c main_arg12 (by decide)).trans (e19_arg12 m ρ H c)
theorem e21_arg12 : W21 (F := Ideal) m ρ c (Proc.devRef .tc main_arg12) = m ((c : Thread nD τ).loc main_arg12) :=
  (W21_of m ρ c main_arg12 (by decide)).trans (e20_arg12 m ρ H c)
theorem e22_arg12 : W22 (F := Ideal) m ρ c (Proc.devRef .tc main_arg12) = m ((c : Thread nD τ).loc main_arg12) :=
  (W22_of m ρ c main_arg12 (by decide)).trans (e21_arg12 m ρ H c)
theorem e23_arg12 : W23 (F := Ideal) m ρ c (Proc.devRef .tc main_arg12) = m ((c : Thread nD τ).loc main_arg12) :=
  (W23_of m ρ c main_arg12 (by decide)).trans (e22_arg12 m ρ H c)
theorem e24_arg12 : W24 (F := Ideal) m ρ c (Proc.devRef .tc main_arg12) = m ((c : Thread nD τ).loc main_arg12) :=
  (W24_of m ρ c main_arg12 (by decide)).trans (e23_arg12 m ρ H c)
theorem e25_arg12 : W25 (F := Ideal) m ρ c (Proc.devRef .tc main_arg12) = m ((c : Thread nD τ).loc main_arg12) :=
  (W25_of m ρ c main_arg12 (by decide)).trans (e24_arg12 m ρ H c)
theorem e26_arg12 : W26 (F := Ideal) m ρ c (Proc.devRef .tc main_arg12) = m ((c : Thread nD τ).loc main_arg12) :=
  (W26_of m ρ c main_arg12 (by decide)).trans (e25_arg12 m ρ H c)
theorem e27_arg12 : W27 (F := Ideal) m ρ c (Proc.devRef .tc main_arg12) = m ((c : Thread nD τ).loc main_arg12) :=
  (W27_of m ρ c main_arg12 (by decide)).trans (e26_arg12 m ρ H c)
theorem e28_arg12 : W28 (F := Ideal) m ρ c (Proc.devRef .tc main_arg12) = m ((c : Thread nD τ).loc main_arg12) :=
  (W28_of m ρ c main_arg12 (by decide)).trans (e27_arg12 m ρ H c)
theorem e29_arg12 : W29 (F := Ideal) m ρ c (Proc.devRef .tc main_arg12) = m ((c : Thread nD τ).loc main_arg12) :=
  (W29_of m ρ c main_arg12 (by decide)).trans (e28_arg12 m ρ H c)
theorem e30_arg12 : W30 (F := Ideal) m ρ c (Proc.devRef .tc main_arg12) = m ((c : Thread nD τ).loc main_arg12) :=
  (W30_of m ρ c main_arg12 (by decide)).trans (e29_arg12 m ρ H c)
theorem e31_arg12 : W31 (F := Ideal) m ρ c (Proc.devRef .tc main_arg12) = m ((c : Thread nD τ).loc main_arg12) :=
  (W31_of m ρ c main_arg12 (by decide)).trans (e30_arg12 m ρ H c)
theorem e32_arg12 : W32 (F := Ideal) m ρ c (Proc.devRef .tc main_arg12) = m ((c : Thread nD τ).loc main_arg12) :=
  (W32_of m ρ c main_arg12 (by decide)).trans (e31_arg12 m ρ H c)
theorem e17_arg3 : W17 (F := Ideal) m ρ c (Proc.devRef .tc main_arg3) = m ((c : Thread nD τ).loc main_arg3) :=
  (W17_of m ρ c main_arg3 (by decide)).trans (e16_arg3 m ρ H c)
theorem e18_arg3 : W18 (F := Ideal) m ρ c (Proc.devRef .tc main_arg3) = m ((c : Thread nD τ).loc main_arg3) :=
  (W18_of m ρ c main_arg3 (by decide)).trans (e17_arg3 m ρ H c)
theorem e19_arg3 : W19 (F := Ideal) m ρ c (Proc.devRef .tc main_arg3) = m ((c : Thread nD τ).loc main_arg3) :=
  (W19_of m ρ c main_arg3 (by decide)).trans (e18_arg3 m ρ H c)
theorem e20_arg3 : W20 (F := Ideal) m ρ c (Proc.devRef .tc main_arg3) = m ((c : Thread nD τ).loc main_arg3) :=
  (W20_of m ρ c main_arg3 (by decide)).trans (e19_arg3 m ρ H c)
theorem e21_arg3 : W21 (F := Ideal) m ρ c (Proc.devRef .tc main_arg3) = m ((c : Thread nD τ).loc main_arg3) :=
  (W21_of m ρ c main_arg3 (by decide)).trans (e20_arg3 m ρ H c)
theorem e22_arg3 : W22 (F := Ideal) m ρ c (Proc.devRef .tc main_arg3) = m ((c : Thread nD τ).loc main_arg3) :=
  (W22_of m ρ c main_arg3 (by decide)).trans (e21_arg3 m ρ H c)
theorem e23_arg3 : W23 (F := Ideal) m ρ c (Proc.devRef .tc main_arg3) = m ((c : Thread nD τ).loc main_arg3) :=
  (W23_of m ρ c main_arg3 (by decide)).trans (e22_arg3 m ρ H c)
theorem e24_arg3 : W24 (F := Ideal) m ρ c (Proc.devRef .tc main_arg3) = m ((c : Thread nD τ).loc main_arg3) :=
  (W24_of m ρ c main_arg3 (by decide)).trans (e23_arg3 m ρ H c)
theorem e25_arg3 : W25 (F := Ideal) m ρ c (Proc.devRef .tc main_arg3) = m ((c : Thread nD τ).loc main_arg3) :=
  (W25_of m ρ c main_arg3 (by decide)).trans (e24_arg3 m ρ H c)
theorem e26_arg3 : W26 (F := Ideal) m ρ c (Proc.devRef .tc main_arg3) = m ((c : Thread nD τ).loc main_arg3) :=
  (W26_of m ρ c main_arg3 (by decide)).trans (e25_arg3 m ρ H c)
theorem e27_arg3 : W27 (F := Ideal) m ρ c (Proc.devRef .tc main_arg3) = m ((c : Thread nD τ).loc main_arg3) :=
  (W27_of m ρ c main_arg3 (by decide)).trans (e26_arg3 m ρ H c)
theorem e28_arg3 : W28 (F := Ideal) m ρ c (Proc.devRef .tc main_arg3) = m ((c : Thread nD τ).loc main_arg3) :=
  (W28_of m ρ c main_arg3 (by decide)).trans (e27_arg3 m ρ H c)
theorem e29_arg3 : W29 (F := Ideal) m ρ c (Proc.devRef .tc main_arg3) = m ((c : Thread nD τ).loc main_arg3) :=
  (W29_of m ρ c main_arg3 (by decide)).trans (e28_arg3 m ρ H c)
theorem e30_arg3 : W30 (F := Ideal) m ρ c (Proc.devRef .tc main_arg3) = m ((c : Thread nD τ).loc main_arg3) :=
  (W30_of m ρ c main_arg3 (by decide)).trans (e29_arg3 m ρ H c)
theorem e31_arg3 : W31 (F := Ideal) m ρ c (Proc.devRef .tc main_arg3) = m ((c : Thread nD τ).loc main_arg3) :=
  (W31_of m ρ c main_arg3 (by decide)).trans (e30_arg3 m ρ H c)
theorem e32_arg3 : W32 (F := Ideal) m ρ c (Proc.devRef .tc main_arg3) = m ((c : Thread nD τ).loc main_arg3) :=
  (W32_of m ρ c main_arg3 (by decide)).trans (e31_arg3 m ρ H c)
theorem e17_arg11 : W17 (F := Ideal) m ρ c (Proc.devRef .tc main_arg11) = m ((c : Thread nD τ).loc main_arg11) :=
  (W17_of m ρ c main_arg11 (by decide)).trans (e16_arg11 m ρ H c)
theorem e18_arg11 : W18 (F := Ideal) m ρ c (Proc.devRef .tc main_arg11) = m ((c : Thread nD τ).loc main_arg11) :=
  (W18_of m ρ c main_arg11 (by decide)).trans (e17_arg11 m ρ H c)
theorem e19_arg11 : W19 (F := Ideal) m ρ c (Proc.devRef .tc main_arg11) = m ((c : Thread nD τ).loc main_arg11) :=
  (W19_of m ρ c main_arg11 (by decide)).trans (e18_arg11 m ρ H c)
theorem e20_arg11 : W20 (F := Ideal) m ρ c (Proc.devRef .tc main_arg11) = m ((c : Thread nD τ).loc main_arg11) :=
  (W20_of m ρ c main_arg11 (by decide)).trans (e19_arg11 m ρ H c)
theorem e21_arg11 : W21 (F := Ideal) m ρ c (Proc.devRef .tc main_arg11) = m ((c : Thread nD τ).loc main_arg11) :=
  (W21_of m ρ c main_arg11 (by decide)).trans (e20_arg11 m ρ H c)
theorem e22_arg11 : W22 (F := Ideal) m ρ c (Proc.devRef .tc main_arg11) = m ((c : Thread nD τ).loc main_arg11) :=
  (W22_of m ρ c main_arg11 (by decide)).trans (e21_arg11 m ρ H c)
theorem e23_arg11 : W23 (F := Ideal) m ρ c (Proc.devRef .tc main_arg11) = m ((c : Thread nD τ).loc main_arg11) :=
  (W23_of m ρ c main_arg11 (by decide)).trans (e22_arg11 m ρ H c)
theorem e24_arg11 : W24 (F := Ideal) m ρ c (Proc.devRef .tc main_arg11) = m ((c : Thread nD τ).loc main_arg11) :=
  (W24_of m ρ c main_arg11 (by decide)).trans (e23_arg11 m ρ H c)
theorem e25_arg11 : W25 (F := Ideal) m ρ c (Proc.devRef .tc main_arg11) = m ((c : Thread nD τ).loc main_arg11) :=
  (W25_of m ρ c main_arg11 (by decide)).trans (e24_arg11 m ρ H c)
theorem e26_arg11 : W26 (F := Ideal) m ρ c (Proc.devRef .tc main_arg11) = m ((c : Thread nD τ).loc main_arg11) :=
  (W26_of m ρ c main_arg11 (by decide)).trans (e25_arg11 m ρ H c)
theorem e27_arg11 : W27 (F := Ideal) m ρ c (Proc.devRef .tc main_arg11) = m ((c : Thread nD τ).loc main_arg11) :=
  (W27_of m ρ c main_arg11 (by decide)).trans (e26_arg11 m ρ H c)
theorem e28_arg11 : W28 (F := Ideal) m ρ c (Proc.devRef .tc main_arg11) = m ((c : Thread nD τ).loc main_arg11) :=
  (W28_of m ρ c main_arg11 (by decide)).trans (e27_arg11 m ρ H c)
theorem e29_arg11 : W29 (F := Ideal) m ρ c (Proc.devRef .tc main_arg11) = m ((c : Thread nD τ).loc main_arg11) :=
  (W29_of m ρ c main_arg11 (by decide)).trans (e28_arg11 m ρ H c)
theorem e30_arg11 : W30 (F := Ideal) m ρ c (Proc.devRef .tc main_arg11) = m ((c : Thread nD τ).loc main_arg11) :=
  (W30_of m ρ c main_arg11 (by decide)).trans (e29_arg11 m ρ H c)
theorem e31_arg11 : W31 (F := Ideal) m ρ c (Proc.devRef .tc main_arg11) = m ((c : Thread nD τ).loc main_arg11) :=
  (W31_of m ρ c main_arg11 (by decide)).trans (e30_arg11 m ρ H c)
theorem e32_arg11 : W32 (F := Ideal) m ρ c (Proc.devRef .tc main_arg11) = m ((c : Thread nD τ).loc main_arg11) :=
  (W32_of m ρ c main_arg11 (by decide)).trans (e31_arg11 m ρ H c)
theorem e17_arg5 : W17 (F := Ideal) m ρ c (Proc.devRef .tc main_arg5) = m ((c : Thread nD τ).loc main_arg5) :=
  (W17_of m ρ c main_arg5 (by decide)).trans (e16_arg5 m ρ H c)
theorem e18_arg5 : W18 (F := Ideal) m ρ c (Proc.devRef .tc main_arg5) = m ((c : Thread nD τ).loc main_arg5) :=
  (W18_of m ρ c main_arg5 (by decide)).trans (e17_arg5 m ρ H c)
theorem e19_arg5 : W19 (F := Ideal) m ρ c (Proc.devRef .tc main_arg5) = m ((c : Thread nD τ).loc main_arg5) :=
  (W19_of m ρ c main_arg5 (by decide)).trans (e18_arg5 m ρ H c)
theorem e20_arg5 : W20 (F := Ideal) m ρ c (Proc.devRef .tc main_arg5) = m ((c : Thread nD τ).loc main_arg5) :=
  (W20_of m ρ c main_arg5 (by decide)).trans (e19_arg5 m ρ H c)
theorem e21_arg5 : W21 (F := Ideal) m ρ c (Proc.devRef .tc main_arg5) = m ((c : Thread nD τ).loc main_arg5) :=
  (W21_of m ρ c main_arg5 (by decide)).trans (e20_arg5 m ρ H c)
theorem e22_arg5 : W22 (F := Ideal) m ρ c (Proc.devRef .tc main_arg5) = m ((c : Thread nD τ).loc main_arg5) :=
  (W22_of m ρ c main_arg5 (by decide)).trans (e21_arg5 m ρ H c)
theorem e23_arg5 : W23 (F := Ideal) m ρ c (Proc.devRef .tc main_arg5) = m ((c : Thread nD τ).loc main_arg5) :=
  (W23_of m ρ c main_arg5 (by decide)).trans (e22_arg5 m ρ H c)
theorem e24_arg5 : W24 (F := Ideal) m ρ c (Proc.devRef .tc main_arg5) = m ((c : Thread nD τ).loc main_arg5) :=
  (W24_of m ρ c main_arg5 (by decide)).trans (e23_arg5 m ρ H c)
theorem e25_arg5 : W25 (F := Ideal) m ρ c (Proc.devRef .tc main_arg5) = m ((c : Thread nD τ).loc main_arg5) :=
  (W25_of m ρ c main_arg5 (by decide)).trans (e24_arg5 m ρ H c)
theorem e26_arg5 : W26 (F := Ideal) m ρ c (Proc.devRef .tc main_arg5) = m ((c : Thread nD τ).loc main_arg5) :=
  (W26_of m ρ c main_arg5 (by decide)).trans (e25_arg5 m ρ H c)
theorem e27_arg5 : W27 (F := Ideal) m ρ c (Proc.devRef .tc main_arg5) = m ((c : Thread nD τ).loc main_arg5) :=
  (W27_of m ρ c main_arg5 (by decide)).trans (e26_arg5 m ρ H c)
theorem e28_arg5 : W28 (F := Ideal) m ρ c (Proc.devRef .tc main_arg5) = m ((c : Thread nD τ).loc main_arg5) :=
  (W28_of m ρ c main_arg5 (by decide)).trans (e27_arg5 m ρ H c)
theorem e29_arg5 : W29 (F := Ideal) m ρ c (Proc.devRef .tc main_arg5) = m ((c : Thread nD τ).loc main_arg5) :=
  (W29_of m ρ c main_arg5 (by decide)).trans (e28_arg5 m ρ H c)
theorem e30_arg5 : W30 (F := Ideal) m ρ c (Proc.devRef .tc main_arg5) = m ((c : Thread nD τ).loc main_arg5) :=
  (W30_of m ρ c main_arg5 (by decide)).trans (e29_arg5 m ρ H c)
theorem e31_arg5 : W31 (F := Ideal) m ρ c (Proc.devRef .tc main_arg5) = m ((c : Thread nD τ).loc main_arg5) :=
  (W31_of m ρ c main_arg5 (by decide)).trans (e30_arg5 m ρ H c)
theorem e32_arg5 : W32 (F := Ideal) m ρ c (Proc.devRef .tc main_arg5) = m ((c : Thread nD τ).loc main_arg5) :=
  (W32_of m ρ c main_arg5 (by decide)).trans (e31_arg5 m ρ H c)
theorem e17_v104 : W17 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 := by
  show StableHlo.after hostOps4 (W16 (F := Ideal) m ρ c) (Proc.devRef .tc main_v104) = _
  after_results_simp
  rw [e16_arg16 m ρ H c, e16_v68 m ρ H c, e16_v77 m ρ H c, e16_arg17 m ρ H c, e16_v86 m ρ H c, e16_v95 m ρ H c]
  rfl
theorem e18_v104 : W18 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W18_of m ρ c main_v104 (by decide)).trans (e17_v104 m ρ H c)
theorem e19_v104 : W19 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W19_of m ρ c main_v104 (by decide)).trans (e18_v104 m ρ H c)
theorem e20_v104 : W20 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W20_of m ρ c main_v104 (by decide)).trans (e19_v104 m ρ H c)
theorem e21_v104 : W21 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W21_of m ρ c main_v104 (by decide)).trans (e20_v104 m ρ H c)
theorem e22_v104 : W22 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W22_of m ρ c main_v104 (by decide)).trans (e21_v104 m ρ H c)
theorem e23_v104 : W23 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W23_of m ρ c main_v104 (by decide)).trans (e22_v104 m ρ H c)
theorem e24_v104 : W24 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W24_of m ρ c main_v104 (by decide)).trans (e23_v104 m ρ H c)
theorem e25_v104 : W25 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W25_of m ρ c main_v104 (by decide)).trans (e24_v104 m ρ H c)
theorem e26_v104 : W26 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W26_of m ρ c main_v104 (by decide)).trans (e25_v104 m ρ H c)
theorem e27_v104 : W27 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W27_of m ρ c main_v104 (by decide)).trans (e26_v104 m ρ H c)
theorem e28_v104 : W28 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W28_of m ρ c main_v104 (by decide)).trans (e27_v104 m ρ H c)
theorem e29_v104 : W29 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W29_of m ρ c main_v104 (by decide)).trans (e28_v104 m ρ H c)
theorem e30_v104 : W30 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W30_of m ρ c main_v104 (by decide)).trans (e29_v104 m ρ H c)
theorem e31_v104 : W31 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W31_of m ρ c main_v104 (by decide)).trans (e30_v104 m ρ H c)
theorem e32_v104 : W32 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W32_of m ρ c main_v104 (by decide)).trans (e31_v104 m ρ H c)
theorem e17_arg16 : W17 (F := Ideal) m ρ c (Proc.devRef .tc main_arg16) = m ((c : Thread nD τ).loc main_arg16) :=
  (W17_of m ρ c main_arg16 (by decide)).trans (e16_arg16 m ρ H c)
theorem e18_arg16 : W18 (F := Ideal) m ρ c (Proc.devRef .tc main_arg16) = m ((c : Thread nD τ).loc main_arg16) :=
  (W18_of m ρ c main_arg16 (by decide)).trans (e17_arg16 m ρ H c)
theorem e19_arg16 : W19 (F := Ideal) m ρ c (Proc.devRef .tc main_arg16) = m ((c : Thread nD τ).loc main_arg16) :=
  (W19_of m ρ c main_arg16 (by decide)).trans (e18_arg16 m ρ H c)
theorem e20_arg16 : W20 (F := Ideal) m ρ c (Proc.devRef .tc main_arg16) = m ((c : Thread nD τ).loc main_arg16) :=
  (W20_of m ρ c main_arg16 (by decide)).trans (e19_arg16 m ρ H c)
theorem e21_arg16 : W21 (F := Ideal) m ρ c (Proc.devRef .tc main_arg16) = m ((c : Thread nD τ).loc main_arg16) :=
  (W21_of m ρ c main_arg16 (by decide)).trans (e20_arg16 m ρ H c)
theorem e22_arg16 : W22 (F := Ideal) m ρ c (Proc.devRef .tc main_arg16) = m ((c : Thread nD τ).loc main_arg16) :=
  (W22_of m ρ c main_arg16 (by decide)).trans (e21_arg16 m ρ H c)
theorem e23_arg16 : W23 (F := Ideal) m ρ c (Proc.devRef .tc main_arg16) = m ((c : Thread nD τ).loc main_arg16) :=
  (W23_of m ρ c main_arg16 (by decide)).trans (e22_arg16 m ρ H c)
theorem e24_arg16 : W24 (F := Ideal) m ρ c (Proc.devRef .tc main_arg16) = m ((c : Thread nD τ).loc main_arg16) :=
  (W24_of m ρ c main_arg16 (by decide)).trans (e23_arg16 m ρ H c)
theorem e25_arg16 : W25 (F := Ideal) m ρ c (Proc.devRef .tc main_arg16) = m ((c : Thread nD τ).loc main_arg16) :=
  (W25_of m ρ c main_arg16 (by decide)).trans (e24_arg16 m ρ H c)
theorem e26_arg16 : W26 (F := Ideal) m ρ c (Proc.devRef .tc main_arg16) = m ((c : Thread nD τ).loc main_arg16) :=
  (W26_of m ρ c main_arg16 (by decide)).trans (e25_arg16 m ρ H c)
theorem e27_arg16 : W27 (F := Ideal) m ρ c (Proc.devRef .tc main_arg16) = m ((c : Thread nD τ).loc main_arg16) :=
  (W27_of m ρ c main_arg16 (by decide)).trans (e26_arg16 m ρ H c)
theorem e28_arg16 : W28 (F := Ideal) m ρ c (Proc.devRef .tc main_arg16) = m ((c : Thread nD τ).loc main_arg16) :=
  (W28_of m ρ c main_arg16 (by decide)).trans (e27_arg16 m ρ H c)
theorem e29_arg16 : W29 (F := Ideal) m ρ c (Proc.devRef .tc main_arg16) = m ((c : Thread nD τ).loc main_arg16) :=
  (W29_of m ρ c main_arg16 (by decide)).trans (e28_arg16 m ρ H c)
theorem e30_arg16 : W30 (F := Ideal) m ρ c (Proc.devRef .tc main_arg16) = m ((c : Thread nD τ).loc main_arg16) :=
  (W30_of m ρ c main_arg16 (by decide)).trans (e29_arg16 m ρ H c)
theorem e31_arg16 : W31 (F := Ideal) m ρ c (Proc.devRef .tc main_arg16) = m ((c : Thread nD τ).loc main_arg16) :=
  (W31_of m ρ c main_arg16 (by decide)).trans (e30_arg16 m ρ H c)
theorem e32_arg16 : W32 (F := Ideal) m ρ c (Proc.devRef .tc main_arg16) = m ((c : Thread nD τ).loc main_arg16) :=
  (W32_of m ρ c main_arg16 (by decide)).trans (e31_arg16 m ρ H c)
theorem e17_arg17 : W17 (F := Ideal) m ρ c (Proc.devRef .tc main_arg17) = m ((c : Thread nD τ).loc main_arg17) :=
  (W17_of m ρ c main_arg17 (by decide)).trans (e16_arg17 m ρ H c)
theorem e18_arg17 : W18 (F := Ideal) m ρ c (Proc.devRef .tc main_arg17) = m ((c : Thread nD τ).loc main_arg17) :=
  (W18_of m ρ c main_arg17 (by decide)).trans (e17_arg17 m ρ H c)
theorem e19_arg17 : W19 (F := Ideal) m ρ c (Proc.devRef .tc main_arg17) = m ((c : Thread nD τ).loc main_arg17) :=
  (W19_of m ρ c main_arg17 (by decide)).trans (e18_arg17 m ρ H c)
theorem e20_arg17 : W20 (F := Ideal) m ρ c (Proc.devRef .tc main_arg17) = m ((c : Thread nD τ).loc main_arg17) :=
  (W20_of m ρ c main_arg17 (by decide)).trans (e19_arg17 m ρ H c)
theorem e21_arg17 : W21 (F := Ideal) m ρ c (Proc.devRef .tc main_arg17) = m ((c : Thread nD τ).loc main_arg17) :=
  (W21_of m ρ c main_arg17 (by decide)).trans (e20_arg17 m ρ H c)
theorem e22_arg17 : W22 (F := Ideal) m ρ c (Proc.devRef .tc main_arg17) = m ((c : Thread nD τ).loc main_arg17) :=
  (W22_of m ρ c main_arg17 (by decide)).trans (e21_arg17 m ρ H c)
theorem e23_arg17 : W23 (F := Ideal) m ρ c (Proc.devRef .tc main_arg17) = m ((c : Thread nD τ).loc main_arg17) :=
  (W23_of m ρ c main_arg17 (by decide)).trans (e22_arg17 m ρ H c)
theorem e24_arg17 : W24 (F := Ideal) m ρ c (Proc.devRef .tc main_arg17) = m ((c : Thread nD τ).loc main_arg17) :=
  (W24_of m ρ c main_arg17 (by decide)).trans (e23_arg17 m ρ H c)
theorem e25_arg17 : W25 (F := Ideal) m ρ c (Proc.devRef .tc main_arg17) = m ((c : Thread nD τ).loc main_arg17) :=
  (W25_of m ρ c main_arg17 (by decide)).trans (e24_arg17 m ρ H c)
theorem e26_arg17 : W26 (F := Ideal) m ρ c (Proc.devRef .tc main_arg17) = m ((c : Thread nD τ).loc main_arg17) :=
  (W26_of m ρ c main_arg17 (by decide)).trans (e25_arg17 m ρ H c)
theorem e27_arg17 : W27 (F := Ideal) m ρ c (Proc.devRef .tc main_arg17) = m ((c : Thread nD τ).loc main_arg17) :=
  (W27_of m ρ c main_arg17 (by decide)).trans (e26_arg17 m ρ H c)
theorem e28_arg17 : W28 (F := Ideal) m ρ c (Proc.devRef .tc main_arg17) = m ((c : Thread nD τ).loc main_arg17) :=
  (W28_of m ρ c main_arg17 (by decide)).trans (e27_arg17 m ρ H c)
theorem e29_arg17 : W29 (F := Ideal) m ρ c (Proc.devRef .tc main_arg17) = m ((c : Thread nD τ).loc main_arg17) :=
  (W29_of m ρ c main_arg17 (by decide)).trans (e28_arg17 m ρ H c)
theorem e30_arg17 : W30 (F := Ideal) m ρ c (Proc.devRef .tc main_arg17) = m ((c : Thread nD τ).loc main_arg17) :=
  (W30_of m ρ c main_arg17 (by decide)).trans (e29_arg17 m ρ H c)
theorem e31_arg17 : W31 (F := Ideal) m ρ c (Proc.devRef .tc main_arg17) = m ((c : Thread nD τ).loc main_arg17) :=
  (W31_of m ρ c main_arg17 (by decide)).trans (e30_arg17 m ρ H c)
theorem e32_arg17 : W32 (F := Ideal) m ρ c (Proc.devRef .tc main_arg17) = m ((c : Thread nD τ).loc main_arg17) :=
  (W32_of m ρ c main_arg17 (by decide)).trans (e31_arg17 m ρ H c)

end Cert.HostChain

end
-- ==== Proof.HC.Ker3.lean ====
/-
  The kernel program's buffers through its third layer (items 32 to 47), as terms of the arguments.
-/
import proofs.«171333_j58007828300388_1_alg».proof.Proof.HC.Ker2

set_option maxRecDepth 16384

noncomputable section

namespace Cert.HostChain

open Cert.KernelIdeal Cert.KernelIdeal.Gen Cert.KernelIdeal.Fr
open Idealize.ShloMosaic Idealize.ShloMosaic.TcCoe Idealize.SL.Sem Idealize.ShloMosaic.StableHlo

variable [Cert.ReferenceIdeal.Facts₀]

set_option maxHeartbeats 4000000

variable (m : (ℓ : Loc nD τ sig) → Buf (Elt Ideal) ℓ) (ρ : Dev nD → PrngReg) (H : RegionMlp m ρ) (c : Dev nD)
include H

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)
local notation "a17" => m ((c : Thread nD τ).loc main_arg17)

theorem e35_v226 : W35 (F := Ideal) m ρ c (Proc.devRef .tc main_v226) = aggAA (F := Ideal) (xa2 (F := Ideal) a0 a1 a2 a3 a4 a5 a6 a7 a8 a9 a10 a11 a12 a13 a14 a15) (srcAA a10) (dstAA a10) a2 := by
  show StableHlo.after hostOps8_2 (W34 (F := Ideal) m ρ c) (Proc.devRef .tc main_v226) = _
  after_results_simp
  rw [e32_arg10 m ρ H c, e32_v173 m ρ H c, e32_v182 m ρ H c, e32_arg2 m ρ H c]
  rfl
theorem e36_v226 : W36 (F := Ideal) m ρ c (Proc.devRef .tc main_v226) = aggAA (F := Ideal) (xa2 (F := Ideal) a0 a1 a2 a3 a4 a5 a6 a7 a8 a9 a10 a11 a12 a13 a14 a15) (srcAA a10) (dstAA a10) a2 :=
  (W36_of m ρ c main_v226 (by decide)).trans (e35_v226 m ρ H c)
theorem e37_v226 : W37 (F := Ideal) m ρ c (Proc.devRef .tc main_v226) = aggAA (F := Ideal) (xa2 (F := Ideal) a0 a1 a2 a3 a4 a5 a6 a7 a8 a9 a10 a11 a12 a13 a14 a15) (srcAA a10) (dstAA a10) a2 :=
  (W37_of m ρ c main_v226 (by decide)).trans (e36_v226 m ρ H c)
theorem e38_v226 : W38 (F := Ideal) m ρ c (Proc.devRef .tc main_v226) = aggAA (F := Ideal) (xa2 (F := Ideal) a0 a1 a2 a3 a4 a5 a6 a7 a8 a9 a10 a11 a12 a13 a14 a15) (srcAA a10) (dstAA a10) a2 :=
  (W38_of m ρ c main_v226 (by decide)).trans (e37_v226 m ρ H c)
theorem e39_v226 : W39 (F := Ideal) m ρ c (Proc.devRef .tc main_v226) = aggAA (F := Ideal) (xa2 (F := Ideal) a0 a1 a2 a3 a4 a5 a6 a7 a8 a9 a10 a11 a12 a13 a14 a15) (srcAA a10) (dstAA a10) a2 :=
  (W39_of m ρ c main_v226 (by decide)).trans (e38_v226 m ρ H c)
theorem e40_v226 : W40 (F := Ideal) m ρ c (Proc.devRef .tc main_v226) = aggAA (F := Ideal) (xa2 (F := Ideal) a0 a1 a2 a3 a4 a5 a6 a7 a8 a9 a10 a11 a12 a13 a14 a15) (srcAA a10) (dstAA a10) a2 :=
  (W40_of m ρ c main_v226 (by decide)).trans (e39_v226 m ρ H c)
theorem e41_v226 : W41 (F := Ideal) m ρ c (Proc.devRef .tc main_v226) = aggAA (F := Ideal) (xa2 (F := Ideal) a0 a1 a2 a3 a4 a5 a6 a7 a8 a9 a10 a11 a12 a13 a14 a15) (srcAA a10) (dstAA a10) a2 :=
  (W41_of m ρ c main_v226 (by decide)).trans (e40_v226 m ρ H c)
theorem e41_v271 : W41 (F := Ideal) m ρ c (Proc.devRef .tc main_v271) = w1_2_0 (F := Ideal) a6 := by
  show StableHlo.after hostOps8_8 (W40 (F := Ideal) m ρ c) (Proc.devRef .tc main_v271) = _
  after_results_simp
  rw [e32_arg6 m ρ H c]
  rfl
theorem e41_v273 : W41 (F := Ideal) m ρ c (Proc.devRef .tc main_v273) = b1_2_0 (F := Ideal) a7 := by
  show StableHlo.after hostOps8_8 (W40 (F := Ideal) m ρ c) (Proc.devRef .tc main_v273) = _
  after_results_simp
  rw [e32_arg7 m ρ H c]
  rfl
theorem e41_v275 : W41 (F := Ideal) m ρ c (Proc.devRef .tc main_v275) = w2_2_0 (F := Ideal) a8 := by
  show StableHlo.after hostOps8_8 (W40 (F := Ideal) m ρ c) (Proc.devRef .tc main_v275) = _
  after_results_simp
  rw [e32_arg8 m ρ H c]
  rfl
theorem e41_v277 : W41 (F := Ideal) m ρ c (Proc.devRef .tc main_v277) = b2_2_0 (F := Ideal) a9 := by
  show StableHlo.after hostOps8_8 (W40 (F := Ideal) m ρ c) (Proc.devRef .tc main_v277) = _
  after_results_simp
  rw [e32_arg9 m ρ H c]
  rfl
theorem e42_v278 : W42 (F := Ideal) m ρ c (Proc.devRef .tc main_v278) = Cert.Mlp.hostMlpA (F := Ideal) (aggAA (F := Ideal) (xa2 (F := Ideal) a0 a1 a2 a3 a4 a5 a6 a7 a8 a9 a10 a11 a12 a13 a14 a15) (srcAA a10) (dstAA a10) a2) (w1_2_0 (F := Ideal) a6) (b1_2_0 (F := Ideal) a7) (w2_2_0 (F := Ideal) a8) (b2_2_0 (F := Ideal) a9) :=
  ((W42_arr (F := Ideal) m ρ c 5).trans (H.fin8 c)).trans
    (mlpA_congr (e41_v226 m ρ H c) (e41_v271 m ρ H c) (e41_v273 m ρ H c) (e41_v275 m ρ H c) (e41_v277 m ρ H c))
theorem e37_v239 : W37 (F := Ideal) m ρ c (Proc.devRef .tc main_v239) = aggMA (F := Ideal) (xm2 (F := Ideal) a0 a1 a2 a3 a4 a5 a6 a7 a8 a9 a10 a11 a12 a13 a14 a15) (xa2 (F := Ideal) a0 a1 a2 a3 a4 a5 a6 a7 a8 a9 a10 a11 a12 a13 a14 a15) a14 a15 a4 := by
  show StableHlo.after hostOps8_4 (W36 (F := Ideal) m ρ c) (Proc.devRef .tc main_v239) = _
  after_results_simp
  rw [e32_arg15 m ρ H c, e32_v191 m ρ H c, e32_v200 m ρ H c, e32_arg14 m ρ H c, e32_arg4 m ρ H c, e32_v173 m ρ H c, e32_v182 m ρ H c]
  rfl
theorem e38_v239 : W38 (F := Ideal) m ρ c (Proc.devRef .tc main_v239) = aggMA (F := Ideal) (xm2 (F := Ideal) a0 a1 a2 a3 a4 a5 a6 a7 a8 a9 a10 a11 a12 a13 a14 a15) (xa2 (F := Ideal) a0 a1 a2 a3 a4 a5 a6 a7 a8 a9 a10 a11 a12 a13 a14 a15) a14 a15 a4 :=
  (W38_of m ρ c main_v239 (by decide)).trans (e37_v239 m ρ H c)
theorem e39_v239 : W39 (F := Ideal) m ρ c (Proc.devRef .tc main_v239) = aggMA (F := Ideal) (xm2 (F := Ideal) a0 a1 a2 a3 a4 a5 a6 a7 a8 a9 a10 a11 a12 a13 a14 a15) (xa2 (F := Ideal) a0 a1 a2 a3 a4 a5 a6 a7 a8 a9 a10 a11 a12 a13 a14 a15) a14 a15 a4 :=
  (W39_of m ρ c main_v239 (by decide)).trans (e38_v239 m ρ H c)
theorem e40_v239 : W40 (F := Ideal) m ρ c (Proc.devRef .tc main_v239) = aggMA (F := Ideal) (xm2 (F := Ideal) a0 a1 a2 a3 a4 a5 a6 a7 a8 a9 a10 a11 a12 a13 a14 a15) (xa2 (F := Ideal) a0 a1 a2 a3 a4 a5 a6 a7 a8 a9 a10 a11 a12 a13 a14 a15) a14 a15 a4 :=
  (W40_of m ρ c main_v239 (by decide)).trans (e39_v239 m ρ H c)
theorem e41_v239 : W41 (F := Ideal) m ρ c (Proc.devRef .tc main_v239) = aggMA (F := Ideal) (xm2 (F := Ideal) a0 a1 a2 a3 a4 a5 a6 a7 a8 a9 a10 a11 a12 a13 a14 a15) (xa2 (F := Ideal) a0 a1 a2 a3 a4 a5 a6 a7 a8 a9 a10 a11 a12 a13 a14 a15) a14 a15 a4 :=
  (W41_of m ρ c main_v239 (by decide)).trans (e40_v239 m ρ H c)
theorem e42_v239 : W42 (F := Ideal) m ρ c (Proc.devRef .tc main_v239) = aggMA (F := Ideal) (xm2 (F := Ideal) a0 a1 a2 a3 a4 a5 a6 a7 a8 a9 a10 a11 a12 a13 a14 a15) (xa2 (F := Ideal) a0 a1 a2 a3 a4 a5 a6 a7 a8 a9 a10 a11 a12 a13 a14 a15) a14 a15 a4 :=
  (W42_of m ρ c main_v239 (by decide)).trans (e41_v239 m ρ H c)
theorem e43_v239 : W43 (F := Ideal) m ρ c (Proc.devRef .tc main_v239) = aggMA (F := Ideal) (xm2 (F := Ideal) a0 a1 a2 a3 a4 a5 a6 a7 a8 a9 a10 a11 a12 a13 a14 a15) (xa2 (F := Ideal) a0 a1 a2 a3 a4 a5 a6 a7 a8 a9 a10 a11 a12 a13 a14 a15) a14 a15 a4 :=
  (W43_of m ρ c main_v239 (by decide)).trans (e42_v239 m ρ H c)
theorem e33_arg6 : W33 (F := Ideal) m ρ c (Proc.devRef .tc main_arg6) = m ((c : Thread nD τ).loc main_arg6) :=
  (W33_of m ρ c main_arg6 (by decide)).trans (e32_arg6 m ρ H c)
theorem e34_arg6 : W34 (F := Ideal) m ρ c (Proc.devRef .tc main_arg6) = m ((c : Thread nD τ).loc main_arg6) :=
  (W34_of m ρ c main_arg6 (by decide)).trans (e33_arg6 m ρ H c)
theorem e35_arg6 : W35 (F := Ideal) m ρ c (Proc.devRef .tc main_arg6) = m ((c : Thread nD τ).loc main_arg6) :=
  (W35_of m ρ c main_arg6 (by decide)).trans (e34_arg6 m ρ H c)
theorem e36_arg6 : W36 (F := Ideal) m ρ c (Proc.devRef .tc main_arg6) = m ((c : Thread nD τ).loc main_arg6) :=
  (W36_of m ρ c main_arg6 (by decide)).trans (e35_arg6 m ρ H c)
theorem e37_arg6 : W37 (F := Ideal) m ρ c (Proc.devRef .tc main_arg6) = m ((c : Thread nD τ).loc main_arg6) :=
  (W37_of m ρ c main_arg6 (by decide)).trans (e36_arg6 m ρ H c)
theorem e38_arg6 : W38 (F := Ideal) m ρ c (Proc.devRef .tc main_arg6) = m ((c : Thread nD τ).loc main_arg6) :=
  (W38_of m ρ c main_arg6 (by decide)).trans (e37_arg6 m ρ H c)
theorem e39_arg6 : W39 (F := Ideal) m ρ c (Proc.devRef .tc main_arg6) = m ((c : Thread nD τ).loc main_arg6) :=
  (W39_of m ρ c main_arg6 (by decide)).trans (e38_arg6 m ρ H c)
theorem e40_arg6 : W40 (F := Ideal) m ρ c (Proc.devRef .tc main_arg6) = m ((c : Thread nD τ).loc main_arg6) :=
  (W40_of m ρ c main_arg6 (by decide)).trans (e39_arg6 m ρ H c)
theorem e41_arg6 : W41 (F := Ideal) m ρ c (Proc.devRef .tc main_arg6) = m ((c : Thread nD τ).loc main_arg6) :=
  (W41_of m ρ c main_arg6 (by decide)).trans (e40_arg6 m ρ H c)
theorem e42_arg6 : W42 (F := Ideal) m ρ c (Proc.devRef .tc main_arg6) = m ((c : Thread nD τ).loc main_arg6) :=
  (W42_of m ρ c main_arg6 (by decide)).trans (e41_arg6 m ρ H c)
theorem e43_v280 : W43 (F := Ideal) m ρ c (Proc.devRef .tc main_v280) = w1_2_2 (F := Ideal) a6 := by
  show StableHlo.after hostOps9 (W42 (F := Ideal) m ρ c) (Proc.devRef .tc main_v280) = _
  after_results_simp
  rw [e42_arg6 m ρ H c]
  rfl
theorem e33_arg7 : W33 (F := Ideal) m ρ c (Proc.devRef .tc main_arg7) = m ((c : Thread nD τ).loc main_arg7) :=
  (W33_of m ρ c main_arg7 (by decide)).trans (e32_arg7 m ρ H c)
theorem e34_arg7 : W34 (F := Ideal) m ρ c (Proc.devRef .tc main_arg7) = m ((c : Thread nD τ).loc main_arg7) :=
  (W34_of m ρ c main_arg7 (by decide)).trans (e33_arg7 m ρ H c)
theorem e35_arg7 : W35 (F := Ideal) m ρ c (Proc.devRef .tc main_arg7) = m ((c : Thread nD τ).loc main_arg7) :=
  (W35_of m ρ c main_arg7 (by decide)).trans (e34_arg7 m ρ H c)
theorem e36_arg7 : W36 (F := Ideal) m ρ c (Proc.devRef .tc main_arg7) = m ((c : Thread nD τ).loc main_arg7) :=
  (W36_of m ρ c main_arg7 (by decide)).trans (e35_arg7 m ρ H c)
theorem e37_arg7 : W37 (F := Ideal) m ρ c (Proc.devRef .tc main_arg7) = m ((c : Thread nD τ).loc main_arg7) :=
  (W37_of m ρ c main_arg7 (by decide)).trans (e36_arg7 m ρ H c)
theorem e38_arg7 : W38 (F := Ideal) m ρ c (Proc.devRef .tc main_arg7) = m ((c : Thread nD τ).loc main_arg7) :=
  (W38_of m ρ c main_arg7 (by decide)).trans (e37_arg7 m ρ H c)
theorem e39_arg7 : W39 (F := Ideal) m ρ c (Proc.devRef .tc main_arg7) = m ((c : Thread nD τ).loc main_arg7) :=
  (W39_of m ρ c main_arg7 (by decide)).trans (e38_arg7 m ρ H c)
theorem e40_arg7 : W40 (F := Ideal) m ρ c (Proc.devRef .tc main_arg7) = m ((c : Thread nD τ).loc main_arg7) :=
  (W40_of m ρ c main_arg7 (by decide)).trans (e39_arg7 m ρ H c)
theorem e41_arg7 : W41 (F := Ideal) m ρ c (Proc.devRef .tc main_arg7) = m ((c : Thread nD τ).loc main_arg7) :=
  (W41_of m ρ c main_arg7 (by decide)).trans (e40_arg7 m ρ H c)
theorem e42_arg7 : W42 (F := Ideal) m ρ c (Proc.devRef .tc main_arg7) = m ((c : Thread nD τ).loc main_arg7) :=
  (W42_of m ρ c main_arg7 (by decide)).trans (e41_arg7 m ρ H c)
theorem e43_v282 : W43 (F := Ideal) m ρ c (Proc.devRef .tc main_v282) = b1_2_2 (F := Ideal) a7 := by
  show StableHlo.after hostOps9 (W42 (F := Ideal) m ρ c) (Proc.devRef .tc main_v282) = _
  after_results_simp
  rw [e42_arg7 m ρ H c]
  rfl
theorem e33_arg8 : W33 (F := Ideal) m ρ c (Proc.devRef .tc main_arg8) = m ((c : Thread nD τ).loc main_arg8) :=
  (W33_of m ρ c main_arg8 (by decide)).trans (e32_arg8 m ρ H c)
theorem e34_arg8 : W34 (F := Ideal) m ρ c (Proc.devRef .tc main_arg8) = m ((c : Thread nD τ).loc main_arg8) :=
  (W34_of m ρ c main_arg8 (by decide)).trans (e33_arg8 m ρ H c)
theorem e35_arg8 : W35 (F := Ideal) m ρ c (Proc.devRef .tc main_arg8) = m ((c : Thread nD τ).loc main_arg8) :=
  (W35_of m ρ c main_arg8 (by decide)).trans (e34_arg8 m ρ H c)
theorem e36_arg8 : W36 (F := Ideal) m ρ c (Proc.devRef .tc main_arg8) = m ((c : Thread nD τ).loc main_arg8) :=
  (W36_of m ρ c main_arg8 (by decide)).trans (e35_arg8 m ρ H c)
theorem e37_arg8 : W37 (F := Ideal) m ρ c (Proc.devRef .tc main_arg8) = m ((c : Thread nD τ).loc main_arg8) :=
  (W37_of m ρ c main_arg8 (by decide)).trans (e36_arg8 m ρ H c)
theorem e38_arg8 : W38 (F := Ideal) m ρ c (Proc.devRef .tc main_arg8) = m ((c : Thread nD τ).loc main_arg8) :=
  (W38_of m ρ c main_arg8 (by decide)).trans (e37_arg8 m ρ H c)
theorem e39_arg8 : W39 (F := Ideal) m ρ c (Proc.devRef .tc main_arg8) = m ((c : Thread nD τ).loc main_arg8) :=
  (W39_of m ρ c main_arg8 (by decide)).trans (e38_arg8 m ρ H c)
theorem e40_arg8 : W40 (F := Ideal) m ρ c (Proc.devRef .tc main_arg8) = m ((c : Thread nD τ).loc main_arg8) :=
  (W40_of m ρ c main_arg8 (by decide)).trans (e39_arg8 m ρ H c)
theorem e41_arg8 : W41 (F := Ideal) m ρ c (Proc.devRef .tc main_arg8) = m ((c : Thread nD τ).loc main_arg8) :=
  (W41_of m ρ c main_arg8 (by decide)).trans (e40_arg8 m ρ H c)
theorem e42_arg8 : W42 (F := Ideal) m ρ c (Proc.devRef .tc main_arg8) = m ((c : Thread nD τ).loc main_arg8) :=
  (W42_of m ρ c main_arg8 (by decide)).trans (e41_arg8 m ρ H c)
theorem e43_v284 : W43 (F := Ideal) m ρ c (Proc.devRef .tc main_v284) = w2_2_2 (F := Ideal) a8 := by
  show StableHlo.after hostOps9 (W42 (F := Ideal) m ρ c) (Proc.devRef .tc main_v284) = _
  after_results_simp
  rw [e42_arg8 m ρ H c]
  rfl
theorem e33_arg9 : W33 (F := Ideal) m ρ c (Proc.devRef .tc main_arg9) = m ((c : Thread nD τ).loc main_arg9) :=
  (W33_of m ρ c main_arg9 (by decide)).trans (e32_arg9 m ρ H c)
theorem e34_arg9 : W34 (F := Ideal) m ρ c (Proc.devRef .tc main_arg9) = m ((c : Thread nD τ).loc main_arg9) :=
  (W34_of m ρ c main_arg9 (by decide)).trans (e33_arg9 m ρ H c)
theorem e35_arg9 : W35 (F := Ideal) m ρ c (Proc.devRef .tc main_arg9) = m ((c : Thread nD τ).loc main_arg9) :=
  (W35_of m ρ c main_arg9 (by decide)).trans (e34_arg9 m ρ H c)
theorem e36_arg9 : W36 (F := Ideal) m ρ c (Proc.devRef .tc main_arg9) = m ((c : Thread nD τ).loc main_arg9) :=
  (W36_of m ρ c main_arg9 (by decide)).trans (e35_arg9 m ρ H c)
theorem e37_arg9 : W37 (F := Ideal) m ρ c (Proc.devRef .tc main_arg9) = m ((c : Thread nD τ).loc main_arg9) :=
  (W37_of m ρ c main_arg9 (by decide)).trans (e36_arg9 m ρ H c)
theorem e38_arg9 : W38 (F := Ideal) m ρ c (Proc.devRef .tc main_arg9) = m ((c : Thread nD τ).loc main_arg9) :=
  (W38_of m ρ c main_arg9 (by decide)).trans (e37_arg9 m ρ H c)
theorem e39_arg9 : W39 (F := Ideal) m ρ c (Proc.devRef .tc main_arg9) = m ((c : Thread nD τ).loc main_arg9) :=
  (W39_of m ρ c main_arg9 (by decide)).trans (e38_arg9 m ρ H c)
theorem e40_arg9 : W40 (F := Ideal) m ρ c (Proc.devRef .tc main_arg9) = m ((c : Thread nD τ).loc main_arg9) :=
  (W40_of m ρ c main_arg9 (by decide)).trans (e39_arg9 m ρ H c)
theorem e41_arg9 : W41 (F := Ideal) m ρ c (Proc.devRef .tc main_arg9) = m ((c : Thread nD τ).loc main_arg9) :=
  (W41_of m ρ c main_arg9 (by decide)).trans (e40_arg9 m ρ H c)
theorem e42_arg9 : W42 (F := Ideal) m ρ c (Proc.devRef .tc main_arg9) = m ((c : Thread nD τ).loc main_arg9) :=
  (W42_of m ρ c main_arg9 (by decide)).trans (e41_arg9 m ρ H c)
theorem e43_v286 : W43 (F := Ideal) m ρ c (Proc.devRef .tc main_v286) = b2_2_2 (F := Ideal) a9 := by
  show StableHlo.after hostOps9 (W42 (F := Ideal) m ρ c) (Proc.devRef .tc main_v286) = _
  after_results_simp
  rw [e42_arg9 m ρ H c]
  rfl
theorem e44_v287 : W44 (F := Ideal) m ρ c (Proc.devRef .tc main_v287) = Cert.Mlp.hostMlpA (F := Ideal) (aggMA (F := Ideal) (xm2 (F := Ideal) a0 a1 a2 a3 a4 a5 a6 a7 a8 a9 a10 a11 a12 a13 a14 a15) (xa2 (F := Ideal) a0 a1 a2 a3 a4 a5 a6 a7 a8 a9 a10 a11 a12 a13 a14 a15) a14 a15 a4) (w1_2_2 (F := Ideal) a6) (b1_2_2 (F := Ideal) a7) (w2_2_2 (F := Ideal) a8) (b2_2_2 (F := Ideal) a9) :=
  ((W44_arr (F := Ideal) m ρ c 5).trans (H.fin9 c)).trans
    (mlpA_congr (e43_v239 m ρ H c) (e43_v280 m ρ H c) (e43_v282 m ρ H c) (e43_v284 m ρ H c) (e43_v286 m ρ H c))
theorem e39_v252 : W39 (F := Ideal) m ρ c (Proc.devRef .tc main_v252) = aggAM (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a12 a13 a3 := by
  show StableHlo.after hostOps8_6 (W38 (F := Ideal) m ρ c) (Proc.devRef .tc main_v252) = _
  after_results_simp
  rw [e32_arg13 m ρ H c, e32_v173 m ρ H c, e32_v182 m ρ H c, e32_arg12 m ρ H c, e32_arg3 m ρ H c, e32_v191 m ρ H c, e32_v200 m ρ H c]
  rfl
theorem e40_v252 : W40 (F := Ideal) m ρ c (Proc.devRef .tc main_v252) = aggAM (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a12 a13 a3 :=
  (W40_of m ρ c main_v252 (by decide)).trans (e39_v252 m ρ H c)
theorem e41_v252 : W41 (F := Ideal) m ρ c (Proc.devRef .tc main_v252) = aggAM (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a12 a13 a3 :=
  (W41_of m ρ c main_v252 (by decide)).trans (e40_v252 m ρ H c)
theorem e42_v252 : W42 (F := Ideal) m ρ c (Proc.devRef .tc main_v252) = aggAM (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a12 a13 a3 :=
  (W42_of m ρ c main_v252 (by decide)).trans (e41_v252 m ρ H c)
theorem e43_v252 : W43 (F := Ideal) m ρ c (Proc.devRef .tc main_v252) = aggAM (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a12 a13 a3 :=
  (W43_of m ρ c main_v252 (by decide)).trans (e42_v252 m ρ H c)
theorem e44_v252 : W44 (F := Ideal) m ρ c (Proc.devRef .tc main_v252) = aggAM (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a12 a13 a3 :=
  (W44_of m ρ c main_v252 (by decide)).trans (e43_v252 m ρ H c)
theorem e45_v252 : W45 (F := Ideal) m ρ c (Proc.devRef .tc main_v252) = aggAM (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a12 a13 a3 :=
  (W45_of m ρ c main_v252 (by decide)).trans (e44_v252 m ρ H c)
theorem e43_arg6 : W43 (F := Ideal) m ρ c (Proc.devRef .tc main_arg6) = m ((c : Thread nD τ).loc main_arg6) :=
  (W43_of m ρ c main_arg6 (by decide)).trans (e42_arg6 m ρ H c)
theorem e44_arg6 : W44 (F := Ideal) m ρ c (Proc.devRef .tc main_arg6) = m ((c : Thread nD τ).loc main_arg6) :=
  (W44_of m ρ c main_arg6 (by decide)).trans (e43_arg6 m ρ H c)
theorem e45_v289 : W45 (F := Ideal) m ρ c (Proc.devRef .tc main_v289) = w1_2_1 (F := Ideal) a6 := by
  show StableHlo.after hostOps10 (W44 (F := Ideal) m ρ c) (Proc.devRef .tc main_v289) = _
  after_results_simp
  rw [e44_arg6 m ρ H c]
  rfl
theorem e43_arg7 : W43 (F := Ideal) m ρ c (Proc.devRef .tc main_arg7) = m ((c : Thread nD τ).loc main_arg7) :=
  (W43_of m ρ c main_arg7 (by decide)).trans (e42_arg7 m ρ H c)
theorem e44_arg7 : W44 (F := Ideal) m ρ c (Proc.devRef .tc main_arg7) = m ((c : Thread nD τ).loc main_arg7) :=
  (W44_of m ρ c main_arg7 (by decide)).trans (e43_arg7 m ρ H c)
theorem e45_v291 : W45 (F := Ideal) m ρ c (Proc.devRef .tc main_v291) = b1_2_1 (F := Ideal) a7 := by
  show StableHlo.after hostOps10 (W44 (F := Ideal) m ρ c) (Proc.devRef .tc main_v291) = _
  after_results_simp
  rw [e44_arg7 m ρ H c]
  rfl
theorem e43_arg8 : W43 (F := Ideal) m ρ c (Proc.devRef .tc main_arg8) = m ((c : Thread nD τ).loc main_arg8) :=
  (W43_of m ρ c main_arg8 (by decide)).trans (e42_arg8 m ρ H c)
theorem e44_arg8 : W44 (F := Ideal) m ρ c (Proc.devRef .tc main_arg8) = m ((c : Thread nD τ).loc main_arg8) :=
  (W44_of m ρ c main_arg8 (by decide)).trans (e43_arg8 m ρ H c)
theorem e45_v293 : W45 (F := Ideal) m ρ c (Proc.devRef .tc main_v293) = w2_2_1 (F := Ideal) a8 := by
  show StableHlo.after hostOps10 (W44 (F := Ideal) m ρ c) (Proc.devRef .tc main_v293) = _
  after_results_simp
  rw [e44_arg8 m ρ H c]
  rfl
theorem e43_arg9 : W43 (F := Ideal) m ρ c (Proc.devRef .tc main_arg9) = m ((c : Thread nD τ).loc main_arg9) :=
  (W43_of m ρ c main_arg9 (by decide)).trans (e42_arg9 m ρ H c)
theorem e44_arg9 : W44 (F := Ideal) m ρ c (Proc.devRef .tc main_arg9) = m ((c : Thread nD τ).loc main_arg9) :=
  (W44_of m ρ c main_arg9 (by decide)).trans (e43_arg9 m ρ H c)
theorem e45_v295 : W45 (F := Ideal) m ρ c (Proc.devRef .tc main_v295) = b2_2_1 (F := Ideal) a9 := by
  show StableHlo.after hostOps10 (W44 (F := Ideal) m ρ c) (Proc.devRef .tc main_v295) = _
  after_results_simp
  rw [e44_arg9 m ρ H c]
  rfl
theorem e46_v296 : W46 (F := Ideal) m ρ c (Proc.devRef .tc main_v296) = Cert.Mlp.hostMlpM (F := Ideal) (aggAM (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a12 a13 a3) (w1_2_1 (F := Ideal) a6) (b1_2_1 (F := Ideal) a7) (w2_2_1 (F := Ideal) a8) (b2_2_1 (F := Ideal) a9) :=
  ((W46_arr (F := Ideal) m ρ c 5).trans (H.fin10 c)).trans
    (mlpM_congr (e45_v252 m ρ H c) (e45_v289 m ρ H c) (e45_v291 m ρ H c) (e45_v293 m ρ H c) (e45_v295 m ρ H c))
theorem e41_v269 : W41 (F := Ideal) m ρ c (Proc.devRef .tc main_v269) = aggMM (F := Ideal) (xm2 (F := Ideal) a0 a1 a2 a3 a4 a5 a6 a7 a8 a9 a10 a11 a12 a13 a14 a15) (srcMM a11) (dstMM a11) a5 := by
  show StableHlo.after hostOps8_8 (W40 (F := Ideal) m ρ c) (Proc.devRef .tc main_v269) = _
  after_results_simp
  rw [e32_arg11 m ρ H c, e32_v191 m ρ H c, e32_v200 m ρ H c, e32_arg5 m ρ H c]
  rfl
theorem e42_v269 : W42 (F := Ideal) m ρ c (Proc.devRef .tc main_v269) = aggMM (F := Ideal) (xm2 (F := Ideal) a0 a1 a2 a3 a4 a5 a6 a7 a8 a9 a10 a11 a12 a13 a14 a15) (srcMM a11) (dstMM a11) a5 :=
  (W42_of m ρ c main_v269 (by decide)).trans (e41_v269 m ρ H c)
theorem e43_v269 : W43 (F := Ideal) m ρ c (Proc.devRef .tc main_v269) = aggMM (F := Ideal) (xm2 (F := Ideal) a0 a1 a2 a3 a4 a5 a6 a7 a8 a9 a10 a11 a12 a13 a14 a15) (srcMM a11) (dstMM a11) a5 :=
  (W43_of m ρ c main_v269 (by decide)).trans (e42_v269 m ρ H c)
theorem e44_v269 : W44 (F := Ideal) m ρ c (Proc.devRef .tc main_v269) = aggMM (F := Ideal) (xm2 (F := Ideal) a0 a1 a2 a3 a4 a5 a6 a7 a8 a9 a10 a11 a12 a13 a14 a15) (srcMM a11) (dstMM a11) a5 :=
  (W44_of m ρ c main_v269 (by decide)).trans (e43_v269 m ρ H c)
theorem e45_v269 : W45 (F := Ideal) m ρ c (Proc.devRef .tc main_v269) = aggMM (F := Ideal) (xm2 (F := Ideal) a0 a1 a2 a3 a4 a5 a6 a7 a8 a9 a10 a11 a12 a13 a14 a15) (srcMM a11) (dstMM a11) a5 :=
  (W45_of m ρ c main_v269 (by decide)).trans (e44_v269 m ρ H c)
theorem e46_v269 : W46 (F := Ideal) m ρ c (Proc.devRef .tc main_v269) = aggMM (F := Ideal) (xm2 (F := Ideal) a0 a1 a2 a3 a4 a5 a6 a7 a8 a9 a10 a11 a12 a13 a14 a15) (srcMM a11) (dstMM a11) a5 :=
  (W46_of m ρ c main_v269 (by decide)).trans (e45_v269 m ρ H c)
theorem e47_v269 : W47 (F := Ideal) m ρ c (Proc.devRef .tc main_v269) = aggMM (F := Ideal) (xm2 (F := Ideal) a0 a1 a2 a3 a4 a5 a6 a7 a8 a9 a10 a11 a12 a13 a14 a15) (srcMM a11) (dstMM a11) a5 :=
  (W47_of m ρ c main_v269 (by decide)).trans (e46_v269 m ρ H c)
theorem e45_arg6 : W45 (F := Ideal) m ρ c (Proc.devRef .tc main_arg6) = m ((c : Thread nD τ).loc main_arg6) :=
  (W45_of m ρ c main_arg6 (by decide)).trans (e44_arg6 m ρ H c)
theorem e46_arg6 : W46 (F := Ideal) m ρ c (Proc.devRef .tc main_arg6) = m ((c : Thread nD τ).loc main_arg6) :=
  (W46_of m ρ c main_arg6 (by decide)).trans (e45_arg6 m ρ H c)
theorem e47_v298 : W47 (F := Ideal) m ρ c (Proc.devRef .tc main_v298) = w1_2_3 (F := Ideal) a6 := by
  show StableHlo.after hostOps11 (W46 (F := Ideal) m ρ c) (Proc.devRef .tc main_v298) = _
  after_results_simp
  rw [e46_arg6 m ρ H c]
  rfl
theorem e45_arg7 : W45 (F := Ideal) m ρ c (Proc.devRef .tc main_arg7) = m ((c : Thread nD τ).loc main_arg7) :=
  (W45_of m ρ c main_arg7 (by decide)).trans (e44_arg7 m ρ H c)
theorem e46_arg7 : W46 (F := Ideal) m ρ c (Proc.devRef .tc main_arg7) = m ((c : Thread nD τ).loc main_arg7) :=
  (W46_of m ρ c main_arg7 (by decide)).trans (e45_arg7 m ρ H c)
theorem e47_v300 : W47 (F := Ideal) m ρ c (Proc.devRef .tc main_v300) = b1_2_3 (F := Ideal) a7 := by
  show StableHlo.after hostOps11 (W46 (F := Ideal) m ρ c) (Proc.devRef .tc main_v300) = _
  after_results_simp
  rw [e46_arg7 m ρ H c]
  rfl
theorem e45_arg8 : W45 (F := Ideal) m ρ c (Proc.devRef .tc main_arg8) = m ((c : Thread nD τ).loc main_arg8) :=
  (W45_of m ρ c main_arg8 (by decide)).trans (e44_arg8 m ρ H c)
theorem e46_arg8 : W46 (F := Ideal) m ρ c (Proc.devRef .tc main_arg8) = m ((c : Thread nD τ).loc main_arg8) :=
  (W46_of m ρ c main_arg8 (by decide)).trans (e45_arg8 m ρ H c)
theorem e47_v302 : W47 (F := Ideal) m ρ c (Proc.devRef .tc main_v302) = w2_2_3 (F := Ideal) a8 := by
  show StableHlo.after hostOps11 (W46 (F := Ideal) m ρ c) (Proc.devRef .tc main_v302) = _
  after_results_simp
  rw [e46_arg8 m ρ H c]
  rfl
theorem e45_arg9 : W45 (F := Ideal) m ρ c (Proc.devRef .tc main_arg9) = m ((c : Thread nD τ).loc main_arg9) :=
  (W45_of m ρ c main_arg9 (by decide)).trans (e44_arg9 m ρ H c)
theorem e46_arg9 : W46 (F := Ideal) m ρ c (Proc.devRef .tc main_arg9) = m ((c : Thread nD τ).loc main_arg9) :=
  (W46_of m ρ c main_arg9 (by decide)).trans (e45_arg9 m ρ H c)
theorem e47_v304 : W47 (F := Ideal) m ρ c (Proc.devRef .tc main_v304) = b2_2_3 (F := Ideal) a9 := by
  show StableHlo.after hostOps11 (W46 (F := Ideal) m ρ c) (Proc.devRef .tc main_v304) = _
  after_results_simp
  rw [e46_arg9 m ρ H c]
  rfl
theorem e48_v305 : W48 (F := Ideal) m ρ c (Proc.devRef .tc main_v305) = Cert.Mlp.hostMlpM (F := Ideal) (aggMM (F := Ideal) (xm2 (F := Ideal) a0 a1 a2 a3 a4 a5 a6 a7 a8 a9 a10 a11 a12 a13 a14 a15) (srcMM a11) (dstMM a11) a5) (w1_2_3 (F := Ideal) a6) (b1_2_3 (F := Ideal) a7) (w2_2_3 (F := Ideal) a8) (b2_2_3 (F := Ideal) a9) :=
  ((W48_arr (F := Ideal) m ρ c 5).trans (H.fin11 c)).trans
    (mlpM_congr (e47_v269 m ρ H c) (e47_v298 m ρ H c) (e47_v300 m ρ H c) (e47_v302 m ρ H c) (e47_v304 m ρ H c))
theorem e33_v104 : W33 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W33_of m ρ c main_v104 (by decide)).trans (e32_v104 m ρ H c)
theorem e34_v104 : W34 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W34_of m ρ c main_v104 (by decide)).trans (e33_v104 m ρ H c)
theorem e35_v104 : W35 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W35_of m ρ c main_v104 (by decide)).trans (e34_v104 m ρ H c)
theorem e36_v104 : W36 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W36_of m ρ c main_v104 (by decide)).trans (e35_v104 m ρ H c)
theorem e37_v104 : W37 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W37_of m ρ c main_v104 (by decide)).trans (e36_v104 m ρ H c)
theorem e38_v104 : W38 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W38_of m ρ c main_v104 (by decide)).trans (e37_v104 m ρ H c)
theorem e39_v104 : W39 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W39_of m ρ c main_v104 (by decide)).trans (e38_v104 m ρ H c)
theorem e40_v104 : W40 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W40_of m ρ c main_v104 (by decide)).trans (e39_v104 m ρ H c)
theorem e41_v104 : W41 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W41_of m ρ c main_v104 (by decide)).trans (e40_v104 m ρ H c)
theorem e42_v104 : W42 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W42_of m ρ c main_v104 (by decide)).trans (e41_v104 m ρ H c)
theorem e43_v104 : W43 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W43_of m ρ c main_v104 (by decide)).trans (e42_v104 m ρ H c)
theorem e44_v104 : W44 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W44_of m ρ c main_v104 (by decide)).trans (e43_v104 m ρ H c)
theorem e45_v104 : W45 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W45_of m ρ c main_v104 (by decide)).trans (e44_v104 m ρ H c)
theorem e46_v104 : W46 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W46_of m ρ c main_v104 (by decide)).trans (e45_v104 m ρ H c)
theorem e47_v104 : W47 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W47_of m ρ c main_v104 (by decide)).trans (e46_v104 m ρ H c)
theorem e48_v104 : W48 (F := Ideal) m ρ c (Proc.devRef .tc main_v104) = pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17 :=
  (W48_of m ρ c main_v104 (by decide)).trans (e47_v104 m ρ H c)
theorem e33_v209 : W33 (F := Ideal) m ρ c (Proc.devRef .tc main_v209) = pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17 := by
  show StableHlo.after hostOps8 (W32 (F := Ideal) m ρ c) (Proc.devRef .tc main_v209) = _
  after_results_simp
  rw [e32_arg16 m ρ H c, e32_v173 m ρ H c, e32_v182 m ρ H c, e32_arg17 m ρ H c, e32_v191 m ρ H c, e32_v200 m ρ H c]
  rfl
theorem e34_v209 : W34 (F := Ideal) m ρ c (Proc.devRef .tc main_v209) = pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17 :=
  (W34_of m ρ c main_v209 (by decide)).trans (e33_v209 m ρ H c)
theorem e35_v209 : W35 (F := Ideal) m ρ c (Proc.devRef .tc main_v209) = pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17 :=
  (W35_of m ρ c main_v209 (by decide)).trans (e34_v209 m ρ H c)
theorem e36_v209 : W36 (F := Ideal) m ρ c (Proc.devRef .tc main_v209) = pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17 :=
  (W36_of m ρ c main_v209 (by decide)).trans (e35_v209 m ρ H c)
theorem e37_v209 : W37 (F := Ideal) m ρ c (Proc.devRef .tc main_v209) = pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17 :=
  (W37_of m ρ c main_v209 (by decide)).trans (e36_v209 m ρ H c)
theorem e38_v209 : W38 (F := Ideal) m ρ c (Proc.devRef .tc main_v209) = pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17 :=
  (W38_of m ρ c main_v209 (by decide)).trans (e37_v209 m ρ H c)
theorem e39_v209 : W39 (F := Ideal) m ρ c (Proc.devRef .tc main_v209) = pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17 :=
  (W39_of m ρ c main_v209 (by decide)).trans (e38_v209 m ρ H c)
theorem e40_v209 : W40 (F := Ideal) m ρ c (Proc.devRef .tc main_v209) = pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17 :=
  (W40_of m ρ c main_v209 (by decide)).trans (e39_v209 m ρ H c)
theorem e41_v209 : W41 (F := Ideal) m ρ c (Proc.devRef .tc main_v209) = pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17 :=
  (W41_of m ρ c main_v209 (by decide)).trans (e40_v209 m ρ H c)
theorem e42_v209 : W42 (F := Ideal) m ρ c (Proc.devRef .tc main_v209) = pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17 :=
  (W42_of m ρ c main_v209 (by decide)).trans (e41_v209 m ρ H c)
theorem e43_v209 : W43 (F := Ideal) m ρ c (Proc.devRef .tc main_v209) = pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17 :=
  (W43_of m ρ c main_v209 (by decide)).trans (e42_v209 m ρ H c)
theorem e44_v209 : W44 (F := Ideal) m ρ c (Proc.devRef .tc main_v209) = pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17 :=
  (W44_of m ρ c main_v209 (by decide)).trans (e43_v209 m ρ H c)
theorem e45_v209 : W45 (F := Ideal) m ρ c (Proc.devRef .tc main_v209) = pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17 :=
  (W45_of m ρ c main_v209 (by decide)).trans (e44_v209 m ρ H c)
theorem e46_v209 : W46 (F := Ideal) m ρ c (Proc.devRef .tc main_v209) = pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17 :=
  (W46_of m ρ c main_v209 (by decide)).trans (e45_v209 m ρ H c)
theorem e47_v209 : W47 (F := Ideal) m ρ c (Proc.devRef .tc main_v209) = pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17 :=
  (W47_of m ρ c main_v209 (by decide)).trans (e46_v209 m ρ H c)
theorem e48_v209 : W48 (F := Ideal) m ρ c (Proc.devRef .tc main_v209) = pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17 :=
  (W48_of m ρ c main_v209 (by decide)).trans (e47_v209 m ρ H c)
theorem e33_arg16 : W33 (F := Ideal) m ρ c (Proc.devRef .tc main_arg16) = m ((c : Thread nD τ).loc main_arg16) :=
  (W33_of m ρ c main_arg16 (by decide)).trans (e32_arg16 m ρ H c)
theorem e34_arg16 : W34 (F := Ideal) m ρ c (Proc.devRef .tc main_arg16) = m ((c : Thread nD τ).loc main_arg16) :=
  (W34_of m ρ c main_arg16 (by decide)).trans (e33_arg16 m ρ H c)
theorem e35_arg16 : W35 (F := Ideal) m ρ c (Proc.devRef .tc main_arg16) = m ((c : Thread nD τ).loc main_arg16) :=
  (W35_of m ρ c main_arg16 (by decide)).trans (e34_arg16 m ρ H c)
theorem e36_arg16 : W36 (F := Ideal) m ρ c (Proc.devRef .tc main_arg16) = m ((c : Thread nD τ).loc main_arg16) :=
  (W36_of m ρ c main_arg16 (by decide)).trans (e35_arg16 m ρ H c)
theorem e37_arg16 : W37 (F := Ideal) m ρ c (Proc.devRef .tc main_arg16) = m ((c : Thread nD τ).loc main_arg16) :=
  (W37_of m ρ c main_arg16 (by decide)).trans (e36_arg16 m ρ H c)
theorem e38_arg16 : W38 (F := Ideal) m ρ c (Proc.devRef .tc main_arg16) = m ((c : Thread nD τ).loc main_arg16) :=
  (W38_of m ρ c main_arg16 (by decide)).trans (e37_arg16 m ρ H c)
theorem e39_arg16 : W39 (F := Ideal) m ρ c (Proc.devRef .tc main_arg16) = m ((c : Thread nD τ).loc main_arg16) :=
  (W39_of m ρ c main_arg16 (by decide)).trans (e38_arg16 m ρ H c)
theorem e40_arg16 : W40 (F := Ideal) m ρ c (Proc.devRef .tc main_arg16) = m ((c : Thread nD τ).loc main_arg16) :=
  (W40_of m ρ c main_arg16 (by decide)).trans (e39_arg16 m ρ H c)
theorem e41_arg16 : W41 (F := Ideal) m ρ c (Proc.devRef .tc main_arg16) = m ((c : Thread nD τ).loc main_arg16) :=
  (W41_of m ρ c main_arg16 (by decide)).trans (e40_arg16 m ρ H c)
theorem e42_arg16 : W42 (F := Ideal) m ρ c (Proc.devRef .tc main_arg16) = m ((c : Thread nD τ).loc main_arg16) :=
  (W42_of m ρ c main_arg16 (by decide)).trans (e41_arg16 m ρ H c)
theorem e43_arg16 : W43 (F := Ideal) m ρ c (Proc.devRef .tc main_arg16) = m ((c : Thread nD τ).loc main_arg16) :=
  (W43_of m ρ c main_arg16 (by decide)).trans (e42_arg16 m ρ H c)
theorem e44_arg16 : W44 (F := Ideal) m ρ c (Proc.devRef .tc main_arg16) = m ((c : Thread nD τ).loc main_arg16) :=
  (W44_of m ρ c main_arg16 (by decide)).trans (e43_arg16 m ρ H c)
theorem e45_arg16 : W45 (F := Ideal) m ρ c (Proc.devRef .tc main_arg16) = m ((c : Thread nD τ).loc main_arg16) :=
  (W45_of m ρ c main_arg16 (by decide)).trans (e44_arg16 m ρ H c)
theorem e46_arg16 : W46 (F := Ideal) m ρ c (Proc.devRef .tc main_arg16) = m ((c : Thread nD τ).loc main_arg16) :=
  (W46_of m ρ c main_arg16 (by decide)).trans (e45_arg16 m ρ H c)
theorem e47_arg16 : W47 (F := Ideal) m ρ c (Proc.devRef .tc main_arg16) = m ((c : Thread nD τ).loc main_arg16) :=
  (W47_of m ρ c main_arg16 (by decide)).trans (e46_arg16 m ρ H c)
theorem e48_arg16 : W48 (F := Ideal) m ρ c (Proc.devRef .tc main_arg16) = m ((c : Thread nD τ).loc main_arg16) :=
  (W48_of m ρ c main_arg16 (by decide)).trans (e47_arg16 m ρ H c)
theorem e43_v278 : W43 (F := Ideal) m ρ c (Proc.devRef .tc main_v278) = Cert.Mlp.hostMlpA (F := Ideal) (aggAA (F := Ideal) (xa2 (F := Ideal) a0 a1 a2 a3 a4 a5 a6 a7 a8 a9 a10 a11 a12 a13 a14 a15) (srcAA a10) (dstAA a10) a2) (w1_2_0 (F := Ideal) a6) (b1_2_0 (F := Ideal) a7) (w2_2_0 (F := Ideal) a8) (b2_2_0 (F := Ideal) a9) :=
  (W43_of m ρ c main_v278 (by decide)).trans (e42_v278 m ρ H c)
theorem e44_v278 : W44 (F := Ideal) m ρ c (Proc.devRef .tc main_v278) = Cert.Mlp.hostMlpA (F := Ideal) (aggAA (F := Ideal) (xa2 (F := Ideal) a0 a1 a2 a3 a4 a5 a6 a7 a8 a9 a10 a11 a12 a13 a14 a15) (srcAA a10) (dstAA a10) a2) (w1_2_0 (F := Ideal) a6) (b1_2_0 (F := Ideal) a7) (w2_2_0 (F := Ideal) a8) (b2_2_0 (F := Ideal) a9) :=
  (W44_of m ρ c main_v278 (by decide)).trans (e43_v278 m ρ H c)
theorem e45_v278 : W45 (F := Ideal) m ρ c (Proc.devRef .tc main_v278) = Cert.Mlp.hostMlpA (F := Ideal) (aggAA (F := Ideal) (xa2 (F := Ideal) a0 a1 a2 a3 a4 a5 a6 a7 a8 a9 a10 a11 a12 a13 a14 a15) (srcAA a10) (dstAA a10) a2) (w1_2_0 (F := Ideal) a6) (b1_2_0 (F := Ideal) a7) (w2_2_0 (F := Ideal) a8) (b2_2_0 (F := Ideal) a9) :=
  (W45_of m ρ c main_v278 (by decide)).trans (e44_v278 m ρ H c)
theorem e46_v278 : W46 (F := Ideal) m ρ c (Proc.devRef .tc main_v278) = Cert.Mlp.hostMlpA (F := Ideal) (aggAA (F := Ideal) (xa2 (F := Ideal) a0 a1 a2 a3 a4 a5 a6 a7 a8 a9 a10 a11 a12 a13 a14 a15) (srcAA a10) (dstAA a10) a2) (w1_2_0 (F := Ideal) a6) (b1_2_0 (F := Ideal) a7) (w2_2_0 (F := Ideal) a8) (b2_2_0 (F := Ideal) a9) :=
  (W46_of m ρ c main_v278 (by decide)).trans (e45_v278 m ρ H c)
theorem e47_v278 : W47 (F := Ideal) m ρ c (Proc.devRef .tc main_v278) = Cert.Mlp.hostMlpA (F := Ideal) (aggAA (F := Ideal) (xa2 (F := Ideal) a0 a1 a2 a3 a4 a5 a6 a7 a8 a9 a10 a11 a12 a13 a14 a15) (srcAA a10) (dstAA a10) a2) (w1_2_0 (F := Ideal) a6) (b1_2_0 (F := Ideal) a7) (w2_2_0 (F := Ideal) a8) (b2_2_0 (F := Ideal) a9) :=
  (W47_of m ρ c main_v278 (by decide)).trans (e46_v278 m ρ H c)
theorem e48_v278 : W48 (F := Ideal) m ρ c (Proc.devRef .tc main_v278) = Cert.Mlp.hostMlpA (F := Ideal) (aggAA (F := Ideal) (xa2 (F := Ideal) a0 a1 a2 a3 a4 a5 a6 a7 a8 a9 a10 a11 a12 a13 a14 a15) (srcAA a10) (dstAA a10) a2) (w1_2_0 (F := Ideal) a6) (b1_2_0 (F := Ideal) a7) (w2_2_0 (F := Ideal) a8) (b2_2_0 (F := Ideal) a9) :=
  (W48_of m ρ c main_v278 (by decide)).trans (e47_v278 m ρ H c)
theorem e45_v287 : W45 (F := Ideal) m ρ c (Proc.devRef .tc main_v287) = Cert.Mlp.hostMlpA (F := Ideal) (aggMA (F := Ideal) (xm2 (F := Ideal) a0 a1 a2 a3 a4 a5 a6 a7 a8 a9 a10 a11 a12 a13 a14 a15) (xa2 (F := Ideal) a0 a1 a2 a3 a4 a5 a6 a7 a8 a9 a10 a11 a12 a13 a14 a15) a14 a15 a4) (w1_2_2 (F := Ideal) a6) (b1_2_2 (F := Ideal) a7) (w2_2_2 (F := Ideal) a8) (b2_2_2 (F := Ideal) a9) :=
  (W45_of m ρ c main_v287 (by decide)).trans (e44_v287 m ρ H c)
theorem e46_v287 : W46 (F := Ideal) m ρ c (Proc.devRef .tc main_v287) = Cert.Mlp.hostMlpA (F := Ideal) (aggMA (F := Ideal) (xm2 (F := Ideal) a0 a1 a2 a3 a4 a5 a6 a7 a8 a9 a10 a11 a12 a13 a14 a15) (xa2 (F := Ideal) a0 a1 a2 a3 a4 a5 a6 a7 a8 a9 a10 a11 a12 a13 a14 a15) a14 a15 a4) (w1_2_2 (F := Ideal) a6) (b1_2_2 (F := Ideal) a7) (w2_2_2 (F := Ideal) a8) (b2_2_2 (F := Ideal) a9) :=
  (W46_of m ρ c main_v287 (by decide)).trans (e45_v287 m ρ H c)
theorem e47_v287 : W47 (F := Ideal) m ρ c (Proc.devRef .tc main_v287) = Cert.Mlp.hostMlpA (F := Ideal) (aggMA (F := Ideal) (xm2 (F := Ideal) a0 a1 a2 a3 a4 a5 a6 a7 a8 a9 a10 a11 a12 a13 a14 a15) (xa2 (F := Ideal) a0 a1 a2 a3 a4 a5 a6 a7 a8 a9 a10 a11 a12 a13 a14 a15) a14 a15 a4) (w1_2_2 (F := Ideal) a6) (b1_2_2 (F := Ideal) a7) (w2_2_2 (F := Ideal) a8) (b2_2_2 (F := Ideal) a9) :=
  (W47_of m ρ c main_v287 (by decide)).trans (e46_v287 m ρ H c)
theorem e48_v287 : W48 (F := Ideal) m ρ c (Proc.devRef .tc main_v287) = Cert.Mlp.hostMlpA (F := Ideal) (aggMA (F := Ideal) (xm2 (F := Ideal) a0 a1 a2 a3 a4 a5 a6 a7 a8 a9 a10 a11 a12 a13 a14 a15) (xa2 (F := Ideal) a0 a1 a2 a3 a4 a5 a6 a7 a8 a9 a10 a11 a12 a13 a14 a15) a14 a15 a4) (w1_2_2 (F := Ideal) a6) (b1_2_2 (F := Ideal) a7) (w2_2_2 (F := Ideal) a8) (b2_2_2 (F := Ideal) a9) :=
  (W48_of m ρ c main_v287 (by decide)).trans (e47_v287 m ρ H c)
theorem e33_arg17 : W33 (F := Ideal) m ρ c (Proc.devRef .tc main_arg17) = m ((c : Thread nD τ).loc main_arg17) :=
  (W33_of m ρ c main_arg17 (by decide)).trans (e32_arg17 m ρ H c)
theorem e34_arg17 : W34 (F := Ideal) m ρ c (Proc.devRef .tc main_arg17) = m ((c : Thread nD τ).loc main_arg17) :=
  (W34_of m ρ c main_arg17 (by decide)).trans (e33_arg17 m ρ H c)
theorem e35_arg17 : W35 (F := Ideal) m ρ c (Proc.devRef .tc main_arg17) = m ((c : Thread nD τ).loc main_arg17) :=
  (W35_of m ρ c main_arg17 (by decide)).trans (e34_arg17 m ρ H c)
theorem e36_arg17 : W36 (F := Ideal) m ρ c (Proc.devRef .tc main_arg17) = m ((c : Thread nD τ).loc main_arg17) :=
  (W36_of m ρ c main_arg17 (by decide)).trans (e35_arg17 m ρ H c)
theorem e37_arg17 : W37 (F := Ideal) m ρ c (Proc.devRef .tc main_arg17) = m ((c : Thread nD τ).loc main_arg17) :=
  (W37_of m ρ c main_arg17 (by decide)).trans (e36_arg17 m ρ H c)
theorem e38_arg17 : W38 (F := Ideal) m ρ c (Proc.devRef .tc main_arg17) = m ((c : Thread nD τ).loc main_arg17) :=
  (W38_of m ρ c main_arg17 (by decide)).trans (e37_arg17 m ρ H c)
theorem e39_arg17 : W39 (F := Ideal) m ρ c (Proc.devRef .tc main_arg17) = m ((c : Thread nD τ).loc main_arg17) :=
  (W39_of m ρ c main_arg17 (by decide)).trans (e38_arg17 m ρ H c)
theorem e40_arg17 : W40 (F := Ideal) m ρ c (Proc.devRef .tc main_arg17) = m ((c : Thread nD τ).loc main_arg17) :=
  (W40_of m ρ c main_arg17 (by decide)).trans (e39_arg17 m ρ H c)
theorem e41_arg17 : W41 (F := Ideal) m ρ c (Proc.devRef .tc main_arg17) = m ((c : Thread nD τ).loc main_arg17) :=
  (W41_of m ρ c main_arg17 (by decide)).trans (e40_arg17 m ρ H c)
theorem e42_arg17 : W42 (F := Ideal) m ρ c (Proc.devRef .tc main_arg17) = m ((c : Thread nD τ).loc main_arg17) :=
  (W42_of m ρ c main_arg17 (by decide)).trans (e41_arg17 m ρ H c)
theorem e43_arg17 : W43 (F := Ideal) m ρ c (Proc.devRef .tc main_arg17) = m ((c : Thread nD τ).loc main_arg17) :=
  (W43_of m ρ c main_arg17 (by decide)).trans (e42_arg17 m ρ H c)
theorem e44_arg17 : W44 (F := Ideal) m ρ c (Proc.devRef .tc main_arg17) = m ((c : Thread nD τ).loc main_arg17) :=
  (W44_of m ρ c main_arg17 (by decide)).trans (e43_arg17 m ρ H c)
theorem e45_arg17 : W45 (F := Ideal) m ρ c (Proc.devRef .tc main_arg17) = m ((c : Thread nD τ).loc main_arg17) :=
  (W45_of m ρ c main_arg17 (by decide)).trans (e44_arg17 m ρ H c)
theorem e46_arg17 : W46 (F := Ideal) m ρ c (Proc.devRef .tc main_arg17) = m ((c : Thread nD τ).loc main_arg17) :=
  (W46_of m ρ c main_arg17 (by decide)).trans (e45_arg17 m ρ H c)
theorem e47_arg17 : W47 (F := Ideal) m ρ c (Proc.devRef .tc main_arg17) = m ((c : Thread nD τ).loc main_arg17) :=
  (W47_of m ρ c main_arg17 (by decide)).trans (e46_arg17 m ρ H c)
theorem e48_arg17 : W48 (F := Ideal) m ρ c (Proc.devRef .tc main_arg17) = m ((c : Thread nD τ).loc main_arg17) :=
  (W48_of m ρ c main_arg17 (by decide)).trans (e47_arg17 m ρ H c)
theorem e47_v296 : W47 (F := Ideal) m ρ c (Proc.devRef .tc main_v296) = Cert.Mlp.hostMlpM (F := Ideal) (aggAM (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a12 a13 a3) (w1_2_1 (F := Ideal) a6) (b1_2_1 (F := Ideal) a7) (w2_2_1 (F := Ideal) a8) (b2_2_1 (F := Ideal) a9) :=
  (W47_of m ρ c main_v296 (by decide)).trans (e46_v296 m ρ H c)
theorem e48_v296 : W48 (F := Ideal) m ρ c (Proc.devRef .tc main_v296) = Cert.Mlp.hostMlpM (F := Ideal) (aggAM (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a12 a13 a3) (w1_2_1 (F := Ideal) a6) (b1_2_1 (F := Ideal) a7) (w2_2_1 (F := Ideal) a8) (b2_2_1 (F := Ideal) a9) :=
  (W48_of m ρ c main_v296 (by decide)).trans (e47_v296 m ρ H c)

end Cert.HostChain

end
-- ==== Proof.HC.Final.lean ====
/-
  The kernel program's result, as the layered function `specRes` of the eighteen arguments.

  The last stretch of host operations adds the third layer's outputs, pools them, and concatenates the three pooled
  arrays. A concatenation of three operands reads each operand at its own buffer: the first two pooled arrays are as the
  earlier layers left them, the third is the stretch's own composed term; with the earlier modules' equations for those
  buffers the result is `specRes` by unfolding.
-/
import proofs.«171333_j58007828300388_1_alg».proof.Proof.HC.Ker3

set_option maxRecDepth 16384

noncomputable section

namespace Cert.HostChain

open Cert.KernelIdeal Cert.KernelIdeal.Gen Cert.KernelIdeal.Fr
open Idealize.ShloMosaic Idealize.ShloMosaic.TcCoe Idealize.SL.Sem Idealize.ShloMosaic.StableHlo

variable [Cert.ReferenceIdeal.Facts₀]

section Nary3

variable {Val : EltTy → Type}

/-- An operation of three literal operands, read at its result: its function applied to the three operands' contents, each
    at its own buffer (the three-operand form of the library's four-operand lemma, proved the same way). -/
theorem nary3_result {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same with the three operands' contents given by equations. -/
theorem nary3_result_of {x a b y : Ref sig .tc}
    (f : ((k : Fin 3) → ((![x, a, b] : Fin 3 → Ref sig .tc) k).ty.Contents Val) → y.ty.Contents Val) (hxs hy)
    (G : Valuation τ sig Val)
    {A : (Proc.devRef (τ := τ) .tc x).ty.Contents Val} {B : (Proc.devRef (τ := τ) .tc a).ty.Contents Val}
    {C : (Proc.devRef (τ := τ) .tc b).ty.Contents Val}
    (hA : G (Proc.devRef .tc x) = A) (hB : G (Proc.devRef .tc a) = B) (hC : G (Proc.devRef .tc b) = C) :
    (nary (τ := τ) ![x, a, b] y f hxs hy).result G (Proc.devRef .tc y)
      = f (Fin.cons A (Fin.cons B (Fin.cons C (fun i => i.elim0)))) := by
  subst hA hB hC; exact nary3_result f hxs hy G

end Nary3

set_option maxHeartbeats 4000000

variable (m : (ℓ : Loc nD τ sig) → Buf (Elt Ideal) ℓ) (ρ : Dev nD → PrngReg) (H : RegionMlp m ρ) (c : Dev nD)
include H

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)
local notation "a17" => m ((c : Thread nD τ).loc main_arg17)

theorem e49_v315 : W49 (F := Ideal) m ρ c (Proc.devRef .tc main_v315) = specRes (F := Ideal) a0 a1 a2 a3 a4 a5 a6 a7 a8 a9 a10 a11 a12 a13 a14 a15 a16 a17 := by
  show StableHlo.after hostOps12 (W48 (F := Ideal) m ρ c) (Proc.devRef .tc main_v315) = _
  simp only [after_cons, after_nil]
  refine (nary3_result_of _ _ _ _ (A := pool (F := Ideal) (xa1 (F := Ideal) a0 a1 a2 a3 a4 a5 a6 a7 a8 a9 a10 a11 a12 a13 a14 a15) (xm1 (F := Ideal) a0 a1 a2 a3 a4 a5 a6 a7 a8 a9 a10 a11 a12 a13 a14 a15) a16 a17) (B := pool (F := Ideal) (xa2 (F := Ideal) a0 a1 a2 a3 a4 a5 a6 a7 a8 a9 a10 a11 a12 a13 a14 a15) (xm2 (F := Ideal) a0 a1 a2 a3 a4 a5 a6 a7 a8 a9 a10 a11 a12 a13 a14 a15) a16 a17) (C := pool (F := Ideal) (xa3 (F := Ideal) a0 a1 a2 a3 a4 a5 a6 a7 a8 a9 a10 a11 a12 a13 a14 a15) (xm3 (F := Ideal) a0 a1 a2 a3 a4 a5 a6 a7 a8 a9 a10 a11 a12 a13 a14 a15) a16 a17) ?_ ?_ ?_).trans ?_
  · after_results_simp
    exact e48_v104 m ρ H c
  · after_results_simp
    exact e48_v209 m ρ H c
  · after_results_simp
    rw [e48_arg16 m ρ H c, e48_v278 m ρ H c, e48_v287 m ρ H c, e48_arg17 m ρ H c, e48_v296 m ρ H c, e48_v305 m ρ H c]
    rfl
  · rfl

/-- THE KERNEL PROGRAM'S RESULT: on every core, the result buffer after the last item holds the layered function of the
    eighteen arguments as launched, given that each region computes the perceptron of its inputs. -/
theorem ker_eq : W49 (F := Ideal) m ρ c (Proc.devRef .tc main_v315)
    = specRes (F := Ideal) (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17)) :=
  e49_v315 m ρ H c

end Cert.HostChain

end
-- ==== Proof.RR.Run.lean ====
/-
  The reference program's run, over its 502 host operations cut into the eight windows of @main.

  Each window's operations are a list (the modules Ops0 … Ops7), and @main runs the windows in order, so @main is the
  concatenation of the eight lists run as one line. Every weakly fair execution of a straight line of host operations
  terminates with each buffer at the fold of the operations' results over the launch contents (the library's theorem for
  a line); this module states that for the concatenation, and that a reference no operation writes keeps its contents.
-/
import proofs.«171333_j58007828300388_1_alg».proof.Proof.RR.Ops0
import proofs.«171333_j58007828300388_1_alg».proof.Proof.RR.Ops1
import proofs.«171333_j58007828300388_1_alg».proof.Proof.RR.Ops2
import proofs.«171333_j58007828300388_1_alg».proof.Proof.RR.Ops3
import proofs.«171333_j58007828300388_1_alg».proof.Proof.RR.Ops4
import proofs.«171333_j58007828300388_1_alg».proof.Proof.RR.Ops5
import proofs.«171333_j58007828300388_1_alg».proof.Proof.RR.Ops6
import proofs.«171333_j58007828300388_1_alg».proof.Proof.RR.Ops7
import Idealize.ShloMosaic.Lib.Pipeline.Frame

noncomputable section

namespace Cert.RefChain

open Cert.ReferenceIdeal Cert.ReferenceIdeal.Gen Idealize.ShloMosaic Idealize.ShloMosaic.TcCoe Idealize.SL.Sem Idealize.ShloMosaic.StableHlo

variable {F : FTy → Type} [FloatOps F]

/-! ## Two facts about concatenated lines -/

/-- Two programs that are lines, run one after the other, are the concatenated line. -/
theorem seq_append_of {nD : Nat} {τ : Topo} {sig : RefSig} {Val : EltTy → Type} {Λ : Labels} {l₁ l₂ : List (HloOp τ sig Val)}
    {p q : Prog (TpuEff nD τ sig Val Λ .tc) PUnit} (h₁ : p = seq l₁) (h₂ : q = seq l₂) :
    (p >>= fun _ => q) = seq (l₁ ++ l₂) := by
  subst h₁ h₂; exact (seq_append l₁ l₂).symm

/-- If every operation of `l₁` writes inside `W₁` and every operation of `l₂` inside `W₂`, every operation of `l₁ ++ l₂`
    writes inside `W₁ ++ W₂`. -/
theorem writes_append {τ : Topo} {sig : RefSig} {Val : EltTy → Type} {l₁ l₂ : List (HloOp τ sig Val)} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  refine List.forall_append.mpr ⟨h₁.imp fun _ h => h.trans ?_, h₂.imp fun _ h => h.trans ?_⟩
  · intro x hx; rw [List.map_append, List.toFinset_append]; exact Finset.mem_union_left _ hx
  · intro x hx; rw [List.map_append, List.toFinset_append]; exact Finset.mem_union_right _ hx

/-! ## What each window writes -/

/-- The references window 0's operations write. -/
abbrev rops0_W : List (Ref sig .tc) := rops0a_W ++ (rops0b_W)
theorem rops0_writes : (rops0 : List (HloOp τ sig (Elt F))).Forall fun op => op.writes ⊆ (rops0_W.map (Proc.devRef (τ := τ) .tc)).toFinset :=
  writes_append rops0a_writes (rops0b_writes)
/-- The references window 1's operations write. -/
abbrev rops1_W : List (Ref sig .tc) := rops1a_W ++ (rops1b_W ++ (rops1c_W))
theorem rops1_writes : (rops1 : List (HloOp τ sig (Elt F))).Forall fun op => op.writes ⊆ (rops1_W.map (Proc.devRef (τ := τ) .tc)).toFinset :=
  writes_append rops1a_writes (writes_append rops1b_writes (rops1c_writes))
/-- The references window 2's operations write. -/
abbrev rops2_W : List (Ref sig .tc) := rops2a_W ++ (rops2b_W ++ (rops2c_W))
theorem rops2_writes : (rops2 : List (HloOp τ sig (Elt F))).Forall fun op => op.writes ⊆ (rops2_W.map (Proc.devRef (τ := τ) .tc)).toFinset :=
  writes_append rops2a_writes (writes_append rops2b_writes (rops2c_writes))
/-- The references window 3's operations write. -/
abbrev rops3_W : List (Ref sig .tc) := rops3a_W ++ (rops3b_W ++ (rops3c_W))
theorem rops3_writes : (rops3 : List (HloOp τ sig (Elt F))).Forall fun op => op.writes ⊆ (rops3_W.map (Proc.devRef (τ := τ) .tc)).toFinset :=
  writes_append rops3a_writes (writes_append rops3b_writes (rops3c_writes))
/-- The references window 4's operations write. -/
abbrev rops4_W : List (Ref sig .tc) := rops4a_W ++ (rops4b_W ++ (rops4c_W))
theorem rops4_writes : (rops4 : List (HloOp τ sig (Elt F))).Forall fun op => op.writes ⊆ (rops4_W.map (Proc.devRef (τ := τ) .tc)).toFinset :=
  writes_append rops4a_writes (writes_append rops4b_writes (rops4c_writes))
/-- The references window 5's operations write. -/
abbrev rops5_W : List (Ref sig .tc) := rops5a_W ++ (rops5b_W ++ (rops5c_W))
theorem rops5_writes : (rops5 : List (HloOp τ sig (Elt F))).Forall fun op => op.writes ⊆ (rops5_W.map (Proc.devRef (τ := τ) .tc)).toFinset :=
  writes_append rops5a_writes (writes_append rops5b_writes (rops5c_writes))
/-- The references window 6's operations write. -/
abbrev rops6_W : List (Ref sig .tc) := rops6a_W ++ (rops6b_W ++ (rops6c_W))
theorem rops6_writes : (rops6 : List (HloOp τ sig (Elt F))).Forall fun op => op.writes ⊆ (rops6_W.map (Proc.devRef (τ := τ) .tc)).toFinset :=
  writes_append rops6a_writes (writes_append rops6b_writes (rops6c_writes))
/-- The references window 7's operations write. -/
abbrev rops7_W : List (Ref sig .tc) := rops7a_W ++ (rops7b_W ++ (rops7c_W))
theorem rops7_writes : (rops7 : List (HloOp τ sig (Elt F))).Forall fun op => op.writes ⊆ (rops7_W.map (Proc.devRef (τ := τ) .tc)).toFinset :=
  writes_append rops7a_writes (writes_append rops7b_writes (rops7c_writes))

/-! ## @main as one line -/

/-- @main's 502 operations, in order: the eight windows' lists concatenated. -/
abbrev rops : List (HloOp τ sig (Elt F)) := rops0 ++ (rops1 ++ (rops2 ++ (rops3 ++ (rops4 ++ (rops5 ++ (rops6 ++ (rops7)))))))

/-- @main runs its windows in order, each a line: it is the concatenated line. -/
theorem main_eq (c : Dev nD) : main (F := F) c = seq rops :=
  seq_append_of (main_part0_eq c) (seq_append_of (main_part1_eq c) (seq_append_of (main_part2_eq c) (seq_append_of (main_part3_eq c) (seq_append_of (main_part4_eq c) (seq_append_of (main_part5_eq c) (seq_append_of (main_part6_eq c) (main_part7_eq c)))))))

theorem scopedRefs_eq : (Finset.univ.filter fun b : Ref sig .tc => b.isScoped) = ∅ := by decide
theorem scopedSems_eq : (Finset.univ.filter fun sm : SemLoc sig => sm.isScoped .tc) = ∅ := by decide

theorem rops_sub : (rops : List (HloOp τ sig (Elt F))).Forall fun op => op.bufs ⊆ tcRefs τ sig :=
  List.forall_append.mpr ⟨rops0_sub, List.forall_append.mpr ⟨rops1_sub, List.forall_append.mpr ⟨rops2_sub, List.forall_append.mpr ⟨rops3_sub, List.forall_append.mpr ⟨rops4_sub, List.forall_append.mpr ⟨rops5_sub, List.forall_append.mpr ⟨rops6_sub, rops7_sub⟩⟩⟩⟩⟩⟩⟩

theorem rops_fresh : (rops : List (HloOp τ sig (Elt F))).Forall fun op => op.fresh = ∅ :=
  List.forall_append.mpr ⟨rops0_fresh, List.forall_append.mpr ⟨rops1_fresh, List.forall_append.mpr ⟨rops2_fresh, List.forall_append.mpr ⟨rops3_fresh, List.forall_append.mpr ⟨rops4_fresh, List.forall_append.mpr ⟨rops5_fresh, List.forall_append.mpr ⟨rops6_fresh, rops7_fresh⟩⟩⟩⟩⟩⟩⟩

/-- On every device, for any float values, from any memory with zero counters: every weakly fair execution of @main
    terminates with every buffer at the fold of the 502 operations' results over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after rops (launchContents m d) (Proc.devRef .tc b) :=
  run_seq scopedRefs_eq scopedSems_eq defs main (fun _ => rops) main_eq (fun _ => rops_sub) m ρ
    (fun _ => List.forall_iff_forall_mem.mp rops_fresh)

/-! ## A reference no window writes keeps its contents -/

/-- A reference outside what a line writes keeps its contents across the line (the library's lemma, with the line's
    facts as hypotheses of a function of the contents). -/
theorem keep_of {l : List (HloOp τ sig (Elt F))} {W : List (Ref sig .tc)}
    (hW : l.Forall fun op => op.writes ⊆ (W.map (Proc.devRef (τ := τ) .tc)).toFinset) {r : Ref sig .tc} (hr : r ∉ W)
    (V : Valuation τ sig (Elt F)) : after l V (Proc.devRef .tc r) = V (Proc.devRef .tc r) :=
  after_of_writes_sub l V hW hr

/-- A reference that keeps its contents across each of two lines keeps them across the concatenated line. -/
theorem keep_append {l₁ l₂ : List (HloOp τ sig (Elt F))} {r : Ref sig .tc}
    (h₁ : ∀ V : Valuation τ sig (Elt F), after l₁ V (Proc.devRef .tc r) = V (Proc.devRef .tc r))
    (h₂ : ∀ V : Valuation τ sig (Elt F), after l₂ V (Proc.devRef .tc r) = V (Proc.devRef .tc r))
    (V : Valuation τ sig (Elt F)) : after (l₁ ++ l₂) V (Proc.devRef .tc r) = V (Proc.devRef .tc r) := by
  rw [StableHlo.after_append, h₂, h₁]

/-- A reference outside what each of the eight windows writes keeps its contents across all 502 operations. -/
theorem rops_keep {r : Ref sig .tc} (h0 : r ∉ rops0_W) (h1 : r ∉ rops1_W) (h2 : r ∉ rops2_W) (h3 : r ∉ rops3_W) (h4 : r ∉ rops4_W) (h5 : r ∉ rops5_W) (h6 : r ∉ rops6_W) (h7 : r ∉ rops7_W)
    (V : Valuation τ sig (Elt F)) : after rops V (Proc.devRef .tc r) = V (Proc.devRef .tc r) :=
  keep_append (keep_of rops0_writes h0) (keep_append (keep_of rops1_writes h1) (keep_append (keep_of rops2_writes h2) (keep_append (keep_of rops3_writes h3) (keep_append (keep_of rops4_writes h4) (keep_append (keep_of rops5_writes h5) (keep_append (keep_of rops6_writes h6) (keep_of rops7_writes h7))))))) V

end Cert.RefChain

end
-- ==== Proof.RR.Layer0.lean ====
/-
  The first layer of the reference program read off its host operations.

  The layer is operations 1 … 167 of @main, here as the consecutive sublists rops0a, rops0b, rops1a, rops1b, rops1c, rops2a, rops2b. From any
  buffer contents, folding the operations' results in order leaves the layer's atom rows, motif rows and pooled rows at the
  layered functions `layerA`, `layerM` and `pool` of the contents of the buffers the layer reads (its input rows, the edge
  lists and attributes, the stacked parameters, the batch indices): each operation's result is its function of its operands'
  contents, and an operand is either an earlier operation's result or a buffer the layer does not write.
-/
import proofs.«171333_j58007828300388_1_alg».proof.Proof.RR.Ops0
import proofs.«171333_j58007828300388_1_alg».proof.Proof.RR.Ops1
import proofs.«171333_j58007828300388_1_alg».proof.Proof.RR.Ops2
import proofs.«171333_j58007828300388_1_alg».proof.Proof.HC.Spec
import Idealize.ShloMosaic.Lib.Pipeline.Frame

noncomputable section

namespace Cert.RefChain

open Cert.ReferenceIdeal Cert.ReferenceIdeal.Gen Idealize.ShloMosaic Idealize.ShloMosaic.TcCoe Idealize.SL.Sem Idealize.ShloMosaic.StableHlo
open Cert.HostChain

variable {F : FTy → Type} [FloatOps F]

/-! ## The first layer: operations 1 … 167 -/

set_option maxRecDepth 16384 in
set_option maxHeartbeats 40000000 in
/-- The atom rows after the first layer, from any contents `V`: the layer's atom side of the rows it reads. -/
theorem layer0_xa (V : Valuation τ sig (Elt F)) :
    (after rops2b (after rops2a (after rops1c (after rops1b (after rops1a (after rops0b (after rops0a V))))))) (Proc.devRef .tc main_v64) =
      layerA (V (Proc.devRef .tc main_arg0)) (V (Proc.devRef .tc main_arg1)) (srcAA (V (Proc.devRef .tc main_arg10))) (dstAA (V (Proc.devRef .tc main_arg10))) (V (Proc.devRef .tc main_arg2)) (V (Proc.devRef .tc main_arg14)) (V (Proc.devRef .tc main_arg15)) (V (Proc.devRef .tc main_arg4)) (w1_0_0 (V (Proc.devRef .tc main_arg6))) (b1_0_0 (V (Proc.devRef .tc main_arg7))) (w2_0_0 (V (Proc.devRef .tc main_arg8))) (b2_0_0 (V (Proc.devRef .tc main_arg9))) (w1_0_2 (V (Proc.devRef .tc main_arg6))) (b1_0_2 (V (Proc.devRef .tc main_arg7))) (w2_0_2 (V (Proc.devRef .tc main_arg8))) (b2_0_2 (V (Proc.devRef .tc main_arg9))) := by
  after_results_simp <;> rfl

set_option maxRecDepth 16384 in
set_option maxHeartbeats 40000000 in
/-- The motif rows after the first layer. -/
theorem layer0_xm (V : Valuation τ sig (Elt F)) :
    (after rops2b (after rops2a (after rops1c (after rops1b (after rops1a (after rops0b (after rops0a V))))))) (Proc.devRef .tc main_v129) =
      layerM (V (Proc.devRef .tc main_arg0)) (V (Proc.devRef .tc main_arg1)) (V (Proc.devRef .tc main_arg12)) (V (Proc.devRef .tc main_arg13)) (V (Proc.devRef .tc main_arg3)) (srcMM (V (Proc.devRef .tc main_arg11))) (dstMM (V (Proc.devRef .tc main_arg11))) (V (Proc.devRef .tc main_arg5)) (w1_0_1 (V (Proc.devRef .tc main_arg6))) (b1_0_1 (V (Proc.devRef .tc main_arg7))) (w2_0_1 (V (Proc.devRef .tc main_arg8))) (b2_0_1 (V (Proc.devRef .tc main_arg9))) (w1_0_3 (V (Proc.devRef .tc main_arg6))) (b1_0_3 (V (Proc.devRef .tc main_arg7))) (w2_0_3 (V (Proc.devRef .tc main_arg8))) (b2_0_3 (V (Proc.devRef .tc main_arg9))) := by
  after_results_simp <;> rfl

set_option maxRecDepth 16384 in
set_option maxHeartbeats 40000000 in
/-- The pooled rows after the first layer: the pooling of the layer's two outputs. -/
theorem layer0_pool (V : Valuation τ sig (Elt F)) :
    (after rops2b (after rops2a (after rops1c (after rops1b (after rops1a (after rops0b (after rops0a V))))))) (Proc.devRef .tc main_v136) =
      pool (layerA (V (Proc.devRef .tc main_arg0)) (V (Proc.devRef .tc main_arg1)) (srcAA (V (Proc.devRef .tc main_arg10))) (dstAA (V (Proc.devRef .tc main_arg10))) (V (Proc.devRef .tc main_arg2)) (V (Proc.devRef .tc main_arg14)) (V (Proc.devRef .tc main_arg15)) (V (Proc.devRef .tc main_arg4)) (w1_0_0 (V (Proc.devRef .tc main_arg6))) (b1_0_0 (V (Proc.devRef .tc main_arg7))) (w2_0_0 (V (Proc.devRef .tc main_arg8))) (b2_0_0 (V (Proc.devRef .tc main_arg9))) (w1_0_2 (V (Proc.devRef .tc main_arg6))) (b1_0_2 (V (Proc.devRef .tc main_arg7))) (w2_0_2 (V (Proc.devRef .tc main_arg8))) (b2_0_2 (V (Proc.devRef .tc main_arg9)))) (layerM (V (Proc.devRef .tc main_arg0)) (V (Proc.devRef .tc main_arg1)) (V (Proc.devRef .tc main_arg12)) (V (Proc.devRef .tc main_arg13)) (V (Proc.devRef .tc main_arg3)) (srcMM (V (Proc.devRef .tc main_arg11))) (dstMM (V (Proc.devRef .tc main_arg11))) (V (Proc.devRef .tc main_arg5)) (w1_0_1 (V (Proc.devRef .tc main_arg6))) (b1_0_1 (V (Proc.devRef .tc main_arg7))) (w2_0_1 (V (Proc.devRef .tc main_arg8))) (b2_0_1 (V (Proc.devRef .tc main_arg9))) (w1_0_3 (V (Proc.devRef .tc main_arg6))) (b1_0_3 (V (Proc.devRef .tc main_arg7))) (w2_0_3 (V (Proc.devRef .tc main_arg8))) (b2_0_3 (V (Proc.devRef .tc main_arg9)))) (V (Proc.devRef .tc main_arg16)) (V (Proc.devRef .tc main_arg17)) := by
  after_results_simp <;> rfl

/-- A reference none of the layer's operations writes keeps its contents across the layer. -/
theorem layer0_keep {r : Ref sig .tc} (h1 : r ∉ rops0a_W) (h2 : r ∉ rops0b_W) (h3 : r ∉ rops1a_W) (h4 : r ∉ rops1b_W) (h5 : r ∉ rops1c_W) (h6 : r ∉ rops2a_W) (h7 : r ∉ rops2b_W)
    (V : Valuation τ sig (Elt F)) :
    (after rops2b (after rops2a (after rops1c (after rops1b (after rops1a (after rops0b (after rops0a V))))))) (Proc.devRef .tc r) = V (Proc.devRef .tc r) := by
  rw [after_of_writes_sub rops2b _ rops2b_writes h7,
    after_of_writes_sub rops2a _ rops2a_writes h6,
    after_of_writes_sub rops1c _ rops1c_writes h5,
    after_of_writes_sub rops1b _ rops1b_writes h4,
    after_of_writes_sub rops1a _ rops1a_writes h3,
    after_of_writes_sub rops0b _ rops0b_writes h2,
    after_of_writes_sub rops0a _ rops0a_writes h1]

end Cert.RefChain

end
-- ==== Proof.RR.Layer1.lean ====
/-
  The second layer of the reference program read off its host operations.

  The layer is operations 168 … 334 of @main, here as the consecutive sublists rops2c, rops3a, rops3b, rops3c, rops4a, rops4b, rops4c, rops5a. From any
  buffer contents, folding the operations' results in order leaves the layer's atom rows, motif rows and pooled rows at the
  layered functions `layerA`, `layerM` and `pool` of the contents of the buffers the layer reads (its input rows, the edge
  lists and attributes, the stacked parameters, the batch indices): each operation's result is its function of its operands'
  contents, and an operand is either an earlier operation's result or a buffer the layer does not write.
-/
import proofs.«171333_j58007828300388_1_alg».proof.Proof.RR.Ops2
import proofs.«171333_j58007828300388_1_alg».proof.Proof.RR.Ops3
import proofs.«171333_j58007828300388_1_alg».proof.Proof.RR.Ops4
import proofs.«171333_j58007828300388_1_alg».proof.Proof.RR.Ops5
import proofs.«171333_j58007828300388_1_alg».proof.Proof.HC.Spec
import Idealize.ShloMosaic.Lib.Pipeline.Frame

noncomputable section

namespace Cert.RefChain

open Cert.ReferenceIdeal Cert.ReferenceIdeal.Gen Idealize.ShloMosaic Idealize.ShloMosaic.TcCoe Idealize.SL.Sem Idealize.ShloMosaic.StableHlo
open Cert.HostChain

variable {F : FTy → Type} [FloatOps F]

/-! ## The second layer: operations 168 … 334 -/

set_option maxRecDepth 16384 in
set_option maxHeartbeats 40000000 in
/-- The atom rows after the second layer, from any contents `V`: the layer's atom side of the rows it reads. -/
theorem layer1_xa (V : Valuation τ sig (Elt F)) :
    (after rops5a (after rops4c (after rops4b (after rops4a (after rops3c (after rops3b (after rops3a (after rops2c V)))))))) (Proc.devRef .tc main_v201) =
      layerA (V (Proc.devRef .tc main_v64)) (V (Proc.devRef .tc main_v129)) (srcAA (V (Proc.devRef .tc main_arg10))) (dstAA (V (Proc.devRef .tc main_arg10))) (V (Proc.devRef .tc main_arg2)) (V (Proc.devRef .tc main_arg14)) (V (Proc.devRef .tc main_arg15)) (V (Proc.devRef .tc main_arg4)) (w1_1_0 (V (Proc.devRef .tc main_arg6))) (b1_1_0 (V (Proc.devRef .tc main_arg7))) (w2_1_0 (V (Proc.devRef .tc main_arg8))) (b2_1_0 (V (Proc.devRef .tc main_arg9))) (w1_1_2 (V (Proc.devRef .tc main_arg6))) (b1_1_2 (V (Proc.devRef .tc main_arg7))) (w2_1_2 (V (Proc.devRef .tc main_arg8))) (b2_1_2 (V (Proc.devRef .tc main_arg9))) := by
  after_results_simp <;> rfl

set_option maxRecDepth 16384 in
set_option maxHeartbeats 40000000 in
/-- The motif rows after the second layer. -/
theorem layer1_xm (V : Valuation τ sig (Elt F)) :
    (after rops5a (after rops4c (after rops4b (after rops4a (after rops3c (after rops3b (after rops3a (after rops2c V)))))))) (Proc.devRef .tc main_v266) =
      layerM (V (Proc.devRef .tc main_v64)) (V (Proc.devRef .tc main_v129)) (V (Proc.devRef .tc main_arg12)) (V (Proc.devRef .tc main_arg13)) (V (Proc.devRef .tc main_arg3)) (srcMM (V (Proc.devRef .tc main_arg11))) (dstMM (V (Proc.devRef .tc main_arg11))) (V (Proc.devRef .tc main_arg5)) (w1_1_1 (V (Proc.devRef .tc main_arg6))) (b1_1_1 (V (Proc.devRef .tc main_arg7))) (w2_1_1 (V (Proc.devRef .tc main_arg8))) (b2_1_1 (V (Proc.devRef .tc main_arg9))) (w1_1_3 (V (Proc.devRef .tc main_arg6))) (b1_1_3 (V (Proc.devRef .tc main_arg7))) (w2_1_3 (V (Proc.devRef .tc main_arg8))) (b2_1_3 (V (Proc.devRef .tc main_arg9))) := by
  after_results_simp <;> rfl

set_option maxRecDepth 16384 in
set_option maxHeartbeats 40000000 in
/-- The pooled rows after the second layer: the pooling of the layer's two outputs. -/
theorem layer1_pool (V : Valuation τ sig (Elt F)) :
    (after rops5a (after rops4c (after rops4b (after rops4a (after rops3c (after rops3b (after rops3a (after rops2c V)))))))) (Proc.devRef .tc main_v273) =
      pool (layerA (V (Proc.devRef .tc main_v64)) (V (Proc.devRef .tc main_v129)) (srcAA (V (Proc.devRef .tc main_arg10))) (dstAA (V (Proc.devRef .tc main_arg10))) (V (Proc.devRef .tc main_arg2)) (V (Proc.devRef .tc main_arg14)) (V (Proc.devRef .tc main_arg15)) (V (Proc.devRef .tc main_arg4)) (w1_1_0 (V (Proc.devRef .tc main_arg6))) (b1_1_0 (V (Proc.devRef .tc main_arg7))) (w2_1_0 (V (Proc.devRef .tc main_arg8))) (b2_1_0 (V (Proc.devRef .tc main_arg9))) (w1_1_2 (V (Proc.devRef .tc main_arg6))) (b1_1_2 (V (Proc.devRef .tc main_arg7))) (w2_1_2 (V (Proc.devRef .tc main_arg8))) (b2_1_2 (V (Proc.devRef .tc main_arg9)))) (layerM (V (Proc.devRef .tc main_v64)) (V (Proc.devRef .tc main_v129)) (V (Proc.devRef .tc main_arg12)) (V (Proc.devRef .tc main_arg13)) (V (Proc.devRef .tc main_arg3)) (srcMM (V (Proc.devRef .tc main_arg11))) (dstMM (V (Proc.devRef .tc main_arg11))) (V (Proc.devRef .tc main_arg5)) (w1_1_1 (V (Proc.devRef .tc main_arg6))) (b1_1_1 (V (Proc.devRef .tc main_arg7))) (w2_1_1 (V (Proc.devRef .tc main_arg8))) (b2_1_1 (V (Proc.devRef .tc main_arg9))) (w1_1_3 (V (Proc.devRef .tc main_arg6))) (b1_1_3 (V (Proc.devRef .tc main_arg7))) (w2_1_3 (V (Proc.devRef .tc main_arg8))) (b2_1_3 (V (Proc.devRef .tc main_arg9)))) (V (Proc.devRef .tc main_arg16)) (V (Proc.devRef .tc main_arg17)) := by
  after_results_simp <;> rfl

/-- A reference none of the layer's operations writes keeps its contents across the layer. -/
theorem layer1_keep {r : Ref sig .tc} (h1 : r ∉ rops2c_W) (h2 : r ∉ rops3a_W) (h3 : r ∉ rops3b_W) (h4 : r ∉ rops3c_W) (h5 : r ∉ rops4a_W) (h6 : r ∉ rops4b_W) (h7 : r ∉ rops4c_W) (h8 : r ∉ rops5a_W)
    (V : Valuation τ sig (Elt F)) :
    (after rops5a (after rops4c (after rops4b (after rops4a (after rops3c (after rops3b (after rops3a (after rops2c V)))))))) (Proc.devRef .tc r) = V (Proc.devRef .tc r) := by
  rw [after_of_writes_sub rops5a _ rops5a_writes h8,
    after_of_writes_sub rops4c _ rops4c_writes h7,
    after_of_writes_sub rops4b _ rops4b_writes h6,
    after_of_writes_sub rops4a _ rops4a_writes h5,
    after_of_writes_sub rops3c _ rops3c_writes h4,
    after_of_writes_sub rops3b _ rops3b_writes h3,
    after_of_writes_sub rops3a _ rops3a_writes h2,
    after_of_writes_sub rops2c _ rops2c_writes h1]

end Cert.RefChain

end
-- ==== Proof.RR.Layer2.lean ====
/-
  The third layer of the reference program read off its host operations.

  The layer is operations 335 … 501 of @main, here as the consecutive sublists rops5b, rops5c, rops6a, rops6b, rops6c, rops7a, rops7b. From any
  buffer contents, folding the operations' results in order leaves the layer's atom rows, motif rows and pooled rows at the
  layered functions `layerA`, `layerM` and `pool` of the contents of the buffers the layer reads (its input rows, the edge
  lists and attributes, the stacked parameters, the batch indices): each operation's result is its function of its operands'
  contents, and an operand is either an earlier operation's result or a buffer the layer does not write.
-/
import proofs.«171333_j58007828300388_1_alg».proof.Proof.RR.Ops5
import proofs.«171333_j58007828300388_1_alg».proof.Proof.RR.Ops6
import proofs.«171333_j58007828300388_1_alg».proof.Proof.RR.Ops7
import proofs.«171333_j58007828300388_1_alg».proof.Proof.HC.Spec
import Idealize.ShloMosaic.Lib.Pipeline.Frame

noncomputable section

namespace Cert.RefChain

open Cert.ReferenceIdeal Cert.ReferenceIdeal.Gen Idealize.ShloMosaic Idealize.ShloMosaic.TcCoe Idealize.SL.Sem Idealize.ShloMosaic.StableHlo
open Cert.HostChain

variable {F : FTy → Type} [FloatOps F]

/-! ## The third layer: operations 335 … 501 -/

set_option maxRecDepth 16384 in
set_option maxHeartbeats 40000000 in
/-- The atom rows after the third layer, from any contents `V`: the layer's atom side of the rows it reads. -/
theorem layer2_xa (V : Valuation τ sig (Elt F)) :
    (after rops7b (after rops7a (after rops6c (after rops6b (after rops6a (after rops5c (after rops5b V))))))) (Proc.devRef .tc main_v338) =
      layerA (V (Proc.devRef .tc main_v201)) (V (Proc.devRef .tc main_v266)) (srcAA (V (Proc.devRef .tc main_arg10))) (dstAA (V (Proc.devRef .tc main_arg10))) (V (Proc.devRef .tc main_arg2)) (V (Proc.devRef .tc main_arg14)) (V (Proc.devRef .tc main_arg15)) (V (Proc.devRef .tc main_arg4)) (w1_2_0 (V (Proc.devRef .tc main_arg6))) (b1_2_0 (V (Proc.devRef .tc main_arg7))) (w2_2_0 (V (Proc.devRef .tc main_arg8))) (b2_2_0 (V (Proc.devRef .tc main_arg9))) (w1_2_2 (V (Proc.devRef .tc main_arg6))) (b1_2_2 (V (Proc.devRef .tc main_arg7))) (w2_2_2 (V (Proc.devRef .tc main_arg8))) (b2_2_2 (V (Proc.devRef .tc main_arg9))) := by
  after_results_simp <;> rfl

set_option maxRecDepth 16384 in
set_option maxHeartbeats 40000000 in
/-- The motif rows after the third layer. -/
theorem layer2_xm (V : Valuation τ sig (Elt F)) :
    (after rops7b (after rops7a (after rops6c (after rops6b (after rops6a (after rops5c (after rops5b V))))))) (Proc.devRef .tc main_v403) =
      layerM (V (Proc.devRef .tc main_v201)) (V (Proc.devRef .tc main_v266)) (V (Proc.devRef .tc main_arg12)) (V (Proc.devRef .tc main_arg13)) (V (Proc.devRef .tc main_arg3)) (srcMM (V (Proc.devRef .tc main_arg11))) (dstMM (V (Proc.devRef .tc main_arg11))) (V (Proc.devRef .tc main_arg5)) (w1_2_1 (V (Proc.devRef .tc main_arg6))) (b1_2_1 (V (Proc.devRef .tc main_arg7))) (w2_2_1 (V (Proc.devRef .tc main_arg8))) (b2_2_1 (V (Proc.devRef .tc main_arg9))) (w1_2_3 (V (Proc.devRef .tc main_arg6))) (b1_2_3 (V (Proc.devRef .tc main_arg7))) (w2_2_3 (V (Proc.devRef .tc main_arg8))) (b2_2_3 (V (Proc.devRef .tc main_arg9))) := by
  after_results_simp <;> rfl

set_option maxRecDepth 16384 in
set_option maxHeartbeats 40000000 in
/-- The pooled rows after the third layer: the pooling of the layer's two outputs. -/
theorem layer2_pool (V : Valuation τ sig (Elt F)) :
    (after rops7b (after rops7a (after rops6c (after rops6b (after rops6a (after rops5c (after rops5b V))))))) (Proc.devRef .tc main_v410) =
      pool (layerA (V (Proc.devRef .tc main_v201)) (V (Proc.devRef .tc main_v266)) (srcAA (V (Proc.devRef .tc main_arg10))) (dstAA (V (Proc.devRef .tc main_arg10))) (V (Proc.devRef .tc main_arg2)) (V (Proc.devRef .tc main_arg14)) (V (Proc.devRef .tc main_arg15)) (V (Proc.devRef .tc main_arg4)) (w1_2_0 (V (Proc.devRef .tc main_arg6))) (b1_2_0 (V (Proc.devRef .tc main_arg7))) (w2_2_0 (V (Proc.devRef .tc main_arg8))) (b2_2_0 (V (Proc.devRef .tc main_arg9))) (w1_2_2 (V (Proc.devRef .tc main_arg6))) (b1_2_2 (V (Proc.devRef .tc main_arg7))) (w2_2_2 (V (Proc.devRef .tc main_arg8))) (b2_2_2 (V (Proc.devRef .tc main_arg9)))) (layerM (V (Proc.devRef .tc main_v201)) (V (Proc.devRef .tc main_v266)) (V (Proc.devRef .tc main_arg12)) (V (Proc.devRef .tc main_arg13)) (V (Proc.devRef .tc main_arg3)) (srcMM (V (Proc.devRef .tc main_arg11))) (dstMM (V (Proc.devRef .tc main_arg11))) (V (Proc.devRef .tc main_arg5)) (w1_2_1 (V (Proc.devRef .tc main_arg6))) (b1_2_1 (V (Proc.devRef .tc main_arg7))) (w2_2_1 (V (Proc.devRef .tc main_arg8))) (b2_2_1 (V (Proc.devRef .tc main_arg9))) (w1_2_3 (V (Proc.devRef .tc main_arg6))) (b1_2_3 (V (Proc.devRef .tc main_arg7))) (w2_2_3 (V (Proc.devRef .tc main_arg8))) (b2_2_3 (V (Proc.devRef .tc main_arg9)))) (V (Proc.devRef .tc main_arg16)) (V (Proc.devRef .tc main_arg17)) := by
  after_results_simp <;> rfl

/-- A reference none of the layer's operations writes keeps its contents across the layer. -/
theorem layer2_keep {r : Ref sig .tc} (h1 : r ∉ rops5b_W) (h2 : r ∉ rops5c_W) (h3 : r ∉ rops6a_W) (h4 : r ∉ rops6b_W) (h5 : r ∉ rops6c_W) (h6 : r ∉ rops7a_W) (h7 : r ∉ rops7b_W)
    (V : Valuation τ sig (Elt F)) :
    (after rops7b (after rops7a (after rops6c (after rops6b (after rops6a (after rops5c (after rops5b V))))))) (Proc.devRef .tc r) = V (Proc.devRef .tc r) := by
  rw [after_of_writes_sub rops7b _ rops7b_writes h7,
    after_of_writes_sub rops7a _ rops7a_writes h6,
    after_of_writes_sub rops6c _ rops6c_writes h5,
    after_of_writes_sub rops6b _ rops6b_writes h4,
    after_of_writes_sub rops6a _ rops6a_writes h3,
    after_of_writes_sub rops5c _ rops5c_writes h2,
    after_of_writes_sub rops5b _ rops5b_writes h1]

end Cert.RefChain

end
-- ==== Proof.RR.Value.lean ====
/-
  The reference program's result as the layered function of its eighteen arguments.

  @main's 502 operations are three layers of 167 operations and one concatenation. Folding the operations' results over the
  launch contents: the concatenation reads the three pooled arrays; each pooled array is left untouched by the later layers
  and is its layer's pooling of that layer's outputs; a layer's outputs are `layerA` and `layerM` of the previous layer's
  outputs (the arguments, for the first) and of arguments no operation writes. Unfolding the layers from the last to the
  first gives `Cert.HostChain.specRes` of the arguments' launch contents, which is how that function is defined. No
  operation writes an argument, so every argument buffer ends as it started.
-/
import proofs.«171333_j58007828300388_1_alg».proof.Proof.RR.Run
import proofs.«171333_j58007828300388_1_alg».proof.Proof.RR.Layer0
import proofs.«171333_j58007828300388_1_alg».proof.Proof.RR.Layer1
import proofs.«171333_j58007828300388_1_alg».proof.Proof.RR.Layer2

set_option maxRecDepth 16384

noncomputable section

namespace Cert.RefChain

open Cert.ReferenceIdeal Cert.ReferenceIdeal.Gen Idealize.ShloMosaic Idealize.ShloMosaic.TcCoe Idealize.SL.Sem Idealize.ShloMosaic.StableHlo
open Cert.HostChain

variable {F : FTy → Type} [FloatOps F]

/-- Operation 502: the three pooled arrays concatenated along the columns. -/
theorem final_res (V : Valuation τ sig (Elt F)) :
    after rops7c V (Proc.devRef .tc main_v411) =
      concatenate S500x768 1 [⟨S500x256, (V (Proc.devRef .tc main_v136))⟩, ⟨S500x256, (V (Proc.devRef .tc main_v273))⟩, ⟨S500x256, (V (Proc.devRef .tc main_v410))⟩] concatenates_S500x256_S500x256_S500x256_S500x768_d1 := by
  after_results_simp <;> rfl

set_option maxHeartbeats 4000000 in
/-- The result buffer after all 502 operations, from any contents `V`: the layered function of `V` at the arguments. -/
theorem res (V : Valuation τ sig (Elt F)) :
    after rops V (Proc.devRef .tc main_v411) =
      specRes (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  simp only [rops, rops0, rops1, rops2, rops3, rops4, rops5, rops6, rops7, StableHlo.after_append]
  rw [final_res]
  -- the third layer: its pooled rows; the first two pooled arrays pass through it
  rw [layer2_pool, layer2_keep (r := main_v136) (by decide) (by decide) (by decide) (by decide) (by decide) (by decide) (by decide), layer2_keep (r := main_v273) (by decide) (by decide) (by decide) (by decide) (by decide) (by decide) (by decide)]
  -- the second layer: the rows the third reads, its pooled rows; the first pooled array and the arguments pass through it
  rw [layer1_xa, layer1_xm, layer1_pool, layer1_keep (r := main_v136) (by decide) (by decide) (by decide) (by decide) (by decide) (by decide) (by decide) (by decide),
    layer1_keep (r := main_arg2) (by decide) (by decide) (by decide) (by decide) (by decide) (by decide) (by decide) (by decide),
    layer1_keep (r := main_arg3) (by decide) (by decide) (by decide) (by decide) (by decide) (by decide) (by decide) (by decide),
    layer1_keep (r := main_arg4) (by decide) (by decide) (by decide) (by decide) (by decide) (by decide) (by decide) (by decide),
    layer1_keep (r := main_arg5) (by decide) (by decide) (by decide) (by decide) (by decide) (by decide) (by decide) (by decide),
    layer1_keep (r := main_arg6) (by decide) (by decide) (by decide) (by decide) (by decide) (by decide) (by decide) (by decide),
    layer1_keep (r := main_arg7) (by decide) (by decide) (by decide) (by decide) (by decide) (by decide) (by decide) (by decide),
    layer1_keep (r := main_arg8) (by decide) (by decide) (by decide) (by decide) (by decide) (by decide) (by decide) (by decide),
    layer1_keep (r := main_arg9) (by decide) (by decide) (by decide) (by decide) (by decide) (by decide) (by decide) (by decide),
    layer1_keep (r := main_arg10) (by decide) (by decide) (by decide) (by decide) (by decide) (by decide) (by decide) (by decide),
    layer1_keep (r := main_arg11) (by decide) (by decide) (by decide) (by decide) (by decide) (by decide) (by decide) (by decide),
    layer1_keep (r := main_arg12) (by decide) (by decide) (by decide) (by decide) (by decide) (by decide) (by decide) (by decide),
    layer1_keep (r := main_arg13) (by decide) (by decide) (by decide) (by decide) (by decide) (by decide) (by decide) (by decide),
    layer1_keep (r := main_arg14) (by decide) (by decide) (by decide) (by decide) (by decide) (by decide) (by decide) (by decide),
    layer1_keep (r := main_arg15) (by decide) (by decide) (by decide) (by decide) (by decide) (by decide) (by decide) (by decide),
    layer1_keep (r := main_arg16) (by decide) (by decide) (by decide) (by decide) (by decide) (by decide) (by decide) (by decide),
    layer1_keep (r := main_arg17) (by decide) (by decide) (by decide) (by decide) (by decide) (by decide) (by decide) (by decide)]
  -- the first layer
  rw [layer0_xa, layer0_xm, layer0_pool,
    layer0_keep (r := main_arg2) (by decide) (by decide) (by decide) (by decide) (by decide) (by decide) (by decide),
    layer0_keep (r := main_arg3) (by decide) (by decide) (by decide) (by decide) (by decide) (by decide) (by decide),
    layer0_keep (r := main_arg4) (by decide) (by decide) (by decide) (by decide) (by decide) (by decide) (by decide),
    layer0_keep (r := main_arg5) (by decide) (by decide) (by decide) (by decide) (by decide) (by decide) (by decide),
    layer0_keep (r := main_arg6) (by decide) (by decide) (by decide) (by decide) (by decide) (by decide) (by decide),
    layer0_keep (r := main_arg7) (by decide) (by decide) (by decide) (by decide) (by decide) (by decide) (by decide),
    layer0_keep (r := main_arg8) (by decide) (by decide) (by decide) (by decide) (by decide) (by decide) (by decide),
    layer0_keep (r := main_arg9) (by decide) (by decide) (by decide) (by decide) (by decide) (by decide) (by decide),
    layer0_keep (r := main_arg10) (by decide) (by decide) (by decide) (by decide) (by decide) (by decide) (by decide),
    layer0_keep (r := main_arg11) (by decide) (by decide) (by decide) (by decide) (by decide) (by decide) (by decide),
    layer0_keep (r := main_arg12) (by decide) (by decide) (by decide) (by decide) (by decide) (by decide) (by decide),
    layer0_keep (r := main_arg13) (by decide) (by decide) (by decide) (by decide) (by decide) (by decide) (by decide),
    layer0_keep (r := main_arg14) (by decide) (by decide) (by decide) (by decide) (by decide) (by decide) (by decide),
    layer0_keep (r := main_arg15) (by decide) (by decide) (by decide) (by decide) (by decide) (by decide) (by decide),
    layer0_keep (r := main_arg16) (by decide) (by decide) (by decide) (by decide) (by decide) (by decide) (by decide),
    layer0_keep (r := main_arg17) (by decide) (by decide) (by decide) (by decide) (by decide) (by decide) (by decide)]
  rfl

/-- On every device, for any float values, from any memory with zero counters: every weakly fair execution of @main
    terminates with the result buffer at the layered function of the arguments' launch contents and every argument
    buffer unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v411) = Cert.HostChain.specRes (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v411).trans (res (launchContents m c)),
      (h c main_arg0).trans (rops_keep (r := main_arg0) (by decide) (by decide) (by decide) (by decide) (by decide) (by decide) (by decide) (by decide) (launchContents m c)),
      (h c main_arg1).trans (rops_keep (r := main_arg1) (by decide) (by decide) (by decide) (by decide) (by decide) (by decide) (by decide) (by decide) (launchContents m c)),
      (h c main_arg2).trans (rops_keep (r := main_arg2) (by decide) (by decide) (by decide) (by decide) (by decide) (by decide) (by decide) (by decide) (launchContents m c)),
      (h c main_arg3).trans (rops_keep (r := main_arg3) (by decide) (by decide) (by decide) (by decide) (by decide) (by decide) (by decide) (by decide) (launchContents m c)),
      (h c main_arg4).trans (rops_keep (r := main_arg4) (by decide) (by decide) (by decide) (by decide) (by decide) (by decide) (by decide) (by decide) (launchContents m c)),
      (h c main_arg5).trans (rops_keep (r := main_arg5) (by decide) (by decide) (by decide) (by decide) (by decide) (by decide) (by decide) (by decide) (launchContents m c)),
      (h c main_arg6).trans (rops_keep (r := main_arg6) (by decide) (by decide) (by decide) (by decide) (by decide) (by decide) (by decide) (by decide) (launchContents m c)),
      (h c main_arg7).trans (rops_keep (r := main_arg7) (by decide) (by decide) (by decide) (by decide) (by decide) (by decide) (by decide) (by decide) (launchContents m c)),
      (h c main_arg8).trans (rops_keep (r := main_arg8) (by decide) (by decide) (by decide) (by decide) (by decide) (by decide) (by decide) (by decide) (launchContents m c)),
      (h c main_arg9).trans (rops_keep (r := main_arg9) (by decide) (by decide) (by decide) (by decide) (by decide) (by decide) (by decide) (by decide) (launchContents m c)),
      (h c main_arg10).trans (rops_keep (r := main_arg10) (by decide) (by decide) (by decide) (by decide) (by decide) (by decide) (by decide) (by decide) (launchContents m c)),
      (h c main_arg11).trans (rops_keep (r := main_arg11) (by decide) (by decide) (by decide) (by decide) (by decide) (by decide) (by decide) (by decide) (launchContents m c)),
      (h c main_arg12).trans (rops_keep (r := main_arg12) (by decide) (by decide) (by decide) (by decide) (by decide) (by decide) (by decide) (by decide) (launchContents m c)),
      (h c main_arg13).trans (rops_keep (r := main_arg13) (by decide) (by decide) (by decide) (by decide) (by decide) (by decide) (by decide) (by decide) (launchContents m c)),
      (h c main_arg14).trans (rops_keep (r := main_arg14) (by decide) (by decide) (by decide) (by decide) (by decide) (by decide) (by decide) (by decide) (launchContents m c)),
      (h c main_arg15).trans (rops_keep (r := main_arg15) (by decide) (by decide) (by decide) (by decide) (by decide) (by decide) (by decide) (by decide) (launchContents m c)),
      (h c main_arg16).trans (rops_keep (r := main_arg16) (by decide) (by decide) (by decide) (by decide) (by decide) (by decide) (by decide) (by decide) (launchContents m c)),
      (h c main_arg17).trans (rops_keep (r := main_arg17) (by decide) (by decide) (by decide) (by decide) (by decide) (by decide) (by decide) (by decide) (launchContents m c))⟩)
    (run_all m ρ)

end Cert.RefChain

end
-- ==== Proof.lean ====
/-
  The certificate's five claims.
  The kernel program and its idealization are the same text: three layers, in each of which the host gathers,
  adds, rectifies and scatter-adds four aggregates, sends each through a two-layer perceptron — a kernel region
  over a grid of 2000-row blocks — adds the results pairwise and pools them; the three pooled arrays are
  concatenated.  The frames: the main function's forty-nine items are chained over the thread state, each region by its
  pipeline's run (the body reads five whole staging buffers and overwrites the sixth).  The value: a region's output array
  is the host's perceptron of its five input arrays, entry by entry (the two matrix products are plain sums at the ideal
  instance, rounding to bf16 is the identity), so the kernel program's result and the reference's are one layered function of
  the eighteen arguments; no law of the extended reals beyond the definitions is needed, and the precondition is not used.
-/
import proofs.«171333_j58007828300388_1_alg».proof.Defs
import proofs.«171333_j58007828300388_1_alg».proof.Proof.Gen.Kernel
import proofs.«171333_j58007828300388_1_alg».proof.Proof.Gen.KernelIdeal
import proofs.«171333_j58007828300388_1_alg».proof.Proof.Gen.ReferenceIdeal
import proofs.«171333_j58007828300388_1_alg».proof.Proof.Gen.Pre_finite_inputs
import proofs.«171333_j58007828300388_1_alg».proof.Proof.K.Run
import proofs.«171333_j58007828300388_1_alg».proof.Proof.KI.Run
import proofs.«171333_j58007828300388_1_alg».proof.Proof.KI.Fins
import proofs.«171333_j58007828300388_1_alg».proof.Proof.HC.Final
import proofs.«171333_j58007828300388_1_alg».proof.Proof.RR.Value
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.RefChain.run m ρ)

theorem preserves : Cert.preserves_Kernel_KernelIdeal := trivial

/-- Both programs end with the layered function of the arguments: the kernel program by its run, the twelve regions' outputs
    read as host perceptrons; the reference by its own run. -/
theorem algebraic : Cert.algebraic_KernelIdeal_ReferenceIdeal := by
  intro m ρ m' ρ' _ hagree
  refine ⟨fun c => Cert.HostChain.specRes (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono (fun r h c =>
      ⟨(h c _ (Cert.KernelIdeal.Fr.mem_uc Cert.KernelIdeal.main_v315 (by decide))).trans (Cert.HostChain.ker_eq m ρ (Cert.KernelIdeal.Fr.regionMlp m ρ) c),
      (h c _ (Cert.KernelIdeal.Fr.mem_uc Cert.KernelIdeal.main_arg0 (by decide))).trans (Cert.KernelIdeal.Fr.W49_main_arg0 m ρ c),
      (h c _ (Cert.KernelIdeal.Fr.mem_uc Cert.KernelIdeal.main_arg1 (by decide))).trans (Cert.KernelIdeal.Fr.W49_main_arg1 m ρ c),
      (h c _ (Cert.KernelIdeal.Fr.mem_uc Cert.KernelIdeal.main_arg2 (by decide))).trans (Cert.KernelIdeal.Fr.W49_main_arg2 m ρ c),
      (h c _ (Cert.KernelIdeal.Fr.mem_uc Cert.KernelIdeal.main_arg3 (by decide))).trans (Cert.KernelIdeal.Fr.W49_main_arg3 m ρ c),
      (h c _ (Cert.KernelIdeal.Fr.mem_uc Cert.KernelIdeal.main_arg4 (by decide))).trans (Cert.KernelIdeal.Fr.W49_main_arg4 m ρ c),
      (h c _ (Cert.KernelIdeal.Fr.mem_uc Cert.KernelIdeal.main_arg5 (by decide))).trans (Cert.KernelIdeal.Fr.W49_main_arg5 m ρ c),
      (h c _ (Cert.KernelIdeal.Fr.mem_uc Cert.KernelIdeal.main_arg6 (by decide))).trans (Cert.KernelIdeal.Fr.W49_main_arg6 m ρ c),
      (h c _ (Cert.KernelIdeal.Fr.mem_uc Cert.KernelIdeal.main_arg7 (by decide))).trans (Cert.KernelIdeal.Fr.W49_main_arg7 m ρ c),
      (h c _ (Cert.KernelIdeal.Fr.mem_uc Cert.KernelIdeal.main_arg8 (by decide))).trans (Cert.KernelIdeal.Fr.W49_main_arg8 m ρ c),
      (h c _ (Cert.KernelIdeal.Fr.mem_uc Cert.KernelIdeal.main_arg9 (by decide))).trans (Cert.KernelIdeal.Fr.W49_main_arg9 m ρ c),
      (h c _ (Cert.KernelIdeal.Fr.mem_uc Cert.KernelIdeal.main_arg10 (by decide))).trans (Cert.KernelIdeal.Fr.W49_main_arg10 m ρ c),
      (h c _ (Cert.KernelIdeal.Fr.mem_uc Cert.KernelIdeal.main_arg11 (by decide))).trans (Cert.KernelIdeal.Fr.W49_main_arg11 m ρ c),
      (h c _ (Cert.KernelIdeal.Fr.mem_uc Cert.KernelIdeal.main_arg12 (by decide))).trans (Cert.KernelIdeal.Fr.W49_main_arg12 m ρ c),
      (h c _ (Cert.KernelIdeal.Fr.mem_uc Cert.KernelIdeal.main_arg13 (by decide))).trans (Cert.KernelIdeal.Fr.W49_main_arg13 m ρ c),
      (h c _ (Cert.KernelIdeal.Fr.mem_uc Cert.KernelIdeal.main_arg14 (by decide))).trans (Cert.KernelIdeal.Fr.W49_main_arg14 m ρ c),
      (h c _ (Cert.KernelIdeal.Fr.mem_uc Cert.KernelIdeal.main_arg15 (by decide))).trans (Cert.KernelIdeal.Fr.W49_main_arg15 m ρ c),
      (h c _ (Cert.KernelIdeal.Fr.mem_uc Cert.KernelIdeal.main_arg16 (by decide))).trans (Cert.KernelIdeal.Fr.W49_main_arg16 m ρ c),
      (h c _ (Cert.KernelIdeal.Fr.mem_uc Cert.KernelIdeal.main_arg17 (by decide))).trans (Cert.KernelIdeal.Fr.W49_main_arg17 m ρ c)⟩)
      (Cert.KernelIdeal.Fr.run_all m ρ)
  · refine (θ_run Cert.ReferenceIdeal.defs _ _).mono (fun r h c => ⟨(h c).1.trans ?_, (h c).2⟩) (Cert.RefChain.run m' ρ')
    obtain ⟨e0, e1, e2, e3, e4, e5, e6, e7, e8, e9, e10, e11, e12, e13, e14, e15, e16, e17⟩ := hagree c
    rw [e0, e1, e2, e3, e4, e5, e6, e7, e8, e9, e10, e11, e12, e13, e14, e15, e16, e17]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
